-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1000000x64 : Shape := ⟨2, ![1000000, 64]⟩
abbrev S100x64 : Shape := ⟨2, ![100, 64]⟩
abbrev S16384 : Shape := ⟨1, ![16384]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S100x64 : S_.BroadcastsInDim S100x64 (![] : Fin 0 → Fin S100x64.rank)
  reducesTo_S100x64_S_d0_1 : S100x64.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg3 : IVec S16384 32) (main_arg4 : IVec S16384 32) (main_v15 : IVec S_ 1) (main_c_5 : IVec S_ 32) : IVec S_ 1 :=
  let main_v16 : IVec S16384 32 := broadcastInDim S16384 ![] bcast_S_S16384 main_c_5
  let main_v17 : IVec S16384 1 := cmpi .sge main_arg3 main_v16
  let main_c_6 : IVec S_ 32 := constantI S_ 32 999999#32
  let main_v18 : IVec S16384 32 := broadcastInDim S16384 ![] bcast_S_S16384 main_c_6
  let main_v19 : IVec S16384 1 := cmpi .sle main_arg3 main_v18
  let main_v20 : IVec S16384 1 := andi main_v17 main_v19
  let main_c_7 : IVec S_ 1 := constantI S_ 1 1#1
  let main_v21 : IVec S_ 1 := (fun x v => Host.reduce IntOp.andi x v reducesTo_S16384_S_d0 h_S_) main_v20 main_c_7
  let main_v22 : IVec S_ 1 := andi main_v15 main_v21
  let main_c_8 : IVec S_ 32 := constantI S_ 32 0#32
  let main_v23 : IVec S16384 32 := broadcastInDim S16384 ![] bcast_S_S16384 main_c_8
  let main_v24 : IVec S16384 1 := cmpi .sge main_arg4 main_v23
  let main_c_9 : IVec S_ 32 := constantI S_ 32 99#32
  let main_v25 : IVec S16384 32 := broadcastInDim S16384 ![] bcast_S_S16384 main_c_9
  let main_v26 : IVec S16384 1 := cmpi .sle main_arg4 main_v25
  let main_v27 : IVec S16384 1 := andi main_v24 main_v26
  let main_c_10 : IVec S_ 1 := constantI S_ 1 1#1
  let main_v28 : IVec S_ 1 := (fun x v => Host.reduce IntOp.andi x v reducesTo_S16384_S_d0 h_S_) main_v27 main_c_10
  let main_v29 : IVec S_ 1 := andi main_v22 main_v28
  main_v29

def fn {F : FTy → Type} [FloatOps F] (main_arg0 : FVec F S1000000x64 .f32) (main_arg1 : FVec F S100x64 .f32) (main_arg2 : IVec S16384 32) (main_arg3 : IVec S16384 32) (main_arg4 : IVec S16384 32) : IVec S_ 1 :=
  let main_v0 : FVec F S1000000x64 .f32 := Host.absf main_arg0
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S100x64 .f32 := Host.absf main_arg1
  let main_cst_0 : FVec F S_ .f32 := constant S_ .f32 0x7F800000#32
  let main_v5 : FVec F S100x64 .f32 := broadcastInDim S100x64 ![] bcast_S_S100x64 main_cst_0
  let main_v6 : IVec S100x64 1 := cmpf .olt main_v4 main_v5
  let main_c_1 : IVec S_ 1 := constantI S_ 1 1#1
  let main_v7 : IVec S_ 1 := (fun x v => Host.reduce IntOp.andi x v reducesTo_S100x64_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg2 main_v9
  let main_c_3 : IVec S_ 32 := constantI S_ 32 999999#32
  let main_v11 : IVec S16384 32 := broadcastInDim S16384 ![] bcast_S_S16384 main_c_3
  let main_v12 : IVec S16384 1 := cmpi .sle main_arg2 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  let main_c_5 : IVec S_ 32 := constantI S_ 32 0#32
  fn_part1 (F := F) main_arg3 main_arg4 main_v15 main_c_5
-- ==== Kernel.lean ====
abbrev S1000000x64 : Shape := ⟨2, ![1000000, 64]⟩
abbrev S100x64 : Shape := ⟨2, ![100, 64]⟩
abbrev S16384 : Shape := ⟨1, ![16384]⟩
abbrev S64x1000000 : Shape := ⟨2, ![64, 1000000]⟩
abbrev S500000x128 : Shape := ⟨2, ![500000, 128]⟩
abbrev S64x16384 : Shape := ⟨2, ![64, 16384]⟩
abbrev S8192x128 : Shape := ⟨2, ![8192, 128]⟩
abbrev S16384x64 : Shape := ⟨2, ![16384, 64]⟩
abbrev S1024x16x64 : Shape := ⟨3, ![1024, 16, 64]⟩
abbrev S1024x8x64 : Shape := ⟨3, ![1024, 8, 64]⟩
abbrev S8192x64 : Shape := ⟨2, ![8192, 64]⟩
abbrev S50x128 : Shape := ⟨2, ![50, 128]⟩
abbrev S256 : Shape := ⟨1, ![256]⟩
abbrev S256x128 : Shape := ⟨2, ![256, 128]⟩
abbrev S64x256 : Shape := ⟨2, ![64, 256]⟩
abbrev S_ : Shape := ⟨0, ![]⟩
abbrev S16 : Shape := ⟨1, ![16]⟩
abbrev S1x16 : Shape := ⟨2, ![1, 16]⟩

abbrev nBuf : Table → Nat
  | .hbm => 10
  | .local .tc .vmem => 4
  | .local .scVector .vmem => 9
  | _ => 0

abbrev bufTy : (tb : Table) → Fin (nBuf tb) → BufTy
  | .hbm, ⟨0, _⟩ => ⟨S1000000x64, .f32⟩
  | .hbm, ⟨1, _⟩ => ⟨S100x64, .f32⟩
  | .hbm, ⟨2, _⟩ => ⟨S16384, .i32⟩
  | .hbm, ⟨3, _⟩ => ⟨S16384, .i32⟩
  | .hbm, ⟨4, _⟩ => ⟨S16384, .i32⟩
  | .hbm, ⟨5, _⟩ => ⟨S64x1000000, .f32⟩
  | .hbm, ⟨6, _⟩ => ⟨S500000x128, .f32⟩
  | .hbm, ⟨7, _⟩ => ⟨S50x128, .f32⟩
  | .hbm, ⟨8, _⟩ => ⟨S64x16384, .f32⟩
  | .hbm, ⟨9, _⟩ => ⟨S16384x64, .f32⟩
  | .local .tc .vmem, ⟨0, _⟩ => ⟨S64x16384, .f32⟩
  | .local .tc .vmem, ⟨1, _⟩ => ⟨S64x16384, .f32⟩
  | .local .tc .vmem, ⟨2, _⟩ => ⟨S8192x128, .f32⟩
  | .local .tc .vmem, ⟨3, _⟩ => ⟨S8192x128, .f32⟩
  | .local .scVector .vmem, ⟨0, _⟩ => ⟨S256, .i32⟩
  | .local .scVector .vmem, ⟨1, _⟩ => ⟨S256, .i32⟩
  | .local .scVector .vmem, ⟨2, _⟩ => ⟨S256, .i32⟩
  | .local .scVector .vmem, ⟨3, _⟩ => ⟨S256, .i32⟩
  | .local .scVector .vmem, ⟨4, _⟩ => ⟨S256, .i32⟩
  | .local .scVector .vmem, ⟨5, _⟩ => ⟨S256x128, .f32⟩
  | .local .scVector .vmem, ⟨6, _⟩ => ⟨S256x128, .f32⟩
  | .local .scVector .vmem, ⟨7, _⟩ => ⟨S50x128, .f32⟩
  | .local .scVector .vmem, ⟨8, _⟩ => ⟨S64x256, .f32⟩
  | _, _ => ⟨S1000000x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v1_scv : Ref sig .scVector := ⟨.hbm, 6, rfl⟩
abbrev main_v2_scv : Ref sig .scVector := ⟨.hbm, 7, rfl⟩
abbrev main_arg2_scv : Ref sig .scVector := ⟨.hbm, 2, rfl⟩
abbrev main_arg3_scv : Ref sig .scVector := ⟨.hbm, 3, rfl⟩
abbrev main_arg4_scv : Ref sig .scVector := ⟨.hbm, 4, rfl⟩
abbrev main_v3_scv : Ref sig .scVector := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc1_scratch8 : Ref sig .scVector := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![62], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v4 : BitVec 32 := Scalar.addi v2 c0_i32
  ![v4.toNat]
@[reducible] def k1_t1_loop : Scf.Loop 32 :=
  let c0_i32_1 : BitVec 32 := 0#32
  let c16_i32 : BitVec 32 := 16#32
  let v5 : BitVec 32 := Scalar.addi c0_i32_1 c16_i32
  let c1_i32 : BitVec 32 := 1#32
  ⟨c0_i32_1, v5, c1_i32⟩
def k1_off2 (k1_t1 : Fin k1_t1_loop.trips) : Fin 1 → Nat :=
  let c0_i32_1 : BitVec 32 := 0#32
  let c1_i32 : BitVec 32 := 1#32
  let arg19 : BitVec 32 := Scf.iv c0_i32_1 c1_i32 k1_t1
  let c16_i32_34 : BitVec 32 := 16#32
  let v18 : BitVec 32 := Scalar.muli arg19 c16_i32_34
  let v19 : Index := Scalar.indexCast v18
  ![v19.toNat]
@[reducible] def k1_t2_loop : Scf.Loop 32 :=
  let c0_i32_12 : BitVec 32 := 0#32
  let c16_i32_13 : BitVec 32 := 16#32
  let v10 : BitVec 32 := Scalar.addi c0_i32_12 c16_i32_13
  let c1_i32_14 : BitVec 32 := 1#32
  ⟨c0_i32_12, v10, c1_i32_14⟩
def k1_off3 (k1_t2 : Fin k1_t2_loop.trips) : Fin 1 → Nat :=
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v19 : Index := Scalar.indexCast v18
  ![v19.toNat]

def k1_chk1 (v41 : IVec S16 32) (v43 : IVec S16 32) : Prop :=
  (∀ a x, ((![v41, v43] : Fin 2 → IVec S16 32) a x).toNat < S256x128.size a)
instance k1_chk1.dec : ∀ (v41 : IVec S16 32) (v43 : IVec S16 32), Decidable (k1_chk1 v41 v43) := fun v41 v43 => decidable_of_iff' _ (Iff.of_eq (k1_chk1.eq_1 v41 v43))
theorem k1_idx1_inb : ∀ (v41 : IVec S16 32) (v43 : IVec S16 32) (k1_hw1 : k1_chk1 v41 v43), ∀ a x, ((![v41, v43] : Fin 2 → IVec S16 32) a x).toNat < S256x128.size a := fun v41 v43 k1_hw1 => k1_hw1

def k1_chk2 (v41 : IVec S16 32) (v46 : IVec S16 32) : Prop :=
  (∀ a x, ((![v41, v46] : Fin 2 → IVec S16 32) a x).toNat < S256x128.size a)
instance k1_chk2.dec : ∀ (v41 : IVec S16 32) (v46 : IVec S16 32), Decidable (k1_chk2 v41 v46) := fun v41 v46 => decidable_of_iff' _ (Iff.of_eq (k1_chk2.eq_1 v41 v46))
theorem k1_idx2_inb : ∀ (v41 : IVec S16 32) (v46 : IVec S16 32) (k1_hw2 : k1_chk2 v41 v46), ∀ a x, ((![v41, v46] : Fin 2 → IVec S16 32) a x).toNat < S256x128.size a := fun v41 v46 k1_hw2 => k1_hw2

def k1_chk3 (v34 : IVec S16 32) (v49 : IVec S16 32) : Prop :=
  (∀ a x, ((![v34, v49] : Fin 2 → IVec S16 32) a x).toNat < S50x128.size a)
instance k1_chk3.dec : ∀ (v34 : IVec S16 32) (v49 : IVec S16 32), Decidable (k1_chk3 v34 v49) := fun v34 v49 => decidable_of_iff' _ (Iff.of_eq (k1_chk3.eq_1 v34 v49))
theorem k1_idx3_inb : ∀ (v34 : IVec S16 32) (v49 : IVec S16 32) (k1_hw3 : k1_chk3 v34 v49), ∀ a x, ((![v34, v49] : Fin 2 → IVec S16 32) a x).toNat < S50x128.size a := fun v34 v49 k1_hw3 => k1_hw3
def k1_off4 (k1_t2 : Fin k1_t2_loop.trips) : Fin 2 → Nat :=
  let c0_i32_43 : BitVec 32 := 0#32
  let v54 : Index := Scalar.indexCast c0_i32_43
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v55 : Index := Scalar.indexCast v18
  ![0, v55.toNat]

def k1_chk4 (v41 : IVec S16 32) (v58 : IVec S16 32) : Prop :=
  (∀ a x, ((![v41, v58] : Fin 2 → IVec S16 32) a x).toNat < S256x128.size a)
instance k1_chk4.dec : ∀ (v41 : IVec S16 32) (v58 : IVec S16 32), Decidable (k1_chk4 v41 v58) := fun v41 v58 => decidable_of_iff' _ (Iff.of_eq (k1_chk4.eq_1 v41 v58))
theorem k1_idx4_inb : ∀ (v41 : IVec S16 32) (v58 : IVec S16 32) (k1_hw4 : k1_chk4 v41 v58), ∀ a x, ((![v41, v58] : Fin 2 → IVec S16 32) a x).toNat < S256x128.size a := fun v41 v58 k1_hw4 => k1_hw4

def k1_chk5 (v41 : IVec S16 32) (v61 : IVec S16 32) : Prop :=
  (∀ a x, ((![v41, v61] : Fin 2 → IVec S16 32) a x).toNat < S256x128.size a)
instance k1_chk5.dec : ∀ (v41 : IVec S16 32) (v61 : IVec S16 32), Decidable (k1_chk5 v41 v61) := fun v41 v61 => decidable_of_iff' _ (Iff.of_eq (k1_chk5.eq_1 v41 v61))
theorem k1_idx5_inb : ∀ (v41 : IVec S16 32) (v61 : IVec S16 32) (k1_hw5 : k1_chk5 v41 v61), ∀ a x, ((![v41, v61] : Fin 2 → IVec S16 32) a x).toNat < S256x128.size a := fun v41 v61 k1_hw5 => k1_hw5

def k1_chk6 (v34 : IVec S16 32) (v64 : IVec S16 32) : Prop :=
  (∀ a x, ((![v34, v64] : Fin 2 → IVec S16 32) a x).toNat < S50x128.size a)
instance k1_chk6.dec : ∀ (v34 : IVec S16 32) (v64 : IVec S16 32), Decidable (k1_chk6 v34 v64) := fun v34 v64 => decidable_of_iff' _ (Iff.of_eq (k1_chk6.eq_1 v34 v64))
theorem k1_idx6_inb : ∀ (v34 : IVec S16 32) (v64 : IVec S16 32) (k1_hw6 : k1_chk6 v34 v64), ∀ a x, ((![v34, v64] : Fin 2 → IVec S16 32) a x).toNat < S50x128.size a := fun v34 v64 k1_hw6 => k1_hw6
def k1_off5 (k1_t2 : Fin k1_t2_loop.trips) : Fin 2 → Nat :=
  let c1_i32_47 : BitVec 32 := 1#32
  let v69 : Index := Scalar.indexCast c1_i32_47
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v70 : Index := Scalar.indexCast v18
  ![1, v70.toNat]

def k1_chk7 (v41 : IVec S16 32) (v73 : IVec S16 32) : Prop :=
  (∀ a x, ((![v41, v73] : Fin 2 → IVec S16 32) a x).toNat < S256x128.size a)
instance k1_chk7.dec : ∀ (v41 : IVec S16 32) (v73 : IVec S16 32), Decidable (k1_chk7 v41 v73) := fun v41 v73 => decidable_of_iff' _ (Iff.of_eq (k1_chk7.eq_1 v41 v73))
theorem k1_idx7_inb : ∀ (v41 : IVec S16 32) (v73 : IVec S16 32) (k1_hw7 : k1_chk7 v41 v73), ∀ a x, ((![v41, v73] : Fin 2 → IVec S16 32) a x).toNat < S256x128.size a := fun v41 v73 k1_hw7 => k1_hw7

def k1_chk8 (v41 : IVec S16 32) (v76 : IVec S16 32) : Prop :=
  (∀ a x, ((![v41, v76] : Fin 2 → IVec S16 32) a x).toNat < S256x128.size a)
instance k1_chk8.dec : ∀ (v41 : IVec S16 32) (v76 : IVec S16 32), Decidable (k1_chk8 v41 v76) := fun v41 v76 => decidable_of_iff' _ (Iff.of_eq (k1_chk8.eq_1 v41 v76))
theorem k1_idx8_inb : ∀ (v41 : IVec S16 32) (v76 : IVec S16 32) (k1_hw8 : k1_chk8 v41 v76), ∀ a x, ((![v41, v76] : Fin 2 → IVec S16 32) a x).toNat < S256x128.size a := fun v41 v76 k1_hw8 => k1_hw8

def k1_chk9 (v34 : IVec S16 32) (v79 : IVec S16 32) : Prop :=
  (∀ a x, ((![v34, v79] : Fin 2 → IVec S16 32) a x).toNat < S50x128.size a)
instance k1_chk9.dec : ∀ (v34 : IVec S16 32) (v79 : IVec S16 32), Decidable (k1_chk9 v34 v79) := fun v34 v79 => decidable_of_iff' _ (Iff.of_eq (k1_chk9.eq_1 v34 v79))
theorem k1_idx9_inb : ∀ (v34 : IVec S16 32) (v79 : IVec S16 32) (k1_hw9 : k1_chk9 v34 v79), ∀ a x, ((![v34, v79] : Fin 2 → IVec S16 32) a x).toNat < S50x128.size a := fun v34 v79 k1_hw9 => k1_hw9
def k1_off6 (k1_t2 : Fin k1_t2_loop.trips) : Fin 2 → Nat :=
  let c2_i32_51 : BitVec 32 := 2#32
  let v84 : Index := Scalar.indexCast c2_i32_51
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v85 : Index := Scalar.indexCast v18
  ![2, v85.toNat]

def k1_chk10 (v41 : IVec S16 32) (v88 : IVec S16 32) : Prop :=
  (∀ a x, ((![v41, v88] : Fin 2 → IVec S16 32) a x).toNat < S256x128.size a)
instance k1_chk10.dec : ∀ (v41 : IVec S16 32) (v88 : IVec S16 32), Decidable (k1_chk10 v41 v88) := fun v41 v88 => decidable_of_iff' _ (Iff.of_eq (k1_chk10.eq_1 v41 v88))
theorem k1_idx10_inb : ∀ (v41 : IVec S16 32) (v88 : IVec S16 32) (k1_hw10 : k1_chk10 v41 v88), ∀ a x, ((![v41, v88] : Fin 2 → IVec S16 32) a x).toNat < S256x128.size a := fun v41 v88 k1_hw10 => k1_hw10

def k1_chk11 (v41 : IVec S16 32) (v91 : IVec S16 32) : Prop :=
  (∀ a x, ((![v41, v91] : Fin 2 → IVec S16 32) a x).toNat < S256x128.size a)
instance k1_chk11.dec : ∀ (v41 : IVec S16 32) (v91 : IVec S16 32), Decidable (k1_chk11 v41 v91) := fun v41 v91 => decidable_of_iff' _ (Iff.of_eq (k1_chk11.eq_1 v41 v91))
theorem k1_idx11_inb : ∀ (v41 : IVec S16 32) (v91 : IVec S16 32) (k1_hw11 : k1_chk11 v41 v91), ∀ a x, ((![v41, v91] : Fin 2 → IVec S16 32) a x).toNat < S256x128.size a := fun v41 v91 k1_hw11 => k1_hw11

def k1_chk12 (v34 : IVec S16 32) (v94 : IVec S16 32) : Prop :=
  (∀ a x, ((![v34, v94] : Fin 2 → IVec S16 32) a x).toNat < S50x128.size a)
instance k1_chk12.dec : ∀ (v34 : IVec S16 32) (v94 : IVec S16 32), Decidable (k1_chk12 v34 v94) := fun v34 v94 => decidable_of_iff' _ (Iff.of_eq (k1_chk12.eq_1 v34 v94))
theorem k1_idx12_inb : ∀ (v34 : IVec S16 32) (v94 : IVec S16 32) (k1_hw12 : k1_chk12 v34 v94), ∀ a x, ((![v34, v94] : Fin 2 → IVec S16 32) a x).toNat < S50x128.size a := fun v34 v94 k1_hw12 => k1_hw12
def k1_off7 (k1_t2 : Fin k1_t2_loop.trips) : Fin 2 → Nat :=
  let c3_i32_55 : BitVec 32 := 3#32
  let v99 : Index := Scalar.indexCast c3_i32_55
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v100 : Index := Scalar.indexCast v18
  ![3, v100.toNat]

def k1_chk13 (v41 : IVec S16 32) (v103 : IVec S16 32) : Prop :=
  (∀ a x, ((![v41, v103] : Fin 2 → IVec S16 32) a x).toNat < S256x128.size a)
instance k1_chk13.dec : ∀ (v41 : IVec S16 32) (v103 : IVec S16 32), Decidable (k1_chk13 v41 v103) := fun v41 v103 => decidable_of_iff' _ (Iff.of_eq (k1_chk13.eq_1 v41 v103))
theorem k1_idx13_inb : ∀ (v41 : IVec S16 32) (v103 : IVec S16 32) (k1_hw13 : k1_chk13 v41 v103), ∀ a x, ((![v41, v103] : Fin 2 → IVec S16 32) a x).toNat < S256x128.size a := fun v41 v103 k1_hw13 => k1_hw13

def k1_chk14 (v41 : IVec S16 32) (v106 : IVec S16 32) : Prop :=
  (∀ a x, ((![v41, v106] : Fin 2 → IVec S16 32) a x).toNat < S256x128.size a)
instance k1_chk14.dec : ∀ (v41 : IVec S16 32) (v106 : IVec S16 32), Decidable (k1_chk14 v41 v106) := fun v41 v106 => decidable_of_iff' _ (Iff.of_eq (k1_chk14.eq_1 v41 v106))
theorem k1_idx14_inb : ∀ (v41 : IVec S16 32) (v106 : IVec S16 32) (k1_hw14 : k1_chk14 v41 v106), ∀ a x, ((![v41, v106] : Fin 2 → IVec S16 32) a x).toNat < S256x128.size a := fun v41 v106 k1_hw14 => k1_hw14

def k1_chk15 (v34 : IVec S16 32) (v109 : IVec S16 32) : Prop :=
  (∀ a x, ((![v34, v109] : Fin 2 → IVec S16 32) a x).toNat < S50x128.size a)
instance k1_chk15.dec : ∀ (v34 : IVec S16 32) (v109 : IVec S16 32), Decidable (k1_chk15 v34 v109) := fun v34 v109 => decidable_of_iff' _ (Iff.of_eq (k1_chk15.eq_1 v34 v109))
theorem k1_idx15_inb : ∀ (v34 : IVec S16 32) (v109 : IVec S16 32) (k1_hw15 : k1_chk15 v34 v109), ∀ a x, ((![v34, v109] : Fin 2 → IVec S16 32) a x).toNat < S50x128.size a := fun v34 v109 k1_hw15 => k1_hw15
def k1_off8 (k1_t2 : Fin k1_t2_loop.trips) : Fin 2 → Nat :=
  let c4_i32_58 : BitVec 32 := 4#32
  let v114 : Index := Scalar.indexCast c4_i32_58
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v115 : Index := Scalar.indexCast v18
  ![4, v115.toNat]

def k1_chk16 (v41 : IVec S16 32) (v118 : IVec S16 32) : Prop :=
  (∀ a x, ((![v41, v118] : Fin 2 → IVec S16 32) a x).toNat < S256x128.size a)
instance k1_chk16.dec : ∀ (v41 : IVec S16 32) (v118 : IVec S16 32), Decidable (k1_chk16 v41 v118) := fun v41 v118 => decidable_of_iff' _ (Iff.of_eq (k1_chk16.eq_1 v41 v118))
theorem k1_idx16_inb : ∀ (v41 : IVec S16 32) (v118 : IVec S16 32) (k1_hw16 : k1_chk16 v41 v118), ∀ a x, ((![v41, v118] : Fin 2 → IVec S16 32) a x).toNat < S256x128.size a := fun v41 v118 k1_hw16 => k1_hw16

def k1_chk17 (v41 : IVec S16 32) (v121 : IVec S16 32) : Prop :=
  (∀ a x, ((![v41, v121] : Fin 2 → IVec S16 32) a x).toNat < S256x128.size a)
instance k1_chk17.dec : ∀ (v41 : IVec S16 32) (v121 : IVec S16 32), Decidable (k1_chk17 v41 v121) := fun v41 v121 => decidable_of_iff' _ (Iff.of_eq (k1_chk17.eq_1 v41 v121))
theorem k1_idx17_inb : ∀ (v41 : IVec S16 32) (v121 : IVec S16 32) (k1_hw17 : k1_chk17 v41 v121), ∀ a x, ((![v41, v121] : Fin 2 → IVec S16 32) a x).toNat < S256x128.size a := fun v41 v121 k1_hw17 => k1_hw17

def k1_chk18 (v34 : IVec S16 32) (v124 : IVec S16 32) : Prop :=
  (∀ a x, ((![v34, v124] : Fin 2 → IVec S16 32) a x).toNat < S50x128.size a)
instance k1_chk18.dec : ∀ (v34 : IVec S16 32) (v124 : IVec S16 32), Decidable (k1_chk18 v34 v124) := fun v34 v124 => decidable_of_iff' _ (Iff.of_eq (k1_chk18.eq_1 v34 v124))
theorem k1_idx18_inb : ∀ (v34 : IVec S16 32) (v124 : IVec S16 32) (k1_hw18 : k1_chk18 v34 v124), ∀ a x, ((![v34, v124] : Fin 2 → IVec S16 32) a x).toNat < S50x128.size a := fun v34 v124 k1_hw18 => k1_hw18
def k1_off9 (k1_t2 : Fin k1_t2_loop.trips) : Fin 2 → Nat :=
  let c5_i32_61 : BitVec 32 := 5#32
  let v129 : Index := Scalar.indexCast c5_i32_61
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v130 : Index := Scalar.indexCast v18
  ![5, v130.toNat]

def k1_chk19 (v41 : IVec S16 32) (v133 : IVec S16 32) : Prop :=
  (∀ a x, ((![v41, v133] : Fin 2 → IVec S16 32) a x).toNat < S256x128.size a)
instance k1_chk19.dec : ∀ (v41 : IVec S16 32) (v133 : IVec S16 32), Decidable (k1_chk19 v41 v133) := fun v41 v133 => decidable_of_iff' _ (Iff.of_eq (k1_chk19.eq_1 v41 v133))
theorem k1_idx19_inb : ∀ (v41 : IVec S16 32) (v133 : IVec S16 32) (k1_hw19 : k1_chk19 v41 v133), ∀ a x, ((![v41, v133] : Fin 2 → IVec S16 32) a x).toNat < S256x128.size a := fun v41 v133 k1_hw19 => k1_hw19

def k1_chk20 (v41 : IVec S16 32) (v136 : IVec S16 32) : Prop :=
  (∀ a x, ((![v41, v136] : Fin 2 → IVec S16 32) a x).toNat < S256x128.size a)
instance k1_chk20.dec : ∀ (v41 : IVec S16 32) (v136 : IVec S16 32), Decidable (k1_chk20 v41 v136) := fun v41 v136 => decidable_of_iff' _ (Iff.of_eq (k1_chk20.eq_1 v41 v136))
theorem k1_idx20_inb : ∀ (v41 : IVec S16 32) (v136 : IVec S16 32) (k1_hw20 : k1_chk20 v41 v136), ∀ a x, ((![v41, v136] : Fin 2 → IVec S16 32) a x).toNat < S256x128.size a := fun v41 v136 k1_hw20 => k1_hw20

def k1_chk21 (v34 : IVec S16 32) (v139 : IVec S16 32) : Prop :=
  (∀ a x, ((![v34, v139] : Fin 2 → IVec S16 32) a x).toNat < S50x128.size a)
instance k1_chk21.dec : ∀ (v34 : IVec S16 32) (v139 : IVec S16 32), Decidable (k1_chk21 v34 v139) := fun v34 v139 => decidable_of_iff' _ (Iff.of_eq (k1_chk21.eq_1 v34 v139))
theorem k1_idx21_inb : ∀ (v34 : IVec S16 32) (v139 : IVec S16 32) (k1_hw21 : k1_chk21 v34 v139), ∀ a x, ((![v34, v139] : Fin 2 → IVec S16 32) a x).toNat < S50x128.size a := fun v34 v139 k1_hw21 => k1_hw21
def k1_off10 (k1_t2 : Fin k1_t2_loop.trips) : Fin 2 → Nat :=
  let c6_i32_65 : BitVec 32 := 6#32
  let v144 : Index := Scalar.indexCast c6_i32_65
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v145 : Index := Scalar.indexCast v18
  ![6, v145.toNat]

def k1_chk22 (v41 : IVec S16 32) (v148 : IVec S16 32) : Prop :=
  (∀ a x, ((![v41, v148] : Fin 2 → IVec S16 32) a x).toNat < S256x128.size a)
instance k1_chk22.dec : ∀ (v41 : IVec S16 32) (v148 : IVec S16 32), Decidable (k1_chk22 v41 v148) := fun v41 v148 => decidable_of_iff' _ (Iff.of_eq (k1_chk22.eq_1 v41 v148))
theorem k1_idx22_inb : ∀ (v41 : IVec S16 32) (v148 : IVec S16 32) (k1_hw22 : k1_chk22 v41 v148), ∀ a x, ((![v41, v148] : Fin 2 → IVec S16 32) a x).toNat < S256x128.size a := fun v41 v148 k1_hw22 => k1_hw22

def k1_chk23 (v41 : IVec S16 32) (v151 : IVec S16 32) : Prop :=
  (∀ a x, ((![v41, v151] : Fin 2 → IVec S16 32) a x).toNat < S256x128.size a)
instance k1_chk23.dec : ∀ (v41 : IVec S16 32) (v151 : IVec S16 32), Decidable (k1_chk23 v41 v151) := fun v41 v151 => decidable_of_iff' _ (Iff.of_eq (k1_chk23.eq_1 v41 v151))
theorem k1_idx23_inb : ∀ (v41 : IVec S16 32) (v151 : IVec S16 32) (k1_hw23 : k1_chk23 v41 v151), ∀ a x, ((![v41, v151] : Fin 2 → IVec S16 32) a x).toNat < S256x128.size a := fun v41 v151 k1_hw23 => k1_hw23

def k1_chk24 (v34 : IVec S16 32) (v154 : IVec S16 32) : Prop :=
  (∀ a x, ((![v34, v154] : Fin 2 → IVec S16 32) a x).toNat < S50x128.size a)
instance k1_chk24.dec : ∀ (v34 : IVec S16 32) (v154 : IVec S16 32), Decidable (k1_chk24 v34 v154) := fun v34 v154 => decidable_of_iff' _ (Iff.of_eq (k1_chk24.eq_1 v34 v154))
theorem k1_idx24_inb : ∀ (v34 : IVec S16 32) (v154 : IVec S16 32) (k1_hw24 : k1_chk24 v34 v154), ∀ a x, ((![v34, v154] : Fin 2 → IVec S16 32) a x).toNat < S50x128.size a := fun v34 v154 k1_hw24 => k1_hw24
def k1_off11 (k1_t2 : Fin k1_t2_loop.trips) : Fin 2 → Nat :=
  let c7_i32_68 : BitVec 32 := 7#32
  let v159 : Index := Scalar.indexCast c7_i32_68
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v160 : Index := Scalar.indexCast v18
  ![7, v160.toNat]

def k1_chk25 (v41 : IVec S16 32) (v163 : IVec S16 32) : Prop :=
  (∀ a x, ((![v41, v163] : Fin 2 → IVec S16 32) a x).toNat < S256x128.size a)
instance k1_chk25.dec : ∀ (v41 : IVec S16 32) (v163 : IVec S16 32), Decidable (k1_chk25 v41 v163) := fun v41 v163 => decidable_of_iff' _ (Iff.of_eq (k1_chk25.eq_1 v41 v163))
theorem k1_idx25_inb : ∀ (v41 : IVec S16 32) (v163 : IVec S16 32) (k1_hw25 : k1_chk25 v41 v163), ∀ a x, ((![v41, v163] : Fin 2 → IVec S16 32) a x).toNat < S256x128.size a := fun v41 v163 k1_hw25 => k1_hw25

def k1_chk26 (v41 : IVec S16 32) (v166 : IVec S16 32) : Prop :=
  (∀ a x, ((![v41, v166] : Fin 2 → IVec S16 32) a x).toNat < S256x128.size a)
instance k1_chk26.dec : ∀ (v41 : IVec S16 32) (v166 : IVec S16 32), Decidable (k1_chk26 v41 v166) := fun v41 v166 => decidable_of_iff' _ (Iff.of_eq (k1_chk26.eq_1 v41 v166))
theorem k1_idx26_inb : ∀ (v41 : IVec S16 32) (v166 : IVec S16 32) (k1_hw26 : k1_chk26 v41 v166), ∀ a x, ((![v41, v166] : Fin 2 → IVec S16 32) a x).toNat < S256x128.size a := fun v41 v166 k1_hw26 => k1_hw26

def k1_chk27 (v34 : IVec S16 32) (v169 : IVec S16 32) : Prop :=
  (∀ a x, ((![v34, v169] : Fin 2 → IVec S16 32) a x).toNat < S50x128.size a)
instance k1_chk27.dec : ∀ (v34 : IVec S16 32) (v169 : IVec S16 32), Decidable (k1_chk27 v34 v169) := fun v34 v169 => decidable_of_iff' _ (Iff.of_eq (k1_chk27.eq_1 v34 v169))
theorem k1_idx27_inb : ∀ (v34 : IVec S16 32) (v169 : IVec S16 32) (k1_hw27 : k1_chk27 v34 v169), ∀ a x, ((![v34, v169] : Fin 2 → IVec S16 32) a x).toNat < S50x128.size a := fun v34 v169 k1_hw27 => k1_hw27
def k1_off12 (k1_t2 : Fin k1_t2_loop.trips) : Fin 2 → Nat :=
  let c8_i32_72 : BitVec 32 := 8#32
  let v174 : Index := Scalar.indexCast c8_i32_72
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v175 : Index := Scalar.indexCast v18
  ![8, v175.toNat]

def k1_chk28 (v41 : IVec S16 32) (v178 : IVec S16 32) : Prop :=
  (∀ a x, ((![v41, v178] : Fin 2 → IVec S16 32) a x).toNat < S256x128.size a)
instance k1_chk28.dec : ∀ (v41 : IVec S16 32) (v178 : IVec S16 32), Decidable (k1_chk28 v41 v178) := fun v41 v178 => decidable_of_iff' _ (Iff.of_eq (k1_chk28.eq_1 v41 v178))
theorem k1_idx28_inb : ∀ (v41 : IVec S16 32) (v178 : IVec S16 32) (k1_hw28 : k1_chk28 v41 v178), ∀ a x, ((![v41, v178] : Fin 2 → IVec S16 32) a x).toNat < S256x128.size a := fun v41 v178 k1_hw28 => k1_hw28

def k1_chk29 (v41 : IVec S16 32) (v181 : IVec S16 32) : Prop :=
  (∀ a x, ((![v41, v181] : Fin 2 → IVec S16 32) a x).toNat < S256x128.size a)
instance k1_chk29.dec : ∀ (v41 : IVec S16 32) (v181 : IVec S16 32), Decidable (k1_chk29 v41 v181) := fun v41 v181 => decidable_of_iff' _ (Iff.of_eq (k1_chk29.eq_1 v41 v181))
theorem k1_idx29_inb : ∀ (v41 : IVec S16 32) (v181 : IVec S16 32) (k1_hw29 : k1_chk29 v41 v181), ∀ a x, ((![v41, v181] : Fin 2 → IVec S16 32) a x).toNat < S256x128.size a := fun v41 v181 k1_hw29 => k1_hw29

def k1_chk30 (v34 : IVec S16 32) (v184 : IVec S16 32) : Prop :=
  (∀ a x, ((![v34, v184] : Fin 2 → IVec S16 32) a x).toNat < S50x128.size a)
instance k1_chk30.dec : ∀ (v34 : IVec S16 32) (v184 : IVec S16 32), Decidable (k1_chk30 v34 v184) := fun v34 v184 => decidable_of_iff' _ (Iff.of_eq (k1_chk30.eq_1 v34 v184))
theorem k1_idx30_inb : ∀ (v34 : IVec S16 32) (v184 : IVec S16 32) (k1_hw30 : k1_chk30 v34 v184), ∀ a x, ((![v34, v184] : Fin 2 → IVec S16 32) a x).toNat < S50x128.size a := fun v34 v184 k1_hw30 => k1_hw30
def k1_off13 (k1_t2 : Fin k1_t2_loop.trips) : Fin 2 → Nat :=
  let c9_i32_75 : BitVec 32 := 9#32
  let v189 : Index := Scalar.indexCast c9_i32_75
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v190 : Index := Scalar.indexCast v18
  ![9, v190.toNat]

def k1_chk31 (v41 : IVec S16 32) (v193 : IVec S16 32) : Prop :=
  (∀ a x, ((![v41, v193] : Fin 2 → IVec S16 32) a x).toNat < S256x128.size a)
instance k1_chk31.dec : ∀ (v41 : IVec S16 32) (v193 : IVec S16 32), Decidable (k1_chk31 v41 v193) := fun v41 v193 => decidable_of_iff' _ (Iff.of_eq (k1_chk31.eq_1 v41 v193))
theorem k1_idx31_inb : ∀ (v41 : IVec S16 32) (v193 : IVec S16 32) (k1_hw31 : k1_chk31 v41 v193), ∀ a x, ((![v41, v193] : Fin 2 → IVec S16 32) a x).toNat < S256x128.size a := fun v41 v193 k1_hw31 => k1_hw31

def k1_chk32 (v41 : IVec S16 32) (v196 : IVec S16 32) : Prop :=
  (∀ a x, ((![v41, v196] : Fin 2 → IVec S16 32) a x).toNat < S256x128.size a)
instance k1_chk32.dec : ∀ (v41 : IVec S16 32) (v196 : IVec S16 32), Decidable (k1_chk32 v41 v196) := fun v41 v196 => decidable_of_iff' _ (Iff.of_eq (k1_chk32.eq_1 v41 v196))
theorem k1_idx32_inb : ∀ (v41 : IVec S16 32) (v196 : IVec S16 32) (k1_hw32 : k1_chk32 v41 v196), ∀ a x, ((![v41, v196] : Fin 2 → IVec S16 32) a x).toNat < S256x128.size a := fun v41 v196 k1_hw32 => k1_hw32

def k1_chk33 (v34 : IVec S16 32) (v199 : IVec S16 32) : Prop :=
  (∀ a x, ((![v34, v199] : Fin 2 → IVec S16 32) a x).toNat < S50x128.size a)
instance k1_chk33.dec : ∀ (v34 : IVec S16 32) (v199 : IVec S16 32), Decidable (k1_chk33 v34 v199) := fun v34 v199 => decidable_of_iff' _ (Iff.of_eq (k1_chk33.eq_1 v34 v199))
theorem k1_idx33_inb : ∀ (v34 : IVec S16 32) (v199 : IVec S16 32) (k1_hw33 : k1_chk33 v34 v199), ∀ a x, ((![v34, v199] : Fin 2 → IVec S16 32) a x).toNat < S50x128.size a := fun v34 v199 k1_hw33 => k1_hw33
def k1_off14 (k1_t2 : Fin k1_t2_loop.trips) : Fin 2 → Nat :=
  let c10_i32_78 : BitVec 32 := 10#32
  let v204 : Index := Scalar.indexCast c10_i32_78
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v205 : Index := Scalar.indexCast v18
  ![10, v205.toNat]

def k1_chk34 (v41 : IVec S16 32) (v208 : IVec S16 32) : Prop :=
  (∀ a x, ((![v41, v208] : Fin 2 → IVec S16 32) a x).toNat < S256x128.size a)
instance k1_chk34.dec : ∀ (v41 : IVec S16 32) (v208 : IVec S16 32), Decidable (k1_chk34 v41 v208) := fun v41 v208 => decidable_of_iff' _ (Iff.of_eq (k1_chk34.eq_1 v41 v208))
theorem k1_idx34_inb : ∀ (v41 : IVec S16 32) (v208 : IVec S16 32) (k1_hw34 : k1_chk34 v41 v208), ∀ a x, ((![v41, v208] : Fin 2 → IVec S16 32) a x).toNat < S256x128.size a := fun v41 v208 k1_hw34 => k1_hw34

def k1_chk35 (v41 : IVec S16 32) (v211 : IVec S16 32) : Prop :=
  (∀ a x, ((![v41, v211] : Fin 2 → IVec S16 32) a x).toNat < S256x128.size a)
instance k1_chk35.dec : ∀ (v41 : IVec S16 32) (v211 : IVec S16 32), Decidable (k1_chk35 v41 v211) := fun v41 v211 => decidable_of_iff' _ (Iff.of_eq (k1_chk35.eq_1 v41 v211))
theorem k1_idx35_inb : ∀ (v41 : IVec S16 32) (v211 : IVec S16 32) (k1_hw35 : k1_chk35 v41 v211), ∀ a x, ((![v41, v211] : Fin 2 → IVec S16 32) a x).toNat < S256x128.size a := fun v41 v211 k1_hw35 => k1_hw35

def k1_chk36 (v34 : IVec S16 32) (v214 : IVec S16 32) : Prop :=
  (∀ a x, ((![v34, v214] : Fin 2 → IVec S16 32) a x).toNat < S50x128.size a)
instance k1_chk36.dec : ∀ (v34 : IVec S16 32) (v214 : IVec S16 32), Decidable (k1_chk36 v34 v214) := fun v34 v214 => decidable_of_iff' _ (Iff.of_eq (k1_chk36.eq_1 v34 v214))
theorem k1_idx36_inb : ∀ (v34 : IVec S16 32) (v214 : IVec S16 32) (k1_hw36 : k1_chk36 v34 v214), ∀ a x, ((![v34, v214] : Fin 2 → IVec S16 32) a x).toNat < S50x128.size a := fun v34 v214 k1_hw36 => k1_hw36
def k1_off15 (k1_t2 : Fin k1_t2_loop.trips) : Fin 2 → Nat :=
  let c11_i32_81 : BitVec 32 := 11#32
  let v219 : Index := Scalar.indexCast c11_i32_81
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v220 : Index := Scalar.indexCast v18
  ![11, v220.toNat]

def k1_chk37 (v41 : IVec S16 32) (v223 : IVec S16 32) : Prop :=
  (∀ a x, ((![v41, v223] : Fin 2 → IVec S16 32) a x).toNat < S256x128.size a)
instance k1_chk37.dec : ∀ (v41 : IVec S16 32) (v223 : IVec S16 32), Decidable (k1_chk37 v41 v223) := fun v41 v223 => decidable_of_iff' _ (Iff.of_eq (k1_chk37.eq_1 v41 v223))
theorem k1_idx37_inb : ∀ (v41 : IVec S16 32) (v223 : IVec S16 32) (k1_hw37 : k1_chk37 v41 v223), ∀ a x, ((![v41, v223] : Fin 2 → IVec S16 32) a x).toNat < S256x128.size a := fun v41 v223 k1_hw37 => k1_hw37

def k1_chk38 (v41 : IVec S16 32) (v226 : IVec S16 32) : Prop :=
  (∀ a x, ((![v41, v226] : Fin 2 → IVec S16 32) a x).toNat < S256x128.size a)
instance k1_chk38.dec : ∀ (v41 : IVec S16 32) (v226 : IVec S16 32), Decidable (k1_chk38 v41 v226) := fun v41 v226 => decidable_of_iff' _ (Iff.of_eq (k1_chk38.eq_1 v41 v226))
theorem k1_idx38_inb : ∀ (v41 : IVec S16 32) (v226 : IVec S16 32) (k1_hw38 : k1_chk38 v41 v226), ∀ a x, ((![v41, v226] : Fin 2 → IVec S16 32) a x).toNat < S256x128.size a := fun v41 v226 k1_hw38 => k1_hw38

def k1_chk39 (v34 : IVec S16 32) (v229 : IVec S16 32) : Prop :=
  (∀ a x, ((![v34, v229] : Fin 2 → IVec S16 32) a x).toNat < S50x128.size a)
instance k1_chk39.dec : ∀ (v34 : IVec S16 32) (v229 : IVec S16 32), Decidable (k1_chk39 v34 v229) := fun v34 v229 => decidable_of_iff' _ (Iff.of_eq (k1_chk39.eq_1 v34 v229))
theorem k1_idx39_inb : ∀ (v34 : IVec S16 32) (v229 : IVec S16 32) (k1_hw39 : k1_chk39 v34 v229), ∀ a x, ((![v34, v229] : Fin 2 → IVec S16 32) a x).toNat < S50x128.size a := fun v34 v229 k1_hw39 => k1_hw39
def k1_off16 (k1_t2 : Fin k1_t2_loop.trips) : Fin 2 → Nat :=
  let c12_i32_84 : BitVec 32 := 12#32
  let v234 : Index := Scalar.indexCast c12_i32_84
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v235 : Index := Scalar.indexCast v18
  ![12, v235.toNat]

def k1_chk40 (v41 : IVec S16 32) (v238 : IVec S16 32) : Prop :=
  (∀ a x, ((![v41, v238] : Fin 2 → IVec S16 32) a x).toNat < S256x128.size a)
instance k1_chk40.dec : ∀ (v41 : IVec S16 32) (v238 : IVec S16 32), Decidable (k1_chk40 v41 v238) := fun v41 v238 => decidable_of_iff' _ (Iff.of_eq (k1_chk40.eq_1 v41 v238))
theorem k1_idx40_inb : ∀ (v41 : IVec S16 32) (v238 : IVec S16 32) (k1_hw40 : k1_chk40 v41 v238), ∀ a x, ((![v41, v238] : Fin 2 → IVec S16 32) a x).toNat < S256x128.size a := fun v41 v238 k1_hw40 => k1_hw40

def k1_chk41 (v41 : IVec S16 32) (v241 : IVec S16 32) : Prop :=
  (∀ a x, ((![v41, v241] : Fin 2 → IVec S16 32) a x).toNat < S256x128.size a)
instance k1_chk41.dec : ∀ (v41 : IVec S16 32) (v241 : IVec S16 32), Decidable (k1_chk41 v41 v241) := fun v41 v241 => decidable_of_iff' _ (Iff.of_eq (k1_chk41.eq_1 v41 v241))
theorem k1_idx41_inb : ∀ (v41 : IVec S16 32) (v241 : IVec S16 32) (k1_hw41 : k1_chk41 v41 v241), ∀ a x, ((![v41, v241] : Fin 2 → IVec S16 32) a x).toNat < S256x128.size a := fun v41 v241 k1_hw41 => k1_hw41

def k1_chk42 (v34 : IVec S16 32) (v244 : IVec S16 32) : Prop :=
  (∀ a x, ((![v34, v244] : Fin 2 → IVec S16 32) a x).toNat < S50x128.size a)
instance k1_chk42.dec : ∀ (v34 : IVec S16 32) (v244 : IVec S16 32), Decidable (k1_chk42 v34 v244) := fun v34 v244 => decidable_of_iff' _ (Iff.of_eq (k1_chk42.eq_1 v34 v244))
theorem k1_idx42_inb : ∀ (v34 : IVec S16 32) (v244 : IVec S16 32) (k1_hw42 : k1_chk42 v34 v244), ∀ a x, ((![v34, v244] : Fin 2 → IVec S16 32) a x).toNat < S50x128.size a := fun v34 v244 k1_hw42 => k1_hw42
def k1_off17 (k1_t2 : Fin k1_t2_loop.trips) : Fin 2 → Nat :=
  let c13_i32_87 : BitVec 32 := 13#32
  let v249 : Index := Scalar.indexCast c13_i32_87
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v250 : Index := Scalar.indexCast v18
  ![13, v250.toNat]

def k1_chk43 (v41 : IVec S16 32) (v253 : IVec S16 32) : Prop :=
  (∀ a x, ((![v41, v253] : Fin 2 → IVec S16 32) a x).toNat < S256x128.size a)
instance k1_chk43.dec : ∀ (v41 : IVec S16 32) (v253 : IVec S16 32), Decidable (k1_chk43 v41 v253) := fun v41 v253 => decidable_of_iff' _ (Iff.of_eq (k1_chk43.eq_1 v41 v253))
theorem k1_idx43_inb : ∀ (v41 : IVec S16 32) (v253 : IVec S16 32) (k1_hw43 : k1_chk43 v41 v253), ∀ a x, ((![v41, v253] : Fin 2 → IVec S16 32) a x).toNat < S256x128.size a := fun v41 v253 k1_hw43 => k1_hw43

def k1_chk44 (v41 : IVec S16 32) (v256 : IVec S16 32) : Prop :=
  (∀ a x, ((![v41, v256] : Fin 2 → IVec S16 32) a x).toNat < S256x128.size a)
instance k1_chk44.dec : ∀ (v41 : IVec S16 32) (v256 : IVec S16 32), Decidable (k1_chk44 v41 v256) := fun v41 v256 => decidable_of_iff' _ (Iff.of_eq (k1_chk44.eq_1 v41 v256))
theorem k1_idx44_inb : ∀ (v41 : IVec S16 32) (v256 : IVec S16 32) (k1_hw44 : k1_chk44 v41 v256), ∀ a x, ((![v41, v256] : Fin 2 → IVec S16 32) a x).toNat < S256x128.size a := fun v41 v256 k1_hw44 => k1_hw44

def k1_chk45 (v34 : IVec S16 32) (v259 : IVec S16 32) : Prop :=
  (∀ a x, ((![v34, v259] : Fin 2 → IVec S16 32) a x).toNat < S50x128.size a)
instance k1_chk45.dec : ∀ (v34 : IVec S16 32) (v259 : IVec S16 32), Decidable (k1_chk45 v34 v259) := fun v34 v259 => decidable_of_iff' _ (Iff.of_eq (k1_chk45.eq_1 v34 v259))
theorem k1_idx45_inb : ∀ (v34 : IVec S16 32) (v259 : IVec S16 32) (k1_hw45 : k1_chk45 v34 v259), ∀ a x, ((![v34, v259] : Fin 2 → IVec S16 32) a x).toNat < S50x128.size a := fun v34 v259 k1_hw45 => k1_hw45
def k1_off18 (k1_t2 : Fin k1_t2_loop.trips) : Fin 2 → Nat :=
  let c14_i32_90 : BitVec 32 := 14#32
  let v264 : Index := Scalar.indexCast c14_i32_90
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v265 : Index := Scalar.indexCast v18
  ![14, v265.toNat]

def k1_chk46 (v41 : IVec S16 32) (v268 : IVec S16 32) : Prop :=
  (∀ a x, ((![v41, v268] : Fin 2 → IVec S16 32) a x).toNat < S256x128.size a)
instance k1_chk46.dec : ∀ (v41 : IVec S16 32) (v268 : IVec S16 32), Decidable (k1_chk46 v41 v268) := fun v41 v268 => decidable_of_iff' _ (Iff.of_eq (k1_chk46.eq_1 v41 v268))
theorem k1_idx46_inb : ∀ (v41 : IVec S16 32) (v268 : IVec S16 32) (k1_hw46 : k1_chk46 v41 v268), ∀ a x, ((![v41, v268] : Fin 2 → IVec S16 32) a x).toNat < S256x128.size a := fun v41 v268 k1_hw46 => k1_hw46

def k1_chk47 (v41 : IVec S16 32) (v271 : IVec S16 32) : Prop :=
  (∀ a x, ((![v41, v271] : Fin 2 → IVec S16 32) a x).toNat < S256x128.size a)
instance k1_chk47.dec : ∀ (v41 : IVec S16 32) (v271 : IVec S16 32), Decidable (k1_chk47 v41 v271) := fun v41 v271 => decidable_of_iff' _ (Iff.of_eq (k1_chk47.eq_1 v41 v271))
theorem k1_idx47_inb : ∀ (v41 : IVec S16 32) (v271 : IVec S16 32) (k1_hw47 : k1_chk47 v41 v271), ∀ a x, ((![v41, v271] : Fin 2 → IVec S16 32) a x).toNat < S256x128.size a := fun v41 v271 k1_hw47 => k1_hw47

def k1_chk48 (v34 : IVec S16 32) (v274 : IVec S16 32) : Prop :=
  (∀ a x, ((![v34, v274] : Fin 2 → IVec S16 32) a x).toNat < S50x128.size a)
instance k1_chk48.dec : ∀ (v34 : IVec S16 32) (v274 : IVec S16 32), Decidable (k1_chk48 v34 v274) := fun v34 v274 => decidable_of_iff' _ (Iff.of_eq (k1_chk48.eq_1 v34 v274))
theorem k1_idx48_inb : ∀ (v34 : IVec S16 32) (v274 : IVec S16 32) (k1_hw48 : k1_chk48 v34 v274), ∀ a x, ((![v34, v274] : Fin 2 → IVec S16 32) a x).toNat < S50x128.size a := fun v34 v274 k1_hw48 => k1_hw48
def k1_off19 (k1_t2 : Fin k1_t2_loop.trips) : Fin 2 → Nat :=
  let c15_i32_93 : BitVec 32 := 15#32
  let v279 : Index := Scalar.indexCast c15_i32_93
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v280 : Index := Scalar.indexCast v18
  ![15, v280.toNat]

def k1_chk49 (v41 : IVec S16 32) (v283 : IVec S16 32) : Prop :=
  (∀ a x, ((![v41, v283] : Fin 2 → IVec S16 32) a x).toNat < S256x128.size a)
instance k1_chk49.dec : ∀ (v41 : IVec S16 32) (v283 : IVec S16 32), Decidable (k1_chk49 v41 v283) := fun v41 v283 => decidable_of_iff' _ (Iff.of_eq (k1_chk49.eq_1 v41 v283))
theorem k1_idx49_inb : ∀ (v41 : IVec S16 32) (v283 : IVec S16 32) (k1_hw49 : k1_chk49 v41 v283), ∀ a x, ((![v41, v283] : Fin 2 → IVec S16 32) a x).toNat < S256x128.size a := fun v41 v283 k1_hw49 => k1_hw49

def k1_chk50 (v41 : IVec S16 32) (v286 : IVec S16 32) : Prop :=
  (∀ a x, ((![v41, v286] : Fin 2 → IVec S16 32) a x).toNat < S256x128.size a)
instance k1_chk50.dec : ∀ (v41 : IVec S16 32) (v286 : IVec S16 32), Decidable (k1_chk50 v41 v286) := fun v41 v286 => decidable_of_iff' _ (Iff.of_eq (k1_chk50.eq_1 v41 v286))
theorem k1_idx50_inb : ∀ (v41 : IVec S16 32) (v286 : IVec S16 32) (k1_hw50 : k1_chk50 v41 v286), ∀ a x, ((![v41, v286] : Fin 2 → IVec S16 32) a x).toNat < S256x128.size a := fun v41 v286 k1_hw50 => k1_hw50

def k1_chk51 (v34 : IVec S16 32) (v289 : IVec S16 32) : Prop :=
  (∀ a x, ((![v34, v289] : Fin 2 → IVec S16 32) a x).toNat < S50x128.size a)
instance k1_chk51.dec : ∀ (v34 : IVec S16 32) (v289 : IVec S16 32), Decidable (k1_chk51 v34 v289) := fun v34 v289 => decidable_of_iff' _ (Iff.of_eq (k1_chk51.eq_1 v34 v289))
theorem k1_idx51_inb : ∀ (v34 : IVec S16 32) (v289 : IVec S16 32) (k1_hw51 : k1_chk51 v34 v289), ∀ a x, ((![v34, v289] : Fin 2 → IVec S16 32) a x).toNat < S50x128.size a := fun v34 v289 k1_hw51 => k1_hw51
def k1_off20 (k1_t2 : Fin k1_t2_loop.trips) : Fin 2 → Nat :=
  let c16_i32_97 : BitVec 32 := 16#32
  let v294 : Index := Scalar.indexCast c16_i32_97
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v295 : Index := Scalar.indexCast v18
  ![16, v295.toNat]

def k1_chk52 (v41 : IVec S16 32) (v298 : IVec S16 32) : Prop :=
  (∀ a x, ((![v41, v298] : Fin 2 → IVec S16 32) a x).toNat < S256x128.size a)
instance k1_chk52.dec : ∀ (v41 : IVec S16 32) (v298 : IVec S16 32), Decidable (k1_chk52 v41 v298) := fun v41 v298 => decidable_of_iff' _ (Iff.of_eq (k1_chk52.eq_1 v41 v298))
theorem k1_idx52_inb : ∀ (v41 : IVec S16 32) (v298 : IVec S16 32) (k1_hw52 : k1_chk52 v41 v298), ∀ a x, ((![v41, v298] : Fin 2 → IVec S16 32) a x).toNat < S256x128.size a := fun v41 v298 k1_hw52 => k1_hw52

def k1_chk53 (v41 : IVec S16 32) (v301 : IVec S16 32) : Prop :=
  (∀ a x, ((![v41, v301] : Fin 2 → IVec S16 32) a x).toNat < S256x128.size a)
instance k1_chk53.dec : ∀ (v41 : IVec S16 32) (v301 : IVec S16 32), Decidable (k1_chk53 v41 v301) := fun v41 v301 => decidable_of_iff' _ (Iff.of_eq (k1_chk53.eq_1 v41 v301))
theorem k1_idx53_inb : ∀ (v41 : IVec S16 32) (v301 : IVec S16 32) (k1_hw53 : k1_chk53 v41 v301), ∀ a x, ((![v41, v301] : Fin 2 → IVec S16 32) a x).toNat < S256x128.size a := fun v41 v301 k1_hw53 => k1_hw53

def k1_chk54 (v34 : IVec S16 32) (v304 : IVec S16 32) : Prop :=
  (∀ a x, ((![v34, v304] : Fin 2 → IVec S16 32) a x).toNat < S50x128.size a)
instance k1_chk54.dec : ∀ (v34 : IVec S16 32) (v304 : IVec S16 32), Decidable (k1_chk54 v34 v304) := fun v34 v304 => decidable_of_iff' _ (Iff.of_eq (k1_chk54.eq_1 v34 v304))
theorem k1_idx54_inb : ∀ (v34 : IVec S16 32) (v304 : IVec S16 32) (k1_hw54 : k1_chk54 v34 v304), ∀ a x, ((![v34, v304] : Fin 2 → IVec S16 32) a x).toNat < S50x128.size a := fun v34 v304 k1_hw54 => k1_hw54
def k1_off21 (k1_t2 : Fin k1_t2_loop.trips) : Fin 2 → Nat :=
  let c17_i32_100 : BitVec 32 := 17#32
  let v309 : Index := Scalar.indexCast c17_i32_100
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v310 : Index := Scalar.indexCast v18
  ![17, v310.toNat]

def k1_chk55 (v41 : IVec S16 32) (v313 : IVec S16 32) : Prop :=
  (∀ a x, ((![v41, v313] : Fin 2 → IVec S16 32) a x).toNat < S256x128.size a)
instance k1_chk55.dec : ∀ (v41 : IVec S16 32) (v313 : IVec S16 32), Decidable (k1_chk55 v41 v313) := fun v41 v313 => decidable_of_iff' _ (Iff.of_eq (k1_chk55.eq_1 v41 v313))
theorem k1_idx55_inb : ∀ (v41 : IVec S16 32) (v313 : IVec S16 32) (k1_hw55 : k1_chk55 v41 v313), ∀ a x, ((![v41, v313] : Fin 2 → IVec S16 32) a x).toNat < S256x128.size a := fun v41 v313 k1_hw55 => k1_hw55

def k1_chk56 (v41 : IVec S16 32) (v316 : IVec S16 32) : Prop :=
  (∀ a x, ((![v41, v316] : Fin 2 → IVec S16 32) a x).toNat < S256x128.size a)
instance k1_chk56.dec : ∀ (v41 : IVec S16 32) (v316 : IVec S16 32), Decidable (k1_chk56 v41 v316) := fun v41 v316 => decidable_of_iff' _ (Iff.of_eq (k1_chk56.eq_1 v41 v316))
theorem k1_idx56_inb : ∀ (v41 : IVec S16 32) (v316 : IVec S16 32) (k1_hw56 : k1_chk56 v41 v316), ∀ a x, ((![v41, v316] : Fin 2 → IVec S16 32) a x).toNat < S256x128.size a := fun v41 v316 k1_hw56 => k1_hw56

def k1_chk57 (v34 : IVec S16 32) (v319 : IVec S16 32) : Prop :=
  (∀ a x, ((![v34, v319] : Fin 2 → IVec S16 32) a x).toNat < S50x128.size a)
instance k1_chk57.dec : ∀ (v34 : IVec S16 32) (v319 : IVec S16 32), Decidable (k1_chk57 v34 v319) := fun v34 v319 => decidable_of_iff' _ (Iff.of_eq (k1_chk57.eq_1 v34 v319))
theorem k1_idx57_inb : ∀ (v34 : IVec S16 32) (v319 : IVec S16 32) (k1_hw57 : k1_chk57 v34 v319), ∀ a x, ((![v34, v319] : Fin 2 → IVec S16 32) a x).toNat < S50x128.size a := fun v34 v319 k1_hw57 => k1_hw57
def k1_off22 (k1_t2 : Fin k1_t2_loop.trips) : Fin 2 → Nat :=
  let c18_i32_103 : BitVec 32 := 18#32
  let v324 : Index := Scalar.indexCast c18_i32_103
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v325 : Index := Scalar.indexCast v18
  ![18, v325.toNat]

def k1_chk58 (v41 : IVec S16 32) (v328 : IVec S16 32) : Prop :=
  (∀ a x, ((![v41, v328] : Fin 2 → IVec S16 32) a x).toNat < S256x128.size a)
instance k1_chk58.dec : ∀ (v41 : IVec S16 32) (v328 : IVec S16 32), Decidable (k1_chk58 v41 v328) := fun v41 v328 => decidable_of_iff' _ (Iff.of_eq (k1_chk58.eq_1 v41 v328))
theorem k1_idx58_inb : ∀ (v41 : IVec S16 32) (v328 : IVec S16 32) (k1_hw58 : k1_chk58 v41 v328), ∀ a x, ((![v41, v328] : Fin 2 → IVec S16 32) a x).toNat < S256x128.size a := fun v41 v328 k1_hw58 => k1_hw58

def k1_chk59 (v41 : IVec S16 32) (v331 : IVec S16 32) : Prop :=
  (∀ a x, ((![v41, v331] : Fin 2 → IVec S16 32) a x).toNat < S256x128.size a)
instance k1_chk59.dec : ∀ (v41 : IVec S16 32) (v331 : IVec S16 32), Decidable (k1_chk59 v41 v331) := fun v41 v331 => decidable_of_iff' _ (Iff.of_eq (k1_chk59.eq_1 v41 v331))
theorem k1_idx59_inb : ∀ (v41 : IVec S16 32) (v331 : IVec S16 32) (k1_hw59 : k1_chk59 v41 v331), ∀ a x, ((![v41, v331] : Fin 2 → IVec S16 32) a x).toNat < S256x128.size a := fun v41 v331 k1_hw59 => k1_hw59

def k1_chk60 (v34 : IVec S16 32) (v334 : IVec S16 32) : Prop :=
  (∀ a x, ((![v34, v334] : Fin 2 → IVec S16 32) a x).toNat < S50x128.size a)
instance k1_chk60.dec : ∀ (v34 : IVec S16 32) (v334 : IVec S16 32), Decidable (k1_chk60 v34 v334) := fun v34 v334 => decidable_of_iff' _ (Iff.of_eq (k1_chk60.eq_1 v34 v334))
theorem k1_idx60_inb : ∀ (v34 : IVec S16 32) (v334 : IVec S16 32) (k1_hw60 : k1_chk60 v34 v334), ∀ a x, ((![v34, v334] : Fin 2 → IVec S16 32) a x).toNat < S50x128.size a := fun v34 v334 k1_hw60 => k1_hw60
def k1_off23 (k1_t2 : Fin k1_t2_loop.trips) : Fin 2 → Nat :=
  let c19_i32_106 : BitVec 32 := 19#32
  let v339 : Index := Scalar.indexCast c19_i32_106
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v340 : Index := Scalar.indexCast v18
  ![19, v340.toNat]

def k1_chk61 (v41 : IVec S16 32) (v343 : IVec S16 32) : Prop :=
  (∀ a x, ((![v41, v343] : Fin 2 → IVec S16 32) a x).toNat < S256x128.size a)
instance k1_chk61.dec : ∀ (v41 : IVec S16 32) (v343 : IVec S16 32), Decidable (k1_chk61 v41 v343) := fun v41 v343 => decidable_of_iff' _ (Iff.of_eq (k1_chk61.eq_1 v41 v343))
theorem k1_idx61_inb : ∀ (v41 : IVec S16 32) (v343 : IVec S16 32) (k1_hw61 : k1_chk61 v41 v343), ∀ a x, ((![v41, v343] : Fin 2 → IVec S16 32) a x).toNat < S256x128.size a := fun v41 v343 k1_hw61 => k1_hw61

def k1_chk62 (v41 : IVec S16 32) (v346 : IVec S16 32) : Prop :=
  (∀ a x, ((![v41, v346] : Fin 2 → IVec S16 32) a x).toNat < S256x128.size a)
instance k1_chk62.dec : ∀ (v41 : IVec S16 32) (v346 : IVec S16 32), Decidable (k1_chk62 v41 v346) := fun v41 v346 => decidable_of_iff' _ (Iff.of_eq (k1_chk62.eq_1 v41 v346))
theorem k1_idx62_inb : ∀ (v41 : IVec S16 32) (v346 : IVec S16 32) (k1_hw62 : k1_chk62 v41 v346), ∀ a x, ((![v41, v346] : Fin 2 → IVec S16 32) a x).toNat < S256x128.size a := fun v41 v346 k1_hw62 => k1_hw62

def k1_chk63 (v34 : IVec S16 32) (v349 : IVec S16 32) : Prop :=
  (∀ a x, ((![v34, v349] : Fin 2 → IVec S16 32) a x).toNat < S50x128.size a)
instance k1_chk63.dec : ∀ (v34 : IVec S16 32) (v349 : IVec S16 32), Decidable (k1_chk63 v34 v349) := fun v34 v349 => decidable_of_iff' _ (Iff.of_eq (k1_chk63.eq_1 v34 v349))
theorem k1_idx63_inb : ∀ (v34 : IVec S16 32) (v349 : IVec S16 32) (k1_hw63 : k1_chk63 v34 v349), ∀ a x, ((![v34, v349] : Fin 2 → IVec S16 32) a x).toNat < S50x128.size a := fun v34 v349 k1_hw63 => k1_hw63
def k1_off24 (k1_t2 : Fin k1_t2_loop.trips) : Fin 2 → Nat :=
  let c20_i32_109 : BitVec 32 := 20#32
  let v354 : Index := Scalar.indexCast c20_i32_109
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v355 : Index := Scalar.indexCast v18
  ![20, v355.toNat]

def k1_chk64 (v41 : IVec S16 32) (v358 : IVec S16 32) : Prop :=
  (∀ a x, ((![v41, v358] : Fin 2 → IVec S16 32) a x).toNat < S256x128.size a)
instance k1_chk64.dec : ∀ (v41 : IVec S16 32) (v358 : IVec S16 32), Decidable (k1_chk64 v41 v358) := fun v41 v358 => decidable_of_iff' _ (Iff.of_eq (k1_chk64.eq_1 v41 v358))
theorem k1_idx64_inb : ∀ (v41 : IVec S16 32) (v358 : IVec S16 32) (k1_hw64 : k1_chk64 v41 v358), ∀ a x, ((![v41, v358] : Fin 2 → IVec S16 32) a x).toNat < S256x128.size a := fun v41 v358 k1_hw64 => k1_hw64

def k1_chk65 (v41 : IVec S16 32) (v361 : IVec S16 32) : Prop :=
  (∀ a x, ((![v41, v361] : Fin 2 → IVec S16 32) a x).toNat < S256x128.size a)
instance k1_chk65.dec : ∀ (v41 : IVec S16 32) (v361 : IVec S16 32), Decidable (k1_chk65 v41 v361) := fun v41 v361 => decidable_of_iff' _ (Iff.of_eq (k1_chk65.eq_1 v41 v361))
theorem k1_idx65_inb : ∀ (v41 : IVec S16 32) (v361 : IVec S16 32) (k1_hw65 : k1_chk65 v41 v361), ∀ a x, ((![v41, v361] : Fin 2 → IVec S16 32) a x).toNat < S256x128.size a := fun v41 v361 k1_hw65 => k1_hw65

def k1_chk66 (v34 : IVec S16 32) (v364 : IVec S16 32) : Prop :=
  (∀ a x, ((![v34, v364] : Fin 2 → IVec S16 32) a x).toNat < S50x128.size a)
instance k1_chk66.dec : ∀ (v34 : IVec S16 32) (v364 : IVec S16 32), Decidable (k1_chk66 v34 v364) := fun v34 v364 => decidable_of_iff' _ (Iff.of_eq (k1_chk66.eq_1 v34 v364))
theorem k1_idx66_inb : ∀ (v34 : IVec S16 32) (v364 : IVec S16 32) (k1_hw66 : k1_chk66 v34 v364), ∀ a x, ((![v34, v364] : Fin 2 → IVec S16 32) a x).toNat < S50x128.size a := fun v34 v364 k1_hw66 => k1_hw66
def k1_off25 (k1_t2 : Fin k1_t2_loop.trips) : Fin 2 → Nat :=
  let c21_i32_112 : BitVec 32 := 21#32
  let v369 : Index := Scalar.indexCast c21_i32_112
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v370 : Index := Scalar.indexCast v18
  ![21, v370.toNat]

def k1_chk67 (v41 : IVec S16 32) (v373 : IVec S16 32) : Prop :=
  (∀ a x, ((![v41, v373] : Fin 2 → IVec S16 32) a x).toNat < S256x128.size a)
instance k1_chk67.dec : ∀ (v41 : IVec S16 32) (v373 : IVec S16 32), Decidable (k1_chk67 v41 v373) := fun v41 v373 => decidable_of_iff' _ (Iff.of_eq (k1_chk67.eq_1 v41 v373))
theorem k1_idx67_inb : ∀ (v41 : IVec S16 32) (v373 : IVec S16 32) (k1_hw67 : k1_chk67 v41 v373), ∀ a x, ((![v41, v373] : Fin 2 → IVec S16 32) a x).toNat < S256x128.size a := fun v41 v373 k1_hw67 => k1_hw67

def k1_chk68 (v41 : IVec S16 32) (v376 : IVec S16 32) : Prop :=
  (∀ a x, ((![v41, v376] : Fin 2 → IVec S16 32) a x).toNat < S256x128.size a)
instance k1_chk68.dec : ∀ (v41 : IVec S16 32) (v376 : IVec S16 32), Decidable (k1_chk68 v41 v376) := fun v41 v376 => decidable_of_iff' _ (Iff.of_eq (k1_chk68.eq_1 v41 v376))
theorem k1_idx68_inb : ∀ (v41 : IVec S16 32) (v376 : IVec S16 32) (k1_hw68 : k1_chk68 v41 v376), ∀ a x, ((![v41, v376] : Fin 2 → IVec S16 32) a x).toNat < S256x128.size a := fun v41 v376 k1_hw68 => k1_hw68

def k1_chk69 (v34 : IVec S16 32) (v379 : IVec S16 32) : Prop :=
  (∀ a x, ((![v34, v379] : Fin 2 → IVec S16 32) a x).toNat < S50x128.size a)
instance k1_chk69.dec : ∀ (v34 : IVec S16 32) (v379 : IVec S16 32), Decidable (k1_chk69 v34 v379) := fun v34 v379 => decidable_of_iff' _ (Iff.of_eq (k1_chk69.eq_1 v34 v379))
theorem k1_idx69_inb : ∀ (v34 : IVec S16 32) (v379 : IVec S16 32) (k1_hw69 : k1_chk69 v34 v379), ∀ a x, ((![v34, v379] : Fin 2 → IVec S16 32) a x).toNat < S50x128.size a := fun v34 v379 k1_hw69 => k1_hw69
def k1_off26 (k1_t2 : Fin k1_t2_loop.trips) : Fin 2 → Nat :=
  let c22_i32_115 : BitVec 32 := 22#32
  let v384 : Index := Scalar.indexCast c22_i32_115
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v385 : Index := Scalar.indexCast v18
  ![22, v385.toNat]

def k1_chk70 (v41 : IVec S16 32) (v388 : IVec S16 32) : Prop :=
  (∀ a x, ((![v41, v388] : Fin 2 → IVec S16 32) a x).toNat < S256x128.size a)
instance k1_chk70.dec : ∀ (v41 : IVec S16 32) (v388 : IVec S16 32), Decidable (k1_chk70 v41 v388) := fun v41 v388 => decidable_of_iff' _ (Iff.of_eq (k1_chk70.eq_1 v41 v388))
theorem k1_idx70_inb : ∀ (v41 : IVec S16 32) (v388 : IVec S16 32) (k1_hw70 : k1_chk70 v41 v388), ∀ a x, ((![v41, v388] : Fin 2 → IVec S16 32) a x).toNat < S256x128.size a := fun v41 v388 k1_hw70 => k1_hw70

def k1_chk71 (v41 : IVec S16 32) (v391 : IVec S16 32) : Prop :=
  (∀ a x, ((![v41, v391] : Fin 2 → IVec S16 32) a x).toNat < S256x128.size a)
instance k1_chk71.dec : ∀ (v41 : IVec S16 32) (v391 : IVec S16 32), Decidable (k1_chk71 v41 v391) := fun v41 v391 => decidable_of_iff' _ (Iff.of_eq (k1_chk71.eq_1 v41 v391))
theorem k1_idx71_inb : ∀ (v41 : IVec S16 32) (v391 : IVec S16 32) (k1_hw71 : k1_chk71 v41 v391), ∀ a x, ((![v41, v391] : Fin 2 → IVec S16 32) a x).toNat < S256x128.size a := fun v41 v391 k1_hw71 => k1_hw71

def k1_chk72 (v34 : IVec S16 32) (v394 : IVec S16 32) : Prop :=
  (∀ a x, ((![v34, v394] : Fin 2 → IVec S16 32) a x).toNat < S50x128.size a)
instance k1_chk72.dec : ∀ (v34 : IVec S16 32) (v394 : IVec S16 32), Decidable (k1_chk72 v34 v394) := fun v34 v394 => decidable_of_iff' _ (Iff.of_eq (k1_chk72.eq_1 v34 v394))
theorem k1_idx72_inb : ∀ (v34 : IVec S16 32) (v394 : IVec S16 32) (k1_hw72 : k1_chk72 v34 v394), ∀ a x, ((![v34, v394] : Fin 2 → IVec S16 32) a x).toNat < S50x128.size a := fun v34 v394 k1_hw72 => k1_hw72
def k1_off27 (k1_t2 : Fin k1_t2_loop.trips) : Fin 2 → Nat :=
  let c23_i32_118 : BitVec 32 := 23#32
  let v399 : Index := Scalar.indexCast c23_i32_118
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v400 : Index := Scalar.indexCast v18
  ![23, v400.toNat]

def k1_chk73 (v41 : IVec S16 32) (v403 : IVec S16 32) : Prop :=
  (∀ a x, ((![v41, v403] : Fin 2 → IVec S16 32) a x).toNat < S256x128.size a)
instance k1_chk73.dec : ∀ (v41 : IVec S16 32) (v403 : IVec S16 32), Decidable (k1_chk73 v41 v403) := fun v41 v403 => decidable_of_iff' _ (Iff.of_eq (k1_chk73.eq_1 v41 v403))
theorem k1_idx73_inb : ∀ (v41 : IVec S16 32) (v403 : IVec S16 32) (k1_hw73 : k1_chk73 v41 v403), ∀ a x, ((![v41, v403] : Fin 2 → IVec S16 32) a x).toNat < S256x128.size a := fun v41 v403 k1_hw73 => k1_hw73

def k1_chk74 (v41 : IVec S16 32) (v406 : IVec S16 32) : Prop :=
  (∀ a x, ((![v41, v406] : Fin 2 → IVec S16 32) a x).toNat < S256x128.size a)
instance k1_chk74.dec : ∀ (v41 : IVec S16 32) (v406 : IVec S16 32), Decidable (k1_chk74 v41 v406) := fun v41 v406 => decidable_of_iff' _ (Iff.of_eq (k1_chk74.eq_1 v41 v406))
theorem k1_idx74_inb : ∀ (v41 : IVec S16 32) (v406 : IVec S16 32) (k1_hw74 : k1_chk74 v41 v406), ∀ a x, ((![v41, v406] : Fin 2 → IVec S16 32) a x).toNat < S256x128.size a := fun v41 v406 k1_hw74 => k1_hw74

def k1_chk75 (v34 : IVec S16 32) (v409 : IVec S16 32) : Prop :=
  (∀ a x, ((![v34, v409] : Fin 2 → IVec S16 32) a x).toNat < S50x128.size a)
instance k1_chk75.dec : ∀ (v34 : IVec S16 32) (v409 : IVec S16 32), Decidable (k1_chk75 v34 v409) := fun v34 v409 => decidable_of_iff' _ (Iff.of_eq (k1_chk75.eq_1 v34 v409))
theorem k1_idx75_inb : ∀ (v34 : IVec S16 32) (v409 : IVec S16 32) (k1_hw75 : k1_chk75 v34 v409), ∀ a x, ((![v34, v409] : Fin 2 → IVec S16 32) a x).toNat < S50x128.size a := fun v34 v409 k1_hw75 => k1_hw75
def k1_off28 (k1_t2 : Fin k1_t2_loop.trips) : Fin 2 → Nat :=
  let c24_i32_121 : BitVec 32 := 24#32
  let v414 : Index := Scalar.indexCast c24_i32_121
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v415 : Index := Scalar.indexCast v18
  ![24, v415.toNat]

def k1_chk76 (v41 : IVec S16 32) (v418 : IVec S16 32) : Prop :=
  (∀ a x, ((![v41, v418] : Fin 2 → IVec S16 32) a x).toNat < S256x128.size a)
instance k1_chk76.dec : ∀ (v41 : IVec S16 32) (v418 : IVec S16 32), Decidable (k1_chk76 v41 v418) := fun v41 v418 => decidable_of_iff' _ (Iff.of_eq (k1_chk76.eq_1 v41 v418))
theorem k1_idx76_inb : ∀ (v41 : IVec S16 32) (v418 : IVec S16 32) (k1_hw76 : k1_chk76 v41 v418), ∀ a x, ((![v41, v418] : Fin 2 → IVec S16 32) a x).toNat < S256x128.size a := fun v41 v418 k1_hw76 => k1_hw76

def k1_chk77 (v41 : IVec S16 32) (v421 : IVec S16 32) : Prop :=
  (∀ a x, ((![v41, v421] : Fin 2 → IVec S16 32) a x).toNat < S256x128.size a)
instance k1_chk77.dec : ∀ (v41 : IVec S16 32) (v421 : IVec S16 32), Decidable (k1_chk77 v41 v421) := fun v41 v421 => decidable_of_iff' _ (Iff.of_eq (k1_chk77.eq_1 v41 v421))
theorem k1_idx77_inb : ∀ (v41 : IVec S16 32) (v421 : IVec S16 32) (k1_hw77 : k1_chk77 v41 v421), ∀ a x, ((![v41, v421] : Fin 2 → IVec S16 32) a x).toNat < S256x128.size a := fun v41 v421 k1_hw77 => k1_hw77

def k1_chk78 (v34 : IVec S16 32) (v424 : IVec S16 32) : Prop :=
  (∀ a x, ((![v34, v424] : Fin 2 → IVec S16 32) a x).toNat < S50x128.size a)
instance k1_chk78.dec : ∀ (v34 : IVec S16 32) (v424 : IVec S16 32), Decidable (k1_chk78 v34 v424) := fun v34 v424 => decidable_of_iff' _ (Iff.of_eq (k1_chk78.eq_1 v34 v424))
theorem k1_idx78_inb : ∀ (v34 : IVec S16 32) (v424 : IVec S16 32) (k1_hw78 : k1_chk78 v34 v424), ∀ a x, ((![v34, v424] : Fin 2 → IVec S16 32) a x).toNat < S50x128.size a := fun v34 v424 k1_hw78 => k1_hw78
def k1_off29 (k1_t2 : Fin k1_t2_loop.trips) : Fin 2 → Nat :=
  let c25_i32_124 : BitVec 32 := 25#32
  let v429 : Index := Scalar.indexCast c25_i32_124
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v430 : Index := Scalar.indexCast v18
  ![25, v430.toNat]

def k1_chk79 (v41 : IVec S16 32) (v433 : IVec S16 32) : Prop :=
  (∀ a x, ((![v41, v433] : Fin 2 → IVec S16 32) a x).toNat < S256x128.size a)
instance k1_chk79.dec : ∀ (v41 : IVec S16 32) (v433 : IVec S16 32), Decidable (k1_chk79 v41 v433) := fun v41 v433 => decidable_of_iff' _ (Iff.of_eq (k1_chk79.eq_1 v41 v433))
theorem k1_idx79_inb : ∀ (v41 : IVec S16 32) (v433 : IVec S16 32) (k1_hw79 : k1_chk79 v41 v433), ∀ a x, ((![v41, v433] : Fin 2 → IVec S16 32) a x).toNat < S256x128.size a := fun v41 v433 k1_hw79 => k1_hw79

def k1_chk80 (v41 : IVec S16 32) (v436 : IVec S16 32) : Prop :=
  (∀ a x, ((![v41, v436] : Fin 2 → IVec S16 32) a x).toNat < S256x128.size a)
instance k1_chk80.dec : ∀ (v41 : IVec S16 32) (v436 : IVec S16 32), Decidable (k1_chk80 v41 v436) := fun v41 v436 => decidable_of_iff' _ (Iff.of_eq (k1_chk80.eq_1 v41 v436))
theorem k1_idx80_inb : ∀ (v41 : IVec S16 32) (v436 : IVec S16 32) (k1_hw80 : k1_chk80 v41 v436), ∀ a x, ((![v41, v436] : Fin 2 → IVec S16 32) a x).toNat < S256x128.size a := fun v41 v436 k1_hw80 => k1_hw80

def k1_chk81 (v34 : IVec S16 32) (v439 : IVec S16 32) : Prop :=
  (∀ a x, ((![v34, v439] : Fin 2 → IVec S16 32) a x).toNat < S50x128.size a)
instance k1_chk81.dec : ∀ (v34 : IVec S16 32) (v439 : IVec S16 32), Decidable (k1_chk81 v34 v439) := fun v34 v439 => decidable_of_iff' _ (Iff.of_eq (k1_chk81.eq_1 v34 v439))
theorem k1_idx81_inb : ∀ (v34 : IVec S16 32) (v439 : IVec S16 32) (k1_hw81 : k1_chk81 v34 v439), ∀ a x, ((![v34, v439] : Fin 2 → IVec S16 32) a x).toNat < S50x128.size a := fun v34 v439 k1_hw81 => k1_hw81
def k1_off30 (k1_t2 : Fin k1_t2_loop.trips) : Fin 2 → Nat :=
  let c26_i32_127 : BitVec 32 := 26#32
  let v444 : Index := Scalar.indexCast c26_i32_127
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v445 : Index := Scalar.indexCast v18
  ![26, v445.toNat]

def k1_chk82 (v41 : IVec S16 32) (v448 : IVec S16 32) : Prop :=
  (∀ a x, ((![v41, v448] : Fin 2 → IVec S16 32) a x).toNat < S256x128.size a)
instance k1_chk82.dec : ∀ (v41 : IVec S16 32) (v448 : IVec S16 32), Decidable (k1_chk82 v41 v448) := fun v41 v448 => decidable_of_iff' _ (Iff.of_eq (k1_chk82.eq_1 v41 v448))
theorem k1_idx82_inb : ∀ (v41 : IVec S16 32) (v448 : IVec S16 32) (k1_hw82 : k1_chk82 v41 v448), ∀ a x, ((![v41, v448] : Fin 2 → IVec S16 32) a x).toNat < S256x128.size a := fun v41 v448 k1_hw82 => k1_hw82

def k1_chk83 (v41 : IVec S16 32) (v451 : IVec S16 32) : Prop :=
  (∀ a x, ((![v41, v451] : Fin 2 → IVec S16 32) a x).toNat < S256x128.size a)
instance k1_chk83.dec : ∀ (v41 : IVec S16 32) (v451 : IVec S16 32), Decidable (k1_chk83 v41 v451) := fun v41 v451 => decidable_of_iff' _ (Iff.of_eq (k1_chk83.eq_1 v41 v451))
theorem k1_idx83_inb : ∀ (v41 : IVec S16 32) (v451 : IVec S16 32) (k1_hw83 : k1_chk83 v41 v451), ∀ a x, ((![v41, v451] : Fin 2 → IVec S16 32) a x).toNat < S256x128.size a := fun v41 v451 k1_hw83 => k1_hw83

def k1_chk84 (v34 : IVec S16 32) (v454 : IVec S16 32) : Prop :=
  (∀ a x, ((![v34, v454] : Fin 2 → IVec S16 32) a x).toNat < S50x128.size a)
instance k1_chk84.dec : ∀ (v34 : IVec S16 32) (v454 : IVec S16 32), Decidable (k1_chk84 v34 v454) := fun v34 v454 => decidable_of_iff' _ (Iff.of_eq (k1_chk84.eq_1 v34 v454))
theorem k1_idx84_inb : ∀ (v34 : IVec S16 32) (v454 : IVec S16 32) (k1_hw84 : k1_chk84 v34 v454), ∀ a x, ((![v34, v454] : Fin 2 → IVec S16 32) a x).toNat < S50x128.size a := fun v34 v454 k1_hw84 => k1_hw84
def k1_off31 (k1_t2 : Fin k1_t2_loop.trips) : Fin 2 → Nat :=
  let c27_i32_130 : BitVec 32 := 27#32
  let v459 : Index := Scalar.indexCast c27_i32_130
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v460 : Index := Scalar.indexCast v18
  ![27, v460.toNat]

def k1_chk85 (v41 : IVec S16 32) (v463 : IVec S16 32) : Prop :=
  (∀ a x, ((![v41, v463] : Fin 2 → IVec S16 32) a x).toNat < S256x128.size a)
instance k1_chk85.dec : ∀ (v41 : IVec S16 32) (v463 : IVec S16 32), Decidable (k1_chk85 v41 v463) := fun v41 v463 => decidable_of_iff' _ (Iff.of_eq (k1_chk85.eq_1 v41 v463))
theorem k1_idx85_inb : ∀ (v41 : IVec S16 32) (v463 : IVec S16 32) (k1_hw85 : k1_chk85 v41 v463), ∀ a x, ((![v41, v463] : Fin 2 → IVec S16 32) a x).toNat < S256x128.size a := fun v41 v463 k1_hw85 => k1_hw85

def k1_chk86 (v41 : IVec S16 32) (v466 : IVec S16 32) : Prop :=
  (∀ a x, ((![v41, v466] : Fin 2 → IVec S16 32) a x).toNat < S256x128.size a)
instance k1_chk86.dec : ∀ (v41 : IVec S16 32) (v466 : IVec S16 32), Decidable (k1_chk86 v41 v466) := fun v41 v466 => decidable_of_iff' _ (Iff.of_eq (k1_chk86.eq_1 v41 v466))
theorem k1_idx86_inb : ∀ (v41 : IVec S16 32) (v466 : IVec S16 32) (k1_hw86 : k1_chk86 v41 v466), ∀ a x, ((![v41, v466] : Fin 2 → IVec S16 32) a x).toNat < S256x128.size a := fun v41 v466 k1_hw86 => k1_hw86

def k1_chk87 (v34 : IVec S16 32) (v469 : IVec S16 32) : Prop :=
  (∀ a x, ((![v34, v469] : Fin 2 → IVec S16 32) a x).toNat < S50x128.size a)
instance k1_chk87.dec : ∀ (v34 : IVec S16 32) (v469 : IVec S16 32), Decidable (k1_chk87 v34 v469) := fun v34 v469 => decidable_of_iff' _ (Iff.of_eq (k1_chk87.eq_1 v34 v469))
theorem k1_idx87_inb : ∀ (v34 : IVec S16 32) (v469 : IVec S16 32) (k1_hw87 : k1_chk87 v34 v469), ∀ a x, ((![v34, v469] : Fin 2 → IVec S16 32) a x).toNat < S50x128.size a := fun v34 v469 k1_hw87 => k1_hw87
def k1_off32 (k1_t2 : Fin k1_t2_loop.trips) : Fin 2 → Nat :=
  let c28_i32_133 : BitVec 32 := 28#32
  let v474 : Index := Scalar.indexCast c28_i32_133
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v475 : Index := Scalar.indexCast v18
  ![28, v475.toNat]

def k1_chk88 (v41 : IVec S16 32) (v478 : IVec S16 32) : Prop :=
  (∀ a x, ((![v41, v478] : Fin 2 → IVec S16 32) a x).toNat < S256x128.size a)
instance k1_chk88.dec : ∀ (v41 : IVec S16 32) (v478 : IVec S16 32), Decidable (k1_chk88 v41 v478) := fun v41 v478 => decidable_of_iff' _ (Iff.of_eq (k1_chk88.eq_1 v41 v478))
theorem k1_idx88_inb : ∀ (v41 : IVec S16 32) (v478 : IVec S16 32) (k1_hw88 : k1_chk88 v41 v478), ∀ a x, ((![v41, v478] : Fin 2 → IVec S16 32) a x).toNat < S256x128.size a := fun v41 v478 k1_hw88 => k1_hw88

def k1_chk89 (v41 : IVec S16 32) (v481 : IVec S16 32) : Prop :=
  (∀ a x, ((![v41, v481] : Fin 2 → IVec S16 32) a x).toNat < S256x128.size a)
instance k1_chk89.dec : ∀ (v41 : IVec S16 32) (v481 : IVec S16 32), Decidable (k1_chk89 v41 v481) := fun v41 v481 => decidable_of_iff' _ (Iff.of_eq (k1_chk89.eq_1 v41 v481))
theorem k1_idx89_inb : ∀ (v41 : IVec S16 32) (v481 : IVec S16 32) (k1_hw89 : k1_chk89 v41 v481), ∀ a x, ((![v41, v481] : Fin 2 → IVec S16 32) a x).toNat < S256x128.size a := fun v41 v481 k1_hw89 => k1_hw89

def k1_chk90 (v34 : IVec S16 32) (v484 : IVec S16 32) : Prop :=
  (∀ a x, ((![v34, v484] : Fin 2 → IVec S16 32) a x).toNat < S50x128.size a)
instance k1_chk90.dec : ∀ (v34 : IVec S16 32) (v484 : IVec S16 32), Decidable (k1_chk90 v34 v484) := fun v34 v484 => decidable_of_iff' _ (Iff.of_eq (k1_chk90.eq_1 v34 v484))
theorem k1_idx90_inb : ∀ (v34 : IVec S16 32) (v484 : IVec S16 32) (k1_hw90 : k1_chk90 v34 v484), ∀ a x, ((![v34, v484] : Fin 2 → IVec S16 32) a x).toNat < S50x128.size a := fun v34 v484 k1_hw90 => k1_hw90
def k1_off33 (k1_t2 : Fin k1_t2_loop.trips) : Fin 2 → Nat :=
  let c29_i32_136 : BitVec 32 := 29#32
  let v489 : Index := Scalar.indexCast c29_i32_136
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v490 : Index := Scalar.indexCast v18
  ![29, v490.toNat]

def k1_chk91 (v41 : IVec S16 32) (v493 : IVec S16 32) : Prop :=
  (∀ a x, ((![v41, v493] : Fin 2 → IVec S16 32) a x).toNat < S256x128.size a)
instance k1_chk91.dec : ∀ (v41 : IVec S16 32) (v493 : IVec S16 32), Decidable (k1_chk91 v41 v493) := fun v41 v493 => decidable_of_iff' _ (Iff.of_eq (k1_chk91.eq_1 v41 v493))
theorem k1_idx91_inb : ∀ (v41 : IVec S16 32) (v493 : IVec S16 32) (k1_hw91 : k1_chk91 v41 v493), ∀ a x, ((![v41, v493] : Fin 2 → IVec S16 32) a x).toNat < S256x128.size a := fun v41 v493 k1_hw91 => k1_hw91

def k1_chk92 (v41 : IVec S16 32) (v496 : IVec S16 32) : Prop :=
  (∀ a x, ((![v41, v496] : Fin 2 → IVec S16 32) a x).toNat < S256x128.size a)
instance k1_chk92.dec : ∀ (v41 : IVec S16 32) (v496 : IVec S16 32), Decidable (k1_chk92 v41 v496) := fun v41 v496 => decidable_of_iff' _ (Iff.of_eq (k1_chk92.eq_1 v41 v496))
theorem k1_idx92_inb : ∀ (v41 : IVec S16 32) (v496 : IVec S16 32) (k1_hw92 : k1_chk92 v41 v496), ∀ a x, ((![v41, v496] : Fin 2 → IVec S16 32) a x).toNat < S256x128.size a := fun v41 v496 k1_hw92 => k1_hw92

def k1_chk93 (v34 : IVec S16 32) (v499 : IVec S16 32) : Prop :=
  (∀ a x, ((![v34, v499] : Fin 2 → IVec S16 32) a x).toNat < S50x128.size a)
instance k1_chk93.dec : ∀ (v34 : IVec S16 32) (v499 : IVec S16 32), Decidable (k1_chk93 v34 v499) := fun v34 v499 => decidable_of_iff' _ (Iff.of_eq (k1_chk93.eq_1 v34 v499))
theorem k1_idx93_inb : ∀ (v34 : IVec S16 32) (v499 : IVec S16 32) (k1_hw93 : k1_chk93 v34 v499), ∀ a x, ((![v34, v499] : Fin 2 → IVec S16 32) a x).toNat < S50x128.size a := fun v34 v499 k1_hw93 => k1_hw93
def k1_off34 (k1_t2 : Fin k1_t2_loop.trips) : Fin 2 → Nat :=
  let c30_i32_139 : BitVec 32 := 30#32
  let v504 : Index := Scalar.indexCast c30_i32_139
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v505 : Index := Scalar.indexCast v18
  ![30, v505.toNat]

def k1_chk94 (v41 : IVec S16 32) (v508 : IVec S16 32) : Prop :=
  (∀ a x, ((![v41, v508] : Fin 2 → IVec S16 32) a x).toNat < S256x128.size a)
instance k1_chk94.dec : ∀ (v41 : IVec S16 32) (v508 : IVec S16 32), Decidable (k1_chk94 v41 v508) := fun v41 v508 => decidable_of_iff' _ (Iff.of_eq (k1_chk94.eq_1 v41 v508))
theorem k1_idx94_inb : ∀ (v41 : IVec S16 32) (v508 : IVec S16 32) (k1_hw94 : k1_chk94 v41 v508), ∀ a x, ((![v41, v508] : Fin 2 → IVec S16 32) a x).toNat < S256x128.size a := fun v41 v508 k1_hw94 => k1_hw94

def k1_chk95 (v41 : IVec S16 32) (v511 : IVec S16 32) : Prop :=
  (∀ a x, ((![v41, v511] : Fin 2 → IVec S16 32) a x).toNat < S256x128.size a)
instance k1_chk95.dec : ∀ (v41 : IVec S16 32) (v511 : IVec S16 32), Decidable (k1_chk95 v41 v511) := fun v41 v511 => decidable_of_iff' _ (Iff.of_eq (k1_chk95.eq_1 v41 v511))
theorem k1_idx95_inb : ∀ (v41 : IVec S16 32) (v511 : IVec S16 32) (k1_hw95 : k1_chk95 v41 v511), ∀ a x, ((![v41, v511] : Fin 2 → IVec S16 32) a x).toNat < S256x128.size a := fun v41 v511 k1_hw95 => k1_hw95

def k1_chk96 (v34 : IVec S16 32) (v514 : IVec S16 32) : Prop :=
  (∀ a x, ((![v34, v514] : Fin 2 → IVec S16 32) a x).toNat < S50x128.size a)
instance k1_chk96.dec : ∀ (v34 : IVec S16 32) (v514 : IVec S16 32), Decidable (k1_chk96 v34 v514) := fun v34 v514 => decidable_of_iff' _ (Iff.of_eq (k1_chk96.eq_1 v34 v514))
theorem k1_idx96_inb : ∀ (v34 : IVec S16 32) (v514 : IVec S16 32) (k1_hw96 : k1_chk96 v34 v514), ∀ a x, ((![v34, v514] : Fin 2 → IVec S16 32) a x).toNat < S50x128.size a := fun v34 v514 k1_hw96 => k1_hw96
def k1_off35 (k1_t2 : Fin k1_t2_loop.trips) : Fin 2 → Nat :=
  let c31_i32_142 : BitVec 32 := 31#32
  let v519 : Index := Scalar.indexCast c31_i32_142
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v520 : Index := Scalar.indexCast v18
  ![31, v520.toNat]

def k1_chk97 (v41 : IVec S16 32) (v523 : IVec S16 32) : Prop :=
  (∀ a x, ((![v41, v523] : Fin 2 → IVec S16 32) a x).toNat < S256x128.size a)
instance k1_chk97.dec : ∀ (v41 : IVec S16 32) (v523 : IVec S16 32), Decidable (k1_chk97 v41 v523) := fun v41 v523 => decidable_of_iff' _ (Iff.of_eq (k1_chk97.eq_1 v41 v523))
theorem k1_idx97_inb : ∀ (v41 : IVec S16 32) (v523 : IVec S16 32) (k1_hw97 : k1_chk97 v41 v523), ∀ a x, ((![v41, v523] : Fin 2 → IVec S16 32) a x).toNat < S256x128.size a := fun v41 v523 k1_hw97 => k1_hw97

def k1_chk98 (v41 : IVec S16 32) (v526 : IVec S16 32) : Prop :=
  (∀ a x, ((![v41, v526] : Fin 2 → IVec S16 32) a x).toNat < S256x128.size a)
instance k1_chk98.dec : ∀ (v41 : IVec S16 32) (v526 : IVec S16 32), Decidable (k1_chk98 v41 v526) := fun v41 v526 => decidable_of_iff' _ (Iff.of_eq (k1_chk98.eq_1 v41 v526))
theorem k1_idx98_inb : ∀ (v41 : IVec S16 32) (v526 : IVec S16 32) (k1_hw98 : k1_chk98 v41 v526), ∀ a x, ((![v41, v526] : Fin 2 → IVec S16 32) a x).toNat < S256x128.size a := fun v41 v526 k1_hw98 => k1_hw98

def k1_chk99 (v34 : IVec S16 32) (v529 : IVec S16 32) : Prop :=
  (∀ a x, ((![v34, v529] : Fin 2 → IVec S16 32) a x).toNat < S50x128.size a)
instance k1_chk99.dec : ∀ (v34 : IVec S16 32) (v529 : IVec S16 32), Decidable (k1_chk99 v34 v529) := fun v34 v529 => decidable_of_iff' _ (Iff.of_eq (k1_chk99.eq_1 v34 v529))
theorem k1_idx99_inb : ∀ (v34 : IVec S16 32) (v529 : IVec S16 32) (k1_hw99 : k1_chk99 v34 v529), ∀ a x, ((![v34, v529] : Fin 2 → IVec S16 32) a x).toNat < S50x128.size a := fun v34 v529 k1_hw99 => k1_hw99
def k1_off36 (k1_t2 : Fin k1_t2_loop.trips) : Fin 2 → Nat :=
  let c32_i32_145 : BitVec 32 := 32#32
  let v534 : Index := Scalar.indexCast c32_i32_145
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v535 : Index := Scalar.indexCast v18
  ![32, v535.toNat]

def k1_chk100 (v41 : IVec S16 32) (v538 : IVec S16 32) : Prop :=
  (∀ a x, ((![v41, v538] : Fin 2 → IVec S16 32) a x).toNat < S256x128.size a)
instance k1_chk100.dec : ∀ (v41 : IVec S16 32) (v538 : IVec S16 32), Decidable (k1_chk100 v41 v538) := fun v41 v538 => decidable_of_iff' _ (Iff.of_eq (k1_chk100.eq_1 v41 v538))
theorem k1_idx100_inb : ∀ (v41 : IVec S16 32) (v538 : IVec S16 32) (k1_hw100 : k1_chk100 v41 v538), ∀ a x, ((![v41, v538] : Fin 2 → IVec S16 32) a x).toNat < S256x128.size a := fun v41 v538 k1_hw100 => k1_hw100

def k1_chk101 (v41 : IVec S16 32) (v541 : IVec S16 32) : Prop :=
  (∀ a x, ((![v41, v541] : Fin 2 → IVec S16 32) a x).toNat < S256x128.size a)
instance k1_chk101.dec : ∀ (v41 : IVec S16 32) (v541 : IVec S16 32), Decidable (k1_chk101 v41 v541) := fun v41 v541 => decidable_of_iff' _ (Iff.of_eq (k1_chk101.eq_1 v41 v541))
theorem k1_idx101_inb : ∀ (v41 : IVec S16 32) (v541 : IVec S16 32) (k1_hw101 : k1_chk101 v41 v541), ∀ a x, ((![v41, v541] : Fin 2 → IVec S16 32) a x).toNat < S256x128.size a := fun v41 v541 k1_hw101 => k1_hw101

def k1_chk102 (v34 : IVec S16 32) (v544 : IVec S16 32) : Prop :=
  (∀ a x, ((![v34, v544] : Fin 2 → IVec S16 32) a x).toNat < S50x128.size a)
instance k1_chk102.dec : ∀ (v34 : IVec S16 32) (v544 : IVec S16 32), Decidable (k1_chk102 v34 v544) := fun v34 v544 => decidable_of_iff' _ (Iff.of_eq (k1_chk102.eq_1 v34 v544))
theorem k1_idx102_inb : ∀ (v34 : IVec S16 32) (v544 : IVec S16 32) (k1_hw102 : k1_chk102 v34 v544), ∀ a x, ((![v34, v544] : Fin 2 → IVec S16 32) a x).toNat < S50x128.size a := fun v34 v544 k1_hw102 => k1_hw102
def k1_off37 (k1_t2 : Fin k1_t2_loop.trips) : Fin 2 → Nat :=
  let c33_i32_148 : BitVec 32 := 33#32
  let v549 : Index := Scalar.indexCast c33_i32_148
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v550 : Index := Scalar.indexCast v18
  ![33, v550.toNat]

def k1_chk103 (v41 : IVec S16 32) (v553 : IVec S16 32) : Prop :=
  (∀ a x, ((![v41, v553] : Fin 2 → IVec S16 32) a x).toNat < S256x128.size a)
instance k1_chk103.dec : ∀ (v41 : IVec S16 32) (v553 : IVec S16 32), Decidable (k1_chk103 v41 v553) := fun v41 v553 => decidable_of_iff' _ (Iff.of_eq (k1_chk103.eq_1 v41 v553))
theorem k1_idx103_inb : ∀ (v41 : IVec S16 32) (v553 : IVec S16 32) (k1_hw103 : k1_chk103 v41 v553), ∀ a x, ((![v41, v553] : Fin 2 → IVec S16 32) a x).toNat < S256x128.size a := fun v41 v553 k1_hw103 => k1_hw103

def k1_chk104 (v41 : IVec S16 32) (v556 : IVec S16 32) : Prop :=
  (∀ a x, ((![v41, v556] : Fin 2 → IVec S16 32) a x).toNat < S256x128.size a)
instance k1_chk104.dec : ∀ (v41 : IVec S16 32) (v556 : IVec S16 32), Decidable (k1_chk104 v41 v556) := fun v41 v556 => decidable_of_iff' _ (Iff.of_eq (k1_chk104.eq_1 v41 v556))
theorem k1_idx104_inb : ∀ (v41 : IVec S16 32) (v556 : IVec S16 32) (k1_hw104 : k1_chk104 v41 v556), ∀ a x, ((![v41, v556] : Fin 2 → IVec S16 32) a x).toNat < S256x128.size a := fun v41 v556 k1_hw104 => k1_hw104

def k1_chk105 (v34 : IVec S16 32) (v559 : IVec S16 32) : Prop :=
  (∀ a x, ((![v34, v559] : Fin 2 → IVec S16 32) a x).toNat < S50x128.size a)
instance k1_chk105.dec : ∀ (v34 : IVec S16 32) (v559 : IVec S16 32), Decidable (k1_chk105 v34 v559) := fun v34 v559 => decidable_of_iff' _ (Iff.of_eq (k1_chk105.eq_1 v34 v559))
theorem k1_idx105_inb : ∀ (v34 : IVec S16 32) (v559 : IVec S16 32) (k1_hw105 : k1_chk105 v34 v559), ∀ a x, ((![v34, v559] : Fin 2 → IVec S16 32) a x).toNat < S50x128.size a := fun v34 v559 k1_hw105 => k1_hw105
def k1_off38 (k1_t2 : Fin k1_t2_loop.trips) : Fin 2 → Nat :=
  let c34_i32_151 : BitVec 32 := 34#32
  let v564 : Index := Scalar.indexCast c34_i32_151
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v565 : Index := Scalar.indexCast v18
  ![34, v565.toNat]

def k1_chk106 (v41 : IVec S16 32) (v568 : IVec S16 32) : Prop :=
  (∀ a x, ((![v41, v568] : Fin 2 → IVec S16 32) a x).toNat < S256x128.size a)
instance k1_chk106.dec : ∀ (v41 : IVec S16 32) (v568 : IVec S16 32), Decidable (k1_chk106 v41 v568) := fun v41 v568 => decidable_of_iff' _ (Iff.of_eq (k1_chk106.eq_1 v41 v568))
theorem k1_idx106_inb : ∀ (v41 : IVec S16 32) (v568 : IVec S16 32) (k1_hw106 : k1_chk106 v41 v568), ∀ a x, ((![v41, v568] : Fin 2 → IVec S16 32) a x).toNat < S256x128.size a := fun v41 v568 k1_hw106 => k1_hw106

def k1_chk107 (v41 : IVec S16 32) (v571 : IVec S16 32) : Prop :=
  (∀ a x, ((![v41, v571] : Fin 2 → IVec S16 32) a x).toNat < S256x128.size a)
instance k1_chk107.dec : ∀ (v41 : IVec S16 32) (v571 : IVec S16 32), Decidable (k1_chk107 v41 v571) := fun v41 v571 => decidable_of_iff' _ (Iff.of_eq (k1_chk107.eq_1 v41 v571))
theorem k1_idx107_inb : ∀ (v41 : IVec S16 32) (v571 : IVec S16 32) (k1_hw107 : k1_chk107 v41 v571), ∀ a x, ((![v41, v571] : Fin 2 → IVec S16 32) a x).toNat < S256x128.size a := fun v41 v571 k1_hw107 => k1_hw107

def k1_chk108 (v34 : IVec S16 32) (v574 : IVec S16 32) : Prop :=
  (∀ a x, ((![v34, v574] : Fin 2 → IVec S16 32) a x).toNat < S50x128.size a)
instance k1_chk108.dec : ∀ (v34 : IVec S16 32) (v574 : IVec S16 32), Decidable (k1_chk108 v34 v574) := fun v34 v574 => decidable_of_iff' _ (Iff.of_eq (k1_chk108.eq_1 v34 v574))
theorem k1_idx108_inb : ∀ (v34 : IVec S16 32) (v574 : IVec S16 32) (k1_hw108 : k1_chk108 v34 v574), ∀ a x, ((![v34, v574] : Fin 2 → IVec S16 32) a x).toNat < S50x128.size a := fun v34 v574 k1_hw108 => k1_hw108
def k1_off39 (k1_t2 : Fin k1_t2_loop.trips) : Fin 2 → Nat :=
  let c35_i32_154 : BitVec 32 := 35#32
  let v579 : Index := Scalar.indexCast c35_i32_154
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v580 : Index := Scalar.indexCast v18
  ![35, v580.toNat]

def k1_chk109 (v41 : IVec S16 32) (v583 : IVec S16 32) : Prop :=
  (∀ a x, ((![v41, v583] : Fin 2 → IVec S16 32) a x).toNat < S256x128.size a)
instance k1_chk109.dec : ∀ (v41 : IVec S16 32) (v583 : IVec S16 32), Decidable (k1_chk109 v41 v583) := fun v41 v583 => decidable_of_iff' _ (Iff.of_eq (k1_chk109.eq_1 v41 v583))
theorem k1_idx109_inb : ∀ (v41 : IVec S16 32) (v583 : IVec S16 32) (k1_hw109 : k1_chk109 v41 v583), ∀ a x, ((![v41, v583] : Fin 2 → IVec S16 32) a x).toNat < S256x128.size a := fun v41 v583 k1_hw109 => k1_hw109

def k1_chk110 (v41 : IVec S16 32) (v586 : IVec S16 32) : Prop :=
  (∀ a x, ((![v41, v586] : Fin 2 → IVec S16 32) a x).toNat < S256x128.size a)
instance k1_chk110.dec : ∀ (v41 : IVec S16 32) (v586 : IVec S16 32), Decidable (k1_chk110 v41 v586) := fun v41 v586 => decidable_of_iff' _ (Iff.of_eq (k1_chk110.eq_1 v41 v586))
theorem k1_idx110_inb : ∀ (v41 : IVec S16 32) (v586 : IVec S16 32) (k1_hw110 : k1_chk110 v41 v586), ∀ a x, ((![v41, v586] : Fin 2 → IVec S16 32) a x).toNat < S256x128.size a := fun v41 v586 k1_hw110 => k1_hw110

def k1_chk111 (v34 : IVec S16 32) (v589 : IVec S16 32) : Prop :=
  (∀ a x, ((![v34, v589] : Fin 2 → IVec S16 32) a x).toNat < S50x128.size a)
instance k1_chk111.dec : ∀ (v34 : IVec S16 32) (v589 : IVec S16 32), Decidable (k1_chk111 v34 v589) := fun v34 v589 => decidable_of_iff' _ (Iff.of_eq (k1_chk111.eq_1 v34 v589))
theorem k1_idx111_inb : ∀ (v34 : IVec S16 32) (v589 : IVec S16 32) (k1_hw111 : k1_chk111 v34 v589), ∀ a x, ((![v34, v589] : Fin 2 → IVec S16 32) a x).toNat < S50x128.size a := fun v34 v589 k1_hw111 => k1_hw111
def k1_off40 (k1_t2 : Fin k1_t2_loop.trips) : Fin 2 → Nat :=
  let c36_i32_157 : BitVec 32 := 36#32
  let v594 : Index := Scalar.indexCast c36_i32_157
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v595 : Index := Scalar.indexCast v18
  ![36, v595.toNat]

def k1_chk112 (v41 : IVec S16 32) (v598 : IVec S16 32) : Prop :=
  (∀ a x, ((![v41, v598] : Fin 2 → IVec S16 32) a x).toNat < S256x128.size a)
instance k1_chk112.dec : ∀ (v41 : IVec S16 32) (v598 : IVec S16 32), Decidable (k1_chk112 v41 v598) := fun v41 v598 => decidable_of_iff' _ (Iff.of_eq (k1_chk112.eq_1 v41 v598))
theorem k1_idx112_inb : ∀ (v41 : IVec S16 32) (v598 : IVec S16 32) (k1_hw112 : k1_chk112 v41 v598), ∀ a x, ((![v41, v598] : Fin 2 → IVec S16 32) a x).toNat < S256x128.size a := fun v41 v598 k1_hw112 => k1_hw112

def k1_chk113 (v41 : IVec S16 32) (v601 : IVec S16 32) : Prop :=
  (∀ a x, ((![v41, v601] : Fin 2 → IVec S16 32) a x).toNat < S256x128.size a)
instance k1_chk113.dec : ∀ (v41 : IVec S16 32) (v601 : IVec S16 32), Decidable (k1_chk113 v41 v601) := fun v41 v601 => decidable_of_iff' _ (Iff.of_eq (k1_chk113.eq_1 v41 v601))
theorem k1_idx113_inb : ∀ (v41 : IVec S16 32) (v601 : IVec S16 32) (k1_hw113 : k1_chk113 v41 v601), ∀ a x, ((![v41, v601] : Fin 2 → IVec S16 32) a x).toNat < S256x128.size a := fun v41 v601 k1_hw113 => k1_hw113

def k1_chk114 (v34 : IVec S16 32) (v604 : IVec S16 32) : Prop :=
  (∀ a x, ((![v34, v604] : Fin 2 → IVec S16 32) a x).toNat < S50x128.size a)
instance k1_chk114.dec : ∀ (v34 : IVec S16 32) (v604 : IVec S16 32), Decidable (k1_chk114 v34 v604) := fun v34 v604 => decidable_of_iff' _ (Iff.of_eq (k1_chk114.eq_1 v34 v604))
theorem k1_idx114_inb : ∀ (v34 : IVec S16 32) (v604 : IVec S16 32) (k1_hw114 : k1_chk114 v34 v604), ∀ a x, ((![v34, v604] : Fin 2 → IVec S16 32) a x).toNat < S50x128.size a := fun v34 v604 k1_hw114 => k1_hw114
def k1_off41 (k1_t2 : Fin k1_t2_loop.trips) : Fin 2 → Nat :=
  let c37_i32_160 : BitVec 32 := 37#32
  let v609 : Index := Scalar.indexCast c37_i32_160
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v610 : Index := Scalar.indexCast v18
  ![37, v610.toNat]

def k1_chk115 (v41 : IVec S16 32) (v613 : IVec S16 32) : Prop :=
  (∀ a x, ((![v41, v613] : Fin 2 → IVec S16 32) a x).toNat < S256x128.size a)
instance k1_chk115.dec : ∀ (v41 : IVec S16 32) (v613 : IVec S16 32), Decidable (k1_chk115 v41 v613) := fun v41 v613 => decidable_of_iff' _ (Iff.of_eq (k1_chk115.eq_1 v41 v613))
theorem k1_idx115_inb : ∀ (v41 : IVec S16 32) (v613 : IVec S16 32) (k1_hw115 : k1_chk115 v41 v613), ∀ a x, ((![v41, v613] : Fin 2 → IVec S16 32) a x).toNat < S256x128.size a := fun v41 v613 k1_hw115 => k1_hw115

def k1_chk116 (v41 : IVec S16 32) (v616 : IVec S16 32) : Prop :=
  (∀ a x, ((![v41, v616] : Fin 2 → IVec S16 32) a x).toNat < S256x128.size a)
instance k1_chk116.dec : ∀ (v41 : IVec S16 32) (v616 : IVec S16 32), Decidable (k1_chk116 v41 v616) := fun v41 v616 => decidable_of_iff' _ (Iff.of_eq (k1_chk116.eq_1 v41 v616))
theorem k1_idx116_inb : ∀ (v41 : IVec S16 32) (v616 : IVec S16 32) (k1_hw116 : k1_chk116 v41 v616), ∀ a x, ((![v41, v616] : Fin 2 → IVec S16 32) a x).toNat < S256x128.size a := fun v41 v616 k1_hw116 => k1_hw116

def k1_chk117 (v34 : IVec S16 32) (v619 : IVec S16 32) : Prop :=
  (∀ a x, ((![v34, v619] : Fin 2 → IVec S16 32) a x).toNat < S50x128.size a)
instance k1_chk117.dec : ∀ (v34 : IVec S16 32) (v619 : IVec S16 32), Decidable (k1_chk117 v34 v619) := fun v34 v619 => decidable_of_iff' _ (Iff.of_eq (k1_chk117.eq_1 v34 v619))
theorem k1_idx117_inb : ∀ (v34 : IVec S16 32) (v619 : IVec S16 32) (k1_hw117 : k1_chk117 v34 v619), ∀ a x, ((![v34, v619] : Fin 2 → IVec S16 32) a x).toNat < S50x128.size a := fun v34 v619 k1_hw117 => k1_hw117
def k1_off42 (k1_t2 : Fin k1_t2_loop.trips) : Fin 2 → Nat :=
  let c38_i32_163 : BitVec 32 := 38#32
  let v624 : Index := Scalar.indexCast c38_i32_163
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v625 : Index := Scalar.indexCast v18
  ![38, v625.toNat]

def k1_chk118 (v41 : IVec S16 32) (v628 : IVec S16 32) : Prop :=
  (∀ a x, ((![v41, v628] : Fin 2 → IVec S16 32) a x).toNat < S256x128.size a)
instance k1_chk118.dec : ∀ (v41 : IVec S16 32) (v628 : IVec S16 32), Decidable (k1_chk118 v41 v628) := fun v41 v628 => decidable_of_iff' _ (Iff.of_eq (k1_chk118.eq_1 v41 v628))
theorem k1_idx118_inb : ∀ (v41 : IVec S16 32) (v628 : IVec S16 32) (k1_hw118 : k1_chk118 v41 v628), ∀ a x, ((![v41, v628] : Fin 2 → IVec S16 32) a x).toNat < S256x128.size a := fun v41 v628 k1_hw118 => k1_hw118

def k1_chk119 (v41 : IVec S16 32) (v631 : IVec S16 32) : Prop :=
  (∀ a x, ((![v41, v631] : Fin 2 → IVec S16 32) a x).toNat < S256x128.size a)
instance k1_chk119.dec : ∀ (v41 : IVec S16 32) (v631 : IVec S16 32), Decidable (k1_chk119 v41 v631) := fun v41 v631 => decidable_of_iff' _ (Iff.of_eq (k1_chk119.eq_1 v41 v631))
theorem k1_idx119_inb : ∀ (v41 : IVec S16 32) (v631 : IVec S16 32) (k1_hw119 : k1_chk119 v41 v631), ∀ a x, ((![v41, v631] : Fin 2 → IVec S16 32) a x).toNat < S256x128.size a := fun v41 v631 k1_hw119 => k1_hw119

def k1_chk120 (v34 : IVec S16 32) (v634 : IVec S16 32) : Prop :=
  (∀ a x, ((![v34, v634] : Fin 2 → IVec S16 32) a x).toNat < S50x128.size a)
instance k1_chk120.dec : ∀ (v34 : IVec S16 32) (v634 : IVec S16 32), Decidable (k1_chk120 v34 v634) := fun v34 v634 => decidable_of_iff' _ (Iff.of_eq (k1_chk120.eq_1 v34 v634))
theorem k1_idx120_inb : ∀ (v34 : IVec S16 32) (v634 : IVec S16 32) (k1_hw120 : k1_chk120 v34 v634), ∀ a x, ((![v34, v634] : Fin 2 → IVec S16 32) a x).toNat < S50x128.size a := fun v34 v634 k1_hw120 => k1_hw120
def k1_off43 (k1_t2 : Fin k1_t2_loop.trips) : Fin 2 → Nat :=
  let c39_i32_166 : BitVec 32 := 39#32
  let v639 : Index := Scalar.indexCast c39_i32_166
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v640 : Index := Scalar.indexCast v18
  ![39, v640.toNat]

def k1_chk121 (v41 : IVec S16 32) (v643 : IVec S16 32) : Prop :=
  (∀ a x, ((![v41, v643] : Fin 2 → IVec S16 32) a x).toNat < S256x128.size a)
instance k1_chk121.dec : ∀ (v41 : IVec S16 32) (v643 : IVec S16 32), Decidable (k1_chk121 v41 v643) := fun v41 v643 => decidable_of_iff' _ (Iff.of_eq (k1_chk121.eq_1 v41 v643))
theorem k1_idx121_inb : ∀ (v41 : IVec S16 32) (v643 : IVec S16 32) (k1_hw121 : k1_chk121 v41 v643), ∀ a x, ((![v41, v643] : Fin 2 → IVec S16 32) a x).toNat < S256x128.size a := fun v41 v643 k1_hw121 => k1_hw121

def k1_chk122 (v41 : IVec S16 32) (v646 : IVec S16 32) : Prop :=
  (∀ a x, ((![v41, v646] : Fin 2 → IVec S16 32) a x).toNat < S256x128.size a)
instance k1_chk122.dec : ∀ (v41 : IVec S16 32) (v646 : IVec S16 32), Decidable (k1_chk122 v41 v646) := fun v41 v646 => decidable_of_iff' _ (Iff.of_eq (k1_chk122.eq_1 v41 v646))
theorem k1_idx122_inb : ∀ (v41 : IVec S16 32) (v646 : IVec S16 32) (k1_hw122 : k1_chk122 v41 v646), ∀ a x, ((![v41, v646] : Fin 2 → IVec S16 32) a x).toNat < S256x128.size a := fun v41 v646 k1_hw122 => k1_hw122

def k1_chk123 (v34 : IVec S16 32) (v649 : IVec S16 32) : Prop :=
  (∀ a x, ((![v34, v649] : Fin 2 → IVec S16 32) a x).toNat < S50x128.size a)
instance k1_chk123.dec : ∀ (v34 : IVec S16 32) (v649 : IVec S16 32), Decidable (k1_chk123 v34 v649) := fun v34 v649 => decidable_of_iff' _ (Iff.of_eq (k1_chk123.eq_1 v34 v649))
theorem k1_idx123_inb : ∀ (v34 : IVec S16 32) (v649 : IVec S16 32) (k1_hw123 : k1_chk123 v34 v649), ∀ a x, ((![v34, v649] : Fin 2 → IVec S16 32) a x).toNat < S50x128.size a := fun v34 v649 k1_hw123 => k1_hw123
def k1_off44 (k1_t2 : Fin k1_t2_loop.trips) : Fin 2 → Nat :=
  let c40_i32_169 : BitVec 32 := 40#32
  let v654 : Index := Scalar.indexCast c40_i32_169
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v655 : Index := Scalar.indexCast v18
  ![40, v655.toNat]

def k1_chk124 (v41 : IVec S16 32) (v658 : IVec S16 32) : Prop :=
  (∀ a x, ((![v41, v658] : Fin 2 → IVec S16 32) a x).toNat < S256x128.size a)
instance k1_chk124.dec : ∀ (v41 : IVec S16 32) (v658 : IVec S16 32), Decidable (k1_chk124 v41 v658) := fun v41 v658 => decidable_of_iff' _ (Iff.of_eq (k1_chk124.eq_1 v41 v658))
theorem k1_idx124_inb : ∀ (v41 : IVec S16 32) (v658 : IVec S16 32) (k1_hw124 : k1_chk124 v41 v658), ∀ a x, ((![v41, v658] : Fin 2 → IVec S16 32) a x).toNat < S256x128.size a := fun v41 v658 k1_hw124 => k1_hw124

def k1_chk125 (v41 : IVec S16 32) (v661 : IVec S16 32) : Prop :=
  (∀ a x, ((![v41, v661] : Fin 2 → IVec S16 32) a x).toNat < S256x128.size a)
instance k1_chk125.dec : ∀ (v41 : IVec S16 32) (v661 : IVec S16 32), Decidable (k1_chk125 v41 v661) := fun v41 v661 => decidable_of_iff' _ (Iff.of_eq (k1_chk125.eq_1 v41 v661))
theorem k1_idx125_inb : ∀ (v41 : IVec S16 32) (v661 : IVec S16 32) (k1_hw125 : k1_chk125 v41 v661), ∀ a x, ((![v41, v661] : Fin 2 → IVec S16 32) a x).toNat < S256x128.size a := fun v41 v661 k1_hw125 => k1_hw125

def k1_chk126 (v34 : IVec S16 32) (v664 : IVec S16 32) : Prop :=
  (∀ a x, ((![v34, v664] : Fin 2 → IVec S16 32) a x).toNat < S50x128.size a)
instance k1_chk126.dec : ∀ (v34 : IVec S16 32) (v664 : IVec S16 32), Decidable (k1_chk126 v34 v664) := fun v34 v664 => decidable_of_iff' _ (Iff.of_eq (k1_chk126.eq_1 v34 v664))
theorem k1_idx126_inb : ∀ (v34 : IVec S16 32) (v664 : IVec S16 32) (k1_hw126 : k1_chk126 v34 v664), ∀ a x, ((![v34, v664] : Fin 2 → IVec S16 32) a x).toNat < S50x128.size a := fun v34 v664 k1_hw126 => k1_hw126
def k1_off45 (k1_t2 : Fin k1_t2_loop.trips) : Fin 2 → Nat :=
  let c41_i32_172 : BitVec 32 := 41#32
  let v669 : Index := Scalar.indexCast c41_i32_172
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v670 : Index := Scalar.indexCast v18
  ![41, v670.toNat]

def k1_chk127 (v41 : IVec S16 32) (v673 : IVec S16 32) : Prop :=
  (∀ a x, ((![v41, v673] : Fin 2 → IVec S16 32) a x).toNat < S256x128.size a)
instance k1_chk127.dec : ∀ (v41 : IVec S16 32) (v673 : IVec S16 32), Decidable (k1_chk127 v41 v673) := fun v41 v673 => decidable_of_iff' _ (Iff.of_eq (k1_chk127.eq_1 v41 v673))
theorem k1_idx127_inb : ∀ (v41 : IVec S16 32) (v673 : IVec S16 32) (k1_hw127 : k1_chk127 v41 v673), ∀ a x, ((![v41, v673] : Fin 2 → IVec S16 32) a x).toNat < S256x128.size a := fun v41 v673 k1_hw127 => k1_hw127

def k1_chk128 (v41 : IVec S16 32) (v676 : IVec S16 32) : Prop :=
  (∀ a x, ((![v41, v676] : Fin 2 → IVec S16 32) a x).toNat < S256x128.size a)
instance k1_chk128.dec : ∀ (v41 : IVec S16 32) (v676 : IVec S16 32), Decidable (k1_chk128 v41 v676) := fun v41 v676 => decidable_of_iff' _ (Iff.of_eq (k1_chk128.eq_1 v41 v676))
theorem k1_idx128_inb : ∀ (v41 : IVec S16 32) (v676 : IVec S16 32) (k1_hw128 : k1_chk128 v41 v676), ∀ a x, ((![v41, v676] : Fin 2 → IVec S16 32) a x).toNat < S256x128.size a := fun v41 v676 k1_hw128 => k1_hw128

def k1_chk129 (v34 : IVec S16 32) (v679 : IVec S16 32) : Prop :=
  (∀ a x, ((![v34, v679] : Fin 2 → IVec S16 32) a x).toNat < S50x128.size a)
instance k1_chk129.dec : ∀ (v34 : IVec S16 32) (v679 : IVec S16 32), Decidable (k1_chk129 v34 v679) := fun v34 v679 => decidable_of_iff' _ (Iff.of_eq (k1_chk129.eq_1 v34 v679))
theorem k1_idx129_inb : ∀ (v34 : IVec S16 32) (v679 : IVec S16 32) (k1_hw129 : k1_chk129 v34 v679), ∀ a x, ((![v34, v679] : Fin 2 → IVec S16 32) a x).toNat < S50x128.size a := fun v34 v679 k1_hw129 => k1_hw129
def k1_off46 (k1_t2 : Fin k1_t2_loop.trips) : Fin 2 → Nat :=
  let c42_i32_175 : BitVec 32 := 42#32
  let v684 : Index := Scalar.indexCast c42_i32_175
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v685 : Index := Scalar.indexCast v18
  ![42, v685.toNat]

def k1_chk130 (v41 : IVec S16 32) (v688 : IVec S16 32) : Prop :=
  (∀ a x, ((![v41, v688] : Fin 2 → IVec S16 32) a x).toNat < S256x128.size a)
instance k1_chk130.dec : ∀ (v41 : IVec S16 32) (v688 : IVec S16 32), Decidable (k1_chk130 v41 v688) := fun v41 v688 => decidable_of_iff' _ (Iff.of_eq (k1_chk130.eq_1 v41 v688))
theorem k1_idx130_inb : ∀ (v41 : IVec S16 32) (v688 : IVec S16 32) (k1_hw130 : k1_chk130 v41 v688), ∀ a x, ((![v41, v688] : Fin 2 → IVec S16 32) a x).toNat < S256x128.size a := fun v41 v688 k1_hw130 => k1_hw130

def k1_chk131 (v41 : IVec S16 32) (v691 : IVec S16 32) : Prop :=
  (∀ a x, ((![v41, v691] : Fin 2 → IVec S16 32) a x).toNat < S256x128.size a)
instance k1_chk131.dec : ∀ (v41 : IVec S16 32) (v691 : IVec S16 32), Decidable (k1_chk131 v41 v691) := fun v41 v691 => decidable_of_iff' _ (Iff.of_eq (k1_chk131.eq_1 v41 v691))
theorem k1_idx131_inb : ∀ (v41 : IVec S16 32) (v691 : IVec S16 32) (k1_hw131 : k1_chk131 v41 v691), ∀ a x, ((![v41, v691] : Fin 2 → IVec S16 32) a x).toNat < S256x128.size a := fun v41 v691 k1_hw131 => k1_hw131

def k1_chk132 (v34 : IVec S16 32) (v694 : IVec S16 32) : Prop :=
  (∀ a x, ((![v34, v694] : Fin 2 → IVec S16 32) a x).toNat < S50x128.size a)
instance k1_chk132.dec : ∀ (v34 : IVec S16 32) (v694 : IVec S16 32), Decidable (k1_chk132 v34 v694) := fun v34 v694 => decidable_of_iff' _ (Iff.of_eq (k1_chk132.eq_1 v34 v694))
theorem k1_idx132_inb : ∀ (v34 : IVec S16 32) (v694 : IVec S16 32) (k1_hw132 : k1_chk132 v34 v694), ∀ a x, ((![v34, v694] : Fin 2 → IVec S16 32) a x).toNat < S50x128.size a := fun v34 v694 k1_hw132 => k1_hw132
def k1_off47 (k1_t2 : Fin k1_t2_loop.trips) : Fin 2 → Nat :=
  let c43_i32_178 : BitVec 32 := 43#32
  let v699 : Index := Scalar.indexCast c43_i32_178
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v700 : Index := Scalar.indexCast v18
  ![43, v700.toNat]

def k1_chk133 (v41 : IVec S16 32) (v703 : IVec S16 32) : Prop :=
  (∀ a x, ((![v41, v703] : Fin 2 → IVec S16 32) a x).toNat < S256x128.size a)
instance k1_chk133.dec : ∀ (v41 : IVec S16 32) (v703 : IVec S16 32), Decidable (k1_chk133 v41 v703) := fun v41 v703 => decidable_of_iff' _ (Iff.of_eq (k1_chk133.eq_1 v41 v703))
theorem k1_idx133_inb : ∀ (v41 : IVec S16 32) (v703 : IVec S16 32) (k1_hw133 : k1_chk133 v41 v703), ∀ a x, ((![v41, v703] : Fin 2 → IVec S16 32) a x).toNat < S256x128.size a := fun v41 v703 k1_hw133 => k1_hw133

def k1_chk134 (v41 : IVec S16 32) (v706 : IVec S16 32) : Prop :=
  (∀ a x, ((![v41, v706] : Fin 2 → IVec S16 32) a x).toNat < S256x128.size a)
instance k1_chk134.dec : ∀ (v41 : IVec S16 32) (v706 : IVec S16 32), Decidable (k1_chk134 v41 v706) := fun v41 v706 => decidable_of_iff' _ (Iff.of_eq (k1_chk134.eq_1 v41 v706))
theorem k1_idx134_inb : ∀ (v41 : IVec S16 32) (v706 : IVec S16 32) (k1_hw134 : k1_chk134 v41 v706), ∀ a x, ((![v41, v706] : Fin 2 → IVec S16 32) a x).toNat < S256x128.size a := fun v41 v706 k1_hw134 => k1_hw134

def k1_chk135 (v34 : IVec S16 32) (v709 : IVec S16 32) : Prop :=
  (∀ a x, ((![v34, v709] : Fin 2 → IVec S16 32) a x).toNat < S50x128.size a)
instance k1_chk135.dec : ∀ (v34 : IVec S16 32) (v709 : IVec S16 32), Decidable (k1_chk135 v34 v709) := fun v34 v709 => decidable_of_iff' _ (Iff.of_eq (k1_chk135.eq_1 v34 v709))
theorem k1_idx135_inb : ∀ (v34 : IVec S16 32) (v709 : IVec S16 32) (k1_hw135 : k1_chk135 v34 v709), ∀ a x, ((![v34, v709] : Fin 2 → IVec S16 32) a x).toNat < S50x128.size a := fun v34 v709 k1_hw135 => k1_hw135
def k1_off48 (k1_t2 : Fin k1_t2_loop.trips) : Fin 2 → Nat :=
  let c44_i32_181 : BitVec 32 := 44#32
  let v714 : Index := Scalar.indexCast c44_i32_181
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v715 : Index := Scalar.indexCast v18
  ![44, v715.toNat]

def k1_chk136 (v41 : IVec S16 32) (v718 : IVec S16 32) : Prop :=
  (∀ a x, ((![v41, v718] : Fin 2 → IVec S16 32) a x).toNat < S256x128.size a)
instance k1_chk136.dec : ∀ (v41 : IVec S16 32) (v718 : IVec S16 32), Decidable (k1_chk136 v41 v718) := fun v41 v718 => decidable_of_iff' _ (Iff.of_eq (k1_chk136.eq_1 v41 v718))
theorem k1_idx136_inb : ∀ (v41 : IVec S16 32) (v718 : IVec S16 32) (k1_hw136 : k1_chk136 v41 v718), ∀ a x, ((![v41, v718] : Fin 2 → IVec S16 32) a x).toNat < S256x128.size a := fun v41 v718 k1_hw136 => k1_hw136

def k1_chk137 (v41 : IVec S16 32) (v721 : IVec S16 32) : Prop :=
  (∀ a x, ((![v41, v721] : Fin 2 → IVec S16 32) a x).toNat < S256x128.size a)
instance k1_chk137.dec : ∀ (v41 : IVec S16 32) (v721 : IVec S16 32), Decidable (k1_chk137 v41 v721) := fun v41 v721 => decidable_of_iff' _ (Iff.of_eq (k1_chk137.eq_1 v41 v721))
theorem k1_idx137_inb : ∀ (v41 : IVec S16 32) (v721 : IVec S16 32) (k1_hw137 : k1_chk137 v41 v721), ∀ a x, ((![v41, v721] : Fin 2 → IVec S16 32) a x).toNat < S256x128.size a := fun v41 v721 k1_hw137 => k1_hw137

def k1_chk138 (v34 : IVec S16 32) (v724 : IVec S16 32) : Prop :=
  (∀ a x, ((![v34, v724] : Fin 2 → IVec S16 32) a x).toNat < S50x128.size a)
instance k1_chk138.dec : ∀ (v34 : IVec S16 32) (v724 : IVec S16 32), Decidable (k1_chk138 v34 v724) := fun v34 v724 => decidable_of_iff' _ (Iff.of_eq (k1_chk138.eq_1 v34 v724))
theorem k1_idx138_inb : ∀ (v34 : IVec S16 32) (v724 : IVec S16 32) (k1_hw138 : k1_chk138 v34 v724), ∀ a x, ((![v34, v724] : Fin 2 → IVec S16 32) a x).toNat < S50x128.size a := fun v34 v724 k1_hw138 => k1_hw138
def k1_off49 (k1_t2 : Fin k1_t2_loop.trips) : Fin 2 → Nat :=
  let c45_i32_184 : BitVec 32 := 45#32
  let v729 : Index := Scalar.indexCast c45_i32_184
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v730 : Index := Scalar.indexCast v18
  ![45, v730.toNat]

def k1_chk139 (v41 : IVec S16 32) (v733 : IVec S16 32) : Prop :=
  (∀ a x, ((![v41, v733] : Fin 2 → IVec S16 32) a x).toNat < S256x128.size a)
instance k1_chk139.dec : ∀ (v41 : IVec S16 32) (v733 : IVec S16 32), Decidable (k1_chk139 v41 v733) := fun v41 v733 => decidable_of_iff' _ (Iff.of_eq (k1_chk139.eq_1 v41 v733))
theorem k1_idx139_inb : ∀ (v41 : IVec S16 32) (v733 : IVec S16 32) (k1_hw139 : k1_chk139 v41 v733), ∀ a x, ((![v41, v733] : Fin 2 → IVec S16 32) a x).toNat < S256x128.size a := fun v41 v733 k1_hw139 => k1_hw139

def k1_chk140 (v41 : IVec S16 32) (v736 : IVec S16 32) : Prop :=
  (∀ a x, ((![v41, v736] : Fin 2 → IVec S16 32) a x).toNat < S256x128.size a)
instance k1_chk140.dec : ∀ (v41 : IVec S16 32) (v736 : IVec S16 32), Decidable (k1_chk140 v41 v736) := fun v41 v736 => decidable_of_iff' _ (Iff.of_eq (k1_chk140.eq_1 v41 v736))
theorem k1_idx140_inb : ∀ (v41 : IVec S16 32) (v736 : IVec S16 32) (k1_hw140 : k1_chk140 v41 v736), ∀ a x, ((![v41, v736] : Fin 2 → IVec S16 32) a x).toNat < S256x128.size a := fun v41 v736 k1_hw140 => k1_hw140

def k1_chk141 (v34 : IVec S16 32) (v739 : IVec S16 32) : Prop :=
  (∀ a x, ((![v34, v739] : Fin 2 → IVec S16 32) a x).toNat < S50x128.size a)
instance k1_chk141.dec : ∀ (v34 : IVec S16 32) (v739 : IVec S16 32), Decidable (k1_chk141 v34 v739) := fun v34 v739 => decidable_of_iff' _ (Iff.of_eq (k1_chk141.eq_1 v34 v739))
theorem k1_idx141_inb : ∀ (v34 : IVec S16 32) (v739 : IVec S16 32) (k1_hw141 : k1_chk141 v34 v739), ∀ a x, ((![v34, v739] : Fin 2 → IVec S16 32) a x).toNat < S50x128.size a := fun v34 v739 k1_hw141 => k1_hw141
def k1_off50 (k1_t2 : Fin k1_t2_loop.trips) : Fin 2 → Nat :=
  let c46_i32_187 : BitVec 32 := 46#32
  let v744 : Index := Scalar.indexCast c46_i32_187
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v745 : Index := Scalar.indexCast v18
  ![46, v745.toNat]

def k1_chk142 (v41 : IVec S16 32) (v748 : IVec S16 32) : Prop :=
  (∀ a x, ((![v41, v748] : Fin 2 → IVec S16 32) a x).toNat < S256x128.size a)
instance k1_chk142.dec : ∀ (v41 : IVec S16 32) (v748 : IVec S16 32), Decidable (k1_chk142 v41 v748) := fun v41 v748 => decidable_of_iff' _ (Iff.of_eq (k1_chk142.eq_1 v41 v748))
theorem k1_idx142_inb : ∀ (v41 : IVec S16 32) (v748 : IVec S16 32) (k1_hw142 : k1_chk142 v41 v748), ∀ a x, ((![v41, v748] : Fin 2 → IVec S16 32) a x).toNat < S256x128.size a := fun v41 v748 k1_hw142 => k1_hw142

def k1_chk143 (v41 : IVec S16 32) (v751 : IVec S16 32) : Prop :=
  (∀ a x, ((![v41, v751] : Fin 2 → IVec S16 32) a x).toNat < S256x128.size a)
instance k1_chk143.dec : ∀ (v41 : IVec S16 32) (v751 : IVec S16 32), Decidable (k1_chk143 v41 v751) := fun v41 v751 => decidable_of_iff' _ (Iff.of_eq (k1_chk143.eq_1 v41 v751))
theorem k1_idx143_inb : ∀ (v41 : IVec S16 32) (v751 : IVec S16 32) (k1_hw143 : k1_chk143 v41 v751), ∀ a x, ((![v41, v751] : Fin 2 → IVec S16 32) a x).toNat < S256x128.size a := fun v41 v751 k1_hw143 => k1_hw143

def k1_chk144 (v34 : IVec S16 32) (v754 : IVec S16 32) : Prop :=
  (∀ a x, ((![v34, v754] : Fin 2 → IVec S16 32) a x).toNat < S50x128.size a)
instance k1_chk144.dec : ∀ (v34 : IVec S16 32) (v754 : IVec S16 32), Decidable (k1_chk144 v34 v754) := fun v34 v754 => decidable_of_iff' _ (Iff.of_eq (k1_chk144.eq_1 v34 v754))
theorem k1_idx144_inb : ∀ (v34 : IVec S16 32) (v754 : IVec S16 32) (k1_hw144 : k1_chk144 v34 v754), ∀ a x, ((![v34, v754] : Fin 2 → IVec S16 32) a x).toNat < S50x128.size a := fun v34 v754 k1_hw144 => k1_hw144
def k1_off51 (k1_t2 : Fin k1_t2_loop.trips) : Fin 2 → Nat :=
  let c47_i32_190 : BitVec 32 := 47#32
  let v759 : Index := Scalar.indexCast c47_i32_190
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v760 : Index := Scalar.indexCast v18
  ![47, v760.toNat]

def k1_chk145 (v41 : IVec S16 32) (v763 : IVec S16 32) : Prop :=
  (∀ a x, ((![v41, v763] : Fin 2 → IVec S16 32) a x).toNat < S256x128.size a)
instance k1_chk145.dec : ∀ (v41 : IVec S16 32) (v763 : IVec S16 32), Decidable (k1_chk145 v41 v763) := fun v41 v763 => decidable_of_iff' _ (Iff.of_eq (k1_chk145.eq_1 v41 v763))
theorem k1_idx145_inb : ∀ (v41 : IVec S16 32) (v763 : IVec S16 32) (k1_hw145 : k1_chk145 v41 v763), ∀ a x, ((![v41, v763] : Fin 2 → IVec S16 32) a x).toNat < S256x128.size a := fun v41 v763 k1_hw145 => k1_hw145

def k1_chk146 (v41 : IVec S16 32) (v766 : IVec S16 32) : Prop :=
  (∀ a x, ((![v41, v766] : Fin 2 → IVec S16 32) a x).toNat < S256x128.size a)
instance k1_chk146.dec : ∀ (v41 : IVec S16 32) (v766 : IVec S16 32), Decidable (k1_chk146 v41 v766) := fun v41 v766 => decidable_of_iff' _ (Iff.of_eq (k1_chk146.eq_1 v41 v766))
theorem k1_idx146_inb : ∀ (v41 : IVec S16 32) (v766 : IVec S16 32) (k1_hw146 : k1_chk146 v41 v766), ∀ a x, ((![v41, v766] : Fin 2 → IVec S16 32) a x).toNat < S256x128.size a := fun v41 v766 k1_hw146 => k1_hw146

def k1_chk147 (v34 : IVec S16 32) (v769 : IVec S16 32) : Prop :=
  (∀ a x, ((![v34, v769] : Fin 2 → IVec S16 32) a x).toNat < S50x128.size a)
instance k1_chk147.dec : ∀ (v34 : IVec S16 32) (v769 : IVec S16 32), Decidable (k1_chk147 v34 v769) := fun v34 v769 => decidable_of_iff' _ (Iff.of_eq (k1_chk147.eq_1 v34 v769))
theorem k1_idx147_inb : ∀ (v34 : IVec S16 32) (v769 : IVec S16 32) (k1_hw147 : k1_chk147 v34 v769), ∀ a x, ((![v34, v769] : Fin 2 → IVec S16 32) a x).toNat < S50x128.size a := fun v34 v769 k1_hw147 => k1_hw147
def k1_off52 (k1_t2 : Fin k1_t2_loop.trips) : Fin 2 → Nat :=
  let c48_i32_193 : BitVec 32 := 48#32
  let v774 : Index := Scalar.indexCast c48_i32_193
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v775 : Index := Scalar.indexCast v18
  ![48, v775.toNat]

def k1_chk148 (v41 : IVec S16 32) (v778 : IVec S16 32) : Prop :=
  (∀ a x, ((![v41, v778] : Fin 2 → IVec S16 32) a x).toNat < S256x128.size a)
instance k1_chk148.dec : ∀ (v41 : IVec S16 32) (v778 : IVec S16 32), Decidable (k1_chk148 v41 v778) := fun v41 v778 => decidable_of_iff' _ (Iff.of_eq (k1_chk148.eq_1 v41 v778))
theorem k1_idx148_inb : ∀ (v41 : IVec S16 32) (v778 : IVec S16 32) (k1_hw148 : k1_chk148 v41 v778), ∀ a x, ((![v41, v778] : Fin 2 → IVec S16 32) a x).toNat < S256x128.size a := fun v41 v778 k1_hw148 => k1_hw148

def k1_chk149 (v41 : IVec S16 32) (v781 : IVec S16 32) : Prop :=
  (∀ a x, ((![v41, v781] : Fin 2 → IVec S16 32) a x).toNat < S256x128.size a)
instance k1_chk149.dec : ∀ (v41 : IVec S16 32) (v781 : IVec S16 32), Decidable (k1_chk149 v41 v781) := fun v41 v781 => decidable_of_iff' _ (Iff.of_eq (k1_chk149.eq_1 v41 v781))
theorem k1_idx149_inb : ∀ (v41 : IVec S16 32) (v781 : IVec S16 32) (k1_hw149 : k1_chk149 v41 v781), ∀ a x, ((![v41, v781] : Fin 2 → IVec S16 32) a x).toNat < S256x128.size a := fun v41 v781 k1_hw149 => k1_hw149

def k1_chk150 (v34 : IVec S16 32) (v784 : IVec S16 32) : Prop :=
  (∀ a x, ((![v34, v784] : Fin 2 → IVec S16 32) a x).toNat < S50x128.size a)
instance k1_chk150.dec : ∀ (v34 : IVec S16 32) (v784 : IVec S16 32), Decidable (k1_chk150 v34 v784) := fun v34 v784 => decidable_of_iff' _ (Iff.of_eq (k1_chk150.eq_1 v34 v784))
theorem k1_idx150_inb : ∀ (v34 : IVec S16 32) (v784 : IVec S16 32) (k1_hw150 : k1_chk150 v34 v784), ∀ a x, ((![v34, v784] : Fin 2 → IVec S16 32) a x).toNat < S50x128.size a := fun v34 v784 k1_hw150 => k1_hw150
def k1_off53 (k1_t2 : Fin k1_t2_loop.trips) : Fin 2 → Nat :=
  let c49_i32_196 : BitVec 32 := 49#32
  let v789 : Index := Scalar.indexCast c49_i32_196
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v790 : Index := Scalar.indexCast v18
  ![49, v790.toNat]

def k1_chk151 (v41 : IVec S16 32) (v793 : IVec S16 32) : Prop :=
  (∀ a x, ((![v41, v793] : Fin 2 → IVec S16 32) a x).toNat < S256x128.size a)
instance k1_chk151.dec : ∀ (v41 : IVec S16 32) (v793 : IVec S16 32), Decidable (k1_chk151 v41 v793) := fun v41 v793 => decidable_of_iff' _ (Iff.of_eq (k1_chk151.eq_1 v41 v793))
theorem k1_idx151_inb : ∀ (v41 : IVec S16 32) (v793 : IVec S16 32) (k1_hw151 : k1_chk151 v41 v793), ∀ a x, ((![v41, v793] : Fin 2 → IVec S16 32) a x).toNat < S256x128.size a := fun v41 v793 k1_hw151 => k1_hw151

def k1_chk152 (v41 : IVec S16 32) (v796 : IVec S16 32) : Prop :=
  (∀ a x, ((![v41, v796] : Fin 2 → IVec S16 32) a x).toNat < S256x128.size a)
instance k1_chk152.dec : ∀ (v41 : IVec S16 32) (v796 : IVec S16 32), Decidable (k1_chk152 v41 v796) := fun v41 v796 => decidable_of_iff' _ (Iff.of_eq (k1_chk152.eq_1 v41 v796))
theorem k1_idx152_inb : ∀ (v41 : IVec S16 32) (v796 : IVec S16 32) (k1_hw152 : k1_chk152 v41 v796), ∀ a x, ((![v41, v796] : Fin 2 → IVec S16 32) a x).toNat < S256x128.size a := fun v41 v796 k1_hw152 => k1_hw152

def k1_chk153 (v34 : IVec S16 32) (v799 : IVec S16 32) : Prop :=
  (∀ a x, ((![v34, v799] : Fin 2 → IVec S16 32) a x).toNat < S50x128.size a)
instance k1_chk153.dec : ∀ (v34 : IVec S16 32) (v799 : IVec S16 32), Decidable (k1_chk153 v34 v799) := fun v34 v799 => decidable_of_iff' _ (Iff.of_eq (k1_chk153.eq_1 v34 v799))
theorem k1_idx153_inb : ∀ (v34 : IVec S16 32) (v799 : IVec S16 32) (k1_hw153 : k1_chk153 v34 v799), ∀ a x, ((![v34, v799] : Fin 2 → IVec S16 32) a x).toNat < S50x128.size a := fun v34 v799 k1_hw153 => k1_hw153
def k1_off54 (k1_t2 : Fin k1_t2_loop.trips) : Fin 2 → Nat :=
  let c50_i32_199 : BitVec 32 := 50#32
  let v804 : Index := Scalar.indexCast c50_i32_199
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v805 : Index := Scalar.indexCast v18
  ![50, v805.toNat]

def k1_chk154 (v41 : IVec S16 32) (v808 : IVec S16 32) : Prop :=
  (∀ a x, ((![v41, v808] : Fin 2 → IVec S16 32) a x).toNat < S256x128.size a)
instance k1_chk154.dec : ∀ (v41 : IVec S16 32) (v808 : IVec S16 32), Decidable (k1_chk154 v41 v808) := fun v41 v808 => decidable_of_iff' _ (Iff.of_eq (k1_chk154.eq_1 v41 v808))
theorem k1_idx154_inb : ∀ (v41 : IVec S16 32) (v808 : IVec S16 32) (k1_hw154 : k1_chk154 v41 v808), ∀ a x, ((![v41, v808] : Fin 2 → IVec S16 32) a x).toNat < S256x128.size a := fun v41 v808 k1_hw154 => k1_hw154

def k1_chk155 (v41 : IVec S16 32) (v811 : IVec S16 32) : Prop :=
  (∀ a x, ((![v41, v811] : Fin 2 → IVec S16 32) a x).toNat < S256x128.size a)
instance k1_chk155.dec : ∀ (v41 : IVec S16 32) (v811 : IVec S16 32), Decidable (k1_chk155 v41 v811) := fun v41 v811 => decidable_of_iff' _ (Iff.of_eq (k1_chk155.eq_1 v41 v811))
theorem k1_idx155_inb : ∀ (v41 : IVec S16 32) (v811 : IVec S16 32) (k1_hw155 : k1_chk155 v41 v811), ∀ a x, ((![v41, v811] : Fin 2 → IVec S16 32) a x).toNat < S256x128.size a := fun v41 v811 k1_hw155 => k1_hw155

def k1_chk156 (v34 : IVec S16 32) (v814 : IVec S16 32) : Prop :=
  (∀ a x, ((![v34, v814] : Fin 2 → IVec S16 32) a x).toNat < S50x128.size a)
instance k1_chk156.dec : ∀ (v34 : IVec S16 32) (v814 : IVec S16 32), Decidable (k1_chk156 v34 v814) := fun v34 v814 => decidable_of_iff' _ (Iff.of_eq (k1_chk156.eq_1 v34 v814))
theorem k1_idx156_inb : ∀ (v34 : IVec S16 32) (v814 : IVec S16 32) (k1_hw156 : k1_chk156 v34 v814), ∀ a x, ((![v34, v814] : Fin 2 → IVec S16 32) a x).toNat < S50x128.size a := fun v34 v814 k1_hw156 => k1_hw156
def k1_off55 (k1_t2 : Fin k1_t2_loop.trips) : Fin 2 → Nat :=
  let c51_i32_202 : BitVec 32 := 51#32
  let v819 : Index := Scalar.indexCast c51_i32_202
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v820 : Index := Scalar.indexCast v18
  ![51, v820.toNat]

def k1_chk157 (v41 : IVec S16 32) (v823 : IVec S16 32) : Prop :=
  (∀ a x, ((![v41, v823] : Fin 2 → IVec S16 32) a x).toNat < S256x128.size a)
instance k1_chk157.dec : ∀ (v41 : IVec S16 32) (v823 : IVec S16 32), Decidable (k1_chk157 v41 v823) := fun v41 v823 => decidable_of_iff' _ (Iff.of_eq (k1_chk157.eq_1 v41 v823))
theorem k1_idx157_inb : ∀ (v41 : IVec S16 32) (v823 : IVec S16 32) (k1_hw157 : k1_chk157 v41 v823), ∀ a x, ((![v41, v823] : Fin 2 → IVec S16 32) a x).toNat < S256x128.size a := fun v41 v823 k1_hw157 => k1_hw157

def k1_chk158 (v41 : IVec S16 32) (v826 : IVec S16 32) : Prop :=
  (∀ a x, ((![v41, v826] : Fin 2 → IVec S16 32) a x).toNat < S256x128.size a)
instance k1_chk158.dec : ∀ (v41 : IVec S16 32) (v826 : IVec S16 32), Decidable (k1_chk158 v41 v826) := fun v41 v826 => decidable_of_iff' _ (Iff.of_eq (k1_chk158.eq_1 v41 v826))
theorem k1_idx158_inb : ∀ (v41 : IVec S16 32) (v826 : IVec S16 32) (k1_hw158 : k1_chk158 v41 v826), ∀ a x, ((![v41, v826] : Fin 2 → IVec S16 32) a x).toNat < S256x128.size a := fun v41 v826 k1_hw158 => k1_hw158

def k1_chk159 (v34 : IVec S16 32) (v829 : IVec S16 32) : Prop :=
  (∀ a x, ((![v34, v829] : Fin 2 → IVec S16 32) a x).toNat < S50x128.size a)
instance k1_chk159.dec : ∀ (v34 : IVec S16 32) (v829 : IVec S16 32), Decidable (k1_chk159 v34 v829) := fun v34 v829 => decidable_of_iff' _ (Iff.of_eq (k1_chk159.eq_1 v34 v829))
theorem k1_idx159_inb : ∀ (v34 : IVec S16 32) (v829 : IVec S16 32) (k1_hw159 : k1_chk159 v34 v829), ∀ a x, ((![v34, v829] : Fin 2 → IVec S16 32) a x).toNat < S50x128.size a := fun v34 v829 k1_hw159 => k1_hw159
def k1_off56 (k1_t2 : Fin k1_t2_loop.trips) : Fin 2 → Nat :=
  let c52_i32_205 : BitVec 32 := 52#32
  let v834 : Index := Scalar.indexCast c52_i32_205
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v835 : Index := Scalar.indexCast v18
  ![52, v835.toNat]

def k1_chk160 (v41 : IVec S16 32) (v838 : IVec S16 32) : Prop :=
  (∀ a x, ((![v41, v838] : Fin 2 → IVec S16 32) a x).toNat < S256x128.size a)
instance k1_chk160.dec : ∀ (v41 : IVec S16 32) (v838 : IVec S16 32), Decidable (k1_chk160 v41 v838) := fun v41 v838 => decidable_of_iff' _ (Iff.of_eq (k1_chk160.eq_1 v41 v838))
theorem k1_idx160_inb : ∀ (v41 : IVec S16 32) (v838 : IVec S16 32) (k1_hw160 : k1_chk160 v41 v838), ∀ a x, ((![v41, v838] : Fin 2 → IVec S16 32) a x).toNat < S256x128.size a := fun v41 v838 k1_hw160 => k1_hw160

def k1_chk161 (v41 : IVec S16 32) (v841 : IVec S16 32) : Prop :=
  (∀ a x, ((![v41, v841] : Fin 2 → IVec S16 32) a x).toNat < S256x128.size a)
instance k1_chk161.dec : ∀ (v41 : IVec S16 32) (v841 : IVec S16 32), Decidable (k1_chk161 v41 v841) := fun v41 v841 => decidable_of_iff' _ (Iff.of_eq (k1_chk161.eq_1 v41 v841))
theorem k1_idx161_inb : ∀ (v41 : IVec S16 32) (v841 : IVec S16 32) (k1_hw161 : k1_chk161 v41 v841), ∀ a x, ((![v41, v841] : Fin 2 → IVec S16 32) a x).toNat < S256x128.size a := fun v41 v841 k1_hw161 => k1_hw161

def k1_chk162 (v34 : IVec S16 32) (v844 : IVec S16 32) : Prop :=
  (∀ a x, ((![v34, v844] : Fin 2 → IVec S16 32) a x).toNat < S50x128.size a)
instance k1_chk162.dec : ∀ (v34 : IVec S16 32) (v844 : IVec S16 32), Decidable (k1_chk162 v34 v844) := fun v34 v844 => decidable_of_iff' _ (Iff.of_eq (k1_chk162.eq_1 v34 v844))
theorem k1_idx162_inb : ∀ (v34 : IVec S16 32) (v844 : IVec S16 32) (k1_hw162 : k1_chk162 v34 v844), ∀ a x, ((![v34, v844] : Fin 2 → IVec S16 32) a x).toNat < S50x128.size a := fun v34 v844 k1_hw162 => k1_hw162
def k1_off57 (k1_t2 : Fin k1_t2_loop.trips) : Fin 2 → Nat :=
  let c53_i32_208 : BitVec 32 := 53#32
  let v849 : Index := Scalar.indexCast c53_i32_208
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v850 : Index := Scalar.indexCast v18
  ![53, v850.toNat]

def k1_chk163 (v41 : IVec S16 32) (v853 : IVec S16 32) : Prop :=
  (∀ a x, ((![v41, v853] : Fin 2 → IVec S16 32) a x).toNat < S256x128.size a)
instance k1_chk163.dec : ∀ (v41 : IVec S16 32) (v853 : IVec S16 32), Decidable (k1_chk163 v41 v853) := fun v41 v853 => decidable_of_iff' _ (Iff.of_eq (k1_chk163.eq_1 v41 v853))
theorem k1_idx163_inb : ∀ (v41 : IVec S16 32) (v853 : IVec S16 32) (k1_hw163 : k1_chk163 v41 v853), ∀ a x, ((![v41, v853] : Fin 2 → IVec S16 32) a x).toNat < S256x128.size a := fun v41 v853 k1_hw163 => k1_hw163

def k1_chk164 (v41 : IVec S16 32) (v856 : IVec S16 32) : Prop :=
  (∀ a x, ((![v41, v856] : Fin 2 → IVec S16 32) a x).toNat < S256x128.size a)
instance k1_chk164.dec : ∀ (v41 : IVec S16 32) (v856 : IVec S16 32), Decidable (k1_chk164 v41 v856) := fun v41 v856 => decidable_of_iff' _ (Iff.of_eq (k1_chk164.eq_1 v41 v856))
theorem k1_idx164_inb : ∀ (v41 : IVec S16 32) (v856 : IVec S16 32) (k1_hw164 : k1_chk164 v41 v856), ∀ a x, ((![v41, v856] : Fin 2 → IVec S16 32) a x).toNat < S256x128.size a := fun v41 v856 k1_hw164 => k1_hw164

def k1_chk165 (v34 : IVec S16 32) (v859 : IVec S16 32) : Prop :=
  (∀ a x, ((![v34, v859] : Fin 2 → IVec S16 32) a x).toNat < S50x128.size a)
instance k1_chk165.dec : ∀ (v34 : IVec S16 32) (v859 : IVec S16 32), Decidable (k1_chk165 v34 v859) := fun v34 v859 => decidable_of_iff' _ (Iff.of_eq (k1_chk165.eq_1 v34 v859))
theorem k1_idx165_inb : ∀ (v34 : IVec S16 32) (v859 : IVec S16 32) (k1_hw165 : k1_chk165 v34 v859), ∀ a x, ((![v34, v859] : Fin 2 → IVec S16 32) a x).toNat < S50x128.size a := fun v34 v859 k1_hw165 => k1_hw165
def k1_off58 (k1_t2 : Fin k1_t2_loop.trips) : Fin 2 → Nat :=
  let c54_i32_211 : BitVec 32 := 54#32
  let v864 : Index := Scalar.indexCast c54_i32_211
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v865 : Index := Scalar.indexCast v18
  ![54, v865.toNat]

def k1_chk166 (v41 : IVec S16 32) (v868 : IVec S16 32) : Prop :=
  (∀ a x, ((![v41, v868] : Fin 2 → IVec S16 32) a x).toNat < S256x128.size a)
instance k1_chk166.dec : ∀ (v41 : IVec S16 32) (v868 : IVec S16 32), Decidable (k1_chk166 v41 v868) := fun v41 v868 => decidable_of_iff' _ (Iff.of_eq (k1_chk166.eq_1 v41 v868))
theorem k1_idx166_inb : ∀ (v41 : IVec S16 32) (v868 : IVec S16 32) (k1_hw166 : k1_chk166 v41 v868), ∀ a x, ((![v41, v868] : Fin 2 → IVec S16 32) a x).toNat < S256x128.size a := fun v41 v868 k1_hw166 => k1_hw166

def k1_chk167 (v41 : IVec S16 32) (v871 : IVec S16 32) : Prop :=
  (∀ a x, ((![v41, v871] : Fin 2 → IVec S16 32) a x).toNat < S256x128.size a)
instance k1_chk167.dec : ∀ (v41 : IVec S16 32) (v871 : IVec S16 32), Decidable (k1_chk167 v41 v871) := fun v41 v871 => decidable_of_iff' _ (Iff.of_eq (k1_chk167.eq_1 v41 v871))
theorem k1_idx167_inb : ∀ (v41 : IVec S16 32) (v871 : IVec S16 32) (k1_hw167 : k1_chk167 v41 v871), ∀ a x, ((![v41, v871] : Fin 2 → IVec S16 32) a x).toNat < S256x128.size a := fun v41 v871 k1_hw167 => k1_hw167

def k1_chk168 (v34 : IVec S16 32) (v874 : IVec S16 32) : Prop :=
  (∀ a x, ((![v34, v874] : Fin 2 → IVec S16 32) a x).toNat < S50x128.size a)
instance k1_chk168.dec : ∀ (v34 : IVec S16 32) (v874 : IVec S16 32), Decidable (k1_chk168 v34 v874) := fun v34 v874 => decidable_of_iff' _ (Iff.of_eq (k1_chk168.eq_1 v34 v874))
theorem k1_idx168_inb : ∀ (v34 : IVec S16 32) (v874 : IVec S16 32) (k1_hw168 : k1_chk168 v34 v874), ∀ a x, ((![v34, v874] : Fin 2 → IVec S16 32) a x).toNat < S50x128.size a := fun v34 v874 k1_hw168 => k1_hw168
def k1_off59 (k1_t2 : Fin k1_t2_loop.trips) : Fin 2 → Nat :=
  let c55_i32_214 : BitVec 32 := 55#32
  let v879 : Index := Scalar.indexCast c55_i32_214
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v880 : Index := Scalar.indexCast v18
  ![55, v880.toNat]

def k1_chk169 (v41 : IVec S16 32) (v883 : IVec S16 32) : Prop :=
  (∀ a x, ((![v41, v883] : Fin 2 → IVec S16 32) a x).toNat < S256x128.size a)
instance k1_chk169.dec : ∀ (v41 : IVec S16 32) (v883 : IVec S16 32), Decidable (k1_chk169 v41 v883) := fun v41 v883 => decidable_of_iff' _ (Iff.of_eq (k1_chk169.eq_1 v41 v883))
theorem k1_idx169_inb : ∀ (v41 : IVec S16 32) (v883 : IVec S16 32) (k1_hw169 : k1_chk169 v41 v883), ∀ a x, ((![v41, v883] : Fin 2 → IVec S16 32) a x).toNat < S256x128.size a := fun v41 v883 k1_hw169 => k1_hw169

def k1_chk170 (v41 : IVec S16 32) (v886 : IVec S16 32) : Prop :=
  (∀ a x, ((![v41, v886] : Fin 2 → IVec S16 32) a x).toNat < S256x128.size a)
instance k1_chk170.dec : ∀ (v41 : IVec S16 32) (v886 : IVec S16 32), Decidable (k1_chk170 v41 v886) := fun v41 v886 => decidable_of_iff' _ (Iff.of_eq (k1_chk170.eq_1 v41 v886))
theorem k1_idx170_inb : ∀ (v41 : IVec S16 32) (v886 : IVec S16 32) (k1_hw170 : k1_chk170 v41 v886), ∀ a x, ((![v41, v886] : Fin 2 → IVec S16 32) a x).toNat < S256x128.size a := fun v41 v886 k1_hw170 => k1_hw170

def k1_chk171 (v34 : IVec S16 32) (v889 : IVec S16 32) : Prop :=
  (∀ a x, ((![v34, v889] : Fin 2 → IVec S16 32) a x).toNat < S50x128.size a)
instance k1_chk171.dec : ∀ (v34 : IVec S16 32) (v889 : IVec S16 32), Decidable (k1_chk171 v34 v889) := fun v34 v889 => decidable_of_iff' _ (Iff.of_eq (k1_chk171.eq_1 v34 v889))
theorem k1_idx171_inb : ∀ (v34 : IVec S16 32) (v889 : IVec S16 32) (k1_hw171 : k1_chk171 v34 v889), ∀ a x, ((![v34, v889] : Fin 2 → IVec S16 32) a x).toNat < S50x128.size a := fun v34 v889 k1_hw171 => k1_hw171
def k1_off60 (k1_t2 : Fin k1_t2_loop.trips) : Fin 2 → Nat :=
  let c56_i32_217 : BitVec 32 := 56#32
  let v894 : Index := Scalar.indexCast c56_i32_217
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v895 : Index := Scalar.indexCast v18
  ![56, v895.toNat]

def k1_chk172 (v41 : IVec S16 32) (v898 : IVec S16 32) : Prop :=
  (∀ a x, ((![v41, v898] : Fin 2 → IVec S16 32) a x).toNat < S256x128.size a)
instance k1_chk172.dec : ∀ (v41 : IVec S16 32) (v898 : IVec S16 32), Decidable (k1_chk172 v41 v898) := fun v41 v898 => decidable_of_iff' _ (Iff.of_eq (k1_chk172.eq_1 v41 v898))
theorem k1_idx172_inb : ∀ (v41 : IVec S16 32) (v898 : IVec S16 32) (k1_hw172 : k1_chk172 v41 v898), ∀ a x, ((![v41, v898] : Fin 2 → IVec S16 32) a x).toNat < S256x128.size a := fun v41 v898 k1_hw172 => k1_hw172

def k1_chk173 (v41 : IVec S16 32) (v901 : IVec S16 32) : Prop :=
  (∀ a x, ((![v41, v901] : Fin 2 → IVec S16 32) a x).toNat < S256x128.size a)
instance k1_chk173.dec : ∀ (v41 : IVec S16 32) (v901 : IVec S16 32), Decidable (k1_chk173 v41 v901) := fun v41 v901 => decidable_of_iff' _ (Iff.of_eq (k1_chk173.eq_1 v41 v901))
theorem k1_idx173_inb : ∀ (v41 : IVec S16 32) (v901 : IVec S16 32) (k1_hw173 : k1_chk173 v41 v901), ∀ a x, ((![v41, v901] : Fin 2 → IVec S16 32) a x).toNat < S256x128.size a := fun v41 v901 k1_hw173 => k1_hw173

def k1_chk174 (v34 : IVec S16 32) (v904 : IVec S16 32) : Prop :=
  (∀ a x, ((![v34, v904] : Fin 2 → IVec S16 32) a x).toNat < S50x128.size a)
instance k1_chk174.dec : ∀ (v34 : IVec S16 32) (v904 : IVec S16 32), Decidable (k1_chk174 v34 v904) := fun v34 v904 => decidable_of_iff' _ (Iff.of_eq (k1_chk174.eq_1 v34 v904))
theorem k1_idx174_inb : ∀ (v34 : IVec S16 32) (v904 : IVec S16 32) (k1_hw174 : k1_chk174 v34 v904), ∀ a x, ((![v34, v904] : Fin 2 → IVec S16 32) a x).toNat < S50x128.size a := fun v34 v904 k1_hw174 => k1_hw174
def k1_off61 (k1_t2 : Fin k1_t2_loop.trips) : Fin 2 → Nat :=
  let c57_i32_220 : BitVec 32 := 57#32
  let v909 : Index := Scalar.indexCast c57_i32_220
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v910 : Index := Scalar.indexCast v18
  ![57, v910.toNat]

def k1_chk175 (v41 : IVec S16 32) (v913 : IVec S16 32) : Prop :=
  (∀ a x, ((![v41, v913] : Fin 2 → IVec S16 32) a x).toNat < S256x128.size a)
instance k1_chk175.dec : ∀ (v41 : IVec S16 32) (v913 : IVec S16 32), Decidable (k1_chk175 v41 v913) := fun v41 v913 => decidable_of_iff' _ (Iff.of_eq (k1_chk175.eq_1 v41 v913))
theorem k1_idx175_inb : ∀ (v41 : IVec S16 32) (v913 : IVec S16 32) (k1_hw175 : k1_chk175 v41 v913), ∀ a x, ((![v41, v913] : Fin 2 → IVec S16 32) a x).toNat < S256x128.size a := fun v41 v913 k1_hw175 => k1_hw175

def k1_chk176 (v41 : IVec S16 32) (v916 : IVec S16 32) : Prop :=
  (∀ a x, ((![v41, v916] : Fin 2 → IVec S16 32) a x).toNat < S256x128.size a)
instance k1_chk176.dec : ∀ (v41 : IVec S16 32) (v916 : IVec S16 32), Decidable (k1_chk176 v41 v916) := fun v41 v916 => decidable_of_iff' _ (Iff.of_eq (k1_chk176.eq_1 v41 v916))
theorem k1_idx176_inb : ∀ (v41 : IVec S16 32) (v916 : IVec S16 32) (k1_hw176 : k1_chk176 v41 v916), ∀ a x, ((![v41, v916] : Fin 2 → IVec S16 32) a x).toNat < S256x128.size a := fun v41 v916 k1_hw176 => k1_hw176

def k1_chk177 (v34 : IVec S16 32) (v919 : IVec S16 32) : Prop :=
  (∀ a x, ((![v34, v919] : Fin 2 → IVec S16 32) a x).toNat < S50x128.size a)
instance k1_chk177.dec : ∀ (v34 : IVec S16 32) (v919 : IVec S16 32), Decidable (k1_chk177 v34 v919) := fun v34 v919 => decidable_of_iff' _ (Iff.of_eq (k1_chk177.eq_1 v34 v919))
theorem k1_idx177_inb : ∀ (v34 : IVec S16 32) (v919 : IVec S16 32) (k1_hw177 : k1_chk177 v34 v919), ∀ a x, ((![v34, v919] : Fin 2 → IVec S16 32) a x).toNat < S50x128.size a := fun v34 v919 k1_hw177 => k1_hw177
def k1_off62 (k1_t2 : Fin k1_t2_loop.trips) : Fin 2 → Nat :=
  let c58_i32_223 : BitVec 32 := 58#32
  let v924 : Index := Scalar.indexCast c58_i32_223
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v925 : Index := Scalar.indexCast v18
  ![58, v925.toNat]

def k1_chk178 (v41 : IVec S16 32) (v928 : IVec S16 32) : Prop :=
  (∀ a x, ((![v41, v928] : Fin 2 → IVec S16 32) a x).toNat < S256x128.size a)
instance k1_chk178.dec : ∀ (v41 : IVec S16 32) (v928 : IVec S16 32), Decidable (k1_chk178 v41 v928) := fun v41 v928 => decidable_of_iff' _ (Iff.of_eq (k1_chk178.eq_1 v41 v928))
theorem k1_idx178_inb : ∀ (v41 : IVec S16 32) (v928 : IVec S16 32) (k1_hw178 : k1_chk178 v41 v928), ∀ a x, ((![v41, v928] : Fin 2 → IVec S16 32) a x).toNat < S256x128.size a := fun v41 v928 k1_hw178 => k1_hw178

def k1_chk179 (v41 : IVec S16 32) (v931 : IVec S16 32) : Prop :=
  (∀ a x, ((![v41, v931] : Fin 2 → IVec S16 32) a x).toNat < S256x128.size a)
instance k1_chk179.dec : ∀ (v41 : IVec S16 32) (v931 : IVec S16 32), Decidable (k1_chk179 v41 v931) := fun v41 v931 => decidable_of_iff' _ (Iff.of_eq (k1_chk179.eq_1 v41 v931))
theorem k1_idx179_inb : ∀ (v41 : IVec S16 32) (v931 : IVec S16 32) (k1_hw179 : k1_chk179 v41 v931), ∀ a x, ((![v41, v931] : Fin 2 → IVec S16 32) a x).toNat < S256x128.size a := fun v41 v931 k1_hw179 => k1_hw179

def k1_chk180 (v34 : IVec S16 32) (v934 : IVec S16 32) : Prop :=
  (∀ a x, ((![v34, v934] : Fin 2 → IVec S16 32) a x).toNat < S50x128.size a)
instance k1_chk180.dec : ∀ (v34 : IVec S16 32) (v934 : IVec S16 32), Decidable (k1_chk180 v34 v934) := fun v34 v934 => decidable_of_iff' _ (Iff.of_eq (k1_chk180.eq_1 v34 v934))
theorem k1_idx180_inb : ∀ (v34 : IVec S16 32) (v934 : IVec S16 32) (k1_hw180 : k1_chk180 v34 v934), ∀ a x, ((![v34, v934] : Fin 2 → IVec S16 32) a x).toNat < S50x128.size a := fun v34 v934 k1_hw180 => k1_hw180
def k1_off63 (k1_t2 : Fin k1_t2_loop.trips) : Fin 2 → Nat :=
  let c59_i32_226 : BitVec 32 := 59#32
  let v939 : Index := Scalar.indexCast c59_i32_226
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v940 : Index := Scalar.indexCast v18
  ![59, v940.toNat]

def k1_chk181 (v41 : IVec S16 32) (v943 : IVec S16 32) : Prop :=
  (∀ a x, ((![v41, v943] : Fin 2 → IVec S16 32) a x).toNat < S256x128.size a)
instance k1_chk181.dec : ∀ (v41 : IVec S16 32) (v943 : IVec S16 32), Decidable (k1_chk181 v41 v943) := fun v41 v943 => decidable_of_iff' _ (Iff.of_eq (k1_chk181.eq_1 v41 v943))
theorem k1_idx181_inb : ∀ (v41 : IVec S16 32) (v943 : IVec S16 32) (k1_hw181 : k1_chk181 v41 v943), ∀ a x, ((![v41, v943] : Fin 2 → IVec S16 32) a x).toNat < S256x128.size a := fun v41 v943 k1_hw181 => k1_hw181

def k1_chk182 (v41 : IVec S16 32) (v946 : IVec S16 32) : Prop :=
  (∀ a x, ((![v41, v946] : Fin 2 → IVec S16 32) a x).toNat < S256x128.size a)
instance k1_chk182.dec : ∀ (v41 : IVec S16 32) (v946 : IVec S16 32), Decidable (k1_chk182 v41 v946) := fun v41 v946 => decidable_of_iff' _ (Iff.of_eq (k1_chk182.eq_1 v41 v946))
theorem k1_idx182_inb : ∀ (v41 : IVec S16 32) (v946 : IVec S16 32) (k1_hw182 : k1_chk182 v41 v946), ∀ a x, ((![v41, v946] : Fin 2 → IVec S16 32) a x).toNat < S256x128.size a := fun v41 v946 k1_hw182 => k1_hw182

def k1_chk183 (v34 : IVec S16 32) (v949 : IVec S16 32) : Prop :=
  (∀ a x, ((![v34, v949] : Fin 2 → IVec S16 32) a x).toNat < S50x128.size a)
instance k1_chk183.dec : ∀ (v34 : IVec S16 32) (v949 : IVec S16 32), Decidable (k1_chk183 v34 v949) := fun v34 v949 => decidable_of_iff' _ (Iff.of_eq (k1_chk183.eq_1 v34 v949))
theorem k1_idx183_inb : ∀ (v34 : IVec S16 32) (v949 : IVec S16 32) (k1_hw183 : k1_chk183 v34 v949), ∀ a x, ((![v34, v949] : Fin 2 → IVec S16 32) a x).toNat < S50x128.size a := fun v34 v949 k1_hw183 => k1_hw183
def k1_off64 (k1_t2 : Fin k1_t2_loop.trips) : Fin 2 → Nat :=
  let c60_i32_229 : BitVec 32 := 60#32
  let v954 : Index := Scalar.indexCast c60_i32_229
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v955 : Index := Scalar.indexCast v18
  ![60, v955.toNat]

def k1_chk184 (v41 : IVec S16 32) (v958 : IVec S16 32) : Prop :=
  (∀ a x, ((![v41, v958] : Fin 2 → IVec S16 32) a x).toNat < S256x128.size a)
instance k1_chk184.dec : ∀ (v41 : IVec S16 32) (v958 : IVec S16 32), Decidable (k1_chk184 v41 v958) := fun v41 v958 => decidable_of_iff' _ (Iff.of_eq (k1_chk184.eq_1 v41 v958))
theorem k1_idx184_inb : ∀ (v41 : IVec S16 32) (v958 : IVec S16 32) (k1_hw184 : k1_chk184 v41 v958), ∀ a x, ((![v41, v958] : Fin 2 → IVec S16 32) a x).toNat < S256x128.size a := fun v41 v958 k1_hw184 => k1_hw184

def k1_chk185 (v41 : IVec S16 32) (v961 : IVec S16 32) : Prop :=
  (∀ a x, ((![v41, v961] : Fin 2 → IVec S16 32) a x).toNat < S256x128.size a)
instance k1_chk185.dec : ∀ (v41 : IVec S16 32) (v961 : IVec S16 32), Decidable (k1_chk185 v41 v961) := fun v41 v961 => decidable_of_iff' _ (Iff.of_eq (k1_chk185.eq_1 v41 v961))
theorem k1_idx185_inb : ∀ (v41 : IVec S16 32) (v961 : IVec S16 32) (k1_hw185 : k1_chk185 v41 v961), ∀ a x, ((![v41, v961] : Fin 2 → IVec S16 32) a x).toNat < S256x128.size a := fun v41 v961 k1_hw185 => k1_hw185

def k1_chk186 (v34 : IVec S16 32) (v964 : IVec S16 32) : Prop :=
  (∀ a x, ((![v34, v964] : Fin 2 → IVec S16 32) a x).toNat < S50x128.size a)
instance k1_chk186.dec : ∀ (v34 : IVec S16 32) (v964 : IVec S16 32), Decidable (k1_chk186 v34 v964) := fun v34 v964 => decidable_of_iff' _ (Iff.of_eq (k1_chk186.eq_1 v34 v964))
theorem k1_idx186_inb : ∀ (v34 : IVec S16 32) (v964 : IVec S16 32) (k1_hw186 : k1_chk186 v34 v964), ∀ a x, ((![v34, v964] : Fin 2 → IVec S16 32) a x).toNat < S50x128.size a := fun v34 v964 k1_hw186 => k1_hw186
def k1_off65 (k1_t2 : Fin k1_t2_loop.trips) : Fin 2 → Nat :=
  let c61_i32_232 : BitVec 32 := 61#32
  let v969 : Index := Scalar.indexCast c61_i32_232
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v970 : Index := Scalar.indexCast v18
  ![61, v970.toNat]

def k1_chk187 (v41 : IVec S16 32) (v973 : IVec S16 32) : Prop :=
  (∀ a x, ((![v41, v973] : Fin 2 → IVec S16 32) a x).toNat < S256x128.size a)
instance k1_chk187.dec : ∀ (v41 : IVec S16 32) (v973 : IVec S16 32), Decidable (k1_chk187 v41 v973) := fun v41 v973 => decidable_of_iff' _ (Iff.of_eq (k1_chk187.eq_1 v41 v973))
theorem k1_idx187_inb : ∀ (v41 : IVec S16 32) (v973 : IVec S16 32) (k1_hw187 : k1_chk187 v41 v973), ∀ a x, ((![v41, v973] : Fin 2 → IVec S16 32) a x).toNat < S256x128.size a := fun v41 v973 k1_hw187 => k1_hw187

def k1_chk188 (v41 : IVec S16 32) (v976 : IVec S16 32) : Prop :=
  (∀ a x, ((![v41, v976] : Fin 2 → IVec S16 32) a x).toNat < S256x128.size a)
instance k1_chk188.dec : ∀ (v41 : IVec S16 32) (v976 : IVec S16 32), Decidable (k1_chk188 v41 v976) := fun v41 v976 => decidable_of_iff' _ (Iff.of_eq (k1_chk188.eq_1 v41 v976))
theorem k1_idx188_inb : ∀ (v41 : IVec S16 32) (v976 : IVec S16 32) (k1_hw188 : k1_chk188 v41 v976), ∀ a x, ((![v41, v976] : Fin 2 → IVec S16 32) a x).toNat < S256x128.size a := fun v41 v976 k1_hw188 => k1_hw188

def k1_chk189 (v34 : IVec S16 32) (v979 : IVec S16 32) : Prop :=
  (∀ a x, ((![v34, v979] : Fin 2 → IVec S16 32) a x).toNat < S50x128.size a)
instance k1_chk189.dec : ∀ (v34 : IVec S16 32) (v979 : IVec S16 32), Decidable (k1_chk189 v34 v979) := fun v34 v979 => decidable_of_iff' _ (Iff.of_eq (k1_chk189.eq_1 v34 v979))
theorem k1_idx189_inb : ∀ (v34 : IVec S16 32) (v979 : IVec S16 32) (k1_hw189 : k1_chk189 v34 v979), ∀ a x, ((![v34, v979] : Fin 2 → IVec S16 32) a x).toNat < S50x128.size a := fun v34 v979 k1_hw189 => k1_hw189
def k1_off66 (k1_t2 : Fin k1_t2_loop.trips) : Fin 2 → Nat :=
  let c62_i32_235 : BitVec 32 := 62#32
  let v984 : Index := Scalar.indexCast c62_i32_235
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v985 : Index := Scalar.indexCast v18
  ![62, v985.toNat]

def k1_chk190 (v41 : IVec S16 32) (v988 : IVec S16 32) : Prop :=
  (∀ a x, ((![v41, v988] : Fin 2 → IVec S16 32) a x).toNat < S256x128.size a)
instance k1_chk190.dec : ∀ (v41 : IVec S16 32) (v988 : IVec S16 32), Decidable (k1_chk190 v41 v988) := fun v41 v988 => decidable_of_iff' _ (Iff.of_eq (k1_chk190.eq_1 v41 v988))
theorem k1_idx190_inb : ∀ (v41 : IVec S16 32) (v988 : IVec S16 32) (k1_hw190 : k1_chk190 v41 v988), ∀ a x, ((![v41, v988] : Fin 2 → IVec S16 32) a x).toNat < S256x128.size a := fun v41 v988 k1_hw190 => k1_hw190

def k1_chk191 (v41 : IVec S16 32) (v991 : IVec S16 32) : Prop :=
  (∀ a x, ((![v41, v991] : Fin 2 → IVec S16 32) a x).toNat < S256x128.size a)
instance k1_chk191.dec : ∀ (v41 : IVec S16 32) (v991 : IVec S16 32), Decidable (k1_chk191 v41 v991) := fun v41 v991 => decidable_of_iff' _ (Iff.of_eq (k1_chk191.eq_1 v41 v991))
theorem k1_idx191_inb : ∀ (v41 : IVec S16 32) (v991 : IVec S16 32) (k1_hw191 : k1_chk191 v41 v991), ∀ a x, ((![v41, v991] : Fin 2 → IVec S16 32) a x).toNat < S256x128.size a := fun v41 v991 k1_hw191 => k1_hw191

def k1_chk192 (v34 : IVec S16 32) (v994 : IVec S16 32) : Prop :=
  (∀ a x, ((![v34, v994] : Fin 2 → IVec S16 32) a x).toNat < S50x128.size a)
instance k1_chk192.dec : ∀ (v34 : IVec S16 32) (v994 : IVec S16 32), Decidable (k1_chk192 v34 v994) := fun v34 v994 => decidable_of_iff' _ (Iff.of_eq (k1_chk192.eq_1 v34 v994))
theorem k1_idx192_inb : ∀ (v34 : IVec S16 32) (v994 : IVec S16 32) (k1_hw192 : k1_chk192 v34 v994), ∀ a x, ((![v34, v994] : Fin 2 → IVec S16 32) a x).toNat < S50x128.size a := fun v34 v994 k1_hw192 => k1_hw192
def k1_off67 (k1_t2 : Fin k1_t2_loop.trips) : Fin 2 → Nat :=
  let c63_i32_238 : BitVec 32 := 63#32
  let v999 : Index := Scalar.indexCast c63_i32_238
  let c0_i32_12 : BitVec 32 := 0#32
  let c1_i32_14 : BitVec 32 := 1#32
  let arg19 : BitVec 32 := Scf.iv c0_i32_12 c1_i32_14 k1_t2
  let c16_i32_34 : BitVec 32 := 16#32
  let v18 : BitVec 32 := Scalar.muli arg19 c16_i32_34
  let v1000 : Index := Scalar.indexCast v18
  ![63, v1000.toNat]
def k1_off68 (i : grid1.Coords) (c0_i32 : BitVec 32) : Fin 2 → Nat :=
  let c0_i32_34_r4 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v4 : BitVec 32 := Scalar.addi v2 c0_i32
  ![0, v4.toNat]
@[reducible] def k1_t3_loop : Scf.Loop 32 :=
  let c0_i32_17 : BitVec 32 := 0#32
  let c16_i32_18 : BitVec 32 := 16#32
  let v12 : BitVec 32 := Scalar.addi c0_i32_17 c16_i32_18
  let c1_i32_19 : BitVec 32 := 1#32
  ⟨c0_i32_17, v12, c1_i32_19⟩
def k1_off69 (k1_t3 : Fin k1_t3_loop.trips) : Fin 1 → Nat :=
  let c0_i32_17 : BitVec 32 := 0#32
  let c1_i32_19 : BitVec 32 := 1#32
  let arg19 : BitVec 32 := Scf.iv c0_i32_17 c1_i32_19 k1_t3
  let c16_i32_34 : BitVec 32 := 16#32
  let v18 : BitVec 32 := Scalar.muli arg19 c16_i32_34
  let v19 : Index := Scalar.indexCast v18
  ![v19.toNat]
@[reducible] def k1_t4_loop : Scf.Loop 32 :=
  let c0_i32_30 : BitVec 32 := 0#32
  let c16_i32_31 : BitVec 32 := 16#32
  let v17 : BitVec 32 := Scalar.addi c0_i32_30 c16_i32_31
  let c1_i32_32 : BitVec 32 := 1#32
  ⟨c0_i32_30, v17, c1_i32_32⟩
def k1_off70 (k1_t4 : Fin k1_t4_loop.trips) : Fin 1 → Nat :=
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v19 : Index := Scalar.indexCast v18
  ![v19.toNat]

def k1_chk193 (v41 : IVec S16 32) (v43 : IVec S16 32) : Prop :=
  (∀ a x, ((![v41, v43] : Fin 2 → IVec S16 32) a x).toNat < S256x128.size a)
instance k1_chk193.dec : ∀ (v41 : IVec S16 32) (v43 : IVec S16 32), Decidable (k1_chk193 v41 v43) := fun v41 v43 => decidable_of_iff' _ (Iff.of_eq (k1_chk193.eq_1 v41 v43))
theorem k1_idx193_inb : ∀ (v41 : IVec S16 32) (v43 : IVec S16 32) (k1_hw193 : k1_chk193 v41 v43), ∀ a x, ((![v41, v43] : Fin 2 → IVec S16 32) a x).toNat < S256x128.size a := fun v41 v43 k1_hw193 => k1_hw193

def k1_chk194 (v41 : IVec S16 32) (v46 : IVec S16 32) : Prop :=
  (∀ a x, ((![v41, v46] : Fin 2 → IVec S16 32) a x).toNat < S256x128.size a)
instance k1_chk194.dec : ∀ (v41 : IVec S16 32) (v46 : IVec S16 32), Decidable (k1_chk194 v41 v46) := fun v41 v46 => decidable_of_iff' _ (Iff.of_eq (k1_chk194.eq_1 v41 v46))
theorem k1_idx194_inb : ∀ (v41 : IVec S16 32) (v46 : IVec S16 32) (k1_hw194 : k1_chk194 v41 v46), ∀ a x, ((![v41, v46] : Fin 2 → IVec S16 32) a x).toNat < S256x128.size a := fun v41 v46 k1_hw194 => k1_hw194

def k1_chk195 (v34 : IVec S16 32) (v49 : IVec S16 32) : Prop :=
  (∀ a x, ((![v34, v49] : Fin 2 → IVec S16 32) a x).toNat < S50x128.size a)
instance k1_chk195.dec : ∀ (v34 : IVec S16 32) (v49 : IVec S16 32), Decidable (k1_chk195 v34 v49) := fun v34 v49 => decidable_of_iff' _ (Iff.of_eq (k1_chk195.eq_1 v34 v49))
theorem k1_idx195_inb : ∀ (v34 : IVec S16 32) (v49 : IVec S16 32) (k1_hw195 : k1_chk195 v34 v49), ∀ a x, ((![v34, v49] : Fin 2 → IVec S16 32) a x).toNat < S50x128.size a := fun v34 v49 k1_hw195 => k1_hw195
def k1_off71 (k1_t4 : Fin k1_t4_loop.trips) : Fin 2 → Nat :=
  let c0_i32_43 : BitVec 32 := 0#32
  let v54 : Index := Scalar.indexCast c0_i32_43
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v55 : Index := Scalar.indexCast v18
  ![0, v55.toNat]

def k1_chk196 (v41 : IVec S16 32) (v58 : IVec S16 32) : Prop :=
  (∀ a x, ((![v41, v58] : Fin 2 → IVec S16 32) a x).toNat < S256x128.size a)
instance k1_chk196.dec : ∀ (v41 : IVec S16 32) (v58 : IVec S16 32), Decidable (k1_chk196 v41 v58) := fun v41 v58 => decidable_of_iff' _ (Iff.of_eq (k1_chk196.eq_1 v41 v58))
theorem k1_idx196_inb : ∀ (v41 : IVec S16 32) (v58 : IVec S16 32) (k1_hw196 : k1_chk196 v41 v58), ∀ a x, ((![v41, v58] : Fin 2 → IVec S16 32) a x).toNat < S256x128.size a := fun v41 v58 k1_hw196 => k1_hw196

def k1_chk197 (v41 : IVec S16 32) (v61 : IVec S16 32) : Prop :=
  (∀ a x, ((![v41, v61] : Fin 2 → IVec S16 32) a x).toNat < S256x128.size a)
instance k1_chk197.dec : ∀ (v41 : IVec S16 32) (v61 : IVec S16 32), Decidable (k1_chk197 v41 v61) := fun v41 v61 => decidable_of_iff' _ (Iff.of_eq (k1_chk197.eq_1 v41 v61))
theorem k1_idx197_inb : ∀ (v41 : IVec S16 32) (v61 : IVec S16 32) (k1_hw197 : k1_chk197 v41 v61), ∀ a x, ((![v41, v61] : Fin 2 → IVec S16 32) a x).toNat < S256x128.size a := fun v41 v61 k1_hw197 => k1_hw197

def k1_chk198 (v34 : IVec S16 32) (v64 : IVec S16 32) : Prop :=
  (∀ a x, ((![v34, v64] : Fin 2 → IVec S16 32) a x).toNat < S50x128.size a)
instance k1_chk198.dec : ∀ (v34 : IVec S16 32) (v64 : IVec S16 32), Decidable (k1_chk198 v34 v64) := fun v34 v64 => decidable_of_iff' _ (Iff.of_eq (k1_chk198.eq_1 v34 v64))
theorem k1_idx198_inb : ∀ (v34 : IVec S16 32) (v64 : IVec S16 32) (k1_hw198 : k1_chk198 v34 v64), ∀ a x, ((![v34, v64] : Fin 2 → IVec S16 32) a x).toNat < S50x128.size a := fun v34 v64 k1_hw198 => k1_hw198
def k1_off72 (k1_t4 : Fin k1_t4_loop.trips) : Fin 2 → Nat :=
  let c1_i32_47 : BitVec 32 := 1#32
  let v69 : Index := Scalar.indexCast c1_i32_47
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v70 : Index := Scalar.indexCast v18
  ![1, v70.toNat]

def k1_chk199 (v41 : IVec S16 32) (v73 : IVec S16 32) : Prop :=
  (∀ a x, ((![v41, v73] : Fin 2 → IVec S16 32) a x).toNat < S256x128.size a)
instance k1_chk199.dec : ∀ (v41 : IVec S16 32) (v73 : IVec S16 32), Decidable (k1_chk199 v41 v73) := fun v41 v73 => decidable_of_iff' _ (Iff.of_eq (k1_chk199.eq_1 v41 v73))
theorem k1_idx199_inb : ∀ (v41 : IVec S16 32) (v73 : IVec S16 32) (k1_hw199 : k1_chk199 v41 v73), ∀ a x, ((![v41, v73] : Fin 2 → IVec S16 32) a x).toNat < S256x128.size a := fun v41 v73 k1_hw199 => k1_hw199

def k1_chk200 (v41 : IVec S16 32) (v76 : IVec S16 32) : Prop :=
  (∀ a x, ((![v41, v76] : Fin 2 → IVec S16 32) a x).toNat < S256x128.size a)
instance k1_chk200.dec : ∀ (v41 : IVec S16 32) (v76 : IVec S16 32), Decidable (k1_chk200 v41 v76) := fun v41 v76 => decidable_of_iff' _ (Iff.of_eq (k1_chk200.eq_1 v41 v76))
theorem k1_idx200_inb : ∀ (v41 : IVec S16 32) (v76 : IVec S16 32) (k1_hw200 : k1_chk200 v41 v76), ∀ a x, ((![v41, v76] : Fin 2 → IVec S16 32) a x).toNat < S256x128.size a := fun v41 v76 k1_hw200 => k1_hw200

def k1_chk201 (v34 : IVec S16 32) (v79 : IVec S16 32) : Prop :=
  (∀ a x, ((![v34, v79] : Fin 2 → IVec S16 32) a x).toNat < S50x128.size a)
instance k1_chk201.dec : ∀ (v34 : IVec S16 32) (v79 : IVec S16 32), Decidable (k1_chk201 v34 v79) := fun v34 v79 => decidable_of_iff' _ (Iff.of_eq (k1_chk201.eq_1 v34 v79))
theorem k1_idx201_inb : ∀ (v34 : IVec S16 32) (v79 : IVec S16 32) (k1_hw201 : k1_chk201 v34 v79), ∀ a x, ((![v34, v79] : Fin 2 → IVec S16 32) a x).toNat < S50x128.size a := fun v34 v79 k1_hw201 => k1_hw201
def k1_off73 (k1_t4 : Fin k1_t4_loop.trips) : Fin 2 → Nat :=
  let c2_i32_51 : BitVec 32 := 2#32
  let v84 : Index := Scalar.indexCast c2_i32_51
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v85 : Index := Scalar.indexCast v18
  ![2, v85.toNat]

def k1_chk202 (v41 : IVec S16 32) (v88 : IVec S16 32) : Prop :=
  (∀ a x, ((![v41, v88] : Fin 2 → IVec S16 32) a x).toNat < S256x128.size a)
instance k1_chk202.dec : ∀ (v41 : IVec S16 32) (v88 : IVec S16 32), Decidable (k1_chk202 v41 v88) := fun v41 v88 => decidable_of_iff' _ (Iff.of_eq (k1_chk202.eq_1 v41 v88))
theorem k1_idx202_inb : ∀ (v41 : IVec S16 32) (v88 : IVec S16 32) (k1_hw202 : k1_chk202 v41 v88), ∀ a x, ((![v41, v88] : Fin 2 → IVec S16 32) a x).toNat < S256x128.size a := fun v41 v88 k1_hw202 => k1_hw202

def k1_chk203 (v41 : IVec S16 32) (v91 : IVec S16 32) : Prop :=
  (∀ a x, ((![v41, v91] : Fin 2 → IVec S16 32) a x).toNat < S256x128.size a)
instance k1_chk203.dec : ∀ (v41 : IVec S16 32) (v91 : IVec S16 32), Decidable (k1_chk203 v41 v91) := fun v41 v91 => decidable_of_iff' _ (Iff.of_eq (k1_chk203.eq_1 v41 v91))
theorem k1_idx203_inb : ∀ (v41 : IVec S16 32) (v91 : IVec S16 32) (k1_hw203 : k1_chk203 v41 v91), ∀ a x, ((![v41, v91] : Fin 2 → IVec S16 32) a x).toNat < S256x128.size a := fun v41 v91 k1_hw203 => k1_hw203

def k1_chk204 (v34 : IVec S16 32) (v94 : IVec S16 32) : Prop :=
  (∀ a x, ((![v34, v94] : Fin 2 → IVec S16 32) a x).toNat < S50x128.size a)
instance k1_chk204.dec : ∀ (v34 : IVec S16 32) (v94 : IVec S16 32), Decidable (k1_chk204 v34 v94) := fun v34 v94 => decidable_of_iff' _ (Iff.of_eq (k1_chk204.eq_1 v34 v94))
theorem k1_idx204_inb : ∀ (v34 : IVec S16 32) (v94 : IVec S16 32) (k1_hw204 : k1_chk204 v34 v94), ∀ a x, ((![v34, v94] : Fin 2 → IVec S16 32) a x).toNat < S50x128.size a := fun v34 v94 k1_hw204 => k1_hw204
def k1_off74 (k1_t4 : Fin k1_t4_loop.trips) : Fin 2 → Nat :=
  let c3_i32_55 : BitVec 32 := 3#32
  let v99 : Index := Scalar.indexCast c3_i32_55
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v100 : Index := Scalar.indexCast v18
  ![3, v100.toNat]

def k1_chk205 (v41 : IVec S16 32) (v103 : IVec S16 32) : Prop :=
  (∀ a x, ((![v41, v103] : Fin 2 → IVec S16 32) a x).toNat < S256x128.size a)
instance k1_chk205.dec : ∀ (v41 : IVec S16 32) (v103 : IVec S16 32), Decidable (k1_chk205 v41 v103) := fun v41 v103 => decidable_of_iff' _ (Iff.of_eq (k1_chk205.eq_1 v41 v103))
theorem k1_idx205_inb : ∀ (v41 : IVec S16 32) (v103 : IVec S16 32) (k1_hw205 : k1_chk205 v41 v103), ∀ a x, ((![v41, v103] : Fin 2 → IVec S16 32) a x).toNat < S256x128.size a := fun v41 v103 k1_hw205 => k1_hw205

def k1_chk206 (v41 : IVec S16 32) (v106 : IVec S16 32) : Prop :=
  (∀ a x, ((![v41, v106] : Fin 2 → IVec S16 32) a x).toNat < S256x128.size a)
instance k1_chk206.dec : ∀ (v41 : IVec S16 32) (v106 : IVec S16 32), Decidable (k1_chk206 v41 v106) := fun v41 v106 => decidable_of_iff' _ (Iff.of_eq (k1_chk206.eq_1 v41 v106))
theorem k1_idx206_inb : ∀ (v41 : IVec S16 32) (v106 : IVec S16 32) (k1_hw206 : k1_chk206 v41 v106), ∀ a x, ((![v41, v106] : Fin 2 → IVec S16 32) a x).toNat < S256x128.size a := fun v41 v106 k1_hw206 => k1_hw206

def k1_chk207 (v34 : IVec S16 32) (v109 : IVec S16 32) : Prop :=
  (∀ a x, ((![v34, v109] : Fin 2 → IVec S16 32) a x).toNat < S50x128.size a)
instance k1_chk207.dec : ∀ (v34 : IVec S16 32) (v109 : IVec S16 32), Decidable (k1_chk207 v34 v109) := fun v34 v109 => decidable_of_iff' _ (Iff.of_eq (k1_chk207.eq_1 v34 v109))
theorem k1_idx207_inb : ∀ (v34 : IVec S16 32) (v109 : IVec S16 32) (k1_hw207 : k1_chk207 v34 v109), ∀ a x, ((![v34, v109] : Fin 2 → IVec S16 32) a x).toNat < S50x128.size a := fun v34 v109 k1_hw207 => k1_hw207
def k1_off75 (k1_t4 : Fin k1_t4_loop.trips) : Fin 2 → Nat :=
  let c4_i32_58 : BitVec 32 := 4#32
  let v114 : Index := Scalar.indexCast c4_i32_58
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v115 : Index := Scalar.indexCast v18
  ![4, v115.toNat]

def k1_chk208 (v41 : IVec S16 32) (v118 : IVec S16 32) : Prop :=
  (∀ a x, ((![v41, v118] : Fin 2 → IVec S16 32) a x).toNat < S256x128.size a)
instance k1_chk208.dec : ∀ (v41 : IVec S16 32) (v118 : IVec S16 32), Decidable (k1_chk208 v41 v118) := fun v41 v118 => decidable_of_iff' _ (Iff.of_eq (k1_chk208.eq_1 v41 v118))
theorem k1_idx208_inb : ∀ (v41 : IVec S16 32) (v118 : IVec S16 32) (k1_hw208 : k1_chk208 v41 v118), ∀ a x, ((![v41, v118] : Fin 2 → IVec S16 32) a x).toNat < S256x128.size a := fun v41 v118 k1_hw208 => k1_hw208

def k1_chk209 (v41 : IVec S16 32) (v121 : IVec S16 32) : Prop :=
  (∀ a x, ((![v41, v121] : Fin 2 → IVec S16 32) a x).toNat < S256x128.size a)
instance k1_chk209.dec : ∀ (v41 : IVec S16 32) (v121 : IVec S16 32), Decidable (k1_chk209 v41 v121) := fun v41 v121 => decidable_of_iff' _ (Iff.of_eq (k1_chk209.eq_1 v41 v121))
theorem k1_idx209_inb : ∀ (v41 : IVec S16 32) (v121 : IVec S16 32) (k1_hw209 : k1_chk209 v41 v121), ∀ a x, ((![v41, v121] : Fin 2 → IVec S16 32) a x).toNat < S256x128.size a := fun v41 v121 k1_hw209 => k1_hw209

def k1_chk210 (v34 : IVec S16 32) (v124 : IVec S16 32) : Prop :=
  (∀ a x, ((![v34, v124] : Fin 2 → IVec S16 32) a x).toNat < S50x128.size a)
instance k1_chk210.dec : ∀ (v34 : IVec S16 32) (v124 : IVec S16 32), Decidable (k1_chk210 v34 v124) := fun v34 v124 => decidable_of_iff' _ (Iff.of_eq (k1_chk210.eq_1 v34 v124))
theorem k1_idx210_inb : ∀ (v34 : IVec S16 32) (v124 : IVec S16 32) (k1_hw210 : k1_chk210 v34 v124), ∀ a x, ((![v34, v124] : Fin 2 → IVec S16 32) a x).toNat < S50x128.size a := fun v34 v124 k1_hw210 => k1_hw210
def k1_off76 (k1_t4 : Fin k1_t4_loop.trips) : Fin 2 → Nat :=
  let c5_i32_61 : BitVec 32 := 5#32
  let v129 : Index := Scalar.indexCast c5_i32_61
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v130 : Index := Scalar.indexCast v18
  ![5, v130.toNat]

def k1_chk211 (v41 : IVec S16 32) (v133 : IVec S16 32) : Prop :=
  (∀ a x, ((![v41, v133] : Fin 2 → IVec S16 32) a x).toNat < S256x128.size a)
instance k1_chk211.dec : ∀ (v41 : IVec S16 32) (v133 : IVec S16 32), Decidable (k1_chk211 v41 v133) := fun v41 v133 => decidable_of_iff' _ (Iff.of_eq (k1_chk211.eq_1 v41 v133))
theorem k1_idx211_inb : ∀ (v41 : IVec S16 32) (v133 : IVec S16 32) (k1_hw211 : k1_chk211 v41 v133), ∀ a x, ((![v41, v133] : Fin 2 → IVec S16 32) a x).toNat < S256x128.size a := fun v41 v133 k1_hw211 => k1_hw211

def k1_chk212 (v41 : IVec S16 32) (v136 : IVec S16 32) : Prop :=
  (∀ a x, ((![v41, v136] : Fin 2 → IVec S16 32) a x).toNat < S256x128.size a)
instance k1_chk212.dec : ∀ (v41 : IVec S16 32) (v136 : IVec S16 32), Decidable (k1_chk212 v41 v136) := fun v41 v136 => decidable_of_iff' _ (Iff.of_eq (k1_chk212.eq_1 v41 v136))
theorem k1_idx212_inb : ∀ (v41 : IVec S16 32) (v136 : IVec S16 32) (k1_hw212 : k1_chk212 v41 v136), ∀ a x, ((![v41, v136] : Fin 2 → IVec S16 32) a x).toNat < S256x128.size a := fun v41 v136 k1_hw212 => k1_hw212

def k1_chk213 (v34 : IVec S16 32) (v139 : IVec S16 32) : Prop :=
  (∀ a x, ((![v34, v139] : Fin 2 → IVec S16 32) a x).toNat < S50x128.size a)
instance k1_chk213.dec : ∀ (v34 : IVec S16 32) (v139 : IVec S16 32), Decidable (k1_chk213 v34 v139) := fun v34 v139 => decidable_of_iff' _ (Iff.of_eq (k1_chk213.eq_1 v34 v139))
theorem k1_idx213_inb : ∀ (v34 : IVec S16 32) (v139 : IVec S16 32) (k1_hw213 : k1_chk213 v34 v139), ∀ a x, ((![v34, v139] : Fin 2 → IVec S16 32) a x).toNat < S50x128.size a := fun v34 v139 k1_hw213 => k1_hw213
def k1_off77 (k1_t4 : Fin k1_t4_loop.trips) : Fin 2 → Nat :=
  let c6_i32_65 : BitVec 32 := 6#32
  let v144 : Index := Scalar.indexCast c6_i32_65
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v145 : Index := Scalar.indexCast v18
  ![6, v145.toNat]

def k1_chk214 (v41 : IVec S16 32) (v148 : IVec S16 32) : Prop :=
  (∀ a x, ((![v41, v148] : Fin 2 → IVec S16 32) a x).toNat < S256x128.size a)
instance k1_chk214.dec : ∀ (v41 : IVec S16 32) (v148 : IVec S16 32), Decidable (k1_chk214 v41 v148) := fun v41 v148 => decidable_of_iff' _ (Iff.of_eq (k1_chk214.eq_1 v41 v148))
theorem k1_idx214_inb : ∀ (v41 : IVec S16 32) (v148 : IVec S16 32) (k1_hw214 : k1_chk214 v41 v148), ∀ a x, ((![v41, v148] : Fin 2 → IVec S16 32) a x).toNat < S256x128.size a := fun v41 v148 k1_hw214 => k1_hw214

def k1_chk215 (v41 : IVec S16 32) (v151 : IVec S16 32) : Prop :=
  (∀ a x, ((![v41, v151] : Fin 2 → IVec S16 32) a x).toNat < S256x128.size a)
instance k1_chk215.dec : ∀ (v41 : IVec S16 32) (v151 : IVec S16 32), Decidable (k1_chk215 v41 v151) := fun v41 v151 => decidable_of_iff' _ (Iff.of_eq (k1_chk215.eq_1 v41 v151))
theorem k1_idx215_inb : ∀ (v41 : IVec S16 32) (v151 : IVec S16 32) (k1_hw215 : k1_chk215 v41 v151), ∀ a x, ((![v41, v151] : Fin 2 → IVec S16 32) a x).toNat < S256x128.size a := fun v41 v151 k1_hw215 => k1_hw215

def k1_chk216 (v34 : IVec S16 32) (v154 : IVec S16 32) : Prop :=
  (∀ a x, ((![v34, v154] : Fin 2 → IVec S16 32) a x).toNat < S50x128.size a)
instance k1_chk216.dec : ∀ (v34 : IVec S16 32) (v154 : IVec S16 32), Decidable (k1_chk216 v34 v154) := fun v34 v154 => decidable_of_iff' _ (Iff.of_eq (k1_chk216.eq_1 v34 v154))
theorem k1_idx216_inb : ∀ (v34 : IVec S16 32) (v154 : IVec S16 32) (k1_hw216 : k1_chk216 v34 v154), ∀ a x, ((![v34, v154] : Fin 2 → IVec S16 32) a x).toNat < S50x128.size a := fun v34 v154 k1_hw216 => k1_hw216
def k1_off78 (k1_t4 : Fin k1_t4_loop.trips) : Fin 2 → Nat :=
  let c7_i32_68 : BitVec 32 := 7#32
  let v159 : Index := Scalar.indexCast c7_i32_68
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v160 : Index := Scalar.indexCast v18
  ![7, v160.toNat]

def k1_chk217 (v41 : IVec S16 32) (v163 : IVec S16 32) : Prop :=
  (∀ a x, ((![v41, v163] : Fin 2 → IVec S16 32) a x).toNat < S256x128.size a)
instance k1_chk217.dec : ∀ (v41 : IVec S16 32) (v163 : IVec S16 32), Decidable (k1_chk217 v41 v163) := fun v41 v163 => decidable_of_iff' _ (Iff.of_eq (k1_chk217.eq_1 v41 v163))
theorem k1_idx217_inb : ∀ (v41 : IVec S16 32) (v163 : IVec S16 32) (k1_hw217 : k1_chk217 v41 v163), ∀ a x, ((![v41, v163] : Fin 2 → IVec S16 32) a x).toNat < S256x128.size a := fun v41 v163 k1_hw217 => k1_hw217

def k1_chk218 (v41 : IVec S16 32) (v166 : IVec S16 32) : Prop :=
  (∀ a x, ((![v41, v166] : Fin 2 → IVec S16 32) a x).toNat < S256x128.size a)
instance k1_chk218.dec : ∀ (v41 : IVec S16 32) (v166 : IVec S16 32), Decidable (k1_chk218 v41 v166) := fun v41 v166 => decidable_of_iff' _ (Iff.of_eq (k1_chk218.eq_1 v41 v166))
theorem k1_idx218_inb : ∀ (v41 : IVec S16 32) (v166 : IVec S16 32) (k1_hw218 : k1_chk218 v41 v166), ∀ a x, ((![v41, v166] : Fin 2 → IVec S16 32) a x).toNat < S256x128.size a := fun v41 v166 k1_hw218 => k1_hw218

def k1_chk219 (v34 : IVec S16 32) (v169 : IVec S16 32) : Prop :=
  (∀ a x, ((![v34, v169] : Fin 2 → IVec S16 32) a x).toNat < S50x128.size a)
instance k1_chk219.dec : ∀ (v34 : IVec S16 32) (v169 : IVec S16 32), Decidable (k1_chk219 v34 v169) := fun v34 v169 => decidable_of_iff' _ (Iff.of_eq (k1_chk219.eq_1 v34 v169))
theorem k1_idx219_inb : ∀ (v34 : IVec S16 32) (v169 : IVec S16 32) (k1_hw219 : k1_chk219 v34 v169), ∀ a x, ((![v34, v169] : Fin 2 → IVec S16 32) a x).toNat < S50x128.size a := fun v34 v169 k1_hw219 => k1_hw219
def k1_off79 (k1_t4 : Fin k1_t4_loop.trips) : Fin 2 → Nat :=
  let c8_i32_72 : BitVec 32 := 8#32
  let v174 : Index := Scalar.indexCast c8_i32_72
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v175 : Index := Scalar.indexCast v18
  ![8, v175.toNat]

def k1_chk220 (v41 : IVec S16 32) (v178 : IVec S16 32) : Prop :=
  (∀ a x, ((![v41, v178] : Fin 2 → IVec S16 32) a x).toNat < S256x128.size a)
instance k1_chk220.dec : ∀ (v41 : IVec S16 32) (v178 : IVec S16 32), Decidable (k1_chk220 v41 v178) := fun v41 v178 => decidable_of_iff' _ (Iff.of_eq (k1_chk220.eq_1 v41 v178))
theorem k1_idx220_inb : ∀ (v41 : IVec S16 32) (v178 : IVec S16 32) (k1_hw220 : k1_chk220 v41 v178), ∀ a x, ((![v41, v178] : Fin 2 → IVec S16 32) a x).toNat < S256x128.size a := fun v41 v178 k1_hw220 => k1_hw220

def k1_chk221 (v41 : IVec S16 32) (v181 : IVec S16 32) : Prop :=
  (∀ a x, ((![v41, v181] : Fin 2 → IVec S16 32) a x).toNat < S256x128.size a)
instance k1_chk221.dec : ∀ (v41 : IVec S16 32) (v181 : IVec S16 32), Decidable (k1_chk221 v41 v181) := fun v41 v181 => decidable_of_iff' _ (Iff.of_eq (k1_chk221.eq_1 v41 v181))
theorem k1_idx221_inb : ∀ (v41 : IVec S16 32) (v181 : IVec S16 32) (k1_hw221 : k1_chk221 v41 v181), ∀ a x, ((![v41, v181] : Fin 2 → IVec S16 32) a x).toNat < S256x128.size a := fun v41 v181 k1_hw221 => k1_hw221

def k1_chk222 (v34 : IVec S16 32) (v184 : IVec S16 32) : Prop :=
  (∀ a x, ((![v34, v184] : Fin 2 → IVec S16 32) a x).toNat < S50x128.size a)
instance k1_chk222.dec : ∀ (v34 : IVec S16 32) (v184 : IVec S16 32), Decidable (k1_chk222 v34 v184) := fun v34 v184 => decidable_of_iff' _ (Iff.of_eq (k1_chk222.eq_1 v34 v184))
theorem k1_idx222_inb : ∀ (v34 : IVec S16 32) (v184 : IVec S16 32) (k1_hw222 : k1_chk222 v34 v184), ∀ a x, ((![v34, v184] : Fin 2 → IVec S16 32) a x).toNat < S50x128.size a := fun v34 v184 k1_hw222 => k1_hw222
def k1_off80 (k1_t4 : Fin k1_t4_loop.trips) : Fin 2 → Nat :=
  let c9_i32_75 : BitVec 32 := 9#32
  let v189 : Index := Scalar.indexCast c9_i32_75
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v190 : Index := Scalar.indexCast v18
  ![9, v190.toNat]

def k1_chk223 (v41 : IVec S16 32) (v193 : IVec S16 32) : Prop :=
  (∀ a x, ((![v41, v193] : Fin 2 → IVec S16 32) a x).toNat < S256x128.size a)
instance k1_chk223.dec : ∀ (v41 : IVec S16 32) (v193 : IVec S16 32), Decidable (k1_chk223 v41 v193) := fun v41 v193 => decidable_of_iff' _ (Iff.of_eq (k1_chk223.eq_1 v41 v193))
theorem k1_idx223_inb : ∀ (v41 : IVec S16 32) (v193 : IVec S16 32) (k1_hw223 : k1_chk223 v41 v193), ∀ a x, ((![v41, v193] : Fin 2 → IVec S16 32) a x).toNat < S256x128.size a := fun v41 v193 k1_hw223 => k1_hw223

def k1_chk224 (v41 : IVec S16 32) (v196 : IVec S16 32) : Prop :=
  (∀ a x, ((![v41, v196] : Fin 2 → IVec S16 32) a x).toNat < S256x128.size a)
instance k1_chk224.dec : ∀ (v41 : IVec S16 32) (v196 : IVec S16 32), Decidable (k1_chk224 v41 v196) := fun v41 v196 => decidable_of_iff' _ (Iff.of_eq (k1_chk224.eq_1 v41 v196))
theorem k1_idx224_inb : ∀ (v41 : IVec S16 32) (v196 : IVec S16 32) (k1_hw224 : k1_chk224 v41 v196), ∀ a x, ((![v41, v196] : Fin 2 → IVec S16 32) a x).toNat < S256x128.size a := fun v41 v196 k1_hw224 => k1_hw224

def k1_chk225 (v34 : IVec S16 32) (v199 : IVec S16 32) : Prop :=
  (∀ a x, ((![v34, v199] : Fin 2 → IVec S16 32) a x).toNat < S50x128.size a)
instance k1_chk225.dec : ∀ (v34 : IVec S16 32) (v199 : IVec S16 32), Decidable (k1_chk225 v34 v199) := fun v34 v199 => decidable_of_iff' _ (Iff.of_eq (k1_chk225.eq_1 v34 v199))
theorem k1_idx225_inb : ∀ (v34 : IVec S16 32) (v199 : IVec S16 32) (k1_hw225 : k1_chk225 v34 v199), ∀ a x, ((![v34, v199] : Fin 2 → IVec S16 32) a x).toNat < S50x128.size a := fun v34 v199 k1_hw225 => k1_hw225
def k1_off81 (k1_t4 : Fin k1_t4_loop.trips) : Fin 2 → Nat :=
  let c10_i32_78 : BitVec 32 := 10#32
  let v204 : Index := Scalar.indexCast c10_i32_78
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v205 : Index := Scalar.indexCast v18
  ![10, v205.toNat]

def k1_chk226 (v41 : IVec S16 32) (v208 : IVec S16 32) : Prop :=
  (∀ a x, ((![v41, v208] : Fin 2 → IVec S16 32) a x).toNat < S256x128.size a)
instance k1_chk226.dec : ∀ (v41 : IVec S16 32) (v208 : IVec S16 32), Decidable (k1_chk226 v41 v208) := fun v41 v208 => decidable_of_iff' _ (Iff.of_eq (k1_chk226.eq_1 v41 v208))
theorem k1_idx226_inb : ∀ (v41 : IVec S16 32) (v208 : IVec S16 32) (k1_hw226 : k1_chk226 v41 v208), ∀ a x, ((![v41, v208] : Fin 2 → IVec S16 32) a x).toNat < S256x128.size a := fun v41 v208 k1_hw226 => k1_hw226

def k1_chk227 (v41 : IVec S16 32) (v211 : IVec S16 32) : Prop :=
  (∀ a x, ((![v41, v211] : Fin 2 → IVec S16 32) a x).toNat < S256x128.size a)
instance k1_chk227.dec : ∀ (v41 : IVec S16 32) (v211 : IVec S16 32), Decidable (k1_chk227 v41 v211) := fun v41 v211 => decidable_of_iff' _ (Iff.of_eq (k1_chk227.eq_1 v41 v211))
theorem k1_idx227_inb : ∀ (v41 : IVec S16 32) (v211 : IVec S16 32) (k1_hw227 : k1_chk227 v41 v211), ∀ a x, ((![v41, v211] : Fin 2 → IVec S16 32) a x).toNat < S256x128.size a := fun v41 v211 k1_hw227 => k1_hw227

def k1_chk228 (v34 : IVec S16 32) (v214 : IVec S16 32) : Prop :=
  (∀ a x, ((![v34, v214] : Fin 2 → IVec S16 32) a x).toNat < S50x128.size a)
instance k1_chk228.dec : ∀ (v34 : IVec S16 32) (v214 : IVec S16 32), Decidable (k1_chk228 v34 v214) := fun v34 v214 => decidable_of_iff' _ (Iff.of_eq (k1_chk228.eq_1 v34 v214))
theorem k1_idx228_inb : ∀ (v34 : IVec S16 32) (v214 : IVec S16 32) (k1_hw228 : k1_chk228 v34 v214), ∀ a x, ((![v34, v214] : Fin 2 → IVec S16 32) a x).toNat < S50x128.size a := fun v34 v214 k1_hw228 => k1_hw228
def k1_off82 (k1_t4 : Fin k1_t4_loop.trips) : Fin 2 → Nat :=
  let c11_i32_81 : BitVec 32 := 11#32
  let v219 : Index := Scalar.indexCast c11_i32_81
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v220 : Index := Scalar.indexCast v18
  ![11, v220.toNat]

def k1_chk229 (v41 : IVec S16 32) (v223 : IVec S16 32) : Prop :=
  (∀ a x, ((![v41, v223] : Fin 2 → IVec S16 32) a x).toNat < S256x128.size a)
instance k1_chk229.dec : ∀ (v41 : IVec S16 32) (v223 : IVec S16 32), Decidable (k1_chk229 v41 v223) := fun v41 v223 => decidable_of_iff' _ (Iff.of_eq (k1_chk229.eq_1 v41 v223))
theorem k1_idx229_inb : ∀ (v41 : IVec S16 32) (v223 : IVec S16 32) (k1_hw229 : k1_chk229 v41 v223), ∀ a x, ((![v41, v223] : Fin 2 → IVec S16 32) a x).toNat < S256x128.size a := fun v41 v223 k1_hw229 => k1_hw229

def k1_chk230 (v41 : IVec S16 32) (v226 : IVec S16 32) : Prop :=
  (∀ a x, ((![v41, v226] : Fin 2 → IVec S16 32) a x).toNat < S256x128.size a)
instance k1_chk230.dec : ∀ (v41 : IVec S16 32) (v226 : IVec S16 32), Decidable (k1_chk230 v41 v226) := fun v41 v226 => decidable_of_iff' _ (Iff.of_eq (k1_chk230.eq_1 v41 v226))
theorem k1_idx230_inb : ∀ (v41 : IVec S16 32) (v226 : IVec S16 32) (k1_hw230 : k1_chk230 v41 v226), ∀ a x, ((![v41, v226] : Fin 2 → IVec S16 32) a x).toNat < S256x128.size a := fun v41 v226 k1_hw230 => k1_hw230

def k1_chk231 (v34 : IVec S16 32) (v229 : IVec S16 32) : Prop :=
  (∀ a x, ((![v34, v229] : Fin 2 → IVec S16 32) a x).toNat < S50x128.size a)
instance k1_chk231.dec : ∀ (v34 : IVec S16 32) (v229 : IVec S16 32), Decidable (k1_chk231 v34 v229) := fun v34 v229 => decidable_of_iff' _ (Iff.of_eq (k1_chk231.eq_1 v34 v229))
theorem k1_idx231_inb : ∀ (v34 : IVec S16 32) (v229 : IVec S16 32) (k1_hw231 : k1_chk231 v34 v229), ∀ a x, ((![v34, v229] : Fin 2 → IVec S16 32) a x).toNat < S50x128.size a := fun v34 v229 k1_hw231 => k1_hw231
def k1_off83 (k1_t4 : Fin k1_t4_loop.trips) : Fin 2 → Nat :=
  let c12_i32_84 : BitVec 32 := 12#32
  let v234 : Index := Scalar.indexCast c12_i32_84
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v235 : Index := Scalar.indexCast v18
  ![12, v235.toNat]

def k1_chk232 (v41 : IVec S16 32) (v238 : IVec S16 32) : Prop :=
  (∀ a x, ((![v41, v238] : Fin 2 → IVec S16 32) a x).toNat < S256x128.size a)
instance k1_chk232.dec : ∀ (v41 : IVec S16 32) (v238 : IVec S16 32), Decidable (k1_chk232 v41 v238) := fun v41 v238 => decidable_of_iff' _ (Iff.of_eq (k1_chk232.eq_1 v41 v238))
theorem k1_idx232_inb : ∀ (v41 : IVec S16 32) (v238 : IVec S16 32) (k1_hw232 : k1_chk232 v41 v238), ∀ a x, ((![v41, v238] : Fin 2 → IVec S16 32) a x).toNat < S256x128.size a := fun v41 v238 k1_hw232 => k1_hw232

def k1_chk233 (v41 : IVec S16 32) (v241 : IVec S16 32) : Prop :=
  (∀ a x, ((![v41, v241] : Fin 2 → IVec S16 32) a x).toNat < S256x128.size a)
instance k1_chk233.dec : ∀ (v41 : IVec S16 32) (v241 : IVec S16 32), Decidable (k1_chk233 v41 v241) := fun v41 v241 => decidable_of_iff' _ (Iff.of_eq (k1_chk233.eq_1 v41 v241))
theorem k1_idx233_inb : ∀ (v41 : IVec S16 32) (v241 : IVec S16 32) (k1_hw233 : k1_chk233 v41 v241), ∀ a x, ((![v41, v241] : Fin 2 → IVec S16 32) a x).toNat < S256x128.size a := fun v41 v241 k1_hw233 => k1_hw233

def k1_chk234 (v34 : IVec S16 32) (v244 : IVec S16 32) : Prop :=
  (∀ a x, ((![v34, v244] : Fin 2 → IVec S16 32) a x).toNat < S50x128.size a)
instance k1_chk234.dec : ∀ (v34 : IVec S16 32) (v244 : IVec S16 32), Decidable (k1_chk234 v34 v244) := fun v34 v244 => decidable_of_iff' _ (Iff.of_eq (k1_chk234.eq_1 v34 v244))
theorem k1_idx234_inb : ∀ (v34 : IVec S16 32) (v244 : IVec S16 32) (k1_hw234 : k1_chk234 v34 v244), ∀ a x, ((![v34, v244] : Fin 2 → IVec S16 32) a x).toNat < S50x128.size a := fun v34 v244 k1_hw234 => k1_hw234
def k1_off84 (k1_t4 : Fin k1_t4_loop.trips) : Fin 2 → Nat :=
  let c13_i32_87 : BitVec 32 := 13#32
  let v249 : Index := Scalar.indexCast c13_i32_87
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v250 : Index := Scalar.indexCast v18
  ![13, v250.toNat]

def k1_chk235 (v41 : IVec S16 32) (v253 : IVec S16 32) : Prop :=
  (∀ a x, ((![v41, v253] : Fin 2 → IVec S16 32) a x).toNat < S256x128.size a)
instance k1_chk235.dec : ∀ (v41 : IVec S16 32) (v253 : IVec S16 32), Decidable (k1_chk235 v41 v253) := fun v41 v253 => decidable_of_iff' _ (Iff.of_eq (k1_chk235.eq_1 v41 v253))
theorem k1_idx235_inb : ∀ (v41 : IVec S16 32) (v253 : IVec S16 32) (k1_hw235 : k1_chk235 v41 v253), ∀ a x, ((![v41, v253] : Fin 2 → IVec S16 32) a x).toNat < S256x128.size a := fun v41 v253 k1_hw235 => k1_hw235

def k1_chk236 (v41 : IVec S16 32) (v256 : IVec S16 32) : Prop :=
  (∀ a x, ((![v41, v256] : Fin 2 → IVec S16 32) a x).toNat < S256x128.size a)
instance k1_chk236.dec : ∀ (v41 : IVec S16 32) (v256 : IVec S16 32), Decidable (k1_chk236 v41 v256) := fun v41 v256 => decidable_of_iff' _ (Iff.of_eq (k1_chk236.eq_1 v41 v256))
theorem k1_idx236_inb : ∀ (v41 : IVec S16 32) (v256 : IVec S16 32) (k1_hw236 : k1_chk236 v41 v256), ∀ a x, ((![v41, v256] : Fin 2 → IVec S16 32) a x).toNat < S256x128.size a := fun v41 v256 k1_hw236 => k1_hw236

def k1_chk237 (v34 : IVec S16 32) (v259 : IVec S16 32) : Prop :=
  (∀ a x, ((![v34, v259] : Fin 2 → IVec S16 32) a x).toNat < S50x128.size a)
instance k1_chk237.dec : ∀ (v34 : IVec S16 32) (v259 : IVec S16 32), Decidable (k1_chk237 v34 v259) := fun v34 v259 => decidable_of_iff' _ (Iff.of_eq (k1_chk237.eq_1 v34 v259))
theorem k1_idx237_inb : ∀ (v34 : IVec S16 32) (v259 : IVec S16 32) (k1_hw237 : k1_chk237 v34 v259), ∀ a x, ((![v34, v259] : Fin 2 → IVec S16 32) a x).toNat < S50x128.size a := fun v34 v259 k1_hw237 => k1_hw237
def k1_off85 (k1_t4 : Fin k1_t4_loop.trips) : Fin 2 → Nat :=
  let c14_i32_90 : BitVec 32 := 14#32
  let v264 : Index := Scalar.indexCast c14_i32_90
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v265 : Index := Scalar.indexCast v18
  ![14, v265.toNat]

def k1_chk238 (v41 : IVec S16 32) (v268 : IVec S16 32) : Prop :=
  (∀ a x, ((![v41, v268] : Fin 2 → IVec S16 32) a x).toNat < S256x128.size a)
instance k1_chk238.dec : ∀ (v41 : IVec S16 32) (v268 : IVec S16 32), Decidable (k1_chk238 v41 v268) := fun v41 v268 => decidable_of_iff' _ (Iff.of_eq (k1_chk238.eq_1 v41 v268))
theorem k1_idx238_inb : ∀ (v41 : IVec S16 32) (v268 : IVec S16 32) (k1_hw238 : k1_chk238 v41 v268), ∀ a x, ((![v41, v268] : Fin 2 → IVec S16 32) a x).toNat < S256x128.size a := fun v41 v268 k1_hw238 => k1_hw238

def k1_chk239 (v41 : IVec S16 32) (v271 : IVec S16 32) : Prop :=
  (∀ a x, ((![v41, v271] : Fin 2 → IVec S16 32) a x).toNat < S256x128.size a)
instance k1_chk239.dec : ∀ (v41 : IVec S16 32) (v271 : IVec S16 32), Decidable (k1_chk239 v41 v271) := fun v41 v271 => decidable_of_iff' _ (Iff.of_eq (k1_chk239.eq_1 v41 v271))
theorem k1_idx239_inb : ∀ (v41 : IVec S16 32) (v271 : IVec S16 32) (k1_hw239 : k1_chk239 v41 v271), ∀ a x, ((![v41, v271] : Fin 2 → IVec S16 32) a x).toNat < S256x128.size a := fun v41 v271 k1_hw239 => k1_hw239

def k1_chk240 (v34 : IVec S16 32) (v274 : IVec S16 32) : Prop :=
  (∀ a x, ((![v34, v274] : Fin 2 → IVec S16 32) a x).toNat < S50x128.size a)
instance k1_chk240.dec : ∀ (v34 : IVec S16 32) (v274 : IVec S16 32), Decidable (k1_chk240 v34 v274) := fun v34 v274 => decidable_of_iff' _ (Iff.of_eq (k1_chk240.eq_1 v34 v274))
theorem k1_idx240_inb : ∀ (v34 : IVec S16 32) (v274 : IVec S16 32) (k1_hw240 : k1_chk240 v34 v274), ∀ a x, ((![v34, v274] : Fin 2 → IVec S16 32) a x).toNat < S50x128.size a := fun v34 v274 k1_hw240 => k1_hw240
def k1_off86 (k1_t4 : Fin k1_t4_loop.trips) : Fin 2 → Nat :=
  let c15_i32_93 : BitVec 32 := 15#32
  let v279 : Index := Scalar.indexCast c15_i32_93
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v280 : Index := Scalar.indexCast v18
  ![15, v280.toNat]

def k1_chk241 (v41 : IVec S16 32) (v283 : IVec S16 32) : Prop :=
  (∀ a x, ((![v41, v283] : Fin 2 → IVec S16 32) a x).toNat < S256x128.size a)
instance k1_chk241.dec : ∀ (v41 : IVec S16 32) (v283 : IVec S16 32), Decidable (k1_chk241 v41 v283) := fun v41 v283 => decidable_of_iff' _ (Iff.of_eq (k1_chk241.eq_1 v41 v283))
theorem k1_idx241_inb : ∀ (v41 : IVec S16 32) (v283 : IVec S16 32) (k1_hw241 : k1_chk241 v41 v283), ∀ a x, ((![v41, v283] : Fin 2 → IVec S16 32) a x).toNat < S256x128.size a := fun v41 v283 k1_hw241 => k1_hw241

def k1_chk242 (v41 : IVec S16 32) (v286 : IVec S16 32) : Prop :=
  (∀ a x, ((![v41, v286] : Fin 2 → IVec S16 32) a x).toNat < S256x128.size a)
instance k1_chk242.dec : ∀ (v41 : IVec S16 32) (v286 : IVec S16 32), Decidable (k1_chk242 v41 v286) := fun v41 v286 => decidable_of_iff' _ (Iff.of_eq (k1_chk242.eq_1 v41 v286))
theorem k1_idx242_inb : ∀ (v41 : IVec S16 32) (v286 : IVec S16 32) (k1_hw242 : k1_chk242 v41 v286), ∀ a x, ((![v41, v286] : Fin 2 → IVec S16 32) a x).toNat < S256x128.size a := fun v41 v286 k1_hw242 => k1_hw242

def k1_chk243 (v34 : IVec S16 32) (v289 : IVec S16 32) : Prop :=
  (∀ a x, ((![v34, v289] : Fin 2 → IVec S16 32) a x).toNat < S50x128.size a)
instance k1_chk243.dec : ∀ (v34 : IVec S16 32) (v289 : IVec S16 32), Decidable (k1_chk243 v34 v289) := fun v34 v289 => decidable_of_iff' _ (Iff.of_eq (k1_chk243.eq_1 v34 v289))
theorem k1_idx243_inb : ∀ (v34 : IVec S16 32) (v289 : IVec S16 32) (k1_hw243 : k1_chk243 v34 v289), ∀ a x, ((![v34, v289] : Fin 2 → IVec S16 32) a x).toNat < S50x128.size a := fun v34 v289 k1_hw243 => k1_hw243
def k1_off87 (k1_t4 : Fin k1_t4_loop.trips) : Fin 2 → Nat :=
  let c16_i32_97 : BitVec 32 := 16#32
  let v294 : Index := Scalar.indexCast c16_i32_97
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v295 : Index := Scalar.indexCast v18
  ![16, v295.toNat]

def k1_chk244 (v41 : IVec S16 32) (v298 : IVec S16 32) : Prop :=
  (∀ a x, ((![v41, v298] : Fin 2 → IVec S16 32) a x).toNat < S256x128.size a)
instance k1_chk244.dec : ∀ (v41 : IVec S16 32) (v298 : IVec S16 32), Decidable (k1_chk244 v41 v298) := fun v41 v298 => decidable_of_iff' _ (Iff.of_eq (k1_chk244.eq_1 v41 v298))
theorem k1_idx244_inb : ∀ (v41 : IVec S16 32) (v298 : IVec S16 32) (k1_hw244 : k1_chk244 v41 v298), ∀ a x, ((![v41, v298] : Fin 2 → IVec S16 32) a x).toNat < S256x128.size a := fun v41 v298 k1_hw244 => k1_hw244

def k1_chk245 (v41 : IVec S16 32) (v301 : IVec S16 32) : Prop :=
  (∀ a x, ((![v41, v301] : Fin 2 → IVec S16 32) a x).toNat < S256x128.size a)
instance k1_chk245.dec : ∀ (v41 : IVec S16 32) (v301 : IVec S16 32), Decidable (k1_chk245 v41 v301) := fun v41 v301 => decidable_of_iff' _ (Iff.of_eq (k1_chk245.eq_1 v41 v301))
theorem k1_idx245_inb : ∀ (v41 : IVec S16 32) (v301 : IVec S16 32) (k1_hw245 : k1_chk245 v41 v301), ∀ a x, ((![v41, v301] : Fin 2 → IVec S16 32) a x).toNat < S256x128.size a := fun v41 v301 k1_hw245 => k1_hw245

def k1_chk246 (v34 : IVec S16 32) (v304 : IVec S16 32) : Prop :=
  (∀ a x, ((![v34, v304] : Fin 2 → IVec S16 32) a x).toNat < S50x128.size a)
instance k1_chk246.dec : ∀ (v34 : IVec S16 32) (v304 : IVec S16 32), Decidable (k1_chk246 v34 v304) := fun v34 v304 => decidable_of_iff' _ (Iff.of_eq (k1_chk246.eq_1 v34 v304))
theorem k1_idx246_inb : ∀ (v34 : IVec S16 32) (v304 : IVec S16 32) (k1_hw246 : k1_chk246 v34 v304), ∀ a x, ((![v34, v304] : Fin 2 → IVec S16 32) a x).toNat < S50x128.size a := fun v34 v304 k1_hw246 => k1_hw246
def k1_off88 (k1_t4 : Fin k1_t4_loop.trips) : Fin 2 → Nat :=
  let c17_i32_100 : BitVec 32 := 17#32
  let v309 : Index := Scalar.indexCast c17_i32_100
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v310 : Index := Scalar.indexCast v18
  ![17, v310.toNat]

def k1_chk247 (v41 : IVec S16 32) (v313 : IVec S16 32) : Prop :=
  (∀ a x, ((![v41, v313] : Fin 2 → IVec S16 32) a x).toNat < S256x128.size a)
instance k1_chk247.dec : ∀ (v41 : IVec S16 32) (v313 : IVec S16 32), Decidable (k1_chk247 v41 v313) := fun v41 v313 => decidable_of_iff' _ (Iff.of_eq (k1_chk247.eq_1 v41 v313))
theorem k1_idx247_inb : ∀ (v41 : IVec S16 32) (v313 : IVec S16 32) (k1_hw247 : k1_chk247 v41 v313), ∀ a x, ((![v41, v313] : Fin 2 → IVec S16 32) a x).toNat < S256x128.size a := fun v41 v313 k1_hw247 => k1_hw247

def k1_chk248 (v41 : IVec S16 32) (v316 : IVec S16 32) : Prop :=
  (∀ a x, ((![v41, v316] : Fin 2 → IVec S16 32) a x).toNat < S256x128.size a)
instance k1_chk248.dec : ∀ (v41 : IVec S16 32) (v316 : IVec S16 32), Decidable (k1_chk248 v41 v316) := fun v41 v316 => decidable_of_iff' _ (Iff.of_eq (k1_chk248.eq_1 v41 v316))
theorem k1_idx248_inb : ∀ (v41 : IVec S16 32) (v316 : IVec S16 32) (k1_hw248 : k1_chk248 v41 v316), ∀ a x, ((![v41, v316] : Fin 2 → IVec S16 32) a x).toNat < S256x128.size a := fun v41 v316 k1_hw248 => k1_hw248

def k1_chk249 (v34 : IVec S16 32) (v319 : IVec S16 32) : Prop :=
  (∀ a x, ((![v34, v319] : Fin 2 → IVec S16 32) a x).toNat < S50x128.size a)
instance k1_chk249.dec : ∀ (v34 : IVec S16 32) (v319 : IVec S16 32), Decidable (k1_chk249 v34 v319) := fun v34 v319 => decidable_of_iff' _ (Iff.of_eq (k1_chk249.eq_1 v34 v319))
theorem k1_idx249_inb : ∀ (v34 : IVec S16 32) (v319 : IVec S16 32) (k1_hw249 : k1_chk249 v34 v319), ∀ a x, ((![v34, v319] : Fin 2 → IVec S16 32) a x).toNat < S50x128.size a := fun v34 v319 k1_hw249 => k1_hw249
def k1_off89 (k1_t4 : Fin k1_t4_loop.trips) : Fin 2 → Nat :=
  let c18_i32_103 : BitVec 32 := 18#32
  let v324 : Index := Scalar.indexCast c18_i32_103
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v325 : Index := Scalar.indexCast v18
  ![18, v325.toNat]

def k1_chk250 (v41 : IVec S16 32) (v328 : IVec S16 32) : Prop :=
  (∀ a x, ((![v41, v328] : Fin 2 → IVec S16 32) a x).toNat < S256x128.size a)
instance k1_chk250.dec : ∀ (v41 : IVec S16 32) (v328 : IVec S16 32), Decidable (k1_chk250 v41 v328) := fun v41 v328 => decidable_of_iff' _ (Iff.of_eq (k1_chk250.eq_1 v41 v328))
theorem k1_idx250_inb : ∀ (v41 : IVec S16 32) (v328 : IVec S16 32) (k1_hw250 : k1_chk250 v41 v328), ∀ a x, ((![v41, v328] : Fin 2 → IVec S16 32) a x).toNat < S256x128.size a := fun v41 v328 k1_hw250 => k1_hw250

def k1_chk251 (v41 : IVec S16 32) (v331 : IVec S16 32) : Prop :=
  (∀ a x, ((![v41, v331] : Fin 2 → IVec S16 32) a x).toNat < S256x128.size a)
instance k1_chk251.dec : ∀ (v41 : IVec S16 32) (v331 : IVec S16 32), Decidable (k1_chk251 v41 v331) := fun v41 v331 => decidable_of_iff' _ (Iff.of_eq (k1_chk251.eq_1 v41 v331))
theorem k1_idx251_inb : ∀ (v41 : IVec S16 32) (v331 : IVec S16 32) (k1_hw251 : k1_chk251 v41 v331), ∀ a x, ((![v41, v331] : Fin 2 → IVec S16 32) a x).toNat < S256x128.size a := fun v41 v331 k1_hw251 => k1_hw251

def k1_chk252 (v34 : IVec S16 32) (v334 : IVec S16 32) : Prop :=
  (∀ a x, ((![v34, v334] : Fin 2 → IVec S16 32) a x).toNat < S50x128.size a)
instance k1_chk252.dec : ∀ (v34 : IVec S16 32) (v334 : IVec S16 32), Decidable (k1_chk252 v34 v334) := fun v34 v334 => decidable_of_iff' _ (Iff.of_eq (k1_chk252.eq_1 v34 v334))
theorem k1_idx252_inb : ∀ (v34 : IVec S16 32) (v334 : IVec S16 32) (k1_hw252 : k1_chk252 v34 v334), ∀ a x, ((![v34, v334] : Fin 2 → IVec S16 32) a x).toNat < S50x128.size a := fun v34 v334 k1_hw252 => k1_hw252
def k1_off90 (k1_t4 : Fin k1_t4_loop.trips) : Fin 2 → Nat :=
  let c19_i32_106 : BitVec 32 := 19#32
  let v339 : Index := Scalar.indexCast c19_i32_106
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v340 : Index := Scalar.indexCast v18
  ![19, v340.toNat]

def k1_chk253 (v41 : IVec S16 32) (v343 : IVec S16 32) : Prop :=
  (∀ a x, ((![v41, v343] : Fin 2 → IVec S16 32) a x).toNat < S256x128.size a)
instance k1_chk253.dec : ∀ (v41 : IVec S16 32) (v343 : IVec S16 32), Decidable (k1_chk253 v41 v343) := fun v41 v343 => decidable_of_iff' _ (Iff.of_eq (k1_chk253.eq_1 v41 v343))
theorem k1_idx253_inb : ∀ (v41 : IVec S16 32) (v343 : IVec S16 32) (k1_hw253 : k1_chk253 v41 v343), ∀ a x, ((![v41, v343] : Fin 2 → IVec S16 32) a x).toNat < S256x128.size a := fun v41 v343 k1_hw253 => k1_hw253

def k1_chk254 (v41 : IVec S16 32) (v346 : IVec S16 32) : Prop :=
  (∀ a x, ((![v41, v346] : Fin 2 → IVec S16 32) a x).toNat < S256x128.size a)
instance k1_chk254.dec : ∀ (v41 : IVec S16 32) (v346 : IVec S16 32), Decidable (k1_chk254 v41 v346) := fun v41 v346 => decidable_of_iff' _ (Iff.of_eq (k1_chk254.eq_1 v41 v346))
theorem k1_idx254_inb : ∀ (v41 : IVec S16 32) (v346 : IVec S16 32) (k1_hw254 : k1_chk254 v41 v346), ∀ a x, ((![v41, v346] : Fin 2 → IVec S16 32) a x).toNat < S256x128.size a := fun v41 v346 k1_hw254 => k1_hw254

def k1_chk255 (v34 : IVec S16 32) (v349 : IVec S16 32) : Prop :=
  (∀ a x, ((![v34, v349] : Fin 2 → IVec S16 32) a x).toNat < S50x128.size a)
instance k1_chk255.dec : ∀ (v34 : IVec S16 32) (v349 : IVec S16 32), Decidable (k1_chk255 v34 v349) := fun v34 v349 => decidable_of_iff' _ (Iff.of_eq (k1_chk255.eq_1 v34 v349))
theorem k1_idx255_inb : ∀ (v34 : IVec S16 32) (v349 : IVec S16 32) (k1_hw255 : k1_chk255 v34 v349), ∀ a x, ((![v34, v349] : Fin 2 → IVec S16 32) a x).toNat < S50x128.size a := fun v34 v349 k1_hw255 => k1_hw255
def k1_off91 (k1_t4 : Fin k1_t4_loop.trips) : Fin 2 → Nat :=
  let c20_i32_109 : BitVec 32 := 20#32
  let v354 : Index := Scalar.indexCast c20_i32_109
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v355 : Index := Scalar.indexCast v18
  ![20, v355.toNat]

def k1_chk256 (v41 : IVec S16 32) (v358 : IVec S16 32) : Prop :=
  (∀ a x, ((![v41, v358] : Fin 2 → IVec S16 32) a x).toNat < S256x128.size a)
instance k1_chk256.dec : ∀ (v41 : IVec S16 32) (v358 : IVec S16 32), Decidable (k1_chk256 v41 v358) := fun v41 v358 => decidable_of_iff' _ (Iff.of_eq (k1_chk256.eq_1 v41 v358))
theorem k1_idx256_inb : ∀ (v41 : IVec S16 32) (v358 : IVec S16 32) (k1_hw256 : k1_chk256 v41 v358), ∀ a x, ((![v41, v358] : Fin 2 → IVec S16 32) a x).toNat < S256x128.size a := fun v41 v358 k1_hw256 => k1_hw256

def k1_chk257 (v41 : IVec S16 32) (v361 : IVec S16 32) : Prop :=
  (∀ a x, ((![v41, v361] : Fin 2 → IVec S16 32) a x).toNat < S256x128.size a)
instance k1_chk257.dec : ∀ (v41 : IVec S16 32) (v361 : IVec S16 32), Decidable (k1_chk257 v41 v361) := fun v41 v361 => decidable_of_iff' _ (Iff.of_eq (k1_chk257.eq_1 v41 v361))
theorem k1_idx257_inb : ∀ (v41 : IVec S16 32) (v361 : IVec S16 32) (k1_hw257 : k1_chk257 v41 v361), ∀ a x, ((![v41, v361] : Fin 2 → IVec S16 32) a x).toNat < S256x128.size a := fun v41 v361 k1_hw257 => k1_hw257

def k1_chk258 (v34 : IVec S16 32) (v364 : IVec S16 32) : Prop :=
  (∀ a x, ((![v34, v364] : Fin 2 → IVec S16 32) a x).toNat < S50x128.size a)
instance k1_chk258.dec : ∀ (v34 : IVec S16 32) (v364 : IVec S16 32), Decidable (k1_chk258 v34 v364) := fun v34 v364 => decidable_of_iff' _ (Iff.of_eq (k1_chk258.eq_1 v34 v364))
theorem k1_idx258_inb : ∀ (v34 : IVec S16 32) (v364 : IVec S16 32) (k1_hw258 : k1_chk258 v34 v364), ∀ a x, ((![v34, v364] : Fin 2 → IVec S16 32) a x).toNat < S50x128.size a := fun v34 v364 k1_hw258 => k1_hw258
def k1_off92 (k1_t4 : Fin k1_t4_loop.trips) : Fin 2 → Nat :=
  let c21_i32_112 : BitVec 32 := 21#32
  let v369 : Index := Scalar.indexCast c21_i32_112
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v370 : Index := Scalar.indexCast v18
  ![21, v370.toNat]

def k1_chk259 (v41 : IVec S16 32) (v373 : IVec S16 32) : Prop :=
  (∀ a x, ((![v41, v373] : Fin 2 → IVec S16 32) a x).toNat < S256x128.size a)
instance k1_chk259.dec : ∀ (v41 : IVec S16 32) (v373 : IVec S16 32), Decidable (k1_chk259 v41 v373) := fun v41 v373 => decidable_of_iff' _ (Iff.of_eq (k1_chk259.eq_1 v41 v373))
theorem k1_idx259_inb : ∀ (v41 : IVec S16 32) (v373 : IVec S16 32) (k1_hw259 : k1_chk259 v41 v373), ∀ a x, ((![v41, v373] : Fin 2 → IVec S16 32) a x).toNat < S256x128.size a := fun v41 v373 k1_hw259 => k1_hw259

def k1_chk260 (v41 : IVec S16 32) (v376 : IVec S16 32) : Prop :=
  (∀ a x, ((![v41, v376] : Fin 2 → IVec S16 32) a x).toNat < S256x128.size a)
instance k1_chk260.dec : ∀ (v41 : IVec S16 32) (v376 : IVec S16 32), Decidable (k1_chk260 v41 v376) := fun v41 v376 => decidable_of_iff' _ (Iff.of_eq (k1_chk260.eq_1 v41 v376))
theorem k1_idx260_inb : ∀ (v41 : IVec S16 32) (v376 : IVec S16 32) (k1_hw260 : k1_chk260 v41 v376), ∀ a x, ((![v41, v376] : Fin 2 → IVec S16 32) a x).toNat < S256x128.size a := fun v41 v376 k1_hw260 => k1_hw260

def k1_chk261 (v34 : IVec S16 32) (v379 : IVec S16 32) : Prop :=
  (∀ a x, ((![v34, v379] : Fin 2 → IVec S16 32) a x).toNat < S50x128.size a)
instance k1_chk261.dec : ∀ (v34 : IVec S16 32) (v379 : IVec S16 32), Decidable (k1_chk261 v34 v379) := fun v34 v379 => decidable_of_iff' _ (Iff.of_eq (k1_chk261.eq_1 v34 v379))
theorem k1_idx261_inb : ∀ (v34 : IVec S16 32) (v379 : IVec S16 32) (k1_hw261 : k1_chk261 v34 v379), ∀ a x, ((![v34, v379] : Fin 2 → IVec S16 32) a x).toNat < S50x128.size a := fun v34 v379 k1_hw261 => k1_hw261
def k1_off93 (k1_t4 : Fin k1_t4_loop.trips) : Fin 2 → Nat :=
  let c22_i32_115 : BitVec 32 := 22#32
  let v384 : Index := Scalar.indexCast c22_i32_115
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v385 : Index := Scalar.indexCast v18
  ![22, v385.toNat]

def k1_chk262 (v41 : IVec S16 32) (v388 : IVec S16 32) : Prop :=
  (∀ a x, ((![v41, v388] : Fin 2 → IVec S16 32) a x).toNat < S256x128.size a)
instance k1_chk262.dec : ∀ (v41 : IVec S16 32) (v388 : IVec S16 32), Decidable (k1_chk262 v41 v388) := fun v41 v388 => decidable_of_iff' _ (Iff.of_eq (k1_chk262.eq_1 v41 v388))
theorem k1_idx262_inb : ∀ (v41 : IVec S16 32) (v388 : IVec S16 32) (k1_hw262 : k1_chk262 v41 v388), ∀ a x, ((![v41, v388] : Fin 2 → IVec S16 32) a x).toNat < S256x128.size a := fun v41 v388 k1_hw262 => k1_hw262

def k1_chk263 (v41 : IVec S16 32) (v391 : IVec S16 32) : Prop :=
  (∀ a x, ((![v41, v391] : Fin 2 → IVec S16 32) a x).toNat < S256x128.size a)
instance k1_chk263.dec : ∀ (v41 : IVec S16 32) (v391 : IVec S16 32), Decidable (k1_chk263 v41 v391) := fun v41 v391 => decidable_of_iff' _ (Iff.of_eq (k1_chk263.eq_1 v41 v391))
theorem k1_idx263_inb : ∀ (v41 : IVec S16 32) (v391 : IVec S16 32) (k1_hw263 : k1_chk263 v41 v391), ∀ a x, ((![v41, v391] : Fin 2 → IVec S16 32) a x).toNat < S256x128.size a := fun v41 v391 k1_hw263 => k1_hw263

def k1_chk264 (v34 : IVec S16 32) (v394 : IVec S16 32) : Prop :=
  (∀ a x, ((![v34, v394] : Fin 2 → IVec S16 32) a x).toNat < S50x128.size a)
instance k1_chk264.dec : ∀ (v34 : IVec S16 32) (v394 : IVec S16 32), Decidable (k1_chk264 v34 v394) := fun v34 v394 => decidable_of_iff' _ (Iff.of_eq (k1_chk264.eq_1 v34 v394))
theorem k1_idx264_inb : ∀ (v34 : IVec S16 32) (v394 : IVec S16 32) (k1_hw264 : k1_chk264 v34 v394), ∀ a x, ((![v34, v394] : Fin 2 → IVec S16 32) a x).toNat < S50x128.size a := fun v34 v394 k1_hw264 => k1_hw264
def k1_off94 (k1_t4 : Fin k1_t4_loop.trips) : Fin 2 → Nat :=
  let c23_i32_118 : BitVec 32 := 23#32
  let v399 : Index := Scalar.indexCast c23_i32_118
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v400 : Index := Scalar.indexCast v18
  ![23, v400.toNat]

def k1_chk265 (v41 : IVec S16 32) (v403 : IVec S16 32) : Prop :=
  (∀ a x, ((![v41, v403] : Fin 2 → IVec S16 32) a x).toNat < S256x128.size a)
instance k1_chk265.dec : ∀ (v41 : IVec S16 32) (v403 : IVec S16 32), Decidable (k1_chk265 v41 v403) := fun v41 v403 => decidable_of_iff' _ (Iff.of_eq (k1_chk265.eq_1 v41 v403))
theorem k1_idx265_inb : ∀ (v41 : IVec S16 32) (v403 : IVec S16 32) (k1_hw265 : k1_chk265 v41 v403), ∀ a x, ((![v41, v403] : Fin 2 → IVec S16 32) a x).toNat < S256x128.size a := fun v41 v403 k1_hw265 => k1_hw265

def k1_chk266 (v41 : IVec S16 32) (v406 : IVec S16 32) : Prop :=
  (∀ a x, ((![v41, v406] : Fin 2 → IVec S16 32) a x).toNat < S256x128.size a)
instance k1_chk266.dec : ∀ (v41 : IVec S16 32) (v406 : IVec S16 32), Decidable (k1_chk266 v41 v406) := fun v41 v406 => decidable_of_iff' _ (Iff.of_eq (k1_chk266.eq_1 v41 v406))
theorem k1_idx266_inb : ∀ (v41 : IVec S16 32) (v406 : IVec S16 32) (k1_hw266 : k1_chk266 v41 v406), ∀ a x, ((![v41, v406] : Fin 2 → IVec S16 32) a x).toNat < S256x128.size a := fun v41 v406 k1_hw266 => k1_hw266

def k1_chk267 (v34 : IVec S16 32) (v409 : IVec S16 32) : Prop :=
  (∀ a x, ((![v34, v409] : Fin 2 → IVec S16 32) a x).toNat < S50x128.size a)
instance k1_chk267.dec : ∀ (v34 : IVec S16 32) (v409 : IVec S16 32), Decidable (k1_chk267 v34 v409) := fun v34 v409 => decidable_of_iff' _ (Iff.of_eq (k1_chk267.eq_1 v34 v409))
theorem k1_idx267_inb : ∀ (v34 : IVec S16 32) (v409 : IVec S16 32) (k1_hw267 : k1_chk267 v34 v409), ∀ a x, ((![v34, v409] : Fin 2 → IVec S16 32) a x).toNat < S50x128.size a := fun v34 v409 k1_hw267 => k1_hw267
def k1_off95 (k1_t4 : Fin k1_t4_loop.trips) : Fin 2 → Nat :=
  let c24_i32_121 : BitVec 32 := 24#32
  let v414 : Index := Scalar.indexCast c24_i32_121
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v415 : Index := Scalar.indexCast v18
  ![24, v415.toNat]

def k1_chk268 (v41 : IVec S16 32) (v418 : IVec S16 32) : Prop :=
  (∀ a x, ((![v41, v418] : Fin 2 → IVec S16 32) a x).toNat < S256x128.size a)
instance k1_chk268.dec : ∀ (v41 : IVec S16 32) (v418 : IVec S16 32), Decidable (k1_chk268 v41 v418) := fun v41 v418 => decidable_of_iff' _ (Iff.of_eq (k1_chk268.eq_1 v41 v418))
theorem k1_idx268_inb : ∀ (v41 : IVec S16 32) (v418 : IVec S16 32) (k1_hw268 : k1_chk268 v41 v418), ∀ a x, ((![v41, v418] : Fin 2 → IVec S16 32) a x).toNat < S256x128.size a := fun v41 v418 k1_hw268 => k1_hw268

def k1_chk269 (v41 : IVec S16 32) (v421 : IVec S16 32) : Prop :=
  (∀ a x, ((![v41, v421] : Fin 2 → IVec S16 32) a x).toNat < S256x128.size a)
instance k1_chk269.dec : ∀ (v41 : IVec S16 32) (v421 : IVec S16 32), Decidable (k1_chk269 v41 v421) := fun v41 v421 => decidable_of_iff' _ (Iff.of_eq (k1_chk269.eq_1 v41 v421))
theorem k1_idx269_inb : ∀ (v41 : IVec S16 32) (v421 : IVec S16 32) (k1_hw269 : k1_chk269 v41 v421), ∀ a x, ((![v41, v421] : Fin 2 → IVec S16 32) a x).toNat < S256x128.size a := fun v41 v421 k1_hw269 => k1_hw269

def k1_chk270 (v34 : IVec S16 32) (v424 : IVec S16 32) : Prop :=
  (∀ a x, ((![v34, v424] : Fin 2 → IVec S16 32) a x).toNat < S50x128.size a)
instance k1_chk270.dec : ∀ (v34 : IVec S16 32) (v424 : IVec S16 32), Decidable (k1_chk270 v34 v424) := fun v34 v424 => decidable_of_iff' _ (Iff.of_eq (k1_chk270.eq_1 v34 v424))
theorem k1_idx270_inb : ∀ (v34 : IVec S16 32) (v424 : IVec S16 32) (k1_hw270 : k1_chk270 v34 v424), ∀ a x, ((![v34, v424] : Fin 2 → IVec S16 32) a x).toNat < S50x128.size a := fun v34 v424 k1_hw270 => k1_hw270
def k1_off96 (k1_t4 : Fin k1_t4_loop.trips) : Fin 2 → Nat :=
  let c25_i32_124 : BitVec 32 := 25#32
  let v429 : Index := Scalar.indexCast c25_i32_124
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v430 : Index := Scalar.indexCast v18
  ![25, v430.toNat]

def k1_chk271 (v41 : IVec S16 32) (v433 : IVec S16 32) : Prop :=
  (∀ a x, ((![v41, v433] : Fin 2 → IVec S16 32) a x).toNat < S256x128.size a)
instance k1_chk271.dec : ∀ (v41 : IVec S16 32) (v433 : IVec S16 32), Decidable (k1_chk271 v41 v433) := fun v41 v433 => decidable_of_iff' _ (Iff.of_eq (k1_chk271.eq_1 v41 v433))
theorem k1_idx271_inb : ∀ (v41 : IVec S16 32) (v433 : IVec S16 32) (k1_hw271 : k1_chk271 v41 v433), ∀ a x, ((![v41, v433] : Fin 2 → IVec S16 32) a x).toNat < S256x128.size a := fun v41 v433 k1_hw271 => k1_hw271

def k1_chk272 (v41 : IVec S16 32) (v436 : IVec S16 32) : Prop :=
  (∀ a x, ((![v41, v436] : Fin 2 → IVec S16 32) a x).toNat < S256x128.size a)
instance k1_chk272.dec : ∀ (v41 : IVec S16 32) (v436 : IVec S16 32), Decidable (k1_chk272 v41 v436) := fun v41 v436 => decidable_of_iff' _ (Iff.of_eq (k1_chk272.eq_1 v41 v436))
theorem k1_idx272_inb : ∀ (v41 : IVec S16 32) (v436 : IVec S16 32) (k1_hw272 : k1_chk272 v41 v436), ∀ a x, ((![v41, v436] : Fin 2 → IVec S16 32) a x).toNat < S256x128.size a := fun v41 v436 k1_hw272 => k1_hw272

def k1_chk273 (v34 : IVec S16 32) (v439 : IVec S16 32) : Prop :=
  (∀ a x, ((![v34, v439] : Fin 2 → IVec S16 32) a x).toNat < S50x128.size a)
instance k1_chk273.dec : ∀ (v34 : IVec S16 32) (v439 : IVec S16 32), Decidable (k1_chk273 v34 v439) := fun v34 v439 => decidable_of_iff' _ (Iff.of_eq (k1_chk273.eq_1 v34 v439))
theorem k1_idx273_inb : ∀ (v34 : IVec S16 32) (v439 : IVec S16 32) (k1_hw273 : k1_chk273 v34 v439), ∀ a x, ((![v34, v439] : Fin 2 → IVec S16 32) a x).toNat < S50x128.size a := fun v34 v439 k1_hw273 => k1_hw273
def k1_off97 (k1_t4 : Fin k1_t4_loop.trips) : Fin 2 → Nat :=
  let c26_i32_127 : BitVec 32 := 26#32
  let v444 : Index := Scalar.indexCast c26_i32_127
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v445 : Index := Scalar.indexCast v18
  ![26, v445.toNat]

def k1_chk274 (v41 : IVec S16 32) (v448 : IVec S16 32) : Prop :=
  (∀ a x, ((![v41, v448] : Fin 2 → IVec S16 32) a x).toNat < S256x128.size a)
instance k1_chk274.dec : ∀ (v41 : IVec S16 32) (v448 : IVec S16 32), Decidable (k1_chk274 v41 v448) := fun v41 v448 => decidable_of_iff' _ (Iff.of_eq (k1_chk274.eq_1 v41 v448))
theorem k1_idx274_inb : ∀ (v41 : IVec S16 32) (v448 : IVec S16 32) (k1_hw274 : k1_chk274 v41 v448), ∀ a x, ((![v41, v448] : Fin 2 → IVec S16 32) a x).toNat < S256x128.size a := fun v41 v448 k1_hw274 => k1_hw274

def k1_chk275 (v41 : IVec S16 32) (v451 : IVec S16 32) : Prop :=
  (∀ a x, ((![v41, v451] : Fin 2 → IVec S16 32) a x).toNat < S256x128.size a)
instance k1_chk275.dec : ∀ (v41 : IVec S16 32) (v451 : IVec S16 32), Decidable (k1_chk275 v41 v451) := fun v41 v451 => decidable_of_iff' _ (Iff.of_eq (k1_chk275.eq_1 v41 v451))
theorem k1_idx275_inb : ∀ (v41 : IVec S16 32) (v451 : IVec S16 32) (k1_hw275 : k1_chk275 v41 v451), ∀ a x, ((![v41, v451] : Fin 2 → IVec S16 32) a x).toNat < S256x128.size a := fun v41 v451 k1_hw275 => k1_hw275

def k1_chk276 (v34 : IVec S16 32) (v454 : IVec S16 32) : Prop :=
  (∀ a x, ((![v34, v454] : Fin 2 → IVec S16 32) a x).toNat < S50x128.size a)
instance k1_chk276.dec : ∀ (v34 : IVec S16 32) (v454 : IVec S16 32), Decidable (k1_chk276 v34 v454) := fun v34 v454 => decidable_of_iff' _ (Iff.of_eq (k1_chk276.eq_1 v34 v454))
theorem k1_idx276_inb : ∀ (v34 : IVec S16 32) (v454 : IVec S16 32) (k1_hw276 : k1_chk276 v34 v454), ∀ a x, ((![v34, v454] : Fin 2 → IVec S16 32) a x).toNat < S50x128.size a := fun v34 v454 k1_hw276 => k1_hw276
def k1_off98 (k1_t4 : Fin k1_t4_loop.trips) : Fin 2 → Nat :=
  let c27_i32_130 : BitVec 32 := 27#32
  let v459 : Index := Scalar.indexCast c27_i32_130
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v460 : Index := Scalar.indexCast v18
  ![27, v460.toNat]

def k1_chk277 (v41 : IVec S16 32) (v463 : IVec S16 32) : Prop :=
  (∀ a x, ((![v41, v463] : Fin 2 → IVec S16 32) a x).toNat < S256x128.size a)
instance k1_chk277.dec : ∀ (v41 : IVec S16 32) (v463 : IVec S16 32), Decidable (k1_chk277 v41 v463) := fun v41 v463 => decidable_of_iff' _ (Iff.of_eq (k1_chk277.eq_1 v41 v463))
theorem k1_idx277_inb : ∀ (v41 : IVec S16 32) (v463 : IVec S16 32) (k1_hw277 : k1_chk277 v41 v463), ∀ a x, ((![v41, v463] : Fin 2 → IVec S16 32) a x).toNat < S256x128.size a := fun v41 v463 k1_hw277 => k1_hw277

def k1_chk278 (v41 : IVec S16 32) (v466 : IVec S16 32) : Prop :=
  (∀ a x, ((![v41, v466] : Fin 2 → IVec S16 32) a x).toNat < S256x128.size a)
instance k1_chk278.dec : ∀ (v41 : IVec S16 32) (v466 : IVec S16 32), Decidable (k1_chk278 v41 v466) := fun v41 v466 => decidable_of_iff' _ (Iff.of_eq (k1_chk278.eq_1 v41 v466))
theorem k1_idx278_inb : ∀ (v41 : IVec S16 32) (v466 : IVec S16 32) (k1_hw278 : k1_chk278 v41 v466), ∀ a x, ((![v41, v466] : Fin 2 → IVec S16 32) a x).toNat < S256x128.size a := fun v41 v466 k1_hw278 => k1_hw278

def k1_chk279 (v34 : IVec S16 32) (v469 : IVec S16 32) : Prop :=
  (∀ a x, ((![v34, v469] : Fin 2 → IVec S16 32) a x).toNat < S50x128.size a)
instance k1_chk279.dec : ∀ (v34 : IVec S16 32) (v469 : IVec S16 32), Decidable (k1_chk279 v34 v469) := fun v34 v469 => decidable_of_iff' _ (Iff.of_eq (k1_chk279.eq_1 v34 v469))
theorem k1_idx279_inb : ∀ (v34 : IVec S16 32) (v469 : IVec S16 32) (k1_hw279 : k1_chk279 v34 v469), ∀ a x, ((![v34, v469] : Fin 2 → IVec S16 32) a x).toNat < S50x128.size a := fun v34 v469 k1_hw279 => k1_hw279
def k1_off99 (k1_t4 : Fin k1_t4_loop.trips) : Fin 2 → Nat :=
  let c28_i32_133 : BitVec 32 := 28#32
  let v474 : Index := Scalar.indexCast c28_i32_133
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v475 : Index := Scalar.indexCast v18
  ![28, v475.toNat]

def k1_chk280 (v41 : IVec S16 32) (v478 : IVec S16 32) : Prop :=
  (∀ a x, ((![v41, v478] : Fin 2 → IVec S16 32) a x).toNat < S256x128.size a)
instance k1_chk280.dec : ∀ (v41 : IVec S16 32) (v478 : IVec S16 32), Decidable (k1_chk280 v41 v478) := fun v41 v478 => decidable_of_iff' _ (Iff.of_eq (k1_chk280.eq_1 v41 v478))
theorem k1_idx280_inb : ∀ (v41 : IVec S16 32) (v478 : IVec S16 32) (k1_hw280 : k1_chk280 v41 v478), ∀ a x, ((![v41, v478] : Fin 2 → IVec S16 32) a x).toNat < S256x128.size a := fun v41 v478 k1_hw280 => k1_hw280

def k1_chk281 (v41 : IVec S16 32) (v481 : IVec S16 32) : Prop :=
  (∀ a x, ((![v41, v481] : Fin 2 → IVec S16 32) a x).toNat < S256x128.size a)
instance k1_chk281.dec : ∀ (v41 : IVec S16 32) (v481 : IVec S16 32), Decidable (k1_chk281 v41 v481) := fun v41 v481 => decidable_of_iff' _ (Iff.of_eq (k1_chk281.eq_1 v41 v481))
theorem k1_idx281_inb : ∀ (v41 : IVec S16 32) (v481 : IVec S16 32) (k1_hw281 : k1_chk281 v41 v481), ∀ a x, ((![v41, v481] : Fin 2 → IVec S16 32) a x).toNat < S256x128.size a := fun v41 v481 k1_hw281 => k1_hw281

def k1_chk282 (v34 : IVec S16 32) (v484 : IVec S16 32) : Prop :=
  (∀ a x, ((![v34, v484] : Fin 2 → IVec S16 32) a x).toNat < S50x128.size a)
instance k1_chk282.dec : ∀ (v34 : IVec S16 32) (v484 : IVec S16 32), Decidable (k1_chk282 v34 v484) := fun v34 v484 => decidable_of_iff' _ (Iff.of_eq (k1_chk282.eq_1 v34 v484))
theorem k1_idx282_inb : ∀ (v34 : IVec S16 32) (v484 : IVec S16 32) (k1_hw282 : k1_chk282 v34 v484), ∀ a x, ((![v34, v484] : Fin 2 → IVec S16 32) a x).toNat < S50x128.size a := fun v34 v484 k1_hw282 => k1_hw282
def k1_off100 (k1_t4 : Fin k1_t4_loop.trips) : Fin 2 → Nat :=
  let c29_i32_136 : BitVec 32 := 29#32
  let v489 : Index := Scalar.indexCast c29_i32_136
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v490 : Index := Scalar.indexCast v18
  ![29, v490.toNat]

def k1_chk283 (v41 : IVec S16 32) (v493 : IVec S16 32) : Prop :=
  (∀ a x, ((![v41, v493] : Fin 2 → IVec S16 32) a x).toNat < S256x128.size a)
instance k1_chk283.dec : ∀ (v41 : IVec S16 32) (v493 : IVec S16 32), Decidable (k1_chk283 v41 v493) := fun v41 v493 => decidable_of_iff' _ (Iff.of_eq (k1_chk283.eq_1 v41 v493))
theorem k1_idx283_inb : ∀ (v41 : IVec S16 32) (v493 : IVec S16 32) (k1_hw283 : k1_chk283 v41 v493), ∀ a x, ((![v41, v493] : Fin 2 → IVec S16 32) a x).toNat < S256x128.size a := fun v41 v493 k1_hw283 => k1_hw283

def k1_chk284 (v41 : IVec S16 32) (v496 : IVec S16 32) : Prop :=
  (∀ a x, ((![v41, v496] : Fin 2 → IVec S16 32) a x).toNat < S256x128.size a)
instance k1_chk284.dec : ∀ (v41 : IVec S16 32) (v496 : IVec S16 32), Decidable (k1_chk284 v41 v496) := fun v41 v496 => decidable_of_iff' _ (Iff.of_eq (k1_chk284.eq_1 v41 v496))
theorem k1_idx284_inb : ∀ (v41 : IVec S16 32) (v496 : IVec S16 32) (k1_hw284 : k1_chk284 v41 v496), ∀ a x, ((![v41, v496] : Fin 2 → IVec S16 32) a x).toNat < S256x128.size a := fun v41 v496 k1_hw284 => k1_hw284

def k1_chk285 (v34 : IVec S16 32) (v499 : IVec S16 32) : Prop :=
  (∀ a x, ((![v34, v499] : Fin 2 → IVec S16 32) a x).toNat < S50x128.size a)
instance k1_chk285.dec : ∀ (v34 : IVec S16 32) (v499 : IVec S16 32), Decidable (k1_chk285 v34 v499) := fun v34 v499 => decidable_of_iff' _ (Iff.of_eq (k1_chk285.eq_1 v34 v499))
theorem k1_idx285_inb : ∀ (v34 : IVec S16 32) (v499 : IVec S16 32) (k1_hw285 : k1_chk285 v34 v499), ∀ a x, ((![v34, v499] : Fin 2 → IVec S16 32) a x).toNat < S50x128.size a := fun v34 v499 k1_hw285 => k1_hw285
def k1_off101 (k1_t4 : Fin k1_t4_loop.trips) : Fin 2 → Nat :=
  let c30_i32_139 : BitVec 32 := 30#32
  let v504 : Index := Scalar.indexCast c30_i32_139
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v505 : Index := Scalar.indexCast v18
  ![30, v505.toNat]

def k1_chk286 (v41 : IVec S16 32) (v508 : IVec S16 32) : Prop :=
  (∀ a x, ((![v41, v508] : Fin 2 → IVec S16 32) a x).toNat < S256x128.size a)
instance k1_chk286.dec : ∀ (v41 : IVec S16 32) (v508 : IVec S16 32), Decidable (k1_chk286 v41 v508) := fun v41 v508 => decidable_of_iff' _ (Iff.of_eq (k1_chk286.eq_1 v41 v508))
theorem k1_idx286_inb : ∀ (v41 : IVec S16 32) (v508 : IVec S16 32) (k1_hw286 : k1_chk286 v41 v508), ∀ a x, ((![v41, v508] : Fin 2 → IVec S16 32) a x).toNat < S256x128.size a := fun v41 v508 k1_hw286 => k1_hw286

def k1_chk287 (v41 : IVec S16 32) (v511 : IVec S16 32) : Prop :=
  (∀ a x, ((![v41, v511] : Fin 2 → IVec S16 32) a x).toNat < S256x128.size a)
instance k1_chk287.dec : ∀ (v41 : IVec S16 32) (v511 : IVec S16 32), Decidable (k1_chk287 v41 v511) := fun v41 v511 => decidable_of_iff' _ (Iff.of_eq (k1_chk287.eq_1 v41 v511))
theorem k1_idx287_inb : ∀ (v41 : IVec S16 32) (v511 : IVec S16 32) (k1_hw287 : k1_chk287 v41 v511), ∀ a x, ((![v41, v511] : Fin 2 → IVec S16 32) a x).toNat < S256x128.size a := fun v41 v511 k1_hw287 => k1_hw287

def k1_chk288 (v34 : IVec S16 32) (v514 : IVec S16 32) : Prop :=
  (∀ a x, ((![v34, v514] : Fin 2 → IVec S16 32) a x).toNat < S50x128.size a)
instance k1_chk288.dec : ∀ (v34 : IVec S16 32) (v514 : IVec S16 32), Decidable (k1_chk288 v34 v514) := fun v34 v514 => decidable_of_iff' _ (Iff.of_eq (k1_chk288.eq_1 v34 v514))
theorem k1_idx288_inb : ∀ (v34 : IVec S16 32) (v514 : IVec S16 32) (k1_hw288 : k1_chk288 v34 v514), ∀ a x, ((![v34, v514] : Fin 2 → IVec S16 32) a x).toNat < S50x128.size a := fun v34 v514 k1_hw288 => k1_hw288
def k1_off102 (k1_t4 : Fin k1_t4_loop.trips) : Fin 2 → Nat :=
  let c31_i32_142 : BitVec 32 := 31#32
  let v519 : Index := Scalar.indexCast c31_i32_142
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v520 : Index := Scalar.indexCast v18
  ![31, v520.toNat]

def k1_chk289 (v41 : IVec S16 32) (v523 : IVec S16 32) : Prop :=
  (∀ a x, ((![v41, v523] : Fin 2 → IVec S16 32) a x).toNat < S256x128.size a)
instance k1_chk289.dec : ∀ (v41 : IVec S16 32) (v523 : IVec S16 32), Decidable (k1_chk289 v41 v523) := fun v41 v523 => decidable_of_iff' _ (Iff.of_eq (k1_chk289.eq_1 v41 v523))
theorem k1_idx289_inb : ∀ (v41 : IVec S16 32) (v523 : IVec S16 32) (k1_hw289 : k1_chk289 v41 v523), ∀ a x, ((![v41, v523] : Fin 2 → IVec S16 32) a x).toNat < S256x128.size a := fun v41 v523 k1_hw289 => k1_hw289

def k1_chk290 (v41 : IVec S16 32) (v526 : IVec S16 32) : Prop :=
  (∀ a x, ((![v41, v526] : Fin 2 → IVec S16 32) a x).toNat < S256x128.size a)
instance k1_chk290.dec : ∀ (v41 : IVec S16 32) (v526 : IVec S16 32), Decidable (k1_chk290 v41 v526) := fun v41 v526 => decidable_of_iff' _ (Iff.of_eq (k1_chk290.eq_1 v41 v526))
theorem k1_idx290_inb : ∀ (v41 : IVec S16 32) (v526 : IVec S16 32) (k1_hw290 : k1_chk290 v41 v526), ∀ a x, ((![v41, v526] : Fin 2 → IVec S16 32) a x).toNat < S256x128.size a := fun v41 v526 k1_hw290 => k1_hw290

def k1_chk291 (v34 : IVec S16 32) (v529 : IVec S16 32) : Prop :=
  (∀ a x, ((![v34, v529] : Fin 2 → IVec S16 32) a x).toNat < S50x128.size a)
instance k1_chk291.dec : ∀ (v34 : IVec S16 32) (v529 : IVec S16 32), Decidable (k1_chk291 v34 v529) := fun v34 v529 => decidable_of_iff' _ (Iff.of_eq (k1_chk291.eq_1 v34 v529))
theorem k1_idx291_inb : ∀ (v34 : IVec S16 32) (v529 : IVec S16 32) (k1_hw291 : k1_chk291 v34 v529), ∀ a x, ((![v34, v529] : Fin 2 → IVec S16 32) a x).toNat < S50x128.size a := fun v34 v529 k1_hw291 => k1_hw291
def k1_off103 (k1_t4 : Fin k1_t4_loop.trips) : Fin 2 → Nat :=
  let c32_i32_145 : BitVec 32 := 32#32
  let v534 : Index := Scalar.indexCast c32_i32_145
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v535 : Index := Scalar.indexCast v18
  ![32, v535.toNat]

def k1_chk292 (v41 : IVec S16 32) (v538 : IVec S16 32) : Prop :=
  (∀ a x, ((![v41, v538] : Fin 2 → IVec S16 32) a x).toNat < S256x128.size a)
instance k1_chk292.dec : ∀ (v41 : IVec S16 32) (v538 : IVec S16 32), Decidable (k1_chk292 v41 v538) := fun v41 v538 => decidable_of_iff' _ (Iff.of_eq (k1_chk292.eq_1 v41 v538))
theorem k1_idx292_inb : ∀ (v41 : IVec S16 32) (v538 : IVec S16 32) (k1_hw292 : k1_chk292 v41 v538), ∀ a x, ((![v41, v538] : Fin 2 → IVec S16 32) a x).toNat < S256x128.size a := fun v41 v538 k1_hw292 => k1_hw292

def k1_chk293 (v41 : IVec S16 32) (v541 : IVec S16 32) : Prop :=
  (∀ a x, ((![v41, v541] : Fin 2 → IVec S16 32) a x).toNat < S256x128.size a)
instance k1_chk293.dec : ∀ (v41 : IVec S16 32) (v541 : IVec S16 32), Decidable (k1_chk293 v41 v541) := fun v41 v541 => decidable_of_iff' _ (Iff.of_eq (k1_chk293.eq_1 v41 v541))
theorem k1_idx293_inb : ∀ (v41 : IVec S16 32) (v541 : IVec S16 32) (k1_hw293 : k1_chk293 v41 v541), ∀ a x, ((![v41, v541] : Fin 2 → IVec S16 32) a x).toNat < S256x128.size a := fun v41 v541 k1_hw293 => k1_hw293

def k1_chk294 (v34 : IVec S16 32) (v544 : IVec S16 32) : Prop :=
  (∀ a x, ((![v34, v544] : Fin 2 → IVec S16 32) a x).toNat < S50x128.size a)
instance k1_chk294.dec : ∀ (v34 : IVec S16 32) (v544 : IVec S16 32), Decidable (k1_chk294 v34 v544) := fun v34 v544 => decidable_of_iff' _ (Iff.of_eq (k1_chk294.eq_1 v34 v544))
theorem k1_idx294_inb : ∀ (v34 : IVec S16 32) (v544 : IVec S16 32) (k1_hw294 : k1_chk294 v34 v544), ∀ a x, ((![v34, v544] : Fin 2 → IVec S16 32) a x).toNat < S50x128.size a := fun v34 v544 k1_hw294 => k1_hw294
def k1_off104 (k1_t4 : Fin k1_t4_loop.trips) : Fin 2 → Nat :=
  let c33_i32_148 : BitVec 32 := 33#32
  let v549 : Index := Scalar.indexCast c33_i32_148
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v550 : Index := Scalar.indexCast v18
  ![33, v550.toNat]

def k1_chk295 (v41 : IVec S16 32) (v553 : IVec S16 32) : Prop :=
  (∀ a x, ((![v41, v553] : Fin 2 → IVec S16 32) a x).toNat < S256x128.size a)
instance k1_chk295.dec : ∀ (v41 : IVec S16 32) (v553 : IVec S16 32), Decidable (k1_chk295 v41 v553) := fun v41 v553 => decidable_of_iff' _ (Iff.of_eq (k1_chk295.eq_1 v41 v553))
theorem k1_idx295_inb : ∀ (v41 : IVec S16 32) (v553 : IVec S16 32) (k1_hw295 : k1_chk295 v41 v553), ∀ a x, ((![v41, v553] : Fin 2 → IVec S16 32) a x).toNat < S256x128.size a := fun v41 v553 k1_hw295 => k1_hw295

def k1_chk296 (v41 : IVec S16 32) (v556 : IVec S16 32) : Prop :=
  (∀ a x, ((![v41, v556] : Fin 2 → IVec S16 32) a x).toNat < S256x128.size a)
instance k1_chk296.dec : ∀ (v41 : IVec S16 32) (v556 : IVec S16 32), Decidable (k1_chk296 v41 v556) := fun v41 v556 => decidable_of_iff' _ (Iff.of_eq (k1_chk296.eq_1 v41 v556))
theorem k1_idx296_inb : ∀ (v41 : IVec S16 32) (v556 : IVec S16 32) (k1_hw296 : k1_chk296 v41 v556), ∀ a x, ((![v41, v556] : Fin 2 → IVec S16 32) a x).toNat < S256x128.size a := fun v41 v556 k1_hw296 => k1_hw296

def k1_chk297 (v34 : IVec S16 32) (v559 : IVec S16 32) : Prop :=
  (∀ a x, ((![v34, v559] : Fin 2 → IVec S16 32) a x).toNat < S50x128.size a)
instance k1_chk297.dec : ∀ (v34 : IVec S16 32) (v559 : IVec S16 32), Decidable (k1_chk297 v34 v559) := fun v34 v559 => decidable_of_iff' _ (Iff.of_eq (k1_chk297.eq_1 v34 v559))
theorem k1_idx297_inb : ∀ (v34 : IVec S16 32) (v559 : IVec S16 32) (k1_hw297 : k1_chk297 v34 v559), ∀ a x, ((![v34, v559] : Fin 2 → IVec S16 32) a x).toNat < S50x128.size a := fun v34 v559 k1_hw297 => k1_hw297
def k1_off105 (k1_t4 : Fin k1_t4_loop.trips) : Fin 2 → Nat :=
  let c34_i32_151 : BitVec 32 := 34#32
  let v564 : Index := Scalar.indexCast c34_i32_151
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v565 : Index := Scalar.indexCast v18
  ![34, v565.toNat]

def k1_chk298 (v41 : IVec S16 32) (v568 : IVec S16 32) : Prop :=
  (∀ a x, ((![v41, v568] : Fin 2 → IVec S16 32) a x).toNat < S256x128.size a)
instance k1_chk298.dec : ∀ (v41 : IVec S16 32) (v568 : IVec S16 32), Decidable (k1_chk298 v41 v568) := fun v41 v568 => decidable_of_iff' _ (Iff.of_eq (k1_chk298.eq_1 v41 v568))
theorem k1_idx298_inb : ∀ (v41 : IVec S16 32) (v568 : IVec S16 32) (k1_hw298 : k1_chk298 v41 v568), ∀ a x, ((![v41, v568] : Fin 2 → IVec S16 32) a x).toNat < S256x128.size a := fun v41 v568 k1_hw298 => k1_hw298

def k1_chk299 (v41 : IVec S16 32) (v571 : IVec S16 32) : Prop :=
  (∀ a x, ((![v41, v571] : Fin 2 → IVec S16 32) a x).toNat < S256x128.size a)
instance k1_chk299.dec : ∀ (v41 : IVec S16 32) (v571 : IVec S16 32), Decidable (k1_chk299 v41 v571) := fun v41 v571 => decidable_of_iff' _ (Iff.of_eq (k1_chk299.eq_1 v41 v571))
theorem k1_idx299_inb : ∀ (v41 : IVec S16 32) (v571 : IVec S16 32) (k1_hw299 : k1_chk299 v41 v571), ∀ a x, ((![v41, v571] : Fin 2 → IVec S16 32) a x).toNat < S256x128.size a := fun v41 v571 k1_hw299 => k1_hw299

def k1_chk300 (v34 : IVec S16 32) (v574 : IVec S16 32) : Prop :=
  (∀ a x, ((![v34, v574] : Fin 2 → IVec S16 32) a x).toNat < S50x128.size a)
instance k1_chk300.dec : ∀ (v34 : IVec S16 32) (v574 : IVec S16 32), Decidable (k1_chk300 v34 v574) := fun v34 v574 => decidable_of_iff' _ (Iff.of_eq (k1_chk300.eq_1 v34 v574))
theorem k1_idx300_inb : ∀ (v34 : IVec S16 32) (v574 : IVec S16 32) (k1_hw300 : k1_chk300 v34 v574), ∀ a x, ((![v34, v574] : Fin 2 → IVec S16 32) a x).toNat < S50x128.size a := fun v34 v574 k1_hw300 => k1_hw300
def k1_off106 (k1_t4 : Fin k1_t4_loop.trips) : Fin 2 → Nat :=
  let c35_i32_154 : BitVec 32 := 35#32
  let v579 : Index := Scalar.indexCast c35_i32_154
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v580 : Index := Scalar.indexCast v18
  ![35, v580.toNat]

def k1_chk301 (v41 : IVec S16 32) (v583 : IVec S16 32) : Prop :=
  (∀ a x, ((![v41, v583] : Fin 2 → IVec S16 32) a x).toNat < S256x128.size a)
instance k1_chk301.dec : ∀ (v41 : IVec S16 32) (v583 : IVec S16 32), Decidable (k1_chk301 v41 v583) := fun v41 v583 => decidable_of_iff' _ (Iff.of_eq (k1_chk301.eq_1 v41 v583))
theorem k1_idx301_inb : ∀ (v41 : IVec S16 32) (v583 : IVec S16 32) (k1_hw301 : k1_chk301 v41 v583), ∀ a x, ((![v41, v583] : Fin 2 → IVec S16 32) a x).toNat < S256x128.size a := fun v41 v583 k1_hw301 => k1_hw301

def k1_chk302 (v41 : IVec S16 32) (v586 : IVec S16 32) : Prop :=
  (∀ a x, ((![v41, v586] : Fin 2 → IVec S16 32) a x).toNat < S256x128.size a)
instance k1_chk302.dec : ∀ (v41 : IVec S16 32) (v586 : IVec S16 32), Decidable (k1_chk302 v41 v586) := fun v41 v586 => decidable_of_iff' _ (Iff.of_eq (k1_chk302.eq_1 v41 v586))
theorem k1_idx302_inb : ∀ (v41 : IVec S16 32) (v586 : IVec S16 32) (k1_hw302 : k1_chk302 v41 v586), ∀ a x, ((![v41, v586] : Fin 2 → IVec S16 32) a x).toNat < S256x128.size a := fun v41 v586 k1_hw302 => k1_hw302

def k1_chk303 (v34 : IVec S16 32) (v589 : IVec S16 32) : Prop :=
  (∀ a x, ((![v34, v589] : Fin 2 → IVec S16 32) a x).toNat < S50x128.size a)
instance k1_chk303.dec : ∀ (v34 : IVec S16 32) (v589 : IVec S16 32), Decidable (k1_chk303 v34 v589) := fun v34 v589 => decidable_of_iff' _ (Iff.of_eq (k1_chk303.eq_1 v34 v589))
theorem k1_idx303_inb : ∀ (v34 : IVec S16 32) (v589 : IVec S16 32) (k1_hw303 : k1_chk303 v34 v589), ∀ a x, ((![v34, v589] : Fin 2 → IVec S16 32) a x).toNat < S50x128.size a := fun v34 v589 k1_hw303 => k1_hw303
def k1_off107 (k1_t4 : Fin k1_t4_loop.trips) : Fin 2 → Nat :=
  let c36_i32_157 : BitVec 32 := 36#32
  let v594 : Index := Scalar.indexCast c36_i32_157
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v595 : Index := Scalar.indexCast v18
  ![36, v595.toNat]

def k1_chk304 (v41 : IVec S16 32) (v598 : IVec S16 32) : Prop :=
  (∀ a x, ((![v41, v598] : Fin 2 → IVec S16 32) a x).toNat < S256x128.size a)
instance k1_chk304.dec : ∀ (v41 : IVec S16 32) (v598 : IVec S16 32), Decidable (k1_chk304 v41 v598) := fun v41 v598 => decidable_of_iff' _ (Iff.of_eq (k1_chk304.eq_1 v41 v598))
theorem k1_idx304_inb : ∀ (v41 : IVec S16 32) (v598 : IVec S16 32) (k1_hw304 : k1_chk304 v41 v598), ∀ a x, ((![v41, v598] : Fin 2 → IVec S16 32) a x).toNat < S256x128.size a := fun v41 v598 k1_hw304 => k1_hw304

def k1_chk305 (v41 : IVec S16 32) (v601 : IVec S16 32) : Prop :=
  (∀ a x, ((![v41, v601] : Fin 2 → IVec S16 32) a x).toNat < S256x128.size a)
instance k1_chk305.dec : ∀ (v41 : IVec S16 32) (v601 : IVec S16 32), Decidable (k1_chk305 v41 v601) := fun v41 v601 => decidable_of_iff' _ (Iff.of_eq (k1_chk305.eq_1 v41 v601))
theorem k1_idx305_inb : ∀ (v41 : IVec S16 32) (v601 : IVec S16 32) (k1_hw305 : k1_chk305 v41 v601), ∀ a x, ((![v41, v601] : Fin 2 → IVec S16 32) a x).toNat < S256x128.size a := fun v41 v601 k1_hw305 => k1_hw305

def k1_chk306 (v34 : IVec S16 32) (v604 : IVec S16 32) : Prop :=
  (∀ a x, ((![v34, v604] : Fin 2 → IVec S16 32) a x).toNat < S50x128.size a)
instance k1_chk306.dec : ∀ (v34 : IVec S16 32) (v604 : IVec S16 32), Decidable (k1_chk306 v34 v604) := fun v34 v604 => decidable_of_iff' _ (Iff.of_eq (k1_chk306.eq_1 v34 v604))
theorem k1_idx306_inb : ∀ (v34 : IVec S16 32) (v604 : IVec S16 32) (k1_hw306 : k1_chk306 v34 v604), ∀ a x, ((![v34, v604] : Fin 2 → IVec S16 32) a x).toNat < S50x128.size a := fun v34 v604 k1_hw306 => k1_hw306
def k1_off108 (k1_t4 : Fin k1_t4_loop.trips) : Fin 2 → Nat :=
  let c37_i32_160 : BitVec 32 := 37#32
  let v609 : Index := Scalar.indexCast c37_i32_160
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v610 : Index := Scalar.indexCast v18
  ![37, v610.toNat]

def k1_chk307 (v41 : IVec S16 32) (v613 : IVec S16 32) : Prop :=
  (∀ a x, ((![v41, v613] : Fin 2 → IVec S16 32) a x).toNat < S256x128.size a)
instance k1_chk307.dec : ∀ (v41 : IVec S16 32) (v613 : IVec S16 32), Decidable (k1_chk307 v41 v613) := fun v41 v613 => decidable_of_iff' _ (Iff.of_eq (k1_chk307.eq_1 v41 v613))
theorem k1_idx307_inb : ∀ (v41 : IVec S16 32) (v613 : IVec S16 32) (k1_hw307 : k1_chk307 v41 v613), ∀ a x, ((![v41, v613] : Fin 2 → IVec S16 32) a x).toNat < S256x128.size a := fun v41 v613 k1_hw307 => k1_hw307

def k1_chk308 (v41 : IVec S16 32) (v616 : IVec S16 32) : Prop :=
  (∀ a x, ((![v41, v616] : Fin 2 → IVec S16 32) a x).toNat < S256x128.size a)
instance k1_chk308.dec : ∀ (v41 : IVec S16 32) (v616 : IVec S16 32), Decidable (k1_chk308 v41 v616) := fun v41 v616 => decidable_of_iff' _ (Iff.of_eq (k1_chk308.eq_1 v41 v616))
theorem k1_idx308_inb : ∀ (v41 : IVec S16 32) (v616 : IVec S16 32) (k1_hw308 : k1_chk308 v41 v616), ∀ a x, ((![v41, v616] : Fin 2 → IVec S16 32) a x).toNat < S256x128.size a := fun v41 v616 k1_hw308 => k1_hw308

def k1_chk309 (v34 : IVec S16 32) (v619 : IVec S16 32) : Prop :=
  (∀ a x, ((![v34, v619] : Fin 2 → IVec S16 32) a x).toNat < S50x128.size a)
instance k1_chk309.dec : ∀ (v34 : IVec S16 32) (v619 : IVec S16 32), Decidable (k1_chk309 v34 v619) := fun v34 v619 => decidable_of_iff' _ (Iff.of_eq (k1_chk309.eq_1 v34 v619))
theorem k1_idx309_inb : ∀ (v34 : IVec S16 32) (v619 : IVec S16 32) (k1_hw309 : k1_chk309 v34 v619), ∀ a x, ((![v34, v619] : Fin 2 → IVec S16 32) a x).toNat < S50x128.size a := fun v34 v619 k1_hw309 => k1_hw309
def k1_off109 (k1_t4 : Fin k1_t4_loop.trips) : Fin 2 → Nat :=
  let c38_i32_163 : BitVec 32 := 38#32
  let v624 : Index := Scalar.indexCast c38_i32_163
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v625 : Index := Scalar.indexCast v18
  ![38, v625.toNat]

def k1_chk310 (v41 : IVec S16 32) (v628 : IVec S16 32) : Prop :=
  (∀ a x, ((![v41, v628] : Fin 2 → IVec S16 32) a x).toNat < S256x128.size a)
instance k1_chk310.dec : ∀ (v41 : IVec S16 32) (v628 : IVec S16 32), Decidable (k1_chk310 v41 v628) := fun v41 v628 => decidable_of_iff' _ (Iff.of_eq (k1_chk310.eq_1 v41 v628))
theorem k1_idx310_inb : ∀ (v41 : IVec S16 32) (v628 : IVec S16 32) (k1_hw310 : k1_chk310 v41 v628), ∀ a x, ((![v41, v628] : Fin 2 → IVec S16 32) a x).toNat < S256x128.size a := fun v41 v628 k1_hw310 => k1_hw310

def k1_chk311 (v41 : IVec S16 32) (v631 : IVec S16 32) : Prop :=
  (∀ a x, ((![v41, v631] : Fin 2 → IVec S16 32) a x).toNat < S256x128.size a)
instance k1_chk311.dec : ∀ (v41 : IVec S16 32) (v631 : IVec S16 32), Decidable (k1_chk311 v41 v631) := fun v41 v631 => decidable_of_iff' _ (Iff.of_eq (k1_chk311.eq_1 v41 v631))
theorem k1_idx311_inb : ∀ (v41 : IVec S16 32) (v631 : IVec S16 32) (k1_hw311 : k1_chk311 v41 v631), ∀ a x, ((![v41, v631] : Fin 2 → IVec S16 32) a x).toNat < S256x128.size a := fun v41 v631 k1_hw311 => k1_hw311

def k1_chk312 (v34 : IVec S16 32) (v634 : IVec S16 32) : Prop :=
  (∀ a x, ((![v34, v634] : Fin 2 → IVec S16 32) a x).toNat < S50x128.size a)
instance k1_chk312.dec : ∀ (v34 : IVec S16 32) (v634 : IVec S16 32), Decidable (k1_chk312 v34 v634) := fun v34 v634 => decidable_of_iff' _ (Iff.of_eq (k1_chk312.eq_1 v34 v634))
theorem k1_idx312_inb : ∀ (v34 : IVec S16 32) (v634 : IVec S16 32) (k1_hw312 : k1_chk312 v34 v634), ∀ a x, ((![v34, v634] : Fin 2 → IVec S16 32) a x).toNat < S50x128.size a := fun v34 v634 k1_hw312 => k1_hw312
def k1_off110 (k1_t4 : Fin k1_t4_loop.trips) : Fin 2 → Nat :=
  let c39_i32_166 : BitVec 32 := 39#32
  let v639 : Index := Scalar.indexCast c39_i32_166
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v640 : Index := Scalar.indexCast v18
  ![39, v640.toNat]

def k1_chk313 (v41 : IVec S16 32) (v643 : IVec S16 32) : Prop :=
  (∀ a x, ((![v41, v643] : Fin 2 → IVec S16 32) a x).toNat < S256x128.size a)
instance k1_chk313.dec : ∀ (v41 : IVec S16 32) (v643 : IVec S16 32), Decidable (k1_chk313 v41 v643) := fun v41 v643 => decidable_of_iff' _ (Iff.of_eq (k1_chk313.eq_1 v41 v643))
theorem k1_idx313_inb : ∀ (v41 : IVec S16 32) (v643 : IVec S16 32) (k1_hw313 : k1_chk313 v41 v643), ∀ a x, ((![v41, v643] : Fin 2 → IVec S16 32) a x).toNat < S256x128.size a := fun v41 v643 k1_hw313 => k1_hw313

def k1_chk314 (v41 : IVec S16 32) (v646 : IVec S16 32) : Prop :=
  (∀ a x, ((![v41, v646] : Fin 2 → IVec S16 32) a x).toNat < S256x128.size a)
instance k1_chk314.dec : ∀ (v41 : IVec S16 32) (v646 : IVec S16 32), Decidable (k1_chk314 v41 v646) := fun v41 v646 => decidable_of_iff' _ (Iff.of_eq (k1_chk314.eq_1 v41 v646))
theorem k1_idx314_inb : ∀ (v41 : IVec S16 32) (v646 : IVec S16 32) (k1_hw314 : k1_chk314 v41 v646), ∀ a x, ((![v41, v646] : Fin 2 → IVec S16 32) a x).toNat < S256x128.size a := fun v41 v646 k1_hw314 => k1_hw314

def k1_chk315 (v34 : IVec S16 32) (v649 : IVec S16 32) : Prop :=
  (∀ a x, ((![v34, v649] : Fin 2 → IVec S16 32) a x).toNat < S50x128.size a)
instance k1_chk315.dec : ∀ (v34 : IVec S16 32) (v649 : IVec S16 32), Decidable (k1_chk315 v34 v649) := fun v34 v649 => decidable_of_iff' _ (Iff.of_eq (k1_chk315.eq_1 v34 v649))
theorem k1_idx315_inb : ∀ (v34 : IVec S16 32) (v649 : IVec S16 32) (k1_hw315 : k1_chk315 v34 v649), ∀ a x, ((![v34, v649] : Fin 2 → IVec S16 32) a x).toNat < S50x128.size a := fun v34 v649 k1_hw315 => k1_hw315
def k1_off111 (k1_t4 : Fin k1_t4_loop.trips) : Fin 2 → Nat :=
  let c40_i32_169 : BitVec 32 := 40#32
  let v654 : Index := Scalar.indexCast c40_i32_169
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v655 : Index := Scalar.indexCast v18
  ![40, v655.toNat]

def k1_chk316 (v41 : IVec S16 32) (v658 : IVec S16 32) : Prop :=
  (∀ a x, ((![v41, v658] : Fin 2 → IVec S16 32) a x).toNat < S256x128.size a)
instance k1_chk316.dec : ∀ (v41 : IVec S16 32) (v658 : IVec S16 32), Decidable (k1_chk316 v41 v658) := fun v41 v658 => decidable_of_iff' _ (Iff.of_eq (k1_chk316.eq_1 v41 v658))
theorem k1_idx316_inb : ∀ (v41 : IVec S16 32) (v658 : IVec S16 32) (k1_hw316 : k1_chk316 v41 v658), ∀ a x, ((![v41, v658] : Fin 2 → IVec S16 32) a x).toNat < S256x128.size a := fun v41 v658 k1_hw316 => k1_hw316

def k1_chk317 (v41 : IVec S16 32) (v661 : IVec S16 32) : Prop :=
  (∀ a x, ((![v41, v661] : Fin 2 → IVec S16 32) a x).toNat < S256x128.size a)
instance k1_chk317.dec : ∀ (v41 : IVec S16 32) (v661 : IVec S16 32), Decidable (k1_chk317 v41 v661) := fun v41 v661 => decidable_of_iff' _ (Iff.of_eq (k1_chk317.eq_1 v41 v661))
theorem k1_idx317_inb : ∀ (v41 : IVec S16 32) (v661 : IVec S16 32) (k1_hw317 : k1_chk317 v41 v661), ∀ a x, ((![v41, v661] : Fin 2 → IVec S16 32) a x).toNat < S256x128.size a := fun v41 v661 k1_hw317 => k1_hw317

def k1_chk318 (v34 : IVec S16 32) (v664 : IVec S16 32) : Prop :=
  (∀ a x, ((![v34, v664] : Fin 2 → IVec S16 32) a x).toNat < S50x128.size a)
instance k1_chk318.dec : ∀ (v34 : IVec S16 32) (v664 : IVec S16 32), Decidable (k1_chk318 v34 v664) := fun v34 v664 => decidable_of_iff' _ (Iff.of_eq (k1_chk318.eq_1 v34 v664))
theorem k1_idx318_inb : ∀ (v34 : IVec S16 32) (v664 : IVec S16 32) (k1_hw318 : k1_chk318 v34 v664), ∀ a x, ((![v34, v664] : Fin 2 → IVec S16 32) a x).toNat < S50x128.size a := fun v34 v664 k1_hw318 => k1_hw318
def k1_off112 (k1_t4 : Fin k1_t4_loop.trips) : Fin 2 → Nat :=
  let c41_i32_172 : BitVec 32 := 41#32
  let v669 : Index := Scalar.indexCast c41_i32_172
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v670 : Index := Scalar.indexCast v18
  ![41, v670.toNat]

def k1_chk319 (v41 : IVec S16 32) (v673 : IVec S16 32) : Prop :=
  (∀ a x, ((![v41, v673] : Fin 2 → IVec S16 32) a x).toNat < S256x128.size a)
instance k1_chk319.dec : ∀ (v41 : IVec S16 32) (v673 : IVec S16 32), Decidable (k1_chk319 v41 v673) := fun v41 v673 => decidable_of_iff' _ (Iff.of_eq (k1_chk319.eq_1 v41 v673))
theorem k1_idx319_inb : ∀ (v41 : IVec S16 32) (v673 : IVec S16 32) (k1_hw319 : k1_chk319 v41 v673), ∀ a x, ((![v41, v673] : Fin 2 → IVec S16 32) a x).toNat < S256x128.size a := fun v41 v673 k1_hw319 => k1_hw319

def k1_chk320 (v41 : IVec S16 32) (v676 : IVec S16 32) : Prop :=
  (∀ a x, ((![v41, v676] : Fin 2 → IVec S16 32) a x).toNat < S256x128.size a)
instance k1_chk320.dec : ∀ (v41 : IVec S16 32) (v676 : IVec S16 32), Decidable (k1_chk320 v41 v676) := fun v41 v676 => decidable_of_iff' _ (Iff.of_eq (k1_chk320.eq_1 v41 v676))
theorem k1_idx320_inb : ∀ (v41 : IVec S16 32) (v676 : IVec S16 32) (k1_hw320 : k1_chk320 v41 v676), ∀ a x, ((![v41, v676] : Fin 2 → IVec S16 32) a x).toNat < S256x128.size a := fun v41 v676 k1_hw320 => k1_hw320

def k1_chk321 (v34 : IVec S16 32) (v679 : IVec S16 32) : Prop :=
  (∀ a x, ((![v34, v679] : Fin 2 → IVec S16 32) a x).toNat < S50x128.size a)
instance k1_chk321.dec : ∀ (v34 : IVec S16 32) (v679 : IVec S16 32), Decidable (k1_chk321 v34 v679) := fun v34 v679 => decidable_of_iff' _ (Iff.of_eq (k1_chk321.eq_1 v34 v679))
theorem k1_idx321_inb : ∀ (v34 : IVec S16 32) (v679 : IVec S16 32) (k1_hw321 : k1_chk321 v34 v679), ∀ a x, ((![v34, v679] : Fin 2 → IVec S16 32) a x).toNat < S50x128.size a := fun v34 v679 k1_hw321 => k1_hw321
def k1_off113 (k1_t4 : Fin k1_t4_loop.trips) : Fin 2 → Nat :=
  let c42_i32_175 : BitVec 32 := 42#32
  let v684 : Index := Scalar.indexCast c42_i32_175
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v685 : Index := Scalar.indexCast v18
  ![42, v685.toNat]

def k1_chk322 (v41 : IVec S16 32) (v688 : IVec S16 32) : Prop :=
  (∀ a x, ((![v41, v688] : Fin 2 → IVec S16 32) a x).toNat < S256x128.size a)
instance k1_chk322.dec : ∀ (v41 : IVec S16 32) (v688 : IVec S16 32), Decidable (k1_chk322 v41 v688) := fun v41 v688 => decidable_of_iff' _ (Iff.of_eq (k1_chk322.eq_1 v41 v688))
theorem k1_idx322_inb : ∀ (v41 : IVec S16 32) (v688 : IVec S16 32) (k1_hw322 : k1_chk322 v41 v688), ∀ a x, ((![v41, v688] : Fin 2 → IVec S16 32) a x).toNat < S256x128.size a := fun v41 v688 k1_hw322 => k1_hw322

def k1_chk323 (v41 : IVec S16 32) (v691 : IVec S16 32) : Prop :=
  (∀ a x, ((![v41, v691] : Fin 2 → IVec S16 32) a x).toNat < S256x128.size a)
instance k1_chk323.dec : ∀ (v41 : IVec S16 32) (v691 : IVec S16 32), Decidable (k1_chk323 v41 v691) := fun v41 v691 => decidable_of_iff' _ (Iff.of_eq (k1_chk323.eq_1 v41 v691))
theorem k1_idx323_inb : ∀ (v41 : IVec S16 32) (v691 : IVec S16 32) (k1_hw323 : k1_chk323 v41 v691), ∀ a x, ((![v41, v691] : Fin 2 → IVec S16 32) a x).toNat < S256x128.size a := fun v41 v691 k1_hw323 => k1_hw323

def k1_chk324 (v34 : IVec S16 32) (v694 : IVec S16 32) : Prop :=
  (∀ a x, ((![v34, v694] : Fin 2 → IVec S16 32) a x).toNat < S50x128.size a)
instance k1_chk324.dec : ∀ (v34 : IVec S16 32) (v694 : IVec S16 32), Decidable (k1_chk324 v34 v694) := fun v34 v694 => decidable_of_iff' _ (Iff.of_eq (k1_chk324.eq_1 v34 v694))
theorem k1_idx324_inb : ∀ (v34 : IVec S16 32) (v694 : IVec S16 32) (k1_hw324 : k1_chk324 v34 v694), ∀ a x, ((![v34, v694] : Fin 2 → IVec S16 32) a x).toNat < S50x128.size a := fun v34 v694 k1_hw324 => k1_hw324
def k1_off114 (k1_t4 : Fin k1_t4_loop.trips) : Fin 2 → Nat :=
  let c43_i32_178 : BitVec 32 := 43#32
  let v699 : Index := Scalar.indexCast c43_i32_178
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v700 : Index := Scalar.indexCast v18
  ![43, v700.toNat]

def k1_chk325 (v41 : IVec S16 32) (v703 : IVec S16 32) : Prop :=
  (∀ a x, ((![v41, v703] : Fin 2 → IVec S16 32) a x).toNat < S256x128.size a)
instance k1_chk325.dec : ∀ (v41 : IVec S16 32) (v703 : IVec S16 32), Decidable (k1_chk325 v41 v703) := fun v41 v703 => decidable_of_iff' _ (Iff.of_eq (k1_chk325.eq_1 v41 v703))
theorem k1_idx325_inb : ∀ (v41 : IVec S16 32) (v703 : IVec S16 32) (k1_hw325 : k1_chk325 v41 v703), ∀ a x, ((![v41, v703] : Fin 2 → IVec S16 32) a x).toNat < S256x128.size a := fun v41 v703 k1_hw325 => k1_hw325

def k1_chk326 (v41 : IVec S16 32) (v706 : IVec S16 32) : Prop :=
  (∀ a x, ((![v41, v706] : Fin 2 → IVec S16 32) a x).toNat < S256x128.size a)
instance k1_chk326.dec : ∀ (v41 : IVec S16 32) (v706 : IVec S16 32), Decidable (k1_chk326 v41 v706) := fun v41 v706 => decidable_of_iff' _ (Iff.of_eq (k1_chk326.eq_1 v41 v706))
theorem k1_idx326_inb : ∀ (v41 : IVec S16 32) (v706 : IVec S16 32) (k1_hw326 : k1_chk326 v41 v706), ∀ a x, ((![v41, v706] : Fin 2 → IVec S16 32) a x).toNat < S256x128.size a := fun v41 v706 k1_hw326 => k1_hw326

def k1_chk327 (v34 : IVec S16 32) (v709 : IVec S16 32) : Prop :=
  (∀ a x, ((![v34, v709] : Fin 2 → IVec S16 32) a x).toNat < S50x128.size a)
instance k1_chk327.dec : ∀ (v34 : IVec S16 32) (v709 : IVec S16 32), Decidable (k1_chk327 v34 v709) := fun v34 v709 => decidable_of_iff' _ (Iff.of_eq (k1_chk327.eq_1 v34 v709))
theorem k1_idx327_inb : ∀ (v34 : IVec S16 32) (v709 : IVec S16 32) (k1_hw327 : k1_chk327 v34 v709), ∀ a x, ((![v34, v709] : Fin 2 → IVec S16 32) a x).toNat < S50x128.size a := fun v34 v709 k1_hw327 => k1_hw327
def k1_off115 (k1_t4 : Fin k1_t4_loop.trips) : Fin 2 → Nat :=
  let c44_i32_181 : BitVec 32 := 44#32
  let v714 : Index := Scalar.indexCast c44_i32_181
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v715 : Index := Scalar.indexCast v18
  ![44, v715.toNat]

def k1_chk328 (v41 : IVec S16 32) (v718 : IVec S16 32) : Prop :=
  (∀ a x, ((![v41, v718] : Fin 2 → IVec S16 32) a x).toNat < S256x128.size a)
instance k1_chk328.dec : ∀ (v41 : IVec S16 32) (v718 : IVec S16 32), Decidable (k1_chk328 v41 v718) := fun v41 v718 => decidable_of_iff' _ (Iff.of_eq (k1_chk328.eq_1 v41 v718))
theorem k1_idx328_inb : ∀ (v41 : IVec S16 32) (v718 : IVec S16 32) (k1_hw328 : k1_chk328 v41 v718), ∀ a x, ((![v41, v718] : Fin 2 → IVec S16 32) a x).toNat < S256x128.size a := fun v41 v718 k1_hw328 => k1_hw328

def k1_chk329 (v41 : IVec S16 32) (v721 : IVec S16 32) : Prop :=
  (∀ a x, ((![v41, v721] : Fin 2 → IVec S16 32) a x).toNat < S256x128.size a)
instance k1_chk329.dec : ∀ (v41 : IVec S16 32) (v721 : IVec S16 32), Decidable (k1_chk329 v41 v721) := fun v41 v721 => decidable_of_iff' _ (Iff.of_eq (k1_chk329.eq_1 v41 v721))
theorem k1_idx329_inb : ∀ (v41 : IVec S16 32) (v721 : IVec S16 32) (k1_hw329 : k1_chk329 v41 v721), ∀ a x, ((![v41, v721] : Fin 2 → IVec S16 32) a x).toNat < S256x128.size a := fun v41 v721 k1_hw329 => k1_hw329

def k1_chk330 (v34 : IVec S16 32) (v724 : IVec S16 32) : Prop :=
  (∀ a x, ((![v34, v724] : Fin 2 → IVec S16 32) a x).toNat < S50x128.size a)
instance k1_chk330.dec : ∀ (v34 : IVec S16 32) (v724 : IVec S16 32), Decidable (k1_chk330 v34 v724) := fun v34 v724 => decidable_of_iff' _ (Iff.of_eq (k1_chk330.eq_1 v34 v724))
theorem k1_idx330_inb : ∀ (v34 : IVec S16 32) (v724 : IVec S16 32) (k1_hw330 : k1_chk330 v34 v724), ∀ a x, ((![v34, v724] : Fin 2 → IVec S16 32) a x).toNat < S50x128.size a := fun v34 v724 k1_hw330 => k1_hw330
def k1_off116 (k1_t4 : Fin k1_t4_loop.trips) : Fin 2 → Nat :=
  let c45_i32_184 : BitVec 32 := 45#32
  let v729 : Index := Scalar.indexCast c45_i32_184
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v730 : Index := Scalar.indexCast v18
  ![45, v730.toNat]

def k1_chk331 (v41 : IVec S16 32) (v733 : IVec S16 32) : Prop :=
  (∀ a x, ((![v41, v733] : Fin 2 → IVec S16 32) a x).toNat < S256x128.size a)
instance k1_chk331.dec : ∀ (v41 : IVec S16 32) (v733 : IVec S16 32), Decidable (k1_chk331 v41 v733) := fun v41 v733 => decidable_of_iff' _ (Iff.of_eq (k1_chk331.eq_1 v41 v733))
theorem k1_idx331_inb : ∀ (v41 : IVec S16 32) (v733 : IVec S16 32) (k1_hw331 : k1_chk331 v41 v733), ∀ a x, ((![v41, v733] : Fin 2 → IVec S16 32) a x).toNat < S256x128.size a := fun v41 v733 k1_hw331 => k1_hw331

def k1_chk332 (v41 : IVec S16 32) (v736 : IVec S16 32) : Prop :=
  (∀ a x, ((![v41, v736] : Fin 2 → IVec S16 32) a x).toNat < S256x128.size a)
instance k1_chk332.dec : ∀ (v41 : IVec S16 32) (v736 : IVec S16 32), Decidable (k1_chk332 v41 v736) := fun v41 v736 => decidable_of_iff' _ (Iff.of_eq (k1_chk332.eq_1 v41 v736))
theorem k1_idx332_inb : ∀ (v41 : IVec S16 32) (v736 : IVec S16 32) (k1_hw332 : k1_chk332 v41 v736), ∀ a x, ((![v41, v736] : Fin 2 → IVec S16 32) a x).toNat < S256x128.size a := fun v41 v736 k1_hw332 => k1_hw332

def k1_chk333 (v34 : IVec S16 32) (v739 : IVec S16 32) : Prop :=
  (∀ a x, ((![v34, v739] : Fin 2 → IVec S16 32) a x).toNat < S50x128.size a)
instance k1_chk333.dec : ∀ (v34 : IVec S16 32) (v739 : IVec S16 32), Decidable (k1_chk333 v34 v739) := fun v34 v739 => decidable_of_iff' _ (Iff.of_eq (k1_chk333.eq_1 v34 v739))
theorem k1_idx333_inb : ∀ (v34 : IVec S16 32) (v739 : IVec S16 32) (k1_hw333 : k1_chk333 v34 v739), ∀ a x, ((![v34, v739] : Fin 2 → IVec S16 32) a x).toNat < S50x128.size a := fun v34 v739 k1_hw333 => k1_hw333
def k1_off117 (k1_t4 : Fin k1_t4_loop.trips) : Fin 2 → Nat :=
  let c46_i32_187 : BitVec 32 := 46#32
  let v744 : Index := Scalar.indexCast c46_i32_187
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v745 : Index := Scalar.indexCast v18
  ![46, v745.toNat]

def k1_chk334 (v41 : IVec S16 32) (v748 : IVec S16 32) : Prop :=
  (∀ a x, ((![v41, v748] : Fin 2 → IVec S16 32) a x).toNat < S256x128.size a)
instance k1_chk334.dec : ∀ (v41 : IVec S16 32) (v748 : IVec S16 32), Decidable (k1_chk334 v41 v748) := fun v41 v748 => decidable_of_iff' _ (Iff.of_eq (k1_chk334.eq_1 v41 v748))
theorem k1_idx334_inb : ∀ (v41 : IVec S16 32) (v748 : IVec S16 32) (k1_hw334 : k1_chk334 v41 v748), ∀ a x, ((![v41, v748] : Fin 2 → IVec S16 32) a x).toNat < S256x128.size a := fun v41 v748 k1_hw334 => k1_hw334

def k1_chk335 (v41 : IVec S16 32) (v751 : IVec S16 32) : Prop :=
  (∀ a x, ((![v41, v751] : Fin 2 → IVec S16 32) a x).toNat < S256x128.size a)
instance k1_chk335.dec : ∀ (v41 : IVec S16 32) (v751 : IVec S16 32), Decidable (k1_chk335 v41 v751) := fun v41 v751 => decidable_of_iff' _ (Iff.of_eq (k1_chk335.eq_1 v41 v751))
theorem k1_idx335_inb : ∀ (v41 : IVec S16 32) (v751 : IVec S16 32) (k1_hw335 : k1_chk335 v41 v751), ∀ a x, ((![v41, v751] : Fin 2 → IVec S16 32) a x).toNat < S256x128.size a := fun v41 v751 k1_hw335 => k1_hw335

def k1_chk336 (v34 : IVec S16 32) (v754 : IVec S16 32) : Prop :=
  (∀ a x, ((![v34, v754] : Fin 2 → IVec S16 32) a x).toNat < S50x128.size a)
instance k1_chk336.dec : ∀ (v34 : IVec S16 32) (v754 : IVec S16 32), Decidable (k1_chk336 v34 v754) := fun v34 v754 => decidable_of_iff' _ (Iff.of_eq (k1_chk336.eq_1 v34 v754))
theorem k1_idx336_inb : ∀ (v34 : IVec S16 32) (v754 : IVec S16 32) (k1_hw336 : k1_chk336 v34 v754), ∀ a x, ((![v34, v754] : Fin 2 → IVec S16 32) a x).toNat < S50x128.size a := fun v34 v754 k1_hw336 => k1_hw336
def k1_off118 (k1_t4 : Fin k1_t4_loop.trips) : Fin 2 → Nat :=
  let c47_i32_190 : BitVec 32 := 47#32
  let v759 : Index := Scalar.indexCast c47_i32_190
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v760 : Index := Scalar.indexCast v18
  ![47, v760.toNat]

def k1_chk337 (v41 : IVec S16 32) (v763 : IVec S16 32) : Prop :=
  (∀ a x, ((![v41, v763] : Fin 2 → IVec S16 32) a x).toNat < S256x128.size a)
instance k1_chk337.dec : ∀ (v41 : IVec S16 32) (v763 : IVec S16 32), Decidable (k1_chk337 v41 v763) := fun v41 v763 => decidable_of_iff' _ (Iff.of_eq (k1_chk337.eq_1 v41 v763))
theorem k1_idx337_inb : ∀ (v41 : IVec S16 32) (v763 : IVec S16 32) (k1_hw337 : k1_chk337 v41 v763), ∀ a x, ((![v41, v763] : Fin 2 → IVec S16 32) a x).toNat < S256x128.size a := fun v41 v763 k1_hw337 => k1_hw337

def k1_chk338 (v41 : IVec S16 32) (v766 : IVec S16 32) : Prop :=
  (∀ a x, ((![v41, v766] : Fin 2 → IVec S16 32) a x).toNat < S256x128.size a)
instance k1_chk338.dec : ∀ (v41 : IVec S16 32) (v766 : IVec S16 32), Decidable (k1_chk338 v41 v766) := fun v41 v766 => decidable_of_iff' _ (Iff.of_eq (k1_chk338.eq_1 v41 v766))
theorem k1_idx338_inb : ∀ (v41 : IVec S16 32) (v766 : IVec S16 32) (k1_hw338 : k1_chk338 v41 v766), ∀ a x, ((![v41, v766] : Fin 2 → IVec S16 32) a x).toNat < S256x128.size a := fun v41 v766 k1_hw338 => k1_hw338

def k1_chk339 (v34 : IVec S16 32) (v769 : IVec S16 32) : Prop :=
  (∀ a x, ((![v34, v769] : Fin 2 → IVec S16 32) a x).toNat < S50x128.size a)
instance k1_chk339.dec : ∀ (v34 : IVec S16 32) (v769 : IVec S16 32), Decidable (k1_chk339 v34 v769) := fun v34 v769 => decidable_of_iff' _ (Iff.of_eq (k1_chk339.eq_1 v34 v769))
theorem k1_idx339_inb : ∀ (v34 : IVec S16 32) (v769 : IVec S16 32) (k1_hw339 : k1_chk339 v34 v769), ∀ a x, ((![v34, v769] : Fin 2 → IVec S16 32) a x).toNat < S50x128.size a := fun v34 v769 k1_hw339 => k1_hw339
def k1_off119 (k1_t4 : Fin k1_t4_loop.trips) : Fin 2 → Nat :=
  let c48_i32_193 : BitVec 32 := 48#32
  let v774 : Index := Scalar.indexCast c48_i32_193
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v775 : Index := Scalar.indexCast v18
  ![48, v775.toNat]

def k1_chk340 (v41 : IVec S16 32) (v778 : IVec S16 32) : Prop :=
  (∀ a x, ((![v41, v778] : Fin 2 → IVec S16 32) a x).toNat < S256x128.size a)
instance k1_chk340.dec : ∀ (v41 : IVec S16 32) (v778 : IVec S16 32), Decidable (k1_chk340 v41 v778) := fun v41 v778 => decidable_of_iff' _ (Iff.of_eq (k1_chk340.eq_1 v41 v778))
theorem k1_idx340_inb : ∀ (v41 : IVec S16 32) (v778 : IVec S16 32) (k1_hw340 : k1_chk340 v41 v778), ∀ a x, ((![v41, v778] : Fin 2 → IVec S16 32) a x).toNat < S256x128.size a := fun v41 v778 k1_hw340 => k1_hw340

def k1_chk341 (v41 : IVec S16 32) (v781 : IVec S16 32) : Prop :=
  (∀ a x, ((![v41, v781] : Fin 2 → IVec S16 32) a x).toNat < S256x128.size a)
instance k1_chk341.dec : ∀ (v41 : IVec S16 32) (v781 : IVec S16 32), Decidable (k1_chk341 v41 v781) := fun v41 v781 => decidable_of_iff' _ (Iff.of_eq (k1_chk341.eq_1 v41 v781))
theorem k1_idx341_inb : ∀ (v41 : IVec S16 32) (v781 : IVec S16 32) (k1_hw341 : k1_chk341 v41 v781), ∀ a x, ((![v41, v781] : Fin 2 → IVec S16 32) a x).toNat < S256x128.size a := fun v41 v781 k1_hw341 => k1_hw341

def k1_chk342 (v34 : IVec S16 32) (v784 : IVec S16 32) : Prop :=
  (∀ a x, ((![v34, v784] : Fin 2 → IVec S16 32) a x).toNat < S50x128.size a)
instance k1_chk342.dec : ∀ (v34 : IVec S16 32) (v784 : IVec S16 32), Decidable (k1_chk342 v34 v784) := fun v34 v784 => decidable_of_iff' _ (Iff.of_eq (k1_chk342.eq_1 v34 v784))
theorem k1_idx342_inb : ∀ (v34 : IVec S16 32) (v784 : IVec S16 32) (k1_hw342 : k1_chk342 v34 v784), ∀ a x, ((![v34, v784] : Fin 2 → IVec S16 32) a x).toNat < S50x128.size a := fun v34 v784 k1_hw342 => k1_hw342
def k1_off120 (k1_t4 : Fin k1_t4_loop.trips) : Fin 2 → Nat :=
  let c49_i32_196 : BitVec 32 := 49#32
  let v789 : Index := Scalar.indexCast c49_i32_196
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v790 : Index := Scalar.indexCast v18
  ![49, v790.toNat]

def k1_chk343 (v41 : IVec S16 32) (v793 : IVec S16 32) : Prop :=
  (∀ a x, ((![v41, v793] : Fin 2 → IVec S16 32) a x).toNat < S256x128.size a)
instance k1_chk343.dec : ∀ (v41 : IVec S16 32) (v793 : IVec S16 32), Decidable (k1_chk343 v41 v793) := fun v41 v793 => decidable_of_iff' _ (Iff.of_eq (k1_chk343.eq_1 v41 v793))
theorem k1_idx343_inb : ∀ (v41 : IVec S16 32) (v793 : IVec S16 32) (k1_hw343 : k1_chk343 v41 v793), ∀ a x, ((![v41, v793] : Fin 2 → IVec S16 32) a x).toNat < S256x128.size a := fun v41 v793 k1_hw343 => k1_hw343

def k1_chk344 (v41 : IVec S16 32) (v796 : IVec S16 32) : Prop :=
  (∀ a x, ((![v41, v796] : Fin 2 → IVec S16 32) a x).toNat < S256x128.size a)
instance k1_chk344.dec : ∀ (v41 : IVec S16 32) (v796 : IVec S16 32), Decidable (k1_chk344 v41 v796) := fun v41 v796 => decidable_of_iff' _ (Iff.of_eq (k1_chk344.eq_1 v41 v796))
theorem k1_idx344_inb : ∀ (v41 : IVec S16 32) (v796 : IVec S16 32) (k1_hw344 : k1_chk344 v41 v796), ∀ a x, ((![v41, v796] : Fin 2 → IVec S16 32) a x).toNat < S256x128.size a := fun v41 v796 k1_hw344 => k1_hw344

def k1_chk345 (v34 : IVec S16 32) (v799 : IVec S16 32) : Prop :=
  (∀ a x, ((![v34, v799] : Fin 2 → IVec S16 32) a x).toNat < S50x128.size a)
instance k1_chk345.dec : ∀ (v34 : IVec S16 32) (v799 : IVec S16 32), Decidable (k1_chk345 v34 v799) := fun v34 v799 => decidable_of_iff' _ (Iff.of_eq (k1_chk345.eq_1 v34 v799))
theorem k1_idx345_inb : ∀ (v34 : IVec S16 32) (v799 : IVec S16 32) (k1_hw345 : k1_chk345 v34 v799), ∀ a x, ((![v34, v799] : Fin 2 → IVec S16 32) a x).toNat < S50x128.size a := fun v34 v799 k1_hw345 => k1_hw345
def k1_off121 (k1_t4 : Fin k1_t4_loop.trips) : Fin 2 → Nat :=
  let c50_i32_199 : BitVec 32 := 50#32
  let v804 : Index := Scalar.indexCast c50_i32_199
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v805 : Index := Scalar.indexCast v18
  ![50, v805.toNat]

def k1_chk346 (v41 : IVec S16 32) (v808 : IVec S16 32) : Prop :=
  (∀ a x, ((![v41, v808] : Fin 2 → IVec S16 32) a x).toNat < S256x128.size a)
instance k1_chk346.dec : ∀ (v41 : IVec S16 32) (v808 : IVec S16 32), Decidable (k1_chk346 v41 v808) := fun v41 v808 => decidable_of_iff' _ (Iff.of_eq (k1_chk346.eq_1 v41 v808))
theorem k1_idx346_inb : ∀ (v41 : IVec S16 32) (v808 : IVec S16 32) (k1_hw346 : k1_chk346 v41 v808), ∀ a x, ((![v41, v808] : Fin 2 → IVec S16 32) a x).toNat < S256x128.size a := fun v41 v808 k1_hw346 => k1_hw346

def k1_chk347 (v41 : IVec S16 32) (v811 : IVec S16 32) : Prop :=
  (∀ a x, ((![v41, v811] : Fin 2 → IVec S16 32) a x).toNat < S256x128.size a)
instance k1_chk347.dec : ∀ (v41 : IVec S16 32) (v811 : IVec S16 32), Decidable (k1_chk347 v41 v811) := fun v41 v811 => decidable_of_iff' _ (Iff.of_eq (k1_chk347.eq_1 v41 v811))
theorem k1_idx347_inb : ∀ (v41 : IVec S16 32) (v811 : IVec S16 32) (k1_hw347 : k1_chk347 v41 v811), ∀ a x, ((![v41, v811] : Fin 2 → IVec S16 32) a x).toNat < S256x128.size a := fun v41 v811 k1_hw347 => k1_hw347

def k1_chk348 (v34 : IVec S16 32) (v814 : IVec S16 32) : Prop :=
  (∀ a x, ((![v34, v814] : Fin 2 → IVec S16 32) a x).toNat < S50x128.size a)
instance k1_chk348.dec : ∀ (v34 : IVec S16 32) (v814 : IVec S16 32), Decidable (k1_chk348 v34 v814) := fun v34 v814 => decidable_of_iff' _ (Iff.of_eq (k1_chk348.eq_1 v34 v814))
theorem k1_idx348_inb : ∀ (v34 : IVec S16 32) (v814 : IVec S16 32) (k1_hw348 : k1_chk348 v34 v814), ∀ a x, ((![v34, v814] : Fin 2 → IVec S16 32) a x).toNat < S50x128.size a := fun v34 v814 k1_hw348 => k1_hw348
def k1_off122 (k1_t4 : Fin k1_t4_loop.trips) : Fin 2 → Nat :=
  let c51_i32_202 : BitVec 32 := 51#32
  let v819 : Index := Scalar.indexCast c51_i32_202
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v820 : Index := Scalar.indexCast v18
  ![51, v820.toNat]

def k1_chk349 (v41 : IVec S16 32) (v823 : IVec S16 32) : Prop :=
  (∀ a x, ((![v41, v823] : Fin 2 → IVec S16 32) a x).toNat < S256x128.size a)
instance k1_chk349.dec : ∀ (v41 : IVec S16 32) (v823 : IVec S16 32), Decidable (k1_chk349 v41 v823) := fun v41 v823 => decidable_of_iff' _ (Iff.of_eq (k1_chk349.eq_1 v41 v823))
theorem k1_idx349_inb : ∀ (v41 : IVec S16 32) (v823 : IVec S16 32) (k1_hw349 : k1_chk349 v41 v823), ∀ a x, ((![v41, v823] : Fin 2 → IVec S16 32) a x).toNat < S256x128.size a := fun v41 v823 k1_hw349 => k1_hw349

def k1_chk350 (v41 : IVec S16 32) (v826 : IVec S16 32) : Prop :=
  (∀ a x, ((![v41, v826] : Fin 2 → IVec S16 32) a x).toNat < S256x128.size a)
instance k1_chk350.dec : ∀ (v41 : IVec S16 32) (v826 : IVec S16 32), Decidable (k1_chk350 v41 v826) := fun v41 v826 => decidable_of_iff' _ (Iff.of_eq (k1_chk350.eq_1 v41 v826))
theorem k1_idx350_inb : ∀ (v41 : IVec S16 32) (v826 : IVec S16 32) (k1_hw350 : k1_chk350 v41 v826), ∀ a x, ((![v41, v826] : Fin 2 → IVec S16 32) a x).toNat < S256x128.size a := fun v41 v826 k1_hw350 => k1_hw350

def k1_chk351 (v34 : IVec S16 32) (v829 : IVec S16 32) : Prop :=
  (∀ a x, ((![v34, v829] : Fin 2 → IVec S16 32) a x).toNat < S50x128.size a)
instance k1_chk351.dec : ∀ (v34 : IVec S16 32) (v829 : IVec S16 32), Decidable (k1_chk351 v34 v829) := fun v34 v829 => decidable_of_iff' _ (Iff.of_eq (k1_chk351.eq_1 v34 v829))
theorem k1_idx351_inb : ∀ (v34 : IVec S16 32) (v829 : IVec S16 32) (k1_hw351 : k1_chk351 v34 v829), ∀ a x, ((![v34, v829] : Fin 2 → IVec S16 32) a x).toNat < S50x128.size a := fun v34 v829 k1_hw351 => k1_hw351
def k1_off123 (k1_t4 : Fin k1_t4_loop.trips) : Fin 2 → Nat :=
  let c52_i32_205 : BitVec 32 := 52#32
  let v834 : Index := Scalar.indexCast c52_i32_205
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v835 : Index := Scalar.indexCast v18
  ![52, v835.toNat]

def k1_chk352 (v41 : IVec S16 32) (v838 : IVec S16 32) : Prop :=
  (∀ a x, ((![v41, v838] : Fin 2 → IVec S16 32) a x).toNat < S256x128.size a)
instance k1_chk352.dec : ∀ (v41 : IVec S16 32) (v838 : IVec S16 32), Decidable (k1_chk352 v41 v838) := fun v41 v838 => decidable_of_iff' _ (Iff.of_eq (k1_chk352.eq_1 v41 v838))
theorem k1_idx352_inb : ∀ (v41 : IVec S16 32) (v838 : IVec S16 32) (k1_hw352 : k1_chk352 v41 v838), ∀ a x, ((![v41, v838] : Fin 2 → IVec S16 32) a x).toNat < S256x128.size a := fun v41 v838 k1_hw352 => k1_hw352

def k1_chk353 (v41 : IVec S16 32) (v841 : IVec S16 32) : Prop :=
  (∀ a x, ((![v41, v841] : Fin 2 → IVec S16 32) a x).toNat < S256x128.size a)
instance k1_chk353.dec : ∀ (v41 : IVec S16 32) (v841 : IVec S16 32), Decidable (k1_chk353 v41 v841) := fun v41 v841 => decidable_of_iff' _ (Iff.of_eq (k1_chk353.eq_1 v41 v841))
theorem k1_idx353_inb : ∀ (v41 : IVec S16 32) (v841 : IVec S16 32) (k1_hw353 : k1_chk353 v41 v841), ∀ a x, ((![v41, v841] : Fin 2 → IVec S16 32) a x).toNat < S256x128.size a := fun v41 v841 k1_hw353 => k1_hw353

def k1_chk354 (v34 : IVec S16 32) (v844 : IVec S16 32) : Prop :=
  (∀ a x, ((![v34, v844] : Fin 2 → IVec S16 32) a x).toNat < S50x128.size a)
instance k1_chk354.dec : ∀ (v34 : IVec S16 32) (v844 : IVec S16 32), Decidable (k1_chk354 v34 v844) := fun v34 v844 => decidable_of_iff' _ (Iff.of_eq (k1_chk354.eq_1 v34 v844))
theorem k1_idx354_inb : ∀ (v34 : IVec S16 32) (v844 : IVec S16 32) (k1_hw354 : k1_chk354 v34 v844), ∀ a x, ((![v34, v844] : Fin 2 → IVec S16 32) a x).toNat < S50x128.size a := fun v34 v844 k1_hw354 => k1_hw354
def k1_off124 (k1_t4 : Fin k1_t4_loop.trips) : Fin 2 → Nat :=
  let c53_i32_208 : BitVec 32 := 53#32
  let v849 : Index := Scalar.indexCast c53_i32_208
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v850 : Index := Scalar.indexCast v18
  ![53, v850.toNat]

def k1_chk355 (v41 : IVec S16 32) (v853 : IVec S16 32) : Prop :=
  (∀ a x, ((![v41, v853] : Fin 2 → IVec S16 32) a x).toNat < S256x128.size a)
instance k1_chk355.dec : ∀ (v41 : IVec S16 32) (v853 : IVec S16 32), Decidable (k1_chk355 v41 v853) := fun v41 v853 => decidable_of_iff' _ (Iff.of_eq (k1_chk355.eq_1 v41 v853))
theorem k1_idx355_inb : ∀ (v41 : IVec S16 32) (v853 : IVec S16 32) (k1_hw355 : k1_chk355 v41 v853), ∀ a x, ((![v41, v853] : Fin 2 → IVec S16 32) a x).toNat < S256x128.size a := fun v41 v853 k1_hw355 => k1_hw355

def k1_chk356 (v41 : IVec S16 32) (v856 : IVec S16 32) : Prop :=
  (∀ a x, ((![v41, v856] : Fin 2 → IVec S16 32) a x).toNat < S256x128.size a)
instance k1_chk356.dec : ∀ (v41 : IVec S16 32) (v856 : IVec S16 32), Decidable (k1_chk356 v41 v856) := fun v41 v856 => decidable_of_iff' _ (Iff.of_eq (k1_chk356.eq_1 v41 v856))
theorem k1_idx356_inb : ∀ (v41 : IVec S16 32) (v856 : IVec S16 32) (k1_hw356 : k1_chk356 v41 v856), ∀ a x, ((![v41, v856] : Fin 2 → IVec S16 32) a x).toNat < S256x128.size a := fun v41 v856 k1_hw356 => k1_hw356

def k1_chk357 (v34 : IVec S16 32) (v859 : IVec S16 32) : Prop :=
  (∀ a x, ((![v34, v859] : Fin 2 → IVec S16 32) a x).toNat < S50x128.size a)
instance k1_chk357.dec : ∀ (v34 : IVec S16 32) (v859 : IVec S16 32), Decidable (k1_chk357 v34 v859) := fun v34 v859 => decidable_of_iff' _ (Iff.of_eq (k1_chk357.eq_1 v34 v859))
theorem k1_idx357_inb : ∀ (v34 : IVec S16 32) (v859 : IVec S16 32) (k1_hw357 : k1_chk357 v34 v859), ∀ a x, ((![v34, v859] : Fin 2 → IVec S16 32) a x).toNat < S50x128.size a := fun v34 v859 k1_hw357 => k1_hw357
def k1_off125 (k1_t4 : Fin k1_t4_loop.trips) : Fin 2 → Nat :=
  let c54_i32_211 : BitVec 32 := 54#32
  let v864 : Index := Scalar.indexCast c54_i32_211
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v865 : Index := Scalar.indexCast v18
  ![54, v865.toNat]

def k1_chk358 (v41 : IVec S16 32) (v868 : IVec S16 32) : Prop :=
  (∀ a x, ((![v41, v868] : Fin 2 → IVec S16 32) a x).toNat < S256x128.size a)
instance k1_chk358.dec : ∀ (v41 : IVec S16 32) (v868 : IVec S16 32), Decidable (k1_chk358 v41 v868) := fun v41 v868 => decidable_of_iff' _ (Iff.of_eq (k1_chk358.eq_1 v41 v868))
theorem k1_idx358_inb : ∀ (v41 : IVec S16 32) (v868 : IVec S16 32) (k1_hw358 : k1_chk358 v41 v868), ∀ a x, ((![v41, v868] : Fin 2 → IVec S16 32) a x).toNat < S256x128.size a := fun v41 v868 k1_hw358 => k1_hw358

def k1_chk359 (v41 : IVec S16 32) (v871 : IVec S16 32) : Prop :=
  (∀ a x, ((![v41, v871] : Fin 2 → IVec S16 32) a x).toNat < S256x128.size a)
instance k1_chk359.dec : ∀ (v41 : IVec S16 32) (v871 : IVec S16 32), Decidable (k1_chk359 v41 v871) := fun v41 v871 => decidable_of_iff' _ (Iff.of_eq (k1_chk359.eq_1 v41 v871))
theorem k1_idx359_inb : ∀ (v41 : IVec S16 32) (v871 : IVec S16 32) (k1_hw359 : k1_chk359 v41 v871), ∀ a x, ((![v41, v871] : Fin 2 → IVec S16 32) a x).toNat < S256x128.size a := fun v41 v871 k1_hw359 => k1_hw359

def k1_chk360 (v34 : IVec S16 32) (v874 : IVec S16 32) : Prop :=
  (∀ a x, ((![v34, v874] : Fin 2 → IVec S16 32) a x).toNat < S50x128.size a)
instance k1_chk360.dec : ∀ (v34 : IVec S16 32) (v874 : IVec S16 32), Decidable (k1_chk360 v34 v874) := fun v34 v874 => decidable_of_iff' _ (Iff.of_eq (k1_chk360.eq_1 v34 v874))
theorem k1_idx360_inb : ∀ (v34 : IVec S16 32) (v874 : IVec S16 32) (k1_hw360 : k1_chk360 v34 v874), ∀ a x, ((![v34, v874] : Fin 2 → IVec S16 32) a x).toNat < S50x128.size a := fun v34 v874 k1_hw360 => k1_hw360
def k1_off126 (k1_t4 : Fin k1_t4_loop.trips) : Fin 2 → Nat :=
  let c55_i32_214 : BitVec 32 := 55#32
  let v879 : Index := Scalar.indexCast c55_i32_214
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v880 : Index := Scalar.indexCast v18
  ![55, v880.toNat]

def k1_chk361 (v41 : IVec S16 32) (v883 : IVec S16 32) : Prop :=
  (∀ a x, ((![v41, v883] : Fin 2 → IVec S16 32) a x).toNat < S256x128.size a)
instance k1_chk361.dec : ∀ (v41 : IVec S16 32) (v883 : IVec S16 32), Decidable (k1_chk361 v41 v883) := fun v41 v883 => decidable_of_iff' _ (Iff.of_eq (k1_chk361.eq_1 v41 v883))
theorem k1_idx361_inb : ∀ (v41 : IVec S16 32) (v883 : IVec S16 32) (k1_hw361 : k1_chk361 v41 v883), ∀ a x, ((![v41, v883] : Fin 2 → IVec S16 32) a x).toNat < S256x128.size a := fun v41 v883 k1_hw361 => k1_hw361

def k1_chk362 (v41 : IVec S16 32) (v886 : IVec S16 32) : Prop :=
  (∀ a x, ((![v41, v886] : Fin 2 → IVec S16 32) a x).toNat < S256x128.size a)
instance k1_chk362.dec : ∀ (v41 : IVec S16 32) (v886 : IVec S16 32), Decidable (k1_chk362 v41 v886) := fun v41 v886 => decidable_of_iff' _ (Iff.of_eq (k1_chk362.eq_1 v41 v886))
theorem k1_idx362_inb : ∀ (v41 : IVec S16 32) (v886 : IVec S16 32) (k1_hw362 : k1_chk362 v41 v886), ∀ a x, ((![v41, v886] : Fin 2 → IVec S16 32) a x).toNat < S256x128.size a := fun v41 v886 k1_hw362 => k1_hw362

def k1_chk363 (v34 : IVec S16 32) (v889 : IVec S16 32) : Prop :=
  (∀ a x, ((![v34, v889] : Fin 2 → IVec S16 32) a x).toNat < S50x128.size a)
instance k1_chk363.dec : ∀ (v34 : IVec S16 32) (v889 : IVec S16 32), Decidable (k1_chk363 v34 v889) := fun v34 v889 => decidable_of_iff' _ (Iff.of_eq (k1_chk363.eq_1 v34 v889))
theorem k1_idx363_inb : ∀ (v34 : IVec S16 32) (v889 : IVec S16 32) (k1_hw363 : k1_chk363 v34 v889), ∀ a x, ((![v34, v889] : Fin 2 → IVec S16 32) a x).toNat < S50x128.size a := fun v34 v889 k1_hw363 => k1_hw363
def k1_off127 (k1_t4 : Fin k1_t4_loop.trips) : Fin 2 → Nat :=
  let c56_i32_217 : BitVec 32 := 56#32
  let v894 : Index := Scalar.indexCast c56_i32_217
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v895 : Index := Scalar.indexCast v18
  ![56, v895.toNat]

def k1_chk364 (v41 : IVec S16 32) (v898 : IVec S16 32) : Prop :=
  (∀ a x, ((![v41, v898] : Fin 2 → IVec S16 32) a x).toNat < S256x128.size a)
instance k1_chk364.dec : ∀ (v41 : IVec S16 32) (v898 : IVec S16 32), Decidable (k1_chk364 v41 v898) := fun v41 v898 => decidable_of_iff' _ (Iff.of_eq (k1_chk364.eq_1 v41 v898))
theorem k1_idx364_inb : ∀ (v41 : IVec S16 32) (v898 : IVec S16 32) (k1_hw364 : k1_chk364 v41 v898), ∀ a x, ((![v41, v898] : Fin 2 → IVec S16 32) a x).toNat < S256x128.size a := fun v41 v898 k1_hw364 => k1_hw364

def k1_chk365 (v41 : IVec S16 32) (v901 : IVec S16 32) : Prop :=
  (∀ a x, ((![v41, v901] : Fin 2 → IVec S16 32) a x).toNat < S256x128.size a)
instance k1_chk365.dec : ∀ (v41 : IVec S16 32) (v901 : IVec S16 32), Decidable (k1_chk365 v41 v901) := fun v41 v901 => decidable_of_iff' _ (Iff.of_eq (k1_chk365.eq_1 v41 v901))
theorem k1_idx365_inb : ∀ (v41 : IVec S16 32) (v901 : IVec S16 32) (k1_hw365 : k1_chk365 v41 v901), ∀ a x, ((![v41, v901] : Fin 2 → IVec S16 32) a x).toNat < S256x128.size a := fun v41 v901 k1_hw365 => k1_hw365

def k1_chk366 (v34 : IVec S16 32) (v904 : IVec S16 32) : Prop :=
  (∀ a x, ((![v34, v904] : Fin 2 → IVec S16 32) a x).toNat < S50x128.size a)
instance k1_chk366.dec : ∀ (v34 : IVec S16 32) (v904 : IVec S16 32), Decidable (k1_chk366 v34 v904) := fun v34 v904 => decidable_of_iff' _ (Iff.of_eq (k1_chk366.eq_1 v34 v904))
theorem k1_idx366_inb : ∀ (v34 : IVec S16 32) (v904 : IVec S16 32) (k1_hw366 : k1_chk366 v34 v904), ∀ a x, ((![v34, v904] : Fin 2 → IVec S16 32) a x).toNat < S50x128.size a := fun v34 v904 k1_hw366 => k1_hw366
def k1_off128 (k1_t4 : Fin k1_t4_loop.trips) : Fin 2 → Nat :=
  let c57_i32_220 : BitVec 32 := 57#32
  let v909 : Index := Scalar.indexCast c57_i32_220
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v910 : Index := Scalar.indexCast v18
  ![57, v910.toNat]

def k1_chk367 (v41 : IVec S16 32) (v913 : IVec S16 32) : Prop :=
  (∀ a x, ((![v41, v913] : Fin 2 → IVec S16 32) a x).toNat < S256x128.size a)
instance k1_chk367.dec : ∀ (v41 : IVec S16 32) (v913 : IVec S16 32), Decidable (k1_chk367 v41 v913) := fun v41 v913 => decidable_of_iff' _ (Iff.of_eq (k1_chk367.eq_1 v41 v913))
theorem k1_idx367_inb : ∀ (v41 : IVec S16 32) (v913 : IVec S16 32) (k1_hw367 : k1_chk367 v41 v913), ∀ a x, ((![v41, v913] : Fin 2 → IVec S16 32) a x).toNat < S256x128.size a := fun v41 v913 k1_hw367 => k1_hw367

def k1_chk368 (v41 : IVec S16 32) (v916 : IVec S16 32) : Prop :=
  (∀ a x, ((![v41, v916] : Fin 2 → IVec S16 32) a x).toNat < S256x128.size a)
instance k1_chk368.dec : ∀ (v41 : IVec S16 32) (v916 : IVec S16 32), Decidable (k1_chk368 v41 v916) := fun v41 v916 => decidable_of_iff' _ (Iff.of_eq (k1_chk368.eq_1 v41 v916))
theorem k1_idx368_inb : ∀ (v41 : IVec S16 32) (v916 : IVec S16 32) (k1_hw368 : k1_chk368 v41 v916), ∀ a x, ((![v41, v916] : Fin 2 → IVec S16 32) a x).toNat < S256x128.size a := fun v41 v916 k1_hw368 => k1_hw368

def k1_chk369 (v34 : IVec S16 32) (v919 : IVec S16 32) : Prop :=
  (∀ a x, ((![v34, v919] : Fin 2 → IVec S16 32) a x).toNat < S50x128.size a)
instance k1_chk369.dec : ∀ (v34 : IVec S16 32) (v919 : IVec S16 32), Decidable (k1_chk369 v34 v919) := fun v34 v919 => decidable_of_iff' _ (Iff.of_eq (k1_chk369.eq_1 v34 v919))
theorem k1_idx369_inb : ∀ (v34 : IVec S16 32) (v919 : IVec S16 32) (k1_hw369 : k1_chk369 v34 v919), ∀ a x, ((![v34, v919] : Fin 2 → IVec S16 32) a x).toNat < S50x128.size a := fun v34 v919 k1_hw369 => k1_hw369
def k1_off129 (k1_t4 : Fin k1_t4_loop.trips) : Fin 2 → Nat :=
  let c58_i32_223 : BitVec 32 := 58#32
  let v924 : Index := Scalar.indexCast c58_i32_223
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v925 : Index := Scalar.indexCast v18
  ![58, v925.toNat]

def k1_chk370 (v41 : IVec S16 32) (v928 : IVec S16 32) : Prop :=
  (∀ a x, ((![v41, v928] : Fin 2 → IVec S16 32) a x).toNat < S256x128.size a)
instance k1_chk370.dec : ∀ (v41 : IVec S16 32) (v928 : IVec S16 32), Decidable (k1_chk370 v41 v928) := fun v41 v928 => decidable_of_iff' _ (Iff.of_eq (k1_chk370.eq_1 v41 v928))
theorem k1_idx370_inb : ∀ (v41 : IVec S16 32) (v928 : IVec S16 32) (k1_hw370 : k1_chk370 v41 v928), ∀ a x, ((![v41, v928] : Fin 2 → IVec S16 32) a x).toNat < S256x128.size a := fun v41 v928 k1_hw370 => k1_hw370

def k1_chk371 (v41 : IVec S16 32) (v931 : IVec S16 32) : Prop :=
  (∀ a x, ((![v41, v931] : Fin 2 → IVec S16 32) a x).toNat < S256x128.size a)
instance k1_chk371.dec : ∀ (v41 : IVec S16 32) (v931 : IVec S16 32), Decidable (k1_chk371 v41 v931) := fun v41 v931 => decidable_of_iff' _ (Iff.of_eq (k1_chk371.eq_1 v41 v931))
theorem k1_idx371_inb : ∀ (v41 : IVec S16 32) (v931 : IVec S16 32) (k1_hw371 : k1_chk371 v41 v931), ∀ a x, ((![v41, v931] : Fin 2 → IVec S16 32) a x).toNat < S256x128.size a := fun v41 v931 k1_hw371 => k1_hw371

def k1_chk372 (v34 : IVec S16 32) (v934 : IVec S16 32) : Prop :=
  (∀ a x, ((![v34, v934] : Fin 2 → IVec S16 32) a x).toNat < S50x128.size a)
instance k1_chk372.dec : ∀ (v34 : IVec S16 32) (v934 : IVec S16 32), Decidable (k1_chk372 v34 v934) := fun v34 v934 => decidable_of_iff' _ (Iff.of_eq (k1_chk372.eq_1 v34 v934))
theorem k1_idx372_inb : ∀ (v34 : IVec S16 32) (v934 : IVec S16 32) (k1_hw372 : k1_chk372 v34 v934), ∀ a x, ((![v34, v934] : Fin 2 → IVec S16 32) a x).toNat < S50x128.size a := fun v34 v934 k1_hw372 => k1_hw372
def k1_off130 (k1_t4 : Fin k1_t4_loop.trips) : Fin 2 → Nat :=
  let c59_i32_226 : BitVec 32 := 59#32
  let v939 : Index := Scalar.indexCast c59_i32_226
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v940 : Index := Scalar.indexCast v18
  ![59, v940.toNat]

def k1_chk373 (v41 : IVec S16 32) (v943 : IVec S16 32) : Prop :=
  (∀ a x, ((![v41, v943] : Fin 2 → IVec S16 32) a x).toNat < S256x128.size a)
instance k1_chk373.dec : ∀ (v41 : IVec S16 32) (v943 : IVec S16 32), Decidable (k1_chk373 v41 v943) := fun v41 v943 => decidable_of_iff' _ (Iff.of_eq (k1_chk373.eq_1 v41 v943))
theorem k1_idx373_inb : ∀ (v41 : IVec S16 32) (v943 : IVec S16 32) (k1_hw373 : k1_chk373 v41 v943), ∀ a x, ((![v41, v943] : Fin 2 → IVec S16 32) a x).toNat < S256x128.size a := fun v41 v943 k1_hw373 => k1_hw373

def k1_chk374 (v41 : IVec S16 32) (v946 : IVec S16 32) : Prop :=
  (∀ a x, ((![v41, v946] : Fin 2 → IVec S16 32) a x).toNat < S256x128.size a)
instance k1_chk374.dec : ∀ (v41 : IVec S16 32) (v946 : IVec S16 32), Decidable (k1_chk374 v41 v946) := fun v41 v946 => decidable_of_iff' _ (Iff.of_eq (k1_chk374.eq_1 v41 v946))
theorem k1_idx374_inb : ∀ (v41 : IVec S16 32) (v946 : IVec S16 32) (k1_hw374 : k1_chk374 v41 v946), ∀ a x, ((![v41, v946] : Fin 2 → IVec S16 32) a x).toNat < S256x128.size a := fun v41 v946 k1_hw374 => k1_hw374

def k1_chk375 (v34 : IVec S16 32) (v949 : IVec S16 32) : Prop :=
  (∀ a x, ((![v34, v949] : Fin 2 → IVec S16 32) a x).toNat < S50x128.size a)
instance k1_chk375.dec : ∀ (v34 : IVec S16 32) (v949 : IVec S16 32), Decidable (k1_chk375 v34 v949) := fun v34 v949 => decidable_of_iff' _ (Iff.of_eq (k1_chk375.eq_1 v34 v949))
theorem k1_idx375_inb : ∀ (v34 : IVec S16 32) (v949 : IVec S16 32) (k1_hw375 : k1_chk375 v34 v949), ∀ a x, ((![v34, v949] : Fin 2 → IVec S16 32) a x).toNat < S50x128.size a := fun v34 v949 k1_hw375 => k1_hw375
def k1_off131 (k1_t4 : Fin k1_t4_loop.trips) : Fin 2 → Nat :=
  let c60_i32_229 : BitVec 32 := 60#32
  let v954 : Index := Scalar.indexCast c60_i32_229
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v955 : Index := Scalar.indexCast v18
  ![60, v955.toNat]

def k1_chk376 (v41 : IVec S16 32) (v958 : IVec S16 32) : Prop :=
  (∀ a x, ((![v41, v958] : Fin 2 → IVec S16 32) a x).toNat < S256x128.size a)
instance k1_chk376.dec : ∀ (v41 : IVec S16 32) (v958 : IVec S16 32), Decidable (k1_chk376 v41 v958) := fun v41 v958 => decidable_of_iff' _ (Iff.of_eq (k1_chk376.eq_1 v41 v958))
theorem k1_idx376_inb : ∀ (v41 : IVec S16 32) (v958 : IVec S16 32) (k1_hw376 : k1_chk376 v41 v958), ∀ a x, ((![v41, v958] : Fin 2 → IVec S16 32) a x).toNat < S256x128.size a := fun v41 v958 k1_hw376 => k1_hw376

def k1_chk377 (v41 : IVec S16 32) (v961 : IVec S16 32) : Prop :=
  (∀ a x, ((![v41, v961] : Fin 2 → IVec S16 32) a x).toNat < S256x128.size a)
instance k1_chk377.dec : ∀ (v41 : IVec S16 32) (v961 : IVec S16 32), Decidable (k1_chk377 v41 v961) := fun v41 v961 => decidable_of_iff' _ (Iff.of_eq (k1_chk377.eq_1 v41 v961))
theorem k1_idx377_inb : ∀ (v41 : IVec S16 32) (v961 : IVec S16 32) (k1_hw377 : k1_chk377 v41 v961), ∀ a x, ((![v41, v961] : Fin 2 → IVec S16 32) a x).toNat < S256x128.size a := fun v41 v961 k1_hw377 => k1_hw377

def k1_chk378 (v34 : IVec S16 32) (v964 : IVec S16 32) : Prop :=
  (∀ a x, ((![v34, v964] : Fin 2 → IVec S16 32) a x).toNat < S50x128.size a)
instance k1_chk378.dec : ∀ (v34 : IVec S16 32) (v964 : IVec S16 32), Decidable (k1_chk378 v34 v964) := fun v34 v964 => decidable_of_iff' _ (Iff.of_eq (k1_chk378.eq_1 v34 v964))
theorem k1_idx378_inb : ∀ (v34 : IVec S16 32) (v964 : IVec S16 32) (k1_hw378 : k1_chk378 v34 v964), ∀ a x, ((![v34, v964] : Fin 2 → IVec S16 32) a x).toNat < S50x128.size a := fun v34 v964 k1_hw378 => k1_hw378
def k1_off132 (k1_t4 : Fin k1_t4_loop.trips) : Fin 2 → Nat :=
  let c61_i32_232 : BitVec 32 := 61#32
  let v969 : Index := Scalar.indexCast c61_i32_232
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v970 : Index := Scalar.indexCast v18
  ![61, v970.toNat]

def k1_chk379 (v41 : IVec S16 32) (v973 : IVec S16 32) : Prop :=
  (∀ a x, ((![v41, v973] : Fin 2 → IVec S16 32) a x).toNat < S256x128.size a)
instance k1_chk379.dec : ∀ (v41 : IVec S16 32) (v973 : IVec S16 32), Decidable (k1_chk379 v41 v973) := fun v41 v973 => decidable_of_iff' _ (Iff.of_eq (k1_chk379.eq_1 v41 v973))
theorem k1_idx379_inb : ∀ (v41 : IVec S16 32) (v973 : IVec S16 32) (k1_hw379 : k1_chk379 v41 v973), ∀ a x, ((![v41, v973] : Fin 2 → IVec S16 32) a x).toNat < S256x128.size a := fun v41 v973 k1_hw379 => k1_hw379

def k1_chk380 (v41 : IVec S16 32) (v976 : IVec S16 32) : Prop :=
  (∀ a x, ((![v41, v976] : Fin 2 → IVec S16 32) a x).toNat < S256x128.size a)
instance k1_chk380.dec : ∀ (v41 : IVec S16 32) (v976 : IVec S16 32), Decidable (k1_chk380 v41 v976) := fun v41 v976 => decidable_of_iff' _ (Iff.of_eq (k1_chk380.eq_1 v41 v976))
theorem k1_idx380_inb : ∀ (v41 : IVec S16 32) (v976 : IVec S16 32) (k1_hw380 : k1_chk380 v41 v976), ∀ a x, ((![v41, v976] : Fin 2 → IVec S16 32) a x).toNat < S256x128.size a := fun v41 v976 k1_hw380 => k1_hw380

def k1_chk381 (v34 : IVec S16 32) (v979 : IVec S16 32) : Prop :=
  (∀ a x, ((![v34, v979] : Fin 2 → IVec S16 32) a x).toNat < S50x128.size a)
instance k1_chk381.dec : ∀ (v34 : IVec S16 32) (v979 : IVec S16 32), Decidable (k1_chk381 v34 v979) := fun v34 v979 => decidable_of_iff' _ (Iff.of_eq (k1_chk381.eq_1 v34 v979))
theorem k1_idx381_inb : ∀ (v34 : IVec S16 32) (v979 : IVec S16 32) (k1_hw381 : k1_chk381 v34 v979), ∀ a x, ((![v34, v979] : Fin 2 → IVec S16 32) a x).toNat < S50x128.size a := fun v34 v979 k1_hw381 => k1_hw381
def k1_off133 (k1_t4 : Fin k1_t4_loop.trips) : Fin 2 → Nat :=
  let c62_i32_235 : BitVec 32 := 62#32
  let v984 : Index := Scalar.indexCast c62_i32_235
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v985 : Index := Scalar.indexCast v18
  ![62, v985.toNat]

def k1_chk382 (v41 : IVec S16 32) (v988 : IVec S16 32) : Prop :=
  (∀ a x, ((![v41, v988] : Fin 2 → IVec S16 32) a x).toNat < S256x128.size a)
instance k1_chk382.dec : ∀ (v41 : IVec S16 32) (v988 : IVec S16 32), Decidable (k1_chk382 v41 v988) := fun v41 v988 => decidable_of_iff' _ (Iff.of_eq (k1_chk382.eq_1 v41 v988))
theorem k1_idx382_inb : ∀ (v41 : IVec S16 32) (v988 : IVec S16 32) (k1_hw382 : k1_chk382 v41 v988), ∀ a x, ((![v41, v988] : Fin 2 → IVec S16 32) a x).toNat < S256x128.size a := fun v41 v988 k1_hw382 => k1_hw382

def k1_chk383 (v41 : IVec S16 32) (v991 : IVec S16 32) : Prop :=
  (∀ a x, ((![v41, v991] : Fin 2 → IVec S16 32) a x).toNat < S256x128.size a)
instance k1_chk383.dec : ∀ (v41 : IVec S16 32) (v991 : IVec S16 32), Decidable (k1_chk383 v41 v991) := fun v41 v991 => decidable_of_iff' _ (Iff.of_eq (k1_chk383.eq_1 v41 v991))
theorem k1_idx383_inb : ∀ (v41 : IVec S16 32) (v991 : IVec S16 32) (k1_hw383 : k1_chk383 v41 v991), ∀ a x, ((![v41, v991] : Fin 2 → IVec S16 32) a x).toNat < S256x128.size a := fun v41 v991 k1_hw383 => k1_hw383

def k1_chk384 (v34 : IVec S16 32) (v994 : IVec S16 32) : Prop :=
  (∀ a x, ((![v34, v994] : Fin 2 → IVec S16 32) a x).toNat < S50x128.size a)
instance k1_chk384.dec : ∀ (v34 : IVec S16 32) (v994 : IVec S16 32), Decidable (k1_chk384 v34 v994) := fun v34 v994 => decidable_of_iff' _ (Iff.of_eq (k1_chk384.eq_1 v34 v994))
theorem k1_idx384_inb : ∀ (v34 : IVec S16 32) (v994 : IVec S16 32) (k1_hw384 : k1_chk384 v34 v994), ∀ a x, ((![v34, v994] : Fin 2 → IVec S16 32) a x).toNat < S50x128.size a := fun v34 v994 k1_hw384 => k1_hw384
def k1_off134 (k1_t4 : Fin k1_t4_loop.trips) : Fin 2 → Nat :=
  let c63_i32_238 : BitVec 32 := 63#32
  let v999 : Index := Scalar.indexCast c63_i32_238
  let c0_i32_30 : BitVec 32 := 0#32
  let c1_i32_32 : BitVec 32 := 1#32
  let arg19 : BitVec 32 := Scf.iv c0_i32_30 c1_i32_32 k1_t4
  let c16_i32_34 : BitVec 32 := 16#32
  let v18 : BitVec 32 := Scalar.muli arg19 c16_i32_34
  let v1000 : Index := Scalar.indexCast v18
  ![63, v1000.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S1000000x64_S64x1000000_1_0 : S1000000x64.Transposes [1, 0] S64x1000000
  inb_S64x16384_S64x16384_0_0 : ∀ a, (![0, 0] : Fin 2 → Nat) a + S64x16384.size a ≤ S64x16384.size a
  h_S64x16384 : 0 < S64x16384.numel
  shapeCasts_S64x16384_S64x16384 : S64x16384.ShapeCasts S64x16384
  transposes_S64x16384_p1_0_S16384x64 : S64x16384.Transposes [1, 0] S16384x64
  shapeCasts_S16384x64_S1024x16x64 : S16384x64.ShapeCasts S1024x16x64
  slices_S1024x16x64_o0_0_0_S1024x8x64 : S1024x16x64.Slices ![0, 0, 0] S1024x8x64
  shapeCasts_S1024x8x64_S8192x64 : S1024x8x64.ShapeCasts S8192x64
  slices_S1024x16x64_o0_8_0_S1024x8x64 : S1024x16x64.Slices ![0, 8, 0] S1024x8x64
  concatenates_S8192x64_S8192x64_S8192x128_d1 : Shape.Concatenates [S8192x64, S8192x64] S8192x128 1
  inb_S8192x128_S8192x128_0_0 : ∀ a, (![0, 0] : Fin 2 → Nat) a + S8192x128.size a ≤ S8192x128.size a
  h_S8192x128 : 0 < S8192x128.numel
  shapeCasts_S100x64_S50x128 : S100x64.ShapeCasts S50x128
  iota_S16_d0_w32_scVector : S16.Iotas .scVector 32 [0]
  h_S16 : 0 < S16.numel
  inb_S500000x128_S500000x128_0_0 : ∀ a, (![0, 0] : Fin 2 → Nat) a + S500000x128.size a ≤ S500000x128.size a
  gathers_S500000x128_S256x128 : S500000x128.Gathers 0 S256x128
  h_S256x128 : 0 < S256x128.numel
  h_S50x128 : 0 < S50x128.numel
  h_S1x16 : 0 < S1x16.numel
  shapeCasts_S1x16_S16 : S1x16.ShapeCasts S16
  shapeCasts_S16_S1x16 : S16.ShapeCasts S1x16
  transposes_S64x16384_S16384x64_1_0 : S64x16384.Transposes [1, 0] S16384x64
  hcc1_scratch9 : 4 + S_.numel ≤ 15
  hcc1_scratch10 : 5 + S_.numel ≤ 15
  hcc1_scoped0 : 6 + S_.numel ≤ 15
  hcc1_scoped1 : 7 + S_.numel ≤ 15
  hcc1_scoped2 : 8 + S_.numel ≤ 15
  hcc1_scoped3 : 9 + S_.numel ≤ 15
  hcc1_scoped4 : 10 + S_.numel ≤ 15
  hcc1_scoped5 : 11 + S_.numel ≤ 15
  hcc1_scoped6 : 12 + S_.numel ≤ 15
  hcc1_scoped7 : 13 + S_.numel ≤ 15
  hcc1_scoped8 : 14 + S_.numel ≤ 15
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S64x16384.size a < S64x1000000.size a
  hwx0_0 : ∀ i : grid0.Coords, EltTy.bits .f32 = 32 ∨ (Rect.unit (s := S64x1000000) (fun a => cc0_transform_0 i a * S64x16384.size a) (fun a => (Pipeline.Clip.of (cc0_transform_0 i a) (S64x16384.size a) (S64x1000000.size a)).extent (S64x16384.size a)) fun a => Pipeline.Clip.inb (Pipeline.Clip.ok_of (hstart0_0 i a))).WholeWords (EltTy.packing .f32)
  hwxs0_0 : ∀ i : grid0.Coords, EltTy.bits .f32 = 32 ∨ (Rect.unit (s := S64x16384) (fun _ => 0) (fun a => (Pipeline.Clip.of (cc0_transform_0 i a) (S64x16384.size a) (S64x1000000.size a)).extent (S64x16384.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S8192x128.size a < S500000x128.size a
  hwx0_1 : ∀ i : grid0.Coords, EltTy.bits .f32 = 32 ∨ (Rect.unit (s := S500000x128) (fun a => cc0_transform_1 i a * S8192x128.size a) (fun a => (Pipeline.Clip.of (cc0_transform_1 i a) (S8192x128.size a) (S500000x128.size a)).extent (S8192x128.size a)) fun a => Pipeline.Clip.inb (Pipeline.Clip.ok_of (hstart0_1 i a))).WholeWords (EltTy.packing .f32)
  hwxs0_1 : ∀ i : grid0.Coords, EltTy.bits .f32 = 32 ∨ (Rect.unit (s := S8192x128) (fun _ => 0) (fun a => (Pipeline.Clip.of (cc0_transform_1 i a) (S8192x128.size a) (S500000x128.size a)).extent (S8192x128.size a)) fun a => (Nat.zero_add _).trans_le (Pipeline.Clip.extent_le (Pipeline.Clip.ok_of (hstart0_1 i a)))).WholeWords (EltTy.packing .f32)
  hcore1 : grid1.bound 0 ≤ τ.nSC
  hsub1 : grid1.bound 1 ≤ τ.nSub
  k1_off1_inb : ∀ i : grid1.Coords, ∀ (r : Fin 2), ∀ a, (k1_off1 i (BitVec.ofNat 32 (256 * r.val))) a + S256.size a ≤ S16384.size a
  k1_t1_ok : k1_t1_loop.OK
  k1_off2_inb : ∀ k1_t1 : Fin k1_t1_loop.trips, ∀ a, (k1_off2 k1_t1) a + S16.size a ≤ S256.size a
  k1_t2_ok : k1_t2_loop.OK
  k1_off3_inb : ∀ k1_t2 : Fin k1_t2_loop.trips, ∀ a, (k1_off3 k1_t2) a + S16.size a ≤ S256.size a
  k1_off4_inb : ∀ k1_t2 : Fin k1_t2_loop.trips, ∀ a, (k1_off4 k1_t2) a + S1x16.size a ≤ S64x256.size a
  k1_off5_inb : ∀ k1_t2 : Fin k1_t2_loop.trips, ∀ a, (k1_off5 k1_t2) a + S1x16.size a ≤ S64x256.size a
  k1_off6_inb : ∀ k1_t2 : Fin k1_t2_loop.trips, ∀ a, (k1_off6 k1_t2) a + S1x16.size a ≤ S64x256.size a
  k1_off7_inb : ∀ k1_t2 : Fin k1_t2_loop.trips, ∀ a, (k1_off7 k1_t2) a + S1x16.size a ≤ S64x256.size a
  k1_off8_inb : ∀ k1_t2 : Fin k1_t2_loop.trips, ∀ a, (k1_off8 k1_t2) a + S1x16.size a ≤ S64x256.size a
  k1_off9_inb : ∀ k1_t2 : Fin k1_t2_loop.trips, ∀ a, (k1_off9 k1_t2) a + S1x16.size a ≤ S64x256.size a
  k1_off10_inb : ∀ k1_t2 : Fin k1_t2_loop.trips, ∀ a, (k1_off10 k1_t2) a + S1x16.size a ≤ S64x256.size a
  k1_off11_inb : ∀ k1_t2 : Fin k1_t2_loop.trips, ∀ a, (k1_off11 k1_t2) a + S1x16.size a ≤ S64x256.size a
  k1_off12_inb : ∀ k1_t2 : Fin k1_t2_loop.trips, ∀ a, (k1_off12 k1_t2) a + S1x16.size a ≤ S64x256.size a
  k1_off13_inb : ∀ k1_t2 : Fin k1_t2_loop.trips, ∀ a, (k1_off13 k1_t2) a + S1x16.size a ≤ S64x256.size a
  k1_off14_inb : ∀ k1_t2 : Fin k1_t2_loop.trips, ∀ a, (k1_off14 k1_t2) a + S1x16.size a ≤ S64x256.size a
  k1_off15_inb : ∀ k1_t2 : Fin k1_t2_loop.trips, ∀ a, (k1_off15 k1_t2) a + S1x16.size a ≤ S64x256.size a
  k1_off16_inb : ∀ k1_t2 : Fin k1_t2_loop.trips, ∀ a, (k1_off16 k1_t2) a + S1x16.size a ≤ S64x256.size a
  k1_off17_inb : ∀ k1_t2 : Fin k1_t2_loop.trips, ∀ a, (k1_off17 k1_t2) a + S1x16.size a ≤ S64x256.size a
  k1_off18_inb : ∀ k1_t2 : Fin k1_t2_loop.trips, ∀ a, (k1_off18 k1_t2) a + S1x16.size a ≤ S64x256.size a
  k1_off19_inb : ∀ k1_t2 : Fin k1_t2_loop.trips, ∀ a, (k1_off19 k1_t2) a + S1x16.size a ≤ S64x256.size a
  k1_off20_inb : ∀ k1_t2 : Fin k1_t2_loop.trips, ∀ a, (k1_off20 k1_t2) a + S1x16.size a ≤ S64x256.size a
  k1_off21_inb : ∀ k1_t2 : Fin k1_t2_loop.trips, ∀ a, (k1_off21 k1_t2) a + S1x16.size a ≤ S64x256.size a
  k1_off22_inb : ∀ k1_t2 : Fin k1_t2_loop.trips, ∀ a, (k1_off22 k1_t2) a + S1x16.size a ≤ S64x256.size a
  k1_off23_inb : ∀ k1_t2 : Fin k1_t2_loop.trips, ∀ a, (k1_off23 k1_t2) a + S1x16.size a ≤ S64x256.size a
  k1_off24_inb : ∀ k1_t2 : Fin k1_t2_loop.trips, ∀ a, (k1_off24 k1_t2) a + S1x16.size a ≤ S64x256.size a
  k1_off25_inb : ∀ k1_t2 : Fin k1_t2_loop.trips, ∀ a, (k1_off25 k1_t2) a + S1x16.size a ≤ S64x256.size a
  k1_off26_inb : ∀ k1_t2 : Fin k1_t2_loop.trips, ∀ a, (k1_off26 k1_t2) a + S1x16.size a ≤ S64x256.size a
  k1_off27_inb : ∀ k1_t2 : Fin k1_t2_loop.trips, ∀ a, (k1_off27 k1_t2) a + S1x16.size a ≤ S64x256.size a
  k1_off28_inb : ∀ k1_t2 : Fin k1_t2_loop.trips, ∀ a, (k1_off28 k1_t2) a + S1x16.size a ≤ S64x256.size a
  k1_off29_inb : ∀ k1_t2 : Fin k1_t2_loop.trips, ∀ a, (k1_off29 k1_t2) a + S1x16.size a ≤ S64x256.size a
  k1_off30_inb : ∀ k1_t2 : Fin k1_t2_loop.trips, ∀ a, (k1_off30 k1_t2) a + S1x16.size a ≤ S64x256.size a
  k1_off31_inb : ∀ k1_t2 : Fin k1_t2_loop.trips, ∀ a, (k1_off31 k1_t2) a + S1x16.size a ≤ S64x256.size a
  k1_off32_inb : ∀ k1_t2 : Fin k1_t2_loop.trips, ∀ a, (k1_off32 k1_t2) a + S1x16.size a ≤ S64x256.size a
  k1_off33_inb : ∀ k1_t2 : Fin k1_t2_loop.trips, ∀ a, (k1_off33 k1_t2) a + S1x16.size a ≤ S64x256.size a
  k1_off34_inb : ∀ k1_t2 : Fin k1_t2_loop.trips, ∀ a, (k1_off34 k1_t2) a + S1x16.size a ≤ S64x256.size a
  k1_off35_inb : ∀ k1_t2 : Fin k1_t2_loop.trips, ∀ a, (k1_off35 k1_t2) a + S1x16.size a ≤ S64x256.size a
  k1_off36_inb : ∀ k1_t2 : Fin k1_t2_loop.trips, ∀ a, (k1_off36 k1_t2) a + S1x16.size a ≤ S64x256.size a
  k1_off37_inb : ∀ k1_t2 : Fin k1_t2_loop.trips, ∀ a, (k1_off37 k1_t2) a + S1x16.size a ≤ S64x256.size a
  k1_off38_inb : ∀ k1_t2 : Fin k1_t2_loop.trips, ∀ a, (k1_off38 k1_t2) a + S1x16.size a ≤ S64x256.size a
  k1_off39_inb : ∀ k1_t2 : Fin k1_t2_loop.trips, ∀ a, (k1_off39 k1_t2) a + S1x16.size a ≤ S64x256.size a
  k1_off40_inb : ∀ k1_t2 : Fin k1_t2_loop.trips, ∀ a, (k1_off40 k1_t2) a + S1x16.size a ≤ S64x256.size a
  k1_off41_inb : ∀ k1_t2 : Fin k1_t2_loop.trips, ∀ a, (k1_off41 k1_t2) a + S1x16.size a ≤ S64x256.size a
  k1_off42_inb : ∀ k1_t2 : Fin k1_t2_loop.trips, ∀ a, (k1_off42 k1_t2) a + S1x16.size a ≤ S64x256.size a
  k1_off43_inb : ∀ k1_t2 : Fin k1_t2_loop.trips, ∀ a, (k1_off43 k1_t2) a + S1x16.size a ≤ S64x256.size a
  k1_off44_inb : ∀ k1_t2 : Fin k1_t2_loop.trips, ∀ a, (k1_off44 k1_t2) a + S1x16.size a ≤ S64x256.size a
  k1_off45_inb : ∀ k1_t2 : Fin k1_t2_loop.trips, ∀ a, (k1_off45 k1_t2) a + S1x16.size a ≤ S64x256.size a
  k1_off46_inb : ∀ k1_t2 : Fin k1_t2_loop.trips, ∀ a, (k1_off46 k1_t2) a + S1x16.size a ≤ S64x256.size a
  k1_off47_inb : ∀ k1_t2 : Fin k1_t2_loop.trips, ∀ a, (k1_off47 k1_t2) a + S1x16.size a ≤ S64x256.size a
  k1_off48_inb : ∀ k1_t2 : Fin k1_t2_loop.trips, ∀ a, (k1_off48 k1_t2) a + S1x16.size a ≤ S64x256.size a
  k1_off49_inb : ∀ k1_t2 : Fin k1_t2_loop.trips, ∀ a, (k1_off49 k1_t2) a + S1x16.size a ≤ S64x256.size a
  k1_off50_inb : ∀ k1_t2 : Fin k1_t2_loop.trips, ∀ a, (k1_off50 k1_t2) a + S1x16.size a ≤ S64x256.size a
  k1_off51_inb : ∀ k1_t2 : Fin k1_t2_loop.trips, ∀ a, (k1_off51 k1_t2) a + S1x16.size a ≤ S64x256.size a
  k1_off52_inb : ∀ k1_t2 : Fin k1_t2_loop.trips, ∀ a, (k1_off52 k1_t2) a + S1x16.size a ≤ S64x256.size a
  k1_off53_inb : ∀ k1_t2 : Fin k1_t2_loop.trips, ∀ a, (k1_off53 k1_t2) a + S1x16.size a ≤ S64x256.size a
  k1_off54_inb : ∀ k1_t2 : Fin k1_t2_loop.trips, ∀ a, (k1_off54 k1_t2) a + S1x16.size a ≤ S64x256.size a
  k1_off55_inb : ∀ k1_t2 : Fin k1_t2_loop.trips, ∀ a, (k1_off55 k1_t2) a + S1x16.size a ≤ S64x256.size a
  k1_off56_inb : ∀ k1_t2 : Fin k1_t2_loop.trips, ∀ a, (k1_off56 k1_t2) a + S1x16.size a ≤ S64x256.size a
  k1_off57_inb : ∀ k1_t2 : Fin k1_t2_loop.trips, ∀ a, (k1_off57 k1_t2) a + S1x16.size a ≤ S64x256.size a
  k1_off58_inb : ∀ k1_t2 : Fin k1_t2_loop.trips, ∀ a, (k1_off58 k1_t2) a + S1x16.size a ≤ S64x256.size a
  k1_off59_inb : ∀ k1_t2 : Fin k1_t2_loop.trips, ∀ a, (k1_off59 k1_t2) a + S1x16.size a ≤ S64x256.size a
  k1_off60_inb : ∀ k1_t2 : Fin k1_t2_loop.trips, ∀ a, (k1_off60 k1_t2) a + S1x16.size a ≤ S64x256.size a
  k1_off61_inb : ∀ k1_t2 : Fin k1_t2_loop.trips, ∀ a, (k1_off61 k1_t2) a + S1x16.size a ≤ S64x256.size a
  k1_off62_inb : ∀ k1_t2 : Fin k1_t2_loop.trips, ∀ a, (k1_off62 k1_t2) a + S1x16.size a ≤ S64x256.size a
  k1_off63_inb : ∀ k1_t2 : Fin k1_t2_loop.trips, ∀ a, (k1_off63 k1_t2) a + S1x16.size a ≤ S64x256.size a
  k1_off64_inb : ∀ k1_t2 : Fin k1_t2_loop.trips, ∀ a, (k1_off64 k1_t2) a + S1x16.size a ≤ S64x256.size a
  k1_off65_inb : ∀ k1_t2 : Fin k1_t2_loop.trips, ∀ a, (k1_off65 k1_t2) a + S1x16.size a ≤ S64x256.size a
  k1_off66_inb : ∀ k1_t2 : Fin k1_t2_loop.trips, ∀ a, (k1_off66 k1_t2) a + S1x16.size a ≤ S64x256.size a
  k1_off67_inb : ∀ k1_t2 : Fin k1_t2_loop.trips, ∀ a, (k1_off67 k1_t2) a + S1x16.size a ≤ S64x256.size a
  k1_off68_inb : ∀ i : grid1.Coords, ∀ (r : Fin 2), ∀ a, (k1_off68 i (BitVec.ofNat 32 (256 * r.val))) a + S64x256.size a ≤ S64x16384.size a
  k1_t3_ok : k1_t3_loop.OK
  k1_off69_inb : ∀ k1_t3 : Fin k1_t3_loop.trips, ∀ a, (k1_off69 k1_t3) a + S16.size a ≤ S256.size a
  k1_t4_ok : k1_t4_loop.OK
  k1_off70_inb : ∀ k1_t4 : Fin k1_t4_loop.trips, ∀ a, (k1_off70 k1_t4) a + S16.size a ≤ S256.size a
  k1_off71_inb : ∀ k1_t4 : Fin k1_t4_loop.trips, ∀ a, (k1_off71 k1_t4) a + S1x16.size a ≤ S64x256.size a
  k1_off72_inb : ∀ k1_t4 : Fin k1_t4_loop.trips, ∀ a, (k1_off72 k1_t4) a + S1x16.size a ≤ S64x256.size a
  k1_off73_inb : ∀ k1_t4 : Fin k1_t4_loop.trips, ∀ a, (k1_off73 k1_t4) a + S1x16.size a ≤ S64x256.size a
  k1_off74_inb : ∀ k1_t4 : Fin k1_t4_loop.trips, ∀ a, (k1_off74 k1_t4) a + S1x16.size a ≤ S64x256.size a
  k1_off75_inb : ∀ k1_t4 : Fin k1_t4_loop.trips, ∀ a, (k1_off75 k1_t4) a + S1x16.size a ≤ S64x256.size a
  k1_off76_inb : ∀ k1_t4 : Fin k1_t4_loop.trips, ∀ a, (k1_off76 k1_t4) a + S1x16.size a ≤ S64x256.size a
  k1_off77_inb : ∀ k1_t4 : Fin k1_t4_loop.trips, ∀ a, (k1_off77 k1_t4) a + S1x16.size a ≤ S64x256.size a
  k1_off78_inb : ∀ k1_t4 : Fin k1_t4_loop.trips, ∀ a, (k1_off78 k1_t4) a + S1x16.size a ≤ S64x256.size a
  k1_off79_inb : ∀ k1_t4 : Fin k1_t4_loop.trips, ∀ a, (k1_off79 k1_t4) a + S1x16.size a ≤ S64x256.size a
  k1_off80_inb : ∀ k1_t4 : Fin k1_t4_loop.trips, ∀ a, (k1_off80 k1_t4) a + S1x16.size a ≤ S64x256.size a
  k1_off81_inb : ∀ k1_t4 : Fin k1_t4_loop.trips, ∀ a, (k1_off81 k1_t4) a + S1x16.size a ≤ S64x256.size a
  k1_off82_inb : ∀ k1_t4 : Fin k1_t4_loop.trips, ∀ a, (k1_off82 k1_t4) a + S1x16.size a ≤ S64x256.size a
  k1_off83_inb : ∀ k1_t4 : Fin k1_t4_loop.trips, ∀ a, (k1_off83 k1_t4) a + S1x16.size a ≤ S64x256.size a
  k1_off84_inb : ∀ k1_t4 : Fin k1_t4_loop.trips, ∀ a, (k1_off84 k1_t4) a + S1x16.size a ≤ S64x256.size a
  k1_off85_inb : ∀ k1_t4 : Fin k1_t4_loop.trips, ∀ a, (k1_off85 k1_t4) a + S1x16.size a ≤ S64x256.size a
  k1_off86_inb : ∀ k1_t4 : Fin k1_t4_loop.trips, ∀ a, (k1_off86 k1_t4) a + S1x16.size a ≤ S64x256.size a
  k1_off87_inb : ∀ k1_t4 : Fin k1_t4_loop.trips, ∀ a, (k1_off87 k1_t4) a + S1x16.size a ≤ S64x256.size a
  k1_off88_inb : ∀ k1_t4 : Fin k1_t4_loop.trips, ∀ a, (k1_off88 k1_t4) a + S1x16.size a ≤ S64x256.size a
  k1_off89_inb : ∀ k1_t4 : Fin k1_t4_loop.trips, ∀ a, (k1_off89 k1_t4) a + S1x16.size a ≤ S64x256.size a
  k1_off90_inb : ∀ k1_t4 : Fin k1_t4_loop.trips, ∀ a, (k1_off90 k1_t4) a + S1x16.size a ≤ S64x256.size a
  k1_off91_inb : ∀ k1_t4 : Fin k1_t4_loop.trips, ∀ a, (k1_off91 k1_t4) a + S1x16.size a ≤ S64x256.size a
  k1_off92_inb : ∀ k1_t4 : Fin k1_t4_loop.trips, ∀ a, (k1_off92 k1_t4) a + S1x16.size a ≤ S64x256.size a
  k1_off93_inb : ∀ k1_t4 : Fin k1_t4_loop.trips, ∀ a, (k1_off93 k1_t4) a + S1x16.size a ≤ S64x256.size a
  k1_off94_inb : ∀ k1_t4 : Fin k1_t4_loop.trips, ∀ a, (k1_off94 k1_t4) a + S1x16.size a ≤ S64x256.size a
  k1_off95_inb : ∀ k1_t4 : Fin k1_t4_loop.trips, ∀ a, (k1_off95 k1_t4) a + S1x16.size a ≤ S64x256.size a
  k1_off96_inb : ∀ k1_t4 : Fin k1_t4_loop.trips, ∀ a, (k1_off96 k1_t4) a + S1x16.size a ≤ S64x256.size a
  k1_off97_inb : ∀ k1_t4 : Fin k1_t4_loop.trips, ∀ a, (k1_off97 k1_t4) a + S1x16.size a ≤ S64x256.size a
  k1_off98_inb : ∀ k1_t4 : Fin k1_t4_loop.trips, ∀ a, (k1_off98 k1_t4) a + S1x16.size a ≤ S64x256.size a
  k1_off99_inb : ∀ k1_t4 : Fin k1_t4_loop.trips, ∀ a, (k1_off99 k1_t4) a + S1x16.size a ≤ S64x256.size a
  k1_off100_inb : ∀ k1_t4 : Fin k1_t4_loop.trips, ∀ a, (k1_off100 k1_t4) a + S1x16.size a ≤ S64x256.size a
  k1_off101_inb : ∀ k1_t4 : Fin k1_t4_loop.trips, ∀ a, (k1_off101 k1_t4) a + S1x16.size a ≤ S64x256.size a
  k1_off102_inb : ∀ k1_t4 : Fin k1_t4_loop.trips, ∀ a, (k1_off102 k1_t4) a + S1x16.size a ≤ S64x256.size a
  k1_off103_inb : ∀ k1_t4 : Fin k1_t4_loop.trips, ∀ a, (k1_off103 k1_t4) a + S1x16.size a ≤ S64x256.size a
  k1_off104_inb : ∀ k1_t4 : Fin k1_t4_loop.trips, ∀ a, (k1_off104 k1_t4) a + S1x16.size a ≤ S64x256.size a
  k1_off105_inb : ∀ k1_t4 : Fin k1_t4_loop.trips, ∀ a, (k1_off105 k1_t4) a + S1x16.size a ≤ S64x256.size a
  k1_off106_inb : ∀ k1_t4 : Fin k1_t4_loop.trips, ∀ a, (k1_off106 k1_t4) a + S1x16.size a ≤ S64x256.size a
  k1_off107_inb : ∀ k1_t4 : Fin k1_t4_loop.trips, ∀ a, (k1_off107 k1_t4) a + S1x16.size a ≤ S64x256.size a
  k1_off108_inb : ∀ k1_t4 : Fin k1_t4_loop.trips, ∀ a, (k1_off108 k1_t4) a + S1x16.size a ≤ S64x256.size a
  k1_off109_inb : ∀ k1_t4 : Fin k1_t4_loop.trips, ∀ a, (k1_off109 k1_t4) a + S1x16.size a ≤ S64x256.size a
  k1_off110_inb : ∀ k1_t4 : Fin k1_t4_loop.trips, ∀ a, (k1_off110 k1_t4) a + S1x16.size a ≤ S64x256.size a
  k1_off111_inb : ∀ k1_t4 : Fin k1_t4_loop.trips, ∀ a, (k1_off111 k1_t4) a + S1x16.size a ≤ S64x256.size a
  k1_off112_inb : ∀ k1_t4 : Fin k1_t4_loop.trips, ∀ a, (k1_off112 k1_t4) a + S1x16.size a ≤ S64x256.size a
  k1_off113_inb : ∀ k1_t4 : Fin k1_t4_loop.trips, ∀ a, (k1_off113 k1_t4) a + S1x16.size a ≤ S64x256.size a
  k1_off114_inb : ∀ k1_t4 : Fin k1_t4_loop.trips, ∀ a, (k1_off114 k1_t4) a + S1x16.size a ≤ S64x256.size a
  k1_off115_inb : ∀ k1_t4 : Fin k1_t4_loop.trips, ∀ a, (k1_off115 k1_t4) a + S1x16.size a ≤ S64x256.size a
  k1_off116_inb : ∀ k1_t4 : Fin k1_t4_loop.trips, ∀ a, (k1_off116 k1_t4) a + S1x16.size a ≤ S64x256.size a
  k1_off117_inb : ∀ k1_t4 : Fin k1_t4_loop.trips, ∀ a, (k1_off117 k1_t4) a + S1x16.size a ≤ S64x256.size a
  k1_off118_inb : ∀ k1_t4 : Fin k1_t4_loop.trips, ∀ a, (k1_off118 k1_t4) a + S1x16.size a ≤ S64x256.size a
  k1_off119_inb : ∀ k1_t4 : Fin k1_t4_loop.trips, ∀ a, (k1_off119 k1_t4) a + S1x16.size a ≤ S64x256.size a
  k1_off120_inb : ∀ k1_t4 : Fin k1_t4_loop.trips, ∀ a, (k1_off120 k1_t4) a + S1x16.size a ≤ S64x256.size a
  k1_off121_inb : ∀ k1_t4 : Fin k1_t4_loop.trips, ∀ a, (k1_off121 k1_t4) a + S1x16.size a ≤ S64x256.size a
  k1_off122_inb : ∀ k1_t4 : Fin k1_t4_loop.trips, ∀ a, (k1_off122 k1_t4) a + S1x16.size a ≤ S64x256.size a
  k1_off123_inb : ∀ k1_t4 : Fin k1_t4_loop.trips, ∀ a, (k1_off123 k1_t4) a + S1x16.size a ≤ S64x256.size a
  k1_off124_inb : ∀ k1_t4 : Fin k1_t4_loop.trips, ∀ a, (k1_off124 k1_t4) a + S1x16.size a ≤ S64x256.size a
  k1_off125_inb : ∀ k1_t4 : Fin k1_t4_loop.trips, ∀ a, (k1_off125 k1_t4) a + S1x16.size a ≤ S64x256.size a
  k1_off126_inb : ∀ k1_t4 : Fin k1_t4_loop.trips, ∀ a, (k1_off126 k1_t4) a + S1x16.size a ≤ S64x256.size a
  k1_off127_inb : ∀ k1_t4 : Fin k1_t4_loop.trips, ∀ a, (k1_off127 k1_t4) a + S1x16.size a ≤ S64x256.size a
  k1_off128_inb : ∀ k1_t4 : Fin k1_t4_loop.trips, ∀ a, (k1_off128 k1_t4) a + S1x16.size a ≤ S64x256.size a
  k1_off129_inb : ∀ k1_t4 : Fin k1_t4_loop.trips, ∀ a, (k1_off129 k1_t4) a + S1x16.size a ≤ S64x256.size a
  k1_off130_inb : ∀ k1_t4 : Fin k1_t4_loop.trips, ∀ a, (k1_off130 k1_t4) a + S1x16.size a ≤ S64x256.size a
  k1_off131_inb : ∀ k1_t4 : Fin k1_t4_loop.trips, ∀ a, (k1_off131 k1_t4) a + S1x16.size a ≤ S64x256.size a
  k1_off132_inb : ∀ k1_t4 : Fin k1_t4_loop.trips, ∀ a, (k1_off132 k1_t4) a + S1x16.size a ≤ S64x256.size a
  k1_off133_inb : ∀ k1_t4 : Fin k1_t4_loop.trips, ∀ a, (k1_off133 k1_t4) a + S1x16.size a ≤ S64x256.size a
  k1_off134_inb : ∀ k1_t4 : Fin k1_t4_loop.trips, ∀ a, (k1_off134 k1_t4) a + S1x16.size a ≤ S64x256.size a

variable [Facts₀]

abbrev cc1_scratch9 : DmaSems sig S_ := SemArray.consecutive 4 S_ hcc1_scratch9
abbrev cc1_scratch10 : DmaSems sig S_ := SemArray.consecutive 5 S_ hcc1_scratch10
abbrev cc1_scoped0 : DmaSems sig S_ := SemArray.consecutive 6 S_ hcc1_scoped0
abbrev cc1_scoped1 : DmaSems sig S_ := SemArray.consecutive 7 S_ hcc1_scoped1
abbrev cc1_scoped2 : DmaSems sig S_ := SemArray.consecutive 8 S_ hcc1_scoped2
abbrev cc1_scoped3 : DmaSems sig S_ := SemArray.consecutive 9 S_ hcc1_scoped3
abbrev cc1_scoped4 : DmaSems sig S_ := SemArray.consecutive 10 S_ hcc1_scoped4
abbrev cc1_scoped5 : DmaSems sig S_ := SemArray.consecutive 11 S_ hcc1_scoped5
abbrev cc1_scoped6 : DmaSems sig S_ := SemArray.consecutive 12 S_ hcc1_scoped6
abbrev cc1_scoped7 : DmaSems sig S_ := SemArray.consecutive 13 S_ hcc1_scoped7
abbrev cc1_scoped8 : DmaSems sig S_ := SemArray.consecutive 14 S_ hcc1_scoped8

abbrev win0_0 : Pipeline.Window sig grid0 :=
  Pipeline.Window.ofSpecClip (Memref.whole main_v0) S64x16384.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v1) S8192x128.size cc0_transform_1 reads0_1 true false 2 stage0_1 sem0_1
    hrank0 hreads0_1 hstart0_1 nbuf0_1 (Memref.isWhole_whole _) hwx0_1 hwxs0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1000000x64 : Shape := ⟨2, ![1000000, 64]⟩
abbrev S100x64 : Shape := ⟨2, ![100, 64]⟩
abbrev S16384 : Shape := ⟨1, ![16384]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x64 : Shape := ⟨2, ![16384, 64]⟩

abbrev nBuf : Space → Nat
  | .hbm => 77
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S100x64, .f32⟩
  | .hbm, ⟨2, _⟩ => ⟨S16384, .i32⟩
  | .hbm, ⟨3, _⟩ => ⟨S16384, .i32⟩
  | .hbm, ⟨4, _⟩ => ⟨S16384, .i32⟩
  | .hbm, ⟨5, _⟩ => ⟨S_, .i32⟩
  | .hbm, ⟨6, _⟩ => ⟨S16384, .i32⟩
  | .hbm, ⟨7, _⟩ => ⟨S16384, .i1⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S16384x1, .i32⟩
  | .hbm, ⟨13, _⟩ => ⟨S1, .i32⟩
  | .hbm, ⟨14, _⟩ => ⟨S_, .i32⟩
  | .hbm, ⟨15, _⟩ => ⟨S16384x1, .i32⟩
  | .hbm, ⟨16, _⟩ => ⟨S16384x1, .i1⟩
  | .hbm, ⟨17, _⟩ => ⟨S1x1, .i32⟩
  | .hbm, ⟨18, _⟩ => ⟨S16384x1, .i32⟩
  | .hbm, ⟨19, _⟩ => ⟨S16384x1, .i1⟩
  | .hbm, ⟨20, _⟩ => ⟨S16384x1, .i1⟩
  | .hbm, ⟨21, _⟩ => ⟨S_, .i1⟩
  | .hbm, ⟨22, _⟩ => ⟨S16384, .i1⟩
  | .hbm, ⟨23, _⟩ => ⟨S16384x64, .f32⟩
  | .hbm, ⟨24, _⟩ => ⟨S16384x64, .i1⟩
  | .hbm, ⟨25, _⟩ => ⟨S_, .f32⟩
  | .hbm, ⟨26, _⟩ => ⟨S16384x64, .f32⟩
  | .hbm, ⟨27, _⟩ => ⟨S16384x64, .f32⟩
  | .hbm, ⟨28, _⟩ => ⟨S_, .i32⟩
  | .hbm, ⟨29, _⟩ => ⟨S16384, .i32⟩
  | .hbm, ⟨30, _⟩ => ⟨S16384, .i1⟩
  | .hbm, ⟨31, _⟩ => ⟨S_, .i32⟩
  | .hbm, ⟨32, _⟩ => ⟨S16384, .i32⟩
  | .hbm, ⟨33, _⟩ => ⟨S16384, .i32⟩
  | .hbm, ⟨34, _⟩ => ⟨S16384, .i32⟩
  | .hbm, ⟨35, _⟩ => ⟨S16384x1, .i32⟩
  | .hbm, ⟨36, _⟩ => ⟨S1, .i32⟩
  | .hbm, ⟨37, _⟩ => ⟨S_, .i32⟩
  | .hbm, ⟨38, _⟩ => ⟨S16384x1, .i32⟩
  | .hbm, ⟨39, _⟩ => ⟨S16384x1, .i1⟩
  | .hbm, ⟨40, _⟩ => ⟨S1x1, .i32⟩
  | .hbm, ⟨41, _⟩ => ⟨S16384x1, .i32⟩
  | .hbm, ⟨42, _⟩ => ⟨S16384x1, .i1⟩
  | .hbm, ⟨43, _⟩ => ⟨S16384x1, .i1⟩
  | .hbm, ⟨44, _⟩ => ⟨S_, .i1⟩
  | .hbm, ⟨45, _⟩ => ⟨S16384, .i1⟩
  | .hbm, ⟨46, _⟩ => ⟨S16384x64, .f32⟩
  | .hbm, ⟨47, _⟩ => ⟨S16384x64, .i1⟩
  | .hbm, ⟨48, _⟩ => ⟨S_, .f32⟩
  | .hbm, ⟨49, _⟩ => ⟨S16384x64, .f32⟩
  | .hbm, ⟨50, _⟩ => ⟨S16384x64, .f32⟩
  | .hbm, ⟨51, _⟩ => ⟨S_, .i32⟩
  | .hbm, ⟨52, _⟩ => ⟨S16384, .i32⟩
  | .hbm, ⟨53, _⟩ => ⟨S16384, .i1⟩
  | .hbm, ⟨54, _⟩ => ⟨S_, .i32⟩
  | .hbm, ⟨55, _⟩ => ⟨S16384, .i32⟩
  | .hbm, ⟨56, _⟩ => ⟨S16384, .i32⟩
  | .hbm, ⟨57, _⟩ => ⟨S16384, .i32⟩
  | .hbm, ⟨58, _⟩ => ⟨S16384x1, .i32⟩
  | .hbm, ⟨59, _⟩ => ⟨S1, .i32⟩
  | .hbm, ⟨60, _⟩ => ⟨S_, .i32⟩
  | .hbm, ⟨61, _⟩ => ⟨S16384x1, .i32⟩
  | .hbm, ⟨62, _⟩ => ⟨S16384x1, .i1⟩
  | .hbm, ⟨63, _⟩ => ⟨S1x1, .i32⟩
  | .hbm, ⟨64, _⟩ => ⟨S16384x1, .i32⟩
  | .hbm, ⟨65, _⟩ => ⟨S16384x1, .i1⟩
  | .hbm, ⟨66, _⟩ => ⟨S16384x1, .i1⟩
  | .hbm, ⟨67, _⟩ => ⟨S_, .i1⟩
  | .hbm, ⟨68, _⟩ => ⟨S16384, .i1⟩
  | .hbm, ⟨69, _⟩ => ⟨S16384x64, .f32⟩
  | .hbm, ⟨70, _⟩ => ⟨S16384x64, .i1⟩
  | .hbm, ⟨71, _⟩ => ⟨S_, .f32⟩
  | .hbm, ⟨72, _⟩ => ⟨S16384x64, .f32⟩
  | .hbm, ⟨73, _⟩ => ⟨S16384x64, .f32⟩
  | .hbm, ⟨74, _⟩ => ⟨S16384x64, .f32⟩
  | .hbm, ⟨75, _⟩ => ⟨S16384x64, .f32⟩
  | .hbm, ⟨76, _⟩ => ⟨S16384x64, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v1 : Ref sig .tc := ⟨.hbm, 50, rfl⟩
abbrev main_call2_c : Ref sig .tc := ⟨.hbm, 51, rfl⟩
abbrev main_call2_v0 : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_c_1 : Ref sig .tc := ⟨.hbm, 59, rfl⟩
abbrev main_call2_c_2 : Ref sig .tc := ⟨.hbm, 60, rfl⟩
abbrev main_call2_v6 : Ref sig .tc := ⟨.hbm, 61, rfl⟩
abbrev main_call2_v7 : Ref sig .tc := ⟨.hbm, 62, rfl⟩
abbrev main_call2_v8 : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_c_3 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_call2_cst : Ref sig .tc := ⟨.hbm, 71, rfl⟩
abbrev main_call2_v15 : Ref sig .tc := ⟨.hbm, 72, rfl⟩
abbrev main_v2 : Ref sig .tc := ⟨.hbm, 73, rfl⟩
abbrev main_v3 : Ref sig .tc := ⟨.hbm, 74, rfl⟩
abbrev main_v4 : Ref sig .tc := ⟨.hbm, 75, rfl⟩
abbrev main_v5 : Ref sig .tc := ⟨.hbm, 76, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x64_0 : S16384.BroadcastsInDim S16384x64 (![0] : Fin 1 → Fin S16384x64.rank)
  bcast_S_S16384x64 : S_.BroadcastsInDim S16384x64 (![] : Fin 0 → Fin S16384x64.rank)
  gather_S1000000x64_S16384x1_S16384x64_1_0_n_n_0_1_164_wf : GatherDims.WF S1000000x64 S16384x1 S16384x64 [1] [0] [] [0] [] 1 ![1, 64]
  gather_S100x64_S16384x1_S16384x64_1_0_n_n_0_1_164_wf : GatherDims.WF S100x64 S16384x1 S16384x64 [1] [0] [] [0] [] 1 ![1, 64]

variable [Facts₀]

def gather_S1000000x64_S16384x1_S16384x64_1_0_n_n_0_1_164 : GatherDims S1000000x64 S16384x1 S16384x64 where
  offsetDims := [1]
  collapsedSliceDims := [0]
  operandBatchingDims := []
  startIndicesBatchingDims := []
  startIndexMap := [0]
  indexVectorDim := 1
  sliceSizes := ![1, 64]
  wf := gather_S1000000x64_S16384x1_S16384x64_1_0_n_n_0_1_164_wf
def gather_S100x64_S16384x1_S16384x64_1_0_n_n_0_1_164 : GatherDims S100x64 S16384x1 S16384x64 where
  offsetDims := [1]
  collapsedSliceDims := [0]
  operandBatchingDims := []
  startIndicesBatchingDims := []
  startIndexMap := [0]
  indexVectorDim := 1
  sliceSizes := ![1, 64]
  wf := gather_S100x64_S16384x1_S16384x64_1_0_n_n_0_1_164_wf

class Facts : Prop extends Facts₀ where

variable [Facts]
-- ==== Proof.Spec.lean ====
/-
  The kernel's data layout, as pure functions.

  The 1000000 x 64 table is first transposed and then packed, two table rows to one packed row of 128 lanes: packed row
  rho holds, in lanes [0, 64), table row 16 * (rho / 8) + rho % 8 and, in lanes [64, 128), table row
  16 * (rho / 8) + 8 + rho % 8.  So table row v sits in packed row 8 * (v / 16) + v % 8, at lane offset 64 * (v / 8 % 2).
  The 100 x 64 table is reshaped to 50 x 128: table row v sits in packed row v / 2 at lane offset 64 * (v % 2).
  Each of 32 workers then looks up, for 512 batch entries, the two packed rows of the head and tail and the packed row
  of the relation, and writes |head + relation - tail| lane by lane, transposed: entry (d, b) of a 64 x 16384 array.
-/
import Idealize.ShloMosaic.PureOps.Ideal
import Idealize.ShloMosaic.Lib.ValueIdx

noncomputable section

namespace Cert.Spec

open Idealize.ShloMosaic Idealize.ShloMosaic.ValueIdx

/-- A natural number as an index below `n`, reduced mod `n` (the reduction is never active where it is used). -/
def ixMod (n : ℕ) [NeZero n] (k : ℕ) : Fin n := ⟨k % n, Nat.mod_lt _ (NeZero.pos n)⟩

theorem ixMod_of_lt {n : ℕ} [NeZero n] {k : ℕ} (h : k < n) : ixMod n k = ⟨k, h⟩ := Fin.ext (Nat.mod_eq_of_lt h)

/-- The packed row and the lane offset of table row `v` of the big table. -/
def physRow (v : ℕ) : ℕ := 8 * (v / 16) + v % 8
def physCol (v : ℕ) : ℕ := 64 * (v / 8 % 2)
/-- The packed row and the lane offset of row `v` of the small table. -/
def relRow (v : ℕ) : ℕ := v / 2
def relCol (v : ℕ) : ℕ := 64 * (v % 2)

theorem physRow_lt {v : ℕ} (h : v < 1000000) : physRow v < 500000 := by unfold physRow; omega
theorem physCol_add_lt (v : ℕ) {d : ℕ} (h : d < 64) : physCol v + d < 128 := by unfold physCol; omega
theorem relRow_lt {v : ℕ} (h : v < 100) : relRow v < 50 := by unfold relRow; omega
theorem relCol_add_lt (v : ℕ) {d : ℕ} (h : d < 64) : relCol v + d < 128 := by unfold relCol; omega

/-- The table row and the lane a packed position came from: position (rho, kappa) of the packed table is entry
    (kappa % 64, 16 * (rho / 8) + 8 * (kappa / 64) + rho % 8) of the transposed table. -/
def unpackRow (rho kappa : ℕ) : ℕ := 16 * (rho / 8) + 8 * (kappa / 64) + rho % 8

theorem unpackRow_phys (v d : ℕ) (hd : d < 64) : unpackRow (physRow v) (physCol v + d) = v := by
  unfold unpackRow physRow physCol; omega
theorem phys_lane (v d : ℕ) (hd : d < 64) : (physCol v + d) % 64 = d := by unfold physCol; omega

variable {α : Type}

/-- The packed big table, from the transposed table (64 x 1000000). -/
def packT (xT : (⟨2, ![64, 1000000]⟩ : Shape).Idx → α) : (⟨2, ![500000, 128]⟩ : Shape).Idx → α :=
  fun j => xT (ix2 (ixMod 64 ((j 1).val)) (ixMod 1000000 (unpackRow (j 0).val (j 1).val)))

/-- The reshaped small table, from the 100 x 64 table. -/
def packR (R : (⟨2, ![100, 64]⟩ : Shape).Idx → α) : (⟨2, ![50, 128]⟩ : Shape).Idx → α :=
  fun j => R (ix2 (ixMod 100 (2 * (j 0).val + (j 1).val / 64)) (ixMod 64 ((j 1).val)))

/-- What the workers write: entry (d, b) from the packed tables and the three index lists, `f a r t` standing for
    |a + r - t|. -/
def scoreT (f : α → α → α → α) (X : (⟨2, ![500000, 128]⟩ : Shape).Idx → α) (R2 : (⟨2, ![50, 128]⟩ : Shape).Idx → α)
    (h t r : (⟨1, ![16384]⟩ : Shape).Idx → BitVec 32) : (⟨2, ![64, 16384]⟩ : Shape).Idx → α :=
  fun j =>
    f (X (ix2 (ixMod 500000 (physRow (h (ix1 (j 1))).toNat)) (ixMod 128 (physCol (h (ix1 (j 1))).toNat + (j 0).val))))
      (R2 (ix2 (ixMod 50 (relRow (r (ix1 (j 1))).toNat)) (ixMod 128 (relCol (r (ix1 (j 1))).toNat + (j 0).val))))
      (X (ix2 (ixMod 500000 (physRow (t (ix1 (j 1))).toNat)) (ixMod 128 (physCol (t (ix1 (j 1))).toNat + (j 0).val))))

end Cert.Spec

end
-- ==== Proof.KI.Common.lean ====
/-
  Shared names for the proof about the kernel program: the program as the launch theorem sees it, the ghost state (the
  launch handshakes' rounds, the TensorCore pipeline's staging cells, the counters of the local copies), the arrays'
  locations, and what the SparseCore call hands each worker and takes back.

  A worker is a vector subcore (SparseCore c, subcore i); its number is w = 2 i + c.  It reads the packed tables and the
  three index lists (a read share of each, whole) and owns columns [512 w, 512 w + 512) of the 64 x 16384 result, which it
  leaves at the score |head + relation - tail| of its 512 batch entries.
-/
import proofs.«202666_g58660663329007_cont_9to1_m_1270_26_alg».proof.KernelIdeal
import proofs.«202666_g58660663329007_cont_9to1_m_1270_26_alg».proof.Proof.Gen.KernelIdeal
import proofs.«202666_g58660663329007_cont_9to1_m_1270_26_alg».proof.Proof.Gen.KernelIdeal.Launch
import proofs.«202666_g58660663329007_cont_9to1_m_1270_26_alg».proof.Proof.Gen.KernelIdeal.Points
import proofs.«202666_g58660663329007_cont_9to1_m_1270_26_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Spec

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The launch handshakes' rounds: the left factor. -/
abbrev EH : Emb UH (MT nD τ sig (HIx 1) (Elt F) ℕ UU ℕ) := embL
/-- The TensorCore pipeline's staging cells: the middle factor. (The counters of the local copies are the right one, found by instance.) -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The arrays -/

abbrev pLoc (d : Dev nD) : Loc nD τ sig := (SparseCore.T d).loc main_arg0
abbrev rlLoc (d : Dev nD) : Loc nD τ sig := (SparseCore.T d).loc main_arg1
abbrev hLoc (d : Dev nD) : Loc nD τ sig := (SparseCore.T d).loc main_arg2
abbrev tLoc (d : Dev nD) : Loc nD τ sig := (SparseCore.T d).loc main_arg3
abbrev rLoc (d : Dev nD) : Loc nD τ sig := (SparseCore.T d).loc main_arg4
/-- The transposed table, the packed table, the reshaped small table, the workers' result, its transpose. -/
abbrev xtLoc (d : Dev nD) : Loc nD τ sig := (SparseCore.T d).loc main_v0
abbrev x2Loc (d : Dev nD) : Loc nD τ sig := (SparseCore.T d).loc main_v1
abbrev r2Loc (d : Dev nD) : Loc nD τ sig := (SparseCore.T d).loc main_v2
abbrev oLoc (d : Dev nD) : Loc nD τ sig := (SparseCore.T d).loc main_v3
abbrev resLoc (d : Dev nD) : Loc nD τ sig := (SparseCore.T d).loc main_v4

/-! ## The workers -/

/-- The number of the worker on SparseCore `c`, vector subcore `i`. -/
def wid (c : Fin 2) (i : Fin 16) : Fin 32 := ⟨2 * i.val + c.val, by omega⟩

/-- The SparseCore and vector subcore of a grid point of the workers' kernel, and the worker's number there. -/
abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
abbrev widL (L : grid1.Coords) : Fin 32 := wid (Fin.cast bound_zero (L 0)) (Fin.cast bound_one (L 1))

/-- Worker `w`'s read share of an array every worker reads whole. -/
abbrev tok (w : Fin 32) : PosShare TreeShare := Transfers.shareTok fullShare 32 w

/-- Columns [512 w, 512 w + 512) of the 64 x 16384 result. -/
def colSet (w : Fin 32) : Finset S64x16384.Idx :=
  Finset.univ.filter fun j => 512 * w.val ≤ (j 1).val ∧ (j 1).val < 512 * w.val + 512

variable [FloatOps F]

/-- |a + r - t| on one lane. -/
def f3 (a r t : F .f32) : F .f32 := FloatOps.absf (FloatOps.subf (FloatOps.addf a r) t)

section Pay

variable (d : Dev nD) (X : Buf (Elt F) (x2Loc d)) (R2 : Buf (Elt F) (r2Loc d))
  (h : Buf (Elt F) (hLoc d)) (t : Buf (Elt F) (tLoc d)) (r : Buf (Elt F) (rLoc d))

/-- The five arrays a worker reads, each whole at its contents, under the worker's read share. -/
def readPay (w : Fin 32) : sProp 𝕄 :=
  iprop((x2Loc d ↦{tok w} X) ∗ (r2Loc d ↦{tok w} R2) ∗ (hLoc d ↦{tok w} h) ∗ (tLoc d ↦{tok w} t) ∗ (rLoc d ↦{tok w} r))

/-- The result the workers compute, as one function of the five arrays' contents. -/
def scoreOf : Buf (Elt F) (oLoc d) := scoreT (f3 (F := F)) X R2 h t r

/-- What a worker is handed: its read shares and its columns of the result at whatever they hold. -/
def goPay (w : Fin 32) (o : Buf (Elt F) (oLoc d)) : sProp 𝕄 :=
  iprop(readPay d X R2 h t r w ∗ (oLoc d ↦[colSet w]{fullShare} o))

/-- What it hands back: the same read shares, and its columns at the score. -/
def tdPay (w : Fin 32) : sProp 𝕄 :=
  iprop(readPay d X R2 h t r w ∗ (oLoc d ↦[colSet w]{fullShare} scoreOf d X R2 h t r))

end Pay

end Cert.KernelIdeal.Hand

end
-- ==== Proof.KI.TileStmt.lean ====
/-
  The statement of one worker's body: from its read shares of the five arrays, its 512 columns of the result, its own
  scratch and semaphores, the worker's program runs to its end and leaves its columns at the score.
-/
import proofs.«202666_g58660663329007_cont_9to1_m_1270_26_alg».proof.Proof.KI.Common

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The worker's program at grid point `L`, on the whole arrays and its own scratch and semaphores. -/
abbrev workerProg (L : grid1.Coords) :=
  cc1_sc_kernel (F := F) L (Memref.whole main_v1_scv) (Memref.isWhole_whole _) (Memref.whole main_v2_scv) (Memref.isWhole_whole _)
    (Memref.whole main_arg2_scv) (Memref.isWhole_whole _) (Memref.whole main_arg3_scv) (Memref.isWhole_whole _)
    (Memref.whole main_arg4_scv) (Memref.isWhole_whole _) (Memref.whole main_v3_scv) (Memref.isWhole_whole _)
    (Memref.whole cc1_scratch0) (Memref.isWhole_whole _) (Memref.whole cc1_scratch1) (Memref.isWhole_whole _)
    (Memref.whole cc1_scratch2) (Memref.isWhole_whole _) (Memref.whole cc1_scratch3) (Memref.isWhole_whole _)
    (Memref.whole cc1_scratch4) (Memref.isWhole_whole _) (Memref.whole cc1_scratch5) (Memref.isWhole_whole _)
    (Memref.whole cc1_scratch6) (Memref.isWhole_whole _) (Memref.whole cc1_scratch7) (Memref.isWhole_whole _)
    (Memref.whole cc1_scratch8) (Memref.isWhole_whole _) cc1_scratch9 cc1_scratch10
    cc1_scoped0 cc1_scoped1 cc1_scoped2 cc1_scoped3 cc1_scoped4 cc1_scoped5 cc1_scoped6 cc1_scoped7 cc1_scoped8

/-- The body obligation of a worker, for every grid point and all contents with the index lists in range. -/
def TileBody : Prop :=
  ∀ (d : Dev nD) (L : grid1.Coords)
    (X : Buf (Elt F) (x2Loc d)) (R2 : Buf (Elt F) (r2Loc d)) (h : Buf (Elt F) (hLoc d)) (t : Buf (Elt F) (tLoc d)) (r : Buf (Elt F) (rLoc d))
    (o : Buf (Elt F) (oLoc d))
    (_ : ∀ j, (h j).toNat < 1000000) (_ : ∀ j, (t j).toNat < 1000000) (_ : ∀ j, (r j).toNat < 100)
    (_ : (K (F := F)).Facts) (O : CellTallies nD τ sig (HIx 1)) (W : Waits sig (HIx 1)) (_ : ∀ g, O g none = 0),
    iprop(levAts (K (F := F)).L (K (F := F)).lev ∗ emp ∗ goPay d X R2 h t r (widL L) o
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (workerProg (F := F) L)
          fun _ => (iprop(tdPay d X R2 h t r (widL L) ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄)

end Cert.KernelIdeal.Hand

end
-- ==== Proof.KI.Split.lean ====
/-
  How the arrays of the SparseCore call are dealt to the 32 workers and collected again.  Each array every worker reads
  (the packed tables, the three index lists) is split into 32 read shares and a remainder that stays behind; the result's
  16384 columns are cut into the 32 blocks of 512 columns, pairwise disjoint and covering.  Afterwards the shares rejoin,
  and the blocks, each at the one score function, rejoin to the whole result at that function.
-/
import proofs.«202666_g58660663329007_cont_9to1_m_1270_26_alg».proof.Proof.KI.Common
import Idealize.ShloMosaic.Lib.Transfers

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.Spec

variable {F : FTy → Type}

local notation "𝕄" => MT nD τ sig (HIx 1) (Elt F) ℕ UU ℕ

/-! ## The workers, numbered -/

/-- (SparseCore c, subcore i) ↦ 2 i + c is a bijection onto the 32 worker numbers. -/
def widEquiv : Fin 2 × Fin 16 ≃ Fin 32 where
  toFun ci := wid ci.1 ci.2
  invFun w := (⟨w.val % 2, Nat.mod_lt _ (by decide)⟩, ⟨w.val / 2, by have := w.isLt; omega⟩)
  left_inv ci := by
    obtain ⟨c, i⟩ := ci
    refine Prod.ext (Fin.ext ?_) (Fin.ext ?_)
    · show (2 * i.val + c.val) % 2 = c.val
      have := c.isLt; omega
    · show (2 * i.val + c.val) / 2 = i.val
      have := c.isLt; omega
  right_inv w := by
    refine Fin.ext ?_
    show 2 * (w.val / 2) + w.val % 2 = w.val
    omega

theorem bigSep_workers {M : Type} [URA M] (Φ : Fin 32 → sProp M) :
    bigSep Finset.univ Φ = bigSep Finset.univ fun c : Fin 2 => bigSep Finset.univ fun i : Fin 16 => Φ (wid c i) := by
  rw [← bigSep_univ_prod (fun ci : Fin 2 × Fin 16 => Φ (wid ci.1 ci.2)), ← Finset.map_univ_equiv widEquiv, bigSep_map]
  rfl

/-! ## The result's columns -/

theorem cols_disjoint : ∀ w ∈ (Finset.univ : Finset (Fin 32)), ∀ w' ∈ (Finset.univ : Finset (Fin 32)), w ≠ w' → Disjoint (colSet w) (colSet w') := by
  intro w _ w' _ hne
  refine Finset.disjoint_left.mpr fun j hj hj' => hne (Fin.ext ?_)
  unfold colSet at hj hj'
  rw [Finset.mem_filter] at hj hj'
  omega

theorem cols_cover : (Finset.univ : Finset (Fin 32)).biUnion colSet = Finset.univ := by
  refine Finset.eq_univ_iff_forall.mpr fun j => Finset.mem_biUnion.mpr ?_
  have hj : (j 1).val < 16384 := idx2_lt1 j
  refine ⟨⟨(j 1).val / 512, by omega⟩, Finset.mem_univ _, ?_⟩
  unfold colSet
  rw [Finset.mem_filter]
  refine ⟨Finset.mem_univ _, ?_⟩
  show 512 * ((j 1).val / 512) ≤ (j 1).val ∧ (j 1).val < 512 * ((j 1).val / 512) + 512
  omega

theorem o_cols (d : Dev nD) (f : Buf (Elt F) (oLoc d)) :
    (oLoc d ↦{fullShare} f : sProp 𝕄) = bigSep Finset.univ fun w : Fin 32 => oLoc d ↦[colSet w]{fullShare} f := by
  rw [← pointsTo_biUnion Finset.univ (ℓ := oLoc d) colSet cols_disjoint, cols_cover]; try rfl

/-! ## Dealing and collecting -/

variable [FloatOps F]

section Deal

variable (d : Dev nD) (X : Buf (Elt F) (x2Loc d)) (R2 : Buf (Elt F) (r2Loc d))
  (h : Buf (Elt F) (hLoc d)) (t : Buf (Elt F) (tLoc d)) (r : Buf (Elt F) (rLoc d))

/-- What stays behind of the five arrays while the workers hold their read shares. -/
def remPay : sProp 𝕄 :=
  iprop((x2Loc d ↦{Transfers.shareDrop fullShare 32} X) ∗ (r2Loc d ↦{Transfers.shareDrop fullShare 32} R2)
    ∗ (hLoc d ↦{Transfers.shareDrop fullShare 32} h) ∗ (tLoc d ↦{Transfers.shareDrop fullShare 32} t)
    ∗ (rLoc d ↦{Transfers.shareDrop fullShare 32} r))

/-- The five arrays whole. -/
def wholePay : sProp 𝕄 :=
  iprop((x2Loc d ↦{fullShare} X) ∗ (r2Loc d ↦{fullShare} R2) ∗ (hLoc d ↦{fullShare} h) ∗ (tLoc d ↦{fullShare} t) ∗ (rLoc d ↦{fullShare} r))

theorem reads_split : (wholePay d X R2 h t r : sProp 𝕄) ⊢ iprop(remPay d X R2 h t r ∗ bigSep Finset.univ fun w : Fin 32 => readPay d X R2 h t r w) := by
  unfold wholePay remPay readPay
  rw [bigSep_sep', bigSep_sep', bigSep_sep', bigSep_sep']
  iintro ⟨H1, H2, H3, H4, H5⟩
  ihave H1' := (Transfers.pointsTo_toks (ℓ := x2Loc d) (S := Finset.univ) (f := X) fullShare 32).1 $$ H1
  ihave H2' := (Transfers.pointsTo_toks (ℓ := r2Loc d) (S := Finset.univ) (f := R2) fullShare 32).1 $$ H2
  ihave H3' := (Transfers.pointsTo_toks (ℓ := hLoc d) (S := Finset.univ) (f := h) fullShare 32).1 $$ H3
  ihave H4' := (Transfers.pointsTo_toks (ℓ := tLoc d) (S := Finset.univ) (f := t) fullShare 32).1 $$ H4
  ihave H5' := (Transfers.pointsTo_toks (ℓ := rLoc d) (S := Finset.univ) (f := r) fullShare 32).1 $$ H5
  icases H1' with ⟨R1, T1⟩
  icases H2' with ⟨R2', T2⟩
  icases H3' with ⟨R3, T3⟩
  icases H4' with ⟨R4, T4⟩
  icases H5' with ⟨R5, T5⟩
  isplitl [R1 R2' R3 R4 R5]
  · isplitl [R1]; · iexact R1
    isplitl [R2']; · iexact R2'
    isplitl [R3]; · iexact R3
    isplitl [R4]; · iexact R4
    iexact R5
  · isplitl [T1]; · iexact T1
    isplitl [T2]; · iexact T2
    isplitl [T3]; · iexact T3
    isplitl [T4]; · iexact T4
    iexact T5

theorem reads_join : iprop(remPay d X R2 h t r ∗ bigSep Finset.univ fun w : Fin 32 => readPay d X R2 h t r w) ⊢ (wholePay d X R2 h t r : sProp 𝕄) := by
  unfold wholePay remPay readPay
  rw [bigSep_sep', bigSep_sep', bigSep_sep', bigSep_sep']
  iintro ⟨⟨R1, R2', R3, R4, R5⟩, T1, T2, T3, T4, T5⟩
  isplitl [R1 T1]
  · iapply (Transfers.pointsTo_toks (ℓ := x2Loc d) (S := Finset.univ) (f := X) fullShare 32).2
    isplitl [R1] <;> iassumption
  isplitl [R2' T2]
  · iapply (Transfers.pointsTo_toks (ℓ := r2Loc d) (S := Finset.univ) (f := R2) fullShare 32).2
    isplitl [R2'] <;> iassumption
  isplitl [R3 T3]
  · iapply (Transfers.pointsTo_toks (ℓ := hLoc d) (S := Finset.univ) (f := h) fullShare 32).2
    isplitl [R3] <;> iassumption
  isplitl [R4 T4]
  · iapply (Transfers.pointsTo_toks (ℓ := tLoc d) (S := Finset.univ) (f := t) fullShare 32).2
    isplitl [R4] <;> iassumption
  · iapply (Transfers.pointsTo_toks (ℓ := rLoc d) (S := Finset.univ) (f := r) fullShare 32).2
    isplitl [R5] <;> iassumption

/-- The call's operands dealt: the remainder, and every worker's hand. -/
theorem deal (o : Buf (Elt F) (oLoc d)) :
    iprop(wholePay d X R2 h t r ∗ (oLoc d ↦{fullShare} o))
      ⊢ (iprop(remPay d X R2 h t r ∗ bigSep Finset.univ fun w : Fin 32 => goPay d X R2 h t r w o) : sProp 𝕄) := by
  unfold goPay
  rw [bigSep_sep', o_cols]
  iintro ⟨Hw, Ho⟩
  ihave H := (reads_split d X R2 h t r) $$ Hw
  icases H with ⟨Hr, Ht⟩
  isplitl [Hr]; · iexact Hr
  isplitl [Ht]; · iexact Ht
  iexact Ho

/-- The workers' hands collected: the five arrays whole again, the result whole at the score. -/
theorem collect :
    iprop(remPay d X R2 h t r ∗ bigSep Finset.univ fun w : Fin 32 => tdPay d X R2 h t r w)
      ⊢ (iprop(wholePay d X R2 h t r ∗ (oLoc d ↦{fullShare} scoreOf d X R2 h t r)) : sProp 𝕄) := by
  unfold tdPay
  rw [bigSep_sep', o_cols]
  iintro ⟨Hr, Ht, Ho⟩
  isplitl [Hr Ht]
  · iapply (reads_join d X R2 h t r)
    isplitl [Hr] <;> iassumption
  · iexact Ho

end Deal

end Cert.KernelIdeal.Hand

end
-- ==== Proof.KI.Launch.lean ====
/-
  The launch of the kernel program: what the SparseCore call hands its two SparseCores and their sixteen workers each and
  takes back, the workers' obligation from their body's statement, and how a SparseCore's hand splits among its workers.
-/
import proofs.«202666_g58660663329007_cont_9to1_m_1270_26_alg».proof.Proof.KI.TileStmt
import proofs.«202666_g58660663329007_cont_9to1_m_1270_26_alg».proof.Proof.KI.Split

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Spec

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The arrays' contents along @main, as functions of the launch memory -/

/-- The table transposed; packed; the small table reshaped; the workers' score; the score transposed. -/
def xtOf (d : Dev nD) : Buf (Elt F) (xtLoc d) := transpose S64x1000000 [1, 0] (m (pLoc d)) transposes_S1000000x64_S64x1000000_1_0
def x2Of (d : Dev nD) : Buf (Elt F) (x2Loc d) := packT (xtOf m d)
def r2Of (d : Dev nD) : Buf (Elt F) (r2Loc d) := fun i => shapeCast S50x128 (m (rlLoc d)) shapeCasts_S100x64_S50x128 i
def oOf (d : Dev nD) : Buf (Elt F) (oLoc d) := scoreOf d (x2Of m d) (r2Of m d) (m (hLoc d)) (m (tLoc d)) (m (rLoc d))
def resOf (d : Dev nD) : Buf (Elt F) (resLoc d) := transpose S16384x64 [1, 0] (oOf m d) transposes_S64x16384_S16384x64_1_0

/-- What the proof asks of the launch memory: every index word is a row number of its table. -/
def PreOK : Prop :=
  ∀ d : Dev nD, (∀ j, (m (hLoc d) j).toNat < 1000000) ∧ (∀ j, (m (tLoc d) j).toNat < 1000000) ∧ (∀ j, (m (rLoc d) j).toNat < 100)

/-! ## What the handshakes carry -/

abbrev goW (d : Dev nD) (w : Fin 32) : sProp 𝕄 := goPay d (x2Of m d) (r2Of m d) (m (hLoc d)) (m (tLoc d)) (m (rLoc d)) w (m (oLoc d))
abbrev tdW (d : Dev nD) (w : Fin 32) : sProp 𝕄 := tdPay d (x2Of m d) (r2Of m d) (m (hLoc d)) (m (tLoc d)) (m (rLoc d)) w

/-- The one call hands SparseCore `c` its sixteen workers' hands and takes them back, the columns at the score. -/
def P : (K (F := F)).Pay (nD := nD) (Val := Elt F) (Name := ℕ) (U := UU) where
  st := fun q d c => match q with | 0 => bigSep Finset.univ fun i : Fin 16 => goW m d (wid (Fin.cast nCore_zero c) i)
  dn := fun q d c => match q with | 0 => bigSep Finset.univ fun i : Fin 16 => tdW m d (wid (Fin.cast nCore_zero c) i)
  go := fun q d c i => match q with | 0 => goW m d (wid (Fin.cast nCore_zero c) (Fin.cast nSub_zero i))
  td := fun q d c i => match q with | 0 => tdW m d (wid (Fin.cast nCore_zero c) (Fin.cast nSub_zero i))
  x := fun _ _ => iprop(emp)

instance goPay_storable (d : Dev nD) X R2 h t r (w : Fin 32) o : BI.Storable (upEmb : UEmb _ 𝕄) (goPay (F := F) d X R2 h t r w o) := by
  unfold goPay readPay; infer_instance
instance tdPay_storable (d : Dev nD) X R2 h t r (w : Fin 32) : BI.Storable (upEmb : UEmb _ 𝕄) (tdPay (F := F) d X R2 h t r w) := by
  unfold tdPay readPay; infer_instance

instance P_storable : (P (F := F) m).IsStorable where
  st q d c := match q with
    | 0 => (inferInstance : BI.Storable (upEmb : UEmb _ 𝕄) (bigSep Finset.univ fun i : Fin 16 => goW m d (wid (Fin.cast nCore_zero c) i)))
  dn q d c := match q with
    | 0 => (inferInstance : BI.Storable (upEmb : UEmb _ 𝕄) (bigSep Finset.univ fun i : Fin 16 => tdW m d (wid (Fin.cast nCore_zero c) i)))
  go q d c i := match q with
    | 0 => (inferInstance : BI.Storable (upEmb : UEmb _ 𝕄) (goW m d (wid (Fin.cast nCore_zero c) (Fin.cast nSub_zero i))))
  td q d c i := match q with
    | 0 => (inferInstance : BI.Storable (upEmb : UEmb _ 𝕄) (tdW m d (wid (Fin.cast nCore_zero c) (Fin.cast nSub_zero i))))

/-! ## The workers' obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => workerProg (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (htile : TileBody (F := F)) (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (htile d (coordsV ⟨_, hc.1⟩ ⟨_, hc.2⟩) (x2Of m d) (r2Of m d) (m (hLoc d)) (m (tLoc d)) (m (rLoc d)) (m (oLoc d))
    (hpre d).1 (hpre d).2.1 (hpre d).2.2 hF O W hO).trans (wp_mono frame _ _ fun _ => obl_post)

/-! ## A SparseCore's hand split among its workers -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun i : Fin 16 => goW m d (wid (Fin.cast nCore_zero c) i)) ⊢ |={Set.univ}=> iprop(
      (bigSep Finset.univ fun i : Fin ((K (F := F)).nSub 0) => goW m d (wid (Fin.cast nCore_zero c) (Fin.cast nSub_zero i)))
      ∗ ((bigSep Finset.univ fun i : Fin ((K (F := F)).nSub 0) => tdW m d (wid (Fin.cast nCore_zero c) (Fin.cast nSub_zero i)))
          -∗ bigSep Finset.univ fun i : Fin 16 => tdW m d (wid (Fin.cast nCore_zero c) i)))
  rw [bigSep_tasks (F := F) (fun i => goW m d (wid (Fin.cast nCore_zero c) i)),
    bigSep_tasks (F := F) (fun i => tdW m d (wid (Fin.cast nCore_zero c) i))]
  iintro H; imodintro
  isplitl [H]; · iexact H
  iintro H; iexact H

end Cert.KernelIdeal.Hand

end
-- ==== Proof.KI.Main.lean ====
/-
  @main on the TensorCore, and the program's run.  @main transposes the table, runs the packing pipeline, reshapes the
  small table, starts the SparseCores and waits for them, and transposes their result.  Around the SparseCore call the
  five arrays the workers read are split into read shares and the result into column blocks, and collected afterwards.
-/
import proofs.«202666_g58660663329007_cont_9to1_m_1270_26_alg».proof.Proof.KI.Launch

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Cert.Spec

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The TensorCore's arrays -/

omit [FloatOps F] in
theorem unscopedBufs_eq (d : Dev nD) (W : (b : Ref sig .tc) → Buf (Elt F) ((d.tc : Thread nD τ).loc b)) :
    (unscopedBufs d W : sProp 𝕄) = iprop((pLoc d ↦{fullShare} W main_arg0) ∗ (rlLoc d ↦{fullShare} W main_arg1) ∗ (hLoc d ↦{fullShare} W main_arg2)
      ∗ (tLoc d ↦{fullShare} W main_arg3) ∗ (rLoc d ↦{fullShare} W main_arg4) ∗ (xtLoc d ↦{fullShare} W main_v0) ∗ (x2Loc d ↦{fullShare} W main_v1)
      ∗ (r2Loc d ↦{fullShare} W main_v2) ∗ (oLoc d ↦{fullShare} W main_v3) ∗ (resLoc d ↦{fullShare} W main_v4)) := by
  unfold unscopedBufs
  rw [show (Finset.univ.filter fun b : Ref sig .tc => ¬ b.isScoped) = {main_arg0, main_arg1, main_arg2, main_arg3, main_arg4, main_v0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

/-! ## The host operations -/

/-- A host operation with one operand and one result, alone before a return: it needs the region boundary and the two
    arrays whole, and leaves the result at the function's value. -/
theorem wp_unary_ret (d : Dev nD) (x y : Ref sig .tc) (f : x.ty.Contents (Elt F) → y.ty.Contents (Elt F)) (hx) (hy)
    (hne : (Proc.devRef .tc x : DevRef τ sig) ≠ Proc.devRef .tc y)
    {Λ : Labels} (defs : Defs nD τ sig (Elt F) Λ) (𝒱' : Variants) (hp : (SparseCore.T d : Thread nD τ).2.kind.runsHlo = true)
    (W : Valuation τ sig (Elt F)) (Q : PUnit → sProp 𝕄) :
    iprop(boundary (SparseCore.T d) ∗ ((((d, Proc.devRef .tc x) : Loc nD τ sig)) ↦{fullShare} W (Proc.devRef .tc x))
        ∗ ((((d, Proc.devRef .tc y) : Loc nD τ sig)) ↦{fullShare} W (Proc.devRef .tc y)))
      ⊢ iprop(((boundary (SparseCore.T d) ∗ ((((d, Proc.devRef .tc x) : Loc nD τ sig)) ↦{fullShare} W (Proc.devRef .tc x))
            ∗ ((((d, Proc.devRef .tc y) : Loc nD τ sig)) ↦{fullShare} f (W (Proc.devRef .tc x)))) -∗ Q ⟨⟩)
        -∗ wp frame (wpE defs 𝒱' (SparseCore.T d) none) Set.univ
          (hlo hp (StableHlo.unary x y f hx hy) fun _ => Prog.ret PUnit.unit) Q) := by
  have e1 : (held (SparseCore.T d) {Proc.devRef .tc x, Proc.devRef .tc y} W : sProp 𝕄)
      = iprop(((((d, Proc.devRef .tc x) : Loc nD τ sig)) ↦{fullShare} W (Proc.devRef .tc x))
        ∗ ((((d, Proc.devRef .tc y) : Loc nD τ sig)) ↦{fullShare} W (Proc.devRef .tc y))) := by
    unfold held
    rw [SparseCore.bigSep_insert' (by simpa using hne), bigSep_singleton]
  have e2 : (held (SparseCore.T d) {Proc.devRef .tc x, Proc.devRef .tc y} ((StableHlo.unary x y f hx hy : HloOp τ sig (Elt F)).result W) : sProp 𝕄)
      = iprop(((((d, Proc.devRef .tc x) : Loc nD τ sig)) ↦{fullShare} W (Proc.devRef .tc x))
        ∗ ((((d, Proc.devRef .tc y) : Loc nD τ sig)) ↦{fullShare} f (W (Proc.devRef .tc x)))) := by
    unfold held
    rw [SparseCore.bigSep_insert' (by simpa using hne), bigSep_singleton,
      (StableHlo.unary x y f hx hy : HloOp τ sig (Elt F)).result_of_not_mem W (b := Proc.devRef .tc x) (by simpa using hne),
      StableHlo.unary_result]
  iintro ⟨Hb, Hx, Hy⟩ Hk
  iapply (wp_hlo_within 𝒱' (SparseCore.T d) none Set.univ (op := StableHlo.unary x y f hx hy)
    (S := {Proc.devRef .tc x, Proc.devRef .tc y}) (Finset.Subset.refl _) (V := W)) $$ [Hb Hx Hy]
  · isplitl [Hb]; · iexact Hb
    iapply (Entails.of_eq e1.symm)
    isplitl [Hx]; · iexact Hx
    iexact Hy
  iintro ⟨Hb, Hheld⟩
  ihave Hh := (Entails.of_eq e2) $$ Hheld
  icases Hh with ⟨Hx, Hy⟩
  rw [wp_ret]; imodintro
  iapply Hk
  isplitl [Hb]; · iexact Hb
  isplitl [Hx]; · iexact Hx
  iexact Hy

/-- The same for a reshape: the result holds the operand's elements at the result's shape. -/
theorem wp_reshape_ret (d : Dev nD) (x y : Ref sig .tc) (he : x.ty.elt = y.ty.elt) (hn : x.ty.shape.ShapeCasts y.ty.shape) (hx) (hy)
    (hne : (Proc.devRef .tc x : DevRef τ sig) ≠ Proc.devRef .tc y)
    {Λ : Labels} (defs : Defs nD τ sig (Elt F) Λ) (𝒱' : Variants) (hp : (SparseCore.T d : Thread nD τ).2.kind.runsHlo = true)
    (W : Valuation τ sig (Elt F)) (Q : PUnit → sProp 𝕄) :
    iprop(boundary (SparseCore.T d) ∗ ((((d, Proc.devRef .tc x) : Loc nD τ sig)) ↦{fullShare} W (Proc.devRef .tc x))
        ∗ ((((d, Proc.devRef .tc y) : Loc nD τ sig)) ↦{fullShare} W (Proc.devRef .tc y)))
      ⊢ iprop(((boundary (SparseCore.T d) ∗ ((((d, Proc.devRef .tc x) : Loc nD τ sig)) ↦{fullShare} W (Proc.devRef .tc x))
            ∗ ((((d, Proc.devRef .tc y) : Loc nD τ sig)) ↦{fullShare} (fun i => he ▸ shapeCast y.ty.shape (W (Proc.devRef .tc x)) hn i))) -∗ Q ⟨⟩)
        -∗ wp frame (wpE defs 𝒱' (SparseCore.T d) none) Set.univ
          (hlo hp (StableHlo.reshape x y he hn hx hy) fun _ => Prog.ret PUnit.unit) Q) := by
  have e1 : (held (SparseCore.T d) {Proc.devRef .tc x, Proc.devRef .tc y} W : sProp 𝕄)
      = iprop(((((d, Proc.devRef .tc x) : Loc nD τ sig)) ↦{fullShare} W (Proc.devRef .tc x))
        ∗ ((((d, Proc.devRef .tc y) : Loc nD τ sig)) ↦{fullShare} W (Proc.devRef .tc y))) := by
    unfold held
    rw [SparseCore.bigSep_insert' (by simpa using hne), bigSep_singleton]
  have e2 : (held (SparseCore.T d) {Proc.devRef .tc x, Proc.devRef .tc y} ((StableHlo.reshape x y he hn hx hy : HloOp τ sig (Elt F)).result W) : sProp 𝕄)
      = iprop(((((d, Proc.devRef .tc x) : Loc nD τ sig)) ↦{fullShare} W (Proc.devRef .tc x))
        ∗ ((((d, Proc.devRef .tc y) : Loc nD τ sig)) ↦{fullShare} (fun i => he ▸ shapeCast y.ty.shape (W (Proc.devRef .tc x)) hn i))) := by
    unfold held
    rw [SparseCore.bigSep_insert' (by simpa using hne), bigSep_singleton,
      (StableHlo.reshape x y he hn hx hy : HloOp τ sig (Elt F)).result_of_not_mem W (b := Proc.devRef .tc x) (by simpa using hne),
      StableHlo.reshape_result]
  iintro ⟨Hb, Hx, Hy⟩ Hk
  iapply (wp_hlo_within 𝒱' (SparseCore.T d) none Set.univ (op := StableHlo.reshape x y he hn hx hy)
    (S := {Proc.devRef .tc x, Proc.devRef .tc y}) (Finset.Subset.refl _) (V := W)) $$ [Hb Hx Hy]
  · isplitl [Hb]; · iexact Hb
    iapply (Entails.of_eq e1.symm)
    isplitl [Hx]; · iexact Hx
    iexact Hy
  iintro ⟨Hb, Hheld⟩
  ihave Hh := (Entails.of_eq e2) $$ Hheld
  icases Hh with ⟨Hx, Hy⟩
  rw [wp_ret]; imodintro
  iapply Hk
  isplitl [Hb]; · iexact Hb
  isplitl [Hx]; · iexact Hx
  iexact Hy

/-! ## The packing pipeline's region, as @main needs it -/

/-- What the region's proof supplies: from the region boundary, the transposed table and the packed table's array whole,
    what the TensorCore owes before the first call, the level facts and the launch's deal `Gd d` for the pipeline's
    staging cells, the region runs and leaves the packed table at `packT` of the transposed one. -/
def RegionWp (Gd : Dev nD → sProp 𝕄) : Prop :=
  ∀ (xt : (d : Dev nD) → Buf (Elt F) (xtLoc d)) (x2₀ : (d : Dev nD) → Buf (Elt F) (x2Loc d)) (d : Dev nD) (Φ : PUnit → sProp 𝕄),
    iprop(((boundary (SparseCore.T d) ∗ (xtLoc d ↦{fullShare} xt d) ∗ (x2Loc d ↦{fullShare} (packT (xt d) : Buf (Elt F) (x2Loc d)))
            ∗ (∃ W, ⌜(K (F := F)).WBelow (SparseCore.T d) W (8 * 0)⌝ ∗ owes (SparseCore.T d) ((K (F := F)).Otc d 0) W)) -∗ Φ ⟨⟩)
        ∗ boundary (SparseCore.T d) ∗ (xtLoc d ↦{fullShare} xt d) ∗ (x2Loc d ↦{fullShare} x2₀ d)
        ∗ (∃ W, ⌜(K (F := F)).WBelow (SparseCore.T d) W (8 * 0)⌝ ∗ owes (SparseCore.T d) ((K (F := F)).Otc d 0) W)
        ∗ levAts (K (F := F)).L (K (F := F)).lev ∗ Gd d)
      ⊢ wp frame (wpE (D (F := F)) 𝒱 (SparseCore.T d) none) Set.univ
          (Prog.lift (.customCall (Pipeline.entry 0) ()) : Prog (TpuEff nD τ sig (Elt F) (ΛP (F := F)) .tc) PUnit) Φ

/-! ## @main -/

/-- The launch contents as a valuation of device `d`'s buffers. -/
def V0 (d : Dev nD) : Valuation τ sig (Elt F) := fun b => m (d, b)

abbrev o' : DevRef τ sig := Proc.devRef .tc (main_v3 : Ref sig .tc)
abbrev res' : DevRef τ sig := Proc.devRef .tc (main_v4 : Ref sig .tc)
/-- The valuation at the last transpose: the workers' result at the score. -/
def V3 (d : Dev nD) : Valuation τ sig (Elt F) := Function.update (V0 m d) o' (oOf m d)
theorem V3_o (d : Dev nD) : V3 m d o' = oOf m d := Function.update_self _ _ _
theorem V3_res (d : Dev nD) : V3 m d res' = m (resLoc d) := Function.update_of_ne (show res' ≠ o' by decide) _ _

theorem o_eq (d : Dev nD) :
    (oLoc d ↦{fullShare} scoreOf d (x2Of m d) (r2Of m d) (m (hLoc d)) (m (tLoc d)) (m (rLoc d)) : sProp 𝕄) = (oLoc d ↦{fullShare} V3 m d o') := by
  rw [V3_o]; rfl

/-- What @main leaves the claim: the five arguments at their launch contents, the result at the kernel's function of them. -/
abbrev FIN (d : Dev nD) : sProp 𝕄 :=
  iprop((pLoc d ↦{fullShare} m (pLoc d)) ∗ (rlLoc d ↦{fullShare} m (rlLoc d)) ∗ (hLoc d ↦{fullShare} m (hLoc d))
    ∗ (tLoc d ↦{fullShare} m (tLoc d)) ∗ (rLoc d ↦{fullShare} m (rLoc d)) ∗ (resLoc d ↦{fullShare} resOf m d))

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st0_eq (d : Dev nD) :
    (bigSep Finset.univ fun c : Fin ((K (F := F)).nCore 0) => (P m).st 0 d c) = bigSep Finset.univ fun w : Fin 32 => goW m d w := by
  rw [bigSep_workers (fun w => goW m d w)]
  exact bigSep_cores (F := F) (fun c => bigSep Finset.univ fun i : Fin 16 => goW m d (wid c i))
theorem dn0_eq (d : Dev nD) :
    (bigSep Finset.univ fun c : Fin ((K (F := F)).nCore 0) => (P m).dn 0 d c) = bigSep Finset.univ fun w : Fin 32 => tdW m d w := by
  rw [bigSep_workers (fun w => tdW m d w)]
  exact bigSep_cores (F := F) (fun c => bigSep Finset.univ fun i : Fin 16 => tdW m d (wid c i))

set_option maxHeartbeats 1600000 in
theorem hmain (Gd : Dev nD → sProp 𝕄) (hregion : RegionWp (F := F) Gd) (κ : GSem nD τ sig → ℕ) (d : Dev nD) :
    iprop((K (F := F)).ctx EH (P m) κ ∗ (K (F := F)).tcSt EH d 0 ∗ (K (F := F)).tcRes m ρ d ∗ Gd d)
      ⊢ wp frame (wpE ((K (F := F)).defs (D (F := F))) 𝒱 (SparseCore.T d) none) Set.univ (main d)
          fun _ => iprop((K (F := F)).tcSt EH d 1 ∗ FIN m d) := by
  obtain ⟨Rst, hRst⟩ : ∃ R : sProp 𝕄, (K (F := F)).tcSt EH d 0
      = iprop((∃ W, ⌜(K (F := F)).WBelow (SparseCore.T d) W (8 * 0)⌝ ∗ owes (SparseCore.T d) ((K (F := F)).Otc d 0) W) ∗ R) :=
    ⟨_, by unfold SparseCore.Cfg.tcSt; rfl⟩
  unfold SparseCore.Cfg.tcRes
  rw [unscopedBufs_eq]
  simp only [main, wp_bind, wp_pure]
  iintro ⟨#Hctx, Hst, ⟨Hb, ⟨Hp, Hrl, Hh, Ht, Hr, Hxt, Hx2, Hr2, Ho, Hres⟩, Hsems, Hprng⟩, HG⟩
  -- the table transposed
  iapply (wp_unary_ret d main_arg0 main_v0 _ _ _ (by decide) _ 𝒱 _ (V0 m d) _) $$ [Hb Hp Hxt]
  · isplitl [Hb]; · iexact Hb
    isplitl [Hp]; · iexact Hp
    iexact Hxt
  iintro ⟨Hb, Hp, Hxt⟩
  -- the packing pipeline
  ihave Hst' := (Entails.of_eq hRst) $$ Hst
  icases Hst' with ⟨Howes, Hstrest⟩
  ihave Hlev := ((K (F := F)).ctx_levAts κ) $$ Hctx
  iapply ((K (F := F)).wp_liftProg (D (F := F)) 𝒱 (SparseCore.T d) Set.univ none (Prog.lift (.customCall (Pipeline.entry 0) ())) _)
  iapply (hregion (xtOf m) (fun d => m (x2Loc d)) d _) $$ [Hb Hxt Hx2 Howes Hlev HG Hp Hrl Hh Ht Hr Hr2 Ho Hres Hsems Hprng Hstrest]
  isplitr [Hb Hxt Hx2 Howes Hlev HG]
  rotate_left
  · isplitl [Hb]; · iexact Hb
    isplitl [Hxt]; · iexact Hxt
    isplitl [Hx2]; · iexact Hx2
    isplitl [Howes]; · iexact Howes
    isplitl [Hlev]; · iexact Hlev
    iexact HG
  iintro ⟨Hb, Hxt, Hx2, Howes⟩
  -- the small table reshaped
  iapply (wp_reshape_ret d main_arg1 main_v2 _ _ _ _ (by decide) _ 𝒱 _ (V0 m d) _) $$ [Hb Hrl Hr2]
  · isplitl [Hb]; · iexact Hb
    isplitl [Hrl]; · iexact Hrl
    iexact Hr2
  iintro ⟨Hb, Hrl, Hr2⟩
  -- the SparseCore call: the operands dealt to the workers, and collected
  ihave Hdeal := (deal d (x2Of m d) (r2Of m d) (m (hLoc d)) (m (tLoc d)) (m (rLoc d)) (m (oLoc d))) $$ [Hx2 Hr2 Hh Ht Hr Ho]
  · unfold wholePay
    isplitr [Ho]
    · isplitl [Hx2]; · iexact Hx2
      isplitl [Hr2]; · iexact Hr2
      isplitl [Hh]; · iexact Hh
      isplitl [Ht]; · iexact Ht
      iexact Hr
    · iexact Ho
  icases Hdeal with ⟨Hrem, Hgo⟩
  iapply ((K (F := F)).wp_run (D (F := F)) 𝒱 (EH := EH) (P := P m) κ d 0) $$ [Howes Hstrest Hgo Hb Hp Hrl Hxt Hres Hsems Hprng Hrem]
  isplitr; · iexact Hctx
  isplitl [Howes Hstrest]
  · iapply (Entails.of_eq hRst.symm)
    isplitl [Howes]; · iexact Howes
    iexact Hstrest
  isplitl [Hgo]
  · rw [st0_eq]; iexact Hgo
  iintro ⟨Hst, Hdn⟩
  ihave Hdn' := (Entails.of_eq (dn0_eq m d)) $$ Hdn
  ihave Hcol := (collect d (x2Of m d) (r2Of m d) (m (hLoc d)) (m (tLoc d)) (m (rLoc d))) $$ [Hrem Hdn']
  · isplitl [Hrem]; · iexact Hrem
    iexact Hdn'
  unfold wholePay
  icases Hcol with ⟨⟨Hx2, Hr2, Hh, Ht, Hr⟩, Ho⟩
  -- the result transposed
  ihave Ho' := (Entails.of_eq (o_eq m d)) $$ Ho
  ihave Hres' := (Entails.of_eq (congrArg (fun f => (resLoc d ↦{fullShare} f : sProp 𝕄)) (V3_res m d).symm)) $$ Hres
  iapply (wp_unary_ret d main_v3 main_v4 _ _ _ (by decide) _ 𝒱 _ (V3 m d) _) $$ [Hb Ho' Hres']
  · isplitl [Hb]; · iexact Hb
    isplitl [Ho']; · iexact Ho'
    iexact Hres'
  iintro ⟨Hb, Ho, Hres⟩
  imodintro
  isplitl [Hst]; · iexact Hst
  isplitl [Hp]; · iexact Hp
  isplitl [Hrl]; · iexact Hrl
  isplitl [Hh]; · iexact Hh
  isplitl [Ht]; · iexact Ht
  isplitl [Hr]; · iexact Hr
  rw [V3_o]
  iexact Hres

end Cert.KernelIdeal.Hand

end
-- ==== Proof.KI.Run.lean ====
/-
  The program's run: the launch element, how the final memory reads the claim, and the launch theorem applied.  From a
  memory whose index lists are in range every weakly fair execution of all the device's threads terminates, the five
  arguments end as they began and the result array holds the kernel's function of them.
-/
import proofs.«202666_g58660663329007_cont_9to1_m_1270_26_alg».proof.Proof.KI.Main

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Cert.Spec

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The launch element -/

/-- The launch element: the handshakes' rounds, the pipeline's staging cells `u₁`, and no counter. -/
def u₀ (u₁ : UP) : UU := (initOf (K (F := F)).hsCells (K (F := F)).hsToks, (u₁, 1))

omit [FloatOps F] in
theorem bigSep_emp' {I : Type} (s : Finset I) : (bigSep s fun _ => iprop(emp)) = (iprop(emp) : sProp 𝕄) := bigSep_emp_const s

omit [FloatOps F] in
theorem ownU_split3 (a : UH) (b : UP) (c : Counters) : (ownU ((a, (b, c)) : UU) : sProp 𝕄) ⊢ iprop(BI.own (EH a) ∗ BI.own (EP b)) := by
  have h1 : (ownU ((a, (b, c)) : UU) : sProp 𝕄) ⊢ iprop(BI.own (EH a) ∗ ownU (((1 : UH), (b, c)) : UU)) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, c))))
  have h2 : (ownU (((1 : UH), (b, c)) : UU) : sProp 𝕄) ⊢ iprop(BI.own (EP b) ∗ ownU (((1 : UH), ((1 : UP), c)) : UU)) :=
    BI.own_op_elim ((uEmb (nD := nD) (sig := sig) (Ix := HIx 1) (Val := Elt F) (Name := ℕ) (U := UU) (Lvl := ℕ)).toEmb.op_of_mem
      (Prod.mk_mem_op (URA.mem_op_one (1 : UH)) (Prod.mk_mem_op (URA.mem_op_one b) (URA.mem_one_op c))))
  iintro H
  ihave H1 := h1 $$ H
  icases H1 with ⟨HA, H⟩
  ihave H2 := h2 $$ H
  icases H2 with ⟨HB, -⟩
  isplitl [HA]; · iexact HA
  iexact HB

theorem hu₀ (Gd : Dev nD → sProp 𝕄) (u₁ : UP) (hfund : (BI.own (EP u₁) : sProp 𝕄) ⊢ iprop(|==> bigSep Finset.univ Gd)) :
    (ownU (u₀ (F := F) u₁) : sProp 𝕄)
      ⊢ |={Set.univ}=> iprop(BI.own (EH (initOf (K (F := F)).hsCells (K (F := F)).hsToks)) ∗ (bigSep Finset.univ Gd)
        ∗ bigSep Finset.univ fun thr : Thread nD τ => bigSep Finset.univ fun q : Fin 1 => (P m).x q thr) := by
  unfold u₀
  iintro Hu
  ihave H := (ownU_split3 _ _ _) $$ Hu
  icases H with ⟨HH, HP⟩
  imod hfund $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The final memory -/

def fq (d : Dev nD) (s' : Phys nD τ sig (Elt F)) : Prop :=
  s'.mem.mem (pLoc d) = m (pLoc d) ∧ s'.mem.mem (rlLoc d) = m (rlLoc d) ∧ s'.mem.mem (hLoc d) = m (hLoc d)
    ∧ s'.mem.mem (tLoc d) = m (tLoc d) ∧ s'.mem.mem (rLoc d) = m (rLoc d) ∧ s'.mem.mem (resLoc d) = resOf m d

theorem hfin (d : Dev nD) (s' : Phys nD τ sig (Elt F)) : iprop(FIN m d ∗ SI s') ⊢ (⌜fq m d s'⌝ : sProp 𝕄) := by
  iintro ⟨⟨Hp, Hrl, Hh, Ht, Hr, Hres⟩, HSI⟩
  ihave H := (persistent_entails_right (SI_pointsTo_agree (st := s') (ℓ := pLoc d) (I := Finset.univ) (q := fullShare) (f := m (pLoc d)))) $$ [HSI Hp]
  · isplitl [HSI] <;> iassumption
  icases H with ⟨%h1, HSI, -⟩
  ihave H := (persistent_entails_right (SI_pointsTo_agree (st := s') (ℓ := rlLoc d) (I := Finset.univ) (q := fullShare) (f := m (rlLoc d)))) $$ [HSI Hrl]
  · isplitl [HSI] <;> iassumption
  icases H with ⟨%h2, HSI, -⟩
  ihave H := (persistent_entails_right (SI_pointsTo_agree (st := s') (ℓ := hLoc d) (I := Finset.univ) (q := fullShare) (f := m (hLoc d)))) $$ [HSI Hh]
  · isplitl [HSI] <;> iassumption
  icases H with ⟨%h3, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h4, HSI, -⟩
  ihave H := (persistent_entails_right (SI_pointsTo_agree (st := s') (ℓ := rLoc d) (I := Finset.univ) (q := fullShare) (f := m (rLoc d)))) $$ [HSI Hr]
  · isplitl [HSI] <;> iassumption
  icases H with ⟨%h5, HSI, -⟩
  ihave H := (SI_pointsTo_agree (st := s') (ℓ := resLoc d) (I := Finset.univ) (q := fullShare) (f := resOf m d)) $$ [HSI Hres]
  · isplitl [HSI] <;> iassumption
  icases H with %h6
  ipureintro
  exact ⟨funext fun i => h1 i (Finset.mem_univ i), funext fun i => h2 i (Finset.mem_univ i), funext fun i => h3 i (Finset.mem_univ i),
    funext fun i => h4 i (Finset.mem_univ i), funext fun i => h5 i (Finset.mem_univ i), funext fun i => h6 i (Finset.mem_univ i)⟩

/-! ## The run -/

def QC : PUnit × MemSt nD τ sig (Elt F) → Prop := fun r => ∀ c : Dev nD,
  r.2.mem (pLoc c) = m (pLoc c) ∧ r.2.mem (rlLoc c) = m (rlLoc c) ∧ r.2.mem (hLoc c) = m (hLoc c)
    ∧ r.2.mem (tLoc c) = m (tLoc c) ∧ r.2.mem (rLoc c) = m (rLoc c) ∧ r.2.mem (resLoc c) = resOf m c

theorem run_main [∀ e, Nonempty (Elt F e)] (htile : TileBody (F := F)) (Gd : Dev nD → sProp 𝕄) (hregion : RegionWp (F := F) Gd)
    (u₁ : UP) (hfund : (BI.own (EP u₁) : sProp 𝕄) ⊢ iprop(|==> bigSep Finset.univ Gd)) (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m htile facts hpre)
    (fun q _ => match q with | 0 => SparseCore.Cfg.VecSplit.of_plain (vecSplit m))
    m ρ main Gd (FIN m) (u₀ (F := F) u₁) (sep_elim_left.trans (hu₀ m Gd u₁ hfund)) (hmain m ρ Gd hregion) (fq m) (hfin m) (QC m) (fun _ h => h)

end Cert.KernelIdeal.Hand

end
-- ==== Proof.KI.RegionPay.lean ====
/-
  The packing step's arithmetic, at one element.

  The body of the packing call reads a 64 x 16384 block, transposes it to 16384 x 64, views the rows in groups of
  sixteen, takes rows 0..7 and rows 8..15 of every group as two 8192 x 64 halves and lays the halves side by side,
  128 lanes wide.  So entry (p, q) of the 8192 x 128 result is entry (q % 64, 16 * (p / 8) + 8 * (q / 64) + p % 8)
  of the block: lanes below 64 come from the first half (row p % 8 of group p / 8), the others from the second
  (row 8 + p % 8 of that group).
-/
import proofs.«202666_g58660663329007_cont_9to1_m_1270_26_alg».proof.Proof.Gen.KernelIdeal.Skeleton
import Idealize.ShloMosaic.Lib.Pipeline.Value
import Idealize.ShloMosaic.Lib.ValueLayout
import Idealize.ShloMosaic.Lib.ValueIdx

noncomputable section

namespace Cert.KernelIdeal.Hand

open Cert.KernelIdeal Cert.KernelIdeal.Gen
open Idealize.ShloMosaic Idealize.ShloMosaic.ValueIdx

variable {F : FTy → Type} [FloatOps F]

/-- The column of the block an entry of the packed block came from. -/
theorem packCol_lt (p : Fin 8192) (q : Fin 128) : 16 * (p.val / 8) + 8 * (q.val / 64) + p.val % 8 < 16384 := by
  have := p.isLt; have := q.isLt; omega

/-- The packed block at (p, q) is the block at (q % 64, 16 * (p / 8) + 8 * (q / 64) + p % 8). -/
theorem pay_apply (v : Vec F S64x16384 .f32) (p : Fin 8192) (q : Fin 128) :
    k0_pay1 v (ix2 p q)
      = v (ix2 (⟨q.val % 64, Nat.mod_lt _ (by decide)⟩ : Fin 64) (⟨16 * (p.val / 8) + 8 * (q.val / 64) + p.val % 8, packCol_lt p q⟩ : Fin 16384)) := by
  have hp := p.isLt
  have hq128 := q.isLt
  unfold k0_pay1
  by_cases hq : q.val < 64
  · -- a lane of the first half: row p % 8 of group p / 8
    refine (concatenate_pair_apply_left (t := S8192x128) (s₁ := S8192x64) (s₂ := S8192x64) (1 : Fin 2) _ _ _ (ix2 p q) rfl (ix2 p (⟨q.val, hq⟩ : Fin 64))
      (fun b => match b with | ⟨0, _⟩ => rfl | ⟨1, _⟩ => rfl)).trans ?_
    refine (shapeCast_apply _ _ (ix2 p (⟨q.val, hq⟩ : Fin 64))
      (ix3 (⟨p.val / 8, by omega⟩ : Fin 1024) (⟨p.val % 8, by omega⟩ : Fin 8) (⟨q.val, hq⟩ : Fin 64)) ?_).trans ?_
    · rw [Shape.rowMajor_val_three, Shape.rowMajor_val_two]
      show (p.val / 8 * 8 + p.val % 8) * 64 + q.val = p.val * 64 + q.val
      omega
    refine (extractStridedSlice_apply _ _ _ _
      (ix3 (⟨p.val / 8, by omega⟩ : Fin 1024) (⟨p.val % 8, by omega⟩ : Fin 16) (⟨q.val, hq⟩ : Fin 64))
      (fun a => match a with | ⟨0, _⟩ => (Nat.zero_add _).symm | ⟨1, _⟩ => (Nat.zero_add _).symm | ⟨2, _⟩ => (Nat.zero_add _).symm)).trans ?_
    refine (shapeCast_apply _ _ _ (ix2 (⟨16 * (p.val / 8) + p.val % 8, by omega⟩ : Fin 16384) (⟨q.val, hq⟩ : Fin 64)) ?_).trans ?_
    · rw [Shape.rowMajor_val_three, Shape.rowMajor_val_two]
      show (16 * (p.val / 8) + p.val % 8) * 64 + q.val = (p.val / 8 * 16 + p.val % 8) * 64 + q.val
      omega
    refine (transpose_ix2_apply _ _ _ _).trans ?_
    rw [shapeCast_self]
    exact congrArg v (by
      funext a; match a with
      | ⟨0, _⟩ => exact Fin.ext (show q.val = q.val % 64 by omega)
      | ⟨1, _⟩ => exact Fin.ext (show 16 * (p.val / 8) + p.val % 8 = 16 * (p.val / 8) + 8 * (q.val / 64) + p.val % 8 by omega))
  · -- a lane of the second half: row 8 + p % 8 of group p / 8
    have hq' : q.val - 64 < 64 := by omega
    refine (concatenate_pair_apply_right (t := S8192x128) (s₁ := S8192x64) (s₂ := S8192x64) (1 : Fin 2) _ _ _ (ix2 p q) rfl rfl (ix2 p (⟨q.val - 64, hq'⟩ : Fin 64))
      (fun b hb => match b, hb with | ⟨0, _⟩, _ => rfl | ⟨1, _⟩, hb => absurd rfl hb)
      (show q.val - 64 + 64 = q.val by omega)).trans ?_
    refine (shapeCast_apply _ _ (ix2 p (⟨q.val - 64, hq'⟩ : Fin 64))
      (ix3 (⟨p.val / 8, by omega⟩ : Fin 1024) (⟨p.val % 8, by omega⟩ : Fin 8) (⟨q.val - 64, hq'⟩ : Fin 64)) ?_).trans ?_
    · rw [Shape.rowMajor_val_three, Shape.rowMajor_val_two]
      show (p.val / 8 * 8 + p.val % 8) * 64 + (q.val - 64) = p.val * 64 + (q.val - 64)
      omega
    refine (extractStridedSlice_apply _ _ _ _
      (ix3 (⟨p.val / 8, by omega⟩ : Fin 1024) (⟨8 + p.val % 8, by omega⟩ : Fin 16) (⟨q.val - 64, hq'⟩ : Fin 64))
      (fun a => match a with | ⟨0, _⟩ => (Nat.zero_add _).symm | ⟨1, _⟩ => rfl | ⟨2, _⟩ => (Nat.zero_add _).symm)).trans ?_
    refine (shapeCast_apply _ _ _ (ix2 (⟨16 * (p.val / 8) + 8 + p.val % 8, by omega⟩ : Fin 16384) (⟨q.val - 64, hq'⟩ : Fin 64)) ?_).trans ?_
    · rw [Shape.rowMajor_val_three, Shape.rowMajor_val_two]
      show (16 * (p.val / 8) + 8 + p.val % 8) * 64 + (q.val - 64) = (p.val / 8 * 16 + (8 + p.val % 8)) * 64 + (q.val - 64)
      omega
    refine (transpose_ix2_apply _ _ _ _).trans ?_
    rw [shapeCast_self]
    exact congrArg v (by
      funext a; match a with
      | ⟨0, _⟩ => exact Fin.ext (show q.val - 64 = q.val % 64 by omega)
      | ⟨1, _⟩ => exact Fin.ext (show 16 * (p.val / 8) + 8 + p.val % 8 = 16 * (p.val / 8) + 8 * (q.val / 64) + p.val % 8 by omega))

end Cert.KernelIdeal.Hand

end
-- ==== Proof.KI.RegionData.lean ====
/-
  The packing call, point by point.

  The call walks 62 points.  Point t fetches columns [16384 t, 16384 t + 16384) of the 64 x 1000000 transposed table
  into a staging block, packs it, and writes the packed block back to rows [8192 t, 8192 t + 8192) of the
  500000 x 128 packed table.  The last point's blocks overhang both arrays; the transfers move only the part inside
  (576 columns in, 288 rows out), and nothing is known of the rest of the staging blocks.  That is enough: rows below
  288 of the last packed block read only columns below 576 of the last fetched block.

  Here: what each staging block holds after the body at each point (the fetched block; the packed table's rows
  there), and the body's run from the one to the other.
-/
import proofs.«202666_g58660663329007_cont_9to1_m_1270_26_alg».proof.Proof.KI.Common
import proofs.«202666_g58660663329007_cont_9to1_m_1270_26_alg».proof.Proof.KI.RegionPay
import proofs.«202666_g58660663329007_cont_9to1_m_1270_26_alg».proof.Proof.Gen.KernelIdeal.Skeleton

noncomputable section

namespace Cert.KernelIdeal.Hand

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)
open Idealize.ShloMosaic.ValueIdx
open Cert.Spec

variable {F : FTy → Type} [FloatOps F]

local notation "𝕄" => MT nD τ sig (HIx 1) (Elt F) ℕ UU ℕ

-- The transposed table and the packed table's first contents, on every device.
variable (xt : (d : Dev nD) → Buf (Elt F) (xtLoc d)) (x2₀ : (d : Dev nD) → Buf (Elt F) (x2Loc d))

/-! ## The proof data -/

/-- What the fetch at point `t` reads: the part of the block of columns inside the table. -/
def xblk (d : Dev nD) (t : Fin cfg0.N) : (win0_0.xblock (grid0.coords t)).Idx → Elt F .f32 :=
  (win0_0.blk t).view.read (Elt F) (xt d)

/-- The input staging block after the body, on the part inside the table (elsewhere a word nothing reads). -/
def xblkFull (d : Dev nD) (t : Fin cfg0.N) : S64x16384.Idx → Elt F .f32 :=
  win0_0.fill (grid0.coords t) (fun _ => Scalar.ofBits .f32 0#32) (xblk xt d t)

/-- The output staging block after the body, on the rows inside the packed table: the packed table's rows from
    8192 t on (past the table's end the row number is reduced, and nothing reads it). -/
def yblk (d : Dev nD) (t : Fin cfg0.N) : S8192x128.Idx → Elt F .f32 :=
  fun j => packT (xt d) (ix2 (ixMod 500000 (8192 * t.val + (j 0).val)) (ixMod 128 (j 1).val))

/-- The proof data of the packing call on device `d`: the two arrays as the call finds them; after the body the
    input staging block as fetched and the output staging block at the packed rows; no invariant; the device's
    debts (the start signals of the later call) carried through unchanged, every wait recorded at the index of no
    call. -/
def pdat (d : Dev nD) : Dat τ (Elt F) (HIx 1) ℕ UU ℕ cfg0 d where
  A w := match w with
    | ⟨0, _⟩ => xt d
    | ⟨1, _⟩ => x2₀ d
  after w t := match w with
    | ⟨0, _⟩ => xblkFull xt d t
    | ⟨1, _⟩ => yblk xt d t
  Φ _ := iprop(emp)
  q _ := fullShare
  owed _ := (K (F := F)).Otc d 0
  recorded _ := {p | p.2 = none}

/-- The input staging block as the body finds it: just fetched. -/
theorem before_0 (d : Dev nD) (t : Fin cfg0.N) (X) :
    (pdat xt x2₀ d).before (0 : Fin 2) t X = win0_0.fill (grid0.coords t) X (xblk xt d t) := by
  unfold Dat.before; rw [if_pos (fetch0_0 t)]; rfl

/-- The output window is never fetched, -/
theorem fetch0_1 (t : Fin cfg0.N) : (cfg0.win (1 : Fin 2)).fetch t = false := rfl

/-- so the body finds its staging block at contents nothing names. -/
theorem before_1 (d : Dev nD) (t : Fin cfg0.N) (X) : (pdat xt x2₀ d).before (1 : Fin 2) t X = X := by
  unfold Dat.before
  rw [if_neg (by rw [fetch0_1 t]; exact Bool.false_ne_true)]
  split
  · rfl
  · exact if_pos (flush0_1 _)

/-! ## The blocks' arithmetic -/

/-- Where the blocks sit and how much of each the transfers move, decided over the 62 points: the block of columns
    [16384 t, ..) of all 64 rows, of which 16384 columns or (the last) what is left of 1000000; the block of rows
    [8192 t, ..) of all 128 lanes, of which 8192 rows or (the last) what is left of 500000. -/
theorem idx_facts : ∀ t : Fin cfg0.N,
    win0_0.index t 0 = 0 ∧ win0_0.index t 1 = t.val ∧ win0_1.index t 0 = t.val ∧ win0_1.index t 1 = 0
      ∧ win0_0.xsize (grid0.coords t) 0 = 64 ∧ win0_0.xsize (grid0.coords t) 1 = min 16384 (1000000 - 16384 * t.val)
      ∧ win0_1.xsize (grid0.coords t) 0 = min 8192 (500000 - 8192 * t.val) ∧ win0_1.xsize (grid0.coords t) 1 = 128 :=
  (by decide +kernel : ∀ t : Fin grid0.N, _)

/-- The rows of the packed block that lie inside the packed table read only columns of the fetched block that lie
    inside the transposed table, and they are the packed table's rows: row 8192 t + p, lane q of the packed table
    is entry (q % 64, 16 * ((8192 t + p) / 8) + 8 * (q / 64) + p % 8) = (q % 64, 16384 t + 16 * (p / 8) + 8 * (q / 64) + p % 8)
    of the transposed table, and p < 500000 - 8192 t puts that column below 1000000. -/
theorem cut_pay (d : Dev nD) (t : Fin cfg0.N) (X : S64x16384.Idx → Elt F .f32) :
    win0_1.cut (grid0.coords t) (k0_pay1 (win0_0.fill (grid0.coords t) X (xblk xt d t)))
      = win0_1.cut (grid0.coords t) (yblk xt d t) := by
  obtain ⟨i00, i01, i10, i11, s00, s01, s10, s11⟩ := idx_facts t
  have ht : t.val < 62 := t.isLt
  funext x
  have hx0 : (x 0).val < win0_1.xsize (grid0.coords t) 0 := (x 0).isLt
  have hx1 : (x 1).val < win0_1.xsize (grid0.coords t) 1 := (x 1).isLt
  rw [s10] at hx0; rw [s11] at hx1
  have hp : (x 0).val < 8192 := by omega
  have e : win0_1.xinj (grid0.coords t) x = ix2 (⟨(x 0).val, hp⟩ : Fin 8192) (⟨(x 1).val, hx1⟩ : Fin 128) := by
    funext a; match a with | ⟨0, _⟩ => rfl | ⟨1, _⟩ => rfl
  show k0_pay1 _ (win0_1.xinj (grid0.coords t) x) = yblk xt d t (win0_1.xinj (grid0.coords t) x)
  rw [e, pay_apply]
  have hm : win0_0.moved (grid0.coords t)
      (ix2 (⟨(x 1).val % 64, Nat.mod_lt _ (by decide)⟩ : Fin 64)
        (⟨16 * ((x 0).val / 8) + 8 * ((x 1).val / 64) + (x 0).val % 8, packCol_lt ⟨(x 0).val, hp⟩ ⟨(x 1).val, hx1⟩⟩ : Fin 16384)) = true :=
    (win0_0.moved_iff _ _).mpr fun a => match a with
      | ⟨0, _⟩ => by
        show (x 1).val % 64 < win0_0.xsize (grid0.coords t) 0
        rw [s00]; omega
      | ⟨1, _⟩ => by
        show 16 * ((x 0).val / 8) + 8 * ((x 1).val / 64) + (x 0).val % 8 < win0_0.xsize (grid0.coords t) 1
        rw [s01]; omega
  unfold Window.fill
  rw [dif_pos hm]
  show xt d ((win0_0.blk t).view.emb _) = xt d (ix2 (ixMod 64 _) (ixMod 1000000 _))
  refine congrArg (xt d) (funext fun a => Fin.ext ?_)
  match a with
  | ⟨0, _⟩ =>
    show win0_0.index t 0 * 64 + 1 * ((x 1).val % 64) = (x 1).val % 128 % 64
    rw [i00]; omega
  | ⟨1, _⟩ =>
    show win0_0.index t 1 * 16384 + 1 * (16 * ((x 0).val / 8) + 8 * ((x 1).val / 64) + (x 0).val % 8)
      = unpackRow ((8192 * t.val + (x 0).val) % 500000) ((x 1).val % 128) % 1000000
    rw [i01]; unfold unpackRow; omega

/-! ## The body -/

/-- The kernel's variants: none (declared with the shared names). -/
example : Variants := 𝒱₀

-- one case of the body's run, at the two staging buffers named: the whole load reads the buffer's contents, the
-- unmasked whole store writes the payload
set_option hygiene false in
local macro "body_at " b0:ident b1:ident : tactic => `(tactic| (
  have hr0 : (Memref.whole $b0 : Memref sig .tc _ _ _).view.readAt (Elt F) (Rect.unit (s := S64x16384) ![0, 0] S64x16384.size
      inb_S64x16384_S64x16384_0_0).toLoadRect = id := funext (Memref.readAt_unit_zero (Elt F) $b0 hz _)
  have hw1 : ∀ f w, (((Memref.whole $b1).access (Rect.unit (s := S8192x128) ![0, 0] S8192x128.size inb_S8192x128_S8192x128_0_0)) :
      View sig .tc _ _ _).write (Elt F) f w Finset.univ = w := Memref.write_access_unit_zero_univ (Elt F) $b1 hz _
  simp only [owns_whole_eq, cc0_body_eq_skeleton]; unfold cc0_body_skel
  simp only [Prog.lift, Prog.bind_op, Prog.bind_ret]
  iintro ⟨⟨⟨%f0, %hf0, H0⟩, ⟨%f1, %hf1, H1⟩⟩, Hk⟩
  sl_steps
  iapply Hk
  rw [hr0, hw1]
  isplitl [H0]
  · iexists f0; isplitr; · ipureintro; exact hf0
    iexact H0
  · iexists k0_pay1 f0; isplitr; · ipureintro; rw [hf0]
    iexact H1))

/-- The body on staging buffers `s0` of the input window and `s1` of the output window: the whole load of the
    input block, the packing, the dead load and the whole store of the output block — the output buffer ends
    holding the packed input block, the input buffer unchanged. -/
theorem sound_body (c : Dev nD) (E : Set ℕ) (i : grid0.Coords) (s0 s1 : Fin 2)
    (X0 : S64x16384.Idx → Elt F .f32) (X1 : S8192x128.Idx → Elt F .f32) (Kont : PUnit → sProp 𝕄) :
    iprop((owns (c : Thread nD τ) (stage0_0 s0) fullShare X0 ∗ owns (c : Thread nD τ) (stage0_1 s1) fullShare X1)
          ∗ (iprop(owns (c : Thread nD τ) (stage0_0 s0) fullShare X0 ∗ owns (c : Thread nD τ) (stage0_1 s1) fullShare (k0_pay1 X0)) -∗ Kont ⟨⟩))
      ⊢ wp frame (wpE (defs₀ (F := F)) 𝒱₀ c none) E
          (cc0_body i (stage0_0 s0) (hstage0_0 s0) (stage0_1 s1) (hstage0_1 s1)) Kont := by
  have hz : (![0, 0] : Fin 2 → Nat) = fun _ => 0 := funext fun a => by fin_cases a <;> rfl
  fin_cases s0 <;> fin_cases s1
  · body_at cc0_stg0_0 cc0_stg1_0
  · body_at cc0_stg0_0 cc0_stg1_1
  · body_at cc0_stg0_1 cc0_stg1_0
  · body_at cc0_stg0_1 cc0_stg1_1

/-- The body obligation of the packing call at every point: the input buffer arrives just fetched (the block on
    the part inside the table, anything elsewhere), the output buffer holding anything; the body leaves the input
    buffer as it was and the output buffer at the packed input block, whose rows inside the packed table are the
    packed table's (`cut_pay`) — all that is stated of either buffer. The invariant is empty and the device's
    debts pass through untouched. -/
theorem body_obligation (d : Dev nD) :
    BodyObligationLoose (pdat xt x2₀ d) (defs₀ (F := F)) 𝒱₀ (none : HIx 1) Set.univ := fun t => by
  rw [bigSep_W0, bigSep_W0]
  simp only
  rw [show (pdat xt x2₀ d).Φ t.succ = (pdat xt x2₀ d).Φ t.castSucc from rfl,
    show (pdat xt x2₀ d).owesAt none t.succ = (pdat xt x2₀ d).owesAt none t.castSucc from rfl]
  iintro ⟨HΦ, Ho, ⟨%d0, H0⟩, ⟨%d1, H1⟩⟩
  rw [before_0 xt x2₀ d t d0, before_1 xt x2₀ d t d1]
  iapply (sound_body (F := F) d Set.univ (grid0.coords t) (cfg0.slots t 0) (cfg0.slots t 1)
    (win0_0.fill (grid0.coords t) d0 (xblk xt d t)) d1 _)
  isplitl [H0 H1]
  · isplitl [H0]
    · iexact H0
    · iexact H1
  iintro ⟨H0, H1⟩
  isplitl [HΦ]; · iexact HΦ
  isplitl [Ho]; · iexact Ho
  have hx : win0_0.cut (grid0.coords t) (xblkFull xt d t) = xblk xt d t := win0_0.cut_fill _ _ _
  isplitl [H0]
  · iexists d0
    change _ ⊢ owns (d : Thread nD τ) (stage0_0 (cfg0.slots t 0)) fullShare
      (win0_0.fill (grid0.coords t) d0 (win0_0.cut (grid0.coords t) (xblkFull xt d t)))
    rw [hx]
  · iexists k0_pay1 (win0_0.fill (grid0.coords t) d0 (xblk xt d t))
    change _ ⊢ owns (d : Thread nD τ) (stage0_1 (cfg0.slots t 1)) fullShare
      (win0_1.fill (grid0.coords t) (k0_pay1 (win0_0.fill (grid0.coords t) d0 (xblk xt d t))) (win0_1.cut (grid0.coords t) (yblk xt d t)))
    rw [win0_1.fill_congr_cut _ (cut_pay xt d t d0)]

end Cert.KernelIdeal.Hand

end
-- ==== Proof.KI.RegionValue.lean ====
/-
  The packed table after the packing call, in closed form.

  Point t writes back rows [8192 t, 8192 t + 8192) of the packed table, cut at row 500000; what it writes is those
  rows of the packed table as a function of the transposed one.  Row rho lies in point rho / 8192's block, so the
  62 blocks cover the table and it ends holding that function; the transposed table is only read.
-/
import proofs.«202666_g58660663329007_cont_9to1_m_1270_26_alg».proof.Proof.KI.RegionData
import Idealize.ShloMosaic.Lib.Pipeline.Value

noncomputable section

namespace Cert.KernelIdeal.Hand

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Idealize.ShloMosaic.ValueIdx
open Cert.Spec

variable {F : FTy → Type} [FloatOps F]

local notation "𝕄" => MT nD τ sig (HIx 1) (Elt F) ℕ UU ℕ

variable (xt : (d : Dev nD) → Buf (Elt F) (xtLoc d)) (x2₀ : (d : Dev nD) → Buf (Elt F) (x2Loc d))

/-- What the write-back at point `t` writes is block `t` of the packed table: its rows from 8192 t on, as far as
    they lie inside the table. -/
theorem flushed_eq (d : Dev nD) (t : Fin cfg0.N) :
    (pdat xt x2₀ d).flushed (1 : Fin 2) t = (win0_1.blk t).view.read (Elt F) (packT (xt d)) := by
  obtain ⟨-, -, i10, i11, -, -, s10, s11⟩ := idx_facts t
  have ht : t.val < 62 := t.isLt
  funext x
  have hx0 : (x 0).val < win0_1.xsize (grid0.coords t) 0 := (x 0).isLt
  have hx1 : (x 1).val < win0_1.xsize (grid0.coords t) 1 := (x 1).isLt
  rw [s10] at hx0; rw [s11] at hx1
  show (pdat xt x2₀ d).after (1 : Fin 2) t (win0_1.xinj (grid0.coords t) x) = packT (xt d) ((win0_1.blk t).view.emb x)
  dsimp only [pdat]
  unfold yblk
  refine congrArg (packT (xt d)) (funext fun a => Fin.ext ?_)
  match a with
  | ⟨0, _⟩ =>
    show (8192 * t.val + (x 0).val) % 500000 = win0_1.index t 0 * 8192 + 1 * (x 0).val
    rw [i10]; omega
  | ⟨1, _⟩ =>
    show (x 1).val % 128 = win0_1.index t 1 * 128 + 1 * (x 1).val
    rw [i11]; omega

/-- An entry of the packed table is in point `t`'s block iff its row is among the block's rows inside the table
    (every lane is: the blocks span the lanes). -/
theorem mem_blk (t : Fin cfg0.N) (i : S500000x128.Idx) :
    i ∈ (win0_1.blk t).view.set
      ↔ win0_1.index t 0 * 8192 ≤ (i 0 : Nat) ∧ (i 0 : Nat) < win0_1.index t 0 * 8192 + win0_1.xsize (grid0.coords t) 0 := by
  obtain ⟨-, -, -, i11, -, -, -, s11⟩ := idx_facts t
  show i ∈ ((View.whole main_v1).slice (win0_1.rect t)).set ↔ _
  rw [View.set_slice_whole, Rect.mem_set_unit]
  have h1 : (i 1 : Nat) < 128 := (i 1).isLt
  refine ⟨fun h => h 0, fun h a => ?_⟩
  match a with
  | ⟨0, _⟩ => exact h
  | ⟨1, _⟩ =>
    change win0_1.index t 1 * 128 ≤ (i 1 : Nat) ∧ (i 1 : Nat) < win0_1.index t 1 * 128 + win0_1.xsize (grid0.coords t) 1
    rw [i11, s11]; omega

/-- The packed table ends at the packing of the transposed table: row rho is written by point rho / 8192. -/
theorem final_x2 (d : Dev nD) : (pdat xt x2₀ d).arrAt (1 : Fin 2) cfg0.N = packT (xt d) :=
  (pdat xt x2₀ d).arrAt_eq_of_cover (1 : Fin 2) (packT (xt d)) (fun t _ => flushed_eq xt x2₀ d t) fun i => by
    have hi : (i 0 : Nat) < 500000 := (i 0).isLt
    refine ⟨⟨(i 0 : Nat) / 8192, by show (i 0 : Nat) / 8192 < 62; omega⟩, flush0_1 _, ?_⟩
    obtain ⟨-, -, i10, -, -, -, s10, -⟩ := idx_facts ⟨(i 0 : Nat) / 8192, by show (i 0 : Nat) / 8192 < 62; omega⟩
    refine (mem_blk _ i).mpr ?_
    rw [i10, s10]
    show (i 0 : Nat) / 8192 * 8192 ≤ (i 0 : Nat) ∧ (i 0 : Nat) < (i 0 : Nat) / 8192 * 8192 + min 8192 (500000 - 8192 * ((i 0 : Nat) / 8192))
    omega

/-- The transposed table is an input of the call: it ends as it began. -/
theorem final_xt (d : Dev nD) : (pdat xt x2₀ d).arrAt (0 : Fin 2) cfg0.N = xt d :=
  (pdat xt x2₀ d).arrAt_in (0 : Fin 2) rfl _

end Cert.KernelIdeal.Hand

end
-- ==== Proof.KI.Region.lean ====
/-
  The packing call as one step of the TensorCore's program.

  From the region boundary, the transposed table and the packed table's buffer (both whole), what the TensorCore owes
  (the start signals of the call that follows: carried through the region untouched, every wait of the pipeline
  recorded at the index of no call, level 0, below all of it), the level facts and the staging cells' ghost state,
  the call runs to the boundary with the transposed table unchanged and the packed table at the packing of it.
  Also: the staging cells' ghost state for every device, from the launch element.
-/
import proofs.«202666_g58660663329007_cont_9to1_m_1270_26_alg».proof.Proof.KI.RegionValue
import Idealize.ShloMosaic.Lib.Pipeline.Regions

noncomputable section

namespace Cert.KernelIdeal.Hand

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Idealize.ShloMosaic.ValueIdx
open Cert.Spec

variable {F : FTy → Type} [FloatOps F]

local notation "𝕄" => MT nD τ sig (HIx 1) (Elt F) ℕ UU ℕ

variable (xt : (d : Dev nD) → Buf (Elt F) (xtLoc d)) (x2₀ : (d : Dev nD) → Buf (Elt F) (x2Loc d))

/-! ## The one pipeline's family of proof data -/

/-- No pipeline has a prefetched table. -/
abbrev adm : (p : Fin 1) → (pcfgs (F := F) p).Adm := fun p => (cfgs p).toPCfg_adm

def pdats : (p : Fin 1) → (c : Dev nD) → Pipeline.Dat τ (Elt F) (HIx 1) ℕ UU ℕ (Pipeline.pin (pcfgs (F := F)) adm p) c :=
  fun _ c => pdat xt x2₀ c

theorem cellOf_inj' : Function.Injective (Pipeline.cellOf (nD := nD) (τ := τ) (Pipeline.pin (pcfgs (F := F)) adm)) :=
  Gen.cellOf_inj

/-! ## What the TensorCore owes, through the region -/

/-- The TensorCore's debts before the first SparseCore call, its recorded waits all at level 0. -/
def owesTc (d : Dev nD) : sProp 𝕄 :=
  iprop(∃ W, ⌜(K (F := F)).WBelow (T d) W (8 * 0)⌝ ∗ owes (T d) ((K (F := F)).Otc d 0) W)

/-- Nothing is owed at the index of no call. -/
theorem Otc_none (d : Dev nD) (g : GSem nD τ sig) : (K (F := F)).Otc d 0 g none = 0 := by
  by_contra h
  have := SparseCore.Cfg.lev_of_Otc_pos (K := K (F := F)) (Nat.pos_of_ne_zero h)
  rw [SparseCore.Cfg.lev_none] at this; omega

/-- A recorded wait at level 0 is at the index of no call, -/
theorem idx_none_of_lev {g : GSem nD τ sig} {ι : HIx 1} (h : (K (F := F)).lev g ι ≤ 8 * 0) : ι = none := by
  cases ι with
  | none => rfl
  | some q => have := (K (F := F)).lev_some_pos g q; omega

/-- so the debts are the pipeline's at any point, -/
theorem owesAt_intro (d : Dev nD) (t : Fin (cfg0.N + 1)) : owesTc (F := F) d ⊢ ((pdat xt x2₀ d).owesAt none t : sProp 𝕄) := by
  unfold owesTc Pipeline.Dat.owesAt Pipeline.owesWithin
  iintro ⟨%W, %hW, HO⟩
  iexists W; isplitr
  · ipureintro; exact fun p hp => Or.inl (idx_none_of_lev (g := (T d, p.1)) (hW p (Finset.mem_coe.mp hp)))
  iexact HO

/-- and back: the pipeline's own waits are at that index too. -/
theorem owesAt_elim (d : Dev nD) (t : Fin (cfg0.N + 1)) : ((pdat xt x2₀ d).owesAt none t : sProp 𝕄) ⊢ owesTc (F := F) d := by
  unfold owesTc Pipeline.Dat.owesAt Pipeline.owesWithin
  iintro ⟨%W, %hW, HO⟩
  iexists W; isplitr
  · ipureintro
    intro p hp
    have hn : p.2 = none := by
      rcases hW (Finset.mem_coe.mpr hp) with h | ⟨w, s, rfl⟩
      · exact h
      · rfl
    show (K (F := F)).lev (T d, p.1) p.2 ≤ 8 * 0
    rw [hn]; exact Nat.zero_le _
  iexact HO

/-! ## The region -/

/-- What the region is entered from: the two arrays whole, and the debts. -/
def regionPre (d : Dev nD) : sProp 𝕄 :=
  iprop((xtLoc d ↦{fullShare} xt d) ∗ (x2Loc d ↦{fullShare} x2₀ d) ∗ owesTc (F := F) d)

/-- What it leaves: the transposed table as it was, the packed table at its packing, the same debts. -/
def regionPost (d : Dev nD) : sProp 𝕄 :=
  iprop((xtLoc d ↦{fullShare} xt d) ∗ (x2Loc d ↦{fullShare} packT (xt d)) ∗ owesTc (F := F) d)

/-- The two windows' arrays, one by one. -/
theorem arrays_pdat (d : Dev nD) (Fa) :
    ((pdat xt x2₀ d).arrays Fa : sProp 𝕄) = iprop((xtLoc d ↦{fullShare} Fa 0) ∗ (x2Loc d ↦{fullShare} Fa 1)) :=
  (Pipeline.arrays_eq (Pipeline.pin (pcfgs (F := F)) adm) (pdats xt x2₀) 0 d arr_whole0
    ((pdat xt x2₀ d).share_full fun _ => rfl) Fa).trans (bigSep_W0 _)

/-- No table is prefetched, no scoped buffer is left over. -/
theorem prefHeld0 (c : Dev nD) (q) (pf) :
    (Pipeline.prefHeld (Ix := HIx 1) (Name := ℕ) (U := UU) (Lvl := ℕ) (Val := Elt F) (pcfgs (F := F) 0).pre c q pf : sProp 𝕄) = BI.emp :=
by
  unfold Pipeline.prefHeld
  show bigSep (Finset.univ : Finset (Fin 0)) _ = _
  rw [Finset.univ_eq_empty, BI.bigSep_empty]
theorem scopedRest0' (c : Dev nD) :
    (Pipeline.scopedRest (Ix := HIx 1) (Name := ℕ) (U := UU) (Lvl := ℕ) (Val := Elt F) (Pipeline.pin (pcfgs (F := F)) adm 0).spec c : sProp 𝕄) = BI.emp :=
  Pipeline.scopedRest_eq_of_list spec0 c [] (by decide) (by decide)

/-- The packing call's record: the generated layout, no semaphore of the kernel's own, the body obligation, the wait
    evidence (every staging cell is waited on at the index of no call, where nothing is owed), and the entry and
    exit: the two arrays in, the two arrays out at their final contents, the debts through. -/
def reg : Pipeline.RegionSeg (pcfgs (F := F)) adm (pdats xt x2₀) (none : HIx 1) defs₀ 𝒱₀ (K (F := F)).L (K (F := F)).lev 0 where
  win := winFacts0.to₀
  block_pos := block_pos0
  stage_whole := stage_whole0
  K := PEmpty
  osem k := k.elim
  ho := Pipeline.OwnSemFacts.none _
  hbody c := body_obligation xt x2₀ c
  hwaits c := Pipeline.cellsWaits_intro (Pipeline.pin (pcfgs (F := F)) adm) (pdats xt x2₀) none 0 c
    fun w s t => (K (F := F)).mayWait_none _ (Otc_none c)
  pre := regionPre xt x2₀
  post := regionPost xt
  X _ := iprop(emp)
  Y _ := iprop(emp)
  Z _ := iprop(emp)
  hentry c := by
    rw [Pipeline.ownSems0_none, prefHeld0]
    show iprop(regionPre xt x2₀ c ∗ BI.emp ∗ levAts (K (F := F)).L (K (F := F)).lev)
      ⊢ |={Set.univ}=> iprop((pdat xt x2₀ c).arrays (fun w => (pdat xt x2₀ c).arrAt w 0) ∗ BI.emp ∗ (pdat xt x2₀ c).owesAt none 0 ∗ emp ∗ emp)
    rw [arrays_pdat]
    unfold regionPre
    iintro ⟨⟨Hx, Hy, HO⟩, -, -⟩
    imodintro
    isplitl [Hx Hy]
    · isplitl [Hx]
      · iexact Hx
      · iexact Hy
    isplitr; · iempintro
    isplitl [HO]; · iapply (owesAt_intro xt x2₀ c 0); iexact HO
    isplitr <;> iempintro
  hin c := by
    show _ ⊢ (iprop(emp) : sProp 𝕄)
    iintro -; iempintro
  hout c := by
    rw [Pipeline.ownSems0_none, scopedRest0']
    iintro -
    isplitr; · iempintro
    isplitr <;> iempintro
  hexit c := by
    show iprop((pdat xt x2₀ c).arrays (fun w => (pdat xt x2₀ c).arrAt w cfg0.N) ∗ (pdat xt x2₀ c).owesAt none (Fin.last cfg0.N) ∗ emp ∗ emp)
      ⊢ |={Set.univ}=> regionPost xt c
    rw [arrays_pdat]
    beta_reduce
    rw [final_xt, final_x2]
    unfold regionPost
    iintro ⟨⟨Hx, Hy⟩, HO, -, -⟩
    imodintro
    isplitl [Hx]; · iexact Hx
    isplitl [Hy]; · iexact Hy
    iapply (owesAt_elim xt x2₀ c _); iexact HO

/-! ## The staging cells' ghost state -/

/-- What the launch deals device `d` for the packing call: its staging cells' ghost state and the duty tokens of
    the transfers its loop issues. -/
def Gd (d : Dev nD) : sProp 𝕄 :=
  iprop(Pipeline.cellsGhost (Pipeline.pin (pcfgs (F := F)) adm) EP 0 d ∗ Pipeline.toksInit (Pipeline.pin (pcfgs (F := F)) adm) EP 0 d)

/-- The launch element's part for the staging cells: every cell's owner at round 0 and a duty token per transfer. -/
def uP₀ : UP := initOf (Pipeline.cells cfgs Gen.cellOf_inj) (Pipeline.launchToks cfgs Gen.cellOf_inj)

theorem bigSep_P0 {M : Type} [URA M] (Φ : Fin 1 → sProp M) : bigSep Finset.univ Φ = Φ 0 := by
  rw [show (Finset.univ : Finset (Fin 1)) = {0} from by decide, bigSep_singleton]

/-- Every device's ghost state for the packing call, from the launch element's part. -/
theorem fund_Gd : BI.own ((EP : Emb UP 𝕄) uP₀) ⊢ |==> bigSep Finset.univ (Gd (F := F)) := by
  refine (Pipeline.fund_ghost (Pipeline.pin (pcfgs (F := F)) adm) (EP : Emb UP 𝕄) cellOf_inj').trans (bupd_mono ?_)
  rw [← bigSep_sep']
  exact bigSep_mono fun c _ => by rw [bigSep_P0, bigSep_P0]; exact BI.Entails.refl _

/-! ## The step -/

set_option backward.isDefEq.respectTransparency.types false in
/-- The packing call on device `d`'s TensorCore, in the program's own signature. -/
theorem region_wp [∀ e, Nonempty (Elt F e)] (d : Dev nD) (Φ : PUnit → sProp 𝕄) :
    iprop((iprop(boundary (T d) ∗ regionPost xt d) -∗ Φ ⟨⟩) ∗ boundary (T d) ∗ regionPre xt x2₀ d
        ∗ levAts (K (F := F)).L (K (F := F)).lev ∗ Gd (F := F) d)
      ⊢ wp frame (wpE (D (F := F)) 𝒱 (T d) none) Set.univ (Prog.lift (.customCall (Pipeline.entry 0) ())) Φ := by
  have h := Pipeline.RegionSeg.wp (pcfgs (F := F)) adm (pdats xt x2₀) (none : HIx 1) cellOf_inj' EP defs₀ 𝒱₀
    (K (F := F)).L (K (F := F)).lev (reg xt x2₀) d none (fun _ hu => absurd hu (Option.not_mem_none _)) (fun _ => .ret ⟨⟩) Φ
  refine .trans ?_ h
  rw [show (reg xt x2₀).pre d = regionPre xt x2₀ d from rfl, show (reg xt x2₀).post d = regionPost xt d from rfl]
  unfold Gd
  iintro ⟨Hk, Hb, Hpre, Hlev, HG, HT⟩
  isplitl [Hk]
  · iintro H; rw [wp_ret]; imodintro; iapply Hk; iexact H
  isplitl [Hb]; · iexact Hb
  isplitl [Hpre]; · iexact Hpre
  isplitl [Hlev]; · iexact Hlev
  isplitl [HG]
  · iexact HG
  · iexact HT

/-- The TensorCore's line of the program is this step, lifted. -/
example : SparseCore.liftProg (Q := 1) (Prog.lift (.customCall (Pipeline.entry (0 : Fin 1)) ())
      : Prog (TpuEff nD τ sig (Elt F) (ΛP (F := F)) .tc) PUnit)
    = Prog.lift (.customCall (SparseCore.inner (Pipeline.entry 0)) ()) := rfl

end Cert.KernelIdeal.Hand

end
-- ==== Proof.KI.TileA.lean ====
/-
  A worker's own scratch.

  A worker is one vector subcore.  Besides its shares of the arrays it reads, it owns nine scratch buffers (three lists
  of 256 indices, two lists of 256 packed row numbers, two blocks of 256 gathered rows, a copy of the small packed table
  and a 64 x 256 staging block) and eleven DMA semaphores.  What a subcore owns is given as one separating product over
  all of its buffers and one over all of its semaphore cells; here the nine buffers and the eleven cells are taken out of
  those products one by one, each by the fact that it belongs to the subcore and differs from the ones taken before.
-/
import proofs.«202666_g58660663329007_cont_9to1_m_1270_26_alg».proof.Proof.KI.Common
import proofs.«202666_g58660663329007_cont_9to1_m_1270_26_alg».proof.Proof.Gen.KernelIdeal.Skeleton

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Spec

variable {F : FTy → Type}

local notation "𝕄" => MT nD τ sig (HIx 1) (Elt F) ℕ UU ℕ

/-! ## A worker's own scratch

A worker (a vector subcore) owns nine scratch buffers and eleven DMA semaphores: two named ones for the two row gathers
and nine scoped ones, one per local copy.  They come out of the subcore's own buffers and own cells one by one. -/

/-- The worker's thread at a grid point of the kernel. -/
abbrev thrL (d : Dev nD) (L : grid1.Coords) : Thread nD τ := V d (cV L) (jV L)

/-- The cell of one of the worker's DMA semaphores. -/
abbrev cellV (d : Dev nD) (L : grid1.Coords) (s : DmaSems sig S_) : GSem nD τ sig := (thrL d L, SemLoc.dma s.sem)

/-- The subcore's other own buffers, and its other own cells. -/
def restRefs (L : grid1.Coords) : Finset (DevRef τ sig) :=
  ((((((((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2)).erase ((Proc.scVector (cV L) (jV L)).devRef cc1_scratch3)).erase ((Proc.scVector (cV L) (jV L)).devRef cc1_scratch4)).erase ((Proc.scVector (cV L) (jV L)).devRef cc1_scratch5)).erase ((Proc.scVector (cV L) (jV L)).devRef cc1_scratch6)).erase ((Proc.scVector (cV L) (jV L)).devRef cc1_scratch7)).erase ((Proc.scVector (cV L) (jV L)).devRef cc1_scratch8))
def restCells (d : Dev nD) (L : grid1.Coords) : Finset (GSem nD τ sig) :=
  ((((((((((((ownCells (thrL d L)).erase (cellV d L cc1_scratch9)).erase (cellV d L cc1_scratch10)).erase (cellV d L cc1_scoped0)).erase (cellV d L cc1_scoped1)).erase (cellV d L cc1_scoped2)).erase (cellV d L cc1_scoped3)).erase (cellV d L cc1_scoped4)).erase (cellV d L cc1_scoped5)).erase (cellV d L cc1_scoped6)).erase (cellV d L cc1_scoped7)).erase (cellV d L cc1_scoped8))

variable (d : Dev nD) (L : grid1.Coords)

theorem ownBufs_V :
    (ownBufs (thrL d L) : sProp 𝕄)
      = iprop((∃ f, (thrL d L).loc cc1_scratch0 ↦{fullShare} f)
          ∗ (∃ f, (thrL d L).loc cc1_scratch1 ↦{fullShare} f)
          ∗ (∃ f, (thrL d L).loc cc1_scratch2 ↦{fullShare} f)
          ∗ (∃ f, (thrL d L).loc cc1_scratch3 ↦{fullShare} f)
          ∗ (∃ f, (thrL d L).loc cc1_scratch4 ↦{fullShare} f)
          ∗ (∃ f, (thrL d L).loc cc1_scratch5 ↦{fullShare} f)
          ∗ (∃ f, (thrL d L).loc cc1_scratch6 ↦{fullShare} f)
          ∗ (∃ f, (thrL d L).loc cc1_scratch7 ↦{fullShare} f)
          ∗ (∃ f, (thrL d L).loc cc1_scratch8 ↦{fullShare} f)
          ∗ bigSep (restRefs L) fun b => iprop(∃ f, ((d, b) : Loc nD τ sig) ↦{fullShare} f)) := by
  unfold SparseCore.Cfg.ownBufs restRefs
  refine (SparseCore.bigSep_erase' (SparseCore.Cfg.mem_ownRefs_of_owner (p := Proc.scVector (cV L) (jV L)) (b := ((Proc.scVector (cV L) (jV L)).devRef cc1_scratch0)) rfl)).trans ?_
  rw [SparseCore.bigSep_erase' (Finset.mem_erase.mpr ⟨fun e => absurd (Proc.devRef_injective _ e) (show (cc1_scratch1 : Ref sig .scVector) ≠ cc1_scratch0 by decide), SparseCore.Cfg.mem_ownRefs_of_owner (p := Proc.scVector (cV L) (jV L)) (b := ((Proc.scVector (cV L) (jV L)).devRef cc1_scratch1)) rfl⟩),
    SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := Proc.scVector (cV L) (jV L)) (b := ((Proc.scVector (cV L) (jV L)).devRef cc1_scratch2)) rfl⟩⟩),
    SparseCore.bigSep_erase' (Finset.mem_erase.mpr ⟨fun e => absurd (Proc.devRef_injective _ e) (show (cc1_scratch3 : Ref sig .scVector) ≠ cc1_scratch2 by decide), Finset.mem_erase.mpr ⟨fun e => absurd (Proc.devRef_injective _ e) (show (cc1_scratch3 : Ref sig .scVector) ≠ cc1_scratch1 by decide), Finset.mem_erase.mpr ⟨fun e => absurd (Proc.devRef_injective _ e) (show (cc1_scratch3 : Ref sig .scVector) ≠ cc1_scratch0 by decide), SparseCore.Cfg.mem_ownRefs_of_owner (p := Proc.scVector (cV L) (jV L)) (b := ((Proc.scVector (cV L) (jV L)).devRef cc1_scratch3)) rfl⟩⟩⟩),
    SparseCore.bigSep_erase' (Finset.mem_erase.mpr ⟨fun e => absurd (Proc.devRef_injective _ e) (show (cc1_scratch4 : Ref sig .scVector) ≠ cc1_scratch3 by decide), Finset.mem_erase.mpr ⟨fun e => absurd (Proc.devRef_injective _ e) (show (cc1_scratch4 : Ref sig .scVector) ≠ cc1_scratch2 by decide), Finset.mem_erase.mpr ⟨fun e => absurd (Proc.devRef_injective _ e) (show (cc1_scratch4 : Ref sig .scVector) ≠ cc1_scratch1 by decide), Finset.mem_erase.mpr ⟨fun e => absurd (Proc.devRef_injective _ e) (show (cc1_scratch4 : Ref sig .scVector) ≠ cc1_scratch0 by decide), SparseCore.Cfg.mem_ownRefs_of_owner (p := Proc.scVector (cV L) (jV L)) (b := ((Proc.scVector (cV L) (jV L)).devRef cc1_scratch4)) rfl⟩⟩⟩⟩),
    SparseCore.bigSep_erase' (Finset.mem_erase.mpr ⟨fun e => absurd (Proc.devRef_injective _ e) (show (cc1_scratch5 : Ref sig .scVector) ≠ cc1_scratch4 by decide), Finset.mem_erase.mpr ⟨fun e => absurd (Proc.devRef_injective _ e) (show (cc1_scratch5 : Ref sig .scVector) ≠ cc1_scratch3 by decide), Finset.mem_erase.mpr ⟨fun e => absurd (Proc.devRef_injective _ e) (show (cc1_scratch5 : Ref sig .scVector) ≠ cc1_scratch2 by decide), Finset.mem_erase.mpr ⟨fun e => absurd (Proc.devRef_injective _ e) (show (cc1_scratch5 : Ref sig .scVector) ≠ cc1_scratch1 by decide), Finset.mem_erase.mpr ⟨fun e => absurd (Proc.devRef_injective _ e) (show (cc1_scratch5 : Ref sig .scVector) ≠ cc1_scratch0 by decide), SparseCore.Cfg.mem_ownRefs_of_owner (p := Proc.scVector (cV L) (jV L)) (b := ((Proc.scVector (cV L) (jV L)).devRef cc1_scratch5)) rfl⟩⟩⟩⟩⟩),
    SparseCore.bigSep_erase' (Finset.mem_erase.mpr ⟨fun e => absurd (Proc.devRef_injective _ e) (show (cc1_scratch6 : Ref sig .scVector) ≠ cc1_scratch5 by decide), Finset.mem_erase.mpr ⟨fun e => absurd (Proc.devRef_injective _ e) (show (cc1_scratch6 : Ref sig .scVector) ≠ cc1_scratch4 by decide), Finset.mem_erase.mpr ⟨fun e => absurd (Proc.devRef_injective _ e) (show (cc1_scratch6 : Ref sig .scVector) ≠ cc1_scratch3 by decide), Finset.mem_erase.mpr ⟨fun e => absurd (Proc.devRef_injective _ e) (show (cc1_scratch6 : Ref sig .scVector) ≠ cc1_scratch2 by decide), Finset.mem_erase.mpr ⟨fun e => absurd (Proc.devRef_injective _ e) (show (cc1_scratch6 : Ref sig .scVector) ≠ cc1_scratch1 by decide), Finset.mem_erase.mpr ⟨fun e => absurd (Proc.devRef_injective _ e) (show (cc1_scratch6 : Ref sig .scVector) ≠ cc1_scratch0 by decide), SparseCore.Cfg.mem_ownRefs_of_owner (p := Proc.scVector (cV L) (jV L)) (b := ((Proc.scVector (cV L) (jV L)).devRef cc1_scratch6)) rfl⟩⟩⟩⟩⟩⟩),
    SparseCore.bigSep_erase' (Finset.mem_erase.mpr ⟨fun e => absurd (Proc.devRef_injective _ e) (show (cc1_scratch7 : Ref sig .scVector) ≠ cc1_scratch6 by decide), Finset.mem_erase.mpr ⟨fun e => absurd (Proc.devRef_injective _ e) (show (cc1_scratch7 : Ref sig .scVector) ≠ cc1_scratch5 by decide), Finset.mem_erase.mpr ⟨fun e => absurd (Proc.devRef_injective _ e) (show (cc1_scratch7 : Ref sig .scVector) ≠ cc1_scratch4 by decide), Finset.mem_erase.mpr ⟨fun e => absurd (Proc.devRef_injective _ e) (show (cc1_scratch7 : Ref sig .scVector) ≠ cc1_scratch3 by decide), Finset.mem_erase.mpr ⟨fun e => absurd (Proc.devRef_injective _ e) (show (cc1_scratch7 : Ref sig .scVector) ≠ cc1_scratch2 by decide), Finset.mem_erase.mpr ⟨fun e => absurd (Proc.devRef_injective _ e) (show (cc1_scratch7 : Ref sig .scVector) ≠ cc1_scratch1 by decide), Finset.mem_erase.mpr ⟨fun e => absurd (Proc.devRef_injective _ e) (show (cc1_scratch7 : Ref sig .scVector) ≠ cc1_scratch0 by decide), SparseCore.Cfg.mem_ownRefs_of_owner (p := Proc.scVector (cV L) (jV L)) (b := ((Proc.scVector (cV L) (jV L)).devRef cc1_scratch7)) rfl⟩⟩⟩⟩⟩⟩⟩),
    SparseCore.bigSep_erase' (Finset.mem_erase.mpr ⟨fun e => absurd (Proc.devRef_injective _ e) (show (cc1_scratch8 : Ref sig .scVector) ≠ cc1_scratch7 by decide), Finset.mem_erase.mpr ⟨fun e => absurd (Proc.devRef_injective _ e) (show (cc1_scratch8 : Ref sig .scVector) ≠ cc1_scratch6 by decide), Finset.mem_erase.mpr ⟨fun e => absurd (Proc.devRef_injective _ e) (show (cc1_scratch8 : Ref sig .scVector) ≠ cc1_scratch5 by decide), Finset.mem_erase.mpr ⟨fun e => absurd (Proc.devRef_injective _ e) (show (cc1_scratch8 : Ref sig .scVector) ≠ cc1_scratch4 by decide), Finset.mem_erase.mpr ⟨fun e => absurd (Proc.devRef_injective _ e) (show (cc1_scratch8 : Ref sig .scVector) ≠ cc1_scratch3 by decide), Finset.mem_erase.mpr ⟨fun e => absurd (Proc.devRef_injective _ e) (show (cc1_scratch8 : Ref sig .scVector) ≠ cc1_scratch2 by decide), Finset.mem_erase.mpr ⟨fun e => absurd (Proc.devRef_injective _ e) (show (cc1_scratch8 : Ref sig .scVector) ≠ cc1_scratch1 by decide), Finset.mem_erase.mpr ⟨fun e => absurd (Proc.devRef_injective _ e) (show (cc1_scratch8 : Ref sig .scVector) ≠ cc1_scratch0 by decide), SparseCore.Cfg.mem_ownRefs_of_owner (p := Proc.scVector (cV L) (jV L)) (b := ((Proc.scVector (cV L) (jV L)).devRef cc1_scratch8)) rfl⟩⟩⟩⟩⟩⟩⟩⟩)]

theorem ownSems0_V :
    (ownSems0 (thrL d L) : sProp 𝕄)
      = iprop(semVal (cellV d L cc1_scratch9) 0
          ∗ semVal (cellV d L cc1_scratch10) 0
          ∗ semVal (cellV d L cc1_scoped0) 0
          ∗ semVal (cellV d L cc1_scoped1) 0
          ∗ semVal (cellV d L cc1_scoped2) 0
          ∗ semVal (cellV d L cc1_scoped3) 0
          ∗ semVal (cellV d L cc1_scoped4) 0
          ∗ semVal (cellV d L cc1_scoped5) 0
          ∗ semVal (cellV d L cc1_scoped6) 0
          ∗ semVal (cellV d L cc1_scoped7) 0
          ∗ semVal (cellV d L cc1_scoped8) 0
          ∗ bigSep (restCells d L) fun g => semVal g 0) := by
  unfold SparseCore.Cfg.ownSems0 restCells
  rw [SparseCore.bigSep_erase' ((mem_ownCells (g := (cellV d L cc1_scratch9))).mpr ⟨rfl, by show (SemLoc.dma cc1_scratch9.sem : SemLoc sig).isScoped .scVector = true; decide⟩),
    SparseCore.bigSep_erase' (Finset.mem_erase.mpr ⟨fun e => absurd (Prod.ext_iff.mp e).2 (show (SemLoc.dma cc1_scratch10.sem : SemLoc sig) ≠ SemLoc.dma cc1_scratch9.sem by decide), (mem_ownCells (g := (cellV d L cc1_scratch10))).mpr ⟨rfl, by show (SemLoc.dma cc1_scratch10.sem : SemLoc sig).isScoped .scVector = true; decide⟩⟩),
    SparseCore.bigSep_erase' (Finset.mem_erase.mpr ⟨fun e => absurd (Prod.ext_iff.mp e).2 (show (SemLoc.dma cc1_scoped0.sem : SemLoc sig) ≠ SemLoc.dma cc1_scratch10.sem by decide), Finset.mem_erase.mpr ⟨fun e => absurd (Prod.ext_iff.mp e).2 (show (SemLoc.dma cc1_scoped0.sem : SemLoc sig) ≠ SemLoc.dma cc1_scratch9.sem by decide), (mem_ownCells (g := (cellV d L cc1_scoped0))).mpr ⟨rfl, by show (SemLoc.dma cc1_scoped0.sem : SemLoc sig).isScoped .scVector = true; decide⟩⟩⟩),
    SparseCore.bigSep_erase' (Finset.mem_erase.mpr ⟨fun e => absurd (Prod.ext_iff.mp e).2 (show (SemLoc.dma cc1_scoped1.sem : SemLoc sig) ≠ SemLoc.dma cc1_scoped0.sem by decide), Finset.mem_erase.mpr ⟨fun e => absurd (Prod.ext_iff.mp e).2 (show (SemLoc.dma cc1_scoped1.sem : SemLoc sig) ≠ SemLoc.dma cc1_scratch10.sem by decide), Finset.mem_erase.mpr ⟨fun e => absurd (Prod.ext_iff.mp e).2 (show (SemLoc.dma cc1_scoped1.sem : SemLoc sig) ≠ SemLoc.dma cc1_scratch9.sem by decide), (mem_ownCells (g := (cellV d L cc1_scoped1))).mpr ⟨rfl, by show (SemLoc.dma cc1_scoped1.sem : SemLoc sig).isScoped .scVector = true; decide⟩⟩⟩⟩),
    SparseCore.bigSep_erase' (Finset.mem_erase.mpr ⟨fun e => absurd (Prod.ext_iff.mp e).2 (show (SemLoc.dma cc1_scoped2.sem : SemLoc sig) ≠ SemLoc.dma cc1_scoped1.sem by decide), Finset.mem_erase.mpr ⟨fun e => absurd (Prod.ext_iff.mp e).2 (show (SemLoc.dma cc1_scoped2.sem : SemLoc sig) ≠ SemLoc.dma cc1_scoped0.sem by decide), Finset.mem_erase.mpr ⟨fun e => absurd (Prod.ext_iff.mp e).2 (show (SemLoc.dma cc1_scoped2.sem : SemLoc sig) ≠ SemLoc.dma cc1_scratch10.sem by decide), Finset.mem_erase.mpr ⟨fun e => absurd (Prod.ext_iff.mp e).2 (show (SemLoc.dma cc1_scoped2.sem : SemLoc sig) ≠ SemLoc.dma cc1_scratch9.sem by decide), (mem_ownCells (g := (cellV d L cc1_scoped2))).mpr ⟨rfl, by show (SemLoc.dma cc1_scoped2.sem : SemLoc sig).isScoped .scVector = true; decide⟩⟩⟩⟩⟩),
    SparseCore.bigSep_erase' (Finset.mem_erase.mpr ⟨fun e => absurd (Prod.ext_iff.mp e).2 (show (SemLoc.dma cc1_scoped3.sem : SemLoc sig) ≠ SemLoc.dma cc1_scoped2.sem by decide), Finset.mem_erase.mpr ⟨fun e => absurd (Prod.ext_iff.mp e).2 (show (SemLoc.dma cc1_scoped3.sem : SemLoc sig) ≠ SemLoc.dma cc1_scoped1.sem by decide), Finset.mem_erase.mpr ⟨fun e => absurd (Prod.ext_iff.mp e).2 (show (SemLoc.dma cc1_scoped3.sem : SemLoc sig) ≠ SemLoc.dma cc1_scoped0.sem by decide), Finset.mem_erase.mpr ⟨fun e => absurd (Prod.ext_iff.mp e).2 (show (SemLoc.dma cc1_scoped3.sem : SemLoc sig) ≠ SemLoc.dma cc1_scratch10.sem by decide), Finset.mem_erase.mpr ⟨fun e => absurd (Prod.ext_iff.mp e).2 (show (SemLoc.dma cc1_scoped3.sem : SemLoc sig) ≠ SemLoc.dma cc1_scratch9.sem by decide), (mem_ownCells (g := (cellV d L cc1_scoped3))).mpr ⟨rfl, by show (SemLoc.dma cc1_scoped3.sem : SemLoc sig).isScoped .scVector = true; decide⟩⟩⟩⟩⟩⟩),
    SparseCore.bigSep_erase' (Finset.mem_erase.mpr ⟨fun e => absurd (Prod.ext_iff.mp e).2 (show (SemLoc.dma cc1_scoped4.sem : SemLoc sig) ≠ SemLoc.dma cc1_scoped3.sem by decide), Finset.mem_erase.mpr ⟨fun e => absurd (Prod.ext_iff.mp e).2 (show (SemLoc.dma cc1_scoped4.sem : SemLoc sig) ≠ SemLoc.dma cc1_scoped2.sem by decide), Finset.mem_erase.mpr ⟨fun e => absurd (Prod.ext_iff.mp e).2 (show (SemLoc.dma cc1_scoped4.sem : SemLoc sig) ≠ SemLoc.dma cc1_scoped1.sem by decide), Finset.mem_erase.mpr ⟨fun e => absurd (Prod.ext_iff.mp e).2 (show (SemLoc.dma cc1_scoped4.sem : SemLoc sig) ≠ SemLoc.dma cc1_scoped0.sem by decide), Finset.mem_erase.mpr ⟨fun e => absurd (Prod.ext_iff.mp e).2 (show (SemLoc.dma cc1_scoped4.sem : SemLoc sig) ≠ SemLoc.dma cc1_scratch10.sem by decide), Finset.mem_erase.mpr ⟨fun e => absurd (Prod.ext_iff.mp e).2 (show (SemLoc.dma cc1_scoped4.sem : SemLoc sig) ≠ SemLoc.dma cc1_scratch9.sem by decide), (mem_ownCells (g := (cellV d L cc1_scoped4))).mpr ⟨rfl, by show (SemLoc.dma cc1_scoped4.sem : SemLoc sig).isScoped .scVector = true; decide⟩⟩⟩⟩⟩⟩⟩),
    SparseCore.bigSep_erase' (Finset.mem_erase.mpr ⟨fun e => absurd (Prod.ext_iff.mp e).2 (show (SemLoc.dma cc1_scoped5.sem : SemLoc sig) ≠ SemLoc.dma cc1_scoped4.sem by decide), Finset.mem_erase.mpr ⟨fun e => absurd (Prod.ext_iff.mp e).2 (show (SemLoc.dma cc1_scoped5.sem : SemLoc sig) ≠ SemLoc.dma cc1_scoped3.sem by decide), Finset.mem_erase.mpr ⟨fun e => absurd (Prod.ext_iff.mp e).2 (show (SemLoc.dma cc1_scoped5.sem : SemLoc sig) ≠ SemLoc.dma cc1_scoped2.sem by decide), Finset.mem_erase.mpr ⟨fun e => absurd (Prod.ext_iff.mp e).2 (show (SemLoc.dma cc1_scoped5.sem : SemLoc sig) ≠ SemLoc.dma cc1_scoped1.sem by decide), Finset.mem_erase.mpr ⟨fun e => absurd (Prod.ext_iff.mp e).2 (show (SemLoc.dma cc1_scoped5.sem : SemLoc sig) ≠ SemLoc.dma cc1_scoped0.sem by decide), Finset.mem_erase.mpr ⟨fun e => absurd (Prod.ext_iff.mp e).2 (show (SemLoc.dma cc1_scoped5.sem : SemLoc sig) ≠ SemLoc.dma cc1_scratch10.sem by decide), Finset.mem_erase.mpr ⟨fun e => absurd (Prod.ext_iff.mp e).2 (show (SemLoc.dma cc1_scoped5.sem : SemLoc sig) ≠ SemLoc.dma cc1_scratch9.sem by decide), (mem_ownCells (g := (cellV d L cc1_scoped5))).mpr ⟨rfl, by show (SemLoc.dma cc1_scoped5.sem : SemLoc sig).isScoped .scVector = true; decide⟩⟩⟩⟩⟩⟩⟩⟩),
    SparseCore.bigSep_erase' (Finset.mem_erase.mpr ⟨fun e => absurd (Prod.ext_iff.mp e).2 (show (SemLoc.dma cc1_scoped6.sem : SemLoc sig) ≠ SemLoc.dma cc1_scoped5.sem by decide), Finset.mem_erase.mpr ⟨fun e => absurd (Prod.ext_iff.mp e).2 (show (SemLoc.dma cc1_scoped6.sem : SemLoc sig) ≠ SemLoc.dma cc1_scoped4.sem by decide), Finset.mem_erase.mpr ⟨fun e => absurd (Prod.ext_iff.mp e).2 (show (SemLoc.dma cc1_scoped6.sem : SemLoc sig) ≠ SemLoc.dma cc1_scoped3.sem by decide), Finset.mem_erase.mpr ⟨fun e => absurd (Prod.ext_iff.mp e).2 (show (SemLoc.dma cc1_scoped6.sem : SemLoc sig) ≠ SemLoc.dma cc1_scoped2.sem by decide), Finset.mem_erase.mpr ⟨fun e => absurd (Prod.ext_iff.mp e).2 (show (SemLoc.dma cc1_scoped6.sem : SemLoc sig) ≠ SemLoc.dma cc1_scoped1.sem by decide), Finset.mem_erase.mpr ⟨fun e => absurd (Prod.ext_iff.mp e).2 (show (SemLoc.dma cc1_scoped6.sem : SemLoc sig) ≠ SemLoc.dma cc1_scoped0.sem by decide), Finset.mem_erase.mpr ⟨fun e => absurd (Prod.ext_iff.mp e).2 (show (SemLoc.dma cc1_scoped6.sem : SemLoc sig) ≠ SemLoc.dma cc1_scratch10.sem by decide), Finset.mem_erase.mpr ⟨fun e => absurd (Prod.ext_iff.mp e).2 (show (SemLoc.dma cc1_scoped6.sem : SemLoc sig) ≠ SemLoc.dma cc1_scratch9.sem by decide), (mem_ownCells (g := (cellV d L cc1_scoped6))).mpr ⟨rfl, by show (SemLoc.dma cc1_scoped6.sem : SemLoc sig).isScoped .scVector = true; decide⟩⟩⟩⟩⟩⟩⟩⟩⟩),
    SparseCore.bigSep_erase' (Finset.mem_erase.mpr ⟨fun e => absurd (Prod.ext_iff.mp e).2 (show (SemLoc.dma cc1_scoped7.sem : SemLoc sig) ≠ SemLoc.dma cc1_scoped6.sem by decide), Finset.mem_erase.mpr ⟨fun e => absurd (Prod.ext_iff.mp e).2 (show (SemLoc.dma cc1_scoped7.sem : SemLoc sig) ≠ SemLoc.dma cc1_scoped5.sem by decide), Finset.mem_erase.mpr ⟨fun e => absurd (Prod.ext_iff.mp e).2 (show (SemLoc.dma cc1_scoped7.sem : SemLoc sig) ≠ SemLoc.dma cc1_scoped4.sem by decide), Finset.mem_erase.mpr ⟨fun e => absurd (Prod.ext_iff.mp e).2 (show (SemLoc.dma cc1_scoped7.sem : SemLoc sig) ≠ SemLoc.dma cc1_scoped3.sem by decide), Finset.mem_erase.mpr ⟨fun e => absurd (Prod.ext_iff.mp e).2 (show (SemLoc.dma cc1_scoped7.sem : SemLoc sig) ≠ SemLoc.dma cc1_scoped2.sem by decide), Finset.mem_erase.mpr ⟨fun e => absurd (Prod.ext_iff.mp e).2 (show (SemLoc.dma cc1_scoped7.sem : SemLoc sig) ≠ SemLoc.dma cc1_scoped1.sem by decide), Finset.mem_erase.mpr ⟨fun e => absurd (Prod.ext_iff.mp e).2 (show (SemLoc.dma cc1_scoped7.sem : SemLoc sig) ≠ SemLoc.dma cc1_scoped0.sem by decide), Finset.mem_erase.mpr ⟨fun e => absurd (Prod.ext_iff.mp e).2 (show (SemLoc.dma cc1_scoped7.sem : SemLoc sig) ≠ SemLoc.dma cc1_scratch10.sem by decide), Finset.mem_erase.mpr ⟨fun e => absurd (Prod.ext_iff.mp e).2 (show (SemLoc.dma cc1_scoped7.sem : SemLoc sig) ≠ SemLoc.dma cc1_scratch9.sem by decide), (mem_ownCells (g := (cellV d L cc1_scoped7))).mpr ⟨rfl, by show (SemLoc.dma cc1_scoped7.sem : SemLoc sig).isScoped .scVector = true; decide⟩⟩⟩⟩⟩⟩⟩⟩⟩⟩),
    SparseCore.bigSep_erase' (Finset.mem_erase.mpr ⟨fun e => absurd (Prod.ext_iff.mp e).2 (show (SemLoc.dma cc1_scoped8.sem : SemLoc sig) ≠ SemLoc.dma cc1_scoped7.sem by decide), Finset.mem_erase.mpr ⟨fun e => absurd (Prod.ext_iff.mp e).2 (show (SemLoc.dma cc1_scoped8.sem : SemLoc sig) ≠ SemLoc.dma cc1_scoped6.sem by decide), Finset.mem_erase.mpr ⟨fun e => absurd (Prod.ext_iff.mp e).2 (show (SemLoc.dma cc1_scoped8.sem : SemLoc sig) ≠ SemLoc.dma cc1_scoped5.sem by decide), Finset.mem_erase.mpr ⟨fun e => absurd (Prod.ext_iff.mp e).2 (show (SemLoc.dma cc1_scoped8.sem : SemLoc sig) ≠ SemLoc.dma cc1_scoped4.sem by decide), Finset.mem_erase.mpr ⟨fun e => absurd (Prod.ext_iff.mp e).2 (show (SemLoc.dma cc1_scoped8.sem : SemLoc sig) ≠ SemLoc.dma cc1_scoped3.sem by decide), Finset.mem_erase.mpr ⟨fun e => absurd (Prod.ext_iff.mp e).2 (show (SemLoc.dma cc1_scoped8.sem : SemLoc sig) ≠ SemLoc.dma cc1_scoped2.sem by decide), Finset.mem_erase.mpr ⟨fun e => absurd (Prod.ext_iff.mp e).2 (show (SemLoc.dma cc1_scoped8.sem : SemLoc sig) ≠ SemLoc.dma cc1_scoped1.sem by decide), Finset.mem_erase.mpr ⟨fun e => absurd (Prod.ext_iff.mp e).2 (show (SemLoc.dma cc1_scoped8.sem : SemLoc sig) ≠ SemLoc.dma cc1_scoped0.sem by decide), Finset.mem_erase.mpr ⟨fun e => absurd (Prod.ext_iff.mp e).2 (show (SemLoc.dma cc1_scoped8.sem : SemLoc sig) ≠ SemLoc.dma cc1_scratch10.sem by decide), Finset.mem_erase.mpr ⟨fun e => absurd (Prod.ext_iff.mp e).2 (show (SemLoc.dma cc1_scoped8.sem : SemLoc sig) ≠ SemLoc.dma cc1_scratch9.sem by decide), (mem_ownCells (g := (cellV d L cc1_scoped8))).mpr ⟨rfl, by show (SemLoc.dma cc1_scoped8.sem : SemLoc sig).isScoped .scVector = true; decide⟩⟩⟩⟩⟩⟩⟩⟩⟩⟩⟩)]

end Cert.KernelIdeal.Hand
end
-- ==== Proof.KI.TileW.lean ====
/-
  Word arithmetic of the packed layouts, lane by lane.

  A table row number v (a 32-bit word) is turned into a packed row number ((v >>> 4) <<< 3) ||| (v &&& 7) and a lane
  offset (v &&& 8) <<< 3; a relation number into the packed row v >>> 1 and the lane offset (v &&& 1) <<< 6.  As natural
  numbers these are 8 (v / 16) + v % 8, 64 (v / 8 % 2), v / 2 and 64 (v % 2): the layout functions of the specification.
-/
import Idealize.ShloMosaic.PureOps.Ideal
import Idealize.ShloMosaic.Lib.Scf
import proofs.«202666_g58660663329007_cont_9to1_m_1270_26_alg».proof.Proof.Spec

namespace Cert.KernelIdeal.Hand

open Idealize.ShloMosaic Cert.Spec

/-- The packed row number of a table row, as a word. -/
theorem packRow_toNat (v : BitVec 32) :
    (IntOp.ori (IntOp.shli .vector (IntOp.shrui .vector v 4#32) 3#32) (IntOp.andi v 7#32)).toNat = physRow v.toNat := by
  have hv := v.isLt
  simp only [IntOp.ori, IntOp.shli, IntOp.shrui, IntOp.andi, BitVec.toNat_ofNat, Nat.reducePow, Nat.reduceMod, Nat.reduceLT, if_true,
    BitVec.toNat_or, BitVec.toNat_and, BitVec.shiftLeft_eq', BitVec.ushiftRight_eq', BitVec.toNat_shiftLeft, BitVec.toNat_ushiftRight]
  unfold physRow
  have h7 : v.toNat &&& 7 = v.toNat % 8 := Nat.and_two_pow_sub_one_eq_mod v.toNat 3
  have hs : (v.toNat >>> 4) <<< 3 = 8 * (v.toNat / 16) := by rw [Nat.shiftLeft_eq, Nat.shiftRight_eq_div_pow]; omega
  rw [h7, hs, Nat.mod_eq_of_lt (by omega)]
  have : 8 * (v.toNat / 16) = (v.toNat / 16) <<< 3 := by rw [Nat.shiftLeft_eq]; omega
  rw [this, ← Nat.shiftLeft_add_eq_or_of_lt (by omega : v.toNat % 8 < 2 ^ 3), Nat.shiftLeft_eq]

/-- The lane offset of a table row, as a word. -/
theorem packCol_toNat (v : BitVec 32) :
    (IntOp.shli .vector (IntOp.andi v 8#32) 3#32).toNat = physCol v.toNat := by
  simp only [IntOp.shli, IntOp.andi, BitVec.toNat_ofNat, Nat.reducePow, Nat.reduceMod, Nat.reduceLT, if_true,
    BitVec.toNat_and, BitVec.shiftLeft_eq', BitVec.toNat_shiftLeft]
  unfold physCol
  have h8 : v.toNat &&& 8 = 8 * (v.toNat / 8 % 2) := by
    have e0 : v.toNat % 16 = v.toNat &&& 15 := (Nat.and_two_pow_sub_one_eq_mod v.toNat 4).symm
    have e1 : v.toNat &&& 8 = (v.toNat % 16) &&& 8 := by rw [e0, Nat.and_assoc]; rfl
    have e2 : ∀ m, m < 16 → m &&& 8 = 8 * (m / 8 % 2) := by decide
    rw [e1, e2 _ (Nat.mod_lt _ (by decide))]; omega
  rw [h8, Nat.shiftLeft_eq]; omega

/-- The packed row of a relation number, as a word. -/
theorem relRow_toNat (v : BitVec 32) : (IntOp.shrui .vector v 1#32).toNat = relRow v.toNat := by
  simp only [IntOp.shrui, BitVec.toNat_ofNat, Nat.reducePow, Nat.reduceMod, Nat.reduceLT, if_true, BitVec.ushiftRight_eq', BitVec.toNat_ushiftRight]
  unfold relRow; rw [Nat.shiftRight_eq_div_pow]

/-- The lane offset of a relation number, as a word. -/
theorem relCol_toNat (v : BitVec 32) : (IntOp.shli .vector (IntOp.andi v 1#32) 6#32).toNat = relCol v.toNat := by
  simp only [IntOp.shli, IntOp.andi, BitVec.toNat_ofNat, Nat.reducePow, Nat.reduceMod, Nat.reduceLT, if_true,
    BitVec.toNat_and, BitVec.shiftLeft_eq', BitVec.toNat_shiftLeft]
  unfold relCol
  have h1 : v.toNat &&& 1 = v.toNat % 2 := Nat.and_one_is_mod v.toNat
  rw [h1, Nat.shiftLeft_eq]; omega

/-- Adding a small constant to a small word does not wrap. -/
theorem addi_small (a : BitVec 32) (n : ℕ) (h : a.toNat + n < 2 ^ 32) : (IntOp.addi a (BitVec.ofNat 32 n)).toNat = a.toNat + n := by
  simp only [IntOp.addi, BitVec.toNat_add, BitVec.toNat_ofNat]
  rw [Nat.mod_eq_of_lt (a := n) (by omega), Nat.mod_eq_of_lt h]

/-- The batch row of lane `l` in trip `g`: 16 g + l. -/
theorem rowv_toNat (g l : ℕ) (hg : g < 16) (hl : l < 16) :
    (IntOp.addi (Scalar.muli (Scf.iv 0#32 1#32 g) 16#32) (BitVec.ofNat 32 l)).toNat = 16 * g + l := by
  simp only [IntOp.addi, Scalar.muli, IntOp.muli, Scf.iv, BitVec.toNat_add, BitVec.toNat_mul, BitVec.toNat_ofNat, BitVec.zero_add, BitVec.mul_one]
  omega

end Cert.KernelIdeal.Hand
-- ==== Proof.KI.TileG.lean ====
/-
  What one pass of a worker computes, as pure functions.

  In a pass the worker holds 256 batch entries: three lists of 256 indices (head, tail, relation), the two blocks of
  256 packed rows gathered at the heads' and the tails' packed row numbers, and the small packed table.  Entry (d, b) of
  its 64 x 256 staging block is |head + relation - tail| read at lane offset + d of the rows of batch entry b.  When the
  lists are a window of the batch's index lists and the blocks are the packed table's rows at the packed row numbers,
  the staging block is the window's columns of the score.
-/
import Idealize.ShloMosaic.PureOps.Ideal
import Idealize.ShloMosaic.Lib.ValueIdx
import proofs.«202666_g58660663329007_cont_9to1_m_1270_26_alg».proof.Proof.Spec

namespace Cert.KernelIdeal.Hand

open Idealize.ShloMosaic Idealize.ShloMosaic.ValueIdx Cert.Spec

variable {α : Type}

/-- The staging block of a pass, from the index lists and the gathered blocks. -/
def grpT (f : α → α → α → α) (f0 f1 f2 : (⟨1, ![256]⟩ : Shape).Idx → BitVec 32)
    (f5 f6 : (⟨2, ![256, 128]⟩ : Shape).Idx → α) (f7 : (⟨2, ![50, 128]⟩ : Shape).Idx → α) : (⟨2, ![64, 256]⟩ : Shape).Idx → α :=
  fun y =>
    f (f5 (ix2 (y 1) (ixMod 128 (physCol (f0 (ix1 (y 1))).toNat + (y 0).val))))
      (f7 (ix2 (ixMod 50 (relRow (f2 (ix1 (y 1))).toNat)) (ixMod 128 (relCol (f2 (ix1 (y 1))).toNat + (y 0).val))))
      (f6 (ix2 (y 1) (ixMod 128 (physCol (f1 (ix1 (y 1))).toNat + (y 0).val))))

/-- A pass's staging block is the score's columns [off, off + 256): the lists are the batch's at that window, the
    gathered blocks the packed table's rows at the packed row numbers, the small table itself. -/
theorem grpT_eq_score (f : α → α → α → α) (X : (⟨2, ![500000, 128]⟩ : Shape).Idx → α) (R2 : (⟨2, ![50, 128]⟩ : Shape).Idx → α)
    (h t r : (⟨1, ![16384]⟩ : Shape).Idx → BitVec 32) (off : ℕ)
    (f0 f1 f2 : (⟨1, ![256]⟩ : Shape).Idx → BitVec 32) (f5 f6 : (⟨2, ![256, 128]⟩ : Shape).Idx → α) (f7 : (⟨2, ![50, 128]⟩ : Shape).Idx → α)
    (hf0 : ∀ k : Fin 256, f0 (ix1 k) = h (ix1 (ixMod 16384 (off + k.val))))
    (hf1 : ∀ k : Fin 256, f1 (ix1 k) = t (ix1 (ixMod 16384 (off + k.val))))
    (hf2 : ∀ k : Fin 256, f2 (ix1 k) = r (ix1 (ixMod 16384 (off + k.val))))
    (hf5 : ∀ (k : Fin 256) (c : Fin 128), f5 (ix2 k c) = X (ix2 (ixMod 500000 (physRow (f0 (ix1 k)).toNat)) c))
    (hf6 : ∀ (k : Fin 256) (c : Fin 128), f6 (ix2 k c) = X (ix2 (ixMod 500000 (physRow (f1 (ix1 k)).toNat)) c))
    (hf7 : ∀ j, f7 j = R2 j) (y : (⟨2, ![64, 256]⟩ : Shape).Idx) :
    grpT f f0 f1 f2 f5 f6 f7 y = scoreT f X R2 h t r (ix2 (y 0) (ixMod 16384 (off + (y 1).val))) := by
  obtain ⟨a, b, rfl⟩ : ∃ (a : Fin 64) (b : Fin 256), y = ix2 a b := ⟨y 0, y 1, eq_ix2 y⟩
  unfold grpT scoreT
  show f (f5 (ix2 b (ixMod 128 (physCol (f0 (ix1 b)).toNat + a.val))))
      (f7 (ix2 (ixMod 50 (relRow (f2 (ix1 b)).toNat)) (ixMod 128 (relCol (f2 (ix1 b)).toNat + a.val))))
      (f6 (ix2 b (ixMod 128 (physCol (f1 (ix1 b)).toNat + a.val))))
    = f (X (ix2 (ixMod 500000 (physRow (h (ix1 (ixMod 16384 (off + b.val)))).toNat))
          (ixMod 128 (physCol (h (ix1 (ixMod 16384 (off + b.val)))).toNat + a.val))))
      (R2 (ix2 (ixMod 50 (relRow (r (ix1 (ixMod 16384 (off + b.val)))).toNat))
          (ixMod 128 (relCol (r (ix1 (ixMod 16384 (off + b.val)))).toNat + a.val))))
      (X (ix2 (ixMod 500000 (physRow (t (ix1 (ixMod 16384 (off + b.val)))).toNat))
          (ixMod 128 (physCol (t (ix1 (ixMod 16384 (off + b.val)))).toNat + a.val))))
  rw [hf5, hf6, hf7, hf0, hf1, hf2]

end Cert.KernelIdeal.Hand
-- ==== Proof.KI.TileC.lean ====
/-
  The index vectors of a group of sixteen batch entries, lane by lane: the batch rows 16 g + lane, the lane offsets
  of the heads, tails and relations plus the lane d, the relations' packed rows; and that they stay inside the blocks
  they index (256 x 128 for the gathered rows, 50 x 128 for the small table).
-/
import Idealize.ShloMosaic.PureOps.Ideal
import Idealize.ShloMosaic.Lib.Scf
import proofs.«202666_g58660663329007_cont_9to1_m_1270_26_alg».proof.Proof.KI.TileW

namespace Cert.KernelIdeal.Hand

open Idealize.ShloMosaic Cert.Spec

/-- The shape of a sixteen-lane vector. -/
abbrev V16 : Shape := ⟨1, ![16]⟩

/-- Lane `x` of the batch rows of group `g`. -/
theorem rowv_val (g : ℕ) (hg : g < 16) (H : V16.Iotas .scVector 32 [0]) (x : V16.Idx) :
    ((addi (broadcast V16 (Scalar.muli (Scf.iv 0#32 1#32 g) 16#32)) (iota .scVector V16 32 [0] H)) x).toNat = 16 * g + (x 0).val := by
  have hx : (x 0).val < 16 := (x 0).isLt
  show (IntOp.addi (Scalar.muli (Scf.iv 0#32 1#32 g) 16#32) (BitVec.ofNat 32 ([0].foldl (fun n a => n * V16.size a + (x a).val) 0))).toNat = _
  have : ([0].foldl (fun n (a : Fin V16.rank) => n * V16.size a + (x a).val) 0) = (x 0).val := by simp
  rw [this]
  exact rowv_toNat g (x 0).val hg hx

/-- Lane `x` of a head's or tail's lane offset plus `n`. -/
theorem hcol_val (u : IVec V16 32) (n : ℕ) (hn : n < 64) (x : V16.Idx) :
    ((addi (shli (andi u (broadcast V16 8#32)) (broadcast V16 3#32)) (broadcast V16 (BitVec.ofNat 32 n))) x).toNat
      = physCol (u x).toNat + n := by
  show (IntOp.addi (IntOp.shli .vector (IntOp.andi (u x) 8#32) 3#32) (BitVec.ofNat 32 n)).toNat = _
  rw [addi_small _ _ (by rw [packCol_toNat]; have := physCol_add_lt (u x).toNat hn; omega), packCol_toNat]

/-- Lane `x` of a relation's packed row. -/
theorem rrow_val (u : IVec V16 32) (x : V16.Idx) : ((shrui u (broadcast V16 1#32)) x).toNat = relRow (u x).toNat :=
  relRow_toNat (u x)

/-- Lane `x` of a relation's lane offset plus `n`. -/
theorem rcol_val (u : IVec V16 32) (n : ℕ) (hn : n < 64) (x : V16.Idx) :
    ((addi (shli (andi u (broadcast V16 1#32)) (broadcast V16 6#32)) (broadcast V16 (BitVec.ofNat 32 n))) x).toNat
      = relCol (u x).toNat + n := by
  show (IntOp.addi (IntOp.shli .vector (IntOp.andi (u x) 1#32) 6#32) (BitVec.ofNat 32 n)).toNat = _
  rw [addi_small _ _ (by rw [relCol_toNat]; have := relCol_add_lt (u x).toNat hn; omega), relCol_toNat]

/-- The batch rows and a head's or tail's lanes stay inside a gathered block. -/
theorem chk_rows (g : ℕ) (hg : g < 16) (H : V16.Iotas .scVector 32 [0]) (u : IVec V16 32) (n : ℕ) (hn : n < 64) :
    ∀ a x, ((![addi (broadcast V16 (Scalar.muli (Scf.iv 0#32 1#32 g) 16#32)) (iota .scVector V16 32 [0] H),
        addi (shli (andi u (broadcast V16 8#32)) (broadcast V16 3#32)) (broadcast V16 (BitVec.ofNat 32 n))] : Fin 2 → IVec V16 32) a x).toNat
      < (⟨2, ![256, 128]⟩ : Shape).size a := by
  intro a x
  match a with
  | ⟨0, _⟩ =>
    show ((addi (broadcast V16 (Scalar.muli (Scf.iv 0#32 1#32 g) 16#32)) (iota .scVector V16 32 [0] H)) x).toNat < 256
    rw [rowv_val g hg H x]; have hx : (x 0).val < 16 := (x 0).isLt; omega
  | ⟨1, _⟩ =>
    show ((addi (shli (andi u (broadcast V16 8#32)) (broadcast V16 3#32)) (broadcast V16 (BitVec.ofNat 32 n))) x).toNat < 128
    rw [hcol_val u n hn x]; exact physCol_add_lt _ hn

/-- A relation's packed row and lanes stay inside the small table. -/
theorem chk_rel (u : IVec V16 32) (n : ℕ) (hn : n < 64) (hu : ∀ x, (u x).toNat < 100) :
    ∀ a x, ((![shrui u (broadcast V16 1#32),
        addi (shli (andi u (broadcast V16 1#32)) (broadcast V16 6#32)) (broadcast V16 (BitVec.ofNat 32 n))] : Fin 2 → IVec V16 32) a x).toNat
      < (⟨2, ![50, 128]⟩ : Shape).size a := by
  intro a x
  match a with
  | ⟨0, _⟩ =>
    show ((shrui u (broadcast V16 1#32)) x).toNat < 50
    rw [rrow_val u x]; exact relRow_lt (hu x)
  | ⟨1, _⟩ =>
    show ((addi (shli (andi u (broadcast V16 1#32)) (broadcast V16 6#32)) (broadcast V16 (BitVec.ofNat 32 n))) x).toNat < 128
    rw [rcol_val u n hn x]; exact relCol_add_lt _ hn

end Cert.KernelIdeal.Hand
-- ==== Proof.KI.TileT1.lean ====
/-
  One trip of the loop that turns table row numbers into packed row numbers (first pass).

  Trip k reads entries [16 k, 16 k + 16) of the heads' and of the tails' index lists and writes, at the same positions of
  the two lists of packed row numbers, the word ((v >>> 4) <<< 3) ||| (v &&& 7) of each entry v, which as a number is
  8 (v / 16) + v % 8.  So if the first 16 k entries of the two lists were the packed row numbers of the first 16 k heads
  and tails, after the trip the first 16 (k + 1) are: an entry inside the window is read back as the word just written,
  an entry outside it is unchanged.
-/
import proofs.«202666_g58660663329007_cont_9to1_m_1270_26_alg».proof.Proof.KI.TileA
import Idealize.ShloMosaic.Lib.Tactic
import Idealize.ShloMosaic.Lib.Writes
import proofs.«202666_g58660663329007_cont_9to1_m_1270_26_alg».proof.Proof.KI.TileW
import proofs.«202666_g58660663329007_cont_9to1_m_1270_26_alg».proof.Proof.KI.TileG
import proofs.«202666_g58660663329007_cont_9to1_m_1270_26_alg».proof.Proof.Gen.KernelIdeal.Skeleton

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Spec

variable {F : FTy → Type} [FloatOps F]

local notation "𝕄" => MT nD τ sig (HIx 1) (Elt F) ℕ UU ℕ

open Idealize.ShloMosaic.Tactic

/-- One trip of the loop that turns table row numbers into packed row numbers: sixteen more entries of the two lists of
    packed row numbers are the packed rows of the sixteen heads and tails read. -/
theorem trip1 (d : Dev nD) (L : grid1.Coords) (k : Fin k1_t1_loop.trips)
    (f0 : Buf (Elt F) ((Memref.whole cc1_scratch0).view.loc (thrL d L))) (f1 : Buf (Elt F) ((Memref.whole cc1_scratch1).view.loc (thrL d L))) (f3 : Buf (Elt F) ((Memref.whole cc1_scratch3).view.loc (thrL d L))) (f4 : Buf (Elt F) ((Memref.whole cc1_scratch4).view.loc (thrL d L)))
    (hP : ∀ j : S256.Idx, (j 0).val < 16 * k.val → (f3 j).toNat = physRow (f0 j).toNat ∧ (f4 j).toNat = physRow (f1 j).toNat) :
    (iprop(((Memref.whole cc1_scratch0).view.loc (thrL d L) ↦{fullShare} f0) ∗ ((Memref.whole cc1_scratch1).view.loc (thrL d L) ↦{fullShare} f1) ∗ ((Memref.whole cc1_scratch3).view.loc (thrL d L) ↦{fullShare} f3) ∗ ((Memref.whole cc1_scratch4).view.loc (thrL d L) ↦{fullShare} f4)) : sProp 𝕄)
      ⊢ wp frame (wpE (defs₀ (F := F)) 𝒱₀ (thrL d L) none) Set.univ
          (k1_t1_body L (Memref.whole main_v1_scv) (Memref.isWhole_whole _) (Memref.whole main_v2_scv) (Memref.isWhole_whole _)
            (Memref.whole main_arg2_scv) (Memref.isWhole_whole _) (Memref.whole main_arg3_scv) (Memref.isWhole_whole _)
            (Memref.whole main_arg4_scv) (Memref.isWhole_whole _) (Memref.whole main_v3_scv) (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _) (Memref.whole cc1_scratch5) (Memref.isWhole_whole _)
            (Memref.whole cc1_scratch6) (Memref.isWhole_whole _) (Memref.whole cc1_scratch7) (Memref.isWhole_whole _)
            (Memref.whole cc1_scratch8) (Memref.isWhole_whole _) cc1_scratch9 cc1_scratch10
            cc1_scoped0 cc1_scoped1 cc1_scoped2 cc1_scoped3 cc1_scoped4 cc1_scoped5 cc1_scoped6 cc1_scoped7 cc1_scoped8 k ())
          fun _ => iprop(((Memref.whole cc1_scratch0).view.loc (thrL d L) ↦{fullShare} f0) ∗ ((Memref.whole cc1_scratch1).view.loc (thrL d L) ↦{fullShare} f1)
            ∗ ∃ f3' f4', ((Memref.whole cc1_scratch3).view.loc (thrL d L) ↦{fullShare} f3') ∗ ((Memref.whole cc1_scratch4).view.loc (thrL d L) ↦{fullShare} f4') ∗ ⌜∀ j : S256.Idx, (j 0).val < 16 * (k.val + 1) → (f3' j).toNat = physRow (f0 j).toNat ∧ (f4' j).toNat = physRow (f1 j).toNat⌝) := by
  unfold k1_t1_body
  iintro ⟨H0, H1, H3, H4⟩
  sl_exec
  sl_step
  isplitl [H0]; · iexact H0
  isplitl [H1]; · iexact H1
  iexists _; iexists _
  isplitl [H3]; · iexact H3
  isplitl [H4]; · iexact H4
  ipureintro
  intro j hj
  have hoff : k1_off2 k = ![16 * k.val] := k1_off2_eq k
  by_cases hin : j ∈ (Rect.unit (s := S256) (k1_off2 k) S16.size (k1_off2_inb k)).set
  · obtain ⟨x, rfl⟩ := (Rect.unit (s := S256) (k1_off2 k) S16.size (k1_off2_inb k)).exists_idx_of_mem hin
    constructor
    · refine (congrArg BitVec.toNat (View.read_writes_cons_emb (Memref.whole cc1_scratch3).view f3 (Rect.unit (s := S256) (k1_off2 k) S16.size (k1_off2_inb k)) _ [] x)).trans ?_
      exact packRow_toNat _
    · refine (congrArg BitVec.toNat (View.read_writes_cons_emb (Memref.whole cc1_scratch4).view f4 (Rect.unit (s := S256) (k1_off2 k) S16.size (k1_off2_inb k)) _ [] x)).trans ?_
      exact packRow_toNat _
  · have hlt : (j 0).val < 16 * k.val := by
      by_contra hge
      refine hin (Rect.mem_set_unit.mpr fun a => ?_)
      have ha : a = 0 := Subsingleton.elim _ _
      subst ha
      rw [hoff]
      refine ⟨?_, ?_⟩
      · show 16 * k.val ≤ (j 0).val; omega
      · show (j 0).val < 16 * k.val + 16; omega
    have h3 : View.read (Elt F) (Memref.whole cc1_scratch3).view ((Memref.whole cc1_scratch3).view.writes (Elt F) f3 [⟨Rect.unit (s := S256) (k1_off2 k) S16.size (k1_off2_inb k), k1_pay521 (View.readAt (Elt F) (Memref.whole cc1_scratch0).view (Rect.unit (s := S256) (k1_off2 k) S16.size (k1_off2_inb k)).toLoadRect f0)⟩]) j = View.read (Elt F) (Memref.whole cc1_scratch3).view f3 j :=
      View.read_writes_apply_of_forall_not_mem _ _ j _ (by intro p hp; rw [List.mem_singleton.mp hp]; exact hin)
    have h4 : View.read (Elt F) (Memref.whole cc1_scratch4).view ((Memref.whole cc1_scratch4).view.writes (Elt F) f4 [⟨Rect.unit (s := S256) (k1_off2 k) S16.size (k1_off2_inb k), k1_pay522 (View.readAt (Elt F) (Memref.whole cc1_scratch1).view (Rect.unit (s := S256) (k1_off2 k) S16.size (k1_off2_inb k)).toLoadRect f1)⟩]) j = View.read (Elt F) (Memref.whole cc1_scratch4).view f4 j :=
      View.read_writes_apply_of_forall_not_mem _ _ j _ (by intro p hp; rw [List.mem_singleton.mp hp]; exact hin)
    exact ⟨(congrArg BitVec.toNat h3).trans (hP j hlt).1, (congrArg BitVec.toNat h4).trans (hP j hlt).2⟩

end Cert.KernelIdeal.Hand
end
-- ==== Proof.KI.TileT2.lean ====
/-
  One trip of the scoring loop (first pass).

  Trip g handles the sixteen batch entries 16 g .. 16 g + 15 of the pass.  For each lane d of 0..63 it reads, from the
  two blocks of gathered rows at batch row 16 g + x and lane offset (of the head, of the tail) + d, and from the small
  table at the relation's packed row and lane offset + d, three vectors of sixteen values, and stores |head + relation
  - tail| into row d, columns [16 g, 16 g + 16) of the staging block.  The indices stay inside the blocks because the
  batch row is below 256, a lane offset is 0 or 64 and d < 64, and a relation number below 100 has packed row below 50.
  Each of the 64 stores is a sixteen-entry piece of one function of the block's index (the pass's value, `grpT`); storing
  them one after another gives that function on rows 0..63 of the sixteen columns and leaves every other entry as it was.
  So a block that held the pass's value on columns below 16 g holds it on columns below 16 (g + 1).
-/
import proofs.«202666_g58660663329007_cont_9to1_m_1270_26_alg».proof.Proof.KI.TileA
import Idealize.ShloMosaic.Lib.Tactic
import Idealize.ShloMosaic.Lib.Writes
import Idealize.ShloMosaic.Lib.Pipeline.Value
import proofs.«202666_g58660663329007_cont_9to1_m_1270_26_alg».proof.Proof.KI.TileW
import proofs.«202666_g58660663329007_cont_9to1_m_1270_26_alg».proof.Proof.KI.TileG
import proofs.«202666_g58660663329007_cont_9to1_m_1270_26_alg».proof.Proof.KI.TileC
import proofs.«202666_g58660663329007_cont_9to1_m_1270_26_alg».proof.Proof.Gen.KernelIdeal.Skeleton

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Spec

variable {F : FTy → Type} [FloatOps F]

local notation "𝕄" => MT nD τ sig (HIx 1) (Elt F) ℕ UU ℕ

open Idealize.ShloMosaic.Tactic
set_option sl_exec.dischHeartbeats 20000

section Fold

variable (d : Dev nD) (L : grid1.Coords)

/-- The staging block after the first `n` lanes of group `g` are stored: those lanes' sixteen columns hold `G`, every
    other entry what the block held before the trip. -/
def Good (g n : ℕ) (G : S64x256.Idx → F .f32) (f8 Fc : Buf (Elt F) ((Memref.whole cc1_scratch8).view.loc (thrL d L))) : Prop :=
  ∀ y : S64x256.Idx, Fc y = if (y 0).val < n ∧ 16 * g ≤ (y 1).val ∧ (y 1).val < 16 * g + 16 then G y else f8 y

theorem good_base (g : ℕ) (G : S64x256.Idx → F .f32) (f8 : Buf (Elt F) ((Memref.whole cc1_scratch8).view.loc (thrL d L))) :
    Good d L g 0 G f8 ((Memref.whole cc1_scratch8).view.writes (Elt F) f8 []) := by
  intro y
  rw [if_neg (by omega)]; rfl

/-- One more lane stored: a sixteen-entry piece of row `n` at columns [16 g, 16 g + 16) that holds `G`. -/
theorem good_step (g n : ℕ) (G : S64x256.Idx → F .f32) (f8 : Buf (Elt F) ((Memref.whole cc1_scratch8).view.loc (thrL d L))) (Lp : List (View.Piece (Elt F) S64x256 .f32))
    (off : Fin S64x256.rank → ℕ) (hoff : off = ![n, 16 * g]) (inb : ∀ a, off a + S1x16.size a ≤ S64x256.size a)
    (w : (Rect.unit (s := S64x256) off S1x16.size inb).shape.Idx → F .f32)
    (hw : ∀ x, w x = G ((Rect.unit (s := S64x256) off S1x16.size inb).emb x))
    (hprev : Good d L g n G f8 ((Memref.whole cc1_scratch8).view.writes (Elt F) f8 Lp)) :
    Good d L g (n + 1) G f8 ((Memref.whole cc1_scratch8).view.writes (Elt F) f8 (⟨Rect.unit (s := S64x256) off S1x16.size inb, w⟩ :: Lp)) := by
  intro y
  by_cases hy : y ∈ (Rect.unit (s := S64x256) off S1x16.size inb).set
  · obtain ⟨x, rfl⟩ := (Rect.unit (s := S64x256) off S1x16.size inb).exists_idx_of_mem hy
    have e1 : ((Memref.whole cc1_scratch8).view.writes (Elt F) f8 (⟨Rect.unit (s := S64x256) off S1x16.size inb, w⟩ :: Lp)) ((Rect.unit (s := S64x256) off S1x16.size inb).emb x) = w x :=
      View.read_writes_cons_emb (Memref.whole cc1_scratch8).view f8 (Rect.unit (s := S64x256) off S1x16.size inb) w Lp x
    have hx0 : (x 0).val < 1 := (x 0).isLt
    have hx1 : (x 1).val < 16 := (x 1).isLt
    have h0 : (((Rect.unit (s := S64x256) off S1x16.size inb).emb x) 0).val = n := by
      have h00 : off 0 = n := by rw [hoff]; rfl
      show off 0 + 1 * (x 0).val = n
      omega
    have h1 : (((Rect.unit (s := S64x256) off S1x16.size inb).emb x) 1).val = 16 * g + (x 1).val := by
      have h01 : off 1 = 16 * g := by rw [hoff]; rfl
      show off 1 + 1 * (x 1).val = _
      omega
    have hc : (((Rect.unit (s := S64x256) off S1x16.size inb).emb x) 0).val < n + 1 ∧ 16 * g ≤ (((Rect.unit (s := S64x256) off S1x16.size inb).emb x) 1).val
        ∧ (((Rect.unit (s := S64x256) off S1x16.size inb).emb x) 1).val < 16 * g + 16 := ⟨by omega, by omega, by omega⟩
    exact (e1.trans (hw x)).trans (if_pos hc).symm
  · have e2 : ((Memref.whole cc1_scratch8).view.writes (Elt F) f8 (⟨Rect.unit (s := S64x256) off S1x16.size inb, w⟩ :: Lp)) y = ((Memref.whole cc1_scratch8).view.writes (Elt F) f8 Lp) y :=
      View.read_slice_write_of_not_mem (v := (Memref.whole cc1_scratch8).view) (Val := Elt F) (Rect.unit (s := S64x256) off S1x16.size inb) ((Memref.whole cc1_scratch8).view.writes (Elt F) f8 Lp) w Finset.univ (by rw [Rect.map_emb_univ]; exact hy)
    rw [e2, hprev y]
    have hnm : ¬ ∀ a, off a ≤ (y a).val ∧ (y a).val < off a + S1x16.size a := fun h => hy (Rect.mem_set_unit.mpr h)
    by_cases hc : (y 0).val < n ∧ 16 * g ≤ (y 1).val ∧ (y 1).val < 16 * g + 16
    · rw [if_pos hc, if_pos ⟨by omega, hc.2.1, hc.2.2⟩]
    · rw [if_neg hc, if_neg]
      intro hc'
      apply hnm
      have h00 : off 0 = n := by rw [hoff]; rfl
      have h01 : off 1 = 16 * g := by rw [hoff]; rfl
      intro a
      match a with
      | ⟨0, _⟩ => exact ⟨by show off 0 ≤ (y 0).val; omega, by show (y 0).val < off 0 + 1; omega⟩
      | ⟨1, _⟩ => exact ⟨by show off 1 ≤ (y 1).val; omega, by show (y 1).val < off 1 + 16; omega⟩

/-- All sixty-four lanes stored: the group's sixteen columns hold `G`; with the columns before them, the block holds
    `G` up to column 16 (g + 1). -/
theorem good_end (g : ℕ) (G : S64x256.Idx → F .f32) (f8 Fc : Buf (Elt F) ((Memref.whole cc1_scratch8).view.loc (thrL d L))) (hg : Good d L g 64 G f8 Fc)
    (hP : ∀ y : S64x256.Idx, (y 1).val < 16 * g → f8 y = G y) :
    ∀ y : S64x256.Idx, (y 1).val < 16 * (g + 1) → Fc y = G y := by
  intro y hy
  have h64 : (y 0).val < 64 := (y 0).isLt
  rw [hg y]
  by_cases hc : (y 0).val < 64 ∧ 16 * g ≤ (y 1).val ∧ (y 1).val < 16 * g + 16
  · rw [if_pos hc]
  · rw [if_neg hc]; exact hP y (by omega)

end Fold

section Piece

variable (d : Dev nD) (L : grid1.Coords)

/-- Lane `x` of a sixteen-entry window of a 256-entry list is the list's entry 16 g + x. -/
theorem unit16_idx (g : ℕ) (hg : g < 16) (o3 : Fin S256.rank → ℕ) (ho3 : o3 = ![16 * g]) (i3 : ∀ a, o3 a + S16.size a ≤ S256.size a)
    (x : (Rect.unit (s := S256) o3 S16.size i3).toLoadRect.shape.Idx) :
    (Rect.unit (s := S256) o3 S16.size i3).toLoadRect.idx x = ValueIdx.ix1 (ixMod 256 (16 * g + (x 0).val)) := by
  have h00 : o3 0 = 16 * g := by rw [ho3]; rfl
  have hx : (x 0).val < 16 := (x 0).isLt
  funext a
  match a with
  | ⟨0, _⟩ =>
    refine Fin.ext ?_
    show o3 0 + 1 * (x 0).val = (16 * g + (x 0).val) % 256
    rw [Nat.mod_eq_of_lt (by omega)]; omega

/-- What one lane's store writes: at lane `n` of group `g`, |head + relation - tail| of the sixteen batch entries,
    read at the batch rows and at the heads', tails' and relations' lane offsets plus `n`, is the pass's staging block
    at row `n`, columns [16 g, 16 g + 16). -/
theorem piece_val (g n : ℕ) (hg : g < 16) (hn : n < 64)
    (f0 : Buf (Elt F) ((Memref.whole cc1_scratch0).view.loc (thrL d L))) (f1 : Buf (Elt F) ((Memref.whole cc1_scratch1).view.loc (thrL d L))) (f2 : Buf (Elt F) ((Memref.whole cc1_scratch2).view.loc (thrL d L))) (f5 : Buf (Elt F) ((Memref.whole cc1_scratch5).view.loc (thrL d L))) (f6 : Buf (Elt F) ((Memref.whole cc1_scratch6).view.loc (thrL d L))) (f7 : Buf (Elt F) ((Memref.whole cc1_scratch7).view.loc (thrL d L)))
    (hf2 : ∀ j, (f2 j).toNat < 100)
    (o3 : Fin S256.rank → ℕ) (ho3 : o3 = ![16 * g]) (i3 : ∀ a, o3 a + S16.size a ≤ S256.size a)
    (off : Fin S64x256.rank → ℕ) (hoff : off = ![n, 16 * g]) (inb : ∀ a, off a + S1x16.size a ≤ S64x256.size a)
    (h1 : ∀ a x, ((![(addi (broadcast S16 (Scalar.muli (Scf.iv 0#32 1#32 g) 16#32)) (iota .scVector S16 32 [0] iota_S16_d0_w32_scVector)), (addi (shli (andi (View.readAt (Elt F) (Memref.whole cc1_scratch0).view (Rect.unit (s := S256) o3 S16.size i3).toLoadRect f0) (broadcast S16 8#32)) (broadcast S16 3#32)) (broadcast S16 (BitVec.ofNat 32 n)))] : Fin 2 → IVec S16 32) a x).toNat < S256x128.size a)
    (h2 : ∀ a x, ((![(addi (broadcast S16 (Scalar.muli (Scf.iv 0#32 1#32 g) 16#32)) (iota .scVector S16 32 [0] iota_S16_d0_w32_scVector)), (addi (shli (andi (View.readAt (Elt F) (Memref.whole cc1_scratch1).view (Rect.unit (s := S256) o3 S16.size i3).toLoadRect f1) (broadcast S16 8#32)) (broadcast S16 3#32)) (broadcast S16 (BitVec.ofNat 32 n)))] : Fin 2 → IVec S16 32) a x).toNat < S256x128.size a)
    (h3 : ∀ a x, ((![(shrui (View.readAt (Elt F) (Memref.whole cc1_scratch2).view (Rect.unit (s := S256) o3 S16.size i3).toLoadRect f2) (broadcast S16 1#32)), (addi (shli (andi (View.readAt (Elt F) (Memref.whole cc1_scratch2).view (Rect.unit (s := S256) o3 S16.size i3).toLoadRect f2) (broadcast S16 1#32)) (broadcast S16 6#32)) (broadcast S16 (BitVec.ofNat 32 n)))] : Fin 2 → IVec S16 32) a x).toNat < S50x128.size a)
    (hc : S16.ShapeCasts S1x16) :
    ∀ x : (Rect.unit (s := S64x256) off S1x16.size inb).shape.Idx,
      shapeCast S1x16 (fun i : S16.Idx => f3 (F := F)
          (loadIdx (View.readAt (Elt F) (Memref.whole cc1_scratch5).view (LoadRect.whole S256x128) f5) ![(addi (broadcast S16 (Scalar.muli (Scf.iv 0#32 1#32 g) 16#32)) (iota .scVector S16 32 [0] iota_S16_d0_w32_scVector)), (addi (shli (andi (View.readAt (Elt F) (Memref.whole cc1_scratch0).view (Rect.unit (s := S256) o3 S16.size i3).toLoadRect f0) (broadcast S16 8#32)) (broadcast S16 3#32)) (broadcast S16 (BitVec.ofNat 32 n)))] h1 i)
          (loadIdx (View.readAt (Elt F) (Memref.whole cc1_scratch7).view (LoadRect.whole S50x128) f7) ![(shrui (View.readAt (Elt F) (Memref.whole cc1_scratch2).view (Rect.unit (s := S256) o3 S16.size i3).toLoadRect f2) (broadcast S16 1#32)), (addi (shli (andi (View.readAt (Elt F) (Memref.whole cc1_scratch2).view (Rect.unit (s := S256) o3 S16.size i3).toLoadRect f2) (broadcast S16 1#32)) (broadcast S16 6#32)) (broadcast S16 (BitVec.ofNat 32 n)))] h3 i)
          (loadIdx (View.readAt (Elt F) (Memref.whole cc1_scratch6).view (LoadRect.whole S256x128) f6) ![(addi (broadcast S16 (Scalar.muli (Scf.iv 0#32 1#32 g) 16#32)) (iota .scVector S16 32 [0] iota_S16_d0_w32_scVector)), (addi (shli (andi (View.readAt (Elt F) (Memref.whole cc1_scratch1).view (Rect.unit (s := S256) o3 S16.size i3).toLoadRect f1) (broadcast S16 8#32)) (broadcast S16 3#32)) (broadcast S16 (BitVec.ofNat 32 n)))] h2 i)) hc x
        = grpT (f3 (F := F)) f0 f1 f2 f5 f6 f7 ((Rect.unit (s := S64x256) off S1x16.size inb).emb x) := by
  intro x
  have hx0 : (x 0).val < 1 := (x 0).isLt
  have hx1 : (x 1).val < 16 := (x 1).isLt
  have h00 : off 0 = n := by rw [hoff]; rfl
  have h01 : off 1 = 16 * g := by rw [hoff]; rfl
  have hy0 : (((Rect.unit (s := S64x256) off S1x16.size inb).emb x) 0).val = n := by
    show off 0 + 1 * (x 0).val = n; omega
  have hy1 : (((Rect.unit (s := S64x256) off S1x16.size inb).emb x) 1).val = 16 * g + (x 1).val := by
    show off 1 + 1 * (x 1).val = _; omega
  -- the lane
  obtain ⟨i, hi⟩ : ∃ i : S16.Idx, (i 0).val = (x 1).val := ⟨ValueIdx.ix1 ⟨(x 1).val, hx1⟩, rfl⟩
  rw [shapeCast_apply _ hc x i (by
    rw [Shape.rowMajor_val_one, Shape.rowMajor_val_two]
    show (i 0).val = (x 0).val * 16 + (x 1).val
    omega)]
  -- the three index lists at the lane
  have e0 : (View.readAt (Elt F) (Memref.whole cc1_scratch0).view (Rect.unit (s := S256) o3 S16.size i3).toLoadRect f0) i = f0 (ValueIdx.ix1 (((Rect.unit (s := S64x256) off S1x16.size inb).emb x) 1)) := by
    show f0 ((Rect.unit (s := S256) o3 S16.size i3).toLoadRect.idx i) = _
    rw [unit16_idx g hg o3 ho3 i3 i]
    refine congrArg f0 (congrArg ValueIdx.ix1 (Fin.ext ?_))
    show (16 * g + (i 0).val) % 256 = _
    rw [Nat.mod_eq_of_lt (by omega), hy1, hi]
  have e1 : (View.readAt (Elt F) (Memref.whole cc1_scratch1).view (Rect.unit (s := S256) o3 S16.size i3).toLoadRect f1) i = f1 (ValueIdx.ix1 (((Rect.unit (s := S64x256) off S1x16.size inb).emb x) 1)) := by
    show f1 ((Rect.unit (s := S256) o3 S16.size i3).toLoadRect.idx i) = _
    rw [unit16_idx g hg o3 ho3 i3 i]
    refine congrArg f1 (congrArg ValueIdx.ix1 (Fin.ext ?_))
    show (16 * g + (i 0).val) % 256 = _
    rw [Nat.mod_eq_of_lt (by omega), hy1, hi]
  have e2 : (View.readAt (Elt F) (Memref.whole cc1_scratch2).view (Rect.unit (s := S256) o3 S16.size i3).toLoadRect f2) i = f2 (ValueIdx.ix1 (((Rect.unit (s := S64x256) off S1x16.size inb).emb x) 1)) := by
    show f2 ((Rect.unit (s := S256) o3 S16.size i3).toLoadRect.idx i) = _
    rw [unit16_idx g hg o3 ho3 i3 i]
    refine congrArg f2 (congrArg ValueIdx.ix1 (Fin.ext ?_))
    show (16 * g + (i 0).val) % 256 = _
    rw [Nat.mod_eq_of_lt (by omega), hy1, hi]
  unfold grpT
  refine congr (congr (congrArg (f3 (F := F)) ?_) ?_) ?_
  · show f5 ((Rect.whole S256x128).emb (idxAt ![(addi (broadcast S16 (Scalar.muli (Scf.iv 0#32 1#32 g) 16#32)) (iota .scVector S16 32 [0] iota_S16_d0_w32_scVector)), (addi (shli (andi (View.readAt (Elt F) (Memref.whole cc1_scratch0).view (Rect.unit (s := S256) o3 S16.size i3).toLoadRect f0) (broadcast S16 8#32)) (broadcast S16 3#32)) (broadcast S16 (BitVec.ofNat 32 n)))] h1 i)) = _
    rw [Rect.emb_whole_apply]
    refine congrArg f5 ?_
    funext a
    match a with
    | ⟨0, _⟩ =>
      refine Fin.ext ?_
      show ((addi (broadcast S16 (Scalar.muli (Scf.iv 0#32 1#32 g) 16#32)) (iota .scVector S16 32 [0] iota_S16_d0_w32_scVector)) i).toNat = _
      rw [rowv_val g hg _ i, hy1, hi]
    | ⟨1, _⟩ =>
      refine Fin.ext ?_
      show ((addi (shli (andi (View.readAt (Elt F) (Memref.whole cc1_scratch0).view (Rect.unit (s := S256) o3 S16.size i3).toLoadRect f0) (broadcast S16 8#32)) (broadcast S16 3#32)) (broadcast S16 (BitVec.ofNat 32 n))) i).toNat = (physCol (f0 (ValueIdx.ix1 (((Rect.unit (s := S64x256) off S1x16.size inb).emb x) 1))).toNat + (((Rect.unit (s := S64x256) off S1x16.size inb).emb x) 0).val) % 128
      rw [hcol_val _ n hn i, e0, hy0, Nat.mod_eq_of_lt (physCol_add_lt _ hn)]
  · show f7 ((Rect.whole S50x128).emb (idxAt ![(shrui (View.readAt (Elt F) (Memref.whole cc1_scratch2).view (Rect.unit (s := S256) o3 S16.size i3).toLoadRect f2) (broadcast S16 1#32)), (addi (shli (andi (View.readAt (Elt F) (Memref.whole cc1_scratch2).view (Rect.unit (s := S256) o3 S16.size i3).toLoadRect f2) (broadcast S16 1#32)) (broadcast S16 6#32)) (broadcast S16 (BitVec.ofNat 32 n)))] h3 i)) = _
    rw [Rect.emb_whole_apply]
    refine congrArg f7 ?_
    funext a
    match a with
    | ⟨0, _⟩ =>
      refine Fin.ext ?_
      show ((shrui (View.readAt (Elt F) (Memref.whole cc1_scratch2).view (Rect.unit (s := S256) o3 S16.size i3).toLoadRect f2) (broadcast S16 1#32)) i).toNat = (relRow (f2 (ValueIdx.ix1 (((Rect.unit (s := S64x256) off S1x16.size inb).emb x) 1))).toNat) % 50
      rw [rrow_val _ i, e2, Nat.mod_eq_of_lt (relRow_lt (hf2 _))]
    | ⟨1, _⟩ =>
      refine Fin.ext ?_
      show ((addi (shli (andi (View.readAt (Elt F) (Memref.whole cc1_scratch2).view (Rect.unit (s := S256) o3 S16.size i3).toLoadRect f2) (broadcast S16 1#32)) (broadcast S16 6#32)) (broadcast S16 (BitVec.ofNat 32 n))) i).toNat = (relCol (f2 (ValueIdx.ix1 (((Rect.unit (s := S64x256) off S1x16.size inb).emb x) 1))).toNat + (((Rect.unit (s := S64x256) off S1x16.size inb).emb x) 0).val) % 128
      rw [rcol_val _ n hn i, e2, hy0, Nat.mod_eq_of_lt (relCol_add_lt _ hn)]
  · show f6 ((Rect.whole S256x128).emb (idxAt ![(addi (broadcast S16 (Scalar.muli (Scf.iv 0#32 1#32 g) 16#32)) (iota .scVector S16 32 [0] iota_S16_d0_w32_scVector)), (addi (shli (andi (View.readAt (Elt F) (Memref.whole cc1_scratch1).view (Rect.unit (s := S256) o3 S16.size i3).toLoadRect f1) (broadcast S16 8#32)) (broadcast S16 3#32)) (broadcast S16 (BitVec.ofNat 32 n)))] h2 i)) = _
    rw [Rect.emb_whole_apply]
    refine congrArg f6 ?_
    funext a
    match a with
    | ⟨0, _⟩ =>
      refine Fin.ext ?_
      show ((addi (broadcast S16 (Scalar.muli (Scf.iv 0#32 1#32 g) 16#32)) (iota .scVector S16 32 [0] iota_S16_d0_w32_scVector)) i).toNat = _
      rw [rowv_val g hg _ i, hy1, hi]
    | ⟨1, _⟩ =>
      refine Fin.ext ?_
      show ((addi (shli (andi (View.readAt (Elt F) (Memref.whole cc1_scratch1).view (Rect.unit (s := S256) o3 S16.size i3).toLoadRect f1) (broadcast S16 8#32)) (broadcast S16 3#32)) (broadcast S16 (BitVec.ofNat 32 n))) i).toNat = (physCol (f1 (ValueIdx.ix1 (((Rect.unit (s := S64x256) off S1x16.size inb).emb x) 1))).toNat + (((Rect.unit (s := S64x256) off S1x16.size inb).emb x) 0).val) % 128
      rw [hcol_val _ n hn i, e1, hy0, Nat.mod_eq_of_lt (physCol_add_lt _ hn)]

end Piece

set_option maxRecDepth 65536 in
/-- One trip of the scoring loop: sixteen more columns of the staging block hold |head + relation - tail|, lane by
    lane, of the sixteen batch entries of the group. -/
theorem trip2 (d : Dev nD) (L : grid1.Coords) (g : Fin k1_t2_loop.trips)
    (f0 : Buf (Elt F) ((Memref.whole cc1_scratch0).view.loc (thrL d L))) (f1 : Buf (Elt F) ((Memref.whole cc1_scratch1).view.loc (thrL d L))) (f2 : Buf (Elt F) ((Memref.whole cc1_scratch2).view.loc (thrL d L))) (f5 : Buf (Elt F) ((Memref.whole cc1_scratch5).view.loc (thrL d L))) (f6 : Buf (Elt F) ((Memref.whole cc1_scratch6).view.loc (thrL d L))) (f7 : Buf (Elt F) ((Memref.whole cc1_scratch7).view.loc (thrL d L))) (f8 : Buf (Elt F) ((Memref.whole cc1_scratch8).view.loc (thrL d L)))
    (hf2 : ∀ j, (f2 j).toNat < 100)
    (hP : ∀ y : S64x256.Idx, (y 1).val < 16 * g.val → f8 y = grpT (f3 (F := F)) f0 f1 f2 f5 f6 f7 y) :
    (iprop(((Memref.whole cc1_scratch0).view.loc (thrL d L) ↦{fullShare} f0) ∗ ((Memref.whole cc1_scratch1).view.loc (thrL d L) ↦{fullShare} f1) ∗ ((Memref.whole cc1_scratch2).view.loc (thrL d L) ↦{fullShare} f2) ∗ ((Memref.whole cc1_scratch5).view.loc (thrL d L) ↦{fullShare} f5) ∗ ((Memref.whole cc1_scratch6).view.loc (thrL d L) ↦{fullShare} f6) ∗ ((Memref.whole cc1_scratch7).view.loc (thrL d L) ↦{fullShare} f7) ∗ ((Memref.whole cc1_scratch8).view.loc (thrL d L) ↦{fullShare} f8)) : sProp 𝕄)
      ⊢ wp frame (wpE (defs₀ (F := F)) 𝒱₀ (thrL d L) none) Set.univ
          (k1_t2_body L (Memref.whole main_v1_scv) (Memref.isWhole_whole _) (Memref.whole main_v2_scv) (Memref.isWhole_whole _)
            (Memref.whole main_arg2_scv) (Memref.isWhole_whole _) (Memref.whole main_arg3_scv) (Memref.isWhole_whole _)
            (Memref.whole main_arg4_scv) (Memref.isWhole_whole _) (Memref.whole main_v3_scv) (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _) (Memref.whole cc1_scratch5) (Memref.isWhole_whole _)
            (Memref.whole cc1_scratch6) (Memref.isWhole_whole _) (Memref.whole cc1_scratch7) (Memref.isWhole_whole _)
            (Memref.whole cc1_scratch8) (Memref.isWhole_whole _) cc1_scratch9 cc1_scratch10
            cc1_scoped0 cc1_scoped1 cc1_scoped2 cc1_scoped3 cc1_scoped4 cc1_scoped5 cc1_scoped6 cc1_scoped7 cc1_scoped8 (iota .scVector S16 32 [0] iota_S16_d0_w32_scVector) g ())
          fun _ => iprop(((Memref.whole cc1_scratch0).view.loc (thrL d L) ↦{fullShare} f0) ∗ ((Memref.whole cc1_scratch1).view.loc (thrL d L) ↦{fullShare} f1) ∗ ((Memref.whole cc1_scratch2).view.loc (thrL d L) ↦{fullShare} f2) ∗ ((Memref.whole cc1_scratch5).view.loc (thrL d L) ↦{fullShare} f5) ∗ ((Memref.whole cc1_scratch6).view.loc (thrL d L) ↦{fullShare} f6) ∗ ((Memref.whole cc1_scratch7).view.loc (thrL d L) ↦{fullShare} f7)
            ∗ ∃ f8', ((Memref.whole cc1_scratch8).view.loc (thrL d L) ↦{fullShare} f8') ∗ ⌜∀ y : S64x256.Idx, (y 1).val < 16 * (g.val + 1) → f8' y = grpT (f3 (F := F)) f0 f1 f2 f5 f6 f7 y⌝) := by
  unfold k1_t2_body
  rw [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton]
  unfold k1_part1_skel k1_part2_skel k1_part3_skel k1_part4_skel k1_part5_skel k1_part6_skel k1_part7_skel k1_part8_skel k1_part9_skel k1_part10_skel k1_part11_skel k1_part12_skel k1_part13_skel k1_part14_skel k1_part15_skel k1_part16_skel k1_part17_skel k1_part18_skel k1_part19_skel k1_part20_skel k1_part21_skel k1_part22_skel k1_part23_skel k1_part24_skel k1_part25_skel k1_part26_skel SparseCore.vectorLoadIdx
  iintro ⟨H0, H1, H2, H5, H6, H7, H8⟩
  sl_exec (disch := first
    | (show ∀ a x, _ < (⟨2, ![50, 128]⟩ : Shape).size a; exact chk_rel _ _ (by decide) (by intro x; exact hf2 _))
    | exact chk_rows _ g.isLt _ _ _ (by decide))
  sl_step
  isplitl [H0]; · iexact H0
  isplitl [H1]; · iexact H1
  isplitl [H2]; · iexact H2
  isplitl [H5]; · iexact H5
  isplitl [H6]; · iexact H6
  isplitl [H7]; · iexact H7
  iexists _
  isplitl [H8]; · iexact H8
  ipureintro
  refine good_end d L g.val _ f8 _ ?_ hP
  refine good_step d L g.val 63 _ f8 _ _ (k1_off67_eq g) _ _ (piece_val d L g.val 63 g.isLt (by decide) f0 f1 f2 f5 f6 f7 hf2 _ (k1_off3_eq g) _ _ (k1_off67_eq g) _ _ _ _ _) ?_
  refine good_step d L g.val 62 _ f8 _ _ (k1_off66_eq g) _ _ (piece_val d L g.val 62 g.isLt (by decide) f0 f1 f2 f5 f6 f7 hf2 _ (k1_off3_eq g) _ _ (k1_off66_eq g) _ _ _ _ _) ?_
  refine good_step d L g.val 61 _ f8 _ _ (k1_off65_eq g) _ _ (piece_val d L g.val 61 g.isLt (by decide) f0 f1 f2 f5 f6 f7 hf2 _ (k1_off3_eq g) _ _ (k1_off65_eq g) _ _ _ _ _) ?_
  refine good_step d L g.val 60 _ f8 _ _ (k1_off64_eq g) _ _ (piece_val d L g.val 60 g.isLt (by decide) f0 f1 f2 f5 f6 f7 hf2 _ (k1_off3_eq g) _ _ (k1_off64_eq g) _ _ _ _ _) ?_
  refine good_step d L g.val 59 _ f8 _ _ (k1_off63_eq g) _ _ (piece_val d L g.val 59 g.isLt (by decide) f0 f1 f2 f5 f6 f7 hf2 _ (k1_off3_eq g) _ _ (k1_off63_eq g) _ _ _ _ _) ?_
  refine good_step d L g.val 58 _ f8 _ _ (k1_off62_eq g) _ _ (piece_val d L g.val 58 g.isLt (by decide) f0 f1 f2 f5 f6 f7 hf2 _ (k1_off3_eq g) _ _ (k1_off62_eq g) _ _ _ _ _) ?_
  refine good_step d L g.val 57 _ f8 _ _ (k1_off61_eq g) _ _ (piece_val d L g.val 57 g.isLt (by decide) f0 f1 f2 f5 f6 f7 hf2 _ (k1_off3_eq g) _ _ (k1_off61_eq g) _ _ _ _ _) ?_
  refine good_step d L g.val 56 _ f8 _ _ (k1_off60_eq g) _ _ (piece_val d L g.val 56 g.isLt (by decide) f0 f1 f2 f5 f6 f7 hf2 _ (k1_off3_eq g) _ _ (k1_off60_eq g) _ _ _ _ _) ?_
  refine good_step d L g.val 55 _ f8 _ _ (k1_off59_eq g) _ _ (piece_val d L g.val 55 g.isLt (by decide) f0 f1 f2 f5 f6 f7 hf2 _ (k1_off3_eq g) _ _ (k1_off59_eq g) _ _ _ _ _) ?_
  refine good_step d L g.val 54 _ f8 _ _ (k1_off58_eq g) _ _ (piece_val d L g.val 54 g.isLt (by decide) f0 f1 f2 f5 f6 f7 hf2 _ (k1_off3_eq g) _ _ (k1_off58_eq g) _ _ _ _ _) ?_
  refine good_step d L g.val 53 _ f8 _ _ (k1_off57_eq g) _ _ (piece_val d L g.val 53 g.isLt (by decide) f0 f1 f2 f5 f6 f7 hf2 _ (k1_off3_eq g) _ _ (k1_off57_eq g) _ _ _ _ _) ?_
  refine good_step d L g.val 52 _ f8 _ _ (k1_off56_eq g) _ _ (piece_val d L g.val 52 g.isLt (by decide) f0 f1 f2 f5 f6 f7 hf2 _ (k1_off3_eq g) _ _ (k1_off56_eq g) _ _ _ _ _) ?_
  refine good_step d L g.val 51 _ f8 _ _ (k1_off55_eq g) _ _ (piece_val d L g.val 51 g.isLt (by decide) f0 f1 f2 f5 f6 f7 hf2 _ (k1_off3_eq g) _ _ (k1_off55_eq g) _ _ _ _ _) ?_
  refine good_step d L g.val 50 _ f8 _ _ (k1_off54_eq g) _ _ (piece_val d L g.val 50 g.isLt (by decide) f0 f1 f2 f5 f6 f7 hf2 _ (k1_off3_eq g) _ _ (k1_off54_eq g) _ _ _ _ _) ?_
  refine good_step d L g.val 49 _ f8 _ _ (k1_off53_eq g) _ _ (piece_val d L g.val 49 g.isLt (by decide) f0 f1 f2 f5 f6 f7 hf2 _ (k1_off3_eq g) _ _ (k1_off53_eq g) _ _ _ _ _) ?_
  refine good_step d L g.val 48 _ f8 _ _ (k1_off52_eq g) _ _ (piece_val d L g.val 48 g.isLt (by decide) f0 f1 f2 f5 f6 f7 hf2 _ (k1_off3_eq g) _ _ (k1_off52_eq g) _ _ _ _ _) ?_
  refine good_step d L g.val 47 _ f8 _ _ (k1_off51_eq g) _ _ (piece_val d L g.val 47 g.isLt (by decide) f0 f1 f2 f5 f6 f7 hf2 _ (k1_off3_eq g) _ _ (k1_off51_eq g) _ _ _ _ _) ?_
  refine good_step d L g.val 46 _ f8 _ _ (k1_off50_eq g) _ _ (piece_val d L g.val 46 g.isLt (by decide) f0 f1 f2 f5 f6 f7 hf2 _ (k1_off3_eq g) _ _ (k1_off50_eq g) _ _ _ _ _) ?_
  refine good_step d L g.val 45 _ f8 _ _ (k1_off49_eq g) _ _ (piece_val d L g.val 45 g.isLt (by decide) f0 f1 f2 f5 f6 f7 hf2 _ (k1_off3_eq g) _ _ (k1_off49_eq g) _ _ _ _ _) ?_
  refine good_step d L g.val 44 _ f8 _ _ (k1_off48_eq g) _ _ (piece_val d L g.val 44 g.isLt (by decide) f0 f1 f2 f5 f6 f7 hf2 _ (k1_off3_eq g) _ _ (k1_off48_eq g) _ _ _ _ _) ?_
  refine good_step d L g.val 43 _ f8 _ _ (k1_off47_eq g) _ _ (piece_val d L g.val 43 g.isLt (by decide) f0 f1 f2 f5 f6 f7 hf2 _ (k1_off3_eq g) _ _ (k1_off47_eq g) _ _ _ _ _) ?_
  refine good_step d L g.val 42 _ f8 _ _ (k1_off46_eq g) _ _ (piece_val d L g.val 42 g.isLt (by decide) f0 f1 f2 f5 f6 f7 hf2 _ (k1_off3_eq g) _ _ (k1_off46_eq g) _ _ _ _ _) ?_
  refine good_step d L g.val 41 _ f8 _ _ (k1_off45_eq g) _ _ (piece_val d L g.val 41 g.isLt (by decide) f0 f1 f2 f5 f6 f7 hf2 _ (k1_off3_eq g) _ _ (k1_off45_eq g) _ _ _ _ _) ?_
  refine good_step d L g.val 40 _ f8 _ _ (k1_off44_eq g) _ _ (piece_val d L g.val 40 g.isLt (by decide) f0 f1 f2 f5 f6 f7 hf2 _ (k1_off3_eq g) _ _ (k1_off44_eq g) _ _ _ _ _) ?_
  refine good_step d L g.val 39 _ f8 _ _ (k1_off43_eq g) _ _ (piece_val d L g.val 39 g.isLt (by decide) f0 f1 f2 f5 f6 f7 hf2 _ (k1_off3_eq g) _ _ (k1_off43_eq g) _ _ _ _ _) ?_
  refine good_step d L g.val 38 _ f8 _ _ (k1_off42_eq g) _ _ (piece_val d L g.val 38 g.isLt (by decide) f0 f1 f2 f5 f6 f7 hf2 _ (k1_off3_eq g) _ _ (k1_off42_eq g) _ _ _ _ _) ?_
  refine good_step d L g.val 37 _ f8 _ _ (k1_off41_eq g) _ _ (piece_val d L g.val 37 g.isLt (by decide) f0 f1 f2 f5 f6 f7 hf2 _ (k1_off3_eq g) _ _ (k1_off41_eq g) _ _ _ _ _) ?_
  refine good_step d L g.val 36 _ f8 _ _ (k1_off40_eq g) _ _ (piece_val d L g.val 36 g.isLt (by decide) f0 f1 f2 f5 f6 f7 hf2 _ (k1_off3_eq g) _ _ (k1_off40_eq g) _ _ _ _ _) ?_
  refine good_step d L g.val 35 _ f8 _ _ (k1_off39_eq g) _ _ (piece_val d L g.val 35 g.isLt (by decide) f0 f1 f2 f5 f6 f7 hf2 _ (k1_off3_eq g) _ _ (k1_off39_eq g) _ _ _ _ _) ?_
  refine good_step d L g.val 34 _ f8 _ _ (k1_off38_eq g) _ _ (piece_val d L g.val 34 g.isLt (by decide) f0 f1 f2 f5 f6 f7 hf2 _ (k1_off3_eq g) _ _ (k1_off38_eq g) _ _ _ _ _) ?_
  refine good_step d L g.val 33 _ f8 _ _ (k1_off37_eq g) _ _ (piece_val d L g.val 33 g.isLt (by decide) f0 f1 f2 f5 f6 f7 hf2 _ (k1_off3_eq g) _ _ (k1_off37_eq g) _ _ _ _ _) ?_
  refine good_step d L g.val 32 _ f8 _ _ (k1_off36_eq g) _ _ (piece_val d L g.val 32 g.isLt (by decide) f0 f1 f2 f5 f6 f7 hf2 _ (k1_off3_eq g) _ _ (k1_off36_eq g) _ _ _ _ _) ?_
  refine good_step d L g.val 31 _ f8 _ _ (k1_off35_eq g) _ _ (piece_val d L g.val 31 g.isLt (by decide) f0 f1 f2 f5 f6 f7 hf2 _ (k1_off3_eq g) _ _ (k1_off35_eq g) _ _ _ _ _) ?_
  refine good_step d L g.val 30 _ f8 _ _ (k1_off34_eq g) _ _ (piece_val d L g.val 30 g.isLt (by decide) f0 f1 f2 f5 f6 f7 hf2 _ (k1_off3_eq g) _ _ (k1_off34_eq g) _ _ _ _ _) ?_
  refine good_step d L g.val 29 _ f8 _ _ (k1_off33_eq g) _ _ (piece_val d L g.val 29 g.isLt (by decide) f0 f1 f2 f5 f6 f7 hf2 _ (k1_off3_eq g) _ _ (k1_off33_eq g) _ _ _ _ _) ?_
  refine good_step d L g.val 28 _ f8 _ _ (k1_off32_eq g) _ _ (piece_val d L g.val 28 g.isLt (by decide) f0 f1 f2 f5 f6 f7 hf2 _ (k1_off3_eq g) _ _ (k1_off32_eq g) _ _ _ _ _) ?_
  refine good_step d L g.val 27 _ f8 _ _ (k1_off31_eq g) _ _ (piece_val d L g.val 27 g.isLt (by decide) f0 f1 f2 f5 f6 f7 hf2 _ (k1_off3_eq g) _ _ (k1_off31_eq g) _ _ _ _ _) ?_
  refine good_step d L g.val 26 _ f8 _ _ (k1_off30_eq g) _ _ (piece_val d L g.val 26 g.isLt (by decide) f0 f1 f2 f5 f6 f7 hf2 _ (k1_off3_eq g) _ _ (k1_off30_eq g) _ _ _ _ _) ?_
  refine good_step d L g.val 25 _ f8 _ _ (k1_off29_eq g) _ _ (piece_val d L g.val 25 g.isLt (by decide) f0 f1 f2 f5 f6 f7 hf2 _ (k1_off3_eq g) _ _ (k1_off29_eq g) _ _ _ _ _) ?_
  refine good_step d L g.val 24 _ f8 _ _ (k1_off28_eq g) _ _ (piece_val d L g.val 24 g.isLt (by decide) f0 f1 f2 f5 f6 f7 hf2 _ (k1_off3_eq g) _ _ (k1_off28_eq g) _ _ _ _ _) ?_
  refine good_step d L g.val 23 _ f8 _ _ (k1_off27_eq g) _ _ (piece_val d L g.val 23 g.isLt (by decide) f0 f1 f2 f5 f6 f7 hf2 _ (k1_off3_eq g) _ _ (k1_off27_eq g) _ _ _ _ _) ?_
  refine good_step d L g.val 22 _ f8 _ _ (k1_off26_eq g) _ _ (piece_val d L g.val 22 g.isLt (by decide) f0 f1 f2 f5 f6 f7 hf2 _ (k1_off3_eq g) _ _ (k1_off26_eq g) _ _ _ _ _) ?_
  refine good_step d L g.val 21 _ f8 _ _ (k1_off25_eq g) _ _ (piece_val d L g.val 21 g.isLt (by decide) f0 f1 f2 f5 f6 f7 hf2 _ (k1_off3_eq g) _ _ (k1_off25_eq g) _ _ _ _ _) ?_
  refine good_step d L g.val 20 _ f8 _ _ (k1_off24_eq g) _ _ (piece_val d L g.val 20 g.isLt (by decide) f0 f1 f2 f5 f6 f7 hf2 _ (k1_off3_eq g) _ _ (k1_off24_eq g) _ _ _ _ _) ?_
  refine good_step d L g.val 19 _ f8 _ _ (k1_off23_eq g) _ _ (piece_val d L g.val 19 g.isLt (by decide) f0 f1 f2 f5 f6 f7 hf2 _ (k1_off3_eq g) _ _ (k1_off23_eq g) _ _ _ _ _) ?_
  refine good_step d L g.val 18 _ f8 _ _ (k1_off22_eq g) _ _ (piece_val d L g.val 18 g.isLt (by decide) f0 f1 f2 f5 f6 f7 hf2 _ (k1_off3_eq g) _ _ (k1_off22_eq g) _ _ _ _ _) ?_
  refine good_step d L g.val 17 _ f8 _ _ (k1_off21_eq g) _ _ (piece_val d L g.val 17 g.isLt (by decide) f0 f1 f2 f5 f6 f7 hf2 _ (k1_off3_eq g) _ _ (k1_off21_eq g) _ _ _ _ _) ?_
  refine good_step d L g.val 16 _ f8 _ _ (k1_off20_eq g) _ _ (piece_val d L g.val 16 g.isLt (by decide) f0 f1 f2 f5 f6 f7 hf2 _ (k1_off3_eq g) _ _ (k1_off20_eq g) _ _ _ _ _) ?_
  refine good_step d L g.val 15 _ f8 _ _ (k1_off19_eq g) _ _ (piece_val d L g.val 15 g.isLt (by decide) f0 f1 f2 f5 f6 f7 hf2 _ (k1_off3_eq g) _ _ (k1_off19_eq g) _ _ _ _ _) ?_
  refine good_step d L g.val 14 _ f8 _ _ (k1_off18_eq g) _ _ (piece_val d L g.val 14 g.isLt (by decide) f0 f1 f2 f5 f6 f7 hf2 _ (k1_off3_eq g) _ _ (k1_off18_eq g) _ _ _ _ _) ?_
  refine good_step d L g.val 13 _ f8 _ _ (k1_off17_eq g) _ _ (piece_val d L g.val 13 g.isLt (by decide) f0 f1 f2 f5 f6 f7 hf2 _ (k1_off3_eq g) _ _ (k1_off17_eq g) _ _ _ _ _) ?_
  refine good_step d L g.val 12 _ f8 _ _ (k1_off16_eq g) _ _ (piece_val d L g.val 12 g.isLt (by decide) f0 f1 f2 f5 f6 f7 hf2 _ (k1_off3_eq g) _ _ (k1_off16_eq g) _ _ _ _ _) ?_
  refine good_step d L g.val 11 _ f8 _ _ (k1_off15_eq g) _ _ (piece_val d L g.val 11 g.isLt (by decide) f0 f1 f2 f5 f6 f7 hf2 _ (k1_off3_eq g) _ _ (k1_off15_eq g) _ _ _ _ _) ?_
  refine good_step d L g.val 10 _ f8 _ _ (k1_off14_eq g) _ _ (piece_val d L g.val 10 g.isLt (by decide) f0 f1 f2 f5 f6 f7 hf2 _ (k1_off3_eq g) _ _ (k1_off14_eq g) _ _ _ _ _) ?_
  refine good_step d L g.val 9 _ f8 _ _ (k1_off13_eq g) _ _ (piece_val d L g.val 9 g.isLt (by decide) f0 f1 f2 f5 f6 f7 hf2 _ (k1_off3_eq g) _ _ (k1_off13_eq g) _ _ _ _ _) ?_
  refine good_step d L g.val 8 _ f8 _ _ (k1_off12_eq g) _ _ (piece_val d L g.val 8 g.isLt (by decide) f0 f1 f2 f5 f6 f7 hf2 _ (k1_off3_eq g) _ _ (k1_off12_eq g) _ _ _ _ _) ?_
  refine good_step d L g.val 7 _ f8 _ _ (k1_off11_eq g) _ _ (piece_val d L g.val 7 g.isLt (by decide) f0 f1 f2 f5 f6 f7 hf2 _ (k1_off3_eq g) _ _ (k1_off11_eq g) _ _ _ _ _) ?_
  refine good_step d L g.val 6 _ f8 _ _ (k1_off10_eq g) _ _ (piece_val d L g.val 6 g.isLt (by decide) f0 f1 f2 f5 f6 f7 hf2 _ (k1_off3_eq g) _ _ (k1_off10_eq g) _ _ _ _ _) ?_
  refine good_step d L g.val 5 _ f8 _ _ (k1_off9_eq g) _ _ (piece_val d L g.val 5 g.isLt (by decide) f0 f1 f2 f5 f6 f7 hf2 _ (k1_off3_eq g) _ _ (k1_off9_eq g) _ _ _ _ _) ?_
  refine good_step d L g.val 4 _ f8 _ _ (k1_off8_eq g) _ _ (piece_val d L g.val 4 g.isLt (by decide) f0 f1 f2 f5 f6 f7 hf2 _ (k1_off3_eq g) _ _ (k1_off8_eq g) _ _ _ _ _) ?_
  refine good_step d L g.val 3 _ f8 _ _ (k1_off7_eq g) _ _ (piece_val d L g.val 3 g.isLt (by decide) f0 f1 f2 f5 f6 f7 hf2 _ (k1_off3_eq g) _ _ (k1_off7_eq g) _ _ _ _ _) ?_
  refine good_step d L g.val 2 _ f8 _ _ (k1_off6_eq g) _ _ (piece_val d L g.val 2 g.isLt (by decide) f0 f1 f2 f5 f6 f7 hf2 _ (k1_off3_eq g) _ _ (k1_off6_eq g) _ _ _ _ _) ?_
  refine good_step d L g.val 1 _ f8 _ _ (k1_off5_eq g) _ _ (piece_val d L g.val 1 g.isLt (by decide) f0 f1 f2 f5 f6 f7 hf2 _ (k1_off3_eq g) _ _ (k1_off5_eq g) _ _ _ _ _) ?_
  refine good_step d L g.val 0 _ f8 _ _ (k1_off4_eq g) _ _ (piece_val d L g.val 0 g.isLt (by decide) f0 f1 f2 f5 f6 f7 hf2 _ (k1_off3_eq g) _ _ (k1_off4_eq g) _ _ _ _ _) ?_
  exact good_base d L g.val _ f8

end Cert.KernelIdeal.Hand
end
-- ==== Proof.KI.TileP0.lean ====
/-
  What the copies and the row gathers of a pass leave, and the two loops' invariants.

  A pass at window p of worker w copies entries [512 w + 256 p, 512 w + 256 p + 256) of the three batch index lists
  into the three scratch lists: entry k of a scratch list is entry 512 w + 256 p + k of the batch's list.  A row gather
  at a list of packed row numbers fills row k of a 256 x 128 block with the packed table's row at the k-th number; when
  that number is the packed row number of the k-th head (or tail), row k is the packed row holding that table row.
  The first loop's invariant: the first 16 k packed row numbers are those of the first 16 k heads and tails.  The second
  loop's: the staging block holds the pass's value on its first 16 k columns.
-/
import proofs.«202666_g58660663329007_cont_9to1_m_1270_26_alg».proof.Proof.KI.TileA
import Idealize.ShloMosaic.Lib.Tactic
import Idealize.ShloMosaic.Lib.Writes
import Idealize.ShloMosaic.Lib.Pipeline.Value
import proofs.«202666_g58660663329007_cont_9to1_m_1270_26_alg».proof.Proof.KI.TileW
import proofs.«202666_g58660663329007_cont_9to1_m_1270_26_alg».proof.Proof.KI.TileG
import proofs.«202666_g58660663329007_cont_9to1_m_1270_26_alg».proof.Proof.KI.TileC
import proofs.«202666_g58660663329007_cont_9to1_m_1270_26_alg».proof.Proof.Gen.KernelIdeal.Skeleton

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Spec

variable {F : FTy → Type} [FloatOps F]

local notation "𝕄" => MT nD τ sig (HIx 1) (Elt F) ℕ UU ℕ

open Idealize.ShloMosaic.Tactic

/-! ## What the local copies and the row gathers leave, and the two loops' invariants (shared by the two passes) -/

/-- The index list a pass copies in is the batch's list at the worker's window. -/
theorem win_val_0 (d : Dev nD) (L : grid1.Coords) (p : Fin 2) (src : Buf (Elt F) (hLoc d)) (b : Buf (Elt F) ((Memref.whole cc1_scratch0).view.loc (thrL d L))) (k : Fin 256) :
    (View.write (Elt F) (Memref.whole cc1_scratch0).view b
        (ReadAs.same.apply (View.read (Elt F) ((Memref.whole main_arg2_scv).slice (Rect.unit (s := S16384) (k1_off1 L (BitVec.ofNat 32 (256 * p.val))) S256.size (k1_off1_inb L p)) (fun _ => rfl)).view src))
        Finset.univ) (ValueIdx.ix1 k)
      = src (ValueIdx.ix1 (ixMod 16384 ((512 * (widL L).val + 256 * p.val) + k.val))) := by
  have hw : (widL L).val = 2 * (L 1).val + (L 0).val := rfl
  have hL0 : (L 0).val < 2 := (L 0).isLt
  have hL1 : (L 1).val < 16 := (L 1).isLt
  have hp : p.val < 2 := p.isLt
  have hk : k.val < 256 := k.isLt
  have hoff : k1_off1 L (BitVec.ofNat 32 (256 * p.val)) 0 = 1024 * (L 1).val + 512 * (L 0).val + 256 * p.val := by
    rw [k1_off1_eq L p]; rfl
  refine (congrFun (View.write_whole_univ cc1_scratch0 b _) (ValueIdx.ix1 k)).trans ?_
  show src _ = _
  refine congrArg src ?_
  funext a
  match a with
  | ⟨0, _⟩ =>
    refine Fin.ext ?_
    show k1_off1 L (BitVec.ofNat 32 (256 * p.val)) 0 + 1 * k.val = ((512 * (widL L).val + 256 * p.val) + k.val) % 16384
    rw [Nat.mod_eq_of_lt (by omega)]; omega

/-- The index list a pass copies in is the batch's list at the worker's window. -/
theorem win_val_1 (d : Dev nD) (L : grid1.Coords) (p : Fin 2) (src : Buf (Elt F) (tLoc d)) (b : Buf (Elt F) ((Memref.whole cc1_scratch1).view.loc (thrL d L))) (k : Fin 256) :
    (View.write (Elt F) (Memref.whole cc1_scratch1).view b
        (ReadAs.same.apply (View.read (Elt F) ((Memref.whole main_arg3_scv).slice (Rect.unit (s := S16384) (k1_off1 L (BitVec.ofNat 32 (256 * p.val))) S256.size (k1_off1_inb L p)) (fun _ => rfl)).view src))
        Finset.univ) (ValueIdx.ix1 k)
      = src (ValueIdx.ix1 (ixMod 16384 ((512 * (widL L).val + 256 * p.val) + k.val))) := by
  have hw : (widL L).val = 2 * (L 1).val + (L 0).val := rfl
  have hL0 : (L 0).val < 2 := (L 0).isLt
  have hL1 : (L 1).val < 16 := (L 1).isLt
  have hp : p.val < 2 := p.isLt
  have hk : k.val < 256 := k.isLt
  have hoff : k1_off1 L (BitVec.ofNat 32 (256 * p.val)) 0 = 1024 * (L 1).val + 512 * (L 0).val + 256 * p.val := by
    rw [k1_off1_eq L p]; rfl
  refine (congrFun (View.write_whole_univ cc1_scratch1 b _) (ValueIdx.ix1 k)).trans ?_
  show src _ = _
  refine congrArg src ?_
  funext a
  match a with
  | ⟨0, _⟩ =>
    refine Fin.ext ?_
    show k1_off1 L (BitVec.ofNat 32 (256 * p.val)) 0 + 1 * k.val = ((512 * (widL L).val + 256 * p.val) + k.val) % 16384
    rw [Nat.mod_eq_of_lt (by omega)]; omega

/-- The index list a pass copies in is the batch's list at the worker's window. -/
theorem win_val_2 (d : Dev nD) (L : grid1.Coords) (p : Fin 2) (src : Buf (Elt F) (rLoc d)) (b : Buf (Elt F) ((Memref.whole cc1_scratch2).view.loc (thrL d L))) (k : Fin 256) :
    (View.write (Elt F) (Memref.whole cc1_scratch2).view b
        (ReadAs.same.apply (View.read (Elt F) ((Memref.whole main_arg4_scv).slice (Rect.unit (s := S16384) (k1_off1 L (BitVec.ofNat 32 (256 * p.val))) S256.size (k1_off1_inb L p)) (fun _ => rfl)).view src))
        Finset.univ) (ValueIdx.ix1 k)
      = src (ValueIdx.ix1 (ixMod 16384 ((512 * (widL L).val + 256 * p.val) + k.val))) := by
  have hw : (widL L).val = 2 * (L 1).val + (L 0).val := rfl
  have hL0 : (L 0).val < 2 := (L 0).isLt
  have hL1 : (L 1).val < 16 := (L 1).isLt
  have hp : p.val < 2 := p.isLt
  have hk : k.val < 256 := k.isLt
  have hoff : k1_off1 L (BitVec.ofNat 32 (256 * p.val)) 0 = 1024 * (L 1).val + 512 * (L 0).val + 256 * p.val := by
    rw [k1_off1_eq L p]; rfl
  refine (congrFun (View.write_whole_univ cc1_scratch2 b _) (ValueIdx.ix1 k)).trans ?_
  show src _ = _
  refine congrArg src ?_
  funext a
  match a with
  | ⟨0, _⟩ =>
    refine Fin.ext ?_
    show k1_off1 L (BitVec.ofNat 32 (256 * p.val)) 0 + 1 * k.val = ((512 * (widL L).val + 256 * p.val) + k.val) % 16384
    rw [Nat.mod_eq_of_lt (by omega)]; omega

/-- What a row gather leaves: row k of the block is the packed table's row at the k-th packed row number. -/
theorem gather_val_5 (d : Dev nD) (L : grid1.Coords) (X : Buf (Elt F) (x2Loc d)) (b : Buf (Elt F) ((Memref.whole cc1_scratch5).view.loc (thrL d L))) (fl : Buf (Elt F) ((Memref.whole cc1_scratch0).view.loc (thrL d L))) (fi : Buf (Elt F) ((Memref.whole cc1_scratch3).view.loc (thrL d L)))
    (hn : S256.numel = S256x128.size gathers_S500000x128_S256x128.axis')
    (hin : ∀ x, (View.read (Elt F) (Memref.whole cc1_scratch3).view fi x).toNat < S500000x128.size gathers_S500000x128_S256x128.axis)
    (hP : ∀ j : S256.Idx, (fi j).toNat = physRow (fl j).toNat) (hfl : ∀ j : S256.Idx, (fl j).toNat < 1000000)
    (k : Fin 256) (c : Fin 128) :
    ((Memref.whole cc1_scratch5).view.writes (Elt F) b
        [⟨Rect.whole cc1_scratch5.ty.shape, SparseCore.gatherPayload gathers_S500000x128_S256x128
            (View.read (Elt F) ((Memref.whole main_v1_scv).slice (Rect.unit (s := S500000x128) ![0, 0] S500000x128.size inb_S500000x128_S500000x128_0_0) (fun _ => rfl)).view X)
            (SparseCore.rows (View.read (Elt F) (Memref.whole cc1_scratch3).view fi) hn hin)⟩]) (ValueIdx.ix2 k c)
      = X (ValueIdx.ix2 (ixMod 500000 (physRow (fl (ValueIdx.ix1 k)).toNat)) c) := by
  have e := View.read_writes_cons_emb (Memref.whole cc1_scratch5).view b (Rect.whole cc1_scratch5.ty.shape)
    (SparseCore.gatherPayload gathers_S500000x128_S256x128 (View.read (Elt F) ((Memref.whole main_v1_scv).slice (Rect.unit (s := S500000x128) ![0, 0] S500000x128.size inb_S500000x128_S500000x128_0_0) (fun _ => rfl)).view X)
      (SparseCore.rows (View.read (Elt F) (Memref.whole cc1_scratch3).view fi) hn hin)) [] (ValueIdx.ix2 k c)
  rw [Rect.emb_whole_apply] at e
  refine e.trans ?_
  unfold SparseCore.gatherPayload
  show X _ = _
  refine congrArg X ?_
  have hrow : ∀ (hx : S256x128.size gathers_S500000x128_S256x128.axis' = S256.numel),
      S256.rowMajor.symm (Fin.cast hx (ValueIdx.ix2 k c gathers_S500000x128_S256x128.axis')) = ValueIdx.ix1 k := by
    intro hx
    rw [Equiv.symm_apply_eq]
    refine Fin.ext ?_
    rw [Shape.rowMajor_val_one]; rfl
  funext a
  match a with
  | ⟨0, _⟩ =>
    refine Fin.ext ?_
    show 0 + 1 * (fi (S256.rowMajor.symm _)).toNat = (physRow (fl (ValueIdx.ix1 k)).toNat) % 500000
    rw [Nat.mod_eq_of_lt (physRow_lt (hfl _))]
    have := hP (ValueIdx.ix1 k)
    rw [hrow _, this]; omega
  | ⟨1, _⟩ =>
    refine Fin.ext ?_
    show 0 + 1 * c.val = c.val
    omega

/-- What a row gather leaves: row k of the block is the packed table's row at the k-th packed row number. -/
theorem gather_val_6 (d : Dev nD) (L : grid1.Coords) (X : Buf (Elt F) (x2Loc d)) (b : Buf (Elt F) ((Memref.whole cc1_scratch6).view.loc (thrL d L))) (fl : Buf (Elt F) ((Memref.whole cc1_scratch1).view.loc (thrL d L))) (fi : Buf (Elt F) ((Memref.whole cc1_scratch4).view.loc (thrL d L)))
    (hn : S256.numel = S256x128.size gathers_S500000x128_S256x128.axis')
    (hin : ∀ x, (View.read (Elt F) (Memref.whole cc1_scratch4).view fi x).toNat < S500000x128.size gathers_S500000x128_S256x128.axis)
    (hP : ∀ j : S256.Idx, (fi j).toNat = physRow (fl j).toNat) (hfl : ∀ j : S256.Idx, (fl j).toNat < 1000000)
    (k : Fin 256) (c : Fin 128) :
    ((Memref.whole cc1_scratch6).view.writes (Elt F) b
        [⟨Rect.whole cc1_scratch6.ty.shape, SparseCore.gatherPayload gathers_S500000x128_S256x128
            (View.read (Elt F) ((Memref.whole main_v1_scv).slice (Rect.unit (s := S500000x128) ![0, 0] S500000x128.size inb_S500000x128_S500000x128_0_0) (fun _ => rfl)).view X)
            (SparseCore.rows (View.read (Elt F) (Memref.whole cc1_scratch4).view fi) hn hin)⟩]) (ValueIdx.ix2 k c)
      = X (ValueIdx.ix2 (ixMod 500000 (physRow (fl (ValueIdx.ix1 k)).toNat)) c) := by
  have e := View.read_writes_cons_emb (Memref.whole cc1_scratch6).view b (Rect.whole cc1_scratch6.ty.shape)
    (SparseCore.gatherPayload gathers_S500000x128_S256x128 (View.read (Elt F) ((Memref.whole main_v1_scv).slice (Rect.unit (s := S500000x128) ![0, 0] S500000x128.size inb_S500000x128_S500000x128_0_0) (fun _ => rfl)).view X)
      (SparseCore.rows (View.read (Elt F) (Memref.whole cc1_scratch4).view fi) hn hin)) [] (ValueIdx.ix2 k c)
  rw [Rect.emb_whole_apply] at e
  refine e.trans ?_
  unfold SparseCore.gatherPayload
  show X _ = _
  refine congrArg X ?_
  have hrow : ∀ (hx : S256x128.size gathers_S500000x128_S256x128.axis' = S256.numel),
      S256.rowMajor.symm (Fin.cast hx (ValueIdx.ix2 k c gathers_S500000x128_S256x128.axis')) = ValueIdx.ix1 k := by
    intro hx
    rw [Equiv.symm_apply_eq]
    refine Fin.ext ?_
    rw [Shape.rowMajor_val_one]; rfl
  funext a
  match a with
  | ⟨0, _⟩ =>
    refine Fin.ext ?_
    show 0 + 1 * (fi (S256.rowMajor.symm _)).toNat = (physRow (fl (ValueIdx.ix1 k)).toNat) % 500000
    rw [Nat.mod_eq_of_lt (physRow_lt (hfl _))]
    have := hP (ValueIdx.ix1 k)
    rw [hrow _, this]; omega
  | ⟨1, _⟩ =>
    refine Fin.ext ?_
    show 0 + 1 * c.val = c.val
    omega

/-- The invariant of the loop that computes packed row numbers (pass at batch offset `off`). -/
def inv1 (d : Dev nD) (L : grid1.Coords) (f0 : Buf (Elt F) ((Memref.whole cc1_scratch0).view.loc (thrL d L))) (f1 : Buf (Elt F) ((Memref.whole cc1_scratch1).view.loc (thrL d L))) (k : Nat) (_ : PUnit) : sProp 𝕄 :=
  iprop(((Memref.whole cc1_scratch0).view.loc (thrL d L) ↦{fullShare} f0) ∗ ((Memref.whole cc1_scratch1).view.loc (thrL d L) ↦{fullShare} f1)
    ∗ ∃ f3 f4, ((Memref.whole cc1_scratch3).view.loc (thrL d L) ↦{fullShare} f3) ∗ ((Memref.whole cc1_scratch4).view.loc (thrL d L) ↦{fullShare} f4) ∗ ⌜∀ j : S256.Idx, (j 0).val < 16 * k → (f3 j).toNat = physRow (f0 j).toNat ∧ (f4 j).toNat = physRow (f1 j).toNat⌝)

/-- The invariant of the scoring loop: the lists and gathered blocks stay, the staging block holds the pass's value up to
    column 16 k. -/
def inv2 (d : Dev nD) (L : grid1.Coords) (f0 : Buf (Elt F) ((Memref.whole cc1_scratch0).view.loc (thrL d L))) (f1 : Buf (Elt F) ((Memref.whole cc1_scratch1).view.loc (thrL d L))) (f2 : Buf (Elt F) ((Memref.whole cc1_scratch2).view.loc (thrL d L))) (f5 : Buf (Elt F) ((Memref.whole cc1_scratch5).view.loc (thrL d L))) (f6 : Buf (Elt F) ((Memref.whole cc1_scratch6).view.loc (thrL d L))) (f7 : Buf (Elt F) ((Memref.whole cc1_scratch7).view.loc (thrL d L))) (k : Nat) (_ : PUnit) : sProp 𝕄 :=
  iprop(((Memref.whole cc1_scratch0).view.loc (thrL d L) ↦{fullShare} f0) ∗ ((Memref.whole cc1_scratch1).view.loc (thrL d L) ↦{fullShare} f1) ∗ ((Memref.whole cc1_scratch2).view.loc (thrL d L) ↦{fullShare} f2) ∗ ((Memref.whole cc1_scratch5).view.loc (thrL d L) ↦{fullShare} f5) ∗ ((Memref.whole cc1_scratch6).view.loc (thrL d L) ↦{fullShare} f6) ∗ ((Memref.whole cc1_scratch7).view.loc (thrL d L) ↦{fullShare} f7)
    ∗ ∃ f8, ((Memref.whole cc1_scratch8).view.loc (thrL d L) ↦{fullShare} f8) ∗ ⌜∀ y : S64x256.Idx, (y 1).val < 16 * k → f8 y = grpT (f3 (F := F)) f0 f1 f2 f5 f6 f7 y⌝)

end Cert.KernelIdeal.Hand
end
-- ==== Proof.KI.TileP1.lean ====
/-
  The first pass of a worker.

  The small packed table is copied whole into scratch; the worker's first window of the three index lists is copied
  in; sixteen trips compute the 256 packed row numbers of the heads and of the tails, all below 500000 because the
  indices are below 1000000; the two blocks of packed rows are gathered at once, each gather reading the packed table
  under half of the worker's read share; sixteen trips fill the staging block.  At the end the block's entry (d, b) is
  |head + relation - tail| at lane d of batch entry 512 w + b, which is the score's entry (d, 512 w + b): the lane
  offsets and packed rows computed from the words are the layout functions of the specification.
-/
import proofs.«202666_g58660663329007_cont_9to1_m_1270_26_alg».proof.Proof.KI.TileA
import Idealize.ShloMosaic.Lib.Tactic
import Idealize.ShloMosaic.Lib.Writes
import Idealize.ShloMosaic.Lib.Pipeline.Value
import proofs.«202666_g58660663329007_cont_9to1_m_1270_26_alg».proof.Proof.KI.TileW
import proofs.«202666_g58660663329007_cont_9to1_m_1270_26_alg».proof.Proof.KI.TileG
import proofs.«202666_g58660663329007_cont_9to1_m_1270_26_alg».proof.Proof.KI.TileC
import proofs.«202666_g58660663329007_cont_9to1_m_1270_26_alg».proof.Proof.Gen.KernelIdeal.Skeleton
import proofs.«202666_g58660663329007_cont_9to1_m_1270_26_alg».proof.Proof.KI.TileT1
import proofs.«202666_g58660663329007_cont_9to1_m_1270_26_alg».proof.Proof.KI.TileT2
import proofs.«202666_g58660663329007_cont_9to1_m_1270_26_alg».proof.Proof.KI.TileP0

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Spec

variable {F : FTy → Type} [FloatOps F]

local notation "𝕄" => MT nD τ sig (HIx 1) (Elt F) ℕ UU ℕ

open Idealize.ShloMosaic.Tactic

set_option maxHeartbeats 4000000 in
/-- The first pass of a worker (the kernel's first part): the small table and the worker's first window of the three
    index lists are copied in, the packed row numbers computed, the heads' and tails' packed rows gathered, and the
    staging block filled with the score of the window's 256 batch entries. -/
theorem pass1 (d : Dev nD) (L : grid1.Coords)
    (X : Buf (Elt F) (x2Loc d)) (R2 : Buf (Elt F) (r2Loc d)) (h : Buf (Elt F) (hLoc d)) (t : Buf (Elt F) (tLoc d)) (r : Buf (Elt F) (rLoc d))
    (hh : ∀ j, (h j).toNat < 1000000) (ht : ∀ j, (t j).toNat < 1000000) (hr : ∀ j, (r j).toNat < 100)
    (O : CellTallies nD τ sig (HIx 1)) (W : Waits sig (HIx 1))
    (b0 : Buf (Elt F) ((Memref.whole cc1_scratch0).view.loc (thrL d L))) (b1 : Buf (Elt F) ((Memref.whole cc1_scratch1).view.loc (thrL d L))) (b2 : Buf (Elt F) ((Memref.whole cc1_scratch2).view.loc (thrL d L))) (b3 : Buf (Elt F) ((Memref.whole cc1_scratch3).view.loc (thrL d L))) (b4 : Buf (Elt F) ((Memref.whole cc1_scratch4).view.loc (thrL d L))) (b5 : Buf (Elt F) ((Memref.whole cc1_scratch5).view.loc (thrL d L))) (b6 : Buf (Elt F) ((Memref.whole cc1_scratch6).view.loc (thrL d L))) (b7 : Buf (Elt F) ((Memref.whole cc1_scratch7).view.loc (thrL d L))) (b8 : Buf (Elt F) ((Memref.whole cc1_scratch8).view.loc (thrL d L))) :
    (iprop(Transfers.MayWaits (thrL d L) (none : HIx 1) O ∗ ((Memref.whole main_v1_scv).view.loc (thrL d L) ↦{tok (widL L)} X) ∗ ((Memref.whole main_v2_scv).view.loc (thrL d L) ↦{tok (widL L)} R2)
        ∗ ((Memref.whole main_arg2_scv).view.loc (thrL d L) ↦{tok (widL L)} h) ∗ ((Memref.whole main_arg3_scv).view.loc (thrL d L) ↦{tok (widL L)} t)
        ∗ ((Memref.whole main_arg4_scv).view.loc (thrL d L) ↦{tok (widL L)} r)
        ∗ ((Memref.whole cc1_scratch0).view.loc (thrL d L) ↦{fullShare} b0) ∗ ((Memref.whole cc1_scratch1).view.loc (thrL d L) ↦{fullShare} b1) ∗ ((Memref.whole cc1_scratch2).view.loc (thrL d L) ↦{fullShare} b2) ∗ ((Memref.whole cc1_scratch3).view.loc (thrL d L) ↦{fullShare} b3) ∗ ((Memref.whole cc1_scratch4).view.loc (thrL d L) ↦{fullShare} b4) ∗ ((Memref.whole cc1_scratch5).view.loc (thrL d L) ↦{fullShare} b5) ∗ ((Memref.whole cc1_scratch6).view.loc (thrL d L) ↦{fullShare} b6) ∗ ((Memref.whole cc1_scratch7).view.loc (thrL d L) ↦{fullShare} b7) ∗ ((Memref.whole cc1_scratch8).view.loc (thrL d L) ↦{fullShare} b8)
        ∗ semVal (cellV d L cc1_scratch9) 0 ∗ semVal (cellV d L cc1_scratch10) 0 ∗ semVal (cellV d L cc1_scoped0) 0 ∗ semVal (cellV d L cc1_scoped1) 0 ∗ semVal (cellV d L cc1_scoped2) 0 ∗ semVal (cellV d L cc1_scoped3) 0
        ∗ owes (thrL d L) O W) : sProp 𝕄)
      ⊢ wp frame (wpE (defs₀ (F := F)) 𝒱₀ (thrL d L) none) Set.univ
          (k1_part53 L (Memref.whole main_v1_scv) (Memref.isWhole_whole _) (Memref.whole main_v2_scv) (Memref.isWhole_whole _)
            (Memref.whole main_arg2_scv) (Memref.isWhole_whole _) (Memref.whole main_arg3_scv) (Memref.isWhole_whole _)
            (Memref.whole main_arg4_scv) (Memref.isWhole_whole _) (Memref.whole main_v3_scv) (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _) (Memref.whole cc1_scratch5) (Memref.isWhole_whole _)
            (Memref.whole cc1_scratch6) (Memref.isWhole_whole _) (Memref.whole cc1_scratch7) (Memref.isWhole_whole _)
            (Memref.whole cc1_scratch8) (Memref.isWhole_whole _) cc1_scratch9 cc1_scratch10
            cc1_scoped0 cc1_scoped1 cc1_scoped2 cc1_scoped3 cc1_scoped4 cc1_scoped5 cc1_scoped6 cc1_scoped7 cc1_scoped8)
          fun a => iprop(⌜a.2 = (iota .scVector S16 32 [0] iota_S16_d0_w32_scVector)⌝ ∗ ((Memref.whole main_v1_scv).view.loc (thrL d L) ↦{tok (widL L)} X) ∗ ((Memref.whole main_v2_scv).view.loc (thrL d L) ↦{tok (widL L)} R2)
        ∗ ((Memref.whole main_arg2_scv).view.loc (thrL d L) ↦{tok (widL L)} h) ∗ ((Memref.whole main_arg3_scv).view.loc (thrL d L) ↦{tok (widL L)} t)
        ∗ ((Memref.whole main_arg4_scv).view.loc (thrL d L) ↦{tok (widL L)} r)
            ∗ (∃ f, ((Memref.whole cc1_scratch0).view.loc (thrL d L) ↦{fullShare} f)) ∗ (∃ f, ((Memref.whole cc1_scratch1).view.loc (thrL d L) ↦{fullShare} f)) ∗ (∃ f, ((Memref.whole cc1_scratch2).view.loc (thrL d L) ↦{fullShare} f)) ∗ (∃ f, ((Memref.whole cc1_scratch3).view.loc (thrL d L) ↦{fullShare} f)) ∗ (∃ f, ((Memref.whole cc1_scratch4).view.loc (thrL d L) ↦{fullShare} f)) ∗ (∃ f, ((Memref.whole cc1_scratch5).view.loc (thrL d L) ↦{fullShare} f)) ∗ (∃ f, ((Memref.whole cc1_scratch6).view.loc (thrL d L) ↦{fullShare} f))
            ∗ (∃ f7, ((Memref.whole cc1_scratch7).view.loc (thrL d L) ↦{fullShare} f7) ∗ ⌜∀ j, f7 j = R2 j⌝)
            ∗ (∃ f8, ((Memref.whole cc1_scratch8).view.loc (thrL d L) ↦{fullShare} f8) ∗ ⌜∀ y : S64x256.Idx, f8 y = scoreOf d X R2 h t r (ValueIdx.ix2 (y 0) (ixMod 16384 (512 * (widL L).val + 256 * (0 : Fin 2).val + (y 1).val)))⌝)
            ∗ semVal (cellV d L cc1_scratch9) 0 ∗ semVal (cellV d L cc1_scratch10) 0 ∗ semVal (cellV d L cc1_scoped0) 0 ∗ semVal (cellV d L cc1_scoped1) 0 ∗ semVal (cellV d L cc1_scoped2) 0 ∗ semVal (cellV d L cc1_scoped3) 0
            ∗ ∃ W', ⌜∀ p ∈ W', p ∈ W ∨ p.2 = none⌝ ∗ owes (thrL d L) O W') := by
  rw [k1_part53_eq_skeleton]; unfold k1_part53_skel
  iintro ⟨#Hmw, HX, HR2, Hh, Ht, Hr, Hb0, Hb1, Hb2, Hb3, Hb4, Hb5, Hb6, Hb7, Hb8, Hs9, Hs10, Hc0, Hc1, Hc2, Hc3, HO⟩
  sl_exec
  -- the index lists copied in are the batch's lists at the worker's first window; the small table is copied whole
  have hA0 : ∀ k : Fin 256, (View.write (Elt F) (Memref.whole cc1_scratch0).view b0 (pass1.sl.dma0_1 d L h) Finset.univ) (ValueIdx.ix1 k) = h (ValueIdx.ix1 (ixMod 16384 (512 * (widL L).val + 256 * (0 : Fin 2).val + k.val))) :=
    fun k => win_val_0 d L 0 h b0 k
  have hA1 : ∀ k : Fin 256, (View.write (Elt F) (Memref.whole cc1_scratch1).view b1 (pass1.sl.dma0_2 d L t) Finset.univ) (ValueIdx.ix1 k) = t (ValueIdx.ix1 (ixMod 16384 (512 * (widL L).val + 256 * (0 : Fin 2).val + k.val))) :=
    fun k => win_val_1 d L 0 t b1 k
  have hA2 : ∀ k : Fin 256, (View.write (Elt F) (Memref.whole cc1_scratch2).view b2 (pass1.sl.dma0_3 d L r) Finset.univ) (ValueIdx.ix1 k) = r (ValueIdx.ix1 (ixMod 16384 (512 * (widL L).val + 256 * (0 : Fin 2).val + k.val))) :=
    fun k => win_val_2 d L 0 r b2 k
  have hA7 : ∀ j, (View.write (Elt F) (Memref.whole cc1_scratch7).view b7 (pass1.sl.dma0 d R2) Finset.univ) j = R2 j :=
    fun j => congrFun (View.write_whole_univ cc1_scratch7 b7 _) j
  generalize hF0 : (View.write (Elt F) (Memref.whole cc1_scratch0).view b0 (pass1.sl.dma0_1 d L h) Finset.univ) = F0 at hA0 ⊢
  generalize hF1 : (View.write (Elt F) (Memref.whole cc1_scratch1).view b1 (pass1.sl.dma0_2 d L t) Finset.univ) = F1 at hA1 ⊢
  generalize hF2 : (View.write (Elt F) (Memref.whole cc1_scratch2).view b2 (pass1.sl.dma0_3 d L r) Finset.univ) = F2 at hA2 ⊢
  generalize hF7 : (View.write (Elt F) (Memref.whole cc1_scratch7).view b7 (pass1.sl.dma0 d R2) Finset.univ) = F7 at hA7 ⊢
  have hB0 : ∀ j : S256.Idx, (F0 j).toNat < 1000000 := fun j =>
    ((congrArg BitVec.toNat ((congrArg F0 (ValueIdx.eq_ix1 j)).trans (hA0 (j 0)))).trans_lt (hh _))
  have hB1 : ∀ j : S256.Idx, (F1 j).toNat < 1000000 := fun j =>
    ((congrArg BitVec.toNat ((congrArg F1 (ValueIdx.eq_ix1 j)).trans (hA1 (j 0)))).trans_lt (ht _))
  have hB2 : ∀ j : S256.Idx, (F2 j).toNat < 100 := fun j =>
    ((congrArg BitVec.toNat ((congrArg F2 (ValueIdx.eq_ix1 j)).trans (hA2 (j 0)))).trans_lt (hr _))
  sl_for (inv1 d L F0 F1) $$ [Hb0 Hb1 Hb3 Hb4]
  case region =>
    intro k _
    unfold inv1
    iintro ⟨H0, H1, %f3, %f4, H3, H4, %hP⟩
    iapply (trip1 d L k F0 F1 f3 f4 hP)
    isplitl [H0]; · iexact H0
    isplitl [H1]; · iexact H1
    isplitl [H3]; · iexact H3
    iexact H4
  · unfold inv1
    isplitl [Hb0]; · iexact Hb0
    isplitl [Hb1]; · iexact Hb1
    iexists _; iexists _
    isplitl [Hb3]; · iexact Hb3
    isplitl [Hb4]; · iexact Hb4
    ipureintro
    intro j hj; omega
  iintro %_ HI
  unfold inv1
  icases HI with ⟨Hb0, Hb1, %f3, %f4, Hb3, Hb4, %hP⟩
  have hP' : ∀ j : S256.Idx, (f3 j).toNat = physRow (F0 j).toNat ∧ (f4 j).toNat = physRow (F1 j).toNat :=
    fun j => hP j (by have : (j 0).val < 256 := (j 0).isLt; show (j 0).val < 16 * 16; omega)
  have hin3 : ∀ x, ((Memref.whole cc1_scratch3).view.read (Elt F) f3 x).toNat < S500000x128.size gathers_S500000x128_S256x128.axis :=
    fun x => by show (f3 x).toNat < 500000; rw [(hP' x).1]; exact physRow_lt (hB0 x)
  have hin4 : ∀ x, ((Memref.whole cc1_scratch4).view.read (Elt F) f4 x).toNat < S500000x128.size gathers_S500000x128_S256x128.axis :=
    fun x => by show (f4 x).toNat < 500000; rw [(hP' x).2]; exact physRow_lt (hB1 x)
  -- the packed table is read by two gathers at once: half the worker's share each
  ihave HX2 := (pointsTo_share (PosShare.mem_left_op_right (tok (widL L)))).1 $$ HX
  icases HX2 with ⟨HXl, HXr⟩
  sl_exec
  have hG5 : ∀ (k : Fin 256) (c : Fin 128), ((Memref.whole cc1_scratch5).view.writes (Elt F) (Memref.whole cc1_scratch5).view.junk [⟨Rect.whole cc1_scratch5.ty.shape, pass1.sl.gather0 d L X f3 hin3⟩]) (ValueIdx.ix2 k c) = X (ValueIdx.ix2 (ixMod 500000 (physRow (F0 (ValueIdx.ix1 k)).toNat)) c) :=
    fun k c => gather_val_5 d L X _ F0 f3 rfl hin3 (fun j => (hP' j).1) hB0 k c
  have hG6 : ∀ (k : Fin 256) (c : Fin 128), ((Memref.whole cc1_scratch6).view.writes (Elt F) (Memref.whole cc1_scratch6).view.junk [⟨Rect.whole cc1_scratch6.ty.shape, pass1.sl.gather1 d L X f4 hin4⟩]) (ValueIdx.ix2 k c) = X (ValueIdx.ix2 (ixMod 500000 (physRow (F1 (ValueIdx.ix1 k)).toNat)) c) :=
    fun k c => gather_val_6 d L X _ F1 f4 rfl hin4 (fun j => (hP' j).2) hB1 k c
  generalize hF5 : ((Memref.whole cc1_scratch5).view.writes (Elt F) (Memref.whole cc1_scratch5).view.junk [⟨Rect.whole cc1_scratch5.ty.shape, pass1.sl.gather0 d L X f3 hin3⟩]) = F5 at hG5 ⊢
  generalize hF6 : ((Memref.whole cc1_scratch6).view.writes (Elt F) (Memref.whole cc1_scratch6).view.junk [⟨Rect.whole cc1_scratch6.ty.shape, pass1.sl.gather1 d L X f4 hin4⟩]) = F6 at hG6 ⊢
  ihave HX := (pointsTo_share (PosShare.mem_left_op_right (tok (widL L)))).2 $$ [HXl HXr]
  · isplitl [HXl]; · iexact HXl
    iexact HXr
  sl_for (inv2 d L F0 F1 F2 F5 F6 F7) $$ [Hb0 Hb1 Hb2 Hb5 Hb6 Hb7 Hb8]
  case region =>
    intro k _
    unfold inv2
    iintro ⟨H0, H1, H2, H5, H6, H7, %f8, H8, %hP8⟩
    iapply (trip2 d L k F0 F1 F2 F5 F6 F7 f8 hB2 hP8)
    isplitl [H0]; · iexact H0
    isplitl [H1]; · iexact H1
    isplitl [H2]; · iexact H2
    isplitl [H5]; · iexact H5
    isplitl [H6]; · iexact H6
    isplitl [H7]; · iexact H7
    iexact H8
  · unfold inv2
    isplitl [Hb0]; · iexact Hb0
    isplitl [Hb1]; · iexact Hb1
    isplitl [Hb2]; · iexact Hb2
    isplitl [Hb5]; · iexact Hb5
    isplitl [Hb6]; · iexact Hb6
    isplitl [Hb7]; · iexact Hb7
    iexists _
    isplitl [Hb8]; · iexact Hb8
    ipureintro
    intro y hy; omega
  iintro %_ HI
  unfold inv2
  icases HI with ⟨Hb0, Hb1, Hb2, Hb5, Hb6, Hb7, %f8, Hb8, %hP8⟩
  have hS : ∀ y : S64x256.Idx, f8 y = scoreOf d X R2 h t r (ValueIdx.ix2 (y 0) (ixMod 16384 (512 * (widL L).val + 256 * (0 : Fin 2).val + (y 1).val))) := fun y =>
    (hP8 y (by have : (y 1).val < 256 := (y 1).isLt; show (y 1).val < 16 * 16; omega)).trans
      (grpT_eq_score (Cert.KernelIdeal.Hand.f3 (F := F)) X R2 h t r (512 * (widL L).val + 256 * (0 : Fin 2).val) F0 F1 F2 F5 F6 F7 hA0 hA1 hA2 hG5 hG6 hA7 y)
  sl_exec
  sl_step
  isplitr; · ipureintro; rfl
  isplitl [HX]; · iexact HX
  isplitl [HR2]; · iexact HR2
  isplitl [Hh]; · iexact Hh
  isplitl [Ht]; · iexact Ht
  isplitl [Hr]; · iexact Hr
  isplitl [Hb0]; · iexists _; iexact Hb0
  isplitl [Hb1]; · iexists _; iexact Hb1
  isplitl [Hb2]; · iexists _; iexact Hb2
  isplitl [Hb3]; · iexists _; iexact Hb3
  isplitl [Hb4]; · iexists _; iexact Hb4
  isplitl [Hb5]; · iexists _; iexact Hb5
  isplitl [Hb6]; · iexists _; iexact Hb6
  isplitl [Hb7]
  · iexists _; isplitl [Hb7]; · iexact Hb7
    ipureintro; exact hA7
  isplitl [Hb8]
  · iexists _; isplitl [Hb8]; · iexact Hb8
    ipureintro; exact hS
  isplitl [Hs9]; · iexact Hs9
  isplitl [Hs10]; · iexact Hs10
  isplitl [Hc0]; · iexact Hc0
  isplitl [Hc1]; · iexact Hc1
  isplitl [Hc2]; · iexact Hc2
  isplitl [Hc3]; · iexact Hc3
  iexists _; isplitr
  rotate_left
  · iexact HO
  · ipureintro
    intro q hq
    simp only [Finset.mem_insert] at hq
    rcases hq with rfl | rfl | rfl | rfl | rfl | rfl | hq
    all_goals first | exact Or.inr rfl | exact Or.inl hq

end Cert.KernelIdeal.Hand
end
-- ==== Proof.KI.TileT3.lean ====
/-
  One trip of the loop that turns table row numbers into packed row numbers (second pass).

  The same step as in the first pass, on the second window of the index lists: sixteen more entries of the two lists of
  packed row numbers become 8 (v / 16) + v % 8 of the sixteen heads and tails read; entries outside the trip's window
  keep what they held.
-/
import proofs.«202666_g58660663329007_cont_9to1_m_1270_26_alg».proof.Proof.KI.TileA
import Idealize.ShloMosaic.Lib.Tactic
import Idealize.ShloMosaic.Lib.Writes
import proofs.«202666_g58660663329007_cont_9to1_m_1270_26_alg».proof.Proof.KI.TileW
import proofs.«202666_g58660663329007_cont_9to1_m_1270_26_alg».proof.Proof.KI.TileG
import proofs.«202666_g58660663329007_cont_9to1_m_1270_26_alg».proof.Proof.Gen.KernelIdeal.Skeleton

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Spec

variable {F : FTy → Type} [FloatOps F]

local notation "𝕄" => MT nD τ sig (HIx 1) (Elt F) ℕ UU ℕ

open Idealize.ShloMosaic.Tactic

/-- One trip of the loop that turns table row numbers into packed row numbers: sixteen more entries of the two lists of
    packed row numbers are the packed rows of the sixteen heads and tails read. -/
theorem trip3 (d : Dev nD) (L : grid1.Coords) (v2 : BitVec 32) (v3 : IVec S16 32) (k : Fin k1_t3_loop.trips)
    (f0 : Buf (Elt F) ((Memref.whole cc1_scratch0).view.loc (thrL d L))) (f1 : Buf (Elt F) ((Memref.whole cc1_scratch1).view.loc (thrL d L))) (f3 : Buf (Elt F) ((Memref.whole cc1_scratch3).view.loc (thrL d L))) (f4 : Buf (Elt F) ((Memref.whole cc1_scratch4).view.loc (thrL d L)))
    (hP : ∀ j : S256.Idx, (j 0).val < 16 * k.val → (f3 j).toNat = physRow (f0 j).toNat ∧ (f4 j).toNat = physRow (f1 j).toNat) :
    (iprop(((Memref.whole cc1_scratch0).view.loc (thrL d L) ↦{fullShare} f0) ∗ ((Memref.whole cc1_scratch1).view.loc (thrL d L) ↦{fullShare} f1) ∗ ((Memref.whole cc1_scratch3).view.loc (thrL d L) ↦{fullShare} f3) ∗ ((Memref.whole cc1_scratch4).view.loc (thrL d L) ↦{fullShare} f4)) : sProp 𝕄)
      ⊢ wp frame (wpE (defs₀ (F := F)) 𝒱₀ (thrL d L) none) Set.univ
          (k1_t3_body L (Memref.whole main_v1_scv) (Memref.isWhole_whole _) (Memref.whole main_v2_scv) (Memref.isWhole_whole _)
            (Memref.whole main_arg2_scv) (Memref.isWhole_whole _) (Memref.whole main_arg3_scv) (Memref.isWhole_whole _)
            (Memref.whole main_arg4_scv) (Memref.isWhole_whole _) (Memref.whole main_v3_scv) (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _) (Memref.whole cc1_scratch5) (Memref.isWhole_whole _)
            (Memref.whole cc1_scratch6) (Memref.isWhole_whole _) (Memref.whole cc1_scratch7) (Memref.isWhole_whole _)
            (Memref.whole cc1_scratch8) (Memref.isWhole_whole _) cc1_scratch9 cc1_scratch10
            cc1_scoped0 cc1_scoped1 cc1_scoped2 cc1_scoped3 cc1_scoped4 cc1_scoped5 cc1_scoped6 cc1_scoped7 cc1_scoped8 v2 v3 k ())
          fun _ => iprop(((Memref.whole cc1_scratch0).view.loc (thrL d L) ↦{fullShare} f0) ∗ ((Memref.whole cc1_scratch1).view.loc (thrL d L) ↦{fullShare} f1)
            ∗ ∃ f3' f4', ((Memref.whole cc1_scratch3).view.loc (thrL d L) ↦{fullShare} f3') ∗ ((Memref.whole cc1_scratch4).view.loc (thrL d L) ↦{fullShare} f4') ∗ ⌜∀ j : S256.Idx, (j 0).val < 16 * (k.val + 1) → (f3' j).toNat = physRow (f0 j).toNat ∧ (f4' j).toNat = physRow (f1 j).toNat⌝) := by
  unfold k1_t3_body
  iintro ⟨H0, H1, H3, H4⟩
  sl_exec
  sl_step
  isplitl [H0]; · iexact H0
  isplitl [H1]; · iexact H1
  iexists _; iexists _
  isplitl [H3]; · iexact H3
  isplitl [H4]; · iexact H4
  ipureintro
  intro j hj
  have hoff : k1_off69 k = ![16 * k.val] := k1_off69_eq k
  by_cases hin : j ∈ (Rect.unit (s := S256) (k1_off69 k) S16.size (k1_off69_inb k)).set
  · obtain ⟨x, rfl⟩ := (Rect.unit (s := S256) (k1_off69 k) S16.size (k1_off69_inb k)).exists_idx_of_mem hin
    constructor
    · refine (congrArg BitVec.toNat (View.read_writes_cons_emb (Memref.whole cc1_scratch3).view f3 (Rect.unit (s := S256) (k1_off69 k) S16.size (k1_off69_inb k)) _ [] x)).trans ?_
      exact packRow_toNat _
    · refine (congrArg BitVec.toNat (View.read_writes_cons_emb (Memref.whole cc1_scratch4).view f4 (Rect.unit (s := S256) (k1_off69 k) S16.size (k1_off69_inb k)) _ [] x)).trans ?_
      exact packRow_toNat _
  · have hlt : (j 0).val < 16 * k.val := by
      by_contra hge
      refine hin (Rect.mem_set_unit.mpr fun a => ?_)
      have ha : a = 0 := Subsingleton.elim _ _
      subst ha
      rw [hoff]
      refine ⟨?_, ?_⟩
      · show 16 * k.val ≤ (j 0).val; omega
      · show (j 0).val < 16 * k.val + 16; omega
    have h3 : View.read (Elt F) (Memref.whole cc1_scratch3).view ((Memref.whole cc1_scratch3).view.writes (Elt F) f3 [⟨Rect.unit (s := S256) (k1_off69 k) S16.size (k1_off69_inb k), k1_pay524 (View.readAt (Elt F) (Memref.whole cc1_scratch0).view (Rect.unit (s := S256) (k1_off69 k) S16.size (k1_off69_inb k)).toLoadRect f0)⟩]) j = View.read (Elt F) (Memref.whole cc1_scratch3).view f3 j :=
      View.read_writes_apply_of_forall_not_mem _ _ j _ (by intro p hp; rw [List.mem_singleton.mp hp]; exact hin)
    have h4 : View.read (Elt F) (Memref.whole cc1_scratch4).view ((Memref.whole cc1_scratch4).view.writes (Elt F) f4 [⟨Rect.unit (s := S256) (k1_off69 k) S16.size (k1_off69_inb k), k1_pay525 (View.readAt (Elt F) (Memref.whole cc1_scratch1).view (Rect.unit (s := S256) (k1_off69 k) S16.size (k1_off69_inb k)).toLoadRect f1)⟩]) j = View.read (Elt F) (Memref.whole cc1_scratch4).view f4 j :=
      View.read_writes_apply_of_forall_not_mem _ _ j _ (by intro p hp; rw [List.mem_singleton.mp hp]; exact hin)
    exact ⟨(congrArg BitVec.toNat h3).trans (hP j hlt).1, (congrArg BitVec.toNat h4).trans (hP j hlt).2⟩

end Cert.KernelIdeal.Hand
end
-- ==== Proof.KI.TileT4.lean ====
/-
  One trip of the scoring loop (second pass).

  The same step as in the first pass: sixty-four sixteen-entry pieces, one per lane, each |head + relation - tail| of
  the group's sixteen batch entries read at the lane's offsets, fill columns [16 g, 16 g + 16) of the staging block with
  the pass's value and leave the other columns unchanged.
-/
import proofs.«202666_g58660663329007_cont_9to1_m_1270_26_alg».proof.Proof.KI.TileA
import Idealize.ShloMosaic.Lib.Tactic
import Idealize.ShloMosaic.Lib.Writes
import Idealize.ShloMosaic.Lib.Pipeline.Value
import proofs.«202666_g58660663329007_cont_9to1_m_1270_26_alg».proof.Proof.KI.TileW
import proofs.«202666_g58660663329007_cont_9to1_m_1270_26_alg».proof.Proof.KI.TileG
import proofs.«202666_g58660663329007_cont_9to1_m_1270_26_alg».proof.Proof.KI.TileC
import proofs.«202666_g58660663329007_cont_9to1_m_1270_26_alg».proof.Proof.Gen.KernelIdeal.Skeleton
import proofs.«202666_g58660663329007_cont_9to1_m_1270_26_alg».proof.Proof.KI.TileT2

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Spec

variable {F : FTy → Type} [FloatOps F]

local notation "𝕄" => MT nD τ sig (HIx 1) (Elt F) ℕ UU ℕ

open Idealize.ShloMosaic.Tactic
set_option sl_exec.dischHeartbeats 20000

set_option maxRecDepth 65536 in
/-- One trip of the scoring loop: sixteen more columns of the staging block hold |head + relation - tail|, lane by
    lane, of the sixteen batch entries of the group. -/
theorem trip4 (d : Dev nD) (L : grid1.Coords) (v2 : BitVec 32) (g : Fin k1_t4_loop.trips)
    (f0 : Buf (Elt F) ((Memref.whole cc1_scratch0).view.loc (thrL d L))) (f1 : Buf (Elt F) ((Memref.whole cc1_scratch1).view.loc (thrL d L))) (f2 : Buf (Elt F) ((Memref.whole cc1_scratch2).view.loc (thrL d L))) (f5 : Buf (Elt F) ((Memref.whole cc1_scratch5).view.loc (thrL d L))) (f6 : Buf (Elt F) ((Memref.whole cc1_scratch6).view.loc (thrL d L))) (f7 : Buf (Elt F) ((Memref.whole cc1_scratch7).view.loc (thrL d L))) (f8 : Buf (Elt F) ((Memref.whole cc1_scratch8).view.loc (thrL d L)))
    (hf2 : ∀ j, (f2 j).toNat < 100)
    (hP : ∀ y : S64x256.Idx, (y 1).val < 16 * g.val → f8 y = grpT (f3 (F := F)) f0 f1 f2 f5 f6 f7 y) :
    (iprop(((Memref.whole cc1_scratch0).view.loc (thrL d L) ↦{fullShare} f0) ∗ ((Memref.whole cc1_scratch1).view.loc (thrL d L) ↦{fullShare} f1) ∗ ((Memref.whole cc1_scratch2).view.loc (thrL d L) ↦{fullShare} f2) ∗ ((Memref.whole cc1_scratch5).view.loc (thrL d L) ↦{fullShare} f5) ∗ ((Memref.whole cc1_scratch6).view.loc (thrL d L) ↦{fullShare} f6) ∗ ((Memref.whole cc1_scratch7).view.loc (thrL d L) ↦{fullShare} f7) ∗ ((Memref.whole cc1_scratch8).view.loc (thrL d L) ↦{fullShare} f8)) : sProp 𝕄)
      ⊢ wp frame (wpE (defs₀ (F := F)) 𝒱₀ (thrL d L) none) Set.univ
          (k1_t4_body L (Memref.whole main_v1_scv) (Memref.isWhole_whole _) (Memref.whole main_v2_scv) (Memref.isWhole_whole _)
            (Memref.whole main_arg2_scv) (Memref.isWhole_whole _) (Memref.whole main_arg3_scv) (Memref.isWhole_whole _)
            (Memref.whole main_arg4_scv) (Memref.isWhole_whole _) (Memref.whole main_v3_scv) (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _) (Memref.whole cc1_scratch5) (Memref.isWhole_whole _)
            (Memref.whole cc1_scratch6) (Memref.isWhole_whole _) (Memref.whole cc1_scratch7) (Memref.isWhole_whole _)
            (Memref.whole cc1_scratch8) (Memref.isWhole_whole _) cc1_scratch9 cc1_scratch10
            cc1_scoped0 cc1_scoped1 cc1_scoped2 cc1_scoped3 cc1_scoped4 cc1_scoped5 cc1_scoped6 cc1_scoped7 cc1_scoped8 v2 (iota .scVector S16 32 [0] iota_S16_d0_w32_scVector) g ())
          fun _ => iprop(((Memref.whole cc1_scratch0).view.loc (thrL d L) ↦{fullShare} f0) ∗ ((Memref.whole cc1_scratch1).view.loc (thrL d L) ↦{fullShare} f1) ∗ ((Memref.whole cc1_scratch2).view.loc (thrL d L) ↦{fullShare} f2) ∗ ((Memref.whole cc1_scratch5).view.loc (thrL d L) ↦{fullShare} f5) ∗ ((Memref.whole cc1_scratch6).view.loc (thrL d L) ↦{fullShare} f6) ∗ ((Memref.whole cc1_scratch7).view.loc (thrL d L) ↦{fullShare} f7)
            ∗ ∃ f8', ((Memref.whole cc1_scratch8).view.loc (thrL d L) ↦{fullShare} f8') ∗ ⌜∀ y : S64x256.Idx, (y 1).val < 16 * (g.val + 1) → f8' y = grpT (f3 (F := F)) f0 f1 f2 f5 f6 f7 y⌝) := by
  unfold k1_t4_body
  rw [k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton]
  unfold k1_part27_skel k1_part28_skel k1_part29_skel k1_part30_skel k1_part31_skel k1_part32_skel k1_part33_skel k1_part34_skel k1_part35_skel k1_part36_skel k1_part37_skel k1_part38_skel k1_part39_skel k1_part40_skel k1_part41_skel k1_part42_skel k1_part43_skel k1_part44_skel k1_part45_skel k1_part46_skel k1_part47_skel k1_part48_skel k1_part49_skel k1_part50_skel k1_part51_skel k1_part52_skel SparseCore.vectorLoadIdx
  iintro ⟨H0, H1, H2, H5, H6, H7, H8⟩
  sl_exec (disch := first
    | (show ∀ a x, _ < (⟨2, ![50, 128]⟩ : Shape).size a; exact chk_rel _ _ (by decide) (by intro x; exact hf2 _))
    | exact chk_rows _ g.isLt _ _ _ (by decide))
  sl_step
  isplitl [H0]; · iexact H0
  isplitl [H1]; · iexact H1
  isplitl [H2]; · iexact H2
  isplitl [H5]; · iexact H5
  isplitl [H6]; · iexact H6
  isplitl [H7]; · iexact H7
  iexists _
  isplitl [H8]; · iexact H8
  ipureintro
  refine good_end d L g.val _ f8 _ ?_ hP
  refine good_step d L g.val 63 _ f8 _ _ (k1_off134_eq g) _ _ (piece_val d L g.val 63 g.isLt (by decide) f0 f1 f2 f5 f6 f7 hf2 _ (k1_off70_eq g) _ _ (k1_off134_eq g) _ _ _ _ _) ?_
  refine good_step d L g.val 62 _ f8 _ _ (k1_off133_eq g) _ _ (piece_val d L g.val 62 g.isLt (by decide) f0 f1 f2 f5 f6 f7 hf2 _ (k1_off70_eq g) _ _ (k1_off133_eq g) _ _ _ _ _) ?_
  refine good_step d L g.val 61 _ f8 _ _ (k1_off132_eq g) _ _ (piece_val d L g.val 61 g.isLt (by decide) f0 f1 f2 f5 f6 f7 hf2 _ (k1_off70_eq g) _ _ (k1_off132_eq g) _ _ _ _ _) ?_
  refine good_step d L g.val 60 _ f8 _ _ (k1_off131_eq g) _ _ (piece_val d L g.val 60 g.isLt (by decide) f0 f1 f2 f5 f6 f7 hf2 _ (k1_off70_eq g) _ _ (k1_off131_eq g) _ _ _ _ _) ?_
  refine good_step d L g.val 59 _ f8 _ _ (k1_off130_eq g) _ _ (piece_val d L g.val 59 g.isLt (by decide) f0 f1 f2 f5 f6 f7 hf2 _ (k1_off70_eq g) _ _ (k1_off130_eq g) _ _ _ _ _) ?_
  refine good_step d L g.val 58 _ f8 _ _ (k1_off129_eq g) _ _ (piece_val d L g.val 58 g.isLt (by decide) f0 f1 f2 f5 f6 f7 hf2 _ (k1_off70_eq g) _ _ (k1_off129_eq g) _ _ _ _ _) ?_
  refine good_step d L g.val 57 _ f8 _ _ (k1_off128_eq g) _ _ (piece_val d L g.val 57 g.isLt (by decide) f0 f1 f2 f5 f6 f7 hf2 _ (k1_off70_eq g) _ _ (k1_off128_eq g) _ _ _ _ _) ?_
  refine good_step d L g.val 56 _ f8 _ _ (k1_off127_eq g) _ _ (piece_val d L g.val 56 g.isLt (by decide) f0 f1 f2 f5 f6 f7 hf2 _ (k1_off70_eq g) _ _ (k1_off127_eq g) _ _ _ _ _) ?_
  refine good_step d L g.val 55 _ f8 _ _ (k1_off126_eq g) _ _ (piece_val d L g.val 55 g.isLt (by decide) f0 f1 f2 f5 f6 f7 hf2 _ (k1_off70_eq g) _ _ (k1_off126_eq g) _ _ _ _ _) ?_
  refine good_step d L g.val 54 _ f8 _ _ (k1_off125_eq g) _ _ (piece_val d L g.val 54 g.isLt (by decide) f0 f1 f2 f5 f6 f7 hf2 _ (k1_off70_eq g) _ _ (k1_off125_eq g) _ _ _ _ _) ?_
  refine good_step d L g.val 53 _ f8 _ _ (k1_off124_eq g) _ _ (piece_val d L g.val 53 g.isLt (by decide) f0 f1 f2 f5 f6 f7 hf2 _ (k1_off70_eq g) _ _ (k1_off124_eq g) _ _ _ _ _) ?_
  refine good_step d L g.val 52 _ f8 _ _ (k1_off123_eq g) _ _ (piece_val d L g.val 52 g.isLt (by decide) f0 f1 f2 f5 f6 f7 hf2 _ (k1_off70_eq g) _ _ (k1_off123_eq g) _ _ _ _ _) ?_
  refine good_step d L g.val 51 _ f8 _ _ (k1_off122_eq g) _ _ (piece_val d L g.val 51 g.isLt (by decide) f0 f1 f2 f5 f6 f7 hf2 _ (k1_off70_eq g) _ _ (k1_off122_eq g) _ _ _ _ _) ?_
  refine good_step d L g.val 50 _ f8 _ _ (k1_off121_eq g) _ _ (piece_val d L g.val 50 g.isLt (by decide) f0 f1 f2 f5 f6 f7 hf2 _ (k1_off70_eq g) _ _ (k1_off121_eq g) _ _ _ _ _) ?_
  refine good_step d L g.val 49 _ f8 _ _ (k1_off120_eq g) _ _ (piece_val d L g.val 49 g.isLt (by decide) f0 f1 f2 f5 f6 f7 hf2 _ (k1_off70_eq g) _ _ (k1_off120_eq g) _ _ _ _ _) ?_
  refine good_step d L g.val 48 _ f8 _ _ (k1_off119_eq g) _ _ (piece_val d L g.val 48 g.isLt (by decide) f0 f1 f2 f5 f6 f7 hf2 _ (k1_off70_eq g) _ _ (k1_off119_eq g) _ _ _ _ _) ?_
  refine good_step d L g.val 47 _ f8 _ _ (k1_off118_eq g) _ _ (piece_val d L g.val 47 g.isLt (by decide) f0 f1 f2 f5 f6 f7 hf2 _ (k1_off70_eq g) _ _ (k1_off118_eq g) _ _ _ _ _) ?_
  refine good_step d L g.val 46 _ f8 _ _ (k1_off117_eq g) _ _ (piece_val d L g.val 46 g.isLt (by decide) f0 f1 f2 f5 f6 f7 hf2 _ (k1_off70_eq g) _ _ (k1_off117_eq g) _ _ _ _ _) ?_
  refine good_step d L g.val 45 _ f8 _ _ (k1_off116_eq g) _ _ (piece_val d L g.val 45 g.isLt (by decide) f0 f1 f2 f5 f6 f7 hf2 _ (k1_off70_eq g) _ _ (k1_off116_eq g) _ _ _ _ _) ?_
  refine good_step d L g.val 44 _ f8 _ _ (k1_off115_eq g) _ _ (piece_val d L g.val 44 g.isLt (by decide) f0 f1 f2 f5 f6 f7 hf2 _ (k1_off70_eq g) _ _ (k1_off115_eq g) _ _ _ _ _) ?_
  refine good_step d L g.val 43 _ f8 _ _ (k1_off114_eq g) _ _ (piece_val d L g.val 43 g.isLt (by decide) f0 f1 f2 f5 f6 f7 hf2 _ (k1_off70_eq g) _ _ (k1_off114_eq g) _ _ _ _ _) ?_
  refine good_step d L g.val 42 _ f8 _ _ (k1_off113_eq g) _ _ (piece_val d L g.val 42 g.isLt (by decide) f0 f1 f2 f5 f6 f7 hf2 _ (k1_off70_eq g) _ _ (k1_off113_eq g) _ _ _ _ _) ?_
  refine good_step d L g.val 41 _ f8 _ _ (k1_off112_eq g) _ _ (piece_val d L g.val 41 g.isLt (by decide) f0 f1 f2 f5 f6 f7 hf2 _ (k1_off70_eq g) _ _ (k1_off112_eq g) _ _ _ _ _) ?_
  refine good_step d L g.val 40 _ f8 _ _ (k1_off111_eq g) _ _ (piece_val d L g.val 40 g.isLt (by decide) f0 f1 f2 f5 f6 f7 hf2 _ (k1_off70_eq g) _ _ (k1_off111_eq g) _ _ _ _ _) ?_
  refine good_step d L g.val 39 _ f8 _ _ (k1_off110_eq g) _ _ (piece_val d L g.val 39 g.isLt (by decide) f0 f1 f2 f5 f6 f7 hf2 _ (k1_off70_eq g) _ _ (k1_off110_eq g) _ _ _ _ _) ?_
  refine good_step d L g.val 38 _ f8 _ _ (k1_off109_eq g) _ _ (piece_val d L g.val 38 g.isLt (by decide) f0 f1 f2 f5 f6 f7 hf2 _ (k1_off70_eq g) _ _ (k1_off109_eq g) _ _ _ _ _) ?_
  refine good_step d L g.val 37 _ f8 _ _ (k1_off108_eq g) _ _ (piece_val d L g.val 37 g.isLt (by decide) f0 f1 f2 f5 f6 f7 hf2 _ (k1_off70_eq g) _ _ (k1_off108_eq g) _ _ _ _ _) ?_
  refine good_step d L g.val 36 _ f8 _ _ (k1_off107_eq g) _ _ (piece_val d L g.val 36 g.isLt (by decide) f0 f1 f2 f5 f6 f7 hf2 _ (k1_off70_eq g) _ _ (k1_off107_eq g) _ _ _ _ _) ?_
  refine good_step d L g.val 35 _ f8 _ _ (k1_off106_eq g) _ _ (piece_val d L g.val 35 g.isLt (by decide) f0 f1 f2 f5 f6 f7 hf2 _ (k1_off70_eq g) _ _ (k1_off106_eq g) _ _ _ _ _) ?_
  refine good_step d L g.val 34 _ f8 _ _ (k1_off105_eq g) _ _ (piece_val d L g.val 34 g.isLt (by decide) f0 f1 f2 f5 f6 f7 hf2 _ (k1_off70_eq g) _ _ (k1_off105_eq g) _ _ _ _ _) ?_
  refine good_step d L g.val 33 _ f8 _ _ (k1_off104_eq g) _ _ (piece_val d L g.val 33 g.isLt (by decide) f0 f1 f2 f5 f6 f7 hf2 _ (k1_off70_eq g) _ _ (k1_off104_eq g) _ _ _ _ _) ?_
  refine good_step d L g.val 32 _ f8 _ _ (k1_off103_eq g) _ _ (piece_val d L g.val 32 g.isLt (by decide) f0 f1 f2 f5 f6 f7 hf2 _ (k1_off70_eq g) _ _ (k1_off103_eq g) _ _ _ _ _) ?_
  refine good_step d L g.val 31 _ f8 _ _ (k1_off102_eq g) _ _ (piece_val d L g.val 31 g.isLt (by decide) f0 f1 f2 f5 f6 f7 hf2 _ (k1_off70_eq g) _ _ (k1_off102_eq g) _ _ _ _ _) ?_
  refine good_step d L g.val 30 _ f8 _ _ (k1_off101_eq g) _ _ (piece_val d L g.val 30 g.isLt (by decide) f0 f1 f2 f5 f6 f7 hf2 _ (k1_off70_eq g) _ _ (k1_off101_eq g) _ _ _ _ _) ?_
  refine good_step d L g.val 29 _ f8 _ _ (k1_off100_eq g) _ _ (piece_val d L g.val 29 g.isLt (by decide) f0 f1 f2 f5 f6 f7 hf2 _ (k1_off70_eq g) _ _ (k1_off100_eq g) _ _ _ _ _) ?_
  refine good_step d L g.val 28 _ f8 _ _ (k1_off99_eq g) _ _ (piece_val d L g.val 28 g.isLt (by decide) f0 f1 f2 f5 f6 f7 hf2 _ (k1_off70_eq g) _ _ (k1_off99_eq g) _ _ _ _ _) ?_
  refine good_step d L g.val 27 _ f8 _ _ (k1_off98_eq g) _ _ (piece_val d L g.val 27 g.isLt (by decide) f0 f1 f2 f5 f6 f7 hf2 _ (k1_off70_eq g) _ _ (k1_off98_eq g) _ _ _ _ _) ?_
  refine good_step d L g.val 26 _ f8 _ _ (k1_off97_eq g) _ _ (piece_val d L g.val 26 g.isLt (by decide) f0 f1 f2 f5 f6 f7 hf2 _ (k1_off70_eq g) _ _ (k1_off97_eq g) _ _ _ _ _) ?_
  refine good_step d L g.val 25 _ f8 _ _ (k1_off96_eq g) _ _ (piece_val d L g.val 25 g.isLt (by decide) f0 f1 f2 f5 f6 f7 hf2 _ (k1_off70_eq g) _ _ (k1_off96_eq g) _ _ _ _ _) ?_
  refine good_step d L g.val 24 _ f8 _ _ (k1_off95_eq g) _ _ (piece_val d L g.val 24 g.isLt (by decide) f0 f1 f2 f5 f6 f7 hf2 _ (k1_off70_eq g) _ _ (k1_off95_eq g) _ _ _ _ _) ?_
  refine good_step d L g.val 23 _ f8 _ _ (k1_off94_eq g) _ _ (piece_val d L g.val 23 g.isLt (by decide) f0 f1 f2 f5 f6 f7 hf2 _ (k1_off70_eq g) _ _ (k1_off94_eq g) _ _ _ _ _) ?_
  refine good_step d L g.val 22 _ f8 _ _ (k1_off93_eq g) _ _ (piece_val d L g.val 22 g.isLt (by decide) f0 f1 f2 f5 f6 f7 hf2 _ (k1_off70_eq g) _ _ (k1_off93_eq g) _ _ _ _ _) ?_
  refine good_step d L g.val 21 _ f8 _ _ (k1_off92_eq g) _ _ (piece_val d L g.val 21 g.isLt (by decide) f0 f1 f2 f5 f6 f7 hf2 _ (k1_off70_eq g) _ _ (k1_off92_eq g) _ _ _ _ _) ?_
  refine good_step d L g.val 20 _ f8 _ _ (k1_off91_eq g) _ _ (piece_val d L g.val 20 g.isLt (by decide) f0 f1 f2 f5 f6 f7 hf2 _ (k1_off70_eq g) _ _ (k1_off91_eq g) _ _ _ _ _) ?_
  refine good_step d L g.val 19 _ f8 _ _ (k1_off90_eq g) _ _ (piece_val d L g.val 19 g.isLt (by decide) f0 f1 f2 f5 f6 f7 hf2 _ (k1_off70_eq g) _ _ (k1_off90_eq g) _ _ _ _ _) ?_
  refine good_step d L g.val 18 _ f8 _ _ (k1_off89_eq g) _ _ (piece_val d L g.val 18 g.isLt (by decide) f0 f1 f2 f5 f6 f7 hf2 _ (k1_off70_eq g) _ _ (k1_off89_eq g) _ _ _ _ _) ?_
  refine good_step d L g.val 17 _ f8 _ _ (k1_off88_eq g) _ _ (piece_val d L g.val 17 g.isLt (by decide) f0 f1 f2 f5 f6 f7 hf2 _ (k1_off70_eq g) _ _ (k1_off88_eq g) _ _ _ _ _) ?_
  refine good_step d L g.val 16 _ f8 _ _ (k1_off87_eq g) _ _ (piece_val d L g.val 16 g.isLt (by decide) f0 f1 f2 f5 f6 f7 hf2 _ (k1_off70_eq g) _ _ (k1_off87_eq g) _ _ _ _ _) ?_
  refine good_step d L g.val 15 _ f8 _ _ (k1_off86_eq g) _ _ (piece_val d L g.val 15 g.isLt (by decide) f0 f1 f2 f5 f6 f7 hf2 _ (k1_off70_eq g) _ _ (k1_off86_eq g) _ _ _ _ _) ?_
  refine good_step d L g.val 14 _ f8 _ _ (k1_off85_eq g) _ _ (piece_val d L g.val 14 g.isLt (by decide) f0 f1 f2 f5 f6 f7 hf2 _ (k1_off70_eq g) _ _ (k1_off85_eq g) _ _ _ _ _) ?_
  refine good_step d L g.val 13 _ f8 _ _ (k1_off84_eq g) _ _ (piece_val d L g.val 13 g.isLt (by decide) f0 f1 f2 f5 f6 f7 hf2 _ (k1_off70_eq g) _ _ (k1_off84_eq g) _ _ _ _ _) ?_
  refine good_step d L g.val 12 _ f8 _ _ (k1_off83_eq g) _ _ (piece_val d L g.val 12 g.isLt (by decide) f0 f1 f2 f5 f6 f7 hf2 _ (k1_off70_eq g) _ _ (k1_off83_eq g) _ _ _ _ _) ?_
  refine good_step d L g.val 11 _ f8 _ _ (k1_off82_eq g) _ _ (piece_val d L g.val 11 g.isLt (by decide) f0 f1 f2 f5 f6 f7 hf2 _ (k1_off70_eq g) _ _ (k1_off82_eq g) _ _ _ _ _) ?_
  refine good_step d L g.val 10 _ f8 _ _ (k1_off81_eq g) _ _ (piece_val d L g.val 10 g.isLt (by decide) f0 f1 f2 f5 f6 f7 hf2 _ (k1_off70_eq g) _ _ (k1_off81_eq g) _ _ _ _ _) ?_
  refine good_step d L g.val 9 _ f8 _ _ (k1_off80_eq g) _ _ (piece_val d L g.val 9 g.isLt (by decide) f0 f1 f2 f5 f6 f7 hf2 _ (k1_off70_eq g) _ _ (k1_off80_eq g) _ _ _ _ _) ?_
  refine good_step d L g.val 8 _ f8 _ _ (k1_off79_eq g) _ _ (piece_val d L g.val 8 g.isLt (by decide) f0 f1 f2 f5 f6 f7 hf2 _ (k1_off70_eq g) _ _ (k1_off79_eq g) _ _ _ _ _) ?_
  refine good_step d L g.val 7 _ f8 _ _ (k1_off78_eq g) _ _ (piece_val d L g.val 7 g.isLt (by decide) f0 f1 f2 f5 f6 f7 hf2 _ (k1_off70_eq g) _ _ (k1_off78_eq g) _ _ _ _ _) ?_
  refine good_step d L g.val 6 _ f8 _ _ (k1_off77_eq g) _ _ (piece_val d L g.val 6 g.isLt (by decide) f0 f1 f2 f5 f6 f7 hf2 _ (k1_off70_eq g) _ _ (k1_off77_eq g) _ _ _ _ _) ?_
  refine good_step d L g.val 5 _ f8 _ _ (k1_off76_eq g) _ _ (piece_val d L g.val 5 g.isLt (by decide) f0 f1 f2 f5 f6 f7 hf2 _ (k1_off70_eq g) _ _ (k1_off76_eq g) _ _ _ _ _) ?_
  refine good_step d L g.val 4 _ f8 _ _ (k1_off75_eq g) _ _ (piece_val d L g.val 4 g.isLt (by decide) f0 f1 f2 f5 f6 f7 hf2 _ (k1_off70_eq g) _ _ (k1_off75_eq g) _ _ _ _ _) ?_
  refine good_step d L g.val 3 _ f8 _ _ (k1_off74_eq g) _ _ (piece_val d L g.val 3 g.isLt (by decide) f0 f1 f2 f5 f6 f7 hf2 _ (k1_off70_eq g) _ _ (k1_off74_eq g) _ _ _ _ _) ?_
  refine good_step d L g.val 2 _ f8 _ _ (k1_off73_eq g) _ _ (piece_val d L g.val 2 g.isLt (by decide) f0 f1 f2 f5 f6 f7 hf2 _ (k1_off70_eq g) _ _ (k1_off73_eq g) _ _ _ _ _) ?_
  refine good_step d L g.val 1 _ f8 _ _ (k1_off72_eq g) _ _ (piece_val d L g.val 1 g.isLt (by decide) f0 f1 f2 f5 f6 f7 hf2 _ (k1_off70_eq g) _ _ (k1_off72_eq g) _ _ _ _ _) ?_
  refine good_step d L g.val 0 _ f8 _ _ (k1_off71_eq g) _ _ (piece_val d L g.val 0 g.isLt (by decide) f0 f1 f2 f5 f6 f7 hf2 _ (k1_off70_eq g) _ _ (k1_off71_eq g) _ _ _ _ _) ?_
  exact good_base d L g.val _ f8

end Cert.KernelIdeal.Hand
end
-- ==== Proof.KI.TileO.lean ====
/-
  The output side of a worker.

  Worker w owns columns [512 w, 512 w + 512) of the 64 x 16384 result.  It fills them in two passes: pass p copies its
  64 x 256 staging block onto columns [512 w + 256 p, 512 w + 256 p + 256).  Here: the worker's columns are the two
  passes' column windows; what a copy of the staging block leaves in a window (the block, column by column); and
  that two windows holding the score make the worker's columns holding the score.
-/
import proofs.«202666_g58660663329007_cont_9to1_m_1270_26_alg».proof.Proof.KI.TileA
import proofs.«202666_g58660663329007_cont_9to1_m_1270_26_alg».proof.Proof.KI.Common
import proofs.«202666_g58660663329007_cont_9to1_m_1270_26_alg».proof.Proof.Spec
import Idealize.ShloMosaic.Lib.Writes
import Idealize.ShloMosaic.Lib.ValueIdx

noncomputable section

namespace Cert.KernelIdeal.Hand

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.Spec

variable {F : FTy → Type}

local notation "𝕄" => MT nD τ sig (HIx 1) (Elt F) ℕ UU ℕ

/-- Pass `p`'s window of the result, as the worker's program slices it: all 64 rows, 256 columns from the pass's
    offset. -/
abbrev oS (L : grid1.Coords) (p : Fin 2) : Memref sig .scVector .hbm S64x256 .f32 :=
  (Memref.whole main_v3_scv).slice (Rect.unit (s := S64x16384) (k1_off68 L (BitVec.ofNat 32 (256 * p.val))) S64x256.size (k1_off68_inb L p)) (fun _ => rfl)

/-- The program spells the two windows with the offset words 0 and 256. -/
theorem oS_zero (L : grid1.Coords) :
    oS L 0 = (Memref.whole main_v3_scv).slice (Rect.unit (s := S64x16384) (k1_off68 L 0#32) S64x256.size (k1_off68_inb L 0)) (fun _ => rfl) := rfl
theorem oS_one (L : grid1.Coords) :
    oS L 1 = (Memref.whole main_v3_scv).slice (Rect.unit (s := S64x16384) (k1_off68 L 256#32) S64x256.size (k1_off68_inb L 1)) (fun _ => rfl) := rfl

/-- The worker's number is twice its subcore's plus its SparseCore's. -/
theorem widL_val (L : grid1.Coords) : (widL L).val = 2 * (L 1).val + (L 0).val := rfl

/-- An entry of the result is in pass `p`'s window iff its column is among the window's 256. -/
theorem mem_oS (L : grid1.Coords) (p : Fin 2) (i : S64x16384.Idx) :
    i ∈ (oS L p).view.set
      ↔ 512 * (widL L).val + 256 * p.val ≤ (i 1).val ∧ (i 1).val < 512 * (widL L).val + 256 * p.val + 256 := by
  show i ∈ ((View.whole main_v3_scv).slice (Rect.unit (s := S64x16384) (k1_off68 L (BitVec.ofNat 32 (256 * p.val))) S64x256.size (k1_off68_inb L p))).set ↔ _
  rw [View.set_slice_whole, Rect.mem_set_unit, k1_off68_eq, widL_val]
  have h0 : (i 0).val < 64 := (i 0).isLt
  constructor
  · intro h
    have h1 := h 1
    change 1024 * (L 1).val + 512 * (L 0).val + 256 * p.val ≤ (i 1).val ∧ (i 1).val < 1024 * (L 1).val + 512 * (L 0).val + 256 * p.val + 256 at h1
    omega
  · intro h a
    match a with
    | ⟨0, _⟩ =>
      change 0 ≤ (i 0).val ∧ (i 0).val < 0 + 64
      omega
    | ⟨1, _⟩ =>
      change 1024 * (L 1).val + 512 * (L 0).val + 256 * p.val ≤ (i 1).val ∧ (i 1).val < 1024 * (L 1).val + 512 * (L 0).val + 256 * p.val + 256
      omega

/-- The two passes' windows are disjoint, -/
theorem oS_disjoint (L : grid1.Coords) :
    ∀ p ∈ (Finset.univ : Finset (Fin 2)), ∀ p' ∈ (Finset.univ : Finset (Fin 2)), p ≠ p' → Disjoint (oS L p).view.set (oS L p').view.set := by
  intro p _ p' _ hne
  refine Finset.disjoint_left.mpr fun i hi hi' => ?_
  rw [mem_oS] at hi hi'
  have : p.val ≠ p'.val := fun e => hne (Fin.ext e)
  have := p.isLt; have := p'.isLt
  omega

/-- and together they are the worker's columns. -/
theorem oS_cover (L : grid1.Coords) : (Finset.univ : Finset (Fin 2)).biUnion (fun p => (oS L p).view.set) = colSet (widL L) := by
  ext i
  rw [Finset.mem_biUnion]
  unfold colSet
  rw [Finset.mem_filter]
  constructor
  · rintro ⟨p, -, hp⟩
    rw [mem_oS] at hp
    have := p.isLt
    exact ⟨Finset.mem_univ _, by omega, by omega⟩
  · rintro ⟨-, h1, h2⟩
    by_cases h : (i 1).val < 512 * (widL L).val + 256
    · exact ⟨0, Finset.mem_univ _, (mem_oS L 0 i).mpr ⟨by show 512 * (widL L).val + 256 * 0 ≤ _; omega, by show _ < 512 * (widL L).val + 256 * 0 + 256; omega⟩⟩
    · exact ⟨1, Finset.mem_univ _, (mem_oS L 1 i).mpr ⟨by show 512 * (widL L).val + 256 * 1 ≤ _; omega, by show _ < 512 * (widL L).val + 256 * 1 + 256; omega⟩⟩

variable (d : Dev nD) (L : grid1.Coords)

/-- The worker's columns of the result, held at one valuation, are the two windows held at it: as the worker's
    memrefs address them. -/
theorem out_split (o : Buf (Elt F) (oLoc d)) :
    (oLoc d ↦[colSet (widL L)]{fullShare} o : sProp 𝕄)
      = iprop(((oS L 0).view.loc (thrL d L) ↦[(oS L 0).view.set]{fullShare} o) ∗ ((oS L 1).view.loc (thrL d L) ↦[(oS L 1).view.set]{fullShare} o)) := by
  rw [← oS_cover L, pointsTo_biUnion Finset.univ (ℓ := oLoc d) (fun p => (oS L p).view.set) (oS_disjoint L), bigSep_univ_two]

/-- What a copy of a whole 64 x 256 block `Y` onto pass `p`'s window leaves of the result. -/
abbrev copied (p : Fin 2) (o : Buf (Elt F) (oLoc d)) (Y : S64x256.Idx → Elt F .f32) : Buf (Elt F) (oLoc d) :=
  (oS L p).view.writes (Elt F) o [⟨Rect.whole S64x256, Y⟩]

/-- It holds the block, entry by entry: entry `x` of the block at the window's entry `x`. -/
theorem copied_emb (p : Fin 2) (o : Buf (Elt F) (oLoc d)) (Y : S64x256.Idx → Elt F .f32) (x : S64x256.Idx) :
    copied d L p o Y ((oS L p).view.emb x) = Y x := by
  have h := View.read_writes_cons_emb (oS L p).view o (Rect.whole S64x256) Y [] x
  rw [Rect.emb_whole_apply] at h
  exact h

/-- The window's entry `x` is row `x 0`, column 512 w + 256 p + `x 1` of the result. -/
theorem oS_emb (p : Fin 2) (x : S64x256.Idx) :
    (oS L p).view.emb x = (ix2 (x 0) (ixMod 16384 (512 * (widL L).val + 256 * p.val + (x 1).val)) : S64x16384.Idx) := by
  have h0 : (x 0).val < 64 := (x 0).isLt
  have h1 : (x 1).val < 256 := (x 1).isLt
  have hw : (widL L).val < 32 := (widL L).isLt
  have hp := p.isLt
  have hoff := k1_off68_eq L p
  funext a
  refine Fin.ext ?_
  match a with
  | ⟨0, _⟩ =>
    show (k1_off68 L (BitVec.ofNat 32 (256 * p.val))) 0 + 1 * (x 0).val = (x 0).val
    rw [hoff]; show 0 + 1 * (x 0).val = (x 0).val; omega
  | ⟨1, _⟩ =>
    show (k1_off68 L (BitVec.ofNat 32 (256 * p.val))) 1 + 1 * (x 1).val = (512 * (widL L).val + 256 * p.val + (x 1).val) % 16384
    rw [hoff, widL_val]
    show 1024 * (L 1).val + 512 * (L 0).val + 256 * p.val + 1 * (x 1).val = (512 * (2 * (L 1).val + (L 0).val) + 256 * p.val + (x 1).val) % 16384
    rw [widL_val] at hw
    omega

variable [FloatOps F]
variable (X : Buf (Elt F) (x2Loc d)) (R2 : Buf (Elt F) (r2Loc d))
  (h : Buf (Elt F) (hLoc d)) (t : Buf (Elt F) (tLoc d)) (r : Buf (Elt F) (rLoc d))

/-- If the block is the score's columns [512 w + 256 p, 512 w + 256 p + 256), the copy leaves the window at the
    score. -/
theorem copy_val (p : Fin 2) (o : Buf (Elt F) (oLoc d)) (Y : S64x256.Idx → Elt F .f32)
    (hY : ∀ y : S64x256.Idx, Y y = scoreOf d X R2 h t r (ix2 (y 0) (ixMod 16384 (512 * (widL L).val + 256 * p.val + (y 1).val)))) :
    ∀ i ∈ (oS L p).view.set, copied d L p o Y i = scoreOf d X R2 h t r i := by
  intro i hi
  obtain ⟨x, -, rfl⟩ := Finset.mem_map.mp hi
  show copied d L p o Y ((oS L p).view.emb x) = scoreOf d X R2 h t r ((oS L p).view.emb x)
  rw [copied_emb, hY x, oS_emb]

/-- Two windows holding the score on their entries are the worker's columns holding the score. -/
theorem out_join (c0 c1 : Buf (Elt F) (oLoc d))
    (h0 : ∀ i ∈ (oS L 0).view.set, c0 i = scoreOf d X R2 h t r i) (h1 : ∀ i ∈ (oS L 1).view.set, c1 i = scoreOf d X R2 h t r i) :
    (iprop(((oS L 0).view.loc (thrL d L) ↦[(oS L 0).view.set]{fullShare} c0) ∗ ((oS L 1).view.loc (thrL d L) ↦[(oS L 1).view.set]{fullShare} c1)) : sProp 𝕄)
      = (oLoc d ↦[colSet (widL L)]{fullShare} scoreOf d X R2 h t r) := by
  have e0 : ((oS L 0).view.loc (thrL d L) ↦[(oS L 0).view.set]{fullShare} c0 : sProp 𝕄)
      = ((oS L 0).view.loc (thrL d L) ↦[(oS L 0).view.set]{fullShare} scoreOf d X R2 h t r) := pointsTo_congr h0
  have e1 : ((oS L 1).view.loc (thrL d L) ↦[(oS L 1).view.set]{fullShare} c1 : sProp 𝕄)
      = ((oS L 1).view.loc (thrL d L) ↦[(oS L 1).view.set]{fullShare} scoreOf d X R2 h t r) := pointsTo_congr h1
  rw [e0, e1]
  exact (out_split d L (scoreOf d X R2 h t r)).symm

end Cert.KernelIdeal.Hand

end
-- ==== Proof.KI.TileP2.lean ====
/-
  The second pass of a worker, after the first pass's columns are copied out.

  The staging block, holding the score's columns [512 w, 512 w + 256), is copied onto those columns of the result, which
  from then on hold the score there.  Then the pass is repeated on the second window, entries [512 w + 256, 512 w + 512)
  of the index lists: copies in, packed row numbers, the two gathers, the scoring loop.  At the end the staging block
  holds the score's columns [512 w + 256, 512 w + 512); the small table's copy is the one the first pass made.
-/
import proofs.«202666_g58660663329007_cont_9to1_m_1270_26_alg».proof.Proof.KI.TileA
import Idealize.ShloMosaic.Lib.Tactic
import Idealize.ShloMosaic.Lib.Writes
import Idealize.ShloMosaic.Lib.Pipeline.Value
import proofs.«202666_g58660663329007_cont_9to1_m_1270_26_alg».proof.Proof.KI.TileW
import proofs.«202666_g58660663329007_cont_9to1_m_1270_26_alg».proof.Proof.KI.TileG
import proofs.«202666_g58660663329007_cont_9to1_m_1270_26_alg».proof.Proof.KI.TileC
import proofs.«202666_g58660663329007_cont_9to1_m_1270_26_alg».proof.Proof.Gen.KernelIdeal.Skeleton
import proofs.«202666_g58660663329007_cont_9to1_m_1270_26_alg».proof.Proof.KI.TileT3
import proofs.«202666_g58660663329007_cont_9to1_m_1270_26_alg».proof.Proof.KI.TileT4
import proofs.«202666_g58660663329007_cont_9to1_m_1270_26_alg».proof.Proof.KI.TileO
import proofs.«202666_g58660663329007_cont_9to1_m_1270_26_alg».proof.Proof.KI.TileP0

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Spec

variable {F : FTy → Type} [FloatOps F]

local notation "𝕄" => MT nD τ sig (HIx 1) (Elt F) ℕ UU ℕ

open Idealize.ShloMosaic.Tactic

set_option maxHeartbeats 4000000 in
theorem pass2 (d : Dev nD) (L : grid1.Coords)
    (X : Buf (Elt F) (x2Loc d)) (R2 : Buf (Elt F) (r2Loc d)) (h : Buf (Elt F) (hLoc d)) (t : Buf (Elt F) (tLoc d)) (r : Buf (Elt F) (rLoc d))
    (hh : ∀ j, (h j).toNat < 1000000) (ht : ∀ j, (t j).toNat < 1000000) (hr : ∀ j, (r j).toNat < 100)
    (O : CellTallies nD τ sig (HIx 1)) (W : Waits sig (HIx 1)) (o : Buf (Elt F) (oLoc d)) (v2 : BitVec 32)
    (b0 : Buf (Elt F) ((Memref.whole cc1_scratch0).view.loc (thrL d L))) (b1 : Buf (Elt F) ((Memref.whole cc1_scratch1).view.loc (thrL d L))) (b2 : Buf (Elt F) ((Memref.whole cc1_scratch2).view.loc (thrL d L))) (b3 : Buf (Elt F) ((Memref.whole cc1_scratch3).view.loc (thrL d L))) (b4 : Buf (Elt F) ((Memref.whole cc1_scratch4).view.loc (thrL d L))) (b5 : Buf (Elt F) ((Memref.whole cc1_scratch5).view.loc (thrL d L))) (b6 : Buf (Elt F) ((Memref.whole cc1_scratch6).view.loc (thrL d L))) (F7 : Buf (Elt F) ((Memref.whole cc1_scratch7).view.loc (thrL d L))) (f8a : Buf (Elt F) ((Memref.whole cc1_scratch8).view.loc (thrL d L)))
    (hA7 : ∀ j, F7 j = R2 j) (hfa : ∀ y : S64x256.Idx, f8a y = scoreOf d X R2 h t r (ValueIdx.ix2 (y 0) (ixMod 16384 (512 * (widL L).val + 256 * (0 : Fin 2).val + (y 1).val)))) :
    (iprop(Transfers.MayWaits (thrL d L) (none : HIx 1) O ∗ ((Memref.whole main_v1_scv).view.loc (thrL d L) ↦{tok (widL L)} X) ∗ ((Memref.whole main_v2_scv).view.loc (thrL d L) ↦{tok (widL L)} R2)
        ∗ ((Memref.whole main_arg2_scv).view.loc (thrL d L) ↦{tok (widL L)} h) ∗ ((Memref.whole main_arg3_scv).view.loc (thrL d L) ↦{tok (widL L)} t)
        ∗ ((Memref.whole main_arg4_scv).view.loc (thrL d L) ↦{tok (widL L)} r)
        ∗ ((Memref.whole cc1_scratch0).view.loc (thrL d L) ↦{fullShare} b0) ∗ ((Memref.whole cc1_scratch1).view.loc (thrL d L) ↦{fullShare} b1) ∗ ((Memref.whole cc1_scratch2).view.loc (thrL d L) ↦{fullShare} b2) ∗ ((Memref.whole cc1_scratch3).view.loc (thrL d L) ↦{fullShare} b3) ∗ ((Memref.whole cc1_scratch4).view.loc (thrL d L) ↦{fullShare} b4) ∗ ((Memref.whole cc1_scratch5).view.loc (thrL d L) ↦{fullShare} b5) ∗ ((Memref.whole cc1_scratch6).view.loc (thrL d L) ↦{fullShare} b6) ∗ ((Memref.whole cc1_scratch7).view.loc (thrL d L) ↦{fullShare} F7) ∗ ((Memref.whole cc1_scratch8).view.loc (thrL d L) ↦{fullShare} f8a)
        ∗ (((Memref.whole main_v3_scv).slice (Rect.unit (s := S64x16384) (k1_off68 L 0#32) S64x256.size (k1_off68_inb L 0)) (fun _ => rfl)).view.loc (thrL d L) ↦[((Memref.whole main_v3_scv).slice (Rect.unit (s := S64x16384) (k1_off68 L 0#32) S64x256.size (k1_off68_inb L 0)) (fun _ => rfl)).view.set]{fullShare} o)
        ∗ semVal (cellV d L cc1_scratch9) 0 ∗ semVal (cellV d L cc1_scratch10) 0 ∗ semVal (cellV d L cc1_scoped4) 0 ∗ semVal (cellV d L cc1_scoped5) 0 ∗ semVal (cellV d L cc1_scoped6) 0 ∗ semVal (cellV d L cc1_scoped7) 0
        ∗ owes (thrL d L) O W) : sProp 𝕄)
      ⊢ wp frame (wpE (defs₀ (F := F)) 𝒱₀ (thrL d L) none) Set.univ
          (k1_part54 L (Memref.whole main_v1_scv) (Memref.isWhole_whole _) (Memref.whole main_v2_scv) (Memref.isWhole_whole _)
            (Memref.whole main_arg2_scv) (Memref.isWhole_whole _) (Memref.whole main_arg3_scv) (Memref.isWhole_whole _)
            (Memref.whole main_arg4_scv) (Memref.isWhole_whole _) (Memref.whole main_v3_scv) (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _) (Memref.whole cc1_scratch5) (Memref.isWhole_whole _)
            (Memref.whole cc1_scratch6) (Memref.isWhole_whole _) (Memref.whole cc1_scratch7) (Memref.isWhole_whole _)
            (Memref.whole cc1_scratch8) (Memref.isWhole_whole _) cc1_scratch9 cc1_scratch10
            cc1_scoped0 cc1_scoped1 cc1_scoped2 cc1_scoped3 cc1_scoped4 cc1_scoped5 cc1_scoped6 cc1_scoped7 cc1_scoped8 v2 (iota .scVector S16 32 [0] iota_S16_d0_w32_scVector))
          fun _ => iprop(((Memref.whole main_v1_scv).view.loc (thrL d L) ↦{tok (widL L)} X) ∗ ((Memref.whole main_v2_scv).view.loc (thrL d L) ↦{tok (widL L)} R2)
        ∗ ((Memref.whole main_arg2_scv).view.loc (thrL d L) ↦{tok (widL L)} h) ∗ ((Memref.whole main_arg3_scv).view.loc (thrL d L) ↦{tok (widL L)} t)
        ∗ ((Memref.whole main_arg4_scv).view.loc (thrL d L) ↦{tok (widL L)} r)
            ∗ (∃ f, ((Memref.whole cc1_scratch0).view.loc (thrL d L) ↦{fullShare} f)) ∗ (∃ f, ((Memref.whole cc1_scratch1).view.loc (thrL d L) ↦{fullShare} f)) ∗ (∃ f, ((Memref.whole cc1_scratch2).view.loc (thrL d L) ↦{fullShare} f)) ∗ (∃ f, ((Memref.whole cc1_scratch3).view.loc (thrL d L) ↦{fullShare} f)) ∗ (∃ f, ((Memref.whole cc1_scratch4).view.loc (thrL d L) ↦{fullShare} f)) ∗ (∃ f, ((Memref.whole cc1_scratch5).view.loc (thrL d L) ↦{fullShare} f)) ∗ (∃ f, ((Memref.whole cc1_scratch6).view.loc (thrL d L) ↦{fullShare} f))
            ∗ ((Memref.whole cc1_scratch7).view.loc (thrL d L) ↦{fullShare} F7)
            ∗ (∃ f8, ((Memref.whole cc1_scratch8).view.loc (thrL d L) ↦{fullShare} f8) ∗ ⌜∀ y : S64x256.Idx, f8 y = scoreOf d X R2 h t r (ValueIdx.ix2 (y 0) (ixMod 16384 (512 * (widL L).val + 256 * (1 : Fin 2).val + (y 1).val)))⌝)
            ∗ (∃ c0, (((Memref.whole main_v3_scv).slice (Rect.unit (s := S64x16384) (k1_off68 L 0#32) S64x256.size (k1_off68_inb L 0)) (fun _ => rfl)).view.loc (thrL d L) ↦[((Memref.whole main_v3_scv).slice (Rect.unit (s := S64x16384) (k1_off68 L 0#32) S64x256.size (k1_off68_inb L 0)) (fun _ => rfl)).view.set]{fullShare} c0) ∗ ⌜∀ i ∈ (oS L 0).view.set, c0 i = scoreOf d X R2 h t r i⌝)
            ∗ semVal (cellV d L cc1_scratch9) 0 ∗ semVal (cellV d L cc1_scratch10) 0 ∗ semVal (cellV d L cc1_scoped4) 0 ∗ semVal (cellV d L cc1_scoped5) 0 ∗ semVal (cellV d L cc1_scoped6) 0 ∗ semVal (cellV d L cc1_scoped7) 0
            ∗ ∃ W', ⌜∀ p ∈ W', p ∈ W ∨ p.2 = none⌝ ∗ owes (thrL d L) O W') := by
  rw [k1_part54_eq_skeleton]; unfold k1_part54_skel
  iintro ⟨#Hmw, HX, HR2, Hh, Ht, Hr, Hb0, Hb1, Hb2, Hb3, Hb4, Hb5, Hb6, Hb7, Hb8, Ho, Hs9, Hs10, Hc4, Hc5, Hc6, Hc7, HO⟩
  sl_exec
  have hA0 : ∀ k : Fin 256, (View.write (Elt F) (Memref.whole cc1_scratch0).view b0 (pass2.sl.dma0_1 d L h) Finset.univ) (ValueIdx.ix1 k) = h (ValueIdx.ix1 (ixMod 16384 (512 * (widL L).val + 256 * (1 : Fin 2).val + k.val))) :=
    fun k => win_val_0 d L 1 h b0 k
  have hA1 : ∀ k : Fin 256, (View.write (Elt F) (Memref.whole cc1_scratch1).view b1 (pass2.sl.dma0_2 d L t) Finset.univ) (ValueIdx.ix1 k) = t (ValueIdx.ix1 (ixMod 16384 (512 * (widL L).val + 256 * (1 : Fin 2).val + k.val))) :=
    fun k => win_val_1 d L 1 t b1 k
  have hA2 : ∀ k : Fin 256, (View.write (Elt F) (Memref.whole cc1_scratch2).view b2 (pass2.sl.dma0_3 d L r) Finset.univ) (ValueIdx.ix1 k) = r (ValueIdx.ix1 (ixMod 16384 (512 * (widL L).val + 256 * (1 : Fin 2).val + k.val))) :=
    fun k => win_val_2 d L 1 r b2 k
  generalize hF0 : (View.write (Elt F) (Memref.whole cc1_scratch0).view b0 (pass2.sl.dma0_1 d L h) Finset.univ) = F0 at hA0 ⊢
  generalize hF1 : (View.write (Elt F) (Memref.whole cc1_scratch1).view b1 (pass2.sl.dma0_2 d L t) Finset.univ) = F1 at hA1 ⊢
  generalize hF2 : (View.write (Elt F) (Memref.whole cc1_scratch2).view b2 (pass2.sl.dma0_3 d L r) Finset.univ) = F2 at hA2 ⊢
  have hB0 : ∀ j : S256.Idx, (F0 j).toNat < 1000000 := fun j =>
    ((congrArg BitVec.toNat ((congrArg F0 (ValueIdx.eq_ix1 j)).trans (hA0 (j 0)))).trans_lt (hh _))
  have hB1 : ∀ j : S256.Idx, (F1 j).toNat < 1000000 := fun j =>
    ((congrArg BitVec.toNat ((congrArg F1 (ValueIdx.eq_ix1 j)).trans (hA1 (j 0)))).trans_lt (ht _))
  have hB2 : ∀ j : S256.Idx, (F2 j).toNat < 100 := fun j =>
    ((congrArg BitVec.toNat ((congrArg F2 (ValueIdx.eq_ix1 j)).trans (hA2 (j 0)))).trans_lt (hr _))
  sl_for (inv1 d L F0 F1) $$ [Hb0 Hb1 Hb3 Hb4]
  case region =>
    intro k _
    unfold inv1
    iintro ⟨H0, H1, %f3, %f4, H3, H4, %hP⟩
    iapply (trip3 d L v2 (iota .scVector S16 32 [0] iota_S16_d0_w32_scVector) k F0 F1 f3 f4 hP)
    isplitl [H0]; · iexact H0
    isplitl [H1]; · iexact H1
    isplitl [H3]; · iexact H3
    iexact H4
  · unfold inv1
    isplitl [Hb0]; · iexact Hb0
    isplitl [Hb1]; · iexact Hb1
    iexists _; iexists _
    isplitl [Hb3]; · iexact Hb3
    isplitl [Hb4]; · iexact Hb4
    ipureintro
    intro j hj; omega
  iintro %_ HI
  unfold inv1
  icases HI with ⟨Hb0, Hb1, %f3, %f4, Hb3, Hb4, %hP⟩
  have hP' : ∀ j : S256.Idx, (f3 j).toNat = physRow (F0 j).toNat ∧ (f4 j).toNat = physRow (F1 j).toNat :=
    fun j => hP j (by have : (j 0).val < 256 := (j 0).isLt; show (j 0).val < 16 * 16; omega)
  have hin3 : ∀ x, ((Memref.whole cc1_scratch3).view.read (Elt F) f3 x).toNat < S500000x128.size gathers_S500000x128_S256x128.axis :=
    fun x => by show (f3 x).toNat < 500000; rw [(hP' x).1]; exact physRow_lt (hB0 x)
  have hin4 : ∀ x, ((Memref.whole cc1_scratch4).view.read (Elt F) f4 x).toNat < S500000x128.size gathers_S500000x128_S256x128.axis :=
    fun x => by show (f4 x).toNat < 500000; rw [(hP' x).2]; exact physRow_lt (hB1 x)
  ihave HX2 := (pointsTo_share (PosShare.mem_left_op_right (tok (widL L)))).1 $$ HX
  icases HX2 with ⟨HXl, HXr⟩
  sl_exec
  have hG5 : ∀ (k : Fin 256) (c : Fin 128), ((Memref.whole cc1_scratch5).view.writes (Elt F) (Memref.whole cc1_scratch5).view.junk [⟨Rect.whole cc1_scratch5.ty.shape, pass2.sl.gather0 d L X f3 hin3⟩]) (ValueIdx.ix2 k c) = X (ValueIdx.ix2 (ixMod 500000 (physRow (F0 (ValueIdx.ix1 k)).toNat)) c) :=
    fun k c => gather_val_5 d L X _ F0 f3 rfl hin3 (fun j => (hP' j).1) hB0 k c
  have hG6 : ∀ (k : Fin 256) (c : Fin 128), ((Memref.whole cc1_scratch6).view.writes (Elt F) (Memref.whole cc1_scratch6).view.junk [⟨Rect.whole cc1_scratch6.ty.shape, pass2.sl.gather1 d L X f4 hin4⟩]) (ValueIdx.ix2 k c) = X (ValueIdx.ix2 (ixMod 500000 (physRow (F1 (ValueIdx.ix1 k)).toNat)) c) :=
    fun k c => gather_val_6 d L X _ F1 f4 rfl hin4 (fun j => (hP' j).2) hB1 k c
  generalize hF5 : ((Memref.whole cc1_scratch5).view.writes (Elt F) (Memref.whole cc1_scratch5).view.junk [⟨Rect.whole cc1_scratch5.ty.shape, pass2.sl.gather0 d L X f3 hin3⟩]) = F5 at hG5 ⊢
  generalize hF6 : ((Memref.whole cc1_scratch6).view.writes (Elt F) (Memref.whole cc1_scratch6).view.junk [⟨Rect.whole cc1_scratch6.ty.shape, pass2.sl.gather1 d L X f4 hin4⟩]) = F6 at hG6 ⊢
  ihave HX := (pointsTo_share (PosShare.mem_left_op_right (tok (widL L)))).2 $$ [HXl HXr]
  · isplitl [HXl]; · iexact HXl
    iexact HXr
  sl_for (inv2 d L F0 F1 F2 F5 F6 F7) $$ [Hb0 Hb1 Hb2 Hb5 Hb6 Hb7 Hb8]
  case region =>
    intro k _
    unfold inv2
    iintro ⟨H0, H1, H2, H5, H6, H7, %f8, H8, %hP8⟩
    iapply (trip4 d L v2 k F0 F1 F2 F5 F6 F7 f8 hB2 hP8)
    isplitl [H0]; · iexact H0
    isplitl [H1]; · iexact H1
    isplitl [H2]; · iexact H2
    isplitl [H5]; · iexact H5
    isplitl [H6]; · iexact H6
    isplitl [H7]; · iexact H7
    iexact H8
  · unfold inv2
    isplitl [Hb0]; · iexact Hb0
    isplitl [Hb1]; · iexact Hb1
    isplitl [Hb2]; · iexact Hb2
    isplitl [Hb5]; · iexact Hb5
    isplitl [Hb6]; · iexact Hb6
    isplitl [Hb7]; · iexact Hb7
    iexists _
    isplitl [Hb8]; · iexact Hb8
    ipureintro
    intro y hy; omega
  iintro %_ HI
  unfold inv2
  icases HI with ⟨Hb0, Hb1, Hb2, Hb5, Hb6, Hb7, %f8, Hb8, %hP8⟩
  have hS : ∀ y : S64x256.Idx, f8 y = scoreOf d X R2 h t r (ValueIdx.ix2 (y 0) (ixMod 16384 (512 * (widL L).val + 256 * (1 : Fin 2).val + (y 1).val))) := fun y =>
    (hP8 y (by have : (y 1).val < 256 := (y 1).isLt; show (y 1).val < 16 * 16; omega)).trans
      (grpT_eq_score (Cert.KernelIdeal.Hand.f3 (F := F)) X R2 h t r (512 * (widL L).val + 256 * (1 : Fin 2).val) F0 F1 F2 F5 F6 F7 hA0 hA1 hA2 hG5 hG6 hA7 y)
  sl_exec
  sl_step
  isplitl [HX]; · iexact HX
  isplitl [HR2]; · iexact HR2
  isplitl [Hh]; · iexact Hh
  isplitl [Ht]; · iexact Ht
  isplitl [Hr]; · iexact Hr
  isplitl [Hb0]; · iexists _; iexact Hb0
  isplitl [Hb1]; · iexists _; iexact Hb1
  isplitl [Hb2]; · iexists _; iexact Hb2
  isplitl [Hb3]; · iexists _; iexact Hb3
  isplitl [Hb4]; · iexists _; iexact Hb4
  isplitl [Hb5]; · iexists _; iexact Hb5
  isplitl [Hb6]; · iexists _; iexact Hb6
  isplitl [Hb7]; · iexact Hb7
  isplitl [Hb8]
  · iexists _; isplitl [Hb8]; · iexact Hb8
    ipureintro; exact hS
  isplitl [Ho]
  · iexists _; isplitl [Ho]; · iexact Ho
    ipureintro; exact copy_val d L X R2 h t r 0 _ _ hfa
  isplitl [Hs9]; · iexact Hs9
  isplitl [Hs10]; · iexact Hs10
  isplitl [Hc4]; · iexact Hc4
  isplitl [Hc5]; · iexact Hc5
  isplitl [Hc6]; · iexact Hc6
  isplitl [Hc7]; · iexact Hc7
  iexists _; isplitr
  rotate_left
  · iexact HO
  · ipureintro
    intro q hq
    simp only [Finset.mem_insert] at hq
    rcases hq with rfl | rfl | rfl | rfl | rfl | rfl | hq
    all_goals first | exact Or.inr rfl | exact Or.inl hq

end Cert.KernelIdeal.Hand
end
-- ==== Proof.KI.Tile.lean ====
/-
  A worker's whole task.

  The worker's 512 columns of the 64 x 16384 result are two windows of 256 columns.  The first pass leaves the first
  window's score in the staging block; the second part copies it out and leaves the second window's score in the
  block; the last copy writes it out.  Each window then agrees with the score on its columns, so the two together are
  the worker's columns at the score.  Everything else the worker was handed - its read shares, its scratch buffers at
  whatever they now hold, its semaphores back at zero - is returned, and the only waits it added are on its own
  semaphores.
-/
import proofs.«202666_g58660663329007_cont_9to1_m_1270_26_alg».proof.Proof.KI.TileA
import Idealize.ShloMosaic.Lib.Tactic
import Idealize.ShloMosaic.Lib.Writes
import Idealize.ShloMosaic.Lib.Pipeline.Value
import proofs.«202666_g58660663329007_cont_9to1_m_1270_26_alg».proof.Proof.KI.TileW
import proofs.«202666_g58660663329007_cont_9to1_m_1270_26_alg».proof.Proof.KI.TileG
import proofs.«202666_g58660663329007_cont_9to1_m_1270_26_alg».proof.Proof.KI.TileC
import proofs.«202666_g58660663329007_cont_9to1_m_1270_26_alg».proof.Proof.Gen.KernelIdeal.Skeleton
import proofs.«202666_g58660663329007_cont_9to1_m_1270_26_alg».proof.Proof.KI.TileP1
import proofs.«202666_g58660663329007_cont_9to1_m_1270_26_alg».proof.Proof.KI.TileP2
import proofs.«202666_g58660663329007_cont_9to1_m_1270_26_alg».proof.Proof.KI.TileO
import proofs.«202666_g58660663329007_cont_9to1_m_1270_26_alg».proof.Proof.KI.TileStmt

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Spec

variable {F : FTy → Type} [FloatOps F]

local notation "𝕄" => MT nD τ sig (HIx 1) (Elt F) ℕ UU ℕ

open Idealize.ShloMosaic.Tactic

set_option maxHeartbeats 4000000 in
/-- A worker's whole task: the first pass, the copy-out of its 256 columns, the second pass, the copy-out of the other
    256 columns; the worker's 512 columns of the result end at the score. -/
theorem tile_body : TileBody (F := F) := fun d L X R2 h t r o hh ht hr hF O W hO => by
  show _ ⊢ wp frame (wpE (defs₀ (F := F)) 𝒱₀ (V d (cV L) (jV L)) none) Set.univ (cc1_sc_kernel (F := F) L (Memref.whole main_v1_scv) (Memref.isWhole_whole _) (Memref.whole main_v2_scv) (Memref.isWhole_whole _)
            (Memref.whole main_arg2_scv) (Memref.isWhole_whole _) (Memref.whole main_arg3_scv) (Memref.isWhole_whole _)
            (Memref.whole main_arg4_scv) (Memref.isWhole_whole _) (Memref.whole main_v3_scv) (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _) (Memref.whole cc1_scratch5) (Memref.isWhole_whole _)
            (Memref.whole cc1_scratch6) (Memref.isWhole_whole _) (Memref.whole cc1_scratch7) (Memref.isWhole_whole _)
            (Memref.whole cc1_scratch8) (Memref.isWhole_whole _) cc1_scratch9 cc1_scratch10
            cc1_scoped0 cc1_scoped1 cc1_scoped2 cc1_scoped3 cc1_scoped4 cc1_scoped5 cc1_scoped6 cc1_scoped7 cc1_scoped8) _
  rw [cc1_sc_kernel_eq_skeleton]; unfold cc1_sc_kernel_skel
  rw [(K (F := F)).scopedBufs_V hF d (cV L) (jV L), SparseCore.Cfg.scopedSems0_V (Val := Elt F) d (cV L) (jV L), ownBufs_V, ownSems0_V]
  unfold goPay tdPay readPay
  rw [out_split d L o]
  iintro ⟨#Hlv, -, ⟨⟨HX, HR2, Hh, Ht, Hr⟩, ⟨Ho0, Ho1⟩⟩, ⟨⟨%b0, Hb0⟩, ⟨%b1, Hb1⟩, ⟨%b2, Hb2⟩, ⟨%b3, Hb3⟩, ⟨%b4, Hb4⟩, ⟨%b5, Hb5⟩, ⟨%b6, Hb6⟩, ⟨%b7, Hb7⟩, ⟨%b8, Hb8⟩, Hbr⟩,
    ⟨Hs9, Hs10, Hc0, Hc1, Hc2, Hc3, Hc4, Hc5, Hc6, Hc7, Hc8, Hcr⟩, HO⟩
  ihave Hmw := ((K (F := F)).mayWaits_none (thr := V d (cV L) (jV L)) hO) $$ Hlv
  ihave HX := (Entails.of_eq (show (x2Loc d ↦{tok (widL L)} X : sProp 𝕄) = ((Memref.whole main_v1_scv).view.loc (thrL d L) ↦{tok (widL L)} X) from rfl)) $$ HX
  ihave HR2 := (Entails.of_eq (show (r2Loc d ↦{tok (widL L)} R2 : sProp 𝕄) = ((Memref.whole main_v2_scv).view.loc (thrL d L) ↦{tok (widL L)} R2) from rfl)) $$ HR2
  ihave Hh := (Entails.of_eq (show (hLoc d ↦{tok (widL L)} h : sProp 𝕄) = ((Memref.whole main_arg2_scv).view.loc (thrL d L) ↦{tok (widL L)} h) from rfl)) $$ Hh
  ihave Ht := (Entails.of_eq (show (tLoc d ↦{tok (widL L)} t : sProp 𝕄) = ((Memref.whole main_arg3_scv).view.loc (thrL d L) ↦{tok (widL L)} t) from rfl)) $$ Ht
  ihave Hr := (Entails.of_eq (show (rLoc d ↦{tok (widL L)} r : sProp 𝕄) = ((Memref.whole main_arg4_scv).view.loc (thrL d L) ↦{tok (widL L)} r) from rfl)) $$ Hr
  ihave Hb0 := (Entails.of_eq (show ((thrL d L).loc cc1_scratch0 ↦{fullShare} b0 : sProp 𝕄) = ((Memref.whole cc1_scratch0).view.loc (thrL d L) ↦{fullShare} b0) from rfl)) $$ Hb0
  ihave Hb1 := (Entails.of_eq (show ((thrL d L).loc cc1_scratch1 ↦{fullShare} b1 : sProp 𝕄) = ((Memref.whole cc1_scratch1).view.loc (thrL d L) ↦{fullShare} b1) from rfl)) $$ Hb1
  ihave Hb2 := (Entails.of_eq (show ((thrL d L).loc cc1_scratch2 ↦{fullShare} b2 : sProp 𝕄) = ((Memref.whole cc1_scratch2).view.loc (thrL d L) ↦{fullShare} b2) from rfl)) $$ Hb2
  ihave Hb3 := (Entails.of_eq (show ((thrL d L).loc cc1_scratch3 ↦{fullShare} b3 : sProp 𝕄) = ((Memref.whole cc1_scratch3).view.loc (thrL d L) ↦{fullShare} b3) from rfl)) $$ Hb3
  ihave Hb4 := (Entails.of_eq (show ((thrL d L).loc cc1_scratch4 ↦{fullShare} b4 : sProp 𝕄) = ((Memref.whole cc1_scratch4).view.loc (thrL d L) ↦{fullShare} b4) from rfl)) $$ Hb4
  ihave Hb5 := (Entails.of_eq (show ((thrL d L).loc cc1_scratch5 ↦{fullShare} b5 : sProp 𝕄) = ((Memref.whole cc1_scratch5).view.loc (thrL d L) ↦{fullShare} b5) from rfl)) $$ Hb5
  ihave Hb6 := (Entails.of_eq (show ((thrL d L).loc cc1_scratch6 ↦{fullShare} b6 : sProp 𝕄) = ((Memref.whole cc1_scratch6).view.loc (thrL d L) ↦{fullShare} b6) from rfl)) $$ Hb6
  ihave Hb7 := (Entails.of_eq (show ((thrL d L).loc cc1_scratch7 ↦{fullShare} b7 : sProp 𝕄) = ((Memref.whole cc1_scratch7).view.loc (thrL d L) ↦{fullShare} b7) from rfl)) $$ Hb7
  ihave Hb8 := (Entails.of_eq (show ((thrL d L).loc cc1_scratch8 ↦{fullShare} b8 : sProp 𝕄) = ((Memref.whole cc1_scratch8).view.loc (thrL d L) ↦{fullShare} b8) from rfl)) $$ Hb8
  ihave Ho0 := (Entails.of_eq (show (((oS L 0).view.loc (thrL d L) ↦[(oS L 0).view.set]{fullShare} o) : sProp 𝕄) = (((Memref.whole main_v3_scv).slice (Rect.unit (s := S64x16384) (k1_off68 L 0#32) S64x256.size (k1_off68_inb L 0)) (fun _ => rfl)).view.loc (thrL d L) ↦[((Memref.whole main_v3_scv).slice (Rect.unit (s := S64x16384) (k1_off68 L 0#32) S64x256.size (k1_off68_inb L 0)) (fun _ => rfl)).view.set]{fullShare} o) from rfl)) $$ Ho0
  ihave Ho1 := (Entails.of_eq (show (((oS L 1).view.loc (thrL d L) ↦[(oS L 1).view.set]{fullShare} o) : sProp 𝕄) = (((Memref.whole main_v3_scv).slice (Rect.unit (s := S64x16384) (k1_off68 L 256#32) S64x256.size (k1_off68_inb L 1)) (fun _ => rfl)).view.loc (thrL d L) ↦[((Memref.whole main_v3_scv).slice (Rect.unit (s := S64x16384) (k1_off68 L 256#32) S64x256.size (k1_off68_inb L 1)) (fun _ => rfl)).view.set]{fullShare} o) from rfl)) $$ Ho1
  -- the first pass
  rw [wp_bind]
  ihave Hwp := (pass1 d L X R2 h t r hh ht hr O W b0 b1 b2 b3 b4 b5 b6 b7 b8) $$ [HX HR2 Hh Ht Hr Hb0 Hb1 Hb2 Hb3 Hb4 Hb5 Hb6 Hb7 Hb8 Hs9 Hs10 Hc0 Hc1 Hc2 Hc3 HO]
  · isplitr; · iexact Hmw
    isplitl [HX]; · iexact HX
    isplitl [HR2]; · iexact HR2
    isplitl [Hh]; · iexact Hh
    isplitl [Ht]; · iexact Ht
    isplitl [Hr]; · iexact Hr
    isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hb8]; · iexact Hb8
    isplitl [Hs9]; · iexact Hs9
    isplitl [Hs10]; · iexact Hs10
    isplitl [Hc0]; · iexact Hc0
    isplitl [Hc1]; · iexact Hc1
    isplitl [Hc2]; · iexact Hc2
    isplitl [Hc3]; · iexact Hc3
    iexact HO
  iapply (wp_wand frame (wpE (defs₀ (F := F)) 𝒱₀ (V d (cV L) (jV L)) none) Set.univ) $$ Hwp
  iintro %a Hpost
  obtain ⟨v2, v3⟩ := a
  icases Hpost with ⟨%hv3, HX, HR2, Hh, Ht, Hr, ⟨%g0, Hb0⟩, ⟨%g1, Hb1⟩, ⟨%g2, Hb2⟩, ⟨%g3, Hb3⟩, ⟨%g4, Hb4⟩, ⟨%g5, Hb5⟩, ⟨%g6, Hb6⟩, ⟨%F7, Hb7, %hA7⟩, ⟨%f8a, Hb8, %hfa⟩,
    Hs9, Hs10, Hc0, Hc1, Hc2, Hc3, %W1, %hW1, HO⟩
  have hv3' : v3 = (iota .scVector S16 32 [0] iota_S16_d0_w32_scVector) := hv3
  subst hv3'
  -- the second pass, after the first 256 columns are copied out
  iapply (Entails.of_eq (wp_bind frame (wpE (defs₀ (F := F)) 𝒱₀ (V d (cV L) (jV L)) none) Set.univ (k1_part54 L (Memref.whole main_v1_scv) (Memref.isWhole_whole _) (Memref.whole main_v2_scv) (Memref.isWhole_whole _)
            (Memref.whole main_arg2_scv) (Memref.isWhole_whole _) (Memref.whole main_arg3_scv) (Memref.isWhole_whole _)
            (Memref.whole main_arg4_scv) (Memref.isWhole_whole _) (Memref.whole main_v3_scv) (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _) (Memref.whole cc1_scratch5) (Memref.isWhole_whole _)
            (Memref.whole cc1_scratch6) (Memref.isWhole_whole _) (Memref.whole cc1_scratch7) (Memref.isWhole_whole _)
            (Memref.whole cc1_scratch8) (Memref.isWhole_whole _) cc1_scratch9 cc1_scratch10
            cc1_scoped0 cc1_scoped1 cc1_scoped2 cc1_scoped3 cc1_scoped4 cc1_scoped5 cc1_scoped6 cc1_scoped7 cc1_scoped8 v2 (iota .scVector S16 32 [0] iota_S16_d0_w32_scVector)) _ _).symm)
  ihave Hwp := (pass2 d L X R2 h t r hh ht hr O W1 o v2 g0 g1 g2 g3 g4 g5 g6 F7 f8a hA7 hfa) $$ [HX HR2 Hh Ht Hr Hb0 Hb1 Hb2 Hb3 Hb4 Hb5 Hb6 Hb7 Hb8 Ho0 Hs9 Hs10 Hc4 Hc5 Hc6 Hc7 HO]
  · isplitr; · iexact Hmw
    isplitl [HX]; · iexact HX
    isplitl [HR2]; · iexact HR2
    isplitl [Hh]; · iexact Hh
    isplitl [Ht]; · iexact Ht
    isplitl [Hr]; · iexact Hr
    isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hb8]; · iexact Hb8
    isplitl [Ho0]; · iexact Ho0
    isplitl [Hs9]; · iexact Hs9
    isplitl [Hs10]; · iexact Hs10
    isplitl [Hc4]; · iexact Hc4
    isplitl [Hc5]; · iexact Hc5
    isplitl [Hc6]; · iexact Hc6
    isplitl [Hc7]; · iexact Hc7
    iexact HO
  iapply (wp_wand frame (wpE (defs₀ (F := F)) 𝒱₀ (V d (cV L) (jV L)) none) Set.univ) $$ Hwp
  iintro %_ Hpost
  icases Hpost with ⟨HX, HR2, Hh, Ht, Hr, ⟨%k0, Hb0⟩, ⟨%k1, Hb1⟩, ⟨%k2, Hb2⟩, ⟨%k3, Hb3⟩, ⟨%k4, Hb4⟩, ⟨%k5, Hb5⟩, ⟨%k6, Hb6⟩, Hb7, ⟨%f8b, Hb8, %hfb⟩, ⟨%c0, Ho0, %hc0⟩,
    Hs9, Hs10, Hc4, Hc5, Hc6, Hc7, %W2, %hW2, HO⟩
  -- the last 256 columns are copied out
  sl_exec
  sl_step
  isplitl [HX HR2 Hh Ht Hr Ho0 Ho1]
  · isplitl [HX HR2 Hh Ht Hr]
    · isplitl [HX]; · iexact HX
      isplitl [HR2]; · iexact HR2
      isplitl [Hh]; · iexact Hh
      isplitl [Ht]; · iexact Ht
      iexact Hr
    · iapply (Entails.of_eq (out_join d L X R2 h t r c0 (copied d L 1 o (tile_body.sl.dma0 d L f8b)) hc0 (copy_val d L X R2 h t r 1 o _ hfb)))
      isplitl [Ho0]; · iexact Ho0
      iexact Ho1
  isplitl [Hb0 Hb1 Hb2 Hb3 Hb4 Hb5 Hb6 Hb7 Hb8 Hbr]
  · isplitl [Hb0]; · iexists _; iexact Hb0
    isplitl [Hb1]; · iexists _; iexact Hb1
    isplitl [Hb2]; · iexists _; iexact Hb2
    isplitl [Hb3]; · iexists _; iexact Hb3
    isplitl [Hb4]; · iexists _; iexact Hb4
    isplitl [Hb5]; · iexists _; iexact Hb5
    isplitl [Hb6]; · iexists _; iexact Hb6
    isplitl [Hb7]; · iexists _; iexact Hb7
    isplitl [Hb8]; · iexists _; iexact Hb8
    iexact Hbr
  isplitl [Hs9 Hs10 Hc0 Hc1 Hc2 Hc3 Hc4 Hc5 Hc6 Hc7 Hc8 Hcr]
  · isplitl [Hs9]; · iexact Hs9
    isplitl [Hs10]; · iexact Hs10
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    iexact Hcr
  iexists _; isplitr
  rotate_left
  · iexact HO
  · ipureintro
    intro q hq
    simp only [Finset.mem_insert] at hq
    rcases hq with rfl | hq
    · exact Or.inr rfl
    · rcases hW2 q hq with hq1 | hq1
      · rcases hW1 q hq1 with hq0 | hq0
        · exact Or.inl hq0
        · exact Or.inr hq0
      · exact Or.inr hq1

end Cert.KernelIdeal.Hand
end
-- ==== Proof.KI.Glue.lean ====
/-
  The parts put together for the kernel program: the workers' body, the packing pipeline's region and the launch give
  the program's run from any memory whose index lists are in range.
-/
import proofs.«202666_g58660663329007_cont_9to1_m_1270_26_alg».proof.Proof.KI.Run
import proofs.«202666_g58660663329007_cont_9to1_m_1270_26_alg».proof.Proof.KI.Region
import proofs.«202666_g58660663329007_cont_9to1_m_1270_26_alg».proof.Proof.KI.Tile

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Spec

variable {F : FTy → Type}

local notation "𝕄" => MT nD τ sig (HIx 1) (Elt F) ℕ UU ℕ

variable [FloatOps F]

omit [FloatOps F] in
theorem regroup {A B C D E G H : sProp 𝕄} : iprop(A ∗ B ∗ C ∗ D ∗ E ∗ G ∗ H) ⊢ iprop(A ∗ B ∗ (C ∗ D ∗ E) ∗ G ∗ H) := by
  iintro ⟨Hk, Hb, Hxt, Hx2, Ho, Hl, HG⟩
  isplitl [Hk]; · iexact Hk
  isplitl [Hb]; · iexact Hb
  isplitl [Hxt Hx2 Ho]
  · isplitl [Hxt]; · iexact Hxt
    isplitl [Hx2]; · iexact Hx2
    iexact Ho
  isplitl [Hl]; · iexact Hl
  iexact HG

/-- The region's statement in the form @main uses it. -/
theorem regionWp [∀ e, Nonempty (Elt F e)] : RegionWp (F := F) (Gd (F := F)) := by
  intro xt x2₀ d Φ
  have h := region_wp (F := F) xt x2₀ d Φ
  unfold regionPre regionPost owesTc at h
  exact regroup.trans h

/-- The kernel program's run. -/
theorem run [∀ e, Nonempty (Elt F e)] (m : (ℓ : Loc nD τ sig) → Buf (Elt F) ℓ) (ρ : Dev nD → PrngReg) (hpre : PreOK m) :
    θ_run (Cert.KernelIdeal.defs (F := F)) (Cert.KernelIdeal.threads (F := F)) ⟨m, fun _ => 0, ρ⟩ (QC m) :=
  run_main m ρ tile_body (Gd (F := F)) regionWp uP₀ fund_Gd hpre

end Cert.KernelIdeal.Hand

end
-- ==== Proof.KB.Common.lean ====
/-
  Shared names for the proof about the kernel program: the program as the launch theorem sees it, the ghost state (the
  launch handshakes' rounds, the TensorCore pipeline's staging cells, the counters of the local copies), the arrays'
  locations, and what the SparseCore call hands each worker and takes back.

  A worker is a vector subcore (SparseCore c, subcore i); its number is w = 2 i + c.  It reads the packed tables and the
  three index lists (a read share of each, whole) and owns columns [512 w, 512 w + 512) of the 64 x 16384 result, which it
  leaves at the score |head + relation - tail| of its 512 batch entries.
-/
import proofs.«202666_g58660663329007_cont_9to1_m_1270_26_alg».proof.Kernel
import proofs.«202666_g58660663329007_cont_9to1_m_1270_26_alg».proof.Proof.Gen.Kernel
import proofs.«202666_g58660663329007_cont_9to1_m_1270_26_alg».proof.Proof.Gen.Kernel.Launch
import proofs.«202666_g58660663329007_cont_9to1_m_1270_26_alg».proof.Proof.Gen.Kernel.Points
import proofs.«202666_g58660663329007_cont_9to1_m_1270_26_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Spec

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The launch handshakes' rounds: the left factor. -/
abbrev EH : Emb UH (MT nD τ sig (HIx 1) (Elt F) ℕ UU ℕ) := embL
/-- The TensorCore pipeline's staging cells: the middle factor. (The counters of the local copies are the right one, found by instance.) -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The arrays -/

abbrev pLoc (d : Dev nD) : Loc nD τ sig := (SparseCore.T d).loc main_arg0
abbrev rlLoc (d : Dev nD) : Loc nD τ sig := (SparseCore.T d).loc main_arg1
abbrev hLoc (d : Dev nD) : Loc nD τ sig := (SparseCore.T d).loc main_arg2
abbrev tLoc (d : Dev nD) : Loc nD τ sig := (SparseCore.T d).loc main_arg3
abbrev rLoc (d : Dev nD) : Loc nD τ sig := (SparseCore.T d).loc main_arg4
/-- The transposed table, the packed table, the reshaped small table, the workers' result, its transpose. -/
abbrev xtLoc (d : Dev nD) : Loc nD τ sig := (SparseCore.T d).loc main_v0
abbrev x2Loc (d : Dev nD) : Loc nD τ sig := (SparseCore.T d).loc main_v1
abbrev r2Loc (d : Dev nD) : Loc nD τ sig := (SparseCore.T d).loc main_v2
abbrev oLoc (d : Dev nD) : Loc nD τ sig := (SparseCore.T d).loc main_v3
abbrev resLoc (d : Dev nD) : Loc nD τ sig := (SparseCore.T d).loc main_v4

/-! ## The workers -/

/-- The number of the worker on SparseCore `c`, vector subcore `i`. -/
def wid (c : Fin 2) (i : Fin 16) : Fin 32 := ⟨2 * i.val + c.val, by omega⟩

/-- The SparseCore and vector subcore of a grid point of the workers' kernel, and the worker's number there. -/
abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
abbrev widL (L : grid1.Coords) : Fin 32 := wid (Fin.cast bound_zero (L 0)) (Fin.cast bound_one (L 1))

/-- Worker `w`'s read share of an array every worker reads whole. -/
abbrev tok (w : Fin 32) : PosShare TreeShare := Transfers.shareTok fullShare 32 w

/-- Columns [512 w, 512 w + 512) of the 64 x 16384 result. -/
def colSet (w : Fin 32) : Finset S64x16384.Idx :=
  Finset.univ.filter fun j => 512 * w.val ≤ (j 1).val ∧ (j 1).val < 512 * w.val + 512

variable [FloatOps F]

/-- |a + r - t| on one lane. -/
def f3 (a r t : F .f32) : F .f32 := FloatOps.absf (FloatOps.subf (FloatOps.addf a r) t)

section Pay

variable (d : Dev nD) (X : Buf (Elt F) (x2Loc d)) (R2 : Buf (Elt F) (r2Loc d))
  (h : Buf (Elt F) (hLoc d)) (t : Buf (Elt F) (tLoc d)) (r : Buf (Elt F) (rLoc d))

/-- The five arrays a worker reads, each whole at its contents, under the worker's read share. -/
def readPay (w : Fin 32) : sProp 𝕄 :=
  iprop((x2Loc d ↦{tok w} X) ∗ (r2Loc d ↦{tok w} R2) ∗ (hLoc d ↦{tok w} h) ∗ (tLoc d ↦{tok w} t) ∗ (rLoc d ↦{tok w} r))

/-- The result the workers compute, as one function of the five arrays' contents. -/
def scoreOf : Buf (Elt F) (oLoc d) := scoreT (f3 (F := F)) X R2 h t r

/-- What a worker is handed: its read shares and its columns of the result at whatever they hold. -/
def goPay (w : Fin 32) (o : Buf (Elt F) (oLoc d)) : sProp 𝕄 :=
  iprop(readPay d X R2 h t r w ∗ (oLoc d ↦[colSet w]{fullShare} o))

/-- What it hands back: the same read shares, and its columns at the score. -/
def tdPay (w : Fin 32) : sProp 𝕄 :=
  iprop(readPay d X R2 h t r w ∗ (oLoc d ↦[colSet w]{fullShare} scoreOf d X R2 h t r))

end Pay

end Cert.Kernel.Hand

end
-- ==== Proof.KB.TileStmt.lean ====
/-
  The statement of one worker's body: from its read shares of the five arrays, its 512 columns of the result, its own
  scratch and semaphores, the worker's program runs to its end and leaves its columns at the score.
-/
import proofs.«202666_g58660663329007_cont_9to1_m_1270_26_alg».proof.Proof.KB.Common

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The worker's program at grid point `L`, on the whole arrays and its own scratch and semaphores. -/
abbrev workerProg (L : grid1.Coords) :=
  cc1_sc_kernel (F := F) L (Memref.whole main_v1_scv) (Memref.isWhole_whole _) (Memref.whole main_v2_scv) (Memref.isWhole_whole _)
    (Memref.whole main_arg2_scv) (Memref.isWhole_whole _) (Memref.whole main_arg3_scv) (Memref.isWhole_whole _)
    (Memref.whole main_arg4_scv) (Memref.isWhole_whole _) (Memref.whole main_v3_scv) (Memref.isWhole_whole _)
    (Memref.whole cc1_scratch0) (Memref.isWhole_whole _) (Memref.whole cc1_scratch1) (Memref.isWhole_whole _)
    (Memref.whole cc1_scratch2) (Memref.isWhole_whole _) (Memref.whole cc1_scratch3) (Memref.isWhole_whole _)
    (Memref.whole cc1_scratch4) (Memref.isWhole_whole _) (Memref.whole cc1_scratch5) (Memref.isWhole_whole _)
    (Memref.whole cc1_scratch6) (Memref.isWhole_whole _) (Memref.whole cc1_scratch7) (Memref.isWhole_whole _)
    (Memref.whole cc1_scratch8) (Memref.isWhole_whole _) cc1_scratch9 cc1_scratch10
    cc1_scoped0 cc1_scoped1 cc1_scoped2 cc1_scoped3 cc1_scoped4 cc1_scoped5 cc1_scoped6 cc1_scoped7 cc1_scoped8

/-- The body obligation of a worker, for every grid point and all contents with the index lists in range. -/
def TileBody : Prop :=
  ∀ (d : Dev nD) (L : grid1.Coords)
    (X : Buf (Elt F) (x2Loc d)) (R2 : Buf (Elt F) (r2Loc d)) (h : Buf (Elt F) (hLoc d)) (t : Buf (Elt F) (tLoc d)) (r : Buf (Elt F) (rLoc d))
    (o : Buf (Elt F) (oLoc d))
    (_ : ∀ j, (h j).toNat < 1000000) (_ : ∀ j, (t j).toNat < 1000000) (_ : ∀ j, (r j).toNat < 100)
    (_ : (K (F := F)).Facts) (O : CellTallies nD τ sig (HIx 1)) (W : Waits sig (HIx 1)) (_ : ∀ g, O g none = 0),
    iprop(levAts (K (F := F)).L (K (F := F)).lev ∗ emp ∗ goPay d X R2 h t r (widL L) o
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (workerProg (F := F) L)
          fun _ => (iprop(tdPay d X R2 h t r (widL L) ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄)

end Cert.Kernel.Hand

end
-- ==== Proof.KB.Split.lean ====
/-
  How the arrays of the SparseCore call are dealt to the 32 workers and collected again.  Each array every worker reads
  (the packed tables, the three index lists) is split into 32 read shares and a remainder that stays behind; the result's
  16384 columns are cut into the 32 blocks of 512 columns, pairwise disjoint and covering.  Afterwards the shares rejoin,
  and the blocks, each at the one score function, rejoin to the whole result at that function.
-/
import proofs.«202666_g58660663329007_cont_9to1_m_1270_26_alg».proof.Proof.KB.Common
import Idealize.ShloMosaic.Lib.Transfers

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.Spec

variable {F : FTy → Type}

local notation "𝕄" => MT nD τ sig (HIx 1) (Elt F) ℕ UU ℕ

/-! ## The workers, numbered -/

/-- (SparseCore c, subcore i) ↦ 2 i + c is a bijection onto the 32 worker numbers. -/
def widEquiv : Fin 2 × Fin 16 ≃ Fin 32 where
  toFun ci := wid ci.1 ci.2
  invFun w := (⟨w.val % 2, Nat.mod_lt _ (by decide)⟩, ⟨w.val / 2, by have := w.isLt; omega⟩)
  left_inv ci := by
    obtain ⟨c, i⟩ := ci
    refine Prod.ext (Fin.ext ?_) (Fin.ext ?_)
    · show (2 * i.val + c.val) % 2 = c.val
      have := c.isLt; omega
    · show (2 * i.val + c.val) / 2 = i.val
      have := c.isLt; omega
  right_inv w := by
    refine Fin.ext ?_
    show 2 * (w.val / 2) + w.val % 2 = w.val
    omega

theorem bigSep_workers {M : Type} [URA M] (Φ : Fin 32 → sProp M) :
    bigSep Finset.univ Φ = bigSep Finset.univ fun c : Fin 2 => bigSep Finset.univ fun i : Fin 16 => Φ (wid c i) := by
  rw [← bigSep_univ_prod (fun ci : Fin 2 × Fin 16 => Φ (wid ci.1 ci.2)), ← Finset.map_univ_equiv widEquiv, bigSep_map]
  rfl

/-! ## The result's columns -/

theorem cols_disjoint : ∀ w ∈ (Finset.univ : Finset (Fin 32)), ∀ w' ∈ (Finset.univ : Finset (Fin 32)), w ≠ w' → Disjoint (colSet w) (colSet w') := by
  intro w _ w' _ hne
  refine Finset.disjoint_left.mpr fun j hj hj' => hne (Fin.ext ?_)
  unfold colSet at hj hj'
  rw [Finset.mem_filter] at hj hj'
  omega

theorem cols_cover : (Finset.univ : Finset (Fin 32)).biUnion colSet = Finset.univ := by
  refine Finset.eq_univ_iff_forall.mpr fun j => Finset.mem_biUnion.mpr ?_
  have hj : (j 1).val < 16384 := idx2_lt1 j
  refine ⟨⟨(j 1).val / 512, by omega⟩, Finset.mem_univ _, ?_⟩
  unfold colSet
  rw [Finset.mem_filter]
  refine ⟨Finset.mem_univ _, ?_⟩
  show 512 * ((j 1).val / 512) ≤ (j 1).val ∧ (j 1).val < 512 * ((j 1).val / 512) + 512
  omega

theorem o_cols (d : Dev nD) (f : Buf (Elt F) (oLoc d)) :
    (oLoc d ↦{fullShare} f : sProp 𝕄) = bigSep Finset.univ fun w : Fin 32 => oLoc d ↦[colSet w]{fullShare} f := by
  rw [← pointsTo_biUnion Finset.univ (ℓ := oLoc d) colSet cols_disjoint, cols_cover]; try rfl

/-! ## Dealing and collecting -/

variable [FloatOps F]

section Deal

variable (d : Dev nD) (X : Buf (Elt F) (x2Loc d)) (R2 : Buf (Elt F) (r2Loc d))
  (h : Buf (Elt F) (hLoc d)) (t : Buf (Elt F) (tLoc d)) (r : Buf (Elt F) (rLoc d))

/-- What stays behind of the five arrays while the workers hold their read shares. -/
def remPay : sProp 𝕄 :=
  iprop((x2Loc d ↦{Transfers.shareDrop fullShare 32} X) ∗ (r2Loc d ↦{Transfers.shareDrop fullShare 32} R2)
    ∗ (hLoc d ↦{Transfers.shareDrop fullShare 32} h) ∗ (tLoc d ↦{Transfers.shareDrop fullShare 32} t)
    ∗ (rLoc d ↦{Transfers.shareDrop fullShare 32} r))

/-- The five arrays whole. -/
def wholePay : sProp 𝕄 :=
  iprop((x2Loc d ↦{fullShare} X) ∗ (r2Loc d ↦{fullShare} R2) ∗ (hLoc d ↦{fullShare} h) ∗ (tLoc d ↦{fullShare} t) ∗ (rLoc d ↦{fullShare} r))

theorem reads_split : (wholePay d X R2 h t r : sProp 𝕄) ⊢ iprop(remPay d X R2 h t r ∗ bigSep Finset.univ fun w : Fin 32 => readPay d X R2 h t r w) := by
  unfold wholePay remPay readPay
  rw [bigSep_sep', bigSep_sep', bigSep_sep', bigSep_sep']
  iintro ⟨H1, H2, H3, H4, H5⟩
  ihave H1' := (Transfers.pointsTo_toks (ℓ := x2Loc d) (S := Finset.univ) (f := X) fullShare 32).1 $$ H1
  ihave H2' := (Transfers.pointsTo_toks (ℓ := r2Loc d) (S := Finset.univ) (f := R2) fullShare 32).1 $$ H2
  ihave H3' := (Transfers.pointsTo_toks (ℓ := hLoc d) (S := Finset.univ) (f := h) fullShare 32).1 $$ H3
  ihave H4' := (Transfers.pointsTo_toks (ℓ := tLoc d) (S := Finset.univ) (f := t) fullShare 32).1 $$ H4
  ihave H5' := (Transfers.pointsTo_toks (ℓ := rLoc d) (S := Finset.univ) (f := r) fullShare 32).1 $$ H5
  icases H1' with ⟨R1, T1⟩
  icases H2' with ⟨R2', T2⟩
  icases H3' with ⟨R3, T3⟩
  icases H4' with ⟨R4, T4⟩
  icases H5' with ⟨R5, T5⟩
  isplitl [R1 R2' R3 R4 R5]
  · isplitl [R1]; · iexact R1
    isplitl [R2']; · iexact R2'
    isplitl [R3]; · iexact R3
    isplitl [R4]; · iexact R4
    iexact R5
  · isplitl [T1]; · iexact T1
    isplitl [T2]; · iexact T2
    isplitl [T3]; · iexact T3
    isplitl [T4]; · iexact T4
    iexact T5

theorem reads_join : iprop(remPay d X R2 h t r ∗ bigSep Finset.univ fun w : Fin 32 => readPay d X R2 h t r w) ⊢ (wholePay d X R2 h t r : sProp 𝕄) := by
  unfold wholePay remPay readPay
  rw [bigSep_sep', bigSep_sep', bigSep_sep', bigSep_sep']
  iintro ⟨⟨R1, R2', R3, R4, R5⟩, T1, T2, T3, T4, T5⟩
  isplitl [R1 T1]
  · iapply (Transfers.pointsTo_toks (ℓ := x2Loc d) (S := Finset.univ) (f := X) fullShare 32).2
    isplitl [R1] <;> iassumption
  isplitl [R2' T2]
  · iapply (Transfers.pointsTo_toks (ℓ := r2Loc d) (S := Finset.univ) (f := R2) fullShare 32).2
    isplitl [R2'] <;> iassumption
  isplitl [R3 T3]
  · iapply (Transfers.pointsTo_toks (ℓ := hLoc d) (S := Finset.univ) (f := h) fullShare 32).2
    isplitl [R3] <;> iassumption
  isplitl [R4 T4]
  · iapply (Transfers.pointsTo_toks (ℓ := tLoc d) (S := Finset.univ) (f := t) fullShare 32).2
    isplitl [R4] <;> iassumption
  · iapply (Transfers.pointsTo_toks (ℓ := rLoc d) (S := Finset.univ) (f := r) fullShare 32).2
    isplitl [R5] <;> iassumption

/-- The call's operands dealt: the remainder, and every worker's hand. -/
theorem deal (o : Buf (Elt F) (oLoc d)) :
    iprop(wholePay d X R2 h t r ∗ (oLoc d ↦{fullShare} o))
      ⊢ (iprop(remPay d X R2 h t r ∗ bigSep Finset.univ fun w : Fin 32 => goPay d X R2 h t r w o) : sProp 𝕄) := by
  unfold goPay
  rw [bigSep_sep', o_cols]
  iintro ⟨Hw, Ho⟩
  ihave H := (reads_split d X R2 h t r) $$ Hw
  icases H with ⟨Hr, Ht⟩
  isplitl [Hr]; · iexact Hr
  isplitl [Ht]; · iexact Ht
  iexact Ho

/-- The workers' hands collected: the five arrays whole again, the result whole at the score. -/
theorem collect :
    iprop(remPay d X R2 h t r ∗ bigSep Finset.univ fun w : Fin 32 => tdPay d X R2 h t r w)
      ⊢ (iprop(wholePay d X R2 h t r ∗ (oLoc d ↦{fullShare} scoreOf d X R2 h t r)) : sProp 𝕄) := by
  unfold tdPay
  rw [bigSep_sep', o_cols]
  iintro ⟨Hr, Ht, Ho⟩
  isplitl [Hr Ht]
  · iapply (reads_join d X R2 h t r)
    isplitl [Hr] <;> iassumption
  · iexact Ho

end Deal

end Cert.Kernel.Hand

end
-- ==== Proof.KB.Launch.lean ====
/-
  The launch of the kernel program: what the SparseCore call hands its two SparseCores and their sixteen workers each and
  takes back, the workers' obligation from their body's statement, and how a SparseCore's hand splits among its workers.
-/
import proofs.«202666_g58660663329007_cont_9to1_m_1270_26_alg».proof.Proof.KB.TileStmt
import proofs.«202666_g58660663329007_cont_9to1_m_1270_26_alg».proof.Proof.KB.Split

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Spec

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The arrays' contents along @main, as functions of the launch memory -/

/-- The table transposed; packed; the small table reshaped; the workers' score; the score transposed. -/
def xtOf (d : Dev nD) : Buf (Elt F) (xtLoc d) := transpose S64x1000000 [1, 0] (m (pLoc d)) transposes_S1000000x64_S64x1000000_1_0
def x2Of (d : Dev nD) : Buf (Elt F) (x2Loc d) := packT (xtOf m d)
def r2Of (d : Dev nD) : Buf (Elt F) (r2Loc d) := fun i => shapeCast S50x128 (m (rlLoc d)) shapeCasts_S100x64_S50x128 i
def oOf (d : Dev nD) : Buf (Elt F) (oLoc d) := scoreOf d (x2Of m d) (r2Of m d) (m (hLoc d)) (m (tLoc d)) (m (rLoc d))
def resOf (d : Dev nD) : Buf (Elt F) (resLoc d) := transpose S16384x64 [1, 0] (oOf m d) transposes_S64x16384_S16384x64_1_0

/-- What the proof asks of the launch memory: every index word is a row number of its table. -/
def PreOK : Prop :=
  ∀ d : Dev nD, (∀ j, (m (hLoc d) j).toNat < 1000000) ∧ (∀ j, (m (tLoc d) j).toNat < 1000000) ∧ (∀ j, (m (rLoc d) j).toNat < 100)

/-! ## What the handshakes carry -/

abbrev goW (d : Dev nD) (w : Fin 32) : sProp 𝕄 := goPay d (x2Of m d) (r2Of m d) (m (hLoc d)) (m (tLoc d)) (m (rLoc d)) w (m (oLoc d))
abbrev tdW (d : Dev nD) (w : Fin 32) : sProp 𝕄 := tdPay d (x2Of m d) (r2Of m d) (m (hLoc d)) (m (tLoc d)) (m (rLoc d)) w

/-- The one call hands SparseCore `c` its sixteen workers' hands and takes them back, the columns at the score. -/
def P : (K (F := F)).Pay (nD := nD) (Val := Elt F) (Name := ℕ) (U := UU) where
  st := fun q d c => match q with | 0 => bigSep Finset.univ fun i : Fin 16 => goW m d (wid (Fin.cast nCore_zero c) i)
  dn := fun q d c => match q with | 0 => bigSep Finset.univ fun i : Fin 16 => tdW m d (wid (Fin.cast nCore_zero c) i)
  go := fun q d c i => match q with | 0 => goW m d (wid (Fin.cast nCore_zero c) (Fin.cast nSub_zero i))
  td := fun q d c i => match q with | 0 => tdW m d (wid (Fin.cast nCore_zero c) (Fin.cast nSub_zero i))
  x := fun _ _ => iprop(emp)

instance goPay_storable (d : Dev nD) X R2 h t r (w : Fin 32) o : BI.Storable (upEmb : UEmb _ 𝕄) (goPay (F := F) d X R2 h t r w o) := by
  unfold goPay readPay; infer_instance
instance tdPay_storable (d : Dev nD) X R2 h t r (w : Fin 32) : BI.Storable (upEmb : UEmb _ 𝕄) (tdPay (F := F) d X R2 h t r w) := by
  unfold tdPay readPay; infer_instance

instance P_storable : (P (F := F) m).IsStorable where
  st q d c := match q with
    | 0 => (inferInstance : BI.Storable (upEmb : UEmb _ 𝕄) (bigSep Finset.univ fun i : Fin 16 => goW m d (wid (Fin.cast nCore_zero c) i)))
  dn q d c := match q with
    | 0 => (inferInstance : BI.Storable (upEmb : UEmb _ 𝕄) (bigSep Finset.univ fun i : Fin 16 => tdW m d (wid (Fin.cast nCore_zero c) i)))
  go q d c i := match q with
    | 0 => (inferInstance : BI.Storable (upEmb : UEmb _ 𝕄) (goW m d (wid (Fin.cast nCore_zero c) (Fin.cast nSub_zero i))))
  td q d c i := match q with
    | 0 => (inferInstance : BI.Storable (upEmb : UEmb _ 𝕄) (tdW m d (wid (Fin.cast nCore_zero c) (Fin.cast nSub_zero i))))

/-! ## The workers' obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => workerProg (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (htile : TileBody (F := F)) (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (htile d (coordsV ⟨_, hc.1⟩ ⟨_, hc.2⟩) (x2Of m d) (r2Of m d) (m (hLoc d)) (m (tLoc d)) (m (rLoc d)) (m (oLoc d))
    (hpre d).1 (hpre d).2.1 (hpre d).2.2 hF O W hO).trans (wp_mono frame _ _ fun _ => obl_post)

/-! ## A SparseCore's hand split among its workers -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun i : Fin 16 => goW m d (wid (Fin.cast nCore_zero c) i)) ⊢ |={Set.univ}=> iprop(
      (bigSep Finset.univ fun i : Fin ((K (F := F)).nSub 0) => goW m d (wid (Fin.cast nCore_zero c) (Fin.cast nSub_zero i)))
      ∗ ((bigSep Finset.univ fun i : Fin ((K (F := F)).nSub 0) => tdW m d (wid (Fin.cast nCore_zero c) (Fin.cast nSub_zero i)))
          -∗ bigSep Finset.univ fun i : Fin 16 => tdW m d (wid (Fin.cast nCore_zero c) i)))
  rw [bigSep_tasks (F := F) (fun i => goW m d (wid (Fin.cast nCore_zero c) i)),
    bigSep_tasks (F := F) (fun i => tdW m d (wid (Fin.cast nCore_zero c) i))]
  iintro H; imodintro
  isplitl [H]; · iexact H
  iintro H; iexact H

end Cert.Kernel.Hand

end
-- ==== Proof.KB.Main.lean ====
/-
  @main on the TensorCore, and the program's run.  @main transposes the table, runs the packing pipeline, reshapes the
  small table, starts the SparseCores and waits for them, and transposes their result.  Around the SparseCore call the
  five arrays the workers read are split into read shares and the result into column blocks, and collected afterwards.
-/
import proofs.«202666_g58660663329007_cont_9to1_m_1270_26_alg».proof.Proof.KB.Launch

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Cert.Spec

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The TensorCore's arrays -/

omit [FloatOps F] in
theorem unscopedBufs_eq (d : Dev nD) (W : (b : Ref sig .tc) → Buf (Elt F) ((d.tc : Thread nD τ).loc b)) :
    (unscopedBufs d W : sProp 𝕄) = iprop((pLoc d ↦{fullShare} W main_arg0) ∗ (rlLoc d ↦{fullShare} W main_arg1) ∗ (hLoc d ↦{fullShare} W main_arg2)
      ∗ (tLoc d ↦{fullShare} W main_arg3) ∗ (rLoc d ↦{fullShare} W main_arg4) ∗ (xtLoc d ↦{fullShare} W main_v0) ∗ (x2Loc d ↦{fullShare} W main_v1)
      ∗ (r2Loc d ↦{fullShare} W main_v2) ∗ (oLoc d ↦{fullShare} W main_v3) ∗ (resLoc d ↦{fullShare} W main_v4)) := by
  unfold unscopedBufs
  rw [show (Finset.univ.filter fun b : Ref sig .tc => ¬ b.isScoped) = {main_arg0, main_arg1, main_arg2, main_arg3, main_arg4, main_v0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

/-! ## The host operations -/

/-- A host operation with one operand and one result, alone before a return: it needs the region boundary and the two
    arrays whole, and leaves the result at the function's value. -/
theorem wp_unary_ret (d : Dev nD) (x y : Ref sig .tc) (f : x.ty.Contents (Elt F) → y.ty.Contents (Elt F)) (hx) (hy)
    (hne : (Proc.devRef .tc x : DevRef τ sig) ≠ Proc.devRef .tc y)
    {Λ : Labels} (defs : Defs nD τ sig (Elt F) Λ) (𝒱' : Variants) (hp : (SparseCore.T d : Thread nD τ).2.kind.runsHlo = true)
    (W : Valuation τ sig (Elt F)) (Q : PUnit → sProp 𝕄) :
    iprop(boundary (SparseCore.T d) ∗ ((((d, Proc.devRef .tc x) : Loc nD τ sig)) ↦{fullShare} W (Proc.devRef .tc x))
        ∗ ((((d, Proc.devRef .tc y) : Loc nD τ sig)) ↦{fullShare} W (Proc.devRef .tc y)))
      ⊢ iprop(((boundary (SparseCore.T d) ∗ ((((d, Proc.devRef .tc x) : Loc nD τ sig)) ↦{fullShare} W (Proc.devRef .tc x))
            ∗ ((((d, Proc.devRef .tc y) : Loc nD τ sig)) ↦{fullShare} f (W (Proc.devRef .tc x)))) -∗ Q ⟨⟩)
        -∗ wp frame (wpE defs 𝒱' (SparseCore.T d) none) Set.univ
          (hlo hp (StableHlo.unary x y f hx hy) fun _ => Prog.ret PUnit.unit) Q) := by
  have e1 : (held (SparseCore.T d) {Proc.devRef .tc x, Proc.devRef .tc y} W : sProp 𝕄)
      = iprop(((((d, Proc.devRef .tc x) : Loc nD τ sig)) ↦{fullShare} W (Proc.devRef .tc x))
        ∗ ((((d, Proc.devRef .tc y) : Loc nD τ sig)) ↦{fullShare} W (Proc.devRef .tc y))) := by
    unfold held
    rw [SparseCore.bigSep_insert' (by simpa using hne), bigSep_singleton]
  have e2 : (held (SparseCore.T d) {Proc.devRef .tc x, Proc.devRef .tc y} ((StableHlo.unary x y f hx hy : HloOp τ sig (Elt F)).result W) : sProp 𝕄)
      = iprop(((((d, Proc.devRef .tc x) : Loc nD τ sig)) ↦{fullShare} W (Proc.devRef .tc x))
        ∗ ((((d, Proc.devRef .tc y) : Loc nD τ sig)) ↦{fullShare} f (W (Proc.devRef .tc x)))) := by
    unfold held
    rw [SparseCore.bigSep_insert' (by simpa using hne), bigSep_singleton,
      (StableHlo.unary x y f hx hy : HloOp τ sig (Elt F)).result_of_not_mem W (b := Proc.devRef .tc x) (by simpa using hne),
      StableHlo.unary_result]
  iintro ⟨Hb, Hx, Hy⟩ Hk
  iapply (wp_hlo_within 𝒱' (SparseCore.T d) none Set.univ (op := StableHlo.unary x y f hx hy)
    (S := {Proc.devRef .tc x, Proc.devRef .tc y}) (Finset.Subset.refl _) (V := W)) $$ [Hb Hx Hy]
  · isplitl [Hb]; · iexact Hb
    iapply (Entails.of_eq e1.symm)
    isplitl [Hx]; · iexact Hx
    iexact Hy
  iintro ⟨Hb, Hheld⟩
  ihave Hh := (Entails.of_eq e2) $$ Hheld
  icases Hh with ⟨Hx, Hy⟩
  rw [wp_ret]; imodintro
  iapply Hk
  isplitl [Hb]; · iexact Hb
  isplitl [Hx]; · iexact Hx
  iexact Hy

/-- The same for a reshape: the result holds the operand's elements at the result's shape. -/
theorem wp_reshape_ret (d : Dev nD) (x y : Ref sig .tc) (he : x.ty.elt = y.ty.elt) (hn : x.ty.shape.ShapeCasts y.ty.shape) (hx) (hy)
    (hne : (Proc.devRef .tc x : DevRef τ sig) ≠ Proc.devRef .tc y)
    {Λ : Labels} (defs : Defs nD τ sig (Elt F) Λ) (𝒱' : Variants) (hp : (SparseCore.T d : Thread nD τ).2.kind.runsHlo = true)
    (W : Valuation τ sig (Elt F)) (Q : PUnit → sProp 𝕄) :
    iprop(boundary (SparseCore.T d) ∗ ((((d, Proc.devRef .tc x) : Loc nD τ sig)) ↦{fullShare} W (Proc.devRef .tc x))
        ∗ ((((d, Proc.devRef .tc y) : Loc nD τ sig)) ↦{fullShare} W (Proc.devRef .tc y)))
      ⊢ iprop(((boundary (SparseCore.T d) ∗ ((((d, Proc.devRef .tc x) : Loc nD τ sig)) ↦{fullShare} W (Proc.devRef .tc x))
            ∗ ((((d, Proc.devRef .tc y) : Loc nD τ sig)) ↦{fullShare} (fun i => he ▸ shapeCast y.ty.shape (W (Proc.devRef .tc x)) hn i))) -∗ Q ⟨⟩)
        -∗ wp frame (wpE defs 𝒱' (SparseCore.T d) none) Set.univ
          (hlo hp (StableHlo.reshape x y he hn hx hy) fun _ => Prog.ret PUnit.unit) Q) := by
  have e1 : (held (SparseCore.T d) {Proc.devRef .tc x, Proc.devRef .tc y} W : sProp 𝕄)
      = iprop(((((d, Proc.devRef .tc x) : Loc nD τ sig)) ↦{fullShare} W (Proc.devRef .tc x))
        ∗ ((((d, Proc.devRef .tc y) : Loc nD τ sig)) ↦{fullShare} W (Proc.devRef .tc y))) := by
    unfold held
    rw [SparseCore.bigSep_insert' (by simpa using hne), bigSep_singleton]
  have e2 : (held (SparseCore.T d) {Proc.devRef .tc x, Proc.devRef .tc y} ((StableHlo.reshape x y he hn hx hy : HloOp τ sig (Elt F)).result W) : sProp 𝕄)
      = iprop(((((d, Proc.devRef .tc x) : Loc nD τ sig)) ↦{fullShare} W (Proc.devRef .tc x))
        ∗ ((((d, Proc.devRef .tc y) : Loc nD τ sig)) ↦{fullShare} (fun i => he ▸ shapeCast y.ty.shape (W (Proc.devRef .tc x)) hn i))) := by
    unfold held
    rw [SparseCore.bigSep_insert' (by simpa using hne), bigSep_singleton,
      (StableHlo.reshape x y he hn hx hy : HloOp τ sig (Elt F)).result_of_not_mem W (b := Proc.devRef .tc x) (by simpa using hne),
      StableHlo.reshape_result]
  iintro ⟨Hb, Hx, Hy⟩ Hk
  iapply (wp_hlo_within 𝒱' (SparseCore.T d) none Set.univ (op := StableHlo.reshape x y he hn hx hy)
    (S := {Proc.devRef .tc x, Proc.devRef .tc y}) (Finset.Subset.refl _) (V := W)) $$ [Hb Hx Hy]
  · isplitl [Hb]; · iexact Hb
    iapply (Entails.of_eq e1.symm)
    isplitl [Hx]; · iexact Hx
    iexact Hy
  iintro ⟨Hb, Hheld⟩
  ihave Hh := (Entails.of_eq e2) $$ Hheld
  icases Hh with ⟨Hx, Hy⟩
  rw [wp_ret]; imodintro
  iapply Hk
  isplitl [Hb]; · iexact Hb
  isplitl [Hx]; · iexact Hx
  iexact Hy

/-! ## The packing pipeline's region, as @main needs it -/

/-- What the region's proof supplies: from the region boundary, the transposed table and the packed table's array whole,
    what the TensorCore owes before the first call, the level facts and the launch's deal `Gd d` for the pipeline's
    staging cells, the region runs and leaves the packed table at `packT` of the transposed one. -/
def RegionWp (Gd : Dev nD → sProp 𝕄) : Prop :=
  ∀ (xt : (d : Dev nD) → Buf (Elt F) (xtLoc d)) (x2₀ : (d : Dev nD) → Buf (Elt F) (x2Loc d)) (d : Dev nD) (Φ : PUnit → sProp 𝕄),
    iprop(((boundary (SparseCore.T d) ∗ (xtLoc d ↦{fullShare} xt d) ∗ (x2Loc d ↦{fullShare} (packT (xt d) : Buf (Elt F) (x2Loc d)))
            ∗ (∃ W, ⌜(K (F := F)).WBelow (SparseCore.T d) W (8 * 0)⌝ ∗ owes (SparseCore.T d) ((K (F := F)).Otc d 0) W)) -∗ Φ ⟨⟩)
        ∗ boundary (SparseCore.T d) ∗ (xtLoc d ↦{fullShare} xt d) ∗ (x2Loc d ↦{fullShare} x2₀ d)
        ∗ (∃ W, ⌜(K (F := F)).WBelow (SparseCore.T d) W (8 * 0)⌝ ∗ owes (SparseCore.T d) ((K (F := F)).Otc d 0) W)
        ∗ levAts (K (F := F)).L (K (F := F)).lev ∗ Gd d)
      ⊢ wp frame (wpE (D (F := F)) 𝒱 (SparseCore.T d) none) Set.univ
          (Prog.lift (.customCall (Pipeline.entry 0) ()) : Prog (TpuEff nD τ sig (Elt F) (ΛP (F := F)) .tc) PUnit) Φ

/-! ## @main -/

/-- The launch contents as a valuation of device `d`'s buffers. -/
def V0 (d : Dev nD) : Valuation τ sig (Elt F) := fun b => m (d, b)

abbrev o' : DevRef τ sig := Proc.devRef .tc (main_v3 : Ref sig .tc)
abbrev res' : DevRef τ sig := Proc.devRef .tc (main_v4 : Ref sig .tc)
/-- The valuation at the last transpose: the workers' result at the score. -/
def V3 (d : Dev nD) : Valuation τ sig (Elt F) := Function.update (V0 m d) o' (oOf m d)
theorem V3_o (d : Dev nD) : V3 m d o' = oOf m d := Function.update_self _ _ _
theorem V3_res (d : Dev nD) : V3 m d res' = m (resLoc d) := Function.update_of_ne (show res' ≠ o' by decide) _ _

theorem o_eq (d : Dev nD) :
    (oLoc d ↦{fullShare} scoreOf d (x2Of m d) (r2Of m d) (m (hLoc d)) (m (tLoc d)) (m (rLoc d)) : sProp 𝕄) = (oLoc d ↦{fullShare} V3 m d o') := by
  rw [V3_o]; rfl

/-- What @main leaves the claim: the five arguments at their launch contents, the result at the kernel's function of them. -/
abbrev FIN (d : Dev nD) : sProp 𝕄 :=
  iprop((pLoc d ↦{fullShare} m (pLoc d)) ∗ (rlLoc d ↦{fullShare} m (rlLoc d)) ∗ (hLoc d ↦{fullShare} m (hLoc d))
    ∗ (tLoc d ↦{fullShare} m (tLoc d)) ∗ (rLoc d ↦{fullShare} m (rLoc d)) ∗ (resLoc d ↦{fullShare} resOf m d))

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st0_eq (d : Dev nD) :
    (bigSep Finset.univ fun c : Fin ((K (F := F)).nCore 0) => (P m).st 0 d c) = bigSep Finset.univ fun w : Fin 32 => goW m d w := by
  rw [bigSep_workers (fun w => goW m d w)]
  exact bigSep_cores (F := F) (fun c => bigSep Finset.univ fun i : Fin 16 => goW m d (wid c i))
theorem dn0_eq (d : Dev nD) :
    (bigSep Finset.univ fun c : Fin ((K (F := F)).nCore 0) => (P m).dn 0 d c) = bigSep Finset.univ fun w : Fin 32 => tdW m d w := by
  rw [bigSep_workers (fun w => tdW m d w)]
  exact bigSep_cores (F := F) (fun c => bigSep Finset.univ fun i : Fin 16 => tdW m d (wid c i))

set_option maxHeartbeats 1600000 in
theorem hmain (Gd : Dev nD → sProp 𝕄) (hregion : RegionWp (F := F) Gd) (κ : GSem nD τ sig → ℕ) (d : Dev nD) :
    iprop((K (F := F)).ctx EH (P m) κ ∗ (K (F := F)).tcSt EH d 0 ∗ (K (F := F)).tcRes m ρ d ∗ Gd d)
      ⊢ wp frame (wpE ((K (F := F)).defs (D (F := F))) 𝒱 (SparseCore.T d) none) Set.univ (main d)
          fun _ => iprop((K (F := F)).tcSt EH d 1 ∗ FIN m d) := by
  obtain ⟨Rst, hRst⟩ : ∃ R : sProp 𝕄, (K (F := F)).tcSt EH d 0
      = iprop((∃ W, ⌜(K (F := F)).WBelow (SparseCore.T d) W (8 * 0)⌝ ∗ owes (SparseCore.T d) ((K (F := F)).Otc d 0) W) ∗ R) :=
    ⟨_, by unfold SparseCore.Cfg.tcSt; rfl⟩
  unfold SparseCore.Cfg.tcRes
  rw [unscopedBufs_eq]
  simp only [main, wp_bind, wp_pure]
  iintro ⟨#Hctx, Hst, ⟨Hb, ⟨Hp, Hrl, Hh, Ht, Hr, Hxt, Hx2, Hr2, Ho, Hres⟩, Hsems, Hprng⟩, HG⟩
  -- the table transposed
  iapply (wp_unary_ret d main_arg0 main_v0 _ _ _ (by decide) _ 𝒱 _ (V0 m d) _) $$ [Hb Hp Hxt]
  · isplitl [Hb]; · iexact Hb
    isplitl [Hp]; · iexact Hp
    iexact Hxt
  iintro ⟨Hb, Hp, Hxt⟩
  -- the packing pipeline
  ihave Hst' := (Entails.of_eq hRst) $$ Hst
  icases Hst' with ⟨Howes, Hstrest⟩
  ihave Hlev := ((K (F := F)).ctx_levAts κ) $$ Hctx
  iapply ((K (F := F)).wp_liftProg (D (F := F)) 𝒱 (SparseCore.T d) Set.univ none (Prog.lift (.customCall (Pipeline.entry 0) ())) _)
  iapply (hregion (xtOf m) (fun d => m (x2Loc d)) d _) $$ [Hb Hxt Hx2 Howes Hlev HG Hp Hrl Hh Ht Hr Hr2 Ho Hres Hsems Hprng Hstrest]
  isplitr [Hb Hxt Hx2 Howes Hlev HG]
  rotate_left
  · isplitl [Hb]; · iexact Hb
    isplitl [Hxt]; · iexact Hxt
    isplitl [Hx2]; · iexact Hx2
    isplitl [Howes]; · iexact Howes
    isplitl [Hlev]; · iexact Hlev
    iexact HG
  iintro ⟨Hb, Hxt, Hx2, Howes⟩
  -- the small table reshaped
  iapply (wp_reshape_ret d main_arg1 main_v2 _ _ _ _ (by decide) _ 𝒱 _ (V0 m d) _) $$ [Hb Hrl Hr2]
  · isplitl [Hb]; · iexact Hb
    isplitl [Hrl]; · iexact Hrl
    iexact Hr2
  iintro ⟨Hb, Hrl, Hr2⟩
  -- the SparseCore call: the operands dealt to the workers, and collected
  ihave Hdeal := (deal d (x2Of m d) (r2Of m d) (m (hLoc d)) (m (tLoc d)) (m (rLoc d)) (m (oLoc d))) $$ [Hx2 Hr2 Hh Ht Hr Ho]
  · unfold wholePay
    isplitr [Ho]
    · isplitl [Hx2]; · iexact Hx2
      isplitl [Hr2]; · iexact Hr2
      isplitl [Hh]; · iexact Hh
      isplitl [Ht]; · iexact Ht
      iexact Hr
    · iexact Ho
  icases Hdeal with ⟨Hrem, Hgo⟩
  iapply ((K (F := F)).wp_run (D (F := F)) 𝒱 (EH := EH) (P := P m) κ d 0) $$ [Howes Hstrest Hgo Hb Hp Hrl Hxt Hres Hsems Hprng Hrem]
  isplitr; · iexact Hctx
  isplitl [Howes Hstrest]
  · iapply (Entails.of_eq hRst.symm)
    isplitl [Howes]; · iexact Howes
    iexact Hstrest
  isplitl [Hgo]
  · rw [st0_eq]; iexact Hgo
  iintro ⟨Hst, Hdn⟩
  ihave Hdn' := (Entails.of_eq (dn0_eq m d)) $$ Hdn
  ihave Hcol := (collect d (x2Of m d) (r2Of m d) (m (hLoc d)) (m (tLoc d)) (m (rLoc d))) $$ [Hrem Hdn']
  · isplitl [Hrem]; · iexact Hrem
    iexact Hdn'
  unfold wholePay
  icases Hcol with ⟨⟨Hx2, Hr2, Hh, Ht, Hr⟩, Ho⟩
  -- the result transposed
  ihave Ho' := (Entails.of_eq (o_eq m d)) $$ Ho
  ihave Hres' := (Entails.of_eq (congrArg (fun f => (resLoc d ↦{fullShare} f : sProp 𝕄)) (V3_res m d).symm)) $$ Hres
  iapply (wp_unary_ret d main_v3 main_v4 _ _ _ (by decide) _ 𝒱 _ (V3 m d) _) $$ [Hb Ho' Hres']
  · isplitl [Hb]; · iexact Hb
    isplitl [Ho']; · iexact Ho'
    iexact Hres'
  iintro ⟨Hb, Ho, Hres⟩
  imodintro
  isplitl [Hst]; · iexact Hst
  isplitl [Hp]; · iexact Hp
  isplitl [Hrl]; · iexact Hrl
  isplitl [Hh]; · iexact Hh
  isplitl [Ht]; · iexact Ht
  isplitl [Hr]; · iexact Hr
  rw [V3_o]
  iexact Hres

end Cert.Kernel.Hand

end
-- ==== Proof.KB.Run.lean ====
/-
  The program's run: the launch element, how the final memory reads the claim, and the launch theorem applied.  From a
  memory whose index lists are in range every weakly fair execution of all the device's threads terminates, the five
  arguments end as they began and the result array holds the kernel's function of them.
-/
import proofs.«202666_g58660663329007_cont_9to1_m_1270_26_alg».proof.Proof.KB.Main

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Cert.Spec

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The launch element -/

/-- The launch element: the handshakes' rounds, the pipeline's staging cells `u₁`, and no counter. -/
def u₀ (u₁ : UP) : UU := (initOf (K (F := F)).hsCells (K (F := F)).hsToks, (u₁, 1))

omit [FloatOps F] in
theorem bigSep_emp' {I : Type} (s : Finset I) : (bigSep s fun _ => iprop(emp)) = (iprop(emp) : sProp 𝕄) := bigSep_emp_const s

omit [FloatOps F] in
theorem ownU_split3 (a : UH) (b : UP) (c : Counters) : (ownU ((a, (b, c)) : UU) : sProp 𝕄) ⊢ iprop(BI.own (EH a) ∗ BI.own (EP b)) := by
  have h1 : (ownU ((a, (b, c)) : UU) : sProp 𝕄) ⊢ iprop(BI.own (EH a) ∗ ownU (((1 : UH), (b, c)) : UU)) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, c))))
  have h2 : (ownU (((1 : UH), (b, c)) : UU) : sProp 𝕄) ⊢ iprop(BI.own (EP b) ∗ ownU (((1 : UH), ((1 : UP), c)) : UU)) :=
    BI.own_op_elim ((uEmb (nD := nD) (sig := sig) (Ix := HIx 1) (Val := Elt F) (Name := ℕ) (U := UU) (Lvl := ℕ)).toEmb.op_of_mem
      (Prod.mk_mem_op (URA.mem_op_one (1 : UH)) (Prod.mk_mem_op (URA.mem_op_one b) (URA.mem_one_op c))))
  iintro H
  ihave H1 := h1 $$ H
  icases H1 with ⟨HA, H⟩
  ihave H2 := h2 $$ H
  icases H2 with ⟨HB, -⟩
  isplitl [HA]; · iexact HA
  iexact HB

theorem hu₀ (Gd : Dev nD → sProp 𝕄) (u₁ : UP) (hfund : (BI.own (EP u₁) : sProp 𝕄) ⊢ iprop(|==> bigSep Finset.univ Gd)) :
    (ownU (u₀ (F := F) u₁) : sProp 𝕄)
      ⊢ |={Set.univ}=> iprop(BI.own (EH (initOf (K (F := F)).hsCells (K (F := F)).hsToks)) ∗ (bigSep Finset.univ Gd)
        ∗ bigSep Finset.univ fun thr : Thread nD τ => bigSep Finset.univ fun q : Fin 1 => (P m).x q thr) := by
  unfold u₀
  iintro Hu
  ihave H := (ownU_split3 _ _ _) $$ Hu
  icases H with ⟨HH, HP⟩
  imod hfund $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The final memory -/

def fq (d : Dev nD) (s' : Phys nD τ sig (Elt F)) : Prop :=
  s'.mem.mem (pLoc d) = m (pLoc d) ∧ s'.mem.mem (rlLoc d) = m (rlLoc d) ∧ s'.mem.mem (hLoc d) = m (hLoc d)
    ∧ s'.mem.mem (tLoc d) = m (tLoc d) ∧ s'.mem.mem (rLoc d) = m (rLoc d) ∧ s'.mem.mem (resLoc d) = resOf m d

theorem hfin (d : Dev nD) (s' : Phys nD τ sig (Elt F)) : iprop(FIN m d ∗ SI s') ⊢ (⌜fq m d s'⌝ : sProp 𝕄) := by
  iintro ⟨⟨Hp, Hrl, Hh, Ht, Hr, Hres⟩, HSI⟩
  ihave H := (persistent_entails_right (SI_pointsTo_agree (st := s') (ℓ := pLoc d) (I := Finset.univ) (q := fullShare) (f := m (pLoc d)))) $$ [HSI Hp]
  · isplitl [HSI] <;> iassumption
  icases H with ⟨%h1, HSI, -⟩
  ihave H := (persistent_entails_right (SI_pointsTo_agree (st := s') (ℓ := rlLoc d) (I := Finset.univ) (q := fullShare) (f := m (rlLoc d)))) $$ [HSI Hrl]
  · isplitl [HSI] <;> iassumption
  icases H with ⟨%h2, HSI, -⟩
  ihave H := (persistent_entails_right (SI_pointsTo_agree (st := s') (ℓ := hLoc d) (I := Finset.univ) (q := fullShare) (f := m (hLoc d)))) $$ [HSI Hh]
  · isplitl [HSI] <;> iassumption
  icases H with ⟨%h3, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h4, HSI, -⟩
  ihave H := (persistent_entails_right (SI_pointsTo_agree (st := s') (ℓ := rLoc d) (I := Finset.univ) (q := fullShare) (f := m (rLoc d)))) $$ [HSI Hr]
  · isplitl [HSI] <;> iassumption
  icases H with ⟨%h5, HSI, -⟩
  ihave H := (SI_pointsTo_agree (st := s') (ℓ := resLoc d) (I := Finset.univ) (q := fullShare) (f := resOf m d)) $$ [HSI Hres]
  · isplitl [HSI] <;> iassumption
  icases H with %h6
  ipureintro
  exact ⟨funext fun i => h1 i (Finset.mem_univ i), funext fun i => h2 i (Finset.mem_univ i), funext fun i => h3 i (Finset.mem_univ i),
    funext fun i => h4 i (Finset.mem_univ i), funext fun i => h5 i (Finset.mem_univ i), funext fun i => h6 i (Finset.mem_univ i)⟩

/-! ## The run -/

def QC : PUnit × MemSt nD τ sig (Elt F) → Prop := fun r => ∀ c : Dev nD,
  r.2.mem (pLoc c) = m (pLoc c) ∧ r.2.mem (rlLoc c) = m (rlLoc c) ∧ r.2.mem (hLoc c) = m (hLoc c)
    ∧ r.2.mem (tLoc c) = m (tLoc c) ∧ r.2.mem (rLoc c) = m (rLoc c) ∧ r.2.mem (resLoc c) = resOf m c

theorem run_main [∀ e, Nonempty (Elt F e)] (htile : TileBody (F := F)) (Gd : Dev nD → sProp 𝕄) (hregion : RegionWp (F := F) Gd)
    (u₁ : UP) (hfund : (BI.own (EP u₁) : sProp 𝕄) ⊢ iprop(|==> bigSep Finset.univ Gd)) (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m htile facts hpre)
    (fun q _ => match q with | 0 => SparseCore.Cfg.VecSplit.of_plain (vecSplit m))
    m ρ main Gd (FIN m) (u₀ (F := F) u₁) (sep_elim_left.trans (hu₀ m Gd u₁ hfund)) (hmain m ρ Gd hregion) (fq m) (hfin m) (QC m) (fun _ h => h)

end Cert.Kernel.Hand

end
-- ==== Proof.KB.RegionPay.lean ====
/-
  The packing step's arithmetic, at one element.

  The body of the packing call reads a 64 x 16384 block, transposes it to 16384 x 64, views the rows in groups of
  sixteen, takes rows 0..7 and rows 8..15 of every group as two 8192 x 64 halves and lays the halves side by side,
  128 lanes wide.  So entry (p, q) of the 8192 x 128 result is entry (q % 64, 16 * (p / 8) + 8 * (q / 64) + p % 8)
  of the block: lanes below 64 come from the first half (row p % 8 of group p / 8), the others from the second
  (row 8 + p % 8 of that group).
-/
import proofs.«202666_g58660663329007_cont_9to1_m_1270_26_alg».proof.Proof.Gen.Kernel.Skeleton
import Idealize.ShloMosaic.Lib.Pipeline.Value
import Idealize.ShloMosaic.Lib.ValueLayout
import Idealize.ShloMosaic.Lib.ValueIdx

noncomputable section

namespace Cert.Kernel.Hand

open Cert.Kernel Cert.Kernel.Gen
open Idealize.ShloMosaic Idealize.ShloMosaic.ValueIdx

variable {F : FTy → Type} [FloatOps F]

/-- The column of the block an entry of the packed block came from. -/
theorem packCol_lt (p : Fin 8192) (q : Fin 128) : 16 * (p.val / 8) + 8 * (q.val / 64) + p.val % 8 < 16384 := by
  have := p.isLt; have := q.isLt; omega

/-- The packed block at (p, q) is the block at (q % 64, 16 * (p / 8) + 8 * (q / 64) + p % 8). -/
theorem pay_apply (v : Vec F S64x16384 .f32) (p : Fin 8192) (q : Fin 128) :
    k0_pay1 v (ix2 p q)
      = v (ix2 (⟨q.val % 64, Nat.mod_lt _ (by decide)⟩ : Fin 64) (⟨16 * (p.val / 8) + 8 * (q.val / 64) + p.val % 8, packCol_lt p q⟩ : Fin 16384)) := by
  have hp := p.isLt
  have hq128 := q.isLt
  unfold k0_pay1
  by_cases hq : q.val < 64
  · -- a lane of the first half: row p % 8 of group p / 8
    refine (concatenate_pair_apply_left (t := S8192x128) (s₁ := S8192x64) (s₂ := S8192x64) (1 : Fin 2) _ _ _ (ix2 p q) rfl (ix2 p (⟨q.val, hq⟩ : Fin 64))
      (fun b => match b with | ⟨0, _⟩ => rfl | ⟨1, _⟩ => rfl)).trans ?_
    refine (shapeCast_apply _ _ (ix2 p (⟨q.val, hq⟩ : Fin 64))
      (ix3 (⟨p.val / 8, by omega⟩ : Fin 1024) (⟨p.val % 8, by omega⟩ : Fin 8) (⟨q.val, hq⟩ : Fin 64)) ?_).trans ?_
    · rw [Shape.rowMajor_val_three, Shape.rowMajor_val_two]
      show (p.val / 8 * 8 + p.val % 8) * 64 + q.val = p.val * 64 + q.val
      omega
    refine (extractStridedSlice_apply _ _ _ _
      (ix3 (⟨p.val / 8, by omega⟩ : Fin 1024) (⟨p.val % 8, by omega⟩ : Fin 16) (⟨q.val, hq⟩ : Fin 64))
      (fun a => match a with | ⟨0, _⟩ => (Nat.zero_add _).symm | ⟨1, _⟩ => (Nat.zero_add _).symm | ⟨2, _⟩ => (Nat.zero_add _).symm)).trans ?_
    refine (shapeCast_apply _ _ _ (ix2 (⟨16 * (p.val / 8) + p.val % 8, by omega⟩ : Fin 16384) (⟨q.val, hq⟩ : Fin 64)) ?_).trans ?_
    · rw [Shape.rowMajor_val_three, Shape.rowMajor_val_two]
      show (16 * (p.val / 8) + p.val % 8) * 64 + q.val = (p.val / 8 * 16 + p.val % 8) * 64 + q.val
      omega
    refine (transpose_ix2_apply _ _ _ _).trans ?_
    rw [shapeCast_self]
    exact congrArg v (by
      funext a; match a with
      | ⟨0, _⟩ => exact Fin.ext (show q.val = q.val % 64 by omega)
      | ⟨1, _⟩ => exact Fin.ext (show 16 * (p.val / 8) + p.val % 8 = 16 * (p.val / 8) + 8 * (q.val / 64) + p.val % 8 by omega))
  · -- a lane of the second half: row 8 + p % 8 of group p / 8
    have hq' : q.val - 64 < 64 := by omega
    refine (concatenate_pair_apply_right (t := S8192x128) (s₁ := S8192x64) (s₂ := S8192x64) (1 : Fin 2) _ _ _ (ix2 p q) rfl rfl (ix2 p (⟨q.val - 64, hq'⟩ : Fin 64))
      (fun b hb => match b, hb with | ⟨0, _⟩, _ => rfl | ⟨1, _⟩, hb => absurd rfl hb)
      (show q.val - 64 + 64 = q.val by omega)).trans ?_
    refine (shapeCast_apply _ _ (ix2 p (⟨q.val - 64, hq'⟩ : Fin 64))
      (ix3 (⟨p.val / 8, by omega⟩ : Fin 1024) (⟨p.val % 8, by omega⟩ : Fin 8) (⟨q.val - 64, hq'⟩ : Fin 64)) ?_).trans ?_
    · rw [Shape.rowMajor_val_three, Shape.rowMajor_val_two]
      show (p.val / 8 * 8 + p.val % 8) * 64 + (q.val - 64) = p.val * 64 + (q.val - 64)
      omega
    refine (extractStridedSlice_apply _ _ _ _
      (ix3 (⟨p.val / 8, by omega⟩ : Fin 1024) (⟨8 + p.val % 8, by omega⟩ : Fin 16) (⟨q.val - 64, hq'⟩ : Fin 64))
      (fun a => match a with | ⟨0, _⟩ => (Nat.zero_add _).symm | ⟨1, _⟩ => rfl | ⟨2, _⟩ => (Nat.zero_add _).symm)).trans ?_
    refine (shapeCast_apply _ _ _ (ix2 (⟨16 * (p.val / 8) + 8 + p.val % 8, by omega⟩ : Fin 16384) (⟨q.val - 64, hq'⟩ : Fin 64)) ?_).trans ?_
    · rw [Shape.rowMajor_val_three, Shape.rowMajor_val_two]
      show (16 * (p.val / 8) + 8 + p.val % 8) * 64 + (q.val - 64) = (p.val / 8 * 16 + (8 + p.val % 8)) * 64 + (q.val - 64)
      omega
    refine (transpose_ix2_apply _ _ _ _).trans ?_
    rw [shapeCast_self]
    exact congrArg v (by
      funext a; match a with
      | ⟨0, _⟩ => exact Fin.ext (show q.val - 64 = q.val % 64 by omega)
      | ⟨1, _⟩ => exact Fin.ext (show 16 * (p.val / 8) + 8 + p.val % 8 = 16 * (p.val / 8) + 8 * (q.val / 64) + p.val % 8 by omega))

end Cert.Kernel.Hand

end
-- ==== Proof.KB.RegionData.lean ====
/-
  The packing call, point by point.

  The call walks 62 points.  Point t fetches columns [16384 t, 16384 t + 16384) of the 64 x 1000000 transposed table
  into a staging block, packs it, and writes the packed block back to rows [8192 t, 8192 t + 8192) of the
  500000 x 128 packed table.  The last point's blocks overhang both arrays; the transfers move only the part inside
  (576 columns in, 288 rows out), and nothing is known of the rest of the staging blocks.  That is enough: rows below
  288 of the last packed block read only columns below 576 of the last fetched block.

  Here: what each staging block holds after the body at each point (the fetched block; the packed table's rows
  there), and the body's run from the one to the other.
-/
import proofs.«202666_g58660663329007_cont_9to1_m_1270_26_alg».proof.Proof.KB.Common
import proofs.«202666_g58660663329007_cont_9to1_m_1270_26_alg».proof.Proof.KB.RegionPay
import proofs.«202666_g58660663329007_cont_9to1_m_1270_26_alg».proof.Proof.Gen.Kernel.Skeleton

noncomputable section

namespace Cert.Kernel.Hand

open Cert.Kernel Cert.Kernel.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)
open Idealize.ShloMosaic.ValueIdx
open Cert.Spec

variable {F : FTy → Type} [FloatOps F]

local notation "𝕄" => MT nD τ sig (HIx 1) (Elt F) ℕ UU ℕ

-- The transposed table and the packed table's first contents, on every device.
variable (xt : (d : Dev nD) → Buf (Elt F) (xtLoc d)) (x2₀ : (d : Dev nD) → Buf (Elt F) (x2Loc d))

/-! ## The proof data -/

/-- What the fetch at point `t` reads: the part of the block of columns inside the table. -/
def xblk (d : Dev nD) (t : Fin cfg0.N) : (win0_0.xblock (grid0.coords t)).Idx → Elt F .f32 :=
  (win0_0.blk t).view.read (Elt F) (xt d)

/-- The input staging block after the body, on the part inside the table (elsewhere a word nothing reads). -/
def xblkFull (d : Dev nD) (t : Fin cfg0.N) : S64x16384.Idx → Elt F .f32 :=
  win0_0.fill (grid0.coords t) (fun _ => Scalar.ofBits .f32 0#32) (xblk xt d t)

/-- The output staging block after the body, on the rows inside the packed table: the packed table's rows from
    8192 t on (past the table's end the row number is reduced, and nothing reads it). -/
def yblk (d : Dev nD) (t : Fin cfg0.N) : S8192x128.Idx → Elt F .f32 :=
  fun j => packT (xt d) (ix2 (ixMod 500000 (8192 * t.val + (j 0).val)) (ixMod 128 (j 1).val))

/-- The proof data of the packing call on device `d`: the two arrays as the call finds them; after the body the
    input staging block as fetched and the output staging block at the packed rows; no invariant; the device's
    debts (the start signals of the later call) carried through unchanged, every wait recorded at the index of no
    call. -/
def pdat (d : Dev nD) : Dat τ (Elt F) (HIx 1) ℕ UU ℕ cfg0 d where
  A w := match w with
    | ⟨0, _⟩ => xt d
    | ⟨1, _⟩ => x2₀ d
  after w t := match w with
    | ⟨0, _⟩ => xblkFull xt d t
    | ⟨1, _⟩ => yblk xt d t
  Φ _ := iprop(emp)
  q _ := fullShare
  owed _ := (K (F := F)).Otc d 0
  recorded _ := {p | p.2 = none}

/-- The input staging block as the body finds it: just fetched. -/
theorem before_0 (d : Dev nD) (t : Fin cfg0.N) (X) :
    (pdat xt x2₀ d).before (0 : Fin 2) t X = win0_0.fill (grid0.coords t) X (xblk xt d t) := by
  unfold Dat.before; rw [if_pos (fetch0_0 t)]; rfl

/-- The output window is never fetched, -/
theorem fetch0_1 (t : Fin cfg0.N) : (cfg0.win (1 : Fin 2)).fetch t = false := rfl

/-- so the body finds its staging block at contents nothing names. -/
theorem before_1 (d : Dev nD) (t : Fin cfg0.N) (X) : (pdat xt x2₀ d).before (1 : Fin 2) t X = X := by
  unfold Dat.before
  rw [if_neg (by rw [fetch0_1 t]; exact Bool.false_ne_true)]
  split
  · rfl
  · exact if_pos (flush0_1 _)

/-! ## The blocks' arithmetic -/

/-- Where the blocks sit and how much of each the transfers move, decided over the 62 points: the block of columns
    [16384 t, ..) of all 64 rows, of which 16384 columns or (the last) what is left of 1000000; the block of rows
    [8192 t, ..) of all 128 lanes, of which 8192 rows or (the last) what is left of 500000. -/
theorem idx_facts : ∀ t : Fin cfg0.N,
    win0_0.index t 0 = 0 ∧ win0_0.index t 1 = t.val ∧ win0_1.index t 0 = t.val ∧ win0_1.index t 1 = 0
      ∧ win0_0.xsize (grid0.coords t) 0 = 64 ∧ win0_0.xsize (grid0.coords t) 1 = min 16384 (1000000 - 16384 * t.val)
      ∧ win0_1.xsize (grid0.coords t) 0 = min 8192 (500000 - 8192 * t.val) ∧ win0_1.xsize (grid0.coords t) 1 = 128 :=
  (by decide +kernel : ∀ t : Fin grid0.N, _)

/-- The rows of the packed block that lie inside the packed table read only columns of the fetched block that lie
    inside the transposed table, and they are the packed table's rows: row 8192 t + p, lane q of the packed table
    is entry (q % 64, 16 * ((8192 t + p) / 8) + 8 * (q / 64) + p % 8) = (q % 64, 16384 t + 16 * (p / 8) + 8 * (q / 64) + p % 8)
    of the transposed table, and p < 500000 - 8192 t puts that column below 1000000. -/
theorem cut_pay (d : Dev nD) (t : Fin cfg0.N) (X : S64x16384.Idx → Elt F .f32) :
    win0_1.cut (grid0.coords t) (k0_pay1 (win0_0.fill (grid0.coords t) X (xblk xt d t)))
      = win0_1.cut (grid0.coords t) (yblk xt d t) := by
  obtain ⟨i00, i01, i10, i11, s00, s01, s10, s11⟩ := idx_facts t
  have ht : t.val < 62 := t.isLt
  funext x
  have hx0 : (x 0).val < win0_1.xsize (grid0.coords t) 0 := (x 0).isLt
  have hx1 : (x 1).val < win0_1.xsize (grid0.coords t) 1 := (x 1).isLt
  rw [s10] at hx0; rw [s11] at hx1
  have hp : (x 0).val < 8192 := by omega
  have e : win0_1.xinj (grid0.coords t) x = ix2 (⟨(x 0).val, hp⟩ : Fin 8192) (⟨(x 1).val, hx1⟩ : Fin 128) := by
    funext a; match a with | ⟨0, _⟩ => rfl | ⟨1, _⟩ => rfl
  show k0_pay1 _ (win0_1.xinj (grid0.coords t) x) = yblk xt d t (win0_1.xinj (grid0.coords t) x)
  rw [e, pay_apply]
  have hm : win0_0.moved (grid0.coords t)
      (ix2 (⟨(x 1).val % 64, Nat.mod_lt _ (by decide)⟩ : Fin 64)
        (⟨16 * ((x 0).val / 8) + 8 * ((x 1).val / 64) + (x 0).val % 8, packCol_lt ⟨(x 0).val, hp⟩ ⟨(x 1).val, hx1⟩⟩ : Fin 16384)) = true :=
    (win0_0.moved_iff _ _).mpr fun a => match a with
      | ⟨0, _⟩ => by
        show (x 1).val % 64 < win0_0.xsize (grid0.coords t) 0
        rw [s00]; omega
      | ⟨1, _⟩ => by
        show 16 * ((x 0).val / 8) + 8 * ((x 1).val / 64) + (x 0).val % 8 < win0_0.xsize (grid0.coords t) 1
        rw [s01]; omega
  unfold Window.fill
  rw [dif_pos hm]
  show xt d ((win0_0.blk t).view.emb _) = xt d (ix2 (ixMod 64 _) (ixMod 1000000 _))
  refine congrArg (xt d) (funext fun a => Fin.ext ?_)
  match a with
  | ⟨0, _⟩ =>
    show win0_0.index t 0 * 64 + 1 * ((x 1).val % 64) = (x 1).val % 128 % 64
    rw [i00]; omega
  | ⟨1, _⟩ =>
    show win0_0.index t 1 * 16384 + 1 * (16 * ((x 0).val / 8) + 8 * ((x 1).val / 64) + (x 0).val % 8)
      = unpackRow ((8192 * t.val + (x 0).val) % 500000) ((x 1).val % 128) % 1000000
    rw [i01]; unfold unpackRow; omega

/-! ## The body -/

/-- The kernel's variants: none (declared with the shared names). -/
example : Variants := 𝒱₀

-- one case of the body's run, at the two staging buffers named: the whole load reads the buffer's contents, the
-- unmasked whole store writes the payload
set_option hygiene false in
local macro "body_at " b0:ident b1:ident : tactic => `(tactic| (
  have hr0 : (Memref.whole $b0 : Memref sig .tc _ _ _).view.readAt (Elt F) (Rect.unit (s := S64x16384) ![0, 0] S64x16384.size
      inb_S64x16384_S64x16384_0_0).toLoadRect = id := funext (Memref.readAt_unit_zero (Elt F) $b0 hz _)
  have hw1 : ∀ f w, (((Memref.whole $b1).access (Rect.unit (s := S8192x128) ![0, 0] S8192x128.size inb_S8192x128_S8192x128_0_0)) :
      View sig .tc _ _ _).write (Elt F) f w Finset.univ = w := Memref.write_access_unit_zero_univ (Elt F) $b1 hz _
  simp only [owns_whole_eq, cc0_body_eq_skeleton]; unfold cc0_body_skel
  simp only [Prog.lift, Prog.bind_op, Prog.bind_ret]
  iintro ⟨⟨⟨%f0, %hf0, H0⟩, ⟨%f1, %hf1, H1⟩⟩, Hk⟩
  sl_steps
  iapply Hk
  rw [hr0, hw1]
  isplitl [H0]
  · iexists f0; isplitr; · ipureintro; exact hf0
    iexact H0
  · iexists k0_pay1 f0; isplitr; · ipureintro; rw [hf0]
    iexact H1))

/-- The body on staging buffers `s0` of the input window and `s1` of the output window: the whole load of the
    input block, the packing, the dead load and the whole store of the output block — the output buffer ends
    holding the packed input block, the input buffer unchanged. -/
theorem sound_body (c : Dev nD) (E : Set ℕ) (i : grid0.Coords) (s0 s1 : Fin 2)
    (X0 : S64x16384.Idx → Elt F .f32) (X1 : S8192x128.Idx → Elt F .f32) (Kont : PUnit → sProp 𝕄) :
    iprop((owns (c : Thread nD τ) (stage0_0 s0) fullShare X0 ∗ owns (c : Thread nD τ) (stage0_1 s1) fullShare X1)
          ∗ (iprop(owns (c : Thread nD τ) (stage0_0 s0) fullShare X0 ∗ owns (c : Thread nD τ) (stage0_1 s1) fullShare (k0_pay1 X0)) -∗ Kont ⟨⟩))
      ⊢ wp frame (wpE (defs₀ (F := F)) 𝒱₀ c none) E
          (cc0_body i (stage0_0 s0) (hstage0_0 s0) (stage0_1 s1) (hstage0_1 s1)) Kont := by
  have hz : (![0, 0] : Fin 2 → Nat) = fun _ => 0 := funext fun a => by fin_cases a <;> rfl
  fin_cases s0 <;> fin_cases s1
  · body_at cc0_stg0_0 cc0_stg1_0
  · body_at cc0_stg0_0 cc0_stg1_1
  · body_at cc0_stg0_1 cc0_stg1_0
  · body_at cc0_stg0_1 cc0_stg1_1

/-- The body obligation of the packing call at every point: the input buffer arrives just fetched (the block on
    the part inside the table, anything elsewhere), the output buffer holding anything; the body leaves the input
    buffer as it was and the output buffer at the packed input block, whose rows inside the packed table are the
    packed table's (`cut_pay`) — all that is stated of either buffer. The invariant is empty and the device's
    debts pass through untouched. -/
theorem body_obligation (d : Dev nD) :
    BodyObligationLoose (pdat xt x2₀ d) (defs₀ (F := F)) 𝒱₀ (none : HIx 1) Set.univ := fun t => by
  rw [bigSep_W0, bigSep_W0]
  simp only
  rw [show (pdat xt x2₀ d).Φ t.succ = (pdat xt x2₀ d).Φ t.castSucc from rfl,
    show (pdat xt x2₀ d).owesAt none t.succ = (pdat xt x2₀ d).owesAt none t.castSucc from rfl]
  iintro ⟨HΦ, Ho, ⟨%d0, H0⟩, ⟨%d1, H1⟩⟩
  rw [before_0 xt x2₀ d t d0, before_1 xt x2₀ d t d1]
  iapply (sound_body (F := F) d Set.univ (grid0.coords t) (cfg0.slots t 0) (cfg0.slots t 1)
    (win0_0.fill (grid0.coords t) d0 (xblk xt d t)) d1 _)
  isplitl [H0 H1]
  · isplitl [H0]
    · iexact H0
    · iexact H1
  iintro ⟨H0, H1⟩
  isplitl [HΦ]; · iexact HΦ
  isplitl [Ho]; · iexact Ho
  have hx : win0_0.cut (grid0.coords t) (xblkFull xt d t) = xblk xt d t := win0_0.cut_fill _ _ _
  isplitl [H0]
  · iexists d0
    change _ ⊢ owns (d : Thread nD τ) (stage0_0 (cfg0.slots t 0)) fullShare
      (win0_0.fill (grid0.coords t) d0 (win0_0.cut (grid0.coords t) (xblkFull xt d t)))
    rw [hx]
  · iexists k0_pay1 (win0_0.fill (grid0.coords t) d0 (xblk xt d t))
    change _ ⊢ owns (d : Thread nD τ) (stage0_1 (cfg0.slots t 1)) fullShare
      (win0_1.fill (grid0.coords t) (k0_pay1 (win0_0.fill (grid0.coords t) d0 (xblk xt d t))) (win0_1.cut (grid0.coords t) (yblk xt d t)))
    rw [win0_1.fill_congr_cut _ (cut_pay xt d t d0)]

end Cert.Kernel.Hand

end
-- ==== Proof.KB.RegionValue.lean ====
/-
  The packed table after the packing call, in closed form.

  Point t writes back rows [8192 t, 8192 t + 8192) of the packed table, cut at row 500000; what it writes is those
  rows of the packed table as a function of the transposed one.  Row rho lies in point rho / 8192's block, so the
  62 blocks cover the table and it ends holding that function; the transposed table is only read.
-/
import proofs.«202666_g58660663329007_cont_9to1_m_1270_26_alg».proof.Proof.KB.RegionData
import Idealize.ShloMosaic.Lib.Pipeline.Value

noncomputable section

namespace Cert.Kernel.Hand

open Cert.Kernel Cert.Kernel.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Idealize.ShloMosaic.ValueIdx
open Cert.Spec

variable {F : FTy → Type} [FloatOps F]

local notation "𝕄" => MT nD τ sig (HIx 1) (Elt F) ℕ UU ℕ

variable (xt : (d : Dev nD) → Buf (Elt F) (xtLoc d)) (x2₀ : (d : Dev nD) → Buf (Elt F) (x2Loc d))

/-- What the write-back at point `t` writes is block `t` of the packed table: its rows from 8192 t on, as far as
    they lie inside the table. -/
theorem flushed_eq (d : Dev nD) (t : Fin cfg0.N) :
    (pdat xt x2₀ d).flushed (1 : Fin 2) t = (win0_1.blk t).view.read (Elt F) (packT (xt d)) := by
  obtain ⟨-, -, i10, i11, -, -, s10, s11⟩ := idx_facts t
  have ht : t.val < 62 := t.isLt
  funext x
  have hx0 : (x 0).val < win0_1.xsize (grid0.coords t) 0 := (x 0).isLt
  have hx1 : (x 1).val < win0_1.xsize (grid0.coords t) 1 := (x 1).isLt
  rw [s10] at hx0; rw [s11] at hx1
  show (pdat xt x2₀ d).after (1 : Fin 2) t (win0_1.xinj (grid0.coords t) x) = packT (xt d) ((win0_1.blk t).view.emb x)
  dsimp only [pdat]
  unfold yblk
  refine congrArg (packT (xt d)) (funext fun a => Fin.ext ?_)
  match a with
  | ⟨0, _⟩ =>
    show (8192 * t.val + (x 0).val) % 500000 = win0_1.index t 0 * 8192 + 1 * (x 0).val
    rw [i10]; omega
  | ⟨1, _⟩ =>
    show (x 1).val % 128 = win0_1.index t 1 * 128 + 1 * (x 1).val
    rw [i11]; omega

/-- An entry of the packed table is in point `t`'s block iff its row is among the block's rows inside the table
    (every lane is: the blocks span the lanes). -/
theorem mem_blk (t : Fin cfg0.N) (i : S500000x128.Idx) :
    i ∈ (win0_1.blk t).view.set
      ↔ win0_1.index t 0 * 8192 ≤ (i 0 : Nat) ∧ (i 0 : Nat) < win0_1.index t 0 * 8192 + win0_1.xsize (grid0.coords t) 0 := by
  obtain ⟨-, -, -, i11, -, -, -, s11⟩ := idx_facts t
  show i ∈ ((View.whole main_v1).slice (win0_1.rect t)).set ↔ _
  rw [View.set_slice_whole, Rect.mem_set_unit]
  have h1 : (i 1 : Nat) < 128 := (i 1).isLt
  refine ⟨fun h => h 0, fun h a => ?_⟩
  match a with
  | ⟨0, _⟩ => exact h
  | ⟨1, _⟩ =>
    change win0_1.index t 1 * 128 ≤ (i 1 : Nat) ∧ (i 1 : Nat) < win0_1.index t 1 * 128 + win0_1.xsize (grid0.coords t) 1
    rw [i11, s11]; omega

/-- The packed table ends at the packing of the transposed table: row rho is written by point rho / 8192. -/
theorem final_x2 (d : Dev nD) : (pdat xt x2₀ d).arrAt (1 : Fin 2) cfg0.N = packT (xt d) :=
  (pdat xt x2₀ d).arrAt_eq_of_cover (1 : Fin 2) (packT (xt d)) (fun t _ => flushed_eq xt x2₀ d t) fun i => by
    have hi : (i 0 : Nat) < 500000 := (i 0).isLt
    refine ⟨⟨(i 0 : Nat) / 8192, by show (i 0 : Nat) / 8192 < 62; omega⟩, flush0_1 _, ?_⟩
    obtain ⟨-, -, i10, -, -, -, s10, -⟩ := idx_facts ⟨(i 0 : Nat) / 8192, by show (i 0 : Nat) / 8192 < 62; omega⟩
    refine (mem_blk _ i).mpr ?_
    rw [i10, s10]
    show (i 0 : Nat) / 8192 * 8192 ≤ (i 0 : Nat) ∧ (i 0 : Nat) < (i 0 : Nat) / 8192 * 8192 + min 8192 (500000 - 8192 * ((i 0 : Nat) / 8192))
    omega

/-- The transposed table is an input of the call: it ends as it began. -/
theorem final_xt (d : Dev nD) : (pdat xt x2₀ d).arrAt (0 : Fin 2) cfg0.N = xt d :=
  (pdat xt x2₀ d).arrAt_in (0 : Fin 2) rfl _

end Cert.Kernel.Hand

end
-- ==== Proof.KB.Region.lean ====
/-
  The packing call as one step of the TensorCore's program.

  From the region boundary, the transposed table and the packed table's buffer (both whole), what the TensorCore owes
  (the start signals of the call that follows: carried through the region untouched, every wait of the pipeline
  recorded at the index of no call, level 0, below all of it), the level facts and the staging cells' ghost state,
  the call runs to the boundary with the transposed table unchanged and the packed table at the packing of it.
  Also: the staging cells' ghost state for every device, from the launch element.
-/
import proofs.«202666_g58660663329007_cont_9to1_m_1270_26_alg».proof.Proof.KB.RegionValue
import Idealize.ShloMosaic.Lib.Pipeline.Regions

noncomputable section

namespace Cert.Kernel.Hand

open Cert.Kernel Cert.Kernel.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Idealize.ShloMosaic.ValueIdx
open Cert.Spec

variable {F : FTy → Type} [FloatOps F]

local notation "𝕄" => MT nD τ sig (HIx 1) (Elt F) ℕ UU ℕ

variable (xt : (d : Dev nD) → Buf (Elt F) (xtLoc d)) (x2₀ : (d : Dev nD) → Buf (Elt F) (x2Loc d))

/-! ## The one pipeline's family of proof data -/

/-- No pipeline has a prefetched table. -/
abbrev adm : (p : Fin 1) → (pcfgs (F := F) p).Adm := fun p => (cfgs p).toPCfg_adm

def pdats : (p : Fin 1) → (c : Dev nD) → Pipeline.Dat τ (Elt F) (HIx 1) ℕ UU ℕ (Pipeline.pin (pcfgs (F := F)) adm p) c :=
  fun _ c => pdat xt x2₀ c

theorem cellOf_inj' : Function.Injective (Pipeline.cellOf (nD := nD) (τ := τ) (Pipeline.pin (pcfgs (F := F)) adm)) :=
  Gen.cellOf_inj

/-! ## What the TensorCore owes, through the region -/

/-- The TensorCore's debts before the first SparseCore call, its recorded waits all at level 0. -/
def owesTc (d : Dev nD) : sProp 𝕄 :=
  iprop(∃ W, ⌜(K (F := F)).WBelow (T d) W (8 * 0)⌝ ∗ owes (T d) ((K (F := F)).Otc d 0) W)

/-- Nothing is owed at the index of no call. -/
theorem Otc_none (d : Dev nD) (g : GSem nD τ sig) : (K (F := F)).Otc d 0 g none = 0 := by
  by_contra h
  have := SparseCore.Cfg.lev_of_Otc_pos (K := K (F := F)) (Nat.pos_of_ne_zero h)
  rw [SparseCore.Cfg.lev_none] at this; omega

/-- A recorded wait at level 0 is at the index of no call, -/
theorem idx_none_of_lev {g : GSem nD τ sig} {ι : HIx 1} (h : (K (F := F)).lev g ι ≤ 8 * 0) : ι = none := by
  cases ι with
  | none => rfl
  | some q => have := (K (F := F)).lev_some_pos g q; omega

/-- so the debts are the pipeline's at any point, -/
theorem owesAt_intro (d : Dev nD) (t : Fin (cfg0.N + 1)) : owesTc (F := F) d ⊢ ((pdat xt x2₀ d).owesAt none t : sProp 𝕄) := by
  unfold owesTc Pipeline.Dat.owesAt Pipeline.owesWithin
  iintro ⟨%W, %hW, HO⟩
  iexists W; isplitr
  · ipureintro; exact fun p hp => Or.inl (idx_none_of_lev (g := (T d, p.1)) (hW p (Finset.mem_coe.mp hp)))
  iexact HO

/-- and back: the pipeline's own waits are at that index too. -/
theorem owesAt_elim (d : Dev nD) (t : Fin (cfg0.N + 1)) : ((pdat xt x2₀ d).owesAt none t : sProp 𝕄) ⊢ owesTc (F := F) d := by
  unfold owesTc Pipeline.Dat.owesAt Pipeline.owesWithin
  iintro ⟨%W, %hW, HO⟩
  iexists W; isplitr
  · ipureintro
    intro p hp
    have hn : p.2 = none := by
      rcases hW (Finset.mem_coe.mpr hp) with h | ⟨w, s, rfl⟩
      · exact h
      · rfl
    show (K (F := F)).lev (T d, p.1) p.2 ≤ 8 * 0
    rw [hn]; exact Nat.zero_le _
  iexact HO

/-! ## The region -/

/-- What the region is entered from: the two arrays whole, and the debts. -/
def regionPre (d : Dev nD) : sProp 𝕄 :=
  iprop((xtLoc d ↦{fullShare} xt d) ∗ (x2Loc d ↦{fullShare} x2₀ d) ∗ owesTc (F := F) d)

/-- What it leaves: the transposed table as it was, the packed table at its packing, the same debts. -/
def regionPost (d : Dev nD) : sProp 𝕄 :=
  iprop((xtLoc d ↦{fullShare} xt d) ∗ (x2Loc d ↦{fullShare} packT (xt d)) ∗ owesTc (F := F) d)

/-- The two windows' arrays, one by one. -/
theorem arrays_pdat (d : Dev nD) (Fa) :
    ((pdat xt x2₀ d).arrays Fa : sProp 𝕄) = iprop((xtLoc d ↦{fullShare} Fa 0) ∗ (x2Loc d ↦{fullShare} Fa 1)) :=
  (Pipeline.arrays_eq (Pipeline.pin (pcfgs (F := F)) adm) (pdats xt x2₀) 0 d arr_whole0
    ((pdat xt x2₀ d).share_full fun _ => rfl) Fa).trans (bigSep_W0 _)

/-- No table is prefetched, no scoped buffer is left over. -/
theorem prefHeld0 (c : Dev nD) (q) (pf) :
    (Pipeline.prefHeld (Ix := HIx 1) (Name := ℕ) (U := UU) (Lvl := ℕ) (Val := Elt F) (pcfgs (F := F) 0).pre c q pf : sProp 𝕄) = BI.emp :=
by
  unfold Pipeline.prefHeld
  show bigSep (Finset.univ : Finset (Fin 0)) _ = _
  rw [Finset.univ_eq_empty, BI.bigSep_empty]
theorem scopedRest0' (c : Dev nD) :
    (Pipeline.scopedRest (Ix := HIx 1) (Name := ℕ) (U := UU) (Lvl := ℕ) (Val := Elt F) (Pipeline.pin (pcfgs (F := F)) adm 0).spec c : sProp 𝕄) = BI.emp :=
  Pipeline.scopedRest_eq_of_list spec0 c [] (by decide) (by decide)

/-- The packing call's record: the generated layout, no semaphore of the kernel's own, the body obligation, the wait
    evidence (every staging cell is waited on at the index of no call, where nothing is owed), and the entry and
    exit: the two arrays in, the two arrays out at their final contents, the debts through. -/
def reg : Pipeline.RegionSeg (pcfgs (F := F)) adm (pdats xt x2₀) (none : HIx 1) defs₀ 𝒱₀ (K (F := F)).L (K (F := F)).lev 0 where
  win := winFacts0.to₀
  block_pos := block_pos0
  stage_whole := stage_whole0
  K := PEmpty
  osem k := k.elim
  ho := Pipeline.OwnSemFacts.none _
  hbody c := body_obligation xt x2₀ c
  hwaits c := Pipeline.cellsWaits_intro (Pipeline.pin (pcfgs (F := F)) adm) (pdats xt x2₀) none 0 c
    fun w s t => (K (F := F)).mayWait_none _ (Otc_none c)
  pre := regionPre xt x2₀
  post := regionPost xt
  X _ := iprop(emp)
  Y _ := iprop(emp)
  Z _ := iprop(emp)
  hentry c := by
    rw [Pipeline.ownSems0_none, prefHeld0]
    show iprop(regionPre xt x2₀ c ∗ BI.emp ∗ levAts (K (F := F)).L (K (F := F)).lev)
      ⊢ |={Set.univ}=> iprop((pdat xt x2₀ c).arrays (fun w => (pdat xt x2₀ c).arrAt w 0) ∗ BI.emp ∗ (pdat xt x2₀ c).owesAt none 0 ∗ emp ∗ emp)
    rw [arrays_pdat]
    unfold regionPre
    iintro ⟨⟨Hx, Hy, HO⟩, -, -⟩
    imodintro
    isplitl [Hx Hy]
    · isplitl [Hx]
      · iexact Hx
      · iexact Hy
    isplitr; · iempintro
    isplitl [HO]; · iapply (owesAt_intro xt x2₀ c 0); iexact HO
    isplitr <;> iempintro
  hin c := by
    show _ ⊢ (iprop(emp) : sProp 𝕄)
    iintro -; iempintro
  hout c := by
    rw [Pipeline.ownSems0_none, scopedRest0']
    iintro -
    isplitr; · iempintro
    isplitr <;> iempintro
  hexit c := by
    show iprop((pdat xt x2₀ c).arrays (fun w => (pdat xt x2₀ c).arrAt w cfg0.N) ∗ (pdat xt x2₀ c).owesAt none (Fin.last cfg0.N) ∗ emp ∗ emp)
      ⊢ |={Set.univ}=> regionPost xt c
    rw [arrays_pdat]
    beta_reduce
    rw [final_xt, final_x2]
    unfold regionPost
    iintro ⟨⟨Hx, Hy⟩, HO, -, -⟩
    imodintro
    isplitl [Hx]; · iexact Hx
    isplitl [Hy]; · iexact Hy
    iapply (owesAt_elim xt x2₀ c _); iexact HO

/-! ## The staging cells' ghost state -/

/-- What the launch deals device `d` for the packing call: its staging cells' ghost state and the duty tokens of
    the transfers its loop issues. -/
def Gd (d : Dev nD) : sProp 𝕄 :=
  iprop(Pipeline.cellsGhost (Pipeline.pin (pcfgs (F := F)) adm) EP 0 d ∗ Pipeline.toksInit (Pipeline.pin (pcfgs (F := F)) adm) EP 0 d)

/-- The launch element's part for the staging cells: every cell's owner at round 0 and a duty token per transfer. -/
def uP₀ : UP := initOf (Pipeline.cells cfgs Gen.cellOf_inj) (Pipeline.launchToks cfgs Gen.cellOf_inj)

theorem bigSep_P0 {M : Type} [URA M] (Φ : Fin 1 → sProp M) : bigSep Finset.univ Φ = Φ 0 := by
  rw [show (Finset.univ : Finset (Fin 1)) = {0} from by decide, bigSep_singleton]

/-- Every device's ghost state for the packing call, from the launch element's part. -/
theorem fund_Gd : BI.own ((EP : Emb UP 𝕄) uP₀) ⊢ |==> bigSep Finset.univ (Gd (F := F)) := by
  refine (Pipeline.fund_ghost (Pipeline.pin (pcfgs (F := F)) adm) (EP : Emb UP 𝕄) cellOf_inj').trans (bupd_mono ?_)
  rw [← bigSep_sep']
  exact bigSep_mono fun c _ => by rw [bigSep_P0, bigSep_P0]; exact BI.Entails.refl _

/-! ## The step -/

set_option backward.isDefEq.respectTransparency.types false in
/-- The packing call on device `d`'s TensorCore, in the program's own signature. -/
theorem region_wp [∀ e, Nonempty (Elt F e)] (d : Dev nD) (Φ : PUnit → sProp 𝕄) :
    iprop((iprop(boundary (T d) ∗ regionPost xt d) -∗ Φ ⟨⟩) ∗ boundary (T d) ∗ regionPre xt x2₀ d
        ∗ levAts (K (F := F)).L (K (F := F)).lev ∗ Gd (F := F) d)
      ⊢ wp frame (wpE (D (F := F)) 𝒱 (T d) none) Set.univ (Prog.lift (.customCall (Pipeline.entry 0) ())) Φ := by
  have h := Pipeline.RegionSeg.wp (pcfgs (F := F)) adm (pdats xt x2₀) (none : HIx 1) cellOf_inj' EP defs₀ 𝒱₀
    (K (F := F)).L (K (F := F)).lev (reg xt x2₀) d none (fun _ hu => absurd hu (Option.not_mem_none _)) (fun _ => .ret ⟨⟩) Φ
  refine .trans ?_ h
  rw [show (reg xt x2₀).pre d = regionPre xt x2₀ d from rfl, show (reg xt x2₀).post d = regionPost xt d from rfl]
  unfold Gd
  iintro ⟨Hk, Hb, Hpre, Hlev, HG, HT⟩
  isplitl [Hk]
  · iintro H; rw [wp_ret]; imodintro; iapply Hk; iexact H
  isplitl [Hb]; · iexact Hb
  isplitl [Hpre]; · iexact Hpre
  isplitl [Hlev]; · iexact Hlev
  isplitl [HG]
  · iexact HG
  · iexact HT

/-- The TensorCore's line of the program is this step, lifted. -/
example : SparseCore.liftProg (Q := 1) (Prog.lift (.customCall (Pipeline.entry (0 : Fin 1)) ())
      : Prog (TpuEff nD τ sig (Elt F) (ΛP (F := F)) .tc) PUnit)
    = Prog.lift (.customCall (SparseCore.inner (Pipeline.entry 0)) ()) := rfl

end Cert.Kernel.Hand

end
-- ==== Proof.KB.TileA.lean ====
/-
  A worker's own scratch.

  A worker is one vector subcore.  Besides its shares of the arrays it reads, it owns nine scratch buffers (three lists
  of 256 indices, two lists of 256 packed row numbers, two blocks of 256 gathered rows, a copy of the small packed table
  and a 64 x 256 staging block) and eleven DMA semaphores.  What a subcore owns is given as one separating product over
  all of its buffers and one over all of its semaphore cells; here the nine buffers and the eleven cells are taken out of
  those products one by one, each by the fact that it belongs to the subcore and differs from the ones taken before.
-/
import proofs.«202666_g58660663329007_cont_9to1_m_1270_26_alg».proof.Proof.KB.Common
import proofs.«202666_g58660663329007_cont_9to1_m_1270_26_alg».proof.Proof.Gen.Kernel.Skeleton

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Spec

variable {F : FTy → Type}

local notation "𝕄" => MT nD τ sig (HIx 1) (Elt F) ℕ UU ℕ

/-! ## A worker's own scratch

A worker (a vector subcore) owns nine scratch buffers and eleven DMA semaphores: two named ones for the two row gathers
and nine scoped ones, one per local copy.  They come out of the subcore's own buffers and own cells one by one. -/

/-- The worker's thread at a grid point of the kernel. -/
abbrev thrL (d : Dev nD) (L : grid1.Coords) : Thread nD τ := V d (cV L) (jV L)

/-- The cell of one of the worker's DMA semaphores. -/
abbrev cellV (d : Dev nD) (L : grid1.Coords) (s : DmaSems sig S_) : GSem nD τ sig := (thrL d L, SemLoc.dma s.sem)

/-- The subcore's other own buffers, and its other own cells. -/
def restRefs (L : grid1.Coords) : Finset (DevRef τ sig) :=
  ((((((((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2)).erase ((Proc.scVector (cV L) (jV L)).devRef cc1_scratch3)).erase ((Proc.scVector (cV L) (jV L)).devRef cc1_scratch4)).erase ((Proc.scVector (cV L) (jV L)).devRef cc1_scratch5)).erase ((Proc.scVector (cV L) (jV L)).devRef cc1_scratch6)).erase ((Proc.scVector (cV L) (jV L)).devRef cc1_scratch7)).erase ((Proc.scVector (cV L) (jV L)).devRef cc1_scratch8))
def restCells (d : Dev nD) (L : grid1.Coords) : Finset (GSem nD τ sig) :=
  ((((((((((((ownCells (thrL d L)).erase (cellV d L cc1_scratch9)).erase (cellV d L cc1_scratch10)).erase (cellV d L cc1_scoped0)).erase (cellV d L cc1_scoped1)).erase (cellV d L cc1_scoped2)).erase (cellV d L cc1_scoped3)).erase (cellV d L cc1_scoped4)).erase (cellV d L cc1_scoped5)).erase (cellV d L cc1_scoped6)).erase (cellV d L cc1_scoped7)).erase (cellV d L cc1_scoped8))

variable (d : Dev nD) (L : grid1.Coords)

theorem ownBufs_V :
    (ownBufs (thrL d L) : sProp 𝕄)
      = iprop((∃ f, (thrL d L).loc cc1_scratch0 ↦{fullShare} f)
          ∗ (∃ f, (thrL d L).loc cc1_scratch1 ↦{fullShare} f)
          ∗ (∃ f, (thrL d L).loc cc1_scratch2 ↦{fullShare} f)
          ∗ (∃ f, (thrL d L).loc cc1_scratch3 ↦{fullShare} f)
          ∗ (∃ f, (thrL d L).loc cc1_scratch4 ↦{fullShare} f)
          ∗ (∃ f, (thrL d L).loc cc1_scratch5 ↦{fullShare} f)
          ∗ (∃ f, (thrL d L).loc cc1_scratch6 ↦{fullShare} f)
          ∗ (∃ f, (thrL d L).loc cc1_scratch7 ↦{fullShare} f)
          ∗ (∃ f, (thrL d L).loc cc1_scratch8 ↦{fullShare} f)
          ∗ bigSep (restRefs L) fun b => iprop(∃ f, ((d, b) : Loc nD τ sig) ↦{fullShare} f)) := by
  unfold SparseCore.Cfg.ownBufs restRefs
  refine (SparseCore.bigSep_erase' (SparseCore.Cfg.mem_ownRefs_of_owner (p := Proc.scVector (cV L) (jV L)) (b := ((Proc.scVector (cV L) (jV L)).devRef cc1_scratch0)) rfl)).trans ?_
  rw [SparseCore.bigSep_erase' (Finset.mem_erase.mpr ⟨fun e => absurd (Proc.devRef_injective _ e) (show (cc1_scratch1 : Ref sig .scVector) ≠ cc1_scratch0 by decide), SparseCore.Cfg.mem_ownRefs_of_owner (p := Proc.scVector (cV L) (jV L)) (b := ((Proc.scVector (cV L) (jV L)).devRef cc1_scratch1)) rfl⟩),
    SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := Proc.scVector (cV L) (jV L)) (b := ((Proc.scVector (cV L) (jV L)).devRef cc1_scratch2)) rfl⟩⟩),
    SparseCore.bigSep_erase' (Finset.mem_erase.mpr ⟨fun e => absurd (Proc.devRef_injective _ e) (show (cc1_scratch3 : Ref sig .scVector) ≠ cc1_scratch2 by decide), Finset.mem_erase.mpr ⟨fun e => absurd (Proc.devRef_injective _ e) (show (cc1_scratch3 : Ref sig .scVector) ≠ cc1_scratch1 by decide), Finset.mem_erase.mpr ⟨fun e => absurd (Proc.devRef_injective _ e) (show (cc1_scratch3 : Ref sig .scVector) ≠ cc1_scratch0 by decide), SparseCore.Cfg.mem_ownRefs_of_owner (p := Proc.scVector (cV L) (jV L)) (b := ((Proc.scVector (cV L) (jV L)).devRef cc1_scratch3)) rfl⟩⟩⟩),
    SparseCore.bigSep_erase' (Finset.mem_erase.mpr ⟨fun e => absurd (Proc.devRef_injective _ e) (show (cc1_scratch4 : Ref sig .scVector) ≠ cc1_scratch3 by decide), Finset.mem_erase.mpr ⟨fun e => absurd (Proc.devRef_injective _ e) (show (cc1_scratch4 : Ref sig .scVector) ≠ cc1_scratch2 by decide), Finset.mem_erase.mpr ⟨fun e => absurd (Proc.devRef_injective _ e) (show (cc1_scratch4 : Ref sig .scVector) ≠ cc1_scratch1 by decide), Finset.mem_erase.mpr ⟨fun e => absurd (Proc.devRef_injective _ e) (show (cc1_scratch4 : Ref sig .scVector) ≠ cc1_scratch0 by decide), SparseCore.Cfg.mem_ownRefs_of_owner (p := Proc.scVector (cV L) (jV L)) (b := ((Proc.scVector (cV L) (jV L)).devRef cc1_scratch4)) rfl⟩⟩⟩⟩),
    SparseCore.bigSep_erase' (Finset.mem_erase.mpr ⟨fun e => absurd (Proc.devRef_injective _ e) (show (cc1_scratch5 : Ref sig .scVector) ≠ cc1_scratch4 by decide), Finset.mem_erase.mpr ⟨fun e => absurd (Proc.devRef_injective _ e) (show (cc1_scratch5 : Ref sig .scVector) ≠ cc1_scratch3 by decide), Finset.mem_erase.mpr ⟨fun e => absurd (Proc.devRef_injective _ e) (show (cc1_scratch5 : Ref sig .scVector) ≠ cc1_scratch2 by decide), Finset.mem_erase.mpr ⟨fun e => absurd (Proc.devRef_injective _ e) (show (cc1_scratch5 : Ref sig .scVector) ≠ cc1_scratch1 by decide), Finset.mem_erase.mpr ⟨fun e => absurd (Proc.devRef_injective _ e) (show (cc1_scratch5 : Ref sig .scVector) ≠ cc1_scratch0 by decide), SparseCore.Cfg.mem_ownRefs_of_owner (p := Proc.scVector (cV L) (jV L)) (b := ((Proc.scVector (cV L) (jV L)).devRef cc1_scratch5)) rfl⟩⟩⟩⟩⟩),
    SparseCore.bigSep_erase' (Finset.mem_erase.mpr ⟨fun e => absurd (Proc.devRef_injective _ e) (show (cc1_scratch6 : Ref sig .scVector) ≠ cc1_scratch5 by decide), Finset.mem_erase.mpr ⟨fun e => absurd (Proc.devRef_injective _ e) (show (cc1_scratch6 : Ref sig .scVector) ≠ cc1_scratch4 by decide), Finset.mem_erase.mpr ⟨fun e => absurd (Proc.devRef_injective _ e) (show (cc1_scratch6 : Ref sig .scVector) ≠ cc1_scratch3 by decide), Finset.mem_erase.mpr ⟨fun e => absurd (Proc.devRef_injective _ e) (show (cc1_scratch6 : Ref sig .scVector) ≠ cc1_scratch2 by decide), Finset.mem_erase.mpr ⟨fun e => absurd (Proc.devRef_injective _ e) (show (cc1_scratch6 : Ref sig .scVector) ≠ cc1_scratch1 by decide), Finset.mem_erase.mpr ⟨fun e => absurd (Proc.devRef_injective _ e) (show (cc1_scratch6 : Ref sig .scVector) ≠ cc1_scratch0 by decide), SparseCore.Cfg.mem_ownRefs_of_owner (p := Proc.scVector (cV L) (jV L)) (b := ((Proc.scVector (cV L) (jV L)).devRef cc1_scratch6)) rfl⟩⟩⟩⟩⟩⟩),
    SparseCore.bigSep_erase' (Finset.mem_erase.mpr ⟨fun e => absurd (Proc.devRef_injective _ e) (show (cc1_scratch7 : Ref sig .scVector) ≠ cc1_scratch6 by decide), Finset.mem_erase.mpr ⟨fun e => absurd (Proc.devRef_injective _ e) (show (cc1_scratch7 : Ref sig .scVector) ≠ cc1_scratch5 by decide), Finset.mem_erase.mpr ⟨fun e => absurd (Proc.devRef_injective _ e) (show (cc1_scratch7 : Ref sig .scVector) ≠ cc1_scratch4 by decide), Finset.mem_erase.mpr ⟨fun e => absurd (Proc.devRef_injective _ e) (show (cc1_scratch7 : Ref sig .scVector) ≠ cc1_scratch3 by decide), Finset.mem_erase.mpr ⟨fun e => absurd (Proc.devRef_injective _ e) (show (cc1_scratch7 : Ref sig .scVector) ≠ cc1_scratch2 by decide), Finset.mem_erase.mpr ⟨fun e => absurd (Proc.devRef_injective _ e) (show (cc1_scratch7 : Ref sig .scVector) ≠ cc1_scratch1 by decide), Finset.mem_erase.mpr ⟨fun e => absurd (Proc.devRef_injective _ e) (show (cc1_scratch7 : Ref sig .scVector) ≠ cc1_scratch0 by decide), SparseCore.Cfg.mem_ownRefs_of_owner (p := Proc.scVector (cV L) (jV L)) (b := ((Proc.scVector (cV L) (jV L)).devRef cc1_scratch7)) rfl⟩⟩⟩⟩⟩⟩⟩),
    SparseCore.bigSep_erase' (Finset.mem_erase.mpr ⟨fun e => absurd (Proc.devRef_injective _ e) (show (cc1_scratch8 : Ref sig .scVector) ≠ cc1_scratch7 by decide), Finset.mem_erase.mpr ⟨fun e => absurd (Proc.devRef_injective _ e) (show (cc1_scratch8 : Ref sig .scVector) ≠ cc1_scratch6 by decide), Finset.mem_erase.mpr ⟨fun e => absurd (Proc.devRef_injective _ e) (show (cc1_scratch8 : Ref sig .scVector) ≠ cc1_scratch5 by decide), Finset.mem_erase.mpr ⟨fun e => absurd (Proc.devRef_injective _ e) (show (cc1_scratch8 : Ref sig .scVector) ≠ cc1_scratch4 by decide), Finset.mem_erase.mpr ⟨fun e => absurd (Proc.devRef_injective _ e) (show (cc1_scratch8 : Ref sig .scVector) ≠ cc1_scratch3 by decide), Finset.mem_erase.mpr ⟨fun e => absurd (Proc.devRef_injective _ e) (show (cc1_scratch8 : Ref sig .scVector) ≠ cc1_scratch2 by decide), Finset.mem_erase.mpr ⟨fun e => absurd (Proc.devRef_injective _ e) (show (cc1_scratch8 : Ref sig .scVector) ≠ cc1_scratch1 by decide), Finset.mem_erase.mpr ⟨fun e => absurd (Proc.devRef_injective _ e) (show (cc1_scratch8 : Ref sig .scVector) ≠ cc1_scratch0 by decide), SparseCore.Cfg.mem_ownRefs_of_owner (p := Proc.scVector (cV L) (jV L)) (b := ((Proc.scVector (cV L) (jV L)).devRef cc1_scratch8)) rfl⟩⟩⟩⟩⟩⟩⟩⟩)]

theorem ownSems0_V :
    (ownSems0 (thrL d L) : sProp 𝕄)
      = iprop(semVal (cellV d L cc1_scratch9) 0
          ∗ semVal (cellV d L cc1_scratch10) 0
          ∗ semVal (cellV d L cc1_scoped0) 0
          ∗ semVal (cellV d L cc1_scoped1) 0
          ∗ semVal (cellV d L cc1_scoped2) 0
          ∗ semVal (cellV d L cc1_scoped3) 0
          ∗ semVal (cellV d L cc1_scoped4) 0
          ∗ semVal (cellV d L cc1_scoped5) 0
          ∗ semVal (cellV d L cc1_scoped6) 0
          ∗ semVal (cellV d L cc1_scoped7) 0
          ∗ semVal (cellV d L cc1_scoped8) 0
          ∗ bigSep (restCells d L) fun g => semVal g 0) := by
  unfold SparseCore.Cfg.ownSems0 restCells
  rw [SparseCore.bigSep_erase' ((mem_ownCells (g := (cellV d L cc1_scratch9))).mpr ⟨rfl, by show (SemLoc.dma cc1_scratch9.sem : SemLoc sig).isScoped .scVector = true; decide⟩),
    SparseCore.bigSep_erase' (Finset.mem_erase.mpr ⟨fun e => absurd (Prod.ext_iff.mp e).2 (show (SemLoc.dma cc1_scratch10.sem : SemLoc sig) ≠ SemLoc.dma cc1_scratch9.sem by decide), (mem_ownCells (g := (cellV d L cc1_scratch10))).mpr ⟨rfl, by show (SemLoc.dma cc1_scratch10.sem : SemLoc sig).isScoped .scVector = true; decide⟩⟩),
    SparseCore.bigSep_erase' (Finset.mem_erase.mpr ⟨fun e => absurd (Prod.ext_iff.mp e).2 (show (SemLoc.dma cc1_scoped0.sem : SemLoc sig) ≠ SemLoc.dma cc1_scratch10.sem by decide), Finset.mem_erase.mpr ⟨fun e => absurd (Prod.ext_iff.mp e).2 (show (SemLoc.dma cc1_scoped0.sem : SemLoc sig) ≠ SemLoc.dma cc1_scratch9.sem by decide), (mem_ownCells (g := (cellV d L cc1_scoped0))).mpr ⟨rfl, by show (SemLoc.dma cc1_scoped0.sem : SemLoc sig).isScoped .scVector = true; decide⟩⟩⟩),
    SparseCore.bigSep_erase' (Finset.mem_erase.mpr ⟨fun e => absurd (Prod.ext_iff.mp e).2 (show (SemLoc.dma cc1_scoped1.sem : SemLoc sig) ≠ SemLoc.dma cc1_scoped0.sem by decide), Finset.mem_erase.mpr ⟨fun e => absurd (Prod.ext_iff.mp e).2 (show (SemLoc.dma cc1_scoped1.sem : SemLoc sig) ≠ SemLoc.dma cc1_scratch10.sem by decide), Finset.mem_erase.mpr ⟨fun e => absurd (Prod.ext_iff.mp e).2 (show (SemLoc.dma cc1_scoped1.sem : SemLoc sig) ≠ SemLoc.dma cc1_scratch9.sem by decide), (mem_ownCells (g := (cellV d L cc1_scoped1))).mpr ⟨rfl, by show (SemLoc.dma cc1_scoped1.sem : SemLoc sig).isScoped .scVector = true; decide⟩⟩⟩⟩),
    SparseCore.bigSep_erase' (Finset.mem_erase.mpr ⟨fun e => absurd (Prod.ext_iff.mp e).2 (show (SemLoc.dma cc1_scoped2.sem : SemLoc sig) ≠ SemLoc.dma cc1_scoped1.sem by decide), Finset.mem_erase.mpr ⟨fun e => absurd (Prod.ext_iff.mp e).2 (show (SemLoc.dma cc1_scoped2.sem : SemLoc sig) ≠ SemLoc.dma cc1_scoped0.sem by decide), Finset.mem_erase.mpr ⟨fun e => absurd (Prod.ext_iff.mp e).2 (show (SemLoc.dma cc1_scoped2.sem : SemLoc sig) ≠ SemLoc.dma cc1_scratch10.sem by decide), Finset.mem_erase.mpr ⟨fun e => absurd (Prod.ext_iff.mp e).2 (show (SemLoc.dma cc1_scoped2.sem : SemLoc sig) ≠ SemLoc.dma cc1_scratch9.sem by decide), (mem_ownCells (g := (cellV d L cc1_scoped2))).mpr ⟨rfl, by show (SemLoc.dma cc1_scoped2.sem : SemLoc sig).isScoped .scVector = true; decide⟩⟩⟩⟩⟩),
    SparseCore.bigSep_erase' (Finset.mem_erase.mpr ⟨fun e => absurd (Prod.ext_iff.mp e).2 (show (SemLoc.dma cc1_scoped3.sem : SemLoc sig) ≠ SemLoc.dma cc1_scoped2.sem by decide), Finset.mem_erase.mpr ⟨fun e => absurd (Prod.ext_iff.mp e).2 (show (SemLoc.dma cc1_scoped3.sem : SemLoc sig) ≠ SemLoc.dma cc1_scoped1.sem by decide), Finset.mem_erase.mpr ⟨fun e => absurd (Prod.ext_iff.mp e).2 (show (SemLoc.dma cc1_scoped3.sem : SemLoc sig) ≠ SemLoc.dma cc1_scoped0.sem by decide), Finset.mem_erase.mpr ⟨fun e => absurd (Prod.ext_iff.mp e).2 (show (SemLoc.dma cc1_scoped3.sem : SemLoc sig) ≠ SemLoc.dma cc1_scratch10.sem by decide), Finset.mem_erase.mpr ⟨fun e => absurd (Prod.ext_iff.mp e).2 (show (SemLoc.dma cc1_scoped3.sem : SemLoc sig) ≠ SemLoc.dma cc1_scratch9.sem by decide), (mem_ownCells (g := (cellV d L cc1_scoped3))).mpr ⟨rfl, by show (SemLoc.dma cc1_scoped3.sem : SemLoc sig).isScoped .scVector = true; decide⟩⟩⟩⟩⟩⟩),
    SparseCore.bigSep_erase' (Finset.mem_erase.mpr ⟨fun e => absurd (Prod.ext_iff.mp e).2 (show (SemLoc.dma cc1_scoped4.sem : SemLoc sig) ≠ SemLoc.dma cc1_scoped3.sem by decide), Finset.mem_erase.mpr ⟨fun e => absurd (Prod.ext_iff.mp e).2 (show (SemLoc.dma cc1_scoped4.sem : SemLoc sig) ≠ SemLoc.dma cc1_scoped2.sem by decide), Finset.mem_erase.mpr ⟨fun e => absurd (Prod.ext_iff.mp e).2 (show (SemLoc.dma cc1_scoped4.sem : SemLoc sig) ≠ SemLoc.dma cc1_scoped1.sem by decide), Finset.mem_erase.mpr ⟨fun e => absurd (Prod.ext_iff.mp e).2 (show (SemLoc.dma cc1_scoped4.sem : SemLoc sig) ≠ SemLoc.dma cc1_scoped0.sem by decide), Finset.mem_erase.mpr ⟨fun e => absurd (Prod.ext_iff.mp e).2 (show (SemLoc.dma cc1_scoped4.sem : SemLoc sig) ≠ SemLoc.dma cc1_scratch10.sem by decide), Finset.mem_erase.mpr ⟨fun e => absurd (Prod.ext_iff.mp e).2 (show (SemLoc.dma cc1_scoped4.sem : SemLoc sig) ≠ SemLoc.dma cc1_scratch9.sem by decide), (mem_ownCells (g := (cellV d L cc1_scoped4))).mpr ⟨rfl, by show (SemLoc.dma cc1_scoped4.sem : SemLoc sig).isScoped .scVector = true; decide⟩⟩⟩⟩⟩⟩⟩),
    SparseCore.bigSep_erase' (Finset.mem_erase.mpr ⟨fun e => absurd (Prod.ext_iff.mp e).2 (show (SemLoc.dma cc1_scoped5.sem : SemLoc sig) ≠ SemLoc.dma cc1_scoped4.sem by decide), Finset.mem_erase.mpr ⟨fun e => absurd (Prod.ext_iff.mp e).2 (show (SemLoc.dma cc1_scoped5.sem : SemLoc sig) ≠ SemLoc.dma cc1_scoped3.sem by decide), Finset.mem_erase.mpr ⟨fun e => absurd (Prod.ext_iff.mp e).2 (show (SemLoc.dma cc1_scoped5.sem : SemLoc sig) ≠ SemLoc.dma cc1_scoped2.sem by decide), Finset.mem_erase.mpr ⟨fun e => absurd (Prod.ext_iff.mp e).2 (show (SemLoc.dma cc1_scoped5.sem : SemLoc sig) ≠ SemLoc.dma cc1_scoped1.sem by decide), Finset.mem_erase.mpr ⟨fun e => absurd (Prod.ext_iff.mp e).2 (show (SemLoc.dma cc1_scoped5.sem : SemLoc sig) ≠ SemLoc.dma cc1_scoped0.sem by decide), Finset.mem_erase.mpr ⟨fun e => absurd (Prod.ext_iff.mp e).2 (show (SemLoc.dma cc1_scoped5.sem : SemLoc sig) ≠ SemLoc.dma cc1_scratch10.sem by decide), Finset.mem_erase.mpr ⟨fun e => absurd (Prod.ext_iff.mp e).2 (show (SemLoc.dma cc1_scoped5.sem : SemLoc sig) ≠ SemLoc.dma cc1_scratch9.sem by decide), (mem_ownCells (g := (cellV d L cc1_scoped5))).mpr ⟨rfl, by show (SemLoc.dma cc1_scoped5.sem : SemLoc sig).isScoped .scVector = true; decide⟩⟩⟩⟩⟩⟩⟩⟩),
    SparseCore.bigSep_erase' (Finset.mem_erase.mpr ⟨fun e => absurd (Prod.ext_iff.mp e).2 (show (SemLoc.dma cc1_scoped6.sem : SemLoc sig) ≠ SemLoc.dma cc1_scoped5.sem by decide), Finset.mem_erase.mpr ⟨fun e => absurd (Prod.ext_iff.mp e).2 (show (SemLoc.dma cc1_scoped6.sem : SemLoc sig) ≠ SemLoc.dma cc1_scoped4.sem by decide), Finset.mem_erase.mpr ⟨fun e => absurd (Prod.ext_iff.mp e).2 (show (SemLoc.dma cc1_scoped6.sem : SemLoc sig) ≠ SemLoc.dma cc1_scoped3.sem by decide), Finset.mem_erase.mpr ⟨fun e => absurd (Prod.ext_iff.mp e).2 (show (SemLoc.dma cc1_scoped6.sem : SemLoc sig) ≠ SemLoc.dma cc1_scoped2.sem by decide), Finset.mem_erase.mpr ⟨fun e => absurd (Prod.ext_iff.mp e).2 (show (SemLoc.dma cc1_scoped6.sem : SemLoc sig) ≠ SemLoc.dma cc1_scoped1.sem by decide), Finset.mem_erase.mpr ⟨fun e => absurd (Prod.ext_iff.mp e).2 (show (SemLoc.dma cc1_scoped6.sem : SemLoc sig) ≠ SemLoc.dma cc1_scoped0.sem by decide), Finset.mem_erase.mpr ⟨fun e => absurd (Prod.ext_iff.mp e).2 (show (SemLoc.dma cc1_scoped6.sem : SemLoc sig) ≠ SemLoc.dma cc1_scratch10.sem by decide), Finset.mem_erase.mpr ⟨fun e => absurd (Prod.ext_iff.mp e).2 (show (SemLoc.dma cc1_scoped6.sem : SemLoc sig) ≠ SemLoc.dma cc1_scratch9.sem by decide), (mem_ownCells (g := (cellV d L cc1_scoped6))).mpr ⟨rfl, by show (SemLoc.dma cc1_scoped6.sem : SemLoc sig).isScoped .scVector = true; decide⟩⟩⟩⟩⟩⟩⟩⟩⟩),
    SparseCore.bigSep_erase' (Finset.mem_erase.mpr ⟨fun e => absurd (Prod.ext_iff.mp e).2 (show (SemLoc.dma cc1_scoped7.sem : SemLoc sig) ≠ SemLoc.dma cc1_scoped6.sem by decide), Finset.mem_erase.mpr ⟨fun e => absurd (Prod.ext_iff.mp e).2 (show (SemLoc.dma cc1_scoped7.sem : SemLoc sig) ≠ SemLoc.dma cc1_scoped5.sem by decide), Finset.mem_erase.mpr ⟨fun e => absurd (Prod.ext_iff.mp e).2 (show (SemLoc.dma cc1_scoped7.sem : SemLoc sig) ≠ SemLoc.dma cc1_scoped4.sem by decide), Finset.mem_erase.mpr ⟨fun e => absurd (Prod.ext_iff.mp e).2 (show (SemLoc.dma cc1_scoped7.sem : SemLoc sig) ≠ SemLoc.dma cc1_scoped3.sem by decide), Finset.mem_erase.mpr ⟨fun e => absurd (Prod.ext_iff.mp e).2 (show (SemLoc.dma cc1_scoped7.sem : SemLoc sig) ≠ SemLoc.dma cc1_scoped2.sem by decide), Finset.mem_erase.mpr ⟨fun e => absurd (Prod.ext_iff.mp e).2 (show (SemLoc.dma cc1_scoped7.sem : SemLoc sig) ≠ SemLoc.dma cc1_scoped1.sem by decide), Finset.mem_erase.mpr ⟨fun e => absurd (Prod.ext_iff.mp e).2 (show (SemLoc.dma cc1_scoped7.sem : SemLoc sig) ≠ SemLoc.dma cc1_scoped0.sem by decide), Finset.mem_erase.mpr ⟨fun e => absurd (Prod.ext_iff.mp e).2 (show (SemLoc.dma cc1_scoped7.sem : SemLoc sig) ≠ SemLoc.dma cc1_scratch10.sem by decide), Finset.mem_erase.mpr ⟨fun e => absurd (Prod.ext_iff.mp e).2 (show (SemLoc.dma cc1_scoped7.sem : SemLoc sig) ≠ SemLoc.dma cc1_scratch9.sem by decide), (mem_ownCells (g := (cellV d L cc1_scoped7))).mpr ⟨rfl, by show (SemLoc.dma cc1_scoped7.sem : SemLoc sig).isScoped .scVector = true; decide⟩⟩⟩⟩⟩⟩⟩⟩⟩⟩),
    SparseCore.bigSep_erase' (Finset.mem_erase.mpr ⟨fun e => absurd (Prod.ext_iff.mp e).2 (show (SemLoc.dma cc1_scoped8.sem : SemLoc sig) ≠ SemLoc.dma cc1_scoped7.sem by decide), Finset.mem_erase.mpr ⟨fun e => absurd (Prod.ext_iff.mp e).2 (show (SemLoc.dma cc1_scoped8.sem : SemLoc sig) ≠ SemLoc.dma cc1_scoped6.sem by decide), Finset.mem_erase.mpr ⟨fun e => absurd (Prod.ext_iff.mp e).2 (show (SemLoc.dma cc1_scoped8.sem : SemLoc sig) ≠ SemLoc.dma cc1_scoped5.sem by decide), Finset.mem_erase.mpr ⟨fun e => absurd (Prod.ext_iff.mp e).2 (show (SemLoc.dma cc1_scoped8.sem : SemLoc sig) ≠ SemLoc.dma cc1_scoped4.sem by decide), Finset.mem_erase.mpr ⟨fun e => absurd (Prod.ext_iff.mp e).2 (show (SemLoc.dma cc1_scoped8.sem : SemLoc sig) ≠ SemLoc.dma cc1_scoped3.sem by decide), Finset.mem_erase.mpr ⟨fun e => absurd (Prod.ext_iff.mp e).2 (show (SemLoc.dma cc1_scoped8.sem : SemLoc sig) ≠ SemLoc.dma cc1_scoped2.sem by decide), Finset.mem_erase.mpr ⟨fun e => absurd (Prod.ext_iff.mp e).2 (show (SemLoc.dma cc1_scoped8.sem : SemLoc sig) ≠ SemLoc.dma cc1_scoped1.sem by decide), Finset.mem_erase.mpr ⟨fun e => absurd (Prod.ext_iff.mp e).2 (show (SemLoc.dma cc1_scoped8.sem : SemLoc sig) ≠ SemLoc.dma cc1_scoped0.sem by decide), Finset.mem_erase.mpr ⟨fun e => absurd (Prod.ext_iff.mp e).2 (show (SemLoc.dma cc1_scoped8.sem : SemLoc sig) ≠ SemLoc.dma cc1_scratch10.sem by decide), Finset.mem_erase.mpr ⟨fun e => absurd (Prod.ext_iff.mp e).2 (show (SemLoc.dma cc1_scoped8.sem : SemLoc sig) ≠ SemLoc.dma cc1_scratch9.sem by decide), (mem_ownCells (g := (cellV d L cc1_scoped8))).mpr ⟨rfl, by show (SemLoc.dma cc1_scoped8.sem : SemLoc sig).isScoped .scVector = true; decide⟩⟩⟩⟩⟩⟩⟩⟩⟩⟩⟩)]

end Cert.Kernel.Hand
end
-- ==== Proof.KB.TileW.lean ====
/-
  Word arithmetic of the packed layouts, lane by lane.

  A table row number v (a 32-bit word) is turned into a packed row number ((v >>> 4) <<< 3) ||| (v &&& 7) and a lane
  offset (v &&& 8) <<< 3; a relation number into the packed row v >>> 1 and the lane offset (v &&& 1) <<< 6.  As natural
  numbers these are 8 (v / 16) + v % 8, 64 (v / 8 % 2), v / 2 and 64 (v % 2): the layout functions of the specification.
-/
import Idealize.ShloMosaic.PureOps.Ideal
import Idealize.ShloMosaic.Lib.Scf
import proofs.«202666_g58660663329007_cont_9to1_m_1270_26_alg».proof.Proof.Spec

namespace Cert.Kernel.Hand

open Idealize.ShloMosaic Cert.Spec

/-- The packed row number of a table row, as a word. -/
theorem packRow_toNat (v : BitVec 32) :
    (IntOp.ori (IntOp.shli .vector (IntOp.shrui .vector v 4#32) 3#32) (IntOp.andi v 7#32)).toNat = physRow v.toNat := by
  have hv := v.isLt
  simp only [IntOp.ori, IntOp.shli, IntOp.shrui, IntOp.andi, BitVec.toNat_ofNat, Nat.reducePow, Nat.reduceMod, Nat.reduceLT, if_true,
    BitVec.toNat_or, BitVec.toNat_and, BitVec.shiftLeft_eq', BitVec.ushiftRight_eq', BitVec.toNat_shiftLeft, BitVec.toNat_ushiftRight]
  unfold physRow
  have h7 : v.toNat &&& 7 = v.toNat % 8 := Nat.and_two_pow_sub_one_eq_mod v.toNat 3
  have hs : (v.toNat >>> 4) <<< 3 = 8 * (v.toNat / 16) := by rw [Nat.shiftLeft_eq, Nat.shiftRight_eq_div_pow]; omega
  rw [h7, hs, Nat.mod_eq_of_lt (by omega)]
  have : 8 * (v.toNat / 16) = (v.toNat / 16) <<< 3 := by rw [Nat.shiftLeft_eq]; omega
  rw [this, ← Nat.shiftLeft_add_eq_or_of_lt (by omega : v.toNat % 8 < 2 ^ 3), Nat.shiftLeft_eq]

/-- The lane offset of a table row, as a word. -/
theorem packCol_toNat (v : BitVec 32) :
    (IntOp.shli .vector (IntOp.andi v 8#32) 3#32).toNat = physCol v.toNat := by
  simp only [IntOp.shli, IntOp.andi, BitVec.toNat_ofNat, Nat.reducePow, Nat.reduceMod, Nat.reduceLT, if_true,
    BitVec.toNat_and, BitVec.shiftLeft_eq', BitVec.toNat_shiftLeft]
  unfold physCol
  have h8 : v.toNat &&& 8 = 8 * (v.toNat / 8 % 2) := by
    have e0 : v.toNat % 16 = v.toNat &&& 15 := (Nat.and_two_pow_sub_one_eq_mod v.toNat 4).symm
    have e1 : v.toNat &&& 8 = (v.toNat % 16) &&& 8 := by rw [e0, Nat.and_assoc]; rfl
    have e2 : ∀ m, m < 16 → m &&& 8 = 8 * (m / 8 % 2) := by decide
    rw [e1, e2 _ (Nat.mod_lt _ (by decide))]; omega
  rw [h8, Nat.shiftLeft_eq]; omega

/-- The packed row of a relation number, as a word. -/
theorem relRow_toNat (v : BitVec 32) : (IntOp.shrui .vector v 1#32).toNat = relRow v.toNat := by
  simp only [IntOp.shrui, BitVec.toNat_ofNat, Nat.reducePow, Nat.reduceMod, Nat.reduceLT, if_true, BitVec.ushiftRight_eq', BitVec.toNat_ushiftRight]
  unfold relRow; rw [Nat.shiftRight_eq_div_pow]

/-- The lane offset of a relation number, as a word. -/
theorem relCol_toNat (v : BitVec 32) : (IntOp.shli .vector (IntOp.andi v 1#32) 6#32).toNat = relCol v.toNat := by
  simp only [IntOp.shli, IntOp.andi, BitVec.toNat_ofNat, Nat.reducePow, Nat.reduceMod, Nat.reduceLT, if_true,
    BitVec.toNat_and, BitVec.shiftLeft_eq', BitVec.toNat_shiftLeft]
  unfold relCol
  have h1 : v.toNat &&& 1 = v.toNat % 2 := Nat.and_one_is_mod v.toNat
  rw [h1, Nat.shiftLeft_eq]; omega

/-- Adding a small constant to a small word does not wrap. -/
theorem addi_small (a : BitVec 32) (n : ℕ) (h : a.toNat + n < 2 ^ 32) : (IntOp.addi a (BitVec.ofNat 32 n)).toNat = a.toNat + n := by
  simp only [IntOp.addi, BitVec.toNat_add, BitVec.toNat_ofNat]
  rw [Nat.mod_eq_of_lt (a := n) (by omega), Nat.mod_eq_of_lt h]

/-- The batch row of lane `l` in trip `g`: 16 g + l. -/
theorem rowv_toNat (g l : ℕ) (hg : g < 16) (hl : l < 16) :
    (IntOp.addi (Scalar.muli (Scf.iv 0#32 1#32 g) 16#32) (BitVec.ofNat 32 l)).toNat = 16 * g + l := by
  simp only [IntOp.addi, Scalar.muli, IntOp.muli, Scf.iv, BitVec.toNat_add, BitVec.toNat_mul, BitVec.toNat_ofNat, BitVec.zero_add, BitVec.mul_one]
  omega

end Cert.Kernel.Hand
-- ==== Proof.KB.TileG.lean ====
/-
  What one pass of a worker computes, as pure functions.

  In a pass the worker holds 256 batch entries: three lists of 256 indices (head, tail, relation), the two blocks of
  256 packed rows gathered at the heads' and the tails' packed row numbers, and the small packed table.  Entry (d, b) of
  its 64 x 256 staging block is |head + relation - tail| read at lane offset + d of the rows of batch entry b.  When the
  lists are a window of the batch's index lists and the blocks are the packed table's rows at the packed row numbers,
  the staging block is the window's columns of the score.
-/
import Idealize.ShloMosaic.PureOps.Ideal
import Idealize.ShloMosaic.Lib.ValueIdx
import proofs.«202666_g58660663329007_cont_9to1_m_1270_26_alg».proof.Proof.Spec

namespace Cert.Kernel.Hand

open Idealize.ShloMosaic Idealize.ShloMosaic.ValueIdx Cert.Spec

variable {α : Type}

/-- The staging block of a pass, from the index lists and the gathered blocks. -/
def grpT (f : α → α → α → α) (f0 f1 f2 : (⟨1, ![256]⟩ : Shape).Idx → BitVec 32)
    (f5 f6 : (⟨2, ![256, 128]⟩ : Shape).Idx → α) (f7 : (⟨2, ![50, 128]⟩ : Shape).Idx → α) : (⟨2, ![64, 256]⟩ : Shape).Idx → α :=
  fun y =>
    f (f5 (ix2 (y 1) (ixMod 128 (physCol (f0 (ix1 (y 1))).toNat + (y 0).val))))
      (f7 (ix2 (ixMod 50 (relRow (f2 (ix1 (y 1))).toNat)) (ixMod 128 (relCol (f2 (ix1 (y 1))).toNat + (y 0).val))))
      (f6 (ix2 (y 1) (ixMod 128 (physCol (f1 (ix1 (y 1))).toNat + (y 0).val))))

/-- A pass's staging block is the score's columns [off, off + 256): the lists are the batch's at that window, the
    gathered blocks the packed table's rows at the packed row numbers, the small table itself. -/
theorem grpT_eq_score (f : α → α → α → α) (X : (⟨2, ![500000, 128]⟩ : Shape).Idx → α) (R2 : (⟨2, ![50, 128]⟩ : Shape).Idx → α)
    (h t r : (⟨1, ![16384]⟩ : Shape).Idx → BitVec 32) (off : ℕ)
    (f0 f1 f2 : (⟨1, ![256]⟩ : Shape).Idx → BitVec 32) (f5 f6 : (⟨2, ![256, 128]⟩ : Shape).Idx → α) (f7 : (⟨2, ![50, 128]⟩ : Shape).Idx → α)
    (hf0 : ∀ k : Fin 256, f0 (ix1 k) = h (ix1 (ixMod 16384 (off + k.val))))
    (hf1 : ∀ k : Fin 256, f1 (ix1 k) = t (ix1 (ixMod 16384 (off + k.val))))
    (hf2 : ∀ k : Fin 256, f2 (ix1 k) = r (ix1 (ixMod 16384 (off + k.val))))
    (hf5 : ∀ (k : Fin 256) (c : Fin 128), f5 (ix2 k c) = X (ix2 (ixMod 500000 (physRow (f0 (ix1 k)).toNat)) c))
    (hf6 : ∀ (k : Fin 256) (c : Fin 128), f6 (ix2 k c) = X (ix2 (ixMod 500000 (physRow (f1 (ix1 k)).toNat)) c))
    (hf7 : ∀ j, f7 j = R2 j) (y : (⟨2, ![64, 256]⟩ : Shape).Idx) :
    grpT f f0 f1 f2 f5 f6 f7 y = scoreT f X R2 h t r (ix2 (y 0) (ixMod 16384 (off + (y 1).val))) := by
  obtain ⟨a, b, rfl⟩ : ∃ (a : Fin 64) (b : Fin 256), y = ix2 a b := ⟨y 0, y 1, eq_ix2 y⟩
  unfold grpT scoreT
  show f (f5 (ix2 b (ixMod 128 (physCol (f0 (ix1 b)).toNat + a.val))))
      (f7 (ix2 (ixMod 50 (relRow (f2 (ix1 b)).toNat)) (ixMod 128 (relCol (f2 (ix1 b)).toNat + a.val))))
      (f6 (ix2 b (ixMod 128 (physCol (f1 (ix1 b)).toNat + a.val))))
    = f (X (ix2 (ixMod 500000 (physRow (h (ix1 (ixMod 16384 (off + b.val)))).toNat))
          (ixMod 128 (physCol (h (ix1 (ixMod 16384 (off + b.val)))).toNat + a.val))))
      (R2 (ix2 (ixMod 50 (relRow (r (ix1 (ixMod 16384 (off + b.val)))).toNat))
          (ixMod 128 (relCol (r (ix1 (ixMod 16384 (off + b.val)))).toNat + a.val))))
      (X (ix2 (ixMod 500000 (physRow (t (ix1 (ixMod 16384 (off + b.val)))).toNat))
          (ixMod 128 (physCol (t (ix1 (ixMod 16384 (off + b.val)))).toNat + a.val))))
  rw [hf5, hf6, hf7, hf0, hf1, hf2]

end Cert.Kernel.Hand
-- ==== Proof.KB.TileC.lean ====
/-
  The index vectors of a group of sixteen batch entries, lane by lane: the batch rows 16 g + lane, the lane offsets
  of the heads, tails and relations plus the lane d, the relations' packed rows; and that they stay inside the blocks
  they index (256 x 128 for the gathered rows, 50 x 128 for the small table).
-/
import Idealize.ShloMosaic.PureOps.Ideal
import Idealize.ShloMosaic.Lib.Scf
import proofs.«202666_g58660663329007_cont_9to1_m_1270_26_alg».proof.Proof.KB.TileW

namespace Cert.Kernel.Hand

open Idealize.ShloMosaic Cert.Spec

/-- The shape of a sixteen-lane vector. -/
abbrev V16 : Shape := ⟨1, ![16]⟩

/-- Lane `x` of the batch rows of group `g`. -/
theorem rowv_val (g : ℕ) (hg : g < 16) (H : V16.Iotas .scVector 32 [0]) (x : V16.Idx) :
    ((addi (broadcast V16 (Scalar.muli (Scf.iv 0#32 1#32 g) 16#32)) (iota .scVector V16 32 [0] H)) x).toNat = 16 * g + (x 0).val := by
  have hx : (x 0).val < 16 := (x 0).isLt
  show (IntOp.addi (Scalar.muli (Scf.iv 0#32 1#32 g) 16#32) (BitVec.ofNat 32 ([0].foldl (fun n a => n * V16.size a + (x a).val) 0))).toNat = _
  have : ([0].foldl (fun n (a : Fin V16.rank) => n * V16.size a + (x a).val) 0) = (x 0).val := by simp
  rw [this]
  exact rowv_toNat g (x 0).val hg hx

/-- Lane `x` of a head's or tail's lane offset plus `n`. -/
theorem hcol_val (u : IVec V16 32) (n : ℕ) (hn : n < 64) (x : V16.Idx) :
    ((addi (shli (andi u (broadcast V16 8#32)) (broadcast V16 3#32)) (broadcast V16 (BitVec.ofNat 32 n))) x).toNat
      = physCol (u x).toNat + n := by
  show (IntOp.addi (IntOp.shli .vector (IntOp.andi (u x) 8#32) 3#32) (BitVec.ofNat 32 n)).toNat = _
  rw [addi_small _ _ (by rw [packCol_toNat]; have := physCol_add_lt (u x).toNat hn; omega), packCol_toNat]

/-- Lane `x` of a relation's packed row. -/
theorem rrow_val (u : IVec V16 32) (x : V16.Idx) : ((shrui u (broadcast V16 1#32)) x).toNat = relRow (u x).toNat :=
  relRow_toNat (u x)

/-- Lane `x` of a relation's lane offset plus `n`. -/
theorem rcol_val (u : IVec V16 32) (n : ℕ) (hn : n < 64) (x : V16.Idx) :
    ((addi (shli (andi u (broadcast V16 1#32)) (broadcast V16 6#32)) (broadcast V16 (BitVec.ofNat 32 n))) x).toNat
      = relCol (u x).toNat + n := by
  show (IntOp.addi (IntOp.shli .vector (IntOp.andi (u x) 1#32) 6#32) (BitVec.ofNat 32 n)).toNat = _
  rw [addi_small _ _ (by rw [relCol_toNat]; have := relCol_add_lt (u x).toNat hn; omega), relCol_toNat]

/-- The batch rows and a head's or tail's lanes stay inside a gathered block. -/
theorem chk_rows (g : ℕ) (hg : g < 16) (H : V16.Iotas .scVector 32 [0]) (u : IVec V16 32) (n : ℕ) (hn : n < 64) :
    ∀ a x, ((![addi (broadcast V16 (Scalar.muli (Scf.iv 0#32 1#32 g) 16#32)) (iota .scVector V16 32 [0] H),
        addi (shli (andi u (broadcast V16 8#32)) (broadcast V16 3#32)) (broadcast V16 (BitVec.ofNat 32 n))] : Fin 2 → IVec V16 32) a x).toNat
      < (⟨2, ![256, 128]⟩ : Shape).size a := by
  intro a x
  match a with
  | ⟨0, _⟩ =>
    show ((addi (broadcast V16 (Scalar.muli (Scf.iv 0#32 1#32 g) 16#32)) (iota .scVector V16 32 [0] H)) x).toNat < 256
    rw [rowv_val g hg H x]; have hx : (x 0).val < 16 := (x 0).isLt; omega
  | ⟨1, _⟩ =>
    show ((addi (shli (andi u (broadcast V16 8#32)) (broadcast V16 3#32)) (broadcast V16 (BitVec.ofNat 32 n))) x).toNat < 128
    rw [hcol_val u n hn x]; exact physCol_add_lt _ hn

/-- A relation's packed row and lanes stay inside the small table. -/
theorem chk_rel (u : IVec V16 32) (n : ℕ) (hn : n < 64) (hu : ∀ x, (u x).toNat < 100) :
    ∀ a x, ((![shrui u (broadcast V16 1#32),
        addi (shli (andi u (broadcast V16 1#32)) (broadcast V16 6#32)) (broadcast V16 (BitVec.ofNat 32 n))] : Fin 2 → IVec V16 32) a x).toNat
      < (⟨2, ![50, 128]⟩ : Shape).size a := by
  intro a x
  match a with
  | ⟨0, _⟩ =>
    show ((shrui u (broadcast V16 1#32)) x).toNat < 50
    rw [rrow_val u x]; exact relRow_lt (hu x)
  | ⟨1, _⟩ =>
    show ((addi (shli (andi u (broadcast V16 1#32)) (broadcast V16 6#32)) (broadcast V16 (BitVec.ofNat 32 n))) x).toNat < 128
    rw [rcol_val u n hn x]; exact relCol_add_lt _ hn

end Cert.Kernel.Hand
-- ==== Proof.KB.TileT1.lean ====
/-
  One trip of the loop that turns table row numbers into packed row numbers (first pass).

  Trip k reads entries [16 k, 16 k + 16) of the heads' and of the tails' index lists and writes, at the same positions of
  the two lists of packed row numbers, the word ((v >>> 4) <<< 3) ||| (v &&& 7) of each entry v, which as a number is
  8 (v / 16) + v % 8.  So if the first 16 k entries of the two lists were the packed row numbers of the first 16 k heads
  and tails, after the trip the first 16 (k + 1) are: an entry inside the window is read back as the word just written,
  an entry outside it is unchanged.
-/
import proofs.«202666_g58660663329007_cont_9to1_m_1270_26_alg».proof.Proof.KB.TileA
import Idealize.ShloMosaic.Lib.Tactic
import Idealize.ShloMosaic.Lib.Writes
import proofs.«202666_g58660663329007_cont_9to1_m_1270_26_alg».proof.Proof.KB.TileW
import proofs.«202666_g58660663329007_cont_9to1_m_1270_26_alg».proof.Proof.KB.TileG
import proofs.«202666_g58660663329007_cont_9to1_m_1270_26_alg».proof.Proof.Gen.Kernel.Skeleton

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Spec

variable {F : FTy → Type} [FloatOps F]

local notation "𝕄" => MT nD τ sig (HIx 1) (Elt F) ℕ UU ℕ

open Idealize.ShloMosaic.Tactic

/-- One trip of the loop that turns table row numbers into packed row numbers: sixteen more entries of the two lists of
    packed row numbers are the packed rows of the sixteen heads and tails read. -/
theorem trip1 (d : Dev nD) (L : grid1.Coords) (k : Fin k1_t1_loop.trips)
    (f0 : Buf (Elt F) ((Memref.whole cc1_scratch0).view.loc (thrL d L))) (f1 : Buf (Elt F) ((Memref.whole cc1_scratch1).view.loc (thrL d L))) (f3 : Buf (Elt F) ((Memref.whole cc1_scratch3).view.loc (thrL d L))) (f4 : Buf (Elt F) ((Memref.whole cc1_scratch4).view.loc (thrL d L)))
    (hP : ∀ j : S256.Idx, (j 0).val < 16 * k.val → (f3 j).toNat = physRow (f0 j).toNat ∧ (f4 j).toNat = physRow (f1 j).toNat) :
    (iprop(((Memref.whole cc1_scratch0).view.loc (thrL d L) ↦{fullShare} f0) ∗ ((Memref.whole cc1_scratch1).view.loc (thrL d L) ↦{fullShare} f1) ∗ ((Memref.whole cc1_scratch3).view.loc (thrL d L) ↦{fullShare} f3) ∗ ((Memref.whole cc1_scratch4).view.loc (thrL d L) ↦{fullShare} f4)) : sProp 𝕄)
      ⊢ wp frame (wpE (defs₀ (F := F)) 𝒱₀ (thrL d L) none) Set.univ
          (k1_t1_body L (Memref.whole main_v1_scv) (Memref.isWhole_whole _) (Memref.whole main_v2_scv) (Memref.isWhole_whole _)
            (Memref.whole main_arg2_scv) (Memref.isWhole_whole _) (Memref.whole main_arg3_scv) (Memref.isWhole_whole _)
            (Memref.whole main_arg4_scv) (Memref.isWhole_whole _) (Memref.whole main_v3_scv) (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _) (Memref.whole cc1_scratch5) (Memref.isWhole_whole _)
            (Memref.whole cc1_scratch6) (Memref.isWhole_whole _) (Memref.whole cc1_scratch7) (Memref.isWhole_whole _)
            (Memref.whole cc1_scratch8) (Memref.isWhole_whole _) cc1_scratch9 cc1_scratch10
            cc1_scoped0 cc1_scoped1 cc1_scoped2 cc1_scoped3 cc1_scoped4 cc1_scoped5 cc1_scoped6 cc1_scoped7 cc1_scoped8 k ())
          fun _ => iprop(((Memref.whole cc1_scratch0).view.loc (thrL d L) ↦{fullShare} f0) ∗ ((Memref.whole cc1_scratch1).view.loc (thrL d L) ↦{fullShare} f1)
            ∗ ∃ f3' f4', ((Memref.whole cc1_scratch3).view.loc (thrL d L) ↦{fullShare} f3') ∗ ((Memref.whole cc1_scratch4).view.loc (thrL d L) ↦{fullShare} f4') ∗ ⌜∀ j : S256.Idx, (j 0).val < 16 * (k.val + 1) → (f3' j).toNat = physRow (f0 j).toNat ∧ (f4' j).toNat = physRow (f1 j).toNat⌝) := by
  unfold k1_t1_body
  iintro ⟨H0, H1, H3, H4⟩
  sl_exec
  sl_step
  isplitl [H0]; · iexact H0
  isplitl [H1]; · iexact H1
  iexists _; iexists _
  isplitl [H3]; · iexact H3
  isplitl [H4]; · iexact H4
  ipureintro
  intro j hj
  have hoff : k1_off2 k = ![16 * k.val] := k1_off2_eq k
  by_cases hin : j ∈ (Rect.unit (s := S256) (k1_off2 k) S16.size (k1_off2_inb k)).set
  · obtain ⟨x, rfl⟩ := (Rect.unit (s := S256) (k1_off2 k) S16.size (k1_off2_inb k)).exists_idx_of_mem hin
    constructor
    · refine (congrArg BitVec.toNat (View.read_writes_cons_emb (Memref.whole cc1_scratch3).view f3 (Rect.unit (s := S256) (k1_off2 k) S16.size (k1_off2_inb k)) _ [] x)).trans ?_
      exact packRow_toNat _
    · refine (congrArg BitVec.toNat (View.read_writes_cons_emb (Memref.whole cc1_scratch4).view f4 (Rect.unit (s := S256) (k1_off2 k) S16.size (k1_off2_inb k)) _ [] x)).trans ?_
      exact packRow_toNat _
  · have hlt : (j 0).val < 16 * k.val := by
      by_contra hge
      refine hin (Rect.mem_set_unit.mpr fun a => ?_)
      have ha : a = 0 := Subsingleton.elim _ _
      subst ha
      rw [hoff]
      refine ⟨?_, ?_⟩
      · show 16 * k.val ≤ (j 0).val; omega
      · show (j 0).val < 16 * k.val + 16; omega
    have h3 : View.read (Elt F) (Memref.whole cc1_scratch3).view ((Memref.whole cc1_scratch3).view.writes (Elt F) f3 [⟨Rect.unit (s := S256) (k1_off2 k) S16.size (k1_off2_inb k), k1_pay521 (View.readAt (Elt F) (Memref.whole cc1_scratch0).view (Rect.unit (s := S256) (k1_off2 k) S16.size (k1_off2_inb k)).toLoadRect f0)⟩]) j = View.read (Elt F) (Memref.whole cc1_scratch3).view f3 j :=
      View.read_writes_apply_of_forall_not_mem _ _ j _ (by intro p hp; rw [List.mem_singleton.mp hp]; exact hin)
    have h4 : View.read (Elt F) (Memref.whole cc1_scratch4).view ((Memref.whole cc1_scratch4).view.writes (Elt F) f4 [⟨Rect.unit (s := S256) (k1_off2 k) S16.size (k1_off2_inb k), k1_pay522 (View.readAt (Elt F) (Memref.whole cc1_scratch1).view (Rect.unit (s := S256) (k1_off2 k) S16.size (k1_off2_inb k)).toLoadRect f1)⟩]) j = View.read (Elt F) (Memref.whole cc1_scratch4).view f4 j :=
      View.read_writes_apply_of_forall_not_mem _ _ j _ (by intro p hp; rw [List.mem_singleton.mp hp]; exact hin)
    exact ⟨(congrArg BitVec.toNat h3).trans (hP j hlt).1, (congrArg BitVec.toNat h4).trans (hP j hlt).2⟩

end Cert.Kernel.Hand
end
-- ==== Proof.KB.TileT2.lean ====
/-
  One trip of the scoring loop (first pass).

  Trip g handles the sixteen batch entries 16 g .. 16 g + 15 of the pass.  For each lane d of 0..63 it reads, from the
  two blocks of gathered rows at batch row 16 g + x and lane offset (of the head, of the tail) + d, and from the small
  table at the relation's packed row and lane offset + d, three vectors of sixteen values, and stores |head + relation
  - tail| into row d, columns [16 g, 16 g + 16) of the staging block.  The indices stay inside the blocks because the
  batch row is below 256, a lane offset is 0 or 64 and d < 64, and a relation number below 100 has packed row below 50.
  Each of the 64 stores is a sixteen-entry piece of one function of the block's index (the pass's value, `grpT`); storing
  them one after another gives that function on rows 0..63 of the sixteen columns and leaves every other entry as it was.
  So a block that held the pass's value on columns below 16 g holds it on columns below 16 (g + 1).
-/
import proofs.«202666_g58660663329007_cont_9to1_m_1270_26_alg».proof.Proof.KB.TileA
import Idealize.ShloMosaic.Lib.Tactic
import Idealize.ShloMosaic.Lib.Writes
import Idealize.ShloMosaic.Lib.Pipeline.Value
import proofs.«202666_g58660663329007_cont_9to1_m_1270_26_alg».proof.Proof.KB.TileW
import proofs.«202666_g58660663329007_cont_9to1_m_1270_26_alg».proof.Proof.KB.TileG
import proofs.«202666_g58660663329007_cont_9to1_m_1270_26_alg».proof.Proof.KB.TileC
import proofs.«202666_g58660663329007_cont_9to1_m_1270_26_alg».proof.Proof.Gen.Kernel.Skeleton

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Spec

variable {F : FTy → Type} [FloatOps F]

local notation "𝕄" => MT nD τ sig (HIx 1) (Elt F) ℕ UU ℕ

open Idealize.ShloMosaic.Tactic
set_option sl_exec.dischHeartbeats 20000

section Fold

variable (d : Dev nD) (L : grid1.Coords)

/-- The staging block after the first `n` lanes of group `g` are stored: those lanes' sixteen columns hold `G`, every
    other entry what the block held before the trip. -/
def Good (g n : ℕ) (G : S64x256.Idx → F .f32) (f8 Fc : Buf (Elt F) ((Memref.whole cc1_scratch8).view.loc (thrL d L))) : Prop :=
  ∀ y : S64x256.Idx, Fc y = if (y 0).val < n ∧ 16 * g ≤ (y 1).val ∧ (y 1).val < 16 * g + 16 then G y else f8 y

theorem good_base (g : ℕ) (G : S64x256.Idx → F .f32) (f8 : Buf (Elt F) ((Memref.whole cc1_scratch8).view.loc (thrL d L))) :
    Good d L g 0 G f8 ((Memref.whole cc1_scratch8).view.writes (Elt F) f8 []) := by
  intro y
  rw [if_neg (by omega)]; rfl

/-- One more lane stored: a sixteen-entry piece of row `n` at columns [16 g, 16 g + 16) that holds `G`. -/
theorem good_step (g n : ℕ) (G : S64x256.Idx → F .f32) (f8 : Buf (Elt F) ((Memref.whole cc1_scratch8).view.loc (thrL d L))) (Lp : List (View.Piece (Elt F) S64x256 .f32))
    (off : Fin S64x256.rank → ℕ) (hoff : off = ![n, 16 * g]) (inb : ∀ a, off a + S1x16.size a ≤ S64x256.size a)
    (w : (Rect.unit (s := S64x256) off S1x16.size inb).shape.Idx → F .f32)
    (hw : ∀ x, w x = G ((Rect.unit (s := S64x256) off S1x16.size inb).emb x))
    (hprev : Good d L g n G f8 ((Memref.whole cc1_scratch8).view.writes (Elt F) f8 Lp)) :
    Good d L g (n + 1) G f8 ((Memref.whole cc1_scratch8).view.writes (Elt F) f8 (⟨Rect.unit (s := S64x256) off S1x16.size inb, w⟩ :: Lp)) := by
  intro y
  by_cases hy : y ∈ (Rect.unit (s := S64x256) off S1x16.size inb).set
  · obtain ⟨x, rfl⟩ := (Rect.unit (s := S64x256) off S1x16.size inb).exists_idx_of_mem hy
    have e1 : ((Memref.whole cc1_scratch8).view.writes (Elt F) f8 (⟨Rect.unit (s := S64x256) off S1x16.size inb, w⟩ :: Lp)) ((Rect.unit (s := S64x256) off S1x16.size inb).emb x) = w x :=
      View.read_writes_cons_emb (Memref.whole cc1_scratch8).view f8 (Rect.unit (s := S64x256) off S1x16.size inb) w Lp x
    have hx0 : (x 0).val < 1 := (x 0).isLt
    have hx1 : (x 1).val < 16 := (x 1).isLt
    have h0 : (((Rect.unit (s := S64x256) off S1x16.size inb).emb x) 0).val = n := by
      have h00 : off 0 = n := by rw [hoff]; rfl
      show off 0 + 1 * (x 0).val = n
      omega
    have h1 : (((Rect.unit (s := S64x256) off S1x16.size inb).emb x) 1).val = 16 * g + (x 1).val := by
      have h01 : off 1 = 16 * g := by rw [hoff]; rfl
      show off 1 + 1 * (x 1).val = _
      omega
    have hc : (((Rect.unit (s := S64x256) off S1x16.size inb).emb x) 0).val < n + 1 ∧ 16 * g ≤ (((Rect.unit (s := S64x256) off S1x16.size inb).emb x) 1).val
        ∧ (((Rect.unit (s := S64x256) off S1x16.size inb).emb x) 1).val < 16 * g + 16 := ⟨by omega, by omega, by omega⟩
    exact (e1.trans (hw x)).trans (if_pos hc).symm
  · have e2 : ((Memref.whole cc1_scratch8).view.writes (Elt F) f8 (⟨Rect.unit (s := S64x256) off S1x16.size inb, w⟩ :: Lp)) y = ((Memref.whole cc1_scratch8).view.writes (Elt F) f8 Lp) y :=
      View.read_slice_write_of_not_mem (v := (Memref.whole cc1_scratch8).view) (Val := Elt F) (Rect.unit (s := S64x256) off S1x16.size inb) ((Memref.whole cc1_scratch8).view.writes (Elt F) f8 Lp) w Finset.univ (by rw [Rect.map_emb_univ]; exact hy)
    rw [e2, hprev y]
    have hnm : ¬ ∀ a, off a ≤ (y a).val ∧ (y a).val < off a + S1x16.size a := fun h => hy (Rect.mem_set_unit.mpr h)
    by_cases hc : (y 0).val < n ∧ 16 * g ≤ (y 1).val ∧ (y 1).val < 16 * g + 16
    · rw [if_pos hc, if_pos ⟨by omega, hc.2.1, hc.2.2⟩]
    · rw [if_neg hc, if_neg]
      intro hc'
      apply hnm
      have h00 : off 0 = n := by rw [hoff]; rfl
      have h01 : off 1 = 16 * g := by rw [hoff]; rfl
      intro a
      match a with
      | ⟨0, _⟩ => exact ⟨by show off 0 ≤ (y 0).val; omega, by show (y 0).val < off 0 + 1; omega⟩
      | ⟨1, _⟩ => exact ⟨by show off 1 ≤ (y 1).val; omega, by show (y 1).val < off 1 + 16; omega⟩

/-- All sixty-four lanes stored: the group's sixteen columns hold `G`; with the columns before them, the block holds
    `G` up to column 16 (g + 1). -/
theorem good_end (g : ℕ) (G : S64x256.Idx → F .f32) (f8 Fc : Buf (Elt F) ((Memref.whole cc1_scratch8).view.loc (thrL d L))) (hg : Good d L g 64 G f8 Fc)
    (hP : ∀ y : S64x256.Idx, (y 1).val < 16 * g → f8 y = G y) :
    ∀ y : S64x256.Idx, (y 1).val < 16 * (g + 1) → Fc y = G y := by
  intro y hy
  have h64 : (y 0).val < 64 := (y 0).isLt
  rw [hg y]
  by_cases hc : (y 0).val < 64 ∧ 16 * g ≤ (y 1).val ∧ (y 1).val < 16 * g + 16
  · rw [if_pos hc]
  · rw [if_neg hc]; exact hP y (by omega)

end Fold

section Piece

variable (d : Dev nD) (L : grid1.Coords)

/-- Lane `x` of a sixteen-entry window of a 256-entry list is the list's entry 16 g + x. -/
theorem unit16_idx (g : ℕ) (hg : g < 16) (o3 : Fin S256.rank → ℕ) (ho3 : o3 = ![16 * g]) (i3 : ∀ a, o3 a + S16.size a ≤ S256.size a)
    (x : (Rect.unit (s := S256) o3 S16.size i3).toLoadRect.shape.Idx) :
    (Rect.unit (s := S256) o3 S16.size i3).toLoadRect.idx x = ValueIdx.ix1 (ixMod 256 (16 * g + (x 0).val)) := by
  have h00 : o3 0 = 16 * g := by rw [ho3]; rfl
  have hx : (x 0).val < 16 := (x 0).isLt
  funext a
  match a with
  | ⟨0, _⟩ =>
    refine Fin.ext ?_
    show o3 0 + 1 * (x 0).val = (16 * g + (x 0).val) % 256
    rw [Nat.mod_eq_of_lt (by omega)]; omega

/-- What one lane's store writes: at lane `n` of group `g`, |head + relation - tail| of the sixteen batch entries,
    read at the batch rows and at the heads', tails' and relations' lane offsets plus `n`, is the pass's staging block
    at row `n`, columns [16 g, 16 g + 16). -/
theorem piece_val (g n : ℕ) (hg : g < 16) (hn : n < 64)
    (f0 : Buf (Elt F) ((Memref.whole cc1_scratch0).view.loc (thrL d L))) (f1 : Buf (Elt F) ((Memref.whole cc1_scratch1).view.loc (thrL d L))) (f2 : Buf (Elt F) ((Memref.whole cc1_scratch2).view.loc (thrL d L))) (f5 : Buf (Elt F) ((Memref.whole cc1_scratch5).view.loc (thrL d L))) (f6 : Buf (Elt F) ((Memref.whole cc1_scratch6).view.loc (thrL d L))) (f7 : Buf (Elt F) ((Memref.whole cc1_scratch7).view.loc (thrL d L)))
    (hf2 : ∀ j, (f2 j).toNat < 100)
    (o3 : Fin S256.rank → ℕ) (ho3 : o3 = ![16 * g]) (i3 : ∀ a, o3 a + S16.size a ≤ S256.size a)
    (off : Fin S64x256.rank → ℕ) (hoff : off = ![n, 16 * g]) (inb : ∀ a, off a + S1x16.size a ≤ S64x256.size a)
    (h1 : ∀ a x, ((![(addi (broadcast S16 (Scalar.muli (Scf.iv 0#32 1#32 g) 16#32)) (iota .scVector S16 32 [0] iota_S16_d0_w32_scVector)), (addi (shli (andi (View.readAt (Elt F) (Memref.whole cc1_scratch0).view (Rect.unit (s := S256) o3 S16.size i3).toLoadRect f0) (broadcast S16 8#32)) (broadcast S16 3#32)) (broadcast S16 (BitVec.ofNat 32 n)))] : Fin 2 → IVec S16 32) a x).toNat < S256x128.size a)
    (h2 : ∀ a x, ((![(addi (broadcast S16 (Scalar.muli (Scf.iv 0#32 1#32 g) 16#32)) (iota .scVector S16 32 [0] iota_S16_d0_w32_scVector)), (addi (shli (andi (View.readAt (Elt F) (Memref.whole cc1_scratch1).view (Rect.unit (s := S256) o3 S16.size i3).toLoadRect f1) (broadcast S16 8#32)) (broadcast S16 3#32)) (broadcast S16 (BitVec.ofNat 32 n)))] : Fin 2 → IVec S16 32) a x).toNat < S256x128.size a)
    (h3 : ∀ a x, ((![(shrui (View.readAt (Elt F) (Memref.whole cc1_scratch2).view (Rect.unit (s := S256) o3 S16.size i3).toLoadRect f2) (broadcast S16 1#32)), (addi (shli (andi (View.readAt (Elt F) (Memref.whole cc1_scratch2).view (Rect.unit (s := S256) o3 S16.size i3).toLoadRect f2) (broadcast S16 1#32)) (broadcast S16 6#32)) (broadcast S16 (BitVec.ofNat 32 n)))] : Fin 2 → IVec S16 32) a x).toNat < S50x128.size a)
    (hc : S16.ShapeCasts S1x16) :
    ∀ x : (Rect.unit (s := S64x256) off S1x16.size inb).shape.Idx,
      shapeCast S1x16 (fun i : S16.Idx => f3 (F := F)
          (loadIdx (View.readAt (Elt F) (Memref.whole cc1_scratch5).view (LoadRect.whole S256x128) f5) ![(addi (broadcast S16 (Scalar.muli (Scf.iv 0#32 1#32 g) 16#32)) (iota .scVector S16 32 [0] iota_S16_d0_w32_scVector)), (addi (shli (andi (View.readAt (Elt F) (Memref.whole cc1_scratch0).view (Rect.unit (s := S256) o3 S16.size i3).toLoadRect f0) (broadcast S16 8#32)) (broadcast S16 3#32)) (broadcast S16 (BitVec.ofNat 32 n)))] h1 i)
          (loadIdx (View.readAt (Elt F) (Memref.whole cc1_scratch7).view (LoadRect.whole S50x128) f7) ![(shrui (View.readAt (Elt F) (Memref.whole cc1_scratch2).view (Rect.unit (s := S256) o3 S16.size i3).toLoadRect f2) (broadcast S16 1#32)), (addi (shli (andi (View.readAt (Elt F) (Memref.whole cc1_scratch2).view (Rect.unit (s := S256) o3 S16.size i3).toLoadRect f2) (broadcast S16 1#32)) (broadcast S16 6#32)) (broadcast S16 (BitVec.ofNat 32 n)))] h3 i)
          (loadIdx (View.readAt (Elt F) (Memref.whole cc1_scratch6).view (LoadRect.whole S256x128) f6) ![(addi (broadcast S16 (Scalar.muli (Scf.iv 0#32 1#32 g) 16#32)) (iota .scVector S16 32 [0] iota_S16_d0_w32_scVector)), (addi (shli (andi (View.readAt (Elt F) (Memref.whole cc1_scratch1).view (Rect.unit (s := S256) o3 S16.size i3).toLoadRect f1) (broadcast S16 8#32)) (broadcast S16 3#32)) (broadcast S16 (BitVec.ofNat 32 n)))] h2 i)) hc x
        = grpT (f3 (F := F)) f0 f1 f2 f5 f6 f7 ((Rect.unit (s := S64x256) off S1x16.size inb).emb x) := by
  intro x
  have hx0 : (x 0).val < 1 := (x 0).isLt
  have hx1 : (x 1).val < 16 := (x 1).isLt
  have h00 : off 0 = n := by rw [hoff]; rfl
  have h01 : off 1 = 16 * g := by rw [hoff]; rfl
  have hy0 : (((Rect.unit (s := S64x256) off S1x16.size inb).emb x) 0).val = n := by
    show off 0 + 1 * (x 0).val = n; omega
  have hy1 : (((Rect.unit (s := S64x256) off S1x16.size inb).emb x) 1).val = 16 * g + (x 1).val := by
    show off 1 + 1 * (x 1).val = _; omega
  -- the lane
  obtain ⟨i, hi⟩ : ∃ i : S16.Idx, (i 0).val = (x 1).val := ⟨ValueIdx.ix1 ⟨(x 1).val, hx1⟩, rfl⟩
  rw [shapeCast_apply _ hc x i (by
    rw [Shape.rowMajor_val_one, Shape.rowMajor_val_two]
    show (i 0).val = (x 0).val * 16 + (x 1).val
    omega)]
  -- the three index lists at the lane
  have e0 : (View.readAt (Elt F) (Memref.whole cc1_scratch0).view (Rect.unit (s := S256) o3 S16.size i3).toLoadRect f0) i = f0 (ValueIdx.ix1 (((Rect.unit (s := S64x256) off S1x16.size inb).emb x) 1)) := by
    show f0 ((Rect.unit (s := S256) o3 S16.size i3).toLoadRect.idx i) = _
    rw [unit16_idx g hg o3 ho3 i3 i]
    refine congrArg f0 (congrArg ValueIdx.ix1 (Fin.ext ?_))
    show (16 * g + (i 0).val) % 256 = _
    rw [Nat.mod_eq_of_lt (by omega), hy1, hi]
  have e1 : (View.readAt (Elt F) (Memref.whole cc1_scratch1).view (Rect.unit (s := S256) o3 S16.size i3).toLoadRect f1) i = f1 (ValueIdx.ix1 (((Rect.unit (s := S64x256) off S1x16.size inb).emb x) 1)) := by
    show f1 ((Rect.unit (s := S256) o3 S16.size i3).toLoadRect.idx i) = _
    rw [unit16_idx g hg o3 ho3 i3 i]
    refine congrArg f1 (congrArg ValueIdx.ix1 (Fin.ext ?_))
    show (16 * g + (i 0).val) % 256 = _
    rw [Nat.mod_eq_of_lt (by omega), hy1, hi]
  have e2 : (View.readAt (Elt F) (Memref.whole cc1_scratch2).view (Rect.unit (s := S256) o3 S16.size i3).toLoadRect f2) i = f2 (ValueIdx.ix1 (((Rect.unit (s := S64x256) off S1x16.size inb).emb x) 1)) := by
    show f2 ((Rect.unit (s := S256) o3 S16.size i3).toLoadRect.idx i) = _
    rw [unit16_idx g hg o3 ho3 i3 i]
    refine congrArg f2 (congrArg ValueIdx.ix1 (Fin.ext ?_))
    show (16 * g + (i 0).val) % 256 = _
    rw [Nat.mod_eq_of_lt (by omega), hy1, hi]
  unfold grpT
  refine congr (congr (congrArg (f3 (F := F)) ?_) ?_) ?_
  · show f5 ((Rect.whole S256x128).emb (idxAt ![(addi (broadcast S16 (Scalar.muli (Scf.iv 0#32 1#32 g) 16#32)) (iota .scVector S16 32 [0] iota_S16_d0_w32_scVector)), (addi (shli (andi (View.readAt (Elt F) (Memref.whole cc1_scratch0).view (Rect.unit (s := S256) o3 S16.size i3).toLoadRect f0) (broadcast S16 8#32)) (broadcast S16 3#32)) (broadcast S16 (BitVec.ofNat 32 n)))] h1 i)) = _
    rw [Rect.emb_whole_apply]
    refine congrArg f5 ?_
    funext a
    match a with
    | ⟨0, _⟩ =>
      refine Fin.ext ?_
      show ((addi (broadcast S16 (Scalar.muli (Scf.iv 0#32 1#32 g) 16#32)) (iota .scVector S16 32 [0] iota_S16_d0_w32_scVector)) i).toNat = _
      rw [rowv_val g hg _ i, hy1, hi]
    | ⟨1, _⟩ =>
      refine Fin.ext ?_
      show ((addi (shli (andi (View.readAt (Elt F) (Memref.whole cc1_scratch0).view (Rect.unit (s := S256) o3 S16.size i3).toLoadRect f0) (broadcast S16 8#32)) (broadcast S16 3#32)) (broadcast S16 (BitVec.ofNat 32 n))) i).toNat = (physCol (f0 (ValueIdx.ix1 (((Rect.unit (s := S64x256) off S1x16.size inb).emb x) 1))).toNat + (((Rect.unit (s := S64x256) off S1x16.size inb).emb x) 0).val) % 128
      rw [hcol_val _ n hn i, e0, hy0, Nat.mod_eq_of_lt (physCol_add_lt _ hn)]
  · show f7 ((Rect.whole S50x128).emb (idxAt ![(shrui (View.readAt (Elt F) (Memref.whole cc1_scratch2).view (Rect.unit (s := S256) o3 S16.size i3).toLoadRect f2) (broadcast S16 1#32)), (addi (shli (andi (View.readAt (Elt F) (Memref.whole cc1_scratch2).view (Rect.unit (s := S256) o3 S16.size i3).toLoadRect f2) (broadcast S16 1#32)) (broadcast S16 6#32)) (broadcast S16 (BitVec.ofNat 32 n)))] h3 i)) = _
    rw [Rect.emb_whole_apply]
    refine congrArg f7 ?_
    funext a
    match a with
    | ⟨0, _⟩ =>
      refine Fin.ext ?_
      show ((shrui (View.readAt (Elt F) (Memref.whole cc1_scratch2).view (Rect.unit (s := S256) o3 S16.size i3).toLoadRect f2) (broadcast S16 1#32)) i).toNat = (relRow (f2 (ValueIdx.ix1 (((Rect.unit (s := S64x256) off S1x16.size inb).emb x) 1))).toNat) % 50
      rw [rrow_val _ i, e2, Nat.mod_eq_of_lt (relRow_lt (hf2 _))]
    | ⟨1, _⟩ =>
      refine Fin.ext ?_
      show ((addi (shli (andi (View.readAt (Elt F) (Memref.whole cc1_scratch2).view (Rect.unit (s := S256) o3 S16.size i3).toLoadRect f2) (broadcast S16 1#32)) (broadcast S16 6#32)) (broadcast S16 (BitVec.ofNat 32 n))) i).toNat = (relCol (f2 (ValueIdx.ix1 (((Rect.unit (s := S64x256) off S1x16.size inb).emb x) 1))).toNat + (((Rect.unit (s := S64x256) off S1x16.size inb).emb x) 0).val) % 128
      rw [rcol_val _ n hn i, e2, hy0, Nat.mod_eq_of_lt (relCol_add_lt _ hn)]
  · show f6 ((Rect.whole S256x128).emb (idxAt ![(addi (broadcast S16 (Scalar.muli (Scf.iv 0#32 1#32 g) 16#32)) (iota .scVector S16 32 [0] iota_S16_d0_w32_scVector)), (addi (shli (andi (View.readAt (Elt F) (Memref.whole cc1_scratch1).view (Rect.unit (s := S256) o3 S16.size i3).toLoadRect f1) (broadcast S16 8#32)) (broadcast S16 3#32)) (broadcast S16 (BitVec.ofNat 32 n)))] h2 i)) = _
    rw [Rect.emb_whole_apply]
    refine congrArg f6 ?_
    funext a
    match a with
    | ⟨0, _⟩ =>
      refine Fin.ext ?_
      show ((addi (broadcast S16 (Scalar.muli (Scf.iv 0#32 1#32 g) 16#32)) (iota .scVector S16 32 [0] iota_S16_d0_w32_scVector)) i).toNat = _
      rw [rowv_val g hg _ i, hy1, hi]
    | ⟨1, _⟩ =>
      refine Fin.ext ?_
      show ((addi (shli (andi (View.readAt (Elt F) (Memref.whole cc1_scratch1).view (Rect.unit (s := S256) o3 S16.size i3).toLoadRect f1) (broadcast S16 8#32)) (broadcast S16 3#32)) (broadcast S16 (BitVec.ofNat 32 n))) i).toNat = (physCol (f1 (ValueIdx.ix1 (((Rect.unit (s := S64x256) off S1x16.size inb).emb x) 1))).toNat + (((Rect.unit (s := S64x256) off S1x16.size inb).emb x) 0).val) % 128
      rw [hcol_val _ n hn i, e1, hy0, Nat.mod_eq_of_lt (physCol_add_lt _ hn)]

end Piece

set_option maxRecDepth 65536 in
/-- One trip of the scoring loop: sixteen more columns of the staging block hold |head + relation - tail|, lane by
    lane, of the sixteen batch entries of the group. -/
theorem trip2 (d : Dev nD) (L : grid1.Coords) (g : Fin k1_t2_loop.trips)
    (f0 : Buf (Elt F) ((Memref.whole cc1_scratch0).view.loc (thrL d L))) (f1 : Buf (Elt F) ((Memref.whole cc1_scratch1).view.loc (thrL d L))) (f2 : Buf (Elt F) ((Memref.whole cc1_scratch2).view.loc (thrL d L))) (f5 : Buf (Elt F) ((Memref.whole cc1_scratch5).view.loc (thrL d L))) (f6 : Buf (Elt F) ((Memref.whole cc1_scratch6).view.loc (thrL d L))) (f7 : Buf (Elt F) ((Memref.whole cc1_scratch7).view.loc (thrL d L))) (f8 : Buf (Elt F) ((Memref.whole cc1_scratch8).view.loc (thrL d L)))
    (hf2 : ∀ j, (f2 j).toNat < 100)
    (hP : ∀ y : S64x256.Idx, (y 1).val < 16 * g.val → f8 y = grpT (f3 (F := F)) f0 f1 f2 f5 f6 f7 y) :
    (iprop(((Memref.whole cc1_scratch0).view.loc (thrL d L) ↦{fullShare} f0) ∗ ((Memref.whole cc1_scratch1).view.loc (thrL d L) ↦{fullShare} f1) ∗ ((Memref.whole cc1_scratch2).view.loc (thrL d L) ↦{fullShare} f2) ∗ ((Memref.whole cc1_scratch5).view.loc (thrL d L) ↦{fullShare} f5) ∗ ((Memref.whole cc1_scratch6).view.loc (thrL d L) ↦{fullShare} f6) ∗ ((Memref.whole cc1_scratch7).view.loc (thrL d L) ↦{fullShare} f7) ∗ ((Memref.whole cc1_scratch8).view.loc (thrL d L) ↦{fullShare} f8)) : sProp 𝕄)
      ⊢ wp frame (wpE (defs₀ (F := F)) 𝒱₀ (thrL d L) none) Set.univ
          (k1_t2_body L (Memref.whole main_v1_scv) (Memref.isWhole_whole _) (Memref.whole main_v2_scv) (Memref.isWhole_whole _)
            (Memref.whole main_arg2_scv) (Memref.isWhole_whole _) (Memref.whole main_arg3_scv) (Memref.isWhole_whole _)
            (Memref.whole main_arg4_scv) (Memref.isWhole_whole _) (Memref.whole main_v3_scv) (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _) (Memref.whole cc1_scratch5) (Memref.isWhole_whole _)
            (Memref.whole cc1_scratch6) (Memref.isWhole_whole _) (Memref.whole cc1_scratch7) (Memref.isWhole_whole _)
            (Memref.whole cc1_scratch8) (Memref.isWhole_whole _) cc1_scratch9 cc1_scratch10
            cc1_scoped0 cc1_scoped1 cc1_scoped2 cc1_scoped3 cc1_scoped4 cc1_scoped5 cc1_scoped6 cc1_scoped7 cc1_scoped8 (iota .scVector S16 32 [0] iota_S16_d0_w32_scVector) g ())
          fun _ => iprop(((Memref.whole cc1_scratch0).view.loc (thrL d L) ↦{fullShare} f0) ∗ ((Memref.whole cc1_scratch1).view.loc (thrL d L) ↦{fullShare} f1) ∗ ((Memref.whole cc1_scratch2).view.loc (thrL d L) ↦{fullShare} f2) ∗ ((Memref.whole cc1_scratch5).view.loc (thrL d L) ↦{fullShare} f5) ∗ ((Memref.whole cc1_scratch6).view.loc (thrL d L) ↦{fullShare} f6) ∗ ((Memref.whole cc1_scratch7).view.loc (thrL d L) ↦{fullShare} f7)
            ∗ ∃ f8', ((Memref.whole cc1_scratch8).view.loc (thrL d L) ↦{fullShare} f8') ∗ ⌜∀ y : S64x256.Idx, (y 1).val < 16 * (g.val + 1) → f8' y = grpT (f3 (F := F)) f0 f1 f2 f5 f6 f7 y⌝) := by
  unfold k1_t2_body
  rw [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton]
  unfold k1_part1_skel k1_part2_skel k1_part3_skel k1_part4_skel k1_part5_skel k1_part6_skel k1_part7_skel k1_part8_skel k1_part9_skel k1_part10_skel k1_part11_skel k1_part12_skel k1_part13_skel k1_part14_skel k1_part15_skel k1_part16_skel k1_part17_skel k1_part18_skel k1_part19_skel k1_part20_skel k1_part21_skel k1_part22_skel k1_part23_skel k1_part24_skel k1_part25_skel k1_part26_skel SparseCore.vectorLoadIdx
  iintro ⟨H0, H1, H2, H5, H6, H7, H8⟩
  sl_exec (disch := first
    | (show ∀ a x, _ < (⟨2, ![50, 128]⟩ : Shape).size a; exact chk_rel _ _ (by decide) (by intro x; exact hf2 _))
    | exact chk_rows _ g.isLt _ _ _ (by decide))
  sl_step
  isplitl [H0]; · iexact H0
  isplitl [H1]; · iexact H1
  isplitl [H2]; · iexact H2
  isplitl [H5]; · iexact H5
  isplitl [H6]; · iexact H6
  isplitl [H7]; · iexact H7
  iexists _
  isplitl [H8]; · iexact H8
  ipureintro
  refine good_end d L g.val _ f8 _ ?_ hP
  refine good_step d L g.val 63 _ f8 _ _ (k1_off67_eq g) _ _ (piece_val d L g.val 63 g.isLt (by decide) f0 f1 f2 f5 f6 f7 hf2 _ (k1_off3_eq g) _ _ (k1_off67_eq g) _ _ _ _ _) ?_
  refine good_step d L g.val 62 _ f8 _ _ (k1_off66_eq g) _ _ (piece_val d L g.val 62 g.isLt (by decide) f0 f1 f2 f5 f6 f7 hf2 _ (k1_off3_eq g) _ _ (k1_off66_eq g) _ _ _ _ _) ?_
  refine good_step d L g.val 61 _ f8 _ _ (k1_off65_eq g) _ _ (piece_val d L g.val 61 g.isLt (by decide) f0 f1 f2 f5 f6 f7 hf2 _ (k1_off3_eq g) _ _ (k1_off65_eq g) _ _ _ _ _) ?_
  refine good_step d L g.val 60 _ f8 _ _ (k1_off64_eq g) _ _ (piece_val d L g.val 60 g.isLt (by decide) f0 f1 f2 f5 f6 f7 hf2 _ (k1_off3_eq g) _ _ (k1_off64_eq g) _ _ _ _ _) ?_
  refine good_step d L g.val 59 _ f8 _ _ (k1_off63_eq g) _ _ (piece_val d L g.val 59 g.isLt (by decide) f0 f1 f2 f5 f6 f7 hf2 _ (k1_off3_eq g) _ _ (k1_off63_eq g) _ _ _ _ _) ?_
  refine good_step d L g.val 58 _ f8 _ _ (k1_off62_eq g) _ _ (piece_val d L g.val 58 g.isLt (by decide) f0 f1 f2 f5 f6 f7 hf2 _ (k1_off3_eq g) _ _ (k1_off62_eq g) _ _ _ _ _) ?_
  refine good_step d L g.val 57 _ f8 _ _ (k1_off61_eq g) _ _ (piece_val d L g.val 57 g.isLt (by decide) f0 f1 f2 f5 f6 f7 hf2 _ (k1_off3_eq g) _ _ (k1_off61_eq g) _ _ _ _ _) ?_
  refine good_step d L g.val 56 _ f8 _ _ (k1_off60_eq g) _ _ (piece_val d L g.val 56 g.isLt (by decide) f0 f1 f2 f5 f6 f7 hf2 _ (k1_off3_eq g) _ _ (k1_off60_eq g) _ _ _ _ _) ?_
  refine good_step d L g.val 55 _ f8 _ _ (k1_off59_eq g) _ _ (piece_val d L g.val 55 g.isLt (by decide) f0 f1 f2 f5 f6 f7 hf2 _ (k1_off3_eq g) _ _ (k1_off59_eq g) _ _ _ _ _) ?_
  refine good_step d L g.val 54 _ f8 _ _ (k1_off58_eq g) _ _ (piece_val d L g.val 54 g.isLt (by decide) f0 f1 f2 f5 f6 f7 hf2 _ (k1_off3_eq g) _ _ (k1_off58_eq g) _ _ _ _ _) ?_
  refine good_step d L g.val 53 _ f8 _ _ (k1_off57_eq g) _ _ (piece_val d L g.val 53 g.isLt (by decide) f0 f1 f2 f5 f6 f7 hf2 _ (k1_off3_eq g) _ _ (k1_off57_eq g) _ _ _ _ _) ?_
  refine good_step d L g.val 52 _ f8 _ _ (k1_off56_eq g) _ _ (piece_val d L g.val 52 g.isLt (by decide) f0 f1 f2 f5 f6 f7 hf2 _ (k1_off3_eq g) _ _ (k1_off56_eq g) _ _ _ _ _) ?_
  refine good_step d L g.val 51 _ f8 _ _ (k1_off55_eq g) _ _ (piece_val d L g.val 51 g.isLt (by decide) f0 f1 f2 f5 f6 f7 hf2 _ (k1_off3_eq g) _ _ (k1_off55_eq g) _ _ _ _ _) ?_
  refine good_step d L g.val 50 _ f8 _ _ (k1_off54_eq g) _ _ (piece_val d L g.val 50 g.isLt (by decide) f0 f1 f2 f5 f6 f7 hf2 _ (k1_off3_eq g) _ _ (k1_off54_eq g) _ _ _ _ _) ?_
  refine good_step d L g.val 49 _ f8 _ _ (k1_off53_eq g) _ _ (piece_val d L g.val 49 g.isLt (by decide) f0 f1 f2 f5 f6 f7 hf2 _ (k1_off3_eq g) _ _ (k1_off53_eq g) _ _ _ _ _) ?_
  refine good_step d L g.val 48 _ f8 _ _ (k1_off52_eq g) _ _ (piece_val d L g.val 48 g.isLt (by decide) f0 f1 f2 f5 f6 f7 hf2 _ (k1_off3_eq g) _ _ (k1_off52_eq g) _ _ _ _ _) ?_
  refine good_step d L g.val 47 _ f8 _ _ (k1_off51_eq g) _ _ (piece_val d L g.val 47 g.isLt (by decide) f0 f1 f2 f5 f6 f7 hf2 _ (k1_off3_eq g) _ _ (k1_off51_eq g) _ _ _ _ _) ?_
  refine good_step d L g.val 46 _ f8 _ _ (k1_off50_eq g) _ _ (piece_val d L g.val 46 g.isLt (by decide) f0 f1 f2 f5 f6 f7 hf2 _ (k1_off3_eq g) _ _ (k1_off50_eq g) _ _ _ _ _) ?_
  refine good_step d L g.val 45 _ f8 _ _ (k1_off49_eq g) _ _ (piece_val d L g.val 45 g.isLt (by decide) f0 f1 f2 f5 f6 f7 hf2 _ (k1_off3_eq g) _ _ (k1_off49_eq g) _ _ _ _ _) ?_
  refine good_step d L g.val 44 _ f8 _ _ (k1_off48_eq g) _ _ (piece_val d L g.val 44 g.isLt (by decide) f0 f1 f2 f5 f6 f7 hf2 _ (k1_off3_eq g) _ _ (k1_off48_eq g) _ _ _ _ _) ?_
  refine good_step d L g.val 43 _ f8 _ _ (k1_off47_eq g) _ _ (piece_val d L g.val 43 g.isLt (by decide) f0 f1 f2 f5 f6 f7 hf2 _ (k1_off3_eq g) _ _ (k1_off47_eq g) _ _ _ _ _) ?_
  refine good_step d L g.val 42 _ f8 _ _ (k1_off46_eq g) _ _ (piece_val d L g.val 42 g.isLt (by decide) f0 f1 f2 f5 f6 f7 hf2 _ (k1_off3_eq g) _ _ (k1_off46_eq g) _ _ _ _ _) ?_
  refine good_step d L g.val 41 _ f8 _ _ (k1_off45_eq g) _ _ (piece_val d L g.val 41 g.isLt (by decide) f0 f1 f2 f5 f6 f7 hf2 _ (k1_off3_eq g) _ _ (k1_off45_eq g) _ _ _ _ _) ?_
  refine good_step d L g.val 40 _ f8 _ _ (k1_off44_eq g) _ _ (piece_val d L g.val 40 g.isLt (by decide) f0 f1 f2 f5 f6 f7 hf2 _ (k1_off3_eq g) _ _ (k1_off44_eq g) _ _ _ _ _) ?_
  refine good_step d L g.val 39 _ f8 _ _ (k1_off43_eq g) _ _ (piece_val d L g.val 39 g.isLt (by decide) f0 f1 f2 f5 f6 f7 hf2 _ (k1_off3_eq g) _ _ (k1_off43_eq g) _ _ _ _ _) ?_
  refine good_step d L g.val 38 _ f8 _ _ (k1_off42_eq g) _ _ (piece_val d L g.val 38 g.isLt (by decide) f0 f1 f2 f5 f6 f7 hf2 _ (k1_off3_eq g) _ _ (k1_off42_eq g) _ _ _ _ _) ?_
  refine good_step d L g.val 37 _ f8 _ _ (k1_off41_eq g) _ _ (piece_val d L g.val 37 g.isLt (by decide) f0 f1 f2 f5 f6 f7 hf2 _ (k1_off3_eq g) _ _ (k1_off41_eq g) _ _ _ _ _) ?_
  refine good_step d L g.val 36 _ f8 _ _ (k1_off40_eq g) _ _ (piece_val d L g.val 36 g.isLt (by decide) f0 f1 f2 f5 f6 f7 hf2 _ (k1_off3_eq g) _ _ (k1_off40_eq g) _ _ _ _ _) ?_
  refine good_step d L g.val 35 _ f8 _ _ (k1_off39_eq g) _ _ (piece_val d L g.val 35 g.isLt (by decide) f0 f1 f2 f5 f6 f7 hf2 _ (k1_off3_eq g) _ _ (k1_off39_eq g) _ _ _ _ _) ?_
  refine good_step d L g.val 34 _ f8 _ _ (k1_off38_eq g) _ _ (piece_val d L g.val 34 g.isLt (by decide) f0 f1 f2 f5 f6 f7 hf2 _ (k1_off3_eq g) _ _ (k1_off38_eq g) _ _ _ _ _) ?_
  refine good_step d L g.val 33 _ f8 _ _ (k1_off37_eq g) _ _ (piece_val d L g.val 33 g.isLt (by decide) f0 f1 f2 f5 f6 f7 hf2 _ (k1_off3_eq g) _ _ (k1_off37_eq g) _ _ _ _ _) ?_
  refine good_step d L g.val 32 _ f8 _ _ (k1_off36_eq g) _ _ (piece_val d L g.val 32 g.isLt (by decide) f0 f1 f2 f5 f6 f7 hf2 _ (k1_off3_eq g) _ _ (k1_off36_eq g) _ _ _ _ _) ?_
  refine good_step d L g.val 31 _ f8 _ _ (k1_off35_eq g) _ _ (piece_val d L g.val 31 g.isLt (by decide) f0 f1 f2 f5 f6 f7 hf2 _ (k1_off3_eq g) _ _ (k1_off35_eq g) _ _ _ _ _) ?_
  refine good_step d L g.val 30 _ f8 _ _ (k1_off34_eq g) _ _ (piece_val d L g.val 30 g.isLt (by decide) f0 f1 f2 f5 f6 f7 hf2 _ (k1_off3_eq g) _ _ (k1_off34_eq g) _ _ _ _ _) ?_
  refine good_step d L g.val 29 _ f8 _ _ (k1_off33_eq g) _ _ (piece_val d L g.val 29 g.isLt (by decide) f0 f1 f2 f5 f6 f7 hf2 _ (k1_off3_eq g) _ _ (k1_off33_eq g) _ _ _ _ _) ?_
  refine good_step d L g.val 28 _ f8 _ _ (k1_off32_eq g) _ _ (piece_val d L g.val 28 g.isLt (by decide) f0 f1 f2 f5 f6 f7 hf2 _ (k1_off3_eq g) _ _ (k1_off32_eq g) _ _ _ _ _) ?_
  refine good_step d L g.val 27 _ f8 _ _ (k1_off31_eq g) _ _ (piece_val d L g.val 27 g.isLt (by decide) f0 f1 f2 f5 f6 f7 hf2 _ (k1_off3_eq g) _ _ (k1_off31_eq g) _ _ _ _ _) ?_
  refine good_step d L g.val 26 _ f8 _ _ (k1_off30_eq g) _ _ (piece_val d L g.val 26 g.isLt (by decide) f0 f1 f2 f5 f6 f7 hf2 _ (k1_off3_eq g) _ _ (k1_off30_eq g) _ _ _ _ _) ?_
  refine good_step d L g.val 25 _ f8 _ _ (k1_off29_eq g) _ _ (piece_val d L g.val 25 g.isLt (by decide) f0 f1 f2 f5 f6 f7 hf2 _ (k1_off3_eq g) _ _ (k1_off29_eq g) _ _ _ _ _) ?_
  refine good_step d L g.val 24 _ f8 _ _ (k1_off28_eq g) _ _ (piece_val d L g.val 24 g.isLt (by decide) f0 f1 f2 f5 f6 f7 hf2 _ (k1_off3_eq g) _ _ (k1_off28_eq g) _ _ _ _ _) ?_
  refine good_step d L g.val 23 _ f8 _ _ (k1_off27_eq g) _ _ (piece_val d L g.val 23 g.isLt (by decide) f0 f1 f2 f5 f6 f7 hf2 _ (k1_off3_eq g) _ _ (k1_off27_eq g) _ _ _ _ _) ?_
  refine good_step d L g.val 22 _ f8 _ _ (k1_off26_eq g) _ _ (piece_val d L g.val 22 g.isLt (by decide) f0 f1 f2 f5 f6 f7 hf2 _ (k1_off3_eq g) _ _ (k1_off26_eq g) _ _ _ _ _) ?_
  refine good_step d L g.val 21 _ f8 _ _ (k1_off25_eq g) _ _ (piece_val d L g.val 21 g.isLt (by decide) f0 f1 f2 f5 f6 f7 hf2 _ (k1_off3_eq g) _ _ (k1_off25_eq g) _ _ _ _ _) ?_
  refine good_step d L g.val 20 _ f8 _ _ (k1_off24_eq g) _ _ (piece_val d L g.val 20 g.isLt (by decide) f0 f1 f2 f5 f6 f7 hf2 _ (k1_off3_eq g) _ _ (k1_off24_eq g) _ _ _ _ _) ?_
  refine good_step d L g.val 19 _ f8 _ _ (k1_off23_eq g) _ _ (piece_val d L g.val 19 g.isLt (by decide) f0 f1 f2 f5 f6 f7 hf2 _ (k1_off3_eq g) _ _ (k1_off23_eq g) _ _ _ _ _) ?_
  refine good_step d L g.val 18 _ f8 _ _ (k1_off22_eq g) _ _ (piece_val d L g.val 18 g.isLt (by decide) f0 f1 f2 f5 f6 f7 hf2 _ (k1_off3_eq g) _ _ (k1_off22_eq g) _ _ _ _ _) ?_
  refine good_step d L g.val 17 _ f8 _ _ (k1_off21_eq g) _ _ (piece_val d L g.val 17 g.isLt (by decide) f0 f1 f2 f5 f6 f7 hf2 _ (k1_off3_eq g) _ _ (k1_off21_eq g) _ _ _ _ _) ?_
  refine good_step d L g.val 16 _ f8 _ _ (k1_off20_eq g) _ _ (piece_val d L g.val 16 g.isLt (by decide) f0 f1 f2 f5 f6 f7 hf2 _ (k1_off3_eq g) _ _ (k1_off20_eq g) _ _ _ _ _) ?_
  refine good_step d L g.val 15 _ f8 _ _ (k1_off19_eq g) _ _ (piece_val d L g.val 15 g.isLt (by decide) f0 f1 f2 f5 f6 f7 hf2 _ (k1_off3_eq g) _ _ (k1_off19_eq g) _ _ _ _ _) ?_
  refine good_step d L g.val 14 _ f8 _ _ (k1_off18_eq g) _ _ (piece_val d L g.val 14 g.isLt (by decide) f0 f1 f2 f5 f6 f7 hf2 _ (k1_off3_eq g) _ _ (k1_off18_eq g) _ _ _ _ _) ?_
  refine good_step d L g.val 13 _ f8 _ _ (k1_off17_eq g) _ _ (piece_val d L g.val 13 g.isLt (by decide) f0 f1 f2 f5 f6 f7 hf2 _ (k1_off3_eq g) _ _ (k1_off17_eq g) _ _ _ _ _) ?_
  refine good_step d L g.val 12 _ f8 _ _ (k1_off16_eq g) _ _ (piece_val d L g.val 12 g.isLt (by decide) f0 f1 f2 f5 f6 f7 hf2 _ (k1_off3_eq g) _ _ (k1_off16_eq g) _ _ _ _ _) ?_
  refine good_step d L g.val 11 _ f8 _ _ (k1_off15_eq g) _ _ (piece_val d L g.val 11 g.isLt (by decide) f0 f1 f2 f5 f6 f7 hf2 _ (k1_off3_eq g) _ _ (k1_off15_eq g) _ _ _ _ _) ?_
  refine good_step d L g.val 10 _ f8 _ _ (k1_off14_eq g) _ _ (piece_val d L g.val 10 g.isLt (by decide) f0 f1 f2 f5 f6 f7 hf2 _ (k1_off3_eq g) _ _ (k1_off14_eq g) _ _ _ _ _) ?_
  refine good_step d L g.val 9 _ f8 _ _ (k1_off13_eq g) _ _ (piece_val d L g.val 9 g.isLt (by decide) f0 f1 f2 f5 f6 f7 hf2 _ (k1_off3_eq g) _ _ (k1_off13_eq g) _ _ _ _ _) ?_
  refine good_step d L g.val 8 _ f8 _ _ (k1_off12_eq g) _ _ (piece_val d L g.val 8 g.isLt (by decide) f0 f1 f2 f5 f6 f7 hf2 _ (k1_off3_eq g) _ _ (k1_off12_eq g) _ _ _ _ _) ?_
  refine good_step d L g.val 7 _ f8 _ _ (k1_off11_eq g) _ _ (piece_val d L g.val 7 g.isLt (by decide) f0 f1 f2 f5 f6 f7 hf2 _ (k1_off3_eq g) _ _ (k1_off11_eq g) _ _ _ _ _) ?_
  refine good_step d L g.val 6 _ f8 _ _ (k1_off10_eq g) _ _ (piece_val d L g.val 6 g.isLt (by decide) f0 f1 f2 f5 f6 f7 hf2 _ (k1_off3_eq g) _ _ (k1_off10_eq g) _ _ _ _ _) ?_
  refine good_step d L g.val 5 _ f8 _ _ (k1_off9_eq g) _ _ (piece_val d L g.val 5 g.isLt (by decide) f0 f1 f2 f5 f6 f7 hf2 _ (k1_off3_eq g) _ _ (k1_off9_eq g) _ _ _ _ _) ?_
  refine good_step d L g.val 4 _ f8 _ _ (k1_off8_eq g) _ _ (piece_val d L g.val 4 g.isLt (by decide) f0 f1 f2 f5 f6 f7 hf2 _ (k1_off3_eq g) _ _ (k1_off8_eq g) _ _ _ _ _) ?_
  refine good_step d L g.val 3 _ f8 _ _ (k1_off7_eq g) _ _ (piece_val d L g.val 3 g.isLt (by decide) f0 f1 f2 f5 f6 f7 hf2 _ (k1_off3_eq g) _ _ (k1_off7_eq g) _ _ _ _ _) ?_
  refine good_step d L g.val 2 _ f8 _ _ (k1_off6_eq g) _ _ (piece_val d L g.val 2 g.isLt (by decide) f0 f1 f2 f5 f6 f7 hf2 _ (k1_off3_eq g) _ _ (k1_off6_eq g) _ _ _ _ _) ?_
  refine good_step d L g.val 1 _ f8 _ _ (k1_off5_eq g) _ _ (piece_val d L g.val 1 g.isLt (by decide) f0 f1 f2 f5 f6 f7 hf2 _ (k1_off3_eq g) _ _ (k1_off5_eq g) _ _ _ _ _) ?_
  refine good_step d L g.val 0 _ f8 _ _ (k1_off4_eq g) _ _ (piece_val d L g.val 0 g.isLt (by decide) f0 f1 f2 f5 f6 f7 hf2 _ (k1_off3_eq g) _ _ (k1_off4_eq g) _ _ _ _ _) ?_
  exact good_base d L g.val _ f8

end Cert.Kernel.Hand
end
-- ==== Proof.KB.TileP0.lean ====
/-
  What the copies and the row gathers of a pass leave, and the two loops' invariants.

  A pass at window p of worker w copies entries [512 w + 256 p, 512 w + 256 p + 256) of the three batch index lists
  into the three scratch lists: entry k of a scratch list is entry 512 w + 256 p + k of the batch's list.  A row gather
  at a list of packed row numbers fills row k of a 256 x 128 block with the packed table's row at the k-th number; when
  that number is the packed row number of the k-th head (or tail), row k is the packed row holding that table row.
  The first loop's invariant: the first 16 k packed row numbers are those of the first 16 k heads and tails.  The second
  loop's: the staging block holds the pass's value on its first 16 k columns.
-/
import proofs.«202666_g58660663329007_cont_9to1_m_1270_26_alg».proof.Proof.KB.TileA
import Idealize.ShloMosaic.Lib.Tactic
import Idealize.ShloMosaic.Lib.Writes
import Idealize.ShloMosaic.Lib.Pipeline.Value
import proofs.«202666_g58660663329007_cont_9to1_m_1270_26_alg».proof.Proof.KB.TileW
import proofs.«202666_g58660663329007_cont_9to1_m_1270_26_alg».proof.Proof.KB.TileG
import proofs.«202666_g58660663329007_cont_9to1_m_1270_26_alg».proof.Proof.KB.TileC
import proofs.«202666_g58660663329007_cont_9to1_m_1270_26_alg».proof.Proof.Gen.Kernel.Skeleton

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Spec

variable {F : FTy → Type} [FloatOps F]

local notation "𝕄" => MT nD τ sig (HIx 1) (Elt F) ℕ UU ℕ

open Idealize.ShloMosaic.Tactic

/-! ## What the local copies and the row gathers leave, and the two loops' invariants (shared by the two passes) -/

/-- The index list a pass copies in is the batch's list at the worker's window. -/
theorem win_val_0 (d : Dev nD) (L : grid1.Coords) (p : Fin 2) (src : Buf (Elt F) (hLoc d)) (b : Buf (Elt F) ((Memref.whole cc1_scratch0).view.loc (thrL d L))) (k : Fin 256) :
    (View.write (Elt F) (Memref.whole cc1_scratch0).view b
        (ReadAs.same.apply (View.read (Elt F) ((Memref.whole main_arg2_scv).slice (Rect.unit (s := S16384) (k1_off1 L (BitVec.ofNat 32 (256 * p.val))) S256.size (k1_off1_inb L p)) (fun _ => rfl)).view src))
        Finset.univ) (ValueIdx.ix1 k)
      = src (ValueIdx.ix1 (ixMod 16384 ((512 * (widL L).val + 256 * p.val) + k.val))) := by
  have hw : (widL L).val = 2 * (L 1).val + (L 0).val := rfl
  have hL0 : (L 0).val < 2 := (L 0).isLt
  have hL1 : (L 1).val < 16 := (L 1).isLt
  have hp : p.val < 2 := p.isLt
  have hk : k.val < 256 := k.isLt
  have hoff : k1_off1 L (BitVec.ofNat 32 (256 * p.val)) 0 = 1024 * (L 1).val + 512 * (L 0).val + 256 * p.val := by
    rw [k1_off1_eq L p]; rfl
  refine (congrFun (View.write_whole_univ cc1_scratch0 b _) (ValueIdx.ix1 k)).trans ?_
  show src _ = _
  refine congrArg src ?_
  funext a
  match a with
  | ⟨0, _⟩ =>
    refine Fin.ext ?_
    show k1_off1 L (BitVec.ofNat 32 (256 * p.val)) 0 + 1 * k.val = ((512 * (widL L).val + 256 * p.val) + k.val) % 16384
    rw [Nat.mod_eq_of_lt (by omega)]; omega

/-- The index list a pass copies in is the batch's list at the worker's window. -/
theorem win_val_1 (d : Dev nD) (L : grid1.Coords) (p : Fin 2) (src : Buf (Elt F) (tLoc d)) (b : Buf (Elt F) ((Memref.whole cc1_scratch1).view.loc (thrL d L))) (k : Fin 256) :
    (View.write (Elt F) (Memref.whole cc1_scratch1).view b
        (ReadAs.same.apply (View.read (Elt F) ((Memref.whole main_arg3_scv).slice (Rect.unit (s := S16384) (k1_off1 L (BitVec.ofNat 32 (256 * p.val))) S256.size (k1_off1_inb L p)) (fun _ => rfl)).view src))
        Finset.univ) (ValueIdx.ix1 k)
      = src (ValueIdx.ix1 (ixMod 16384 ((512 * (widL L).val + 256 * p.val) + k.val))) := by
  have hw : (widL L).val = 2 * (L 1).val + (L 0).val := rfl
  have hL0 : (L 0).val < 2 := (L 0).isLt
  have hL1 : (L 1).val < 16 := (L 1).isLt
  have hp : p.val < 2 := p.isLt
  have hk : k.val < 256 := k.isLt
  have hoff : k1_off1 L (BitVec.ofNat 32 (256 * p.val)) 0 = 1024 * (L 1).val + 512 * (L 0).val + 256 * p.val := by
    rw [k1_off1_eq L p]; rfl
  refine (congrFun (View.write_whole_univ cc1_scratch1 b _) (ValueIdx.ix1 k)).trans ?_
  show src _ = _
  refine congrArg src ?_
  funext a
  match a with
  | ⟨0, _⟩ =>
    refine Fin.ext ?_
    show k1_off1 L (BitVec.ofNat 32 (256 * p.val)) 0 + 1 * k.val = ((512 * (widL L).val + 256 * p.val) + k.val) % 16384
    rw [Nat.mod_eq_of_lt (by omega)]; omega

/-- The index list a pass copies in is the batch's list at the worker's window. -/
theorem win_val_2 (d : Dev nD) (L : grid1.Coords) (p : Fin 2) (src : Buf (Elt F) (rLoc d)) (b : Buf (Elt F) ((Memref.whole cc1_scratch2).view.loc (thrL d L))) (k : Fin 256) :
    (View.write (Elt F) (Memref.whole cc1_scratch2).view b
        (ReadAs.same.apply (View.read (Elt F) ((Memref.whole main_arg4_scv).slice (Rect.unit (s := S16384) (k1_off1 L (BitVec.ofNat 32 (256 * p.val))) S256.size (k1_off1_inb L p)) (fun _ => rfl)).view src))
        Finset.univ) (ValueIdx.ix1 k)
      = src (ValueIdx.ix1 (ixMod 16384 ((512 * (widL L).val + 256 * p.val) + k.val))) := by
  have hw : (widL L).val = 2 * (L 1).val + (L 0).val := rfl
  have hL0 : (L 0).val < 2 := (L 0).isLt
  have hL1 : (L 1).val < 16 := (L 1).isLt
  have hp : p.val < 2 := p.isLt
  have hk : k.val < 256 := k.isLt
  have hoff : k1_off1 L (BitVec.ofNat 32 (256 * p.val)) 0 = 1024 * (L 1).val + 512 * (L 0).val + 256 * p.val := by
    rw [k1_off1_eq L p]; rfl
  refine (congrFun (View.write_whole_univ cc1_scratch2 b _) (ValueIdx.ix1 k)).trans ?_
  show src _ = _
  refine congrArg src ?_
  funext a
  match a with
  | ⟨0, _⟩ =>
    refine Fin.ext ?_
    show k1_off1 L (BitVec.ofNat 32 (256 * p.val)) 0 + 1 * k.val = ((512 * (widL L).val + 256 * p.val) + k.val) % 16384
    rw [Nat.mod_eq_of_lt (by omega)]; omega

/-- What a row gather leaves: row k of the block is the packed table's row at the k-th packed row number. -/
theorem gather_val_5 (d : Dev nD) (L : grid1.Coords) (X : Buf (Elt F) (x2Loc d)) (b : Buf (Elt F) ((Memref.whole cc1_scratch5).view.loc (thrL d L))) (fl : Buf (Elt F) ((Memref.whole cc1_scratch0).view.loc (thrL d L))) (fi : Buf (Elt F) ((Memref.whole cc1_scratch3).view.loc (thrL d L)))
    (hn : S256.numel = S256x128.size gathers_S500000x128_S256x128.axis')
    (hin : ∀ x, (View.read (Elt F) (Memref.whole cc1_scratch3).view fi x).toNat < S500000x128.size gathers_S500000x128_S256x128.axis)
    (hP : ∀ j : S256.Idx, (fi j).toNat = physRow (fl j).toNat) (hfl : ∀ j : S256.Idx, (fl j).toNat < 1000000)
    (k : Fin 256) (c : Fin 128) :
    ((Memref.whole cc1_scratch5).view.writes (Elt F) b
        [⟨Rect.whole cc1_scratch5.ty.shape, SparseCore.gatherPayload gathers_S500000x128_S256x128
            (View.read (Elt F) ((Memref.whole main_v1_scv).slice (Rect.unit (s := S500000x128) ![0, 0] S500000x128.size inb_S500000x128_S500000x128_0_0) (fun _ => rfl)).view X)
            (SparseCore.rows (View.read (Elt F) (Memref.whole cc1_scratch3).view fi) hn hin)⟩]) (ValueIdx.ix2 k c)
      = X (ValueIdx.ix2 (ixMod 500000 (physRow (fl (ValueIdx.ix1 k)).toNat)) c) := by
  have e := View.read_writes_cons_emb (Memref.whole cc1_scratch5).view b (Rect.whole cc1_scratch5.ty.shape)
    (SparseCore.gatherPayload gathers_S500000x128_S256x128 (View.read (Elt F) ((Memref.whole main_v1_scv).slice (Rect.unit (s := S500000x128) ![0, 0] S500000x128.size inb_S500000x128_S500000x128_0_0) (fun _ => rfl)).view X)
      (SparseCore.rows (View.read (Elt F) (Memref.whole cc1_scratch3).view fi) hn hin)) [] (ValueIdx.ix2 k c)
  rw [Rect.emb_whole_apply] at e
  refine e.trans ?_
  unfold SparseCore.gatherPayload
  show X _ = _
  refine congrArg X ?_
  have hrow : ∀ (hx : S256x128.size gathers_S500000x128_S256x128.axis' = S256.numel),
      S256.rowMajor.symm (Fin.cast hx (ValueIdx.ix2 k c gathers_S500000x128_S256x128.axis')) = ValueIdx.ix1 k := by
    intro hx
    rw [Equiv.symm_apply_eq]
    refine Fin.ext ?_
    rw [Shape.rowMajor_val_one]; rfl
  funext a
  match a with
  | ⟨0, _⟩ =>
    refine Fin.ext ?_
    show 0 + 1 * (fi (S256.rowMajor.symm _)).toNat = (physRow (fl (ValueIdx.ix1 k)).toNat) % 500000
    rw [Nat.mod_eq_of_lt (physRow_lt (hfl _))]
    have := hP (ValueIdx.ix1 k)
    rw [hrow _, this]; omega
  | ⟨1, _⟩ =>
    refine Fin.ext ?_
    show 0 + 1 * c.val = c.val
    omega

/-- What a row gather leaves: row k of the block is the packed table's row at the k-th packed row number. -/
theorem gather_val_6 (d : Dev nD) (L : grid1.Coords) (X : Buf (Elt F) (x2Loc d)) (b : Buf (Elt F) ((Memref.whole cc1_scratch6).view.loc (thrL d L))) (fl : Buf (Elt F) ((Memref.whole cc1_scratch1).view.loc (thrL d L))) (fi : Buf (Elt F) ((Memref.whole cc1_scratch4).view.loc (thrL d L)))
    (hn : S256.numel = S256x128.size gathers_S500000x128_S256x128.axis')
    (hin : ∀ x, (View.read (Elt F) (Memref.whole cc1_scratch4).view fi x).toNat < S500000x128.size gathers_S500000x128_S256x128.axis)
    (hP : ∀ j : S256.Idx, (fi j).toNat = physRow (fl j).toNat) (hfl : ∀ j : S256.Idx, (fl j).toNat < 1000000)
    (k : Fin 256) (c : Fin 128) :
    ((Memref.whole cc1_scratch6).view.writes (Elt F) b
        [⟨Rect.whole cc1_scratch6.ty.shape, SparseCore.gatherPayload gathers_S500000x128_S256x128
            (View.read (Elt F) ((Memref.whole main_v1_scv).slice (Rect.unit (s := S500000x128) ![0, 0] S500000x128.size inb_S500000x128_S500000x128_0_0) (fun _ => rfl)).view X)
            (SparseCore.rows (View.read (Elt F) (Memref.whole cc1_scratch4).view fi) hn hin)⟩]) (ValueIdx.ix2 k c)
      = X (ValueIdx.ix2 (ixMod 500000 (physRow (fl (ValueIdx.ix1 k)).toNat)) c) := by
  have e := View.read_writes_cons_emb (Memref.whole cc1_scratch6).view b (Rect.whole cc1_scratch6.ty.shape)
    (SparseCore.gatherPayload gathers_S500000x128_S256x128 (View.read (Elt F) ((Memref.whole main_v1_scv).slice (Rect.unit (s := S500000x128) ![0, 0] S500000x128.size inb_S500000x128_S500000x128_0_0) (fun _ => rfl)).view X)
      (SparseCore.rows (View.read (Elt F) (Memref.whole cc1_scratch4).view fi) hn hin)) [] (ValueIdx.ix2 k c)
  rw [Rect.emb_whole_apply] at e
  refine e.trans ?_
  unfold SparseCore.gatherPayload
  show X _ = _
  refine congrArg X ?_
  have hrow : ∀ (hx : S256x128.size gathers_S500000x128_S256x128.axis' = S256.numel),
      S256.rowMajor.symm (Fin.cast hx (ValueIdx.ix2 k c gathers_S500000x128_S256x128.axis')) = ValueIdx.ix1 k := by
    intro hx
    rw [Equiv.symm_apply_eq]
    refine Fin.ext ?_
    rw [Shape.rowMajor_val_one]; rfl
  funext a
  match a with
  | ⟨0, _⟩ =>
    refine Fin.ext ?_
    show 0 + 1 * (fi (S256.rowMajor.symm _)).toNat = (physRow (fl (ValueIdx.ix1 k)).toNat) % 500000
    rw [Nat.mod_eq_of_lt (physRow_lt (hfl _))]
    have := hP (ValueIdx.ix1 k)
    rw [hrow _, this]; omega
  | ⟨1, _⟩ =>
    refine Fin.ext ?_
    show 0 + 1 * c.val = c.val
    omega

/-- The invariant of the loop that computes packed row numbers (pass at batch offset `off`). -/
def inv1 (d : Dev nD) (L : grid1.Coords) (f0 : Buf (Elt F) ((Memref.whole cc1_scratch0).view.loc (thrL d L))) (f1 : Buf (Elt F) ((Memref.whole cc1_scratch1).view.loc (thrL d L))) (k : Nat) (_ : PUnit) : sProp 𝕄 :=
  iprop(((Memref.whole cc1_scratch0).view.loc (thrL d L) ↦{fullShare} f0) ∗ ((Memref.whole cc1_scratch1).view.loc (thrL d L) ↦{fullShare} f1)
    ∗ ∃ f3 f4, ((Memref.whole cc1_scratch3).view.loc (thrL d L) ↦{fullShare} f3) ∗ ((Memref.whole cc1_scratch4).view.loc (thrL d L) ↦{fullShare} f4) ∗ ⌜∀ j : S256.Idx, (j 0).val < 16 * k → (f3 j).toNat = physRow (f0 j).toNat ∧ (f4 j).toNat = physRow (f1 j).toNat⌝)

/-- The invariant of the scoring loop: the lists and gathered blocks stay, the staging block holds the pass's value up to
    column 16 k. -/
def inv2 (d : Dev nD) (L : grid1.Coords) (f0 : Buf (Elt F) ((Memref.whole cc1_scratch0).view.loc (thrL d L))) (f1 : Buf (Elt F) ((Memref.whole cc1_scratch1).view.loc (thrL d L))) (f2 : Buf (Elt F) ((Memref.whole cc1_scratch2).view.loc (thrL d L))) (f5 : Buf (Elt F) ((Memref.whole cc1_scratch5).view.loc (thrL d L))) (f6 : Buf (Elt F) ((Memref.whole cc1_scratch6).view.loc (thrL d L))) (f7 : Buf (Elt F) ((Memref.whole cc1_scratch7).view.loc (thrL d L))) (k : Nat) (_ : PUnit) : sProp 𝕄 :=
  iprop(((Memref.whole cc1_scratch0).view.loc (thrL d L) ↦{fullShare} f0) ∗ ((Memref.whole cc1_scratch1).view.loc (thrL d L) ↦{fullShare} f1) ∗ ((Memref.whole cc1_scratch2).view.loc (thrL d L) ↦{fullShare} f2) ∗ ((Memref.whole cc1_scratch5).view.loc (thrL d L) ↦{fullShare} f5) ∗ ((Memref.whole cc1_scratch6).view.loc (thrL d L) ↦{fullShare} f6) ∗ ((Memref.whole cc1_scratch7).view.loc (thrL d L) ↦{fullShare} f7)
    ∗ ∃ f8, ((Memref.whole cc1_scratch8).view.loc (thrL d L) ↦{fullShare} f8) ∗ ⌜∀ y : S64x256.Idx, (y 1).val < 16 * k → f8 y = grpT (f3 (F := F)) f0 f1 f2 f5 f6 f7 y⌝)

end Cert.Kernel.Hand
end
-- ==== Proof.KB.TileP1.lean ====
/-
  The first pass of a worker.

  The small packed table is copied whole into scratch; the worker's first window of the three index lists is copied
  in; sixteen trips compute the 256 packed row numbers of the heads and of the tails, all below 500000 because the
  indices are below 1000000; the two blocks of packed rows are gathered at once, each gather reading the packed table
  under half of the worker's read share; sixteen trips fill the staging block.  At the end the block's entry (d, b) is
  |head + relation - tail| at lane d of batch entry 512 w + b, which is the score's entry (d, 512 w + b): the lane
  offsets and packed rows computed from the words are the layout functions of the specification.
-/
import proofs.«202666_g58660663329007_cont_9to1_m_1270_26_alg».proof.Proof.KB.TileA
import Idealize.ShloMosaic.Lib.Tactic
import Idealize.ShloMosaic.Lib.Writes
import Idealize.ShloMosaic.Lib.Pipeline.Value
import proofs.«202666_g58660663329007_cont_9to1_m_1270_26_alg».proof.Proof.KB.TileW
import proofs.«202666_g58660663329007_cont_9to1_m_1270_26_alg».proof.Proof.KB.TileG
import proofs.«202666_g58660663329007_cont_9to1_m_1270_26_alg».proof.Proof.KB.TileC
import proofs.«202666_g58660663329007_cont_9to1_m_1270_26_alg».proof.Proof.Gen.Kernel.Skeleton
import proofs.«202666_g58660663329007_cont_9to1_m_1270_26_alg».proof.Proof.KB.TileT1
import proofs.«202666_g58660663329007_cont_9to1_m_1270_26_alg».proof.Proof.KB.TileT2
import proofs.«202666_g58660663329007_cont_9to1_m_1270_26_alg».proof.Proof.KB.TileP0

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Spec

variable {F : FTy → Type} [FloatOps F]

local notation "𝕄" => MT nD τ sig (HIx 1) (Elt F) ℕ UU ℕ

open Idealize.ShloMosaic.Tactic

set_option maxHeartbeats 4000000 in
/-- The first pass of a worker (the kernel's first part): the small table and the worker's first window of the three
    index lists are copied in, the packed row numbers computed, the heads' and tails' packed rows gathered, and the
    staging block filled with the score of the window's 256 batch entries. -/
theorem pass1 (d : Dev nD) (L : grid1.Coords)
    (X : Buf (Elt F) (x2Loc d)) (R2 : Buf (Elt F) (r2Loc d)) (h : Buf (Elt F) (hLoc d)) (t : Buf (Elt F) (tLoc d)) (r : Buf (Elt F) (rLoc d))
    (hh : ∀ j, (h j).toNat < 1000000) (ht : ∀ j, (t j).toNat < 1000000) (hr : ∀ j, (r j).toNat < 100)
    (O : CellTallies nD τ sig (HIx 1)) (W : Waits sig (HIx 1))
    (b0 : Buf (Elt F) ((Memref.whole cc1_scratch0).view.loc (thrL d L))) (b1 : Buf (Elt F) ((Memref.whole cc1_scratch1).view.loc (thrL d L))) (b2 : Buf (Elt F) ((Memref.whole cc1_scratch2).view.loc (thrL d L))) (b3 : Buf (Elt F) ((Memref.whole cc1_scratch3).view.loc (thrL d L))) (b4 : Buf (Elt F) ((Memref.whole cc1_scratch4).view.loc (thrL d L))) (b5 : Buf (Elt F) ((Memref.whole cc1_scratch5).view.loc (thrL d L))) (b6 : Buf (Elt F) ((Memref.whole cc1_scratch6).view.loc (thrL d L))) (b7 : Buf (Elt F) ((Memref.whole cc1_scratch7).view.loc (thrL d L))) (b8 : Buf (Elt F) ((Memref.whole cc1_scratch8).view.loc (thrL d L))) :
    (iprop(Transfers.MayWaits (thrL d L) (none : HIx 1) O ∗ ((Memref.whole main_v1_scv).view.loc (thrL d L) ↦{tok (widL L)} X) ∗ ((Memref.whole main_v2_scv).view.loc (thrL d L) ↦{tok (widL L)} R2)
        ∗ ((Memref.whole main_arg2_scv).view.loc (thrL d L) ↦{tok (widL L)} h) ∗ ((Memref.whole main_arg3_scv).view.loc (thrL d L) ↦{tok (widL L)} t)
        ∗ ((Memref.whole main_arg4_scv).view.loc (thrL d L) ↦{tok (widL L)} r)
        ∗ ((Memref.whole cc1_scratch0).view.loc (thrL d L) ↦{fullShare} b0) ∗ ((Memref.whole cc1_scratch1).view.loc (thrL d L) ↦{fullShare} b1) ∗ ((Memref.whole cc1_scratch2).view.loc (thrL d L) ↦{fullShare} b2) ∗ ((Memref.whole cc1_scratch3).view.loc (thrL d L) ↦{fullShare} b3) ∗ ((Memref.whole cc1_scratch4).view.loc (thrL d L) ↦{fullShare} b4) ∗ ((Memref.whole cc1_scratch5).view.loc (thrL d L) ↦{fullShare} b5) ∗ ((Memref.whole cc1_scratch6).view.loc (thrL d L) ↦{fullShare} b6) ∗ ((Memref.whole cc1_scratch7).view.loc (thrL d L) ↦{fullShare} b7) ∗ ((Memref.whole cc1_scratch8).view.loc (thrL d L) ↦{fullShare} b8)
        ∗ semVal (cellV d L cc1_scratch9) 0 ∗ semVal (cellV d L cc1_scratch10) 0 ∗ semVal (cellV d L cc1_scoped0) 0 ∗ semVal (cellV d L cc1_scoped1) 0 ∗ semVal (cellV d L cc1_scoped2) 0 ∗ semVal (cellV d L cc1_scoped3) 0
        ∗ owes (thrL d L) O W) : sProp 𝕄)
      ⊢ wp frame (wpE (defs₀ (F := F)) 𝒱₀ (thrL d L) none) Set.univ
          (k1_part53 L (Memref.whole main_v1_scv) (Memref.isWhole_whole _) (Memref.whole main_v2_scv) (Memref.isWhole_whole _)
            (Memref.whole main_arg2_scv) (Memref.isWhole_whole _) (Memref.whole main_arg3_scv) (Memref.isWhole_whole _)
            (Memref.whole main_arg4_scv) (Memref.isWhole_whole _) (Memref.whole main_v3_scv) (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _) (Memref.whole cc1_scratch5) (Memref.isWhole_whole _)
            (Memref.whole cc1_scratch6) (Memref.isWhole_whole _) (Memref.whole cc1_scratch7) (Memref.isWhole_whole _)
            (Memref.whole cc1_scratch8) (Memref.isWhole_whole _) cc1_scratch9 cc1_scratch10
            cc1_scoped0 cc1_scoped1 cc1_scoped2 cc1_scoped3 cc1_scoped4 cc1_scoped5 cc1_scoped6 cc1_scoped7 cc1_scoped8)
          fun a => iprop(⌜a.2 = (iota .scVector S16 32 [0] iota_S16_d0_w32_scVector)⌝ ∗ ((Memref.whole main_v1_scv).view.loc (thrL d L) ↦{tok (widL L)} X) ∗ ((Memref.whole main_v2_scv).view.loc (thrL d L) ↦{tok (widL L)} R2)
        ∗ ((Memref.whole main_arg2_scv).view.loc (thrL d L) ↦{tok (widL L)} h) ∗ ((Memref.whole main_arg3_scv).view.loc (thrL d L) ↦{tok (widL L)} t)
        ∗ ((Memref.whole main_arg4_scv).view.loc (thrL d L) ↦{tok (widL L)} r)
            ∗ (∃ f, ((Memref.whole cc1_scratch0).view.loc (thrL d L) ↦{fullShare} f)) ∗ (∃ f, ((Memref.whole cc1_scratch1).view.loc (thrL d L) ↦{fullShare} f)) ∗ (∃ f, ((Memref.whole cc1_scratch2).view.loc (thrL d L) ↦{fullShare} f)) ∗ (∃ f, ((Memref.whole cc1_scratch3).view.loc (thrL d L) ↦{fullShare} f)) ∗ (∃ f, ((Memref.whole cc1_scratch4).view.loc (thrL d L) ↦{fullShare} f)) ∗ (∃ f, ((Memref.whole cc1_scratch5).view.loc (thrL d L) ↦{fullShare} f)) ∗ (∃ f, ((Memref.whole cc1_scratch6).view.loc (thrL d L) ↦{fullShare} f))
            ∗ (∃ f7, ((Memref.whole cc1_scratch7).view.loc (thrL d L) ↦{fullShare} f7) ∗ ⌜∀ j, f7 j = R2 j⌝)
            ∗ (∃ f8, ((Memref.whole cc1_scratch8).view.loc (thrL d L) ↦{fullShare} f8) ∗ ⌜∀ y : S64x256.Idx, f8 y = scoreOf d X R2 h t r (ValueIdx.ix2 (y 0) (ixMod 16384 (512 * (widL L).val + 256 * (0 : Fin 2).val + (y 1).val)))⌝)
            ∗ semVal (cellV d L cc1_scratch9) 0 ∗ semVal (cellV d L cc1_scratch10) 0 ∗ semVal (cellV d L cc1_scoped0) 0 ∗ semVal (cellV d L cc1_scoped1) 0 ∗ semVal (cellV d L cc1_scoped2) 0 ∗ semVal (cellV d L cc1_scoped3) 0
            ∗ ∃ W', ⌜∀ p ∈ W', p ∈ W ∨ p.2 = none⌝ ∗ owes (thrL d L) O W') := by
  rw [k1_part53_eq_skeleton]; unfold k1_part53_skel
  iintro ⟨#Hmw, HX, HR2, Hh, Ht, Hr, Hb0, Hb1, Hb2, Hb3, Hb4, Hb5, Hb6, Hb7, Hb8, Hs9, Hs10, Hc0, Hc1, Hc2, Hc3, HO⟩
  sl_exec
  -- the index lists copied in are the batch's lists at the worker's first window; the small table is copied whole
  have hA0 : ∀ k : Fin 256, (View.write (Elt F) (Memref.whole cc1_scratch0).view b0 (pass1.sl.dma0_1 d L h) Finset.univ) (ValueIdx.ix1 k) = h (ValueIdx.ix1 (ixMod 16384 (512 * (widL L).val + 256 * (0 : Fin 2).val + k.val))) :=
    fun k => win_val_0 d L 0 h b0 k
  have hA1 : ∀ k : Fin 256, (View.write (Elt F) (Memref.whole cc1_scratch1).view b1 (pass1.sl.dma0_2 d L t) Finset.univ) (ValueIdx.ix1 k) = t (ValueIdx.ix1 (ixMod 16384 (512 * (widL L).val + 256 * (0 : Fin 2).val + k.val))) :=
    fun k => win_val_1 d L 0 t b1 k
  have hA2 : ∀ k : Fin 256, (View.write (Elt F) (Memref.whole cc1_scratch2).view b2 (pass1.sl.dma0_3 d L r) Finset.univ) (ValueIdx.ix1 k) = r (ValueIdx.ix1 (ixMod 16384 (512 * (widL L).val + 256 * (0 : Fin 2).val + k.val))) :=
    fun k => win_val_2 d L 0 r b2 k
  have hA7 : ∀ j, (View.write (Elt F) (Memref.whole cc1_scratch7).view b7 (pass1.sl.dma0 d R2) Finset.univ) j = R2 j :=
    fun j => congrFun (View.write_whole_univ cc1_scratch7 b7 _) j
  generalize hF0 : (View.write (Elt F) (Memref.whole cc1_scratch0).view b0 (pass1.sl.dma0_1 d L h) Finset.univ) = F0 at hA0 ⊢
  generalize hF1 : (View.write (Elt F) (Memref.whole cc1_scratch1).view b1 (pass1.sl.dma0_2 d L t) Finset.univ) = F1 at hA1 ⊢
  generalize hF2 : (View.write (Elt F) (Memref.whole cc1_scratch2).view b2 (pass1.sl.dma0_3 d L r) Finset.univ) = F2 at hA2 ⊢
  generalize hF7 : (View.write (Elt F) (Memref.whole cc1_scratch7).view b7 (pass1.sl.dma0 d R2) Finset.univ) = F7 at hA7 ⊢
  have hB0 : ∀ j : S256.Idx, (F0 j).toNat < 1000000 := fun j =>
    ((congrArg BitVec.toNat ((congrArg F0 (ValueIdx.eq_ix1 j)).trans (hA0 (j 0)))).trans_lt (hh _))
  have hB1 : ∀ j : S256.Idx, (F1 j).toNat < 1000000 := fun j =>
    ((congrArg BitVec.toNat ((congrArg F1 (ValueIdx.eq_ix1 j)).trans (hA1 (j 0)))).trans_lt (ht _))
  have hB2 : ∀ j : S256.Idx, (F2 j).toNat < 100 := fun j =>
    ((congrArg BitVec.toNat ((congrArg F2 (ValueIdx.eq_ix1 j)).trans (hA2 (j 0)))).trans_lt (hr _))
  sl_for (inv1 d L F0 F1) $$ [Hb0 Hb1 Hb3 Hb4]
  case region =>
    intro k _
    unfold inv1
    iintro ⟨H0, H1, %f3, %f4, H3, H4, %hP⟩
    iapply (trip1 d L k F0 F1 f3 f4 hP)
    isplitl [H0]; · iexact H0
    isplitl [H1]; · iexact H1
    isplitl [H3]; · iexact H3
    iexact H4
  · unfold inv1
    isplitl [Hb0]; · iexact Hb0
    isplitl [Hb1]; · iexact Hb1
    iexists _; iexists _
    isplitl [Hb3]; · iexact Hb3
    isplitl [Hb4]; · iexact Hb4
    ipureintro
    intro j hj; omega
  iintro %_ HI
  unfold inv1
  icases HI with ⟨Hb0, Hb1, %f3, %f4, Hb3, Hb4, %hP⟩
  have hP' : ∀ j : S256.Idx, (f3 j).toNat = physRow (F0 j).toNat ∧ (f4 j).toNat = physRow (F1 j).toNat :=
    fun j => hP j (by have : (j 0).val < 256 := (j 0).isLt; show (j 0).val < 16 * 16; omega)
  have hin3 : ∀ x, ((Memref.whole cc1_scratch3).view.read (Elt F) f3 x).toNat < S500000x128.size gathers_S500000x128_S256x128.axis :=
    fun x => by show (f3 x).toNat < 500000; rw [(hP' x).1]; exact physRow_lt (hB0 x)
  have hin4 : ∀ x, ((Memref.whole cc1_scratch4).view.read (Elt F) f4 x).toNat < S500000x128.size gathers_S500000x128_S256x128.axis :=
    fun x => by show (f4 x).toNat < 500000; rw [(hP' x).2]; exact physRow_lt (hB1 x)
  -- the packed table is read by two gathers at once: half the worker's share each
  ihave HX2 := (pointsTo_share (PosShare.mem_left_op_right (tok (widL L)))).1 $$ HX
  icases HX2 with ⟨HXl, HXr⟩
  sl_exec
  have hG5 : ∀ (k : Fin 256) (c : Fin 128), ((Memref.whole cc1_scratch5).view.writes (Elt F) (Memref.whole cc1_scratch5).view.junk [⟨Rect.whole cc1_scratch5.ty.shape, pass1.sl.gather0 d L X f3 hin3⟩]) (ValueIdx.ix2 k c) = X (ValueIdx.ix2 (ixMod 500000 (physRow (F0 (ValueIdx.ix1 k)).toNat)) c) :=
    fun k c => gather_val_5 d L X _ F0 f3 rfl hin3 (fun j => (hP' j).1) hB0 k c
  have hG6 : ∀ (k : Fin 256) (c : Fin 128), ((Memref.whole cc1_scratch6).view.writes (Elt F) (Memref.whole cc1_scratch6).view.junk [⟨Rect.whole cc1_scratch6.ty.shape, pass1.sl.gather1 d L X f4 hin4⟩]) (ValueIdx.ix2 k c) = X (ValueIdx.ix2 (ixMod 500000 (physRow (F1 (ValueIdx.ix1 k)).toNat)) c) :=
    fun k c => gather_val_6 d L X _ F1 f4 rfl hin4 (fun j => (hP' j).2) hB1 k c
  generalize hF5 : ((Memref.whole cc1_scratch5).view.writes (Elt F) (Memref.whole cc1_scratch5).view.junk [⟨Rect.whole cc1_scratch5.ty.shape, pass1.sl.gather0 d L X f3 hin3⟩]) = F5 at hG5 ⊢
  generalize hF6 : ((Memref.whole cc1_scratch6).view.writes (Elt F) (Memref.whole cc1_scratch6).view.junk [⟨Rect.whole cc1_scratch6.ty.shape, pass1.sl.gather1 d L X f4 hin4⟩]) = F6 at hG6 ⊢
  ihave HX := (pointsTo_share (PosShare.mem_left_op_right (tok (widL L)))).2 $$ [HXl HXr]
  · isplitl [HXl]; · iexact HXl
    iexact HXr
  sl_for (inv2 d L F0 F1 F2 F5 F6 F7) $$ [Hb0 Hb1 Hb2 Hb5 Hb6 Hb7 Hb8]
  case region =>
    intro k _
    unfold inv2
    iintro ⟨H0, H1, H2, H5, H6, H7, %f8, H8, %hP8⟩
    iapply (trip2 d L k F0 F1 F2 F5 F6 F7 f8 hB2 hP8)
    isplitl [H0]; · iexact H0
    isplitl [H1]; · iexact H1
    isplitl [H2]; · iexact H2
    isplitl [H5]; · iexact H5
    isplitl [H6]; · iexact H6
    isplitl [H7]; · iexact H7
    iexact H8
  · unfold inv2
    isplitl [Hb0]; · iexact Hb0
    isplitl [Hb1]; · iexact Hb1
    isplitl [Hb2]; · iexact Hb2
    isplitl [Hb5]; · iexact Hb5
    isplitl [Hb6]; · iexact Hb6
    isplitl [Hb7]; · iexact Hb7
    iexists _
    isplitl [Hb8]; · iexact Hb8
    ipureintro
    intro y hy; omega
  iintro %_ HI
  unfold inv2
  icases HI with ⟨Hb0, Hb1, Hb2, Hb5, Hb6, Hb7, %f8, Hb8, %hP8⟩
  have hS : ∀ y : S64x256.Idx, f8 y = scoreOf d X R2 h t r (ValueIdx.ix2 (y 0) (ixMod 16384 (512 * (widL L).val + 256 * (0 : Fin 2).val + (y 1).val))) := fun y =>
    (hP8 y (by have : (y 1).val < 256 := (y 1).isLt; show (y 1).val < 16 * 16; omega)).trans
      (grpT_eq_score (Cert.Kernel.Hand.f3 (F := F)) X R2 h t r (512 * (widL L).val + 256 * (0 : Fin 2).val) F0 F1 F2 F5 F6 F7 hA0 hA1 hA2 hG5 hG6 hA7 y)
  sl_exec
  sl_step
  isplitr; · ipureintro; rfl
  isplitl [HX]; · iexact HX
  isplitl [HR2]; · iexact HR2
  isplitl [Hh]; · iexact Hh
  isplitl [Ht]; · iexact Ht
  isplitl [Hr]; · iexact Hr
  isplitl [Hb0]; · iexists _; iexact Hb0
  isplitl [Hb1]; · iexists _; iexact Hb1
  isplitl [Hb2]; · iexists _; iexact Hb2
  isplitl [Hb3]; · iexists _; iexact Hb3
  isplitl [Hb4]; · iexists _; iexact Hb4
  isplitl [Hb5]; · iexists _; iexact Hb5
  isplitl [Hb6]; · iexists _; iexact Hb6
  isplitl [Hb7]
  · iexists _; isplitl [Hb7]; · iexact Hb7
    ipureintro; exact hA7
  isplitl [Hb8]
  · iexists _; isplitl [Hb8]; · iexact Hb8
    ipureintro; exact hS
  isplitl [Hs9]; · iexact Hs9
  isplitl [Hs10]; · iexact Hs10
  isplitl [Hc0]; · iexact Hc0
  isplitl [Hc1]; · iexact Hc1
  isplitl [Hc2]; · iexact Hc2
  isplitl [Hc3]; · iexact Hc3
  iexists _; isplitr
  rotate_left
  · iexact HO
  · ipureintro
    intro q hq
    simp only [Finset.mem_insert] at hq
    rcases hq with rfl | rfl | rfl | rfl | rfl | rfl | hq
    all_goals first | exact Or.inr rfl | exact Or.inl hq

end Cert.Kernel.Hand
end
-- ==== Proof.KB.TileT3.lean ====
/-
  One trip of the loop that turns table row numbers into packed row numbers (second pass).

  The same step as in the first pass, on the second window of the index lists: sixteen more entries of the two lists of
  packed row numbers become 8 (v / 16) + v % 8 of the sixteen heads and tails read; entries outside the trip's window
  keep what they held.
-/
import proofs.«202666_g58660663329007_cont_9to1_m_1270_26_alg».proof.Proof.KB.TileA
import Idealize.ShloMosaic.Lib.Tactic
import Idealize.ShloMosaic.Lib.Writes
import proofs.«202666_g58660663329007_cont_9to1_m_1270_26_alg».proof.Proof.KB.TileW
import proofs.«202666_g58660663329007_cont_9to1_m_1270_26_alg».proof.Proof.KB.TileG
import proofs.«202666_g58660663329007_cont_9to1_m_1270_26_alg».proof.Proof.Gen.Kernel.Skeleton

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Spec

variable {F : FTy → Type} [FloatOps F]

local notation "𝕄" => MT nD τ sig (HIx 1) (Elt F) ℕ UU ℕ

open Idealize.ShloMosaic.Tactic

/-- One trip of the loop that turns table row numbers into packed row numbers: sixteen more entries of the two lists of
    packed row numbers are the packed rows of the sixteen heads and tails read. -/
theorem trip3 (d : Dev nD) (L : grid1.Coords) (v2 : BitVec 32) (v3 : IVec S16 32) (k : Fin k1_t3_loop.trips)
    (f0 : Buf (Elt F) ((Memref.whole cc1_scratch0).view.loc (thrL d L))) (f1 : Buf (Elt F) ((Memref.whole cc1_scratch1).view.loc (thrL d L))) (f3 : Buf (Elt F) ((Memref.whole cc1_scratch3).view.loc (thrL d L))) (f4 : Buf (Elt F) ((Memref.whole cc1_scratch4).view.loc (thrL d L)))
    (hP : ∀ j : S256.Idx, (j 0).val < 16 * k.val → (f3 j).toNat = physRow (f0 j).toNat ∧ (f4 j).toNat = physRow (f1 j).toNat) :
    (iprop(((Memref.whole cc1_scratch0).view.loc (thrL d L) ↦{fullShare} f0) ∗ ((Memref.whole cc1_scratch1).view.loc (thrL d L) ↦{fullShare} f1) ∗ ((Memref.whole cc1_scratch3).view.loc (thrL d L) ↦{fullShare} f3) ∗ ((Memref.whole cc1_scratch4).view.loc (thrL d L) ↦{fullShare} f4)) : sProp 𝕄)
      ⊢ wp frame (wpE (defs₀ (F := F)) 𝒱₀ (thrL d L) none) Set.univ
          (k1_t3_body L (Memref.whole main_v1_scv) (Memref.isWhole_whole _) (Memref.whole main_v2_scv) (Memref.isWhole_whole _)
            (Memref.whole main_arg2_scv) (Memref.isWhole_whole _) (Memref.whole main_arg3_scv) (Memref.isWhole_whole _)
            (Memref.whole main_arg4_scv) (Memref.isWhole_whole _) (Memref.whole main_v3_scv) (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _) (Memref.whole cc1_scratch5) (Memref.isWhole_whole _)
            (Memref.whole cc1_scratch6) (Memref.isWhole_whole _) (Memref.whole cc1_scratch7) (Memref.isWhole_whole _)
            (Memref.whole cc1_scratch8) (Memref.isWhole_whole _) cc1_scratch9 cc1_scratch10
            cc1_scoped0 cc1_scoped1 cc1_scoped2 cc1_scoped3 cc1_scoped4 cc1_scoped5 cc1_scoped6 cc1_scoped7 cc1_scoped8 v2 v3 k ())
          fun _ => iprop(((Memref.whole cc1_scratch0).view.loc (thrL d L) ↦{fullShare} f0) ∗ ((Memref.whole cc1_scratch1).view.loc (thrL d L) ↦{fullShare} f1)
            ∗ ∃ f3' f4', ((Memref.whole cc1_scratch3).view.loc (thrL d L) ↦{fullShare} f3') ∗ ((Memref.whole cc1_scratch4).view.loc (thrL d L) ↦{fullShare} f4') ∗ ⌜∀ j : S256.Idx, (j 0).val < 16 * (k.val + 1) → (f3' j).toNat = physRow (f0 j).toNat ∧ (f4' j).toNat = physRow (f1 j).toNat⌝) := by
  unfold k1_t3_body
  iintro ⟨H0, H1, H3, H4⟩
  sl_exec
  sl_step
  isplitl [H0]; · iexact H0
  isplitl [H1]; · iexact H1
  iexists _; iexists _
  isplitl [H3]; · iexact H3
  isplitl [H4]; · iexact H4
  ipureintro
  intro j hj
  have hoff : k1_off69 k = ![16 * k.val] := k1_off69_eq k
  by_cases hin : j ∈ (Rect.unit (s := S256) (k1_off69 k) S16.size (k1_off69_inb k)).set
  · obtain ⟨x, rfl⟩ := (Rect.unit (s := S256) (k1_off69 k) S16.size (k1_off69_inb k)).exists_idx_of_mem hin
    constructor
    · refine (congrArg BitVec.toNat (View.read_writes_cons_emb (Memref.whole cc1_scratch3).view f3 (Rect.unit (s := S256) (k1_off69 k) S16.size (k1_off69_inb k)) _ [] x)).trans ?_
      exact packRow_toNat _
    · refine (congrArg BitVec.toNat (View.read_writes_cons_emb (Memref.whole cc1_scratch4).view f4 (Rect.unit (s := S256) (k1_off69 k) S16.size (k1_off69_inb k)) _ [] x)).trans ?_
      exact packRow_toNat _
  · have hlt : (j 0).val < 16 * k.val := by
      by_contra hge
      refine hin (Rect.mem_set_unit.mpr fun a => ?_)
      have ha : a = 0 := Subsingleton.elim _ _
      subst ha
      rw [hoff]
      refine ⟨?_, ?_⟩
      · show 16 * k.val ≤ (j 0).val; omega
      · show (j 0).val < 16 * k.val + 16; omega
    have h3 : View.read (Elt F) (Memref.whole cc1_scratch3).view ((Memref.whole cc1_scratch3).view.writes (Elt F) f3 [⟨Rect.unit (s := S256) (k1_off69 k) S16.size (k1_off69_inb k), k1_pay524 (View.readAt (Elt F) (Memref.whole cc1_scratch0).view (Rect.unit (s := S256) (k1_off69 k) S16.size (k1_off69_inb k)).toLoadRect f0)⟩]) j = View.read (Elt F) (Memref.whole cc1_scratch3).view f3 j :=
      View.read_writes_apply_of_forall_not_mem _ _ j _ (by intro p hp; rw [List.mem_singleton.mp hp]; exact hin)
    have h4 : View.read (Elt F) (Memref.whole cc1_scratch4).view ((Memref.whole cc1_scratch4).view.writes (Elt F) f4 [⟨Rect.unit (s := S256) (k1_off69 k) S16.size (k1_off69_inb k), k1_pay525 (View.readAt (Elt F) (Memref.whole cc1_scratch1).view (Rect.unit (s := S256) (k1_off69 k) S16.size (k1_off69_inb k)).toLoadRect f1)⟩]) j = View.read (Elt F) (Memref.whole cc1_scratch4).view f4 j :=
      View.read_writes_apply_of_forall_not_mem _ _ j _ (by intro p hp; rw [List.mem_singleton.mp hp]; exact hin)
    exact ⟨(congrArg BitVec.toNat h3).trans (hP j hlt).1, (congrArg BitVec.toNat h4).trans (hP j hlt).2⟩

end Cert.Kernel.Hand
end
-- ==== Proof.KB.TileT4.lean ====
/-
  One trip of the scoring loop (second pass).

  The same step as in the first pass: sixty-four sixteen-entry pieces, one per lane, each |head + relation - tail| of
  the group's sixteen batch entries read at the lane's offsets, fill columns [16 g, 16 g + 16) of the staging block with
  the pass's value and leave the other columns unchanged.
-/
import proofs.«202666_g58660663329007_cont_9to1_m_1270_26_alg».proof.Proof.KB.TileA
import Idealize.ShloMosaic.Lib.Tactic
import Idealize.ShloMosaic.Lib.Writes
import Idealize.ShloMosaic.Lib.Pipeline.Value
import proofs.«202666_g58660663329007_cont_9to1_m_1270_26_alg».proof.Proof.KB.TileW
import proofs.«202666_g58660663329007_cont_9to1_m_1270_26_alg».proof.Proof.KB.TileG
import proofs.«202666_g58660663329007_cont_9to1_m_1270_26_alg».proof.Proof.KB.TileC
import proofs.«202666_g58660663329007_cont_9to1_m_1270_26_alg».proof.Proof.Gen.Kernel.Skeleton
import proofs.«202666_g58660663329007_cont_9to1_m_1270_26_alg».proof.Proof.KB.TileT2

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Spec

variable {F : FTy → Type} [FloatOps F]

local notation "𝕄" => MT nD τ sig (HIx 1) (Elt F) ℕ UU ℕ

open Idealize.ShloMosaic.Tactic
set_option sl_exec.dischHeartbeats 20000

set_option maxRecDepth 65536 in
/-- One trip of the scoring loop: sixteen more columns of the staging block hold |head + relation - tail|, lane by
    lane, of the sixteen batch entries of the group. -/
theorem trip4 (d : Dev nD) (L : grid1.Coords) (v2 : BitVec 32) (g : Fin k1_t4_loop.trips)
    (f0 : Buf (Elt F) ((Memref.whole cc1_scratch0).view.loc (thrL d L))) (f1 : Buf (Elt F) ((Memref.whole cc1_scratch1).view.loc (thrL d L))) (f2 : Buf (Elt F) ((Memref.whole cc1_scratch2).view.loc (thrL d L))) (f5 : Buf (Elt F) ((Memref.whole cc1_scratch5).view.loc (thrL d L))) (f6 : Buf (Elt F) ((Memref.whole cc1_scratch6).view.loc (thrL d L))) (f7 : Buf (Elt F) ((Memref.whole cc1_scratch7).view.loc (thrL d L))) (f8 : Buf (Elt F) ((Memref.whole cc1_scratch8).view.loc (thrL d L)))
    (hf2 : ∀ j, (f2 j).toNat < 100)
    (hP : ∀ y : S64x256.Idx, (y 1).val < 16 * g.val → f8 y = grpT (f3 (F := F)) f0 f1 f2 f5 f6 f7 y) :
    (iprop(((Memref.whole cc1_scratch0).view.loc (thrL d L) ↦{fullShare} f0) ∗ ((Memref.whole cc1_scratch1).view.loc (thrL d L) ↦{fullShare} f1) ∗ ((Memref.whole cc1_scratch2).view.loc (thrL d L) ↦{fullShare} f2) ∗ ((Memref.whole cc1_scratch5).view.loc (thrL d L) ↦{fullShare} f5) ∗ ((Memref.whole cc1_scratch6).view.loc (thrL d L) ↦{fullShare} f6) ∗ ((Memref.whole cc1_scratch7).view.loc (thrL d L) ↦{fullShare} f7) ∗ ((Memref.whole cc1_scratch8).view.loc (thrL d L) ↦{fullShare} f8)) : sProp 𝕄)
      ⊢ wp frame (wpE (defs₀ (F := F)) 𝒱₀ (thrL d L) none) Set.univ
          (k1_t4_body L (Memref.whole main_v1_scv) (Memref.isWhole_whole _) (Memref.whole main_v2_scv) (Memref.isWhole_whole _)
            (Memref.whole main_arg2_scv) (Memref.isWhole_whole _) (Memref.whole main_arg3_scv) (Memref.isWhole_whole _)
            (Memref.whole main_arg4_scv) (Memref.isWhole_whole _) (Memref.whole main_v3_scv) (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _) (Memref.whole cc1_scratch5) (Memref.isWhole_whole _)
            (Memref.whole cc1_scratch6) (Memref.isWhole_whole _) (Memref.whole cc1_scratch7) (Memref.isWhole_whole _)
            (Memref.whole cc1_scratch8) (Memref.isWhole_whole _) cc1_scratch9 cc1_scratch10
            cc1_scoped0 cc1_scoped1 cc1_scoped2 cc1_scoped3 cc1_scoped4 cc1_scoped5 cc1_scoped6 cc1_scoped7 cc1_scoped8 v2 (iota .scVector S16 32 [0] iota_S16_d0_w32_scVector) g ())
          fun _ => iprop(((Memref.whole cc1_scratch0).view.loc (thrL d L) ↦{fullShare} f0) ∗ ((Memref.whole cc1_scratch1).view.loc (thrL d L) ↦{fullShare} f1) ∗ ((Memref.whole cc1_scratch2).view.loc (thrL d L) ↦{fullShare} f2) ∗ ((Memref.whole cc1_scratch5).view.loc (thrL d L) ↦{fullShare} f5) ∗ ((Memref.whole cc1_scratch6).view.loc (thrL d L) ↦{fullShare} f6) ∗ ((Memref.whole cc1_scratch7).view.loc (thrL d L) ↦{fullShare} f7)
            ∗ ∃ f8', ((Memref.whole cc1_scratch8).view.loc (thrL d L) ↦{fullShare} f8') ∗ ⌜∀ y : S64x256.Idx, (y 1).val < 16 * (g.val + 1) → f8' y = grpT (f3 (F := F)) f0 f1 f2 f5 f6 f7 y⌝) := by
  unfold k1_t4_body
  rw [k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton]
  unfold k1_part27_skel k1_part28_skel k1_part29_skel k1_part30_skel k1_part31_skel k1_part32_skel k1_part33_skel k1_part34_skel k1_part35_skel k1_part36_skel k1_part37_skel k1_part38_skel k1_part39_skel k1_part40_skel k1_part41_skel k1_part42_skel k1_part43_skel k1_part44_skel k1_part45_skel k1_part46_skel k1_part47_skel k1_part48_skel k1_part49_skel k1_part50_skel k1_part51_skel k1_part52_skel SparseCore.vectorLoadIdx
  iintro ⟨H0, H1, H2, H5, H6, H7, H8⟩
  sl_exec (disch := first
    | (show ∀ a x, _ < (⟨2, ![50, 128]⟩ : Shape).size a; exact chk_rel _ _ (by decide) (by intro x; exact hf2 _))
    | exact chk_rows _ g.isLt _ _ _ (by decide))
  sl_step
  isplitl [H0]; · iexact H0
  isplitl [H1]; · iexact H1
  isplitl [H2]; · iexact H2
  isplitl [H5]; · iexact H5
  isplitl [H6]; · iexact H6
  isplitl [H7]; · iexact H7
  iexists _
  isplitl [H8]; · iexact H8
  ipureintro
  refine good_end d L g.val _ f8 _ ?_ hP
  refine good_step d L g.val 63 _ f8 _ _ (k1_off134_eq g) _ _ (piece_val d L g.val 63 g.isLt (by decide) f0 f1 f2 f5 f6 f7 hf2 _ (k1_off70_eq g) _ _ (k1_off134_eq g) _ _ _ _ _) ?_
  refine good_step d L g.val 62 _ f8 _ _ (k1_off133_eq g) _ _ (piece_val d L g.val 62 g.isLt (by decide) f0 f1 f2 f5 f6 f7 hf2 _ (k1_off70_eq g) _ _ (k1_off133_eq g) _ _ _ _ _) ?_
  refine good_step d L g.val 61 _ f8 _ _ (k1_off132_eq g) _ _ (piece_val d L g.val 61 g.isLt (by decide) f0 f1 f2 f5 f6 f7 hf2 _ (k1_off70_eq g) _ _ (k1_off132_eq g) _ _ _ _ _) ?_
  refine good_step d L g.val 60 _ f8 _ _ (k1_off131_eq g) _ _ (piece_val d L g.val 60 g.isLt (by decide) f0 f1 f2 f5 f6 f7 hf2 _ (k1_off70_eq g) _ _ (k1_off131_eq g) _ _ _ _ _) ?_
  refine good_step d L g.val 59 _ f8 _ _ (k1_off130_eq g) _ _ (piece_val d L g.val 59 g.isLt (by decide) f0 f1 f2 f5 f6 f7 hf2 _ (k1_off70_eq g) _ _ (k1_off130_eq g) _ _ _ _ _) ?_
  refine good_step d L g.val 58 _ f8 _ _ (k1_off129_eq g) _ _ (piece_val d L g.val 58 g.isLt (by decide) f0 f1 f2 f5 f6 f7 hf2 _ (k1_off70_eq g) _ _ (k1_off129_eq g) _ _ _ _ _) ?_
  refine good_step d L g.val 57 _ f8 _ _ (k1_off128_eq g) _ _ (piece_val d L g.val 57 g.isLt (by decide) f0 f1 f2 f5 f6 f7 hf2 _ (k1_off70_eq g) _ _ (k1_off128_eq g) _ _ _ _ _) ?_
  refine good_step d L g.val 56 _ f8 _ _ (k1_off127_eq g) _ _ (piece_val d L g.val 56 g.isLt (by decide) f0 f1 f2 f5 f6 f7 hf2 _ (k1_off70_eq g) _ _ (k1_off127_eq g) _ _ _ _ _) ?_
  refine good_step d L g.val 55 _ f8 _ _ (k1_off126_eq g) _ _ (piece_val d L g.val 55 g.isLt (by decide) f0 f1 f2 f5 f6 f7 hf2 _ (k1_off70_eq g) _ _ (k1_off126_eq g) _ _ _ _ _) ?_
  refine good_step d L g.val 54 _ f8 _ _ (k1_off125_eq g) _ _ (piece_val d L g.val 54 g.isLt (by decide) f0 f1 f2 f5 f6 f7 hf2 _ (k1_off70_eq g) _ _ (k1_off125_eq g) _ _ _ _ _) ?_
  refine good_step d L g.val 53 _ f8 _ _ (k1_off124_eq g) _ _ (piece_val d L g.val 53 g.isLt (by decide) f0 f1 f2 f5 f6 f7 hf2 _ (k1_off70_eq g) _ _ (k1_off124_eq g) _ _ _ _ _) ?_
  refine good_step d L g.val 52 _ f8 _ _ (k1_off123_eq g) _ _ (piece_val d L g.val 52 g.isLt (by decide) f0 f1 f2 f5 f6 f7 hf2 _ (k1_off70_eq g) _ _ (k1_off123_eq g) _ _ _ _ _) ?_
  refine good_step d L g.val 51 _ f8 _ _ (k1_off122_eq g) _ _ (piece_val d L g.val 51 g.isLt (by decide) f0 f1 f2 f5 f6 f7 hf2 _ (k1_off70_eq g) _ _ (k1_off122_eq g) _ _ _ _ _) ?_
  refine good_step d L g.val 50 _ f8 _ _ (k1_off121_eq g) _ _ (piece_val d L g.val 50 g.isLt (by decide) f0 f1 f2 f5 f6 f7 hf2 _ (k1_off70_eq g) _ _ (k1_off121_eq g) _ _ _ _ _) ?_
  refine good_step d L g.val 49 _ f8 _ _ (k1_off120_eq g) _ _ (piece_val d L g.val 49 g.isLt (by decide) f0 f1 f2 f5 f6 f7 hf2 _ (k1_off70_eq g) _ _ (k1_off120_eq g) _ _ _ _ _) ?_
  refine good_step d L g.val 48 _ f8 _ _ (k1_off119_eq g) _ _ (piece_val d L g.val 48 g.isLt (by decide) f0 f1 f2 f5 f6 f7 hf2 _ (k1_off70_eq g) _ _ (k1_off119_eq g) _ _ _ _ _) ?_
  refine good_step d L g.val 47 _ f8 _ _ (k1_off118_eq g) _ _ (piece_val d L g.val 47 g.isLt (by decide) f0 f1 f2 f5 f6 f7 hf2 _ (k1_off70_eq g) _ _ (k1_off118_eq g) _ _ _ _ _) ?_
  refine good_step d L g.val 46 _ f8 _ _ (k1_off117_eq g) _ _ (piece_val d L g.val 46 g.isLt (by decide) f0 f1 f2 f5 f6 f7 hf2 _ (k1_off70_eq g) _ _ (k1_off117_eq g) _ _ _ _ _) ?_
  refine good_step d L g.val 45 _ f8 _ _ (k1_off116_eq g) _ _ (piece_val d L g.val 45 g.isLt (by decide) f0 f1 f2 f5 f6 f7 hf2 _ (k1_off70_eq g) _ _ (k1_off116_eq g) _ _ _ _ _) ?_
  refine good_step d L g.val 44 _ f8 _ _ (k1_off115_eq g) _ _ (piece_val d L g.val 44 g.isLt (by decide) f0 f1 f2 f5 f6 f7 hf2 _ (k1_off70_eq g) _ _ (k1_off115_eq g) _ _ _ _ _) ?_
  refine good_step d L g.val 43 _ f8 _ _ (k1_off114_eq g) _ _ (piece_val d L g.val 43 g.isLt (by decide) f0 f1 f2 f5 f6 f7 hf2 _ (k1_off70_eq g) _ _ (k1_off114_eq g) _ _ _ _ _) ?_
  refine good_step d L g.val 42 _ f8 _ _ (k1_off113_eq g) _ _ (piece_val d L g.val 42 g.isLt (by decide) f0 f1 f2 f5 f6 f7 hf2 _ (k1_off70_eq g) _ _ (k1_off113_eq g) _ _ _ _ _) ?_
  refine good_step d L g.val 41 _ f8 _ _ (k1_off112_eq g) _ _ (piece_val d L g.val 41 g.isLt (by decide) f0 f1 f2 f5 f6 f7 hf2 _ (k1_off70_eq g) _ _ (k1_off112_eq g) _ _ _ _ _) ?_
  refine good_step d L g.val 40 _ f8 _ _ (k1_off111_eq g) _ _ (piece_val d L g.val 40 g.isLt (by decide) f0 f1 f2 f5 f6 f7 hf2 _ (k1_off70_eq g) _ _ (k1_off111_eq g) _ _ _ _ _) ?_
  refine good_step d L g.val 39 _ f8 _ _ (k1_off110_eq g) _ _ (piece_val d L g.val 39 g.isLt (by decide) f0 f1 f2 f5 f6 f7 hf2 _ (k1_off70_eq g) _ _ (k1_off110_eq g) _ _ _ _ _) ?_
  refine good_step d L g.val 38 _ f8 _ _ (k1_off109_eq g) _ _ (piece_val d L g.val 38 g.isLt (by decide) f0 f1 f2 f5 f6 f7 hf2 _ (k1_off70_eq g) _ _ (k1_off109_eq g) _ _ _ _ _) ?_
  refine good_step d L g.val 37 _ f8 _ _ (k1_off108_eq g) _ _ (piece_val d L g.val 37 g.isLt (by decide) f0 f1 f2 f5 f6 f7 hf2 _ (k1_off70_eq g) _ _ (k1_off108_eq g) _ _ _ _ _) ?_
  refine good_step d L g.val 36 _ f8 _ _ (k1_off107_eq g) _ _ (piece_val d L g.val 36 g.isLt (by decide) f0 f1 f2 f5 f6 f7 hf2 _ (k1_off70_eq g) _ _ (k1_off107_eq g) _ _ _ _ _) ?_
  refine good_step d L g.val 35 _ f8 _ _ (k1_off106_eq g) _ _ (piece_val d L g.val 35 g.isLt (by decide) f0 f1 f2 f5 f6 f7 hf2 _ (k1_off70_eq g) _ _ (k1_off106_eq g) _ _ _ _ _) ?_
  refine good_step d L g.val 34 _ f8 _ _ (k1_off105_eq g) _ _ (piece_val d L g.val 34 g.isLt (by decide) f0 f1 f2 f5 f6 f7 hf2 _ (k1_off70_eq g) _ _ (k1_off105_eq g) _ _ _ _ _) ?_
  refine good_step d L g.val 33 _ f8 _ _ (k1_off104_eq g) _ _ (piece_val d L g.val 33 g.isLt (by decide) f0 f1 f2 f5 f6 f7 hf2 _ (k1_off70_eq g) _ _ (k1_off104_eq g) _ _ _ _ _) ?_
  refine good_step d L g.val 32 _ f8 _ _ (k1_off103_eq g) _ _ (piece_val d L g.val 32 g.isLt (by decide) f0 f1 f2 f5 f6 f7 hf2 _ (k1_off70_eq g) _ _ (k1_off103_eq g) _ _ _ _ _) ?_
  refine good_step d L g.val 31 _ f8 _ _ (k1_off102_eq g) _ _ (piece_val d L g.val 31 g.isLt (by decide) f0 f1 f2 f5 f6 f7 hf2 _ (k1_off70_eq g) _ _ (k1_off102_eq g) _ _ _ _ _) ?_
  refine good_step d L g.val 30 _ f8 _ _ (k1_off101_eq g) _ _ (piece_val d L g.val 30 g.isLt (by decide) f0 f1 f2 f5 f6 f7 hf2 _ (k1_off70_eq g) _ _ (k1_off101_eq g) _ _ _ _ _) ?_
  refine good_step d L g.val 29 _ f8 _ _ (k1_off100_eq g) _ _ (piece_val d L g.val 29 g.isLt (by decide) f0 f1 f2 f5 f6 f7 hf2 _ (k1_off70_eq g) _ _ (k1_off100_eq g) _ _ _ _ _) ?_
  refine good_step d L g.val 28 _ f8 _ _ (k1_off99_eq g) _ _ (piece_val d L g.val 28 g.isLt (by decide) f0 f1 f2 f5 f6 f7 hf2 _ (k1_off70_eq g) _ _ (k1_off99_eq g) _ _ _ _ _) ?_
  refine good_step d L g.val 27 _ f8 _ _ (k1_off98_eq g) _ _ (piece_val d L g.val 27 g.isLt (by decide) f0 f1 f2 f5 f6 f7 hf2 _ (k1_off70_eq g) _ _ (k1_off98_eq g) _ _ _ _ _) ?_
  refine good_step d L g.val 26 _ f8 _ _ (k1_off97_eq g) _ _ (piece_val d L g.val 26 g.isLt (by decide) f0 f1 f2 f5 f6 f7 hf2 _ (k1_off70_eq g) _ _ (k1_off97_eq g) _ _ _ _ _) ?_
  refine good_step d L g.val 25 _ f8 _ _ (k1_off96_eq g) _ _ (piece_val d L g.val 25 g.isLt (by decide) f0 f1 f2 f5 f6 f7 hf2 _ (k1_off70_eq g) _ _ (k1_off96_eq g) _ _ _ _ _) ?_
  refine good_step d L g.val 24 _ f8 _ _ (k1_off95_eq g) _ _ (piece_val d L g.val 24 g.isLt (by decide) f0 f1 f2 f5 f6 f7 hf2 _ (k1_off70_eq g) _ _ (k1_off95_eq g) _ _ _ _ _) ?_
  refine good_step d L g.val 23 _ f8 _ _ (k1_off94_eq g) _ _ (piece_val d L g.val 23 g.isLt (by decide) f0 f1 f2 f5 f6 f7 hf2 _ (k1_off70_eq g) _ _ (k1_off94_eq g) _ _ _ _ _) ?_
  refine good_step d L g.val 22 _ f8 _ _ (k1_off93_eq g) _ _ (piece_val d L g.val 22 g.isLt (by decide) f0 f1 f2 f5 f6 f7 hf2 _ (k1_off70_eq g) _ _ (k1_off93_eq g) _ _ _ _ _) ?_
  refine good_step d L g.val 21 _ f8 _ _ (k1_off92_eq g) _ _ (piece_val d L g.val 21 g.isLt (by decide) f0 f1 f2 f5 f6 f7 hf2 _ (k1_off70_eq g) _ _ (k1_off92_eq g) _ _ _ _ _) ?_
  refine good_step d L g.val 20 _ f8 _ _ (k1_off91_eq g) _ _ (piece_val d L g.val 20 g.isLt (by decide) f0 f1 f2 f5 f6 f7 hf2 _ (k1_off70_eq g) _ _ (k1_off91_eq g) _ _ _ _ _) ?_
  refine good_step d L g.val 19 _ f8 _ _ (k1_off90_eq g) _ _ (piece_val d L g.val 19 g.isLt (by decide) f0 f1 f2 f5 f6 f7 hf2 _ (k1_off70_eq g) _ _ (k1_off90_eq g) _ _ _ _ _) ?_
  refine good_step d L g.val 18 _ f8 _ _ (k1_off89_eq g) _ _ (piece_val d L g.val 18 g.isLt (by decide) f0 f1 f2 f5 f6 f7 hf2 _ (k1_off70_eq g) _ _ (k1_off89_eq g) _ _ _ _ _) ?_
  refine good_step d L g.val 17 _ f8 _ _ (k1_off88_eq g) _ _ (piece_val d L g.val 17 g.isLt (by decide) f0 f1 f2 f5 f6 f7 hf2 _ (k1_off70_eq g) _ _ (k1_off88_eq g) _ _ _ _ _) ?_
  refine good_step d L g.val 16 _ f8 _ _ (k1_off87_eq g) _ _ (piece_val d L g.val 16 g.isLt (by decide) f0 f1 f2 f5 f6 f7 hf2 _ (k1_off70_eq g) _ _ (k1_off87_eq g) _ _ _ _ _) ?_
  refine good_step d L g.val 15 _ f8 _ _ (k1_off86_eq g) _ _ (piece_val d L g.val 15 g.isLt (by decide) f0 f1 f2 f5 f6 f7 hf2 _ (k1_off70_eq g) _ _ (k1_off86_eq g) _ _ _ _ _) ?_
  refine good_step d L g.val 14 _ f8 _ _ (k1_off85_eq g) _ _ (piece_val d L g.val 14 g.isLt (by decide) f0 f1 f2 f5 f6 f7 hf2 _ (k1_off70_eq g) _ _ (k1_off85_eq g) _ _ _ _ _) ?_
  refine good_step d L g.val 13 _ f8 _ _ (k1_off84_eq g) _ _ (piece_val d L g.val 13 g.isLt (by decide) f0 f1 f2 f5 f6 f7 hf2 _ (k1_off70_eq g) _ _ (k1_off84_eq g) _ _ _ _ _) ?_
  refine good_step d L g.val 12 _ f8 _ _ (k1_off83_eq g) _ _ (piece_val d L g.val 12 g.isLt (by decide) f0 f1 f2 f5 f6 f7 hf2 _ (k1_off70_eq g) _ _ (k1_off83_eq g) _ _ _ _ _) ?_
  refine good_step d L g.val 11 _ f8 _ _ (k1_off82_eq g) _ _ (piece_val d L g.val 11 g.isLt (by decide) f0 f1 f2 f5 f6 f7 hf2 _ (k1_off70_eq g) _ _ (k1_off82_eq g) _ _ _ _ _) ?_
  refine good_step d L g.val 10 _ f8 _ _ (k1_off81_eq g) _ _ (piece_val d L g.val 10 g.isLt (by decide) f0 f1 f2 f5 f6 f7 hf2 _ (k1_off70_eq g) _ _ (k1_off81_eq g) _ _ _ _ _) ?_
  refine good_step d L g.val 9 _ f8 _ _ (k1_off80_eq g) _ _ (piece_val d L g.val 9 g.isLt (by decide) f0 f1 f2 f5 f6 f7 hf2 _ (k1_off70_eq g) _ _ (k1_off80_eq g) _ _ _ _ _) ?_
  refine good_step d L g.val 8 _ f8 _ _ (k1_off79_eq g) _ _ (piece_val d L g.val 8 g.isLt (by decide) f0 f1 f2 f5 f6 f7 hf2 _ (k1_off70_eq g) _ _ (k1_off79_eq g) _ _ _ _ _) ?_
  refine good_step d L g.val 7 _ f8 _ _ (k1_off78_eq g) _ _ (piece_val d L g.val 7 g.isLt (by decide) f0 f1 f2 f5 f6 f7 hf2 _ (k1_off70_eq g) _ _ (k1_off78_eq g) _ _ _ _ _) ?_
  refine good_step d L g.val 6 _ f8 _ _ (k1_off77_eq g) _ _ (piece_val d L g.val 6 g.isLt (by decide) f0 f1 f2 f5 f6 f7 hf2 _ (k1_off70_eq g) _ _ (k1_off77_eq g) _ _ _ _ _) ?_
  refine good_step d L g.val 5 _ f8 _ _ (k1_off76_eq g) _ _ (piece_val d L g.val 5 g.isLt (by decide) f0 f1 f2 f5 f6 f7 hf2 _ (k1_off70_eq g) _ _ (k1_off76_eq g) _ _ _ _ _) ?_
  refine good_step d L g.val 4 _ f8 _ _ (k1_off75_eq g) _ _ (piece_val d L g.val 4 g.isLt (by decide) f0 f1 f2 f5 f6 f7 hf2 _ (k1_off70_eq g) _ _ (k1_off75_eq g) _ _ _ _ _) ?_
  refine good_step d L g.val 3 _ f8 _ _ (k1_off74_eq g) _ _ (piece_val d L g.val 3 g.isLt (by decide) f0 f1 f2 f5 f6 f7 hf2 _ (k1_off70_eq g) _ _ (k1_off74_eq g) _ _ _ _ _) ?_
  refine good_step d L g.val 2 _ f8 _ _ (k1_off73_eq g) _ _ (piece_val d L g.val 2 g.isLt (by decide) f0 f1 f2 f5 f6 f7 hf2 _ (k1_off70_eq g) _ _ (k1_off73_eq g) _ _ _ _ _) ?_
  refine good_step d L g.val 1 _ f8 _ _ (k1_off72_eq g) _ _ (piece_val d L g.val 1 g.isLt (by decide) f0 f1 f2 f5 f6 f7 hf2 _ (k1_off70_eq g) _ _ (k1_off72_eq g) _ _ _ _ _) ?_
  refine good_step d L g.val 0 _ f8 _ _ (k1_off71_eq g) _ _ (piece_val d L g.val 0 g.isLt (by decide) f0 f1 f2 f5 f6 f7 hf2 _ (k1_off70_eq g) _ _ (k1_off71_eq g) _ _ _ _ _) ?_
  exact good_base d L g.val _ f8

end Cert.Kernel.Hand
end
-- ==== Proof.KB.TileO.lean ====
/-
  The output side of a worker.

  Worker w owns columns [512 w, 512 w + 512) of the 64 x 16384 result.  It fills them in two passes: pass p copies its
  64 x 256 staging block onto columns [512 w + 256 p, 512 w + 256 p + 256).  Here: the worker's columns are the two
  passes' column windows; what a copy of the staging block leaves in a window (the block, column by column); and
  that two windows holding the score make the worker's columns holding the score.
-/
import proofs.«202666_g58660663329007_cont_9to1_m_1270_26_alg».proof.Proof.KB.TileA
import proofs.«202666_g58660663329007_cont_9to1_m_1270_26_alg».proof.Proof.KB.Common
import proofs.«202666_g58660663329007_cont_9to1_m_1270_26_alg».proof.Proof.Spec
import Idealize.ShloMosaic.Lib.Writes
import Idealize.ShloMosaic.Lib.ValueIdx

noncomputable section

namespace Cert.Kernel.Hand

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.Spec

variable {F : FTy → Type}

local notation "𝕄" => MT nD τ sig (HIx 1) (Elt F) ℕ UU ℕ

/-- Pass `p`'s window of the result, as the worker's program slices it: all 64 rows, 256 columns from the pass's
    offset. -/
abbrev oS (L : grid1.Coords) (p : Fin 2) : Memref sig .scVector .hbm S64x256 .f32 :=
  (Memref.whole main_v3_scv).slice (Rect.unit (s := S64x16384) (k1_off68 L (BitVec.ofNat 32 (256 * p.val))) S64x256.size (k1_off68_inb L p)) (fun _ => rfl)

/-- The program spells the two windows with the offset words 0 and 256. -/
theorem oS_zero (L : grid1.Coords) :
    oS L 0 = (Memref.whole main_v3_scv).slice (Rect.unit (s := S64x16384) (k1_off68 L 0#32) S64x256.size (k1_off68_inb L 0)) (fun _ => rfl) := rfl
theorem oS_one (L : grid1.Coords) :
    oS L 1 = (Memref.whole main_v3_scv).slice (Rect.unit (s := S64x16384) (k1_off68 L 256#32) S64x256.size (k1_off68_inb L 1)) (fun _ => rfl) := rfl

/-- The worker's number is twice its subcore's plus its SparseCore's. -/
theorem widL_val (L : grid1.Coords) : (widL L).val = 2 * (L 1).val + (L 0).val := rfl

/-- An entry of the result is in pass `p`'s window iff its column is among the window's 256. -/
theorem mem_oS (L : grid1.Coords) (p : Fin 2) (i : S64x16384.Idx) :
    i ∈ (oS L p).view.set
      ↔ 512 * (widL L).val + 256 * p.val ≤ (i 1).val ∧ (i 1).val < 512 * (widL L).val + 256 * p.val + 256 := by
  show i ∈ ((View.whole main_v3_scv).slice (Rect.unit (s := S64x16384) (k1_off68 L (BitVec.ofNat 32 (256 * p.val))) S64x256.size (k1_off68_inb L p))).set ↔ _
  rw [View.set_slice_whole, Rect.mem_set_unit, k1_off68_eq, widL_val]
  have h0 : (i 0).val < 64 := (i 0).isLt
  constructor
  · intro h
    have h1 := h 1
    change 1024 * (L 1).val + 512 * (L 0).val + 256 * p.val ≤ (i 1).val ∧ (i 1).val < 1024 * (L 1).val + 512 * (L 0).val + 256 * p.val + 256 at h1
    omega
  · intro h a
    match a with
    | ⟨0, _⟩ =>
      change 0 ≤ (i 0).val ∧ (i 0).val < 0 + 64
      omega
    | ⟨1, _⟩ =>
      change 1024 * (L 1).val + 512 * (L 0).val + 256 * p.val ≤ (i 1).val ∧ (i 1).val < 1024 * (L 1).val + 512 * (L 0).val + 256 * p.val + 256
      omega

/-- The two passes' windows are disjoint, -/
theorem oS_disjoint (L : grid1.Coords) :
    ∀ p ∈ (Finset.univ : Finset (Fin 2)), ∀ p' ∈ (Finset.univ : Finset (Fin 2)), p ≠ p' → Disjoint (oS L p).view.set (oS L p').view.set := by
  intro p _ p' _ hne
  refine Finset.disjoint_left.mpr fun i hi hi' => ?_
  rw [mem_oS] at hi hi'
  have : p.val ≠ p'.val := fun e => hne (Fin.ext e)
  have := p.isLt; have := p'.isLt
  omega

/-- and together they are the worker's columns. -/
theorem oS_cover (L : grid1.Coords) : (Finset.univ : Finset (Fin 2)).biUnion (fun p => (oS L p).view.set) = colSet (widL L) := by
  ext i
  rw [Finset.mem_biUnion]
  unfold colSet
  rw [Finset.mem_filter]
  constructor
  · rintro ⟨p, -, hp⟩
    rw [mem_oS] at hp
    have := p.isLt
    exact ⟨Finset.mem_univ _, by omega, by omega⟩
  · rintro ⟨-, h1, h2⟩
    by_cases h : (i 1).val < 512 * (widL L).val + 256
    · exact ⟨0, Finset.mem_univ _, (mem_oS L 0 i).mpr ⟨by show 512 * (widL L).val + 256 * 0 ≤ _; omega, by show _ < 512 * (widL L).val + 256 * 0 + 256; omega⟩⟩
    · exact ⟨1, Finset.mem_univ _, (mem_oS L 1 i).mpr ⟨by show 512 * (widL L).val + 256 * 1 ≤ _; omega, by show _ < 512 * (widL L).val + 256 * 1 + 256; omega⟩⟩

variable (d : Dev nD) (L : grid1.Coords)

/-- The worker's columns of the result, held at one valuation, are the two windows held at it: as the worker's
    memrefs address them. -/
theorem out_split (o : Buf (Elt F) (oLoc d)) :
    (oLoc d ↦[colSet (widL L)]{fullShare} o : sProp 𝕄)
      = iprop(((oS L 0).view.loc (thrL d L) ↦[(oS L 0).view.set]{fullShare} o) ∗ ((oS L 1).view.loc (thrL d L) ↦[(oS L 1).view.set]{fullShare} o)) := by
  rw [← oS_cover L, pointsTo_biUnion Finset.univ (ℓ := oLoc d) (fun p => (oS L p).view.set) (oS_disjoint L), bigSep_univ_two]

/-- What a copy of a whole 64 x 256 block `Y` onto pass `p`'s window leaves of the result. -/
abbrev copied (p : Fin 2) (o : Buf (Elt F) (oLoc d)) (Y : S64x256.Idx → Elt F .f32) : Buf (Elt F) (oLoc d) :=
  (oS L p).view.writes (Elt F) o [⟨Rect.whole S64x256, Y⟩]

/-- It holds the block, entry by entry: entry `x` of the block at the window's entry `x`. -/
theorem copied_emb (p : Fin 2) (o : Buf (Elt F) (oLoc d)) (Y : S64x256.Idx → Elt F .f32) (x : S64x256.Idx) :
    copied d L p o Y ((oS L p).view.emb x) = Y x := by
  have h := View.read_writes_cons_emb (oS L p).view o (Rect.whole S64x256) Y [] x
  rw [Rect.emb_whole_apply] at h
  exact h

/-- The window's entry `x` is row `x 0`, column 512 w + 256 p + `x 1` of the result. -/
theorem oS_emb (p : Fin 2) (x : S64x256.Idx) :
    (oS L p).view.emb x = (ix2 (x 0) (ixMod 16384 (512 * (widL L).val + 256 * p.val + (x 1).val)) : S64x16384.Idx) := by
  have h0 : (x 0).val < 64 := (x 0).isLt
  have h1 : (x 1).val < 256 := (x 1).isLt
  have hw : (widL L).val < 32 := (widL L).isLt
  have hp := p.isLt
  have hoff := k1_off68_eq L p
  funext a
  refine Fin.ext ?_
  match a with
  | ⟨0, _⟩ =>
    show (k1_off68 L (BitVec.ofNat 32 (256 * p.val))) 0 + 1 * (x 0).val = (x 0).val
    rw [hoff]; show 0 + 1 * (x 0).val = (x 0).val; omega
  | ⟨1, _⟩ =>
    show (k1_off68 L (BitVec.ofNat 32 (256 * p.val))) 1 + 1 * (x 1).val = (512 * (widL L).val + 256 * p.val + (x 1).val) % 16384
    rw [hoff, widL_val]
    show 1024 * (L 1).val + 512 * (L 0).val + 256 * p.val + 1 * (x 1).val = (512 * (2 * (L 1).val + (L 0).val) + 256 * p.val + (x 1).val) % 16384
    rw [widL_val] at hw
    omega

variable [FloatOps F]
variable (X : Buf (Elt F) (x2Loc d)) (R2 : Buf (Elt F) (r2Loc d))
  (h : Buf (Elt F) (hLoc d)) (t : Buf (Elt F) (tLoc d)) (r : Buf (Elt F) (rLoc d))

/-- If the block is the score's columns [512 w + 256 p, 512 w + 256 p + 256), the copy leaves the window at the
    score. -/
theorem copy_val (p : Fin 2) (o : Buf (Elt F) (oLoc d)) (Y : S64x256.Idx → Elt F .f32)
    (hY : ∀ y : S64x256.Idx, Y y = scoreOf d X R2 h t r (ix2 (y 0) (ixMod 16384 (512 * (widL L).val + 256 * p.val + (y 1).val)))) :
    ∀ i ∈ (oS L p).view.set, copied d L p o Y i = scoreOf d X R2 h t r i := by
  intro i hi
  obtain ⟨x, -, rfl⟩ := Finset.mem_map.mp hi
  show copied d L p o Y ((oS L p).view.emb x) = scoreOf d X R2 h t r ((oS L p).view.emb x)
  rw [copied_emb, hY x, oS_emb]

/-- Two windows holding the score on their entries are the worker's columns holding the score. -/
theorem out_join (c0 c1 : Buf (Elt F) (oLoc d))
    (h0 : ∀ i ∈ (oS L 0).view.set, c0 i = scoreOf d X R2 h t r i) (h1 : ∀ i ∈ (oS L 1).view.set, c1 i = scoreOf d X R2 h t r i) :
    (iprop(((oS L 0).view.loc (thrL d L) ↦[(oS L 0).view.set]{fullShare} c0) ∗ ((oS L 1).view.loc (thrL d L) ↦[(oS L 1).view.set]{fullShare} c1)) : sProp 𝕄)
      = (oLoc d ↦[colSet (widL L)]{fullShare} scoreOf d X R2 h t r) := by
  have e0 : ((oS L 0).view.loc (thrL d L) ↦[(oS L 0).view.set]{fullShare} c0 : sProp 𝕄)
      = ((oS L 0).view.loc (thrL d L) ↦[(oS L 0).view.set]{fullShare} scoreOf d X R2 h t r) := pointsTo_congr h0
  have e1 : ((oS L 1).view.loc (thrL d L) ↦[(oS L 1).view.set]{fullShare} c1 : sProp 𝕄)
      = ((oS L 1).view.loc (thrL d L) ↦[(oS L 1).view.set]{fullShare} scoreOf d X R2 h t r) := pointsTo_congr h1
  rw [e0, e1]
  exact (out_split d L (scoreOf d X R2 h t r)).symm

end Cert.Kernel.Hand

end
-- ==== Proof.KB.TileP2.lean ====
/-
  The second pass of a worker, after the first pass's columns are copied out.

  The staging block, holding the score's columns [512 w, 512 w + 256), is copied onto those columns of the result, which
  from then on hold the score there.  Then the pass is repeated on the second window, entries [512 w + 256, 512 w + 512)
  of the index lists: copies in, packed row numbers, the two gathers, the scoring loop.  At the end the staging block
  holds the score's columns [512 w + 256, 512 w + 512); the small table's copy is the one the first pass made.
-/
import proofs.«202666_g58660663329007_cont_9to1_m_1270_26_alg».proof.Proof.KB.TileA
import Idealize.ShloMosaic.Lib.Tactic
import Idealize.ShloMosaic.Lib.Writes
import Idealize.ShloMosaic.Lib.Pipeline.Value
import proofs.«202666_g58660663329007_cont_9to1_m_1270_26_alg».proof.Proof.KB.TileW
import proofs.«202666_g58660663329007_cont_9to1_m_1270_26_alg».proof.Proof.KB.TileG
import proofs.«202666_g58660663329007_cont_9to1_m_1270_26_alg».proof.Proof.KB.TileC
import proofs.«202666_g58660663329007_cont_9to1_m_1270_26_alg».proof.Proof.Gen.Kernel.Skeleton
import proofs.«202666_g58660663329007_cont_9to1_m_1270_26_alg».proof.Proof.KB.TileT3
import proofs.«202666_g58660663329007_cont_9to1_m_1270_26_alg».proof.Proof.KB.TileT4
import proofs.«202666_g58660663329007_cont_9to1_m_1270_26_alg».proof.Proof.KB.TileO
import proofs.«202666_g58660663329007_cont_9to1_m_1270_26_alg».proof.Proof.KB.TileP0

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Spec

variable {F : FTy → Type} [FloatOps F]

local notation "𝕄" => MT nD τ sig (HIx 1) (Elt F) ℕ UU ℕ

open Idealize.ShloMosaic.Tactic

set_option maxHeartbeats 4000000 in
theorem pass2 (d : Dev nD) (L : grid1.Coords)
    (X : Buf (Elt F) (x2Loc d)) (R2 : Buf (Elt F) (r2Loc d)) (h : Buf (Elt F) (hLoc d)) (t : Buf (Elt F) (tLoc d)) (r : Buf (Elt F) (rLoc d))
    (hh : ∀ j, (h j).toNat < 1000000) (ht : ∀ j, (t j).toNat < 1000000) (hr : ∀ j, (r j).toNat < 100)
    (O : CellTallies nD τ sig (HIx 1)) (W : Waits sig (HIx 1)) (o : Buf (Elt F) (oLoc d)) (v2 : BitVec 32)
    (b0 : Buf (Elt F) ((Memref.whole cc1_scratch0).view.loc (thrL d L))) (b1 : Buf (Elt F) ((Memref.whole cc1_scratch1).view.loc (thrL d L))) (b2 : Buf (Elt F) ((Memref.whole cc1_scratch2).view.loc (thrL d L))) (b3 : Buf (Elt F) ((Memref.whole cc1_scratch3).view.loc (thrL d L))) (b4 : Buf (Elt F) ((Memref.whole cc1_scratch4).view.loc (thrL d L))) (b5 : Buf (Elt F) ((Memref.whole cc1_scratch5).view.loc (thrL d L))) (b6 : Buf (Elt F) ((Memref.whole cc1_scratch6).view.loc (thrL d L))) (F7 : Buf (Elt F) ((Memref.whole cc1_scratch7).view.loc (thrL d L))) (f8a : Buf (Elt F) ((Memref.whole cc1_scratch8).view.loc (thrL d L)))
    (hA7 : ∀ j, F7 j = R2 j) (hfa : ∀ y : S64x256.Idx, f8a y = scoreOf d X R2 h t r (ValueIdx.ix2 (y 0) (ixMod 16384 (512 * (widL L).val + 256 * (0 : Fin 2).val + (y 1).val)))) :
    (iprop(Transfers.MayWaits (thrL d L) (none : HIx 1) O ∗ ((Memref.whole main_v1_scv).view.loc (thrL d L) ↦{tok (widL L)} X) ∗ ((Memref.whole main_v2_scv).view.loc (thrL d L) ↦{tok (widL L)} R2)
        ∗ ((Memref.whole main_arg2_scv).view.loc (thrL d L) ↦{tok (widL L)} h) ∗ ((Memref.whole main_arg3_scv).view.loc (thrL d L) ↦{tok (widL L)} t)
        ∗ ((Memref.whole main_arg4_scv).view.loc (thrL d L) ↦{tok (widL L)} r)
        ∗ ((Memref.whole cc1_scratch0).view.loc (thrL d L) ↦{fullShare} b0) ∗ ((Memref.whole cc1_scratch1).view.loc (thrL d L) ↦{fullShare} b1) ∗ ((Memref.whole cc1_scratch2).view.loc (thrL d L) ↦{fullShare} b2) ∗ ((Memref.whole cc1_scratch3).view.loc (thrL d L) ↦{fullShare} b3) ∗ ((Memref.whole cc1_scratch4).view.loc (thrL d L) ↦{fullShare} b4) ∗ ((Memref.whole cc1_scratch5).view.loc (thrL d L) ↦{fullShare} b5) ∗ ((Memref.whole cc1_scratch6).view.loc (thrL d L) ↦{fullShare} b6) ∗ ((Memref.whole cc1_scratch7).view.loc (thrL d L) ↦{fullShare} F7) ∗ ((Memref.whole cc1_scratch8).view.loc (thrL d L) ↦{fullShare} f8a)
        ∗ (((Memref.whole main_v3_scv).slice (Rect.unit (s := S64x16384) (k1_off68 L 0#32) S64x256.size (k1_off68_inb L 0)) (fun _ => rfl)).view.loc (thrL d L) ↦[((Memref.whole main_v3_scv).slice (Rect.unit (s := S64x16384) (k1_off68 L 0#32) S64x256.size (k1_off68_inb L 0)) (fun _ => rfl)).view.set]{fullShare} o)
        ∗ semVal (cellV d L cc1_scratch9) 0 ∗ semVal (cellV d L cc1_scratch10) 0 ∗ semVal (cellV d L cc1_scoped4) 0 ∗ semVal (cellV d L cc1_scoped5) 0 ∗ semVal (cellV d L cc1_scoped6) 0 ∗ semVal (cellV d L cc1_scoped7) 0
        ∗ owes (thrL d L) O W) : sProp 𝕄)
      ⊢ wp frame (wpE (defs₀ (F := F)) 𝒱₀ (thrL d L) none) Set.univ
          (k1_part54 L (Memref.whole main_v1_scv) (Memref.isWhole_whole _) (Memref.whole main_v2_scv) (Memref.isWhole_whole _)
            (Memref.whole main_arg2_scv) (Memref.isWhole_whole _) (Memref.whole main_arg3_scv) (Memref.isWhole_whole _)
            (Memref.whole main_arg4_scv) (Memref.isWhole_whole _) (Memref.whole main_v3_scv) (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _) (Memref.whole cc1_scratch5) (Memref.isWhole_whole _)
            (Memref.whole cc1_scratch6) (Memref.isWhole_whole _) (Memref.whole cc1_scratch7) (Memref.isWhole_whole _)
            (Memref.whole cc1_scratch8) (Memref.isWhole_whole _) cc1_scratch9 cc1_scratch10
            cc1_scoped0 cc1_scoped1 cc1_scoped2 cc1_scoped3 cc1_scoped4 cc1_scoped5 cc1_scoped6 cc1_scoped7 cc1_scoped8 v2 (iota .scVector S16 32 [0] iota_S16_d0_w32_scVector))
          fun _ => iprop(((Memref.whole main_v1_scv).view.loc (thrL d L) ↦{tok (widL L)} X) ∗ ((Memref.whole main_v2_scv).view.loc (thrL d L) ↦{tok (widL L)} R2)
        ∗ ((Memref.whole main_arg2_scv).view.loc (thrL d L) ↦{tok (widL L)} h) ∗ ((Memref.whole main_arg3_scv).view.loc (thrL d L) ↦{tok (widL L)} t)
        ∗ ((Memref.whole main_arg4_scv).view.loc (thrL d L) ↦{tok (widL L)} r)
            ∗ (∃ f, ((Memref.whole cc1_scratch0).view.loc (thrL d L) ↦{fullShare} f)) ∗ (∃ f, ((Memref.whole cc1_scratch1).view.loc (thrL d L) ↦{fullShare} f)) ∗ (∃ f, ((Memref.whole cc1_scratch2).view.loc (thrL d L) ↦{fullShare} f)) ∗ (∃ f, ((Memref.whole cc1_scratch3).view.loc (thrL d L) ↦{fullShare} f)) ∗ (∃ f, ((Memref.whole cc1_scratch4).view.loc (thrL d L) ↦{fullShare} f)) ∗ (∃ f, ((Memref.whole cc1_scratch5).view.loc (thrL d L) ↦{fullShare} f)) ∗ (∃ f, ((Memref.whole cc1_scratch6).view.loc (thrL d L) ↦{fullShare} f))
            ∗ ((Memref.whole cc1_scratch7).view.loc (thrL d L) ↦{fullShare} F7)
            ∗ (∃ f8, ((Memref.whole cc1_scratch8).view.loc (thrL d L) ↦{fullShare} f8) ∗ ⌜∀ y : S64x256.Idx, f8 y = scoreOf d X R2 h t r (ValueIdx.ix2 (y 0) (ixMod 16384 (512 * (widL L).val + 256 * (1 : Fin 2).val + (y 1).val)))⌝)
            ∗ (∃ c0, (((Memref.whole main_v3_scv).slice (Rect.unit (s := S64x16384) (k1_off68 L 0#32) S64x256.size (k1_off68_inb L 0)) (fun _ => rfl)).view.loc (thrL d L) ↦[((Memref.whole main_v3_scv).slice (Rect.unit (s := S64x16384) (k1_off68 L 0#32) S64x256.size (k1_off68_inb L 0)) (fun _ => rfl)).view.set]{fullShare} c0) ∗ ⌜∀ i ∈ (oS L 0).view.set, c0 i = scoreOf d X R2 h t r i⌝)
            ∗ semVal (cellV d L cc1_scratch9) 0 ∗ semVal (cellV d L cc1_scratch10) 0 ∗ semVal (cellV d L cc1_scoped4) 0 ∗ semVal (cellV d L cc1_scoped5) 0 ∗ semVal (cellV d L cc1_scoped6) 0 ∗ semVal (cellV d L cc1_scoped7) 0
            ∗ ∃ W', ⌜∀ p ∈ W', p ∈ W ∨ p.2 = none⌝ ∗ owes (thrL d L) O W') := by
  rw [k1_part54_eq_skeleton]; unfold k1_part54_skel
  iintro ⟨#Hmw, HX, HR2, Hh, Ht, Hr, Hb0, Hb1, Hb2, Hb3, Hb4, Hb5, Hb6, Hb7, Hb8, Ho, Hs9, Hs10, Hc4, Hc5, Hc6, Hc7, HO⟩
  sl_exec
  have hA0 : ∀ k : Fin 256, (View.write (Elt F) (Memref.whole cc1_scratch0).view b0 (pass2.sl.dma0_1 d L h) Finset.univ) (ValueIdx.ix1 k) = h (ValueIdx.ix1 (ixMod 16384 (512 * (widL L).val + 256 * (1 : Fin 2).val + k.val))) :=
    fun k => win_val_0 d L 1 h b0 k
  have hA1 : ∀ k : Fin 256, (View.write (Elt F) (Memref.whole cc1_scratch1).view b1 (pass2.sl.dma0_2 d L t) Finset.univ) (ValueIdx.ix1 k) = t (ValueIdx.ix1 (ixMod 16384 (512 * (widL L).val + 256 * (1 : Fin 2).val + k.val))) :=
    fun k => win_val_1 d L 1 t b1 k
  have hA2 : ∀ k : Fin 256, (View.write (Elt F) (Memref.whole cc1_scratch2).view b2 (pass2.sl.dma0_3 d L r) Finset.univ) (ValueIdx.ix1 k) = r (ValueIdx.ix1 (ixMod 16384 (512 * (widL L).val + 256 * (1 : Fin 2).val + k.val))) :=
    fun k => win_val_2 d L 1 r b2 k
  generalize hF0 : (View.write (Elt F) (Memref.whole cc1_scratch0).view b0 (pass2.sl.dma0_1 d L h) Finset.univ) = F0 at hA0 ⊢
  generalize hF1 : (View.write (Elt F) (Memref.whole cc1_scratch1).view b1 (pass2.sl.dma0_2 d L t) Finset.univ) = F1 at hA1 ⊢
  generalize hF2 : (View.write (Elt F) (Memref.whole cc1_scratch2).view b2 (pass2.sl.dma0_3 d L r) Finset.univ) = F2 at hA2 ⊢
  have hB0 : ∀ j : S256.Idx, (F0 j).toNat < 1000000 := fun j =>
    ((congrArg BitVec.toNat ((congrArg F0 (ValueIdx.eq_ix1 j)).trans (hA0 (j 0)))).trans_lt (hh _))
  have hB1 : ∀ j : S256.Idx, (F1 j).toNat < 1000000 := fun j =>
    ((congrArg BitVec.toNat ((congrArg F1 (ValueIdx.eq_ix1 j)).trans (hA1 (j 0)))).trans_lt (ht _))
  have hB2 : ∀ j : S256.Idx, (F2 j).toNat < 100 := fun j =>
    ((congrArg BitVec.toNat ((congrArg F2 (ValueIdx.eq_ix1 j)).trans (hA2 (j 0)))).trans_lt (hr _))
  sl_for (inv1 d L F0 F1) $$ [Hb0 Hb1 Hb3 Hb4]
  case region =>
    intro k _
    unfold inv1
    iintro ⟨H0, H1, %f3, %f4, H3, H4, %hP⟩
    iapply (trip3 d L v2 (iota .scVector S16 32 [0] iota_S16_d0_w32_scVector) k F0 F1 f3 f4 hP)
    isplitl [H0]; · iexact H0
    isplitl [H1]; · iexact H1
    isplitl [H3]; · iexact H3
    iexact H4
  · unfold inv1
    isplitl [Hb0]; · iexact Hb0
    isplitl [Hb1]; · iexact Hb1
    iexists _; iexists _
    isplitl [Hb3]; · iexact Hb3
    isplitl [Hb4]; · iexact Hb4
    ipureintro
    intro j hj; omega
  iintro %_ HI
  unfold inv1
  icases HI with ⟨Hb0, Hb1, %f3, %f4, Hb3, Hb4, %hP⟩
  have hP' : ∀ j : S256.Idx, (f3 j).toNat = physRow (F0 j).toNat ∧ (f4 j).toNat = physRow (F1 j).toNat :=
    fun j => hP j (by have : (j 0).val < 256 := (j 0).isLt; show (j 0).val < 16 * 16; omega)
  have hin3 : ∀ x, ((Memref.whole cc1_scratch3).view.read (Elt F) f3 x).toNat < S500000x128.size gathers_S500000x128_S256x128.axis :=
    fun x => by show (f3 x).toNat < 500000; rw [(hP' x).1]; exact physRow_lt (hB0 x)
  have hin4 : ∀ x, ((Memref.whole cc1_scratch4).view.read (Elt F) f4 x).toNat < S500000x128.size gathers_S500000x128_S256x128.axis :=
    fun x => by show (f4 x).toNat < 500000; rw [(hP' x).2]; exact physRow_lt (hB1 x)
  ihave HX2 := (pointsTo_share (PosShare.mem_left_op_right (tok (widL L)))).1 $$ HX
  icases HX2 with ⟨HXl, HXr⟩
  sl_exec
  have hG5 : ∀ (k : Fin 256) (c : Fin 128), ((Memref.whole cc1_scratch5).view.writes (Elt F) (Memref.whole cc1_scratch5).view.junk [⟨Rect.whole cc1_scratch5.ty.shape, pass2.sl.gather0 d L X f3 hin3⟩]) (ValueIdx.ix2 k c) = X (ValueIdx.ix2 (ixMod 500000 (physRow (F0 (ValueIdx.ix1 k)).toNat)) c) :=
    fun k c => gather_val_5 d L X _ F0 f3 rfl hin3 (fun j => (hP' j).1) hB0 k c
  have hG6 : ∀ (k : Fin 256) (c : Fin 128), ((Memref.whole cc1_scratch6).view.writes (Elt F) (Memref.whole cc1_scratch6).view.junk [⟨Rect.whole cc1_scratch6.ty.shape, pass2.sl.gather1 d L X f4 hin4⟩]) (ValueIdx.ix2 k c) = X (ValueIdx.ix2 (ixMod 500000 (physRow (F1 (ValueIdx.ix1 k)).toNat)) c) :=
    fun k c => gather_val_6 d L X _ F1 f4 rfl hin4 (fun j => (hP' j).2) hB1 k c
  generalize hF5 : ((Memref.whole cc1_scratch5).view.writes (Elt F) (Memref.whole cc1_scratch5).view.junk [⟨Rect.whole cc1_scratch5.ty.shape, pass2.sl.gather0 d L X f3 hin3⟩]) = F5 at hG5 ⊢
  generalize hF6 : ((Memref.whole cc1_scratch6).view.writes (Elt F) (Memref.whole cc1_scratch6).view.junk [⟨Rect.whole cc1_scratch6.ty.shape, pass2.sl.gather1 d L X f4 hin4⟩]) = F6 at hG6 ⊢
  ihave HX := (pointsTo_share (PosShare.mem_left_op_right (tok (widL L)))).2 $$ [HXl HXr]
  · isplitl [HXl]; · iexact HXl
    iexact HXr
  sl_for (inv2 d L F0 F1 F2 F5 F6 F7) $$ [Hb0 Hb1 Hb2 Hb5 Hb6 Hb7 Hb8]
  case region =>
    intro k _
    unfold inv2
    iintro ⟨H0, H1, H2, H5, H6, H7, %f8, H8, %hP8⟩
    iapply (trip4 d L v2 k F0 F1 F2 F5 F6 F7 f8 hB2 hP8)
    isplitl [H0]; · iexact H0
    isplitl [H1]; · iexact H1
    isplitl [H2]; · iexact H2
    isplitl [H5]; · iexact H5
    isplitl [H6]; · iexact H6
    isplitl [H7]; · iexact H7
    iexact H8
  · unfold inv2
    isplitl [Hb0]; · iexact Hb0
    isplitl [Hb1]; · iexact Hb1
    isplitl [Hb2]; · iexact Hb2
    isplitl [Hb5]; · iexact Hb5
    isplitl [Hb6]; · iexact Hb6
    isplitl [Hb7]; · iexact Hb7
    iexists _
    isplitl [Hb8]; · iexact Hb8
    ipureintro
    intro y hy; omega
  iintro %_ HI
  unfold inv2
  icases HI with ⟨Hb0, Hb1, Hb2, Hb5, Hb6, Hb7, %f8, Hb8, %hP8⟩
  have hS : ∀ y : S64x256.Idx, f8 y = scoreOf d X R2 h t r (ValueIdx.ix2 (y 0) (ixMod 16384 (512 * (widL L).val + 256 * (1 : Fin 2).val + (y 1).val))) := fun y =>
    (hP8 y (by have : (y 1).val < 256 := (y 1).isLt; show (y 1).val < 16 * 16; omega)).trans
      (grpT_eq_score (Cert.Kernel.Hand.f3 (F := F)) X R2 h t r (512 * (widL L).val + 256 * (1 : Fin 2).val) F0 F1 F2 F5 F6 F7 hA0 hA1 hA2 hG5 hG6 hA7 y)
  sl_exec
  sl_step
  isplitl [HX]; · iexact HX
  isplitl [HR2]; · iexact HR2
  isplitl [Hh]; · iexact Hh
  isplitl [Ht]; · iexact Ht
  isplitl [Hr]; · iexact Hr
  isplitl [Hb0]; · iexists _; iexact Hb0
  isplitl [Hb1]; · iexists _; iexact Hb1
  isplitl [Hb2]; · iexists _; iexact Hb2
  isplitl [Hb3]; · iexists _; iexact Hb3
  isplitl [Hb4]; · iexists _; iexact Hb4
  isplitl [Hb5]; · iexists _; iexact Hb5
  isplitl [Hb6]; · iexists _; iexact Hb6
  isplitl [Hb7]; · iexact Hb7
  isplitl [Hb8]
  · iexists _; isplitl [Hb8]; · iexact Hb8
    ipureintro; exact hS
  isplitl [Ho]
  · iexists _; isplitl [Ho]; · iexact Ho
    ipureintro; exact copy_val d L X R2 h t r 0 _ _ hfa
  isplitl [Hs9]; · iexact Hs9
  isplitl [Hs10]; · iexact Hs10
  isplitl [Hc4]; · iexact Hc4
  isplitl [Hc5]; · iexact Hc5
  isplitl [Hc6]; · iexact Hc6
  isplitl [Hc7]; · iexact Hc7
  iexists _; isplitr
  rotate_left
  · iexact HO
  · ipureintro
    intro q hq
    simp only [Finset.mem_insert] at hq
    rcases hq with rfl | rfl | rfl | rfl | rfl | rfl | hq
    all_goals first | exact Or.inr rfl | exact Or.inl hq

end Cert.Kernel.Hand
end
-- ==== Proof.KB.Tile.lean ====
/-
  A worker's whole task.

  The worker's 512 columns of the 64 x 16384 result are two windows of 256 columns.  The first pass leaves the first
  window's score in the staging block; the second part copies it out and leaves the second window's score in the
  block; the last copy writes it out.  Each window then agrees with the score on its columns, so the two together are
  the worker's columns at the score.  Everything else the worker was handed - its read shares, its scratch buffers at
  whatever they now hold, its semaphores back at zero - is returned, and the only waits it added are on its own
  semaphores.
-/
import proofs.«202666_g58660663329007_cont_9to1_m_1270_26_alg».proof.Proof.KB.TileA
import Idealize.ShloMosaic.Lib.Tactic
import Idealize.ShloMosaic.Lib.Writes
import Idealize.ShloMosaic.Lib.Pipeline.Value
import proofs.«202666_g58660663329007_cont_9to1_m_1270_26_alg».proof.Proof.KB.TileW
import proofs.«202666_g58660663329007_cont_9to1_m_1270_26_alg».proof.Proof.KB.TileG
import proofs.«202666_g58660663329007_cont_9to1_m_1270_26_alg».proof.Proof.KB.TileC
import proofs.«202666_g58660663329007_cont_9to1_m_1270_26_alg».proof.Proof.Gen.Kernel.Skeleton
import proofs.«202666_g58660663329007_cont_9to1_m_1270_26_alg».proof.Proof.KB.TileP1
import proofs.«202666_g58660663329007_cont_9to1_m_1270_26_alg».proof.Proof.KB.TileP2
import proofs.«202666_g58660663329007_cont_9to1_m_1270_26_alg».proof.Proof.KB.TileO
import proofs.«202666_g58660663329007_cont_9to1_m_1270_26_alg».proof.Proof.KB.TileStmt

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Spec

variable {F : FTy → Type} [FloatOps F]

local notation "𝕄" => MT nD τ sig (HIx 1) (Elt F) ℕ UU ℕ

open Idealize.ShloMosaic.Tactic

set_option maxHeartbeats 4000000 in
/-- A worker's whole task: the first pass, the copy-out of its 256 columns, the second pass, the copy-out of the other
    256 columns; the worker's 512 columns of the result end at the score. -/
theorem tile_body : TileBody (F := F) := fun d L X R2 h t r o hh ht hr hF O W hO => by
  show _ ⊢ wp frame (wpE (defs₀ (F := F)) 𝒱₀ (V d (cV L) (jV L)) none) Set.univ (cc1_sc_kernel (F := F) L (Memref.whole main_v1_scv) (Memref.isWhole_whole _) (Memref.whole main_v2_scv) (Memref.isWhole_whole _)
            (Memref.whole main_arg2_scv) (Memref.isWhole_whole _) (Memref.whole main_arg3_scv) (Memref.isWhole_whole _)
            (Memref.whole main_arg4_scv) (Memref.isWhole_whole _) (Memref.whole main_v3_scv) (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _) (Memref.whole cc1_scratch5) (Memref.isWhole_whole _)
            (Memref.whole cc1_scratch6) (Memref.isWhole_whole _) (Memref.whole cc1_scratch7) (Memref.isWhole_whole _)
            (Memref.whole cc1_scratch8) (Memref.isWhole_whole _) cc1_scratch9 cc1_scratch10
            cc1_scoped0 cc1_scoped1 cc1_scoped2 cc1_scoped3 cc1_scoped4 cc1_scoped5 cc1_scoped6 cc1_scoped7 cc1_scoped8) _
  rw [cc1_sc_kernel_eq_skeleton]; unfold cc1_sc_kernel_skel
  rw [(K (F := F)).scopedBufs_V hF d (cV L) (jV L), SparseCore.Cfg.scopedSems0_V (Val := Elt F) d (cV L) (jV L), ownBufs_V, ownSems0_V]
  unfold goPay tdPay readPay
  rw [out_split d L o]
  iintro ⟨#Hlv, -, ⟨⟨HX, HR2, Hh, Ht, Hr⟩, ⟨Ho0, Ho1⟩⟩, ⟨⟨%b0, Hb0⟩, ⟨%b1, Hb1⟩, ⟨%b2, Hb2⟩, ⟨%b3, Hb3⟩, ⟨%b4, Hb4⟩, ⟨%b5, Hb5⟩, ⟨%b6, Hb6⟩, ⟨%b7, Hb7⟩, ⟨%b8, Hb8⟩, Hbr⟩,
    ⟨Hs9, Hs10, Hc0, Hc1, Hc2, Hc3, Hc4, Hc5, Hc6, Hc7, Hc8, Hcr⟩, HO⟩
  ihave Hmw := ((K (F := F)).mayWaits_none (thr := V d (cV L) (jV L)) hO) $$ Hlv
  ihave HX := (Entails.of_eq (show (x2Loc d ↦{tok (widL L)} X : sProp 𝕄) = ((Memref.whole main_v1_scv).view.loc (thrL d L) ↦{tok (widL L)} X) from rfl)) $$ HX
  ihave HR2 := (Entails.of_eq (show (r2Loc d ↦{tok (widL L)} R2 : sProp 𝕄) = ((Memref.whole main_v2_scv).view.loc (thrL d L) ↦{tok (widL L)} R2) from rfl)) $$ HR2
  ihave Hh := (Entails.of_eq (show (hLoc d ↦{tok (widL L)} h : sProp 𝕄) = ((Memref.whole main_arg2_scv).view.loc (thrL d L) ↦{tok (widL L)} h) from rfl)) $$ Hh
  ihave Ht := (Entails.of_eq (show (tLoc d ↦{tok (widL L)} t : sProp 𝕄) = ((Memref.whole main_arg3_scv).view.loc (thrL d L) ↦{tok (widL L)} t) from rfl)) $$ Ht
  ihave Hr := (Entails.of_eq (show (rLoc d ↦{tok (widL L)} r : sProp 𝕄) = ((Memref.whole main_arg4_scv).view.loc (thrL d L) ↦{tok (widL L)} r) from rfl)) $$ Hr
  ihave Hb0 := (Entails.of_eq (show ((thrL d L).loc cc1_scratch0 ↦{fullShare} b0 : sProp 𝕄) = ((Memref.whole cc1_scratch0).view.loc (thrL d L) ↦{fullShare} b0) from rfl)) $$ Hb0
  ihave Hb1 := (Entails.of_eq (show ((thrL d L).loc cc1_scratch1 ↦{fullShare} b1 : sProp 𝕄) = ((Memref.whole cc1_scratch1).view.loc (thrL d L) ↦{fullShare} b1) from rfl)) $$ Hb1
  ihave Hb2 := (Entails.of_eq (show ((thrL d L).loc cc1_scratch2 ↦{fullShare} b2 : sProp 𝕄) = ((Memref.whole cc1_scratch2).view.loc (thrL d L) ↦{fullShare} b2) from rfl)) $$ Hb2
  ihave Hb3 := (Entails.of_eq (show ((thrL d L).loc cc1_scratch3 ↦{fullShare} b3 : sProp 𝕄) = ((Memref.whole cc1_scratch3).view.loc (thrL d L) ↦{fullShare} b3) from rfl)) $$ Hb3
  ihave Hb4 := (Entails.of_eq (show ((thrL d L).loc cc1_scratch4 ↦{fullShare} b4 : sProp 𝕄) = ((Memref.whole cc1_scratch4).view.loc (thrL d L) ↦{fullShare} b4) from rfl)) $$ Hb4
  ihave Hb5 := (Entails.of_eq (show ((thrL d L).loc cc1_scratch5 ↦{fullShare} b5 : sProp 𝕄) = ((Memref.whole cc1_scratch5).view.loc (thrL d L) ↦{fullShare} b5) from rfl)) $$ Hb5
  ihave Hb6 := (Entails.of_eq (show ((thrL d L).loc cc1_scratch6 ↦{fullShare} b6 : sProp 𝕄) = ((Memref.whole cc1_scratch6).view.loc (thrL d L) ↦{fullShare} b6) from rfl)) $$ Hb6
  ihave Hb7 := (Entails.of_eq (show ((thrL d L).loc cc1_scratch7 ↦{fullShare} b7 : sProp 𝕄) = ((Memref.whole cc1_scratch7).view.loc (thrL d L) ↦{fullShare} b7) from rfl)) $$ Hb7
  ihave Hb8 := (Entails.of_eq (show ((thrL d L).loc cc1_scratch8 ↦{fullShare} b8 : sProp 𝕄) = ((Memref.whole cc1_scratch8).view.loc (thrL d L) ↦{fullShare} b8) from rfl)) $$ Hb8
  ihave Ho0 := (Entails.of_eq (show (((oS L 0).view.loc (thrL d L) ↦[(oS L 0).view.set]{fullShare} o) : sProp 𝕄) = (((Memref.whole main_v3_scv).slice (Rect.unit (s := S64x16384) (k1_off68 L 0#32) S64x256.size (k1_off68_inb L 0)) (fun _ => rfl)).view.loc (thrL d L) ↦[((Memref.whole main_v3_scv).slice (Rect.unit (s := S64x16384) (k1_off68 L 0#32) S64x256.size (k1_off68_inb L 0)) (fun _ => rfl)).view.set]{fullShare} o) from rfl)) $$ Ho0
  ihave Ho1 := (Entails.of_eq (show (((oS L 1).view.loc (thrL d L) ↦[(oS L 1).view.set]{fullShare} o) : sProp 𝕄) = (((Memref.whole main_v3_scv).slice (Rect.unit (s := S64x16384) (k1_off68 L 256#32) S64x256.size (k1_off68_inb L 1)) (fun _ => rfl)).view.loc (thrL d L) ↦[((Memref.whole main_v3_scv).slice (Rect.unit (s := S64x16384) (k1_off68 L 256#32) S64x256.size (k1_off68_inb L 1)) (fun _ => rfl)).view.set]{fullShare} o) from rfl)) $$ Ho1
  -- the first pass
  rw [wp_bind]
  ihave Hwp := (pass1 d L X R2 h t r hh ht hr O W b0 b1 b2 b3 b4 b5 b6 b7 b8) $$ [HX HR2 Hh Ht Hr Hb0 Hb1 Hb2 Hb3 Hb4 Hb5 Hb6 Hb7 Hb8 Hs9 Hs10 Hc0 Hc1 Hc2 Hc3 HO]
  · isplitr; · iexact Hmw
    isplitl [HX]; · iexact HX
    isplitl [HR2]; · iexact HR2
    isplitl [Hh]; · iexact Hh
    isplitl [Ht]; · iexact Ht
    isplitl [Hr]; · iexact Hr
    isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hb8]; · iexact Hb8
    isplitl [Hs9]; · iexact Hs9
    isplitl [Hs10]; · iexact Hs10
    isplitl [Hc0]; · iexact Hc0
    isplitl [Hc1]; · iexact Hc1
    isplitl [Hc2]; · iexact Hc2
    isplitl [Hc3]; · iexact Hc3
    iexact HO
  iapply (wp_wand frame (wpE (defs₀ (F := F)) 𝒱₀ (V d (cV L) (jV L)) none) Set.univ) $$ Hwp
  iintro %a Hpost
  obtain ⟨v2, v3⟩ := a
  icases Hpost with ⟨%hv3, HX, HR2, Hh, Ht, Hr, ⟨%g0, Hb0⟩, ⟨%g1, Hb1⟩, ⟨%g2, Hb2⟩, ⟨%g3, Hb3⟩, ⟨%g4, Hb4⟩, ⟨%g5, Hb5⟩, ⟨%g6, Hb6⟩, ⟨%F7, Hb7, %hA7⟩, ⟨%f8a, Hb8, %hfa⟩,
    Hs9, Hs10, Hc0, Hc1, Hc2, Hc3, %W1, %hW1, HO⟩
  have hv3' : v3 = (iota .scVector S16 32 [0] iota_S16_d0_w32_scVector) := hv3
  subst hv3'
  -- the second pass, after the first 256 columns are copied out
  iapply (Entails.of_eq (wp_bind frame (wpE (defs₀ (F := F)) 𝒱₀ (V d (cV L) (jV L)) none) Set.univ (k1_part54 L (Memref.whole main_v1_scv) (Memref.isWhole_whole _) (Memref.whole main_v2_scv) (Memref.isWhole_whole _)
            (Memref.whole main_arg2_scv) (Memref.isWhole_whole _) (Memref.whole main_arg3_scv) (Memref.isWhole_whole _)
            (Memref.whole main_arg4_scv) (Memref.isWhole_whole _) (Memref.whole main_v3_scv) (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _) (Memref.whole cc1_scratch5) (Memref.isWhole_whole _)
            (Memref.whole cc1_scratch6) (Memref.isWhole_whole _) (Memref.whole cc1_scratch7) (Memref.isWhole_whole _)
            (Memref.whole cc1_scratch8) (Memref.isWhole_whole _) cc1_scratch9 cc1_scratch10
            cc1_scoped0 cc1_scoped1 cc1_scoped2 cc1_scoped3 cc1_scoped4 cc1_scoped5 cc1_scoped6 cc1_scoped7 cc1_scoped8 v2 (iota .scVector S16 32 [0] iota_S16_d0_w32_scVector)) _ _).symm)
  ihave Hwp := (pass2 d L X R2 h t r hh ht hr O W1 o v2 g0 g1 g2 g3 g4 g5 g6 F7 f8a hA7 hfa) $$ [HX HR2 Hh Ht Hr Hb0 Hb1 Hb2 Hb3 Hb4 Hb5 Hb6 Hb7 Hb8 Ho0 Hs9 Hs10 Hc4 Hc5 Hc6 Hc7 HO]
  · isplitr; · iexact Hmw
    isplitl [HX]; · iexact HX
    isplitl [HR2]; · iexact HR2
    isplitl [Hh]; · iexact Hh
    isplitl [Ht]; · iexact Ht
    isplitl [Hr]; · iexact Hr
    isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hb8]; · iexact Hb8
    isplitl [Ho0]; · iexact Ho0
    isplitl [Hs9]; · iexact Hs9
    isplitl [Hs10]; · iexact Hs10
    isplitl [Hc4]; · iexact Hc4
    isplitl [Hc5]; · iexact Hc5
    isplitl [Hc6]; · iexact Hc6
    isplitl [Hc7]; · iexact Hc7
    iexact HO
  iapply (wp_wand frame (wpE (defs₀ (F := F)) 𝒱₀ (V d (cV L) (jV L)) none) Set.univ) $$ Hwp
  iintro %_ Hpost
  icases Hpost with ⟨HX, HR2, Hh, Ht, Hr, ⟨%k0, Hb0⟩, ⟨%k1, Hb1⟩, ⟨%k2, Hb2⟩, ⟨%k3, Hb3⟩, ⟨%k4, Hb4⟩, ⟨%k5, Hb5⟩, ⟨%k6, Hb6⟩, Hb7, ⟨%f8b, Hb8, %hfb⟩, ⟨%c0, Ho0, %hc0⟩,
    Hs9, Hs10, Hc4, Hc5, Hc6, Hc7, %W2, %hW2, HO⟩
  -- the last 256 columns are copied out
  sl_exec
  sl_step
  isplitl [HX HR2 Hh Ht Hr Ho0 Ho1]
  · isplitl [HX HR2 Hh Ht Hr]
    · isplitl [HX]; · iexact HX
      isplitl [HR2]; · iexact HR2
      isplitl [Hh]; · iexact Hh
      isplitl [Ht]; · iexact Ht
      iexact Hr
    · iapply (Entails.of_eq (out_join d L X R2 h t r c0 (copied d L 1 o (tile_body.sl.dma0 d L f8b)) hc0 (copy_val d L X R2 h t r 1 o _ hfb)))
      isplitl [Ho0]; · iexact Ho0
      iexact Ho1
  isplitl [Hb0 Hb1 Hb2 Hb3 Hb4 Hb5 Hb6 Hb7 Hb8 Hbr]
  · isplitl [Hb0]; · iexists _; iexact Hb0
    isplitl [Hb1]; · iexists _; iexact Hb1
    isplitl [Hb2]; · iexists _; iexact Hb2
    isplitl [Hb3]; · iexists _; iexact Hb3
    isplitl [Hb4]; · iexists _; iexact Hb4
    isplitl [Hb5]; · iexists _; iexact Hb5
    isplitl [Hb6]; · iexists _; iexact Hb6
    isplitl [Hb7]; · iexists _; iexact Hb7
    isplitl [Hb8]; · iexists _; iexact Hb8
    iexact Hbr
  isplitl [Hs9 Hs10 Hc0 Hc1 Hc2 Hc3 Hc4 Hc5 Hc6 Hc7 Hc8 Hcr]
  · isplitl [Hs9]; · iexact Hs9
    isplitl [Hs10]; · iexact Hs10
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    iexact Hcr
  iexists _; isplitr
  rotate_left
  · iexact HO
  · ipureintro
    intro q hq
    simp only [Finset.mem_insert] at hq
    rcases hq with rfl | hq
    · exact Or.inr rfl
    · rcases hW2 q hq with hq1 | hq1
      · rcases hW1 q hq1 with hq0 | hq0
        · exact Or.inl hq0
        · exact Or.inr hq0
      · exact Or.inr hq1

end Cert.Kernel.Hand
end
-- ==== Proof.KB.Glue.lean ====
/-
  The parts put together for the kernel program: the workers' body, the packing pipeline's region and the launch give
  the program's run from any memory whose index lists are in range.
-/
import proofs.«202666_g58660663329007_cont_9to1_m_1270_26_alg».proof.Proof.KB.Run
import proofs.«202666_g58660663329007_cont_9to1_m_1270_26_alg».proof.Proof.KB.Region
import proofs.«202666_g58660663329007_cont_9to1_m_1270_26_alg».proof.Proof.KB.Tile

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Spec

variable {F : FTy → Type}

local notation "𝕄" => MT nD τ sig (HIx 1) (Elt F) ℕ UU ℕ

variable [FloatOps F]

omit [FloatOps F] in
theorem regroup {A B C D E G H : sProp 𝕄} : iprop(A ∗ B ∗ C ∗ D ∗ E ∗ G ∗ H) ⊢ iprop(A ∗ B ∗ (C ∗ D ∗ E) ∗ G ∗ H) := by
  iintro ⟨Hk, Hb, Hxt, Hx2, Ho, Hl, HG⟩
  isplitl [Hk]; · iexact Hk
  isplitl [Hb]; · iexact Hb
  isplitl [Hxt Hx2 Ho]
  · isplitl [Hxt]; · iexact Hxt
    isplitl [Hx2]; · iexact Hx2
    iexact Ho
  isplitl [Hl]; · iexact Hl
  iexact HG

/-- The region's statement in the form @main uses it. -/
theorem regionWp [∀ e, Nonempty (Elt F e)] : RegionWp (F := F) (Gd (F := F)) := by
  intro xt x2₀ d Φ
  have h := region_wp (F := F) xt x2₀ d Φ
  unfold regionPre regionPost owesTc at h
  exact regroup.trans h

/-- The kernel program's run. -/
theorem run [∀ e, Nonempty (Elt F e)] (m : (ℓ : Loc nD τ sig) → Buf (Elt F) ℓ) (ρ : Dev nD → PrngReg) (hpre : PreOK m) :
    θ_run (Cert.Kernel.defs (F := F)) (Cert.Kernel.threads (F := F)) ⟨m, fun _ => 0, ρ⟩ (QC m) :=
  run_main m ρ tile_body (Gd (F := F)) regionWp uP₀ fund_Gd hpre

end Cert.Kernel.Hand

end
-- ==== Proof.RefRun.lean ====
/-
  The reference's run, read back.  The reference looks three rows up by index — two in the 1000000-row table, one in the
  100-row table — and returns |h + r - t| entry by entry.  Each look-up is jnp.take in its default mode: a negative
  index is first shifted by the table's height, an index outside [0, height) then yields NaN for the whole row, any
  other index the table's row.  Here @main is listed as its straight line of host operations (each look-up's
  operations inline at its call), and its run is every operation applied in order to the launch contents.
-/
import proofs.«202666_g58660663329007_cont_9to1_m_1270_26_alg».proof.ReferenceIdeal
import proofs.«202666_g58660663329007_cont_9to1_m_1270_26_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order: the three look-ups (23 operations each), then the sum, the difference, the absolute value. -/
abbrev ops : List (HloOp τ sig (Elt F)) :=
  [ TRef.nullary main_call0.c (constantI S_ 32 0#32),
    TRef.unary main_call0.c main_call0.v0 (broadcastInDim S16384 ![] bcast_S_S16384),
    TRef.binary (.of main_arg2) main_call0.v0 main_call0.v1 (cmpi .slt),
    TRef.nullary main_call0.c_0 (constantI S_ 32 1000000#32),
    TRef.unary main_call0.c_0 main_call0.v2 (broadcastInDim S16384 ![] bcast_S_S16384),
    TRef.binary (.of main_arg2) main_call0.v2 main_call0.v3 addi,
    TRef.ternary main_call0.v1 main_call0.v3 (.of main_arg2) main_call0.call0.v0 select,
    TRef.unary main_call0.call0.v0 main_call0.v5 (broadcastInDim S16384x1 ![0] bcast_S16384_S16384x1_0),
    TRef.nullary main_call0.c_1 (constantI S1 32 999999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg0) main_call0.v5 main_call0.v13 (fun x i => Host.gather gather_S1000000x64_S16384x1_S16384x64_1_0_n_n_0_1_164 x i),
    TRef.unary main_call0.v12 main_call0.v14 (broadcastInDim S16384x64 ![0] bcast_S16384_S16384x64_0),
    TRef.nullary main_call0.cst (constant S_ .f32 0x7FC00000#32),
    TRef.unary main_call0.cst main_call0.v15 (broadcastInDim S16384x64 ![] bcast_S_S16384x64),
    TRef.ternary main_call0.v14 main_call0.v13 main_call0.v15 main_call0.v16 select,
    TRef.nullary main_call1.c (constantI S_ 32 0#32),
    TRef.unary main_call1.c main_call1.v0 (broadcastInDim S16384 ![] bcast_S_S16384),
    TRef.binary (.of main_arg3) main_call1.v0 main_call1.v1 (cmpi .slt),
    TRef.nullary main_call1.c_0 (constantI S_ 32 1000000#32),
    TRef.unary main_call1.c_0 main_call1.v2 (broadcastInDim S16384 ![] bcast_S_S16384),
    TRef.binary (.of main_arg3) main_call1.v2 main_call1.v3 addi,
    TRef.ternary main_call1.v1 main_call1.v3 (.of main_arg3) main_call1.call0.v0 select,
    TRef.unary main_call1.call0.v0 main_call1.v5 (broadcastInDim S16384x1 ![0] bcast_S16384_S16384x1_0),
    TRef.nullary main_call1.c_1 (constantI S1 32 999999#32),
    TRef.nullary main_call1.c_2 (constantI S_ 32 0#32),
    TRef.unary main_call1.c_2 main_call1.v6 (broadcastInDim S16384x1 ![] bcast_S_S16384x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S16384x1 ![0, 1] bcast_S1x1_S16384x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x1_S16384_d1 h_S_),
    TRef.binary (.of main_arg0) main_call1.v5 main_call1.v13 (fun x i => Host.gather gather_S1000000x64_S16384x1_S16384x64_1_0_n_n_0_1_164 x i),
    TRef.unary main_call1.v12 main_call1.v14 (broadcastInDim S16384x64 ![0] bcast_S16384_S16384x64_0),
    TRef.nullary main_call1.cst (constant S_ .f32 0x7FC00000#32),
    TRef.unary main_call1.cst main_call1.v15 (broadcastInDim S16384x64 ![] bcast_S_S16384x64),
    TRef.ternary main_call1.v14 main_call1.v13 main_call1.v15 main_call1.v16 select,
    TRef.nullary main_call2.c (constantI S_ 32 0#32),
    TRef.unary main_call2.c main_call2.v0 (broadcastInDim S16384 ![] bcast_S_S16384),
    TRef.binary (.of main_arg4) main_call2.v0 main_call2.v1 (cmpi .slt),
    TRef.nullary main_call2.c_0 (constantI S_ 32 100#32),
    TRef.unary main_call2.c_0 main_call2.v2 (broadcastInDim S16384 ![] bcast_S_S16384),
    TRef.binary (.of main_arg4) main_call2.v2 main_call2.v3 addi,
    TRef.ternary main_call2.v1 main_call2.v3 (.of main_arg4) main_call2.call0.v0 select,
    TRef.unary main_call2.call0.v0 main_call2.v5 (broadcastInDim S16384x1 ![0] bcast_S16384_S16384x1_0),
    TRef.nullary main_call2.c_1 (constantI S1 32 99#32),
    TRef.nullary main_call2.c_2 (constantI S_ 32 0#32),
    TRef.unary main_call2.c_2 main_call2.v6 (broadcastInDim S16384x1 ![] bcast_S_S16384x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S16384x1 ![0, 1] bcast_S1x1_S16384x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S16384x1_S16384_d1 h_S_),
    TRef.binary (.of main_arg1) main_call2.v5 main_call2.v13 (fun x i => Host.gather gather_S100x64_S16384x1_S16384x64_1_0_n_n_0_1_164 x i),
    TRef.unary main_call2.v12 main_call2.v14 (broadcastInDim S16384x64 ![0] bcast_S16384_S16384x64_0),
    TRef.nullary main_call2.cst (constant S_ .f32 0x7FC00000#32),
    TRef.unary main_call2.cst main_call2.v15 (broadcastInDim S16384x64 ![] bcast_S_S16384x64),
    TRef.ternary main_call2.v14 main_call2.v13 main_call2.v15 main_call2.v16 select,
    binary main_v0 main_v2 main_v3 addf,
    binary main_v3 main_v1 main_v4 subf,
    unary main_v4 main_v5 Host.absf ]

set_option maxRecDepth 8192 in
set_option maxHeartbeats 8000000 in
theorem main_eq (c : Dev nD) : main (F := F) c = seq ops := by
  rfl

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., binary_bufs_sub .., unary_bufs_sub ..⟩

/-- Every weakly fair execution of @main ends with each TensorCore buffer at the operations' fold over the launch contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.LibGatherScatterRows.lean ====
/-
  Gathering rows of an array by a list of signed row numbers, and scatter-adding rows into an array at a list of signed
  row numbers, read at an index. The list has shape [E, 1]: one 32-bit word per entry.

  * clampRow N b      — the row a gather reads for the word b: b as a signed integer, clamped into [0, N - 1];
  * landRow N b       — the row a scatter update lands in: b as a signed integer when it lies in [0, N), nothing otherwise
                        (the update is dropped);
  * gatherRows1 / gatherRows2 / gatherRowsMid — a gather of entries of an [N] array, of rows of an [N, C] array along its
                        first axis, and of rows of a [T, N, C] array along its middle axis, at an index;
  * scatterAddRows2 / scatterAddRowsMid — the accumulating scatter into an [N, C] array along its first axis and into a
                        [T, N, C] array along its middle axis, at the ideal (extended real) values: the operand's entry
                        plus the sum, over the list entries e whose word lands in that row, of the update's entry.
-/
import Idealize.ShloMosaic.PureOps.Ideal.Laws
import Idealize.ShloMosaic.Lib.Pipeline.Value
import Idealize.ShloMosaic.Lib.ValueIdx

noncomputable section

open scoped BigOperators

namespace Cert.LibGatherScatterRows

open Idealize.ShloMosaic Idealize.ShloMosaic.ValueIdx

/-- The row a gather reads for the word `b`: `b` as a signed integer clamped into `[0, N - 1]`. -/
def clampRow (N : ℕ) [NeZero N] (b : BitVec 32) : Fin N :=
  ⟨min b.toInt.toNat (N - 1), by have := NeZero.pos N; omega⟩

/-- The row a scatter update lands in: `b` as a signed integer when it lies in `[0, N)`; otherwise the update is dropped. -/
def landRow (N : ℕ) (b : BitVec 32) : Option (Fin N) :=
  if h : 0 ≤ b.toInt ∧ b.toInt < N then some ⟨b.toInt.toNat, by omega⟩ else none

/-- A word lands in row `n` exactly when, as a signed integer, it is `n`. -/
theorem landRow_eq_some_iff {N : ℕ} {b : BitVec 32} {n : Fin N} : landRow N b = some n ↔ b.toInt = (n.val : Int) := by
  unfold landRow
  split
  · rename_i h
    rw [Option.some.injEq, Fin.ext_iff]
    simp only
    omega
  · rename_i h
    constructor
    · intro h'; cases h'
    · intro h'; exfalso; apply h; have := n.isLt; omega

/-- A word that lands in a row is read, clamped, as that same row. -/
theorem clampRow_of_landRow {N : ℕ} [NeZero N] {b : BitVec 32} {n : Fin N} (h : landRow N b = some n) : clampRow N b = n := by
  have hb : b.toInt = (n.val : Int) := landRow_eq_some_iff.mp h
  refine Fin.ext ?_
  show min b.toInt.toNat (N - 1) = n.val
  have := n.isLt
  omega

/-- A word inside `[0, N)` lands in the row it is clamped to. -/
theorem landRow_of_mem {N : ℕ} [NeZero N] {b : BitVec 32} (h0 : 0 ≤ b.toInt) (h1 : b.toInt < N) : landRow N b = some (clampRow N b) := by
  rw [landRow_eq_some_iff]
  show b.toInt = ((min b.toInt.toNat (N - 1) : ℕ) : Int)
  omega

/-- Entries of an `[N]` array gathered at `[E, 1]` row numbers: entry `e` is the array at the clamped row. -/
theorem gatherRows1 {α : Type} {N E : ℕ} [NeZero N] (D : GatherDims ⟨1, ![N]⟩ ⟨2, ![E, 1]⟩ ⟨1, ![E]⟩)
    (ho : D.offsetDims = []) (hc : D.collapsedSliceDims = [0]) (hob : D.operandBatchingDims = [])
    (hm : D.startIndexMap = [0]) (hv : D.indexVectorDim = 1)
    (x : (⟨1, ![N]⟩ : Shape).Idx → α) (idx : IVec ⟨2, ![E, 1]⟩ 32) (e : Fin E) :
    Host.gather D x idx (ix1 e) = x (ix1 (clampRow N (idx (ix2 e 0)))) := by
  obtain ⟨od, cd, ob, sb, sm, iv, ss, wf⟩ := D
  simp only at ho hc hob hm hv
  subst ho hc hob hm hv
  unfold Host.gather
  refine congrArg x ?_
  funext a
  refine Fin.ext ?_
  match a with
  | ⟨0, _⟩ =>
    show (GatherDims.mk [] [0] [] sb [0] 1 ss wf : GatherDims ⟨1, ![N]⟩ ⟨2, ![E, 1]⟩ ⟨1, ![E]⟩).start (ix1 e) idx 0
      + (GatherDims.mk [] [0] [] sb [0] 1 ss wf : GatherDims ⟨1, ![N]⟩ ⟨2, ![E, 1]⟩ ⟨1, ![E]⟩).batchCoord (ix1 e) 0
      + (GatherDims.mk [] [0] [] sb [0] 1 ss wf : GatherDims ⟨1, ![N]⟩ ⟨2, ![E, 1]⟩ ⟨1, ![E]⟩).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    have hss : ss 0 = 1 := (GatherDims.mk [] [0] [] sb [0] 1 ss wf : GatherDims ⟨1, ![N]⟩ ⟨2, ![E, 1]⟩ ⟨1, ![E]⟩).slice_collapsed 0 (List.mem_singleton.mpr rfl)
    unfold GatherDims.start
    split
    · rename_i h
      have hsi : (GatherDims.mk [] [0] [] sb [0] 1 ss wf : GatherDims ⟨1, ![N]⟩ ⟨2, ![E, 1]⟩ ⟨1, ![E]⟩).siIdx (ix1 e)
          ⟨List.idxOf (0 : Fin 1) [(0 : Fin 1)], List.idxOf_lt_length_iff.2 h⟩ = ix2 e 0 := by
        funext b; refine Fin.ext ?_
        match b with
        | ⟨0, _⟩ => rfl
        | ⟨1, _⟩ => rfl
      show min (idx ((GatherDims.mk [] [0] [] sb [0] 1 ss wf : GatherDims ⟨1, ![N]⟩ ⟨2, ![E, 1]⟩ ⟨1, ![E]⟩).siIdx (ix1 e)
          ⟨List.idxOf (0 : Fin 1) [(0 : Fin 1)], List.idxOf_lt_length_iff.2 h⟩)).toInt.toNat (N - ss 0) + 0 + 0
        = min (idx (ix2 e 0)).toInt.toNat (N - 1)
      rw [hsi, hss, Nat.add_zero]
    · rename_i h; exact absurd (show (0 : Fin 1) ∈ [(0 : Fin 1)] from by decide) h

/-- Rows of an `[N, C]` array gathered along its first axis. -/
theorem gatherRows2 {α : Type} {N C E : ℕ} [NeZero N] (D : GatherDims ⟨2, ![N, C]⟩ ⟨2, ![E, 1]⟩ ⟨2, ![E, C]⟩)
    (ho : D.offsetDims = [1]) (hc : D.collapsedSliceDims = [0]) (hob : D.operandBatchingDims = [])
    (hm : D.startIndexMap = [0]) (hv : D.indexVectorDim = 1)
    (x : (⟨2, ![N, C]⟩ : Shape).Idx → α) (idx : IVec ⟨2, ![E, 1]⟩ 32) (e : Fin E) (c : Fin C) :
    Host.gather D x idx (ix2 e c) = x (ix2 (clampRow N (idx (ix2 e 0))) c) := by
  obtain ⟨od, cd, ob, sb, sm, iv, ss, wf⟩ := D
  simp only at ho hc hob hm hv
  subst ho hc hob hm hv
  unfold Host.gather
  refine congrArg x ?_
  funext a
  refine Fin.ext ?_
  match a with
  | ⟨0, _⟩ =>
    show (GatherDims.mk [1] [0] [] sb [0] 1 ss wf : GatherDims ⟨2, ![N, C]⟩ ⟨2, ![E, 1]⟩ ⟨2, ![E, C]⟩).start (ix2 e c) idx 0
      + (GatherDims.mk [1] [0] [] sb [0] 1 ss wf : GatherDims ⟨2, ![N, C]⟩ ⟨2, ![E, 1]⟩ ⟨2, ![E, C]⟩).batchCoord (ix2 e c) 0
      + (GatherDims.mk [1] [0] [] sb [0] 1 ss wf : GatherDims ⟨2, ![N, C]⟩ ⟨2, ![E, 1]⟩ ⟨2, ![E, C]⟩).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    have hss : ss 0 = 1 :=
      (GatherDims.mk [1] [0] [] sb [0] 1 ss wf : GatherDims ⟨2, ![N, C]⟩ ⟨2, ![E, 1]⟩ ⟨2, ![E, C]⟩).slice_collapsed 0
        (List.mem_singleton.mpr rfl)
    unfold GatherDims.start
    split
    · rename_i h
      have hsi : (GatherDims.mk [1] [0] [] sb [0] 1 ss wf : GatherDims ⟨2, ![N, C]⟩ ⟨2, ![E, 1]⟩ ⟨2, ![E, C]⟩).siIdx (ix2 e c)
          ⟨List.idxOf (0 : Fin 2) [(0 : Fin 2)], List.idxOf_lt_length_iff.2 h⟩ = ix2 e 0 := by
        funext b; refine Fin.ext ?_
        match b with
        | ⟨0, _⟩ => rfl
        | ⟨1, _⟩ => rfl
      show min (idx ((GatherDims.mk [1] [0] [] sb [0] 1 ss wf : GatherDims ⟨2, ![N, C]⟩ ⟨2, ![E, 1]⟩ ⟨2, ![E, C]⟩).siIdx (ix2 e c)
          ⟨List.idxOf (0 : Fin 2) [(0 : Fin 2)], List.idxOf_lt_length_iff.2 h⟩)).toInt.toNat (N - ss 0) + 0 + 0
        = min (idx (ix2 e 0)).toInt.toNat (N - 1)
      rw [hsi, hss, Nat.add_zero]
    · rename_i h; exact absurd (show (0 : Fin 2) ∈ [(0 : Fin 2)] from by decide) h
  | ⟨1, _⟩ =>
    show (GatherDims.mk [1] [0] [] sb [0] 1 ss wf : GatherDims ⟨2, ![N, C]⟩ ⟨2, ![E, 1]⟩ ⟨2, ![E, C]⟩).start (ix2 e c) idx 1
      + (GatherDims.mk [1] [0] [] sb [0] 1 ss wf : GatherDims ⟨2, ![N, C]⟩ ⟨2, ![E, 1]⟩ ⟨2, ![E, C]⟩).batchCoord (ix2 e c) 1
      + (GatherDims.mk [1] [0] [] sb [0] 1 ss wf : GatherDims ⟨2, ![N, C]⟩ ⟨2, ![E, 1]⟩ ⟨2, ![E, C]⟩).offCoord (ix2 e c) 1 = c.val
    rw [GatherDims.batchCoord_eq_zero _ _ _ List.not_mem_nil]
    have h1 : (GatherDims.mk [1] [0] [] sb [0] 1 ss wf : GatherDims ⟨2, ![N, C]⟩ ⟨2, ![E, 1]⟩ ⟨2, ![E, C]⟩).start (ix2 e c) idx 1 = 0 := by
      unfold GatherDims.start
      split
      · rename_i h; exact absurd h (show (1 : Fin 2) ∉ [(0 : Fin 2)] from by decide)
      · rfl
    have h2 : (GatherDims.mk [1] [0] [] sb [0] 1 ss wf : GatherDims ⟨2, ![N, C]⟩ ⟨2, ![E, 1]⟩ ⟨2, ![E, C]⟩).offCoord (ix2 e c) 1 = c.val := by
      unfold GatherDims.offCoord
      split
      · rfl
      · rename_i h; exact absurd (show (1 : Fin 2) ∈ (List.finRange 2).filter (· ∉ [(0 : Fin 2)] ++ []) from by decide) h
    rw [h1, h2, Nat.zero_add]

/-- Rows of a `[T, N, C]` array gathered along its middle axis. -/
theorem gatherRowsMid {α : Type} {T N C E : ℕ} [NeZero N] (D : GatherDims ⟨3, ![T, N, C]⟩ ⟨2, ![E, 1]⟩ ⟨3, ![T, E, C]⟩)
    (ho : D.offsetDims = [0, 2]) (hc : D.collapsedSliceDims = [1]) (hob : D.operandBatchingDims = [])
    (hm : D.startIndexMap = [1]) (hv : D.indexVectorDim = 1)
    (x : (⟨3, ![T, N, C]⟩ : Shape).Idx → α) (idx : IVec ⟨2, ![E, 1]⟩ 32) (t : Fin T) (e : Fin E) (c : Fin C) :
    Host.gather D x idx (ix3 t e c) = x (ix3 t (clampRow N (idx (ix2 e 0))) c) := by
  obtain ⟨od, cd, ob, sb, sm, iv, ss, wf⟩ := D
  simp only at ho hc hob hm hv
  subst ho hc hob hm hv
  unfold Host.gather
  refine congrArg x ?_
  funext a
  refine Fin.ext ?_
  match a with
  | ⟨0, _⟩ =>
    show (GatherDims.mk [0, 2] [1] [] sb [1] 1 ss wf : GatherDims ⟨3, ![T, N, C]⟩ ⟨2, ![E, 1]⟩ ⟨3, ![T, E, C]⟩).start (ix3 t e c) idx 0
      + (GatherDims.mk [0, 2] [1] [] sb [1] 1 ss wf : GatherDims ⟨3, ![T, N, C]⟩ ⟨2, ![E, 1]⟩ ⟨3, ![T, E, C]⟩).batchCoord (ix3 t e c) 0
      + (GatherDims.mk [0, 2] [1] [] sb [1] 1 ss wf : GatherDims ⟨3, ![T, N, C]⟩ ⟨2, ![E, 1]⟩ ⟨3, ![T, E, C]⟩).offCoord (ix3 t e c) 0 = t.val
    rw [GatherDims.batchCoord_eq_zero _ _ _ List.not_mem_nil]
    have h1 : (GatherDims.mk [0, 2] [1] [] sb [1] 1 ss wf : GatherDims ⟨3, ![T, N, C]⟩ ⟨2, ![E, 1]⟩ ⟨3, ![T, E, C]⟩).start (ix3 t e c) idx 0 = 0 := by
      unfold GatherDims.start
      split
      · rename_i h; exact absurd h (show (0 : Fin 3) ∉ [(1 : Fin 3)] from by decide)
      · rfl
    have h2 : (GatherDims.mk [0, 2] [1] [] sb [1] 1 ss wf : GatherDims ⟨3, ![T, N, C]⟩ ⟨2, ![E, 1]⟩ ⟨3, ![T, E, C]⟩).offCoord (ix3 t e c) 0 = t.val := by
      unfold GatherDims.offCoord
      split
      · rfl
      · rename_i h; exact absurd (show (0 : Fin 3) ∈ (List.finRange 3).filter (· ∉ [(1 : Fin 3)] ++ []) from by decide) h
    rw [h1, h2, Nat.zero_add]
  | ⟨1, _⟩ =>
    show (GatherDims.mk [0, 2] [1] [] sb [1] 1 ss wf : GatherDims ⟨3, ![T, N, C]⟩ ⟨2, ![E, 1]⟩ ⟨3, ![T, E, C]⟩).start (ix3 t e c) idx 1
      + (GatherDims.mk [0, 2] [1] [] sb [1] 1 ss wf : GatherDims ⟨3, ![T, N, C]⟩ ⟨2, ![E, 1]⟩ ⟨3, ![T, E, C]⟩).batchCoord (ix3 t e c) 1
      + (GatherDims.mk [0, 2] [1] [] sb [1] 1 ss wf : GatherDims ⟨3, ![T, N, C]⟩ ⟨2, ![E, 1]⟩ ⟨3, ![T, E, C]⟩).offCoord (ix3 t e c) 1 = _
    rw [GatherDims.batchCoord_eq_zero _ _ _ List.not_mem_nil,
      GatherDims.offCoord_eq_zero _ _ _ (fun h => ((GatherDims.mem_sKept _ _).mp h).1 (List.mem_singleton.mpr rfl))]
    have hss : ss 1 = 1 := (GatherDims.mk [0, 2] [1] [] sb [1] 1 ss wf : GatherDims ⟨3, ![T, N, C]⟩ ⟨2, ![E, 1]⟩ ⟨3, ![T, E, C]⟩).slice_collapsed 1 (List.mem_singleton.mpr rfl)
    unfold GatherDims.start
    split
    · rename_i h
      have hsi : (GatherDims.mk [0, 2] [1] [] sb [1] 1 ss wf : GatherDims ⟨3, ![T, N, C]⟩ ⟨2, ![E, 1]⟩ ⟨3, ![T, E, C]⟩).siIdx (ix3 t e c)
          ⟨List.idxOf (1 : Fin 3) [(1 : Fin 3)], List.idxOf_lt_length_iff.2 h⟩ = ix2 e 0 := by
        funext b; refine Fin.ext ?_
        match b with
        | ⟨0, _⟩ => rfl
        | ⟨1, _⟩ => rfl
      show min (idx ((GatherDims.mk [0, 2] [1] [] sb [1] 1 ss wf : GatherDims ⟨3, ![T, N, C]⟩ ⟨2, ![E, 1]⟩ ⟨3, ![T, E, C]⟩).siIdx (ix3 t e c)
          ⟨List.idxOf (1 : Fin 3) [(1 : Fin 3)], List.idxOf_lt_length_iff.2 h⟩)).toInt.toNat (N - ss 1) + 0 + 0
        = min (idx (ix2 e 0)).toInt.toNat (N - 1)
      rw [hsi, hss, Nat.add_zero]
    · rename_i h; exact absurd (show (1 : Fin 3) ∈ [(1 : Fin 3)] from by decide) h
  | ⟨2, _⟩ =>
    show (GatherDims.mk [0, 2] [1] [] sb [1] 1 ss wf : GatherDims ⟨3, ![T, N, C]⟩ ⟨2, ![E, 1]⟩ ⟨3, ![T, E, C]⟩).start (ix3 t e c) idx 2
      + (GatherDims.mk [0, 2] [1] [] sb [1] 1 ss wf : GatherDims ⟨3, ![T, N, C]⟩ ⟨2, ![E, 1]⟩ ⟨3, ![T, E, C]⟩).batchCoord (ix3 t e c) 2
      + (GatherDims.mk [0, 2] [1] [] sb [1] 1 ss wf : GatherDims ⟨3, ![T, N, C]⟩ ⟨2, ![E, 1]⟩ ⟨3, ![T, E, C]⟩).offCoord (ix3 t e c) 2 = c.val
    rw [GatherDims.batchCoord_eq_zero _ _ _ List.not_mem_nil]
    have h1 : (GatherDims.mk [0, 2] [1] [] sb [1] 1 ss wf : GatherDims ⟨3, ![T, N, C]⟩ ⟨2, ![E, 1]⟩ ⟨3, ![T, E, C]⟩).start (ix3 t e c) idx 2 = 0 := by
      unfold GatherDims.start
      split
      · rename_i h; exact absurd h (show (2 : Fin 3) ∉ [(1 : Fin 3)] from by decide)
      · rfl
    have h2 : (GatherDims.mk [0, 2] [1] [] sb [1] 1 ss wf : GatherDims ⟨3, ![T, N, C]⟩ ⟨2, ![E, 1]⟩ ⟨3, ![T, E, C]⟩).offCoord (ix3 t e c) 2 = c.val := by
      unfold GatherDims.offCoord
      split
      · rfl
      · rename_i h; exact absurd (show (2 : Fin 3) ∈ (List.finRange 3).filter (· ∉ [(1 : Fin 3)] ++ []) from by decide) h
    rw [h1, h2, Nat.zero_add]

/-- An update index lands at the operand index `i` exactly when, on every axis, the start plus the window coordinate is
    `i`'s coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    rw [Option.some.injEq]
    constructor
    · intro hf a
      have := h a
      rw [← hf]
      simp only
      omega
    · intro hh
      funext a
      refine Fin.ext ?_
      have := h a
      have := hh a
      simp only
      omega
  · rename_i h
    constructor
    · intro h'; cases h'
    · intro hh; exfalso; apply h; intro a
      have := hh a
      have := (i a).isLt
      omega

/-- Scatter along the first axis of an `[N, C]` array: the update `(e, c')` lands at `(n, c)` exactly when entry `e`'s word
    lands in row `n` and `c' = c`. -/
theorem scatter2_lands {N C E : ℕ}
    (wf : ScatterDims.WF ⟨2, ![N, C]⟩ ⟨2, ![E, 1]⟩ ⟨2, ![E, C]⟩ [1] [0] [0] 1)
    (idx : IVec ⟨2, ![E, 1]⟩ 32) (j : (⟨2, ![E, C]⟩ : Shape).Idx) (n : Fin N) (c : Fin C) :
    (ScatterDims.mk [1] [0] [0] 1 wf : ScatterDims ⟨2, ![N, C]⟩ ⟨2, ![E, 1]⟩ ⟨2, ![E, C]⟩).resultIdx? j idx = some (ix2 n c)
      ↔ landRow N (idx (ix2 (j 0) 0)) = some n ∧ j 1 = c := by
  rw [resultIdx?_eq_some_iff, landRow_eq_some_iff, Fin.forall_fin_two]
  have hs0 : (ScatterDims.mk [1] [0] [0] 1 wf : ScatterDims ⟨2, ![N, C]⟩ ⟨2, ![E, 1]⟩ ⟨2, ![E, C]⟩).start j idx 0
      = (idx (ix2 (j 0) 0)).toInt := by
    unfold ScatterDims.start
    rw [dif_pos (show (0 : Fin 2) ∈ [(0 : Fin 2)] from List.mem_singleton.mpr rfl)]
    congr 2
    funext b; refine Fin.ext ?_
    match b with
    | ⟨0, _⟩ => rfl
    | ⟨1, _⟩ => rfl
  have hs1 : (ScatterDims.mk [1] [0] [0] 1 wf : ScatterDims ⟨2, ![N, C]⟩ ⟨2, ![E, 1]⟩ ⟨2, ![E, C]⟩).start j idx 1 = 0 := by
    unfold ScatterDims.start
    split
    · rename_i h; exact absurd h (show (1 : Fin 2) ∉ [(0 : Fin 2)] from by decide)
    · rfl
  have hw0 : (ScatterDims.mk [1] [0] [0] 1 wf : ScatterDims ⟨2, ![N, C]⟩ ⟨2, ![E, 1]⟩ ⟨2, ![E, C]⟩).window j 0 = 0 := by
    unfold ScatterDims.window
    split
    · rename_i h; exact absurd h (show (0 : Fin 2) ∉ (List.finRange 2).filter (· ∉ [(0 : Fin 2)]) from by decide)
    · rfl
  have hw1 : (ScatterDims.mk [1] [0] [0] 1 wf : ScatterDims ⟨2, ![N, C]⟩ ⟨2, ![E, 1]⟩ ⟨2, ![E, C]⟩).window j 1 = (j 1).val := by
    unfold ScatterDims.window
    split
    · rfl
    · rename_i h; exact absurd (show (1 : Fin 2) ∈ (List.finRange 2).filter (· ∉ [(0 : Fin 2)]) from by decide) h
  rw [hs0, hs1, hw0, hw1]
  show (idx (ix2 (j 0) 0)).toInt + ((0 : ℕ) : Int) = (n.val : Int) ∧ (0 : Int) + ((j 1).val : Int) = (c.val : Int) ↔ _
  constructor
  · rintro ⟨h0, h1⟩
    exact ⟨by omega, Fin.ext (by omega)⟩
  · rintro ⟨h0, h1⟩
    subst h1
    exact ⟨by omega, by omega⟩

/-- The accumulating scatter into an `[N, C]` array along its first axis, at the ideal values. -/
theorem scatterAddRows2 {N C E : ℕ} (D : ScatterDims ⟨2, ![N, C]⟩ ⟨2, ![E, 1]⟩ ⟨2, ![E, C]⟩)
    (hu : D.updateWindowDims = [1]) (hi : D.insertedWindowDims = [0]) (hs : D.scatterDimsToOperandDims = [0])
    (hv : D.indexVectorDim = 1)
    (x : FVec Ideal ⟨2, ![N, C]⟩ .f32) (idx : IVec ⟨2, ![E, 1]⟩ 32) (upd : FVec Ideal ⟨2, ![E, C]⟩ .f32) (n : Fin N) (c : Fin C) :
    Host.scatterAdd (F := Ideal) D x idx upd (ix2 n c)
      = x (ix2 n c) + ∑ e : Fin E, if landRow N (idx (ix2 e 0)) = some n then upd (ix2 e c) else 0 := by
  obtain ⟨uw, iw, sd, iv, wf⟩ := D
  simp only at hu hi hs hv
  subst hu hi hs hv
  show Ideal.hostScatterAdd _ x idx upd (ix2 n c) = _
  unfold Ideal.hostScatterAdd
  refine congrArg (x (ix2 n c) + ·) ?_
  rw [Finset.sum_filter, sum_idx2]
  refine Finset.sum_congr rfl fun e _ => ?_
  by_cases h : landRow N (idx (ix2 e 0)) = some n
  · rw [if_pos h, Finset.sum_eq_single c]
    · rw [if_pos ((scatter2_lands wf idx (ix2 e c) n c).mpr ⟨h, rfl⟩)]
    · intro b _ hb
      rw [if_neg fun h' => hb ((scatter2_lands wf idx (ix2 e b) n c).mp h').2]
    · intro h'; exact absurd (Finset.mem_univ c) h'
  · rw [if_neg h]
    refine Finset.sum_eq_zero fun b _ => ?_
    rw [if_neg fun h' => h ((scatter2_lands wf idx (ix2 e b) n c).mp h').1]

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  let e : (⟨3, ![n0, n1, n2]⟩ : Shape).Idx ≃ Fin n0 × Fin n1 × Fin n2 :=
    { toFun := fun i => (i 0, i 1, i 2), invFun := fun p => ix3 p.1 p.2.1 p.2.2,
      left_inv := fun i => (eq_ix3 i).symm, right_inv := fun _ => rfl }
  rw [← Equiv.sum_comp e.symm f, Fintype.sum_prod_type]
  refine Finset.sum_congr rfl fun a _ => ?_
  rw [Fintype.sum_prod_type]
  rfl

/-- Scatter along the middle axis of a `[T, N, C]` array: the update `(t', e, c')` lands at `(t, n, c)` exactly when entry
    `e`'s word lands in row `n`, `t' = t` and `c' = c`. -/
theorem scatterMid_lands {T N C E : ℕ}
    (wf : ScatterDims.WF ⟨3, ![T, N, C]⟩ ⟨2, ![E, 1]⟩ ⟨3, ![T, E, C]⟩ [0, 2] [1] [1] 1)
    (idx : IVec ⟨2, ![E, 1]⟩ 32) (j : (⟨3, ![T, E, C]⟩ : Shape).Idx) (t : Fin T) (n : Fin N) (c : Fin C) :
    (ScatterDims.mk [0, 2] [1] [1] 1 wf : ScatterDims ⟨3, ![T, N, C]⟩ ⟨2, ![E, 1]⟩ ⟨3, ![T, E, C]⟩).resultIdx? j idx = some (ix3 t n c)
      ↔ landRow N (idx (ix2 (j 1) 0)) = some n ∧ j 0 = t ∧ j 2 = c := by
  rw [resultIdx?_eq_some_iff, landRow_eq_some_iff]
  have hs1 : (ScatterDims.mk [0, 2] [1] [1] 1 wf : ScatterDims ⟨3, ![T, N, C]⟩ ⟨2, ![E, 1]⟩ ⟨3, ![T, E, C]⟩).start j idx 1
      = (idx (ix2 (j 1) 0)).toInt := by
    unfold ScatterDims.start
    split
    · congr 2
      funext b; refine Fin.ext ?_
      match b with
      | ⟨0, _⟩ => rfl
      | ⟨1, _⟩ => rfl
    · rename_i h; exact absurd (show (1 : Fin 3) ∈ [(1 : Fin 3)] from by decide) h
  have hs0 : (ScatterDims.mk [0, 2] [1] [1] 1 wf : ScatterDims ⟨3, ![T, N, C]⟩ ⟨2, ![E, 1]⟩ ⟨3, ![T, E, C]⟩).start j idx 0 = 0 := by
    unfold ScatterDims.start
    split
    · rename_i h; exact absurd h (show (0 : Fin 3) ∉ [(1 : Fin 3)] from by decide)
    · rfl
  have hs2 : (ScatterDims.mk [0, 2] [1] [1] 1 wf : ScatterDims ⟨3, ![T, N, C]⟩ ⟨2, ![E, 1]⟩ ⟨3, ![T, E, C]⟩).start j idx 2 = 0 := by
    unfold ScatterDims.start
    split
    · rename_i h; exact absurd h (show (2 : Fin 3) ∉ [(1 : Fin 3)] from by decide)
    · rfl
  have hw0 : (ScatterDims.mk [0, 2] [1] [1] 1 wf : ScatterDims ⟨3, ![T, N, C]⟩ ⟨2, ![E, 1]⟩ ⟨3, ![T, E, C]⟩).window j 0 = (j 0).val := by
    unfold ScatterDims.window
    split
    · rfl
    · rename_i h; exact absurd (show (0 : Fin 3) ∈ (List.finRange 3).filter (· ∉ [(1 : Fin 3)]) from by decide) h
  have hw1 : (ScatterDims.mk [0, 2] [1] [1] 1 wf : ScatterDims ⟨3, ![T, N, C]⟩ ⟨2, ![E, 1]⟩ ⟨3, ![T, E, C]⟩).window j 1 = 0 := by
    unfold ScatterDims.window
    split
    · rename_i h; exact absurd h (show (1 : Fin 3) ∉ (List.finRange 3).filter (· ∉ [(1 : Fin 3)]) from by decide)
    · rfl
  have hw2 : (ScatterDims.mk [0, 2] [1] [1] 1 wf : ScatterDims ⟨3, ![T, N, C]⟩ ⟨2, ![E, 1]⟩ ⟨3, ![T, E, C]⟩).window j 2 = (j 2).val := by
    unfold ScatterDims.window
    split
    · rfl
    · rename_i h; exact absurd (show (2 : Fin 3) ∈ (List.finRange 3).filter (· ∉ [(1 : Fin 3)]) from by decide) h
  constructor
  · intro h
    have h0 := h 0
    have h1 := h 1
    have h2 := h 2
    rw [hs0, hw0] at h0
    rw [hs1, hw1] at h1
    rw [hs2, hw2] at h2
    have h0' : (0 : Int) + ((j 0).val : Int) = (t.val : Int) := h0
    have h1' : (idx (ix2 (j 1) 0)).toInt + ((0 : ℕ) : Int) = (n.val : Int) := h1
    have h2' : (0 : Int) + ((j 2).val : Int) = (c.val : Int) := h2
    exact ⟨by omega, Fin.ext (by omega), Fin.ext (by omega)⟩
  · rintro ⟨h1, h0, h2⟩ a
    subst h0 h2
    match a with
    | ⟨0, _⟩ =>
      show _ + ((ScatterDims.mk [0, 2] [1] [1] 1 wf : ScatterDims ⟨3, ![T, N, C]⟩ ⟨2, ![E, 1]⟩ ⟨3, ![T, E, C]⟩).window j 0 : Int) = ((j 0).val : Int)
      rw [hw0]
      show (ScatterDims.mk [0, 2] [1] [1] 1 wf : ScatterDims ⟨3, ![T, N, C]⟩ ⟨2, ![E, 1]⟩ ⟨3, ![T, E, C]⟩).start j idx 0 + _ = _
      rw [hs0]; omega
    | ⟨1, _⟩ =>
      show _ + ((ScatterDims.mk [0, 2] [1] [1] 1 wf : ScatterDims ⟨3, ![T, N, C]⟩ ⟨2, ![E, 1]⟩ ⟨3, ![T, E, C]⟩).window j 1 : Int) = (n.val : Int)
      rw [hw1]
      show (ScatterDims.mk [0, 2] [1] [1] 1 wf : ScatterDims ⟨3, ![T, N, C]⟩ ⟨2, ![E, 1]⟩ ⟨3, ![T, E, C]⟩).start j idx 1 + _ = _
      rw [hs1]; omega
    | ⟨2, _⟩ =>
      show _ + ((ScatterDims.mk [0, 2] [1] [1] 1 wf : ScatterDims ⟨3, ![T, N, C]⟩ ⟨2, ![E, 1]⟩ ⟨3, ![T, E, C]⟩).window j 2 : Int) = ((j 2).val : Int)
      rw [hw2]
      show (ScatterDims.mk [0, 2] [1] [1] 1 wf : ScatterDims ⟨3, ![T, N, C]⟩ ⟨2, ![E, 1]⟩ ⟨3, ![T, E, C]⟩).start j idx 2 + _ = _
      rw [hs2]; omega

/-- The accumulating scatter into a `[T, N, C]` array along its middle axis, at the ideal values. -/
theorem scatterAddRowsMid {T N C E : ℕ} (D : ScatterDims ⟨3, ![T, N, C]⟩ ⟨2, ![E, 1]⟩ ⟨3, ![T, E, C]⟩)
    (hu : D.updateWindowDims = [0, 2]) (hi : D.insertedWindowDims = [1]) (hs : D.scatterDimsToOperandDims = [1])
    (hv : D.indexVectorDim = 1)
    (x : FVec Ideal ⟨3, ![T, N, C]⟩ .f32) (idx : IVec ⟨2, ![E, 1]⟩ 32) (upd : FVec Ideal ⟨3, ![T, E, C]⟩ .f32)
    (t : Fin T) (n : Fin N) (c : Fin C) :
    Host.scatterAdd (F := Ideal) D x idx upd (ix3 t n c)
      = x (ix3 t n c) + ∑ e : Fin E, if landRow N (idx (ix2 e 0)) = some n then upd (ix3 t e c) else 0 := by
  obtain ⟨uw, iw, sd, iv, wf⟩ := D
  simp only at hu hi hs hv
  subst hu hi hs hv
  show Ideal.hostScatterAdd _ x idx upd (ix3 t n c) = _
  unfold Ideal.hostScatterAdd
  refine congrArg (x (ix3 t n c) + ·) ?_
  rw [Finset.sum_filter, sum_idx3, Finset.sum_comm]
  refine Finset.sum_congr rfl fun e _ => ?_
  by_cases h : landRow N (idx (ix2 e 0)) = some n
  · rw [if_pos h, Finset.sum_eq_single t]
    · rw [Finset.sum_eq_single c]
      · rw [if_pos ((scatterMid_lands wf idx (ix3 t e c) t n c).mpr ⟨h, rfl, rfl⟩)]
      · intro b _ hb
        rw [if_neg fun h' => hb ((scatterMid_lands wf idx (ix3 t e b) t n c).mp h').2.2]
      · intro h'; exact absurd (Finset.mem_univ c) h'
    · intro a _ ha
      refine Finset.sum_eq_zero fun b _ => ?_
      rw [if_neg fun h' => ha ((scatterMid_lands wf idx (ix3 a e b) t n c).mp h').2.1]
    · intro h'; exact absurd (Finset.mem_univ t) h'
  · rw [if_neg h]
    refine Finset.sum_eq_zero fun a _ => Finset.sum_eq_zero fun b _ => ?_
    rw [if_neg fun h' => h ((scatterMid_lands wf idx (ix3 a e b) t n c).mp h').1]

end Cert.LibGatherScatterRows

end
-- ==== Proof.LibBcastInDim.lean ====
/-
  `broadcast_in_dim` of small ranks read at an index.

  The host's `broadcast_in_dim` names, for each axis of its operand, the axis of the result it is laid along. Read at
  an index of the result:

  * a scalar broadcast to any shape reads the scalar (`scalar_apply`);
  * an `[a, 1]` column laid along axes `[0, 1]` of `[a, b]` reads, at `(p, q)`, the column at `(p, 0)` (`col_apply`);
  * a `[1, b]` row laid along axes `[0, 1]` of `[a, b]` reads, at `(p, q)`, the row at `(0, q)` (`row_apply`);
  * an `[a]` vector laid along axis `0` of `[a, 1]` reads, at `(p, u)`, the vector at `p` (`vec_col_apply`);
  * a `[b]` vector laid along axis `1` of `[1, b]` reads, at `(u, q)`, the vector at `q` (`vec_row_apply`).

  All are generic in the extents and the element type; the axis map is a variable with its values as hypotheses,
  so that a map spelt as a literal vector discharges them by `rfl`.
-/
import Idealize.ShloMosaic.Lib.Pipeline.Value
import Idealize.ShloMosaic.Lib.ValueIdx

namespace Cert.LibBcastInDim

open Idealize.ShloMosaic Idealize.ShloMosaic.ValueIdx

variable {α : Type}

/-- A scalar broadcast to any shape reads the scalar, at whatever index the scalar's empty index is written. -/
theorem scalar_apply {t : Shape} (dims : Fin 0 → Fin t.rank) (h : (⟨0, ![]⟩ : Shape).BroadcastsInDim t dims)
    (x : (⟨0, ![]⟩ : Shape).Idx → α) (j : t.Idx) (k : (⟨0, ![]⟩ : Shape).Idx) :
    broadcastInDim t dims h x j = x k :=
  broadcastInDim_apply dims h x j k fun ax => ax.elim0

/-- An `[a, 1]` column laid along axes `[0, 1]` of `[a, b]`. -/
theorem col_apply {a b : ℕ} (dims : Fin 2 → Fin 2) (hd0 : dims 0 = 0) (hd1 : dims 1 = 1)
    (h : (⟨2, ![a, 1]⟩ : Shape).BroadcastsInDim ⟨2, ![a, b]⟩ dims) (x : (⟨2, ![a, 1]⟩ : Shape).Idx → α)
    (p : Fin a) (q : Fin b) :
    broadcastInDim ⟨2, ![a, b]⟩ dims h x (ix2 p q) = x (ix2 p (0 : Fin 1)) := by
  refine broadcastInDim_apply dims h x (ix2 p q) (ix2 p (0 : Fin 1)) fun ax => ?_
  match ax with
  | ⟨0, _⟩ =>
    show p.val = if a = 1 then 0 else ((ix2 p q) (dims 0)).val
    rw [hd0]
    show p.val = if a = 1 then 0 else p.val
    split
    · have := p.isLt; omega
    · rfl
  | ⟨1, _⟩ => rfl

/-- A `[1, b]` row laid along axes `[0, 1]` of `[a, b]`. -/
theorem row_apply {a b : ℕ} (dims : Fin 2 → Fin 2) (hd0 : dims 0 = 0) (hd1 : dims 1 = 1)
    (h : (⟨2, ![1, b]⟩ : Shape).BroadcastsInDim ⟨2, ![a, b]⟩ dims) (x : (⟨2, ![1, b]⟩ : Shape).Idx → α)
    (p : Fin a) (q : Fin b) :
    broadcastInDim ⟨2, ![a, b]⟩ dims h x (ix2 p q) = x (ix2 (0 : Fin 1) q) := by
  refine broadcastInDim_apply dims h x (ix2 p q) (ix2 (0 : Fin 1) q) fun ax => ?_
  match ax with
  | ⟨0, _⟩ => rfl
  | ⟨1, _⟩ =>
    show q.val = if b = 1 then 0 else ((ix2 p q) (dims 1)).val
    rw [hd1]
    show q.val = if b = 1 then 0 else q.val
    split
    · have := q.isLt; omega
    · rfl

/-- An `[a]` vector laid along axis `0` of `[a, 1]`. -/
theorem vec_col_apply {a : ℕ} (dims : Fin 1 → Fin 2) (hd : dims 0 = 0)
    (h : (⟨1, ![a]⟩ : Shape).BroadcastsInDim ⟨2, ![a, 1]⟩ dims) (x : (⟨1, ![a]⟩ : Shape).Idx → α)
    (p : Fin a) (u : Fin 1) :
    broadcastInDim ⟨2, ![a, 1]⟩ dims h x (ix2 p u) = x (ix1 p) := by
  refine broadcastInDim_apply dims h x (ix2 p u) (ix1 p) fun ax => ?_
  match ax with
  | ⟨0, _⟩ =>
    show p.val = if a = 1 then 0 else ((ix2 p u) (dims 0)).val
    rw [hd]
    show p.val = if a = 1 then 0 else p.val
    split
    · have := p.isLt; omega
    · rfl

/-- A `[b]` vector laid along axis `1` of `[1, b]`. -/
theorem vec_row_apply {b : ℕ} (dims : Fin 1 → Fin 2) (hd : dims 0 = 1)
    (h : (⟨1, ![b]⟩ : Shape).BroadcastsInDim ⟨2, ![1, b]⟩ dims) (x : (⟨1, ![b]⟩ : Shape).Idx → α)
    (u : Fin 1) (q : Fin b) :
    broadcastInDim ⟨2, ![1, b]⟩ dims h x (ix2 u q) = x (ix1 q) := by
  refine broadcastInDim_apply dims h x (ix2 u q) (ix1 q) fun ax => ?_
  match ax with
  | ⟨0, _⟩ =>
    show q.val = if b = 1 then 0 else ((ix2 u q) (dims 0)).val
    rw [hd]
    show q.val = if b = 1 then 0 else q.val
    split
    · have := q.isLt; omega
    · rfl

end Cert.LibBcastInDim
-- ==== Proof.RefLookup.lean ====
/-
  What the reference computes, entry by entry.  A look-up (jnp.take in its default mode) of row numbers `i` in a table
  of N rows first shifts a negative row number by N, then returns the table's row where the shifted number lies in
  [0, N - 1] and NaN elsewhere.  Where every row number already lies in [0, N - 1] — which the precondition says of all
  three index lists — no shift happens, no entry is NaN, and entry (e, c) of the look-up is the table at (i e, c).  The
  reference's result at (e, c) is then |P (h e, c) + R (r e, c) - P (t e, c)|.
-/
import proofs.«202666_g58660663329007_cont_9to1_m_1270_26_alg».proof.Proof.RefRun
import proofs.«202666_g58660663329007_cont_9to1_m_1270_26_alg».proof.Proof.LibGatherScatterRows
import proofs.«202666_g58660663329007_cont_9to1_m_1270_26_alg».proof.Proof.LibBcastInDim
import Idealize.ShloMosaic.Lib.ValueIdx
import Idealize.ShloMosaic.Lib.Pipeline.Value
import Idealize.ShloMosaic.Lib.Affine

noncomputable section

namespace Cert.ReferenceIdeal.RefLookup

open Cert.ReferenceIdeal Cert.ReferenceIdeal.Gen Idealize.ShloMosaic Idealize.ShloMosaic.TcCoe Idealize.SL.Sem Idealize.ShloMosaic.StableHlo
open Idealize.ShloMosaic.ValueIdx Cert.LibGatherScatterRows

/-- A fold by `and` over one-bit words that starts at 1 and meets only 1s ends at 1. -/
theorem foldl_andi_ones {ι : Type} (x : ι → BitVec 1) :
    ∀ (l : List ι) (init : BitVec 1), init = 1#1 → (∀ n ∈ l, x n = 1#1) → l.foldl (fun r n => IntOp.andi r (x n)) init = 1#1
  | [], _, h, _ => h
  | a :: l, init, h, hx => by
    rw [List.foldl_cons]
    exact foldl_andi_ones x l _ (IntOp.andi_eq_one.mpr ⟨h, hx a List.mem_cons_self⟩) (fun n hn => hx n (List.mem_cons_of_mem _ hn))

/-- An `[a]` vector laid along axis 0 of `[a, b]`: entry (p, q) is the vector's entry p. -/
theorem vec_rows_apply {α : Type} {a b : ℕ} (dims : Fin 1 → Fin 2) (hd : dims 0 = 0)
    (h : (⟨1, ![a]⟩ : Shape).BroadcastsInDim ⟨2, ![a, b]⟩ dims) (x : (⟨1, ![a]⟩ : Shape).Idx → α) (p : Fin a) (q : Fin b) :
    broadcastInDim ⟨2, ![a, b]⟩ dims h x (ix2 p q) = x (ix1 p) := by
  refine broadcastInDim_apply dims h x (ix2 p q) (ix1 p) fun ax => ?_
  match ax with
  | ⟨0, _⟩ =>
    show p.val = if a = 1 then 0 else ((ix2 p q) (dims 0)).val
    rw [hd]
    show p.val = if a = 1 then 0 else p.val
    split
    · have := p.isLt; omega
    · rfl

section Lookup

variable {α : Type} {N : ℕ} [NeZero N]
  (hb0 : S_.BroadcastsInDim S16384 (![] : Fin 0 → Fin S16384.rank))
  (hb1 : S16384.BroadcastsInDim S16384x1 (![0] : Fin 1 → Fin S16384x1.rank))
  (hb2 : S_.BroadcastsInDim S16384x1 (![] : Fin 0 → Fin S16384x1.rank))
  (hb3 : S1.BroadcastsInDim S1x1 (![1] : Fin 1 → Fin S1x1.rank))
  (hb4 : S1x1.BroadcastsInDim S16384x1 (![0, 1] : Fin 2 → Fin S16384x1.rank))
  (hr : S16384x1.ReducesTo [1] S16384) (hS : 0 < S_.numel)
  (hb5 : S16384.BroadcastsInDim S16384x64 (![0] : Fin 1 → Fin S16384x64.rank))
  (hb6 : S_.BroadcastsInDim S16384x64 (![] : Fin 0 → Fin S16384x64.rank))
  (D : GatherDims ⟨2, ![N, 64]⟩ S16384x1 S16384x64)

/-- The row numbers after the shift of the negative ones by the word `cN`, as a column. -/
def shifted (cN : BitVec 32) (i : IVec S16384 32) : IVec S16384x1 32 :=
  broadcastInDim S16384x1 ![0] hb1
    (select (cmpi .slt i (broadcastInDim S16384 ![] hb0 (constantI S_ 32 0#32))) (addi i (broadcastInDim S16384 ![] hb0 (constantI S_ 32 cN))) i)

/-- One look-up, as the text of `jnp.take` computes it. -/
def lookup (cN cM : BitVec 32) (nanv : S_.Idx → α) (x : (⟨2, ![N, 64]⟩ : Shape).Idx → α) (i : IVec S16384 32) : S16384x64.Idx → α :=
  select
    (broadcastInDim S16384x64 ![0] hb5
      (Host.reduce IntOp.andi
        (andi (cmpi .sge (shifted hb0 hb1 cN i) (broadcastInDim S16384x1 ![] hb2 (constantI S_ 32 0#32)))
          (cmpi .sle (shifted hb0 hb1 cN i) (broadcastInDim S16384x1 ![0, 1] hb4 (broadcastInDim S1x1 ![1] hb3 (constantI S1 32 cM)))))
        (constantI S_ 1 1#1) hr hS))
    (Host.gather D x (shifted hb0 hb1 cN i))
    (broadcastInDim S16384x64 ![] hb6 nanv)

/-- A row number that is not negative is not shifted. -/
theorem shifted_apply (cN : BitVec 32) (i : IVec S16384 32) (e : Fin 16384) (u : Fin 1) (h0 : 0 ≤ (i (ix1 e)).toInt) :
    shifted hb0 hb1 cN i (ix2 e u) = i (ix1 e) := by
  unfold shifted
  rw [Cert.LibBcastInDim.vec_col_apply (![0] : Fin 1 → Fin 2) rfl hb1 _ e u, select_apply]
  have hc : cmpi .slt i (broadcastInDim S16384 ![] hb0 (constantI S_ 32 0#32)) (ix1 e) = 0#1 := by
    apply eq_zero_of_ne_one
    intro hlt
    have := (IntOp.cmpi_slt (x := i (ix1 e)) (y := 0#32)).mp (by
      have e0 : broadcastInDim S16384 ![] hb0 (constantI S_ 32 0#32) (ix1 e) = 0#32 :=
        Cert.LibBcastInDim.scalar_apply _ hb0 _ _ ix0
      rw [← e0]; exact hlt)
    have hz : (0#32 : BitVec 32).toInt = 0 := by decide
    omega
  rw [hc, select_zero]

/-- Where every row number lies in [0, M] (M the word `cM` read signed, below N) the look-up's entry (e, c) is the
    table's entry (i e, c). -/
theorem lookup_apply (ho : D.offsetDims = [1]) (hc : D.collapsedSliceDims = [0]) (hob : D.operandBatchingDims = [])
    (hm : D.startIndexMap = [0]) (hv : D.indexVectorDim = 1)
    (cN cM : BitVec 32) (nanv : S_.Idx → α) (x : (⟨2, ![N, 64]⟩ : Shape).Idx → α) (i : IVec S16384 32)
    (hi : ∀ e : Fin 16384, 0 ≤ (i (ix1 e)).toInt ∧ (i (ix1 e)).toInt ≤ cM.toInt) (e : Fin 16384) (c : Fin 64) :
    lookup hb0 hb1 hb2 hb3 hb4 hr hS hb5 hb6 D cN cM nanv x i (ix2 e c) = x (ix2 (clampRow N (i (ix1 e))) c) := by
  unfold lookup
  rw [select_apply, vec_rows_apply (![0] : Fin 1 → Fin 2) rfl hb5 _ e c]
  have hmask : Host.reduce IntOp.andi
        (andi (cmpi .sge (shifted hb0 hb1 cN i) (broadcastInDim S16384x1 ![] hb2 (constantI S_ 32 0#32)))
          (cmpi .sle (shifted hb0 hb1 cN i) (broadcastInDim S16384x1 ![0, 1] hb4 (broadcastInDim S1x1 ![1] hb3 (constantI S1 32 cM)))))
        (constantI S_ 1 1#1) hr hS (ix1 e) = 1#1 := by
    rw [Host.reduce_eq_foldl]
    refine foldl_andi_ones _ _ _ rfl fun n _ => ?_
    obtain ⟨p, u, rfl⟩ : ∃ (p : Fin 16384) (u : Fin 1), n = ix2 p u := ⟨n 0, n 1, eq_ix2 n⟩
    refine IntOp.andi_eq_one.mpr ⟨?_, ?_⟩
    · show IntOp.cmpi .sge (shifted hb0 hb1 cN i (ix2 p u)) (broadcastInDim S16384x1 ![] hb2 (constantI S_ 32 0#32) (ix2 p u)) = 1#1
      rw [shifted_apply hb0 hb1 cN i p u (hi p).1, Cert.LibBcastInDim.scalar_apply _ hb2 _ _ ix0]
      refine IntOp.cmpi_sge.mpr ?_
      have hz : (constantI S_ 32 0#32 ix0).toInt = 0 := by decide
      rw [hz]; exact (hi p).1
    · show IntOp.cmpi .sle (shifted hb0 hb1 cN i (ix2 p u))
        (broadcastInDim S16384x1 ![0, 1] hb4 (broadcastInDim S1x1 ![1] hb3 (constantI S1 32 cM)) (ix2 p u)) = 1#1
      rw [shifted_apply hb0 hb1 cN i p u (hi p).1, Cert.LibBcastInDim.row_apply (![0, 1] : Fin 2 → Fin 2) rfl rfl hb4 _ p u,
        Cert.LibBcastInDim.vec_row_apply (![1] : Fin 1 → Fin 2) rfl hb3 _ (0 : Fin 1) u]
      exact IntOp.cmpi_sle.mpr (hi p).2
  rw [hmask, select_one, gatherRows2 D ho hc hob hm hv x _ e c, shifted_apply hb0 hb1 cN i e 0 (hi e).1]

end Lookup

variable {F : FTy → Type} [FloatOps F]

/-- The reference's result as one term of its five arguments. -/
def refOut (P : (⟨S1000000x64, .f32⟩ : BufTy).Contents (Elt F)) (R : (⟨S100x64, .f32⟩ : BufTy).Contents (Elt F))
    (h t r : (⟨S16384, .i32⟩ : BufTy).Contents (Elt F)) : (⟨S16384x64, .f32⟩ : BufTy).Contents (Elt F) :=
  Host.absf (subf
    (addf (lookup bcast_S_S16384 bcast_S16384_S16384x1_0 bcast_S_S16384x1 bcast_S1_S1x1_1 bcast_S1x1_S16384x1_0_1 reducesTo_S16384x1_S16384_d1 h_S_
            bcast_S16384_S16384x64_0 bcast_S_S16384x64 gather_S1000000x64_S16384x1_S16384x64_1_0_n_n_0_1_164 1000000#32 999999#32
            (constant S_ .f32 0x7FC00000#32) P h)
          (lookup bcast_S_S16384 bcast_S16384_S16384x1_0 bcast_S_S16384x1 bcast_S1_S1x1_1 bcast_S1x1_S16384x1_0_1 reducesTo_S16384x1_S16384_d1 h_S_
            bcast_S16384_S16384x64_0 bcast_S_S16384x64 gather_S100x64_S16384x1_S16384x64_1_0_n_n_0_1_164 100#32 99#32
            (constant S_ .f32 0x7FC00000#32) R r))
    (lookup bcast_S_S16384 bcast_S16384_S16384x1_0 bcast_S_S16384x1 bcast_S1_S1x1_1 bcast_S1x1_S16384x1_0_1 reducesTo_S16384x1_S16384_d1 h_S_
            bcast_S16384_S16384x64_0 bcast_S_S16384x64 gather_S1000000x64_S16384x1_S16384x64_1_0_n_n_0_1_164 1000000#32 999999#32
            (constant S_ .f32 0x7FC00000#32) P t))

end Cert.ReferenceIdeal.RefLookup

end
-- ==== Proof.RefValue.lean ====
/-
  The reference's run with its result named: the operations' fold at the result buffer is the composed term `refOut` of
  the five arguments' launch contents, and the arguments end as they began.
-/
import proofs.«202666_g58660663329007_cont_9to1_m_1270_26_alg».proof.Proof.RefLookup

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.RefLookup

variable {F : FTy → Type} [FloatOps F]

set_option maxRecDepth 400000 in
set_option maxHeartbeats 8000000 in
/-- The operations' fold at the result buffer is `refOut` of the launch contents of the five arguments. -/
theorem out_eq (V : Valuation τ sig (Elt F)) :
    after (RefRun.ops (F := F)) V (main_v5 : DevRef τ sig)
      = refOut (V (main_arg0 : DevRef τ sig)) (V (main_arg1 : DevRef τ sig)) (V (main_arg2 : DevRef τ sig))
          (V (main_arg3 : DevRef τ sig)) (V (main_arg4 : DevRef τ sig)) := by
  after_results_simp
  rfl

set_option maxRecDepth 16384 in
set_option maxHeartbeats 4000000 in
theorem arg0_eq (V : Valuation τ sig (Elt F)) : after (RefRun.ops (F := F)) V (main_arg0 : DevRef τ sig) = V (main_arg0 : DevRef τ sig) := by
  after_results_simp
set_option maxRecDepth 16384 in
set_option maxHeartbeats 4000000 in
theorem arg1_eq (V : Valuation τ sig (Elt F)) : after (RefRun.ops (F := F)) V (main_arg1 : DevRef τ sig) = V (main_arg1 : DevRef τ sig) := by
  after_results_simp
set_option maxRecDepth 16384 in
set_option maxHeartbeats 4000000 in
theorem arg2_eq (V : Valuation τ sig (Elt F)) : after (RefRun.ops (F := F)) V (main_arg2 : DevRef τ sig) = V (main_arg2 : DevRef τ sig) := by
  after_results_simp
set_option maxRecDepth 16384 in
set_option maxHeartbeats 4000000 in
theorem arg3_eq (V : Valuation τ sig (Elt F)) : after (RefRun.ops (F := F)) V (main_arg3 : DevRef τ sig) = V (main_arg3 : DevRef τ sig) := by
  after_results_simp
set_option maxRecDepth 16384 in
set_option maxHeartbeats 4000000 in
theorem arg4_eq (V : Valuation τ sig (Elt F)) : after (RefRun.ops (F := F)) V (main_arg4 : DevRef τ sig) = V (main_arg4 : DevRef τ sig) := by
  after_results_simp

/-- Every weakly fair execution of the reference ends with the result at `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v5)
          = refOut (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨(h c main_v5).trans (out_eq _), (h c main_arg0).trans (arg0_eq _), (h c main_arg1).trans (arg1_eq _),
        (h c main_arg2).trans (arg2_eq _), (h c main_arg3).trans (arg3_eq _), (h c main_arg4).trans (arg4_eq _)⟩)
    (RefRun.run_ops m ρ)

end Cert.ReferenceIdeal.RefValue

end
-- ==== Proof.Bridge.lean ====
/-
  The two programs compute one function.  The kernel's result at (b, d) is, lane by lane, |X (rho_h, kappa_h + d) +
  R2 (rho_r, kappa_r + d) - X (rho_t, kappa_t + d)| over the packed tables; packed position (rho_v, kappa_v + d) of the big
  table holds entry (v, d) of the table itself, and packed position (v / 2, 64 (v % 2) + d) of the small table holds its entry
  (v, d); the reference looks the same three entries up directly.  No law of arithmetic is involved: both sides are the one
  expression |a + r - t| of the same three table entries.
-/
import proofs.«202666_g58660663329007_cont_9to1_m_1270_26_alg».proof.KernelIdeal
import proofs.«202666_g58660663329007_cont_9to1_m_1270_26_alg».proof.Proof.Gen.KernelIdeal
import proofs.«202666_g58660663329007_cont_9to1_m_1270_26_alg».proof.Proof.Spec
import proofs.«202666_g58660663329007_cont_9to1_m_1270_26_alg».proof.Proof.RefLookup
import Idealize.ShloMosaic.Lib.Pipeline.Value
import Idealize.ShloMosaic.Lib.ValueIdx

noncomputable section

namespace Cert.Bridge

open Idealize.ShloMosaic Idealize.ShloMosaic.ValueIdx Cert.Spec Cert.LibGatherScatterRows
open Cert.KernelIdeal Cert.KernelIdeal.Gen

/-- A row number inside the table is read, clamped, as itself. -/
theorem clampRow_val {N : ℕ} [NeZero N] (v : BitVec 32) (h0 : 0 ≤ v.toInt) (h1 : v.toInt ≤ (N : Int) - 1) :
    (clampRow N v).val = v.toNat := by
  show min v.toInt.toNat (N - 1) = v.toNat
  rw [BitVec.toInt_eq_toNat_cond] at h0 h1 ⊢
  split at h0 <;> omega

/-- |a + r - t| on the extended reals. -/
abbrev g3 (a r t : Ideal .f32) : Ideal .f32 := FloatOps.absf (FloatOps.subf (FloatOps.addf a r) t)

/-- The kernel's result as one term of its five arguments: the table transposed and packed, the small table reshaped,
    the score, transposed back. -/
def kernOut (P : FVec Ideal S1000000x64 .f32) (R : FVec Ideal S100x64 .f32) (h t r : IVec S16384 32) : FVec Ideal S16384x64 .f32 :=
  transpose S16384x64 [1, 0]
    (scoreT g3 (packT (transpose S64x1000000 [1, 0] P transposes_S1000000x64_S64x1000000_1_0))
      (fun i => shapeCast S50x128 R shapeCasts_S100x64_S50x128 i) h t r)
    transposes_S64x16384_S16384x64_1_0

/-- Packed position (physRow v, physCol v + d) of the packed transposed table is entry (v, d) of the table. -/
theorem packed_big (P : FVec Ideal S1000000x64 .f32) (v : ℕ) (hv : v < 1000000) (d : Fin 64) :
    packT (transpose S64x1000000 [1, 0] P transposes_S1000000x64_S64x1000000_1_0)
        (ix2 (ixMod 500000 (physRow v)) (ixMod 128 (physCol v + d.val)))
      = P (ix2 (⟨v, hv⟩ : Fin 1000000) d) := by
  unfold packT
  rw [ixMod_of_lt (physRow_lt hv), ixMod_of_lt (physCol_add_lt v d.isLt)]
  show transpose S64x1000000 [1, 0] P transposes_S1000000x64_S64x1000000_1_0
      (ix2 (ixMod 64 (physCol v + d.val)) (ixMod 1000000 (unpackRow (physRow v) (physCol v + d.val)))) = _
  have e1 : ixMod 64 (physCol v + d.val) = d := Fin.ext (phys_lane v d.val d.isLt)
  have e2 : ixMod 1000000 (unpackRow (physRow v) (physCol v + d.val)) = (⟨v, hv⟩ : Fin 1000000) :=
    Fin.ext (by show unpackRow (physRow v) (physCol v + d.val) % 1000000 = v; rw [unpackRow_phys v d.val d.isLt]; exact Nat.mod_eq_of_lt hv)
  rw [e1, e2]
  refine transpose_apply [1, 0] P _ _ (ix2 (⟨v, hv⟩ : Fin 1000000) d) fun b => ?_
  match b with
  | ⟨0, _⟩ => rfl
  | ⟨1, _⟩ => rfl

/-- Packed position (v / 2, 64 (v % 2) + d) of the reshaped small table is entry (v, d) of the table. -/
theorem packed_small (R : FVec Ideal S100x64 .f32) (v : ℕ) (hv : v < 100) (d : Fin 64) :
    (fun i => shapeCast S50x128 R shapeCasts_S100x64_S50x128 i) (ix2 (ixMod 50 (relRow v)) (ixMod 128 (relCol v + d.val)))
      = R (ix2 (⟨v, hv⟩ : Fin 100) d) := by
  rw [ixMod_of_lt (relRow_lt hv), ixMod_of_lt (relCol_add_lt v d.isLt)]
  refine shapeCast_apply R _ _ (ix2 (⟨v, hv⟩ : Fin 100) d) ?_
  rw [Shape.rowMajor_val_two, Shape.rowMajor_val_two]
  show v * 64 + d.val = relRow v * 128 + (relCol v + d.val)
  unfold relRow relCol; omega

/-- The kernel's term and the reference's term are one function of the five arguments, where the index lists are in range. -/
theorem kernOut_eq_refOut (P : FVec Ideal S1000000x64 .f32) (R : FVec Ideal S100x64 .f32) (h t r : IVec S16384 32)
    (hh : ∀ j, 0 ≤ (h j).toInt ∧ (h j).toInt ≤ 999999) (ht : ∀ j, 0 ≤ (t j).toInt ∧ (t j).toInt ≤ 999999)
    (hr : ∀ j, 0 ≤ (r j).toInt ∧ (r j).toInt ≤ 99)
    (hh' : ∀ j, (h j).toNat < 1000000) (ht' : ∀ j, (t j).toNat < 1000000) (hr' : ∀ j, (r j).toNat < 100) :
    kernOut P R h t r = Cert.ReferenceIdeal.RefLookup.refOut (F := Ideal) P R h t r := by
  funext j
  obtain ⟨b, d, rfl⟩ : ∃ (b : Fin 16384) (d : Fin 64), j = ix2 b d := ⟨j 0, j 1, eq_ix2 j⟩
  unfold kernOut
  rw [transpose_apply [1, 0] _ transposes_S64x16384_S16384x64_1_0 (ix2 b d) (ix2 d b) (fun a => by
    match a with
    | ⟨0, _⟩ => rfl
    | ⟨1, _⟩ => rfl)]
  show g3 (packT (transpose S64x1000000 [1, 0] P transposes_S1000000x64_S64x1000000_1_0)
        (ix2 (ixMod 500000 (physRow (h (ix1 b)).toNat)) (ixMod 128 (physCol (h (ix1 b)).toNat + d.val))))
      ((fun i => shapeCast S50x128 R shapeCasts_S100x64_S50x128 i)
        (ix2 (ixMod 50 (relRow (r (ix1 b)).toNat)) (ixMod 128 (relCol (r (ix1 b)).toNat + d.val))))
      (packT (transpose S64x1000000 [1, 0] P transposes_S1000000x64_S64x1000000_1_0)
        (ix2 (ixMod 500000 (physRow (t (ix1 b)).toNat)) (ixMod 128 (physCol (t (ix1 b)).toNat + d.val)))) = _
  rw [packed_big P _ (hh' (ix1 b)) d, packed_big P _ (ht' (ix1 b)) d, packed_small R _ (hr' (ix1 b)) d]
  unfold Cert.ReferenceIdeal.RefLookup.refOut
  show _ = FloatOps.absf (FloatOps.subf (FloatOps.addf
      (Cert.ReferenceIdeal.RefLookup.lookup _ _ _ _ _ _ _ _ _ _ 1000000#32 999999#32 _ P h (ix2 b d))
      (Cert.ReferenceIdeal.RefLookup.lookup _ _ _ _ _ _ _ _ _ _ 100#32 99#32 _ R r (ix2 b d)))
      (Cert.ReferenceIdeal.RefLookup.lookup _ _ _ _ _ _ _ _ _ _ 1000000#32 999999#32 _ P t (ix2 b d)))
  have m1 : (999999#32 : BitVec 32).toInt = 999999 := by decide
  have m2 : (99#32 : BitVec 32).toInt = 99 := by decide
  rw [Cert.ReferenceIdeal.RefLookup.lookup_apply _ _ _ _ _ _ _ _ _ _ rfl rfl rfl rfl rfl _ _ _ P h (fun e => by rw [m1]; exact hh (ix1 e)) b d,
    Cert.ReferenceIdeal.RefLookup.lookup_apply _ _ _ _ _ _ _ _ _ _ rfl rfl rfl rfl rfl _ _ _ R r (fun e => by rw [m2]; exact hr (ix1 e)) b d,
    Cert.ReferenceIdeal.RefLookup.lookup_apply _ _ _ _ _ _ _ _ _ _ rfl rfl rfl rfl rfl _ _ _ P t (fun e => by rw [m1]; exact ht (ix1 e)) b d]
  have eh : clampRow 1000000 (h (ix1 b)) = (⟨(h (ix1 b)).toNat, hh' (ix1 b)⟩ : Fin 1000000) :=
    Fin.ext (clampRow_val _ (hh (ix1 b)).1 (by have := (hh (ix1 b)).2; omega))
  have et : clampRow 1000000 (t (ix1 b)) = (⟨(t (ix1 b)).toNat, ht' (ix1 b)⟩ : Fin 1000000) :=
    Fin.ext (clampRow_val _ (ht (ix1 b)).1 (by have := (ht (ix1 b)).2; omega))
  have er : clampRow 100 (r (ix1 b)) = (⟨(r (ix1 b)).toNat, hr' (ix1 b)⟩ : Fin 100) :=
    Fin.ext (clampRow_val _ (hr (ix1 b)).1 (by have := (hr (ix1 b)).2; omega))
  rw [eh, et, er]

end Cert.Bridge

end
-- ==== Proof.PreIdx.lean ====
/-
  What the precondition says of the three index lists.  The precondition is the conjunction, over all entries, of
  "the big table is finite", "the small table is finite", 0 ≤ h ≤ 999999, 0 ≤ t ≤ 999999, 0 ≤ r ≤ 99 (signed), each an
  `and`-reduction that came out 1.  Read back: every entry of h and t is a row number of the big table, every entry of r a
  row number of the small one; read unsigned they are below 1000000 and 100.
-/
import proofs.«202666_g58660663329007_cont_9to1_m_1270_26_alg».proof.Pre_input_domain
import proofs.«202666_g58660663329007_cont_9to1_m_1270_26_alg».proof.Proof.Gen.Pre_input_domain
import proofs.«202666_g58660663329007_cont_9to1_m_1270_26_alg».proof.Proof.LibBcastInDim
import Idealize.ShloMosaic.Lib.ReduceAll
import Idealize.ShloMosaic.Lib.ValueIdx

noncomputable section

namespace Cert.PreIdx

open Cert.Pre_input_domain Cert.Pre_input_domain.Gen Idealize.ShloMosaic Idealize.ShloMosaic.ValueIdx

instance : Subsingleton S_.Idx := ⟨fun a b => funext fun d => d.elim0⟩

/-- A signed word in [0, N] with N below 2^31 is, unsigned, at most N. -/
theorem toNat_le_of_toInt {v : BitVec 32} {N : ℕ} (h0 : 0 ≤ v.toInt) (h1 : v.toInt ≤ (N : Int)) : v.toNat ≤ N := by
  rw [BitVec.toInt_eq_toNat_cond] at h0 h1
  split at h0 <;> omega

variable {F : FTy → Type} [FloatOps F]

/-- One range test read back: where the `and`-reduction of (lo ≤ x) ∧ (x ≤ hi) over a list came out 1, every entry lies in
    the signed range. -/
theorem range_of_all (x : IVec S16384 32) (lo hi : BitVec 32)
    (e : Host.reduce IntOp.andi
        (andi (cmpi .sge x (broadcastInDim S16384 ![] bcast_S_S16384 (constantI S_ 32 lo)))
          (cmpi .sle x (broadcastInDim S16384 ![] bcast_S_S16384 (constantI S_ 32 hi))))
        (constantI S_ 1 1#1) reducesTo_S16384_S_d0 h_S_ ix0 = 1#1) (j : S16384.Idx) :
    lo.toInt ≤ (x j).toInt ∧ (x j).toInt ≤ hi.toInt := by
  have hj := Host.reduce_andi_all _ _ _ _ ix0 e j
  obtain ⟨h1, h2⟩ := IntOp.andi_eq_one.mp hj
  have e1 : broadcastInDim S16384 ![] bcast_S_S16384 (constantI S_ 32 lo) j = lo :=
    Cert.LibBcastInDim.scalar_apply _ bcast_S_S16384 _ _ ix0
  have e2 : broadcastInDim S16384 ![] bcast_S_S16384 (constantI S_ 32 hi) j = hi :=
    Cert.LibBcastInDim.scalar_apply _ bcast_S_S16384 _ _ ix0
  constructor
  · have := IntOp.cmpi_sge.mp h1; rwa [e1] at this
  · have := IntOp.cmpi_sle.mp h2; rwa [e2] at this

/-- The precondition's three index ranges. -/
theorem ranges_of_pre (P : FVec F S1000000x64 .f32) (R : FVec F S100x64 .f32) (h t r : IVec S16384 32)
    (hpre : Cert.Pre_input_domain.fn (F := F) P R h t r = fun _ => 1#1) :
    (∀ j, 0 ≤ (h j).toInt ∧ (h j).toInt ≤ 999999) ∧ (∀ j, 0 ≤ (t j).toInt ∧ (t j).toInt ≤ 999999)
      ∧ (∀ j, 0 ≤ (r j).toInt ∧ (r j).toInt ≤ 99) := by
  have e := congrFun hpre ix0
  dsimp only [Cert.Pre_input_domain.fn, Cert.Pre_input_domain.fn_part1] at e
  obtain ⟨e1, er⟩ := IntOp.andi_eq_one.mp e
  obtain ⟨e2, et⟩ := IntOp.andi_eq_one.mp e1
  obtain ⟨-, eh⟩ := IntOp.andi_eq_one.mp e2
  have z : (0#32 : BitVec 32).toInt = 0 := by decide
  have m1 : (999999#32 : BitVec 32).toInt = 999999 := by decide
  have m2 : (99#32 : BitVec 32).toInt = 99 := by decide
  refine ⟨fun j => ?_, fun j => ?_, fun j => ?_⟩
  · have := range_of_all h 0#32 999999#32 eh j; rwa [z, m1] at this
  · have := range_of_all t 0#32 999999#32 et j; rwa [z, m1] at this
  · have := range_of_all r 0#32 99#32 er j; rwa [z, m2] at this

/-- The same, unsigned. -/
theorem toNat_of_pre (P : FVec F S1000000x64 .f32) (R : FVec F S100x64 .f32) (h t r : IVec S16384 32)
    (hpre : Cert.Pre_input_domain.fn (F := F) P R h t r = fun _ => 1#1) :
    (∀ j, (h j).toNat < 1000000) ∧ (∀ j, (t j).toNat < 1000000) ∧ (∀ j, (r j).toNat < 100) := by
  obtain ⟨hh, ht, hr⟩ := ranges_of_pre P R h t r hpre
  refine ⟨fun j => ?_, fun j => ?_, fun j => ?_⟩
  · have := toNat_le_of_toInt (N := 999999) (hh j).1 (hh j).2; omega
  · have := toNat_le_of_toInt (N := 999999) (ht j).1 (ht j).2; omega
  · have := toNat_le_of_toInt (N := 99) (hr j).1 (hr j).2; omega

end Cert.PreIdx

end
-- ==== Proof.lean ====
/-
  The proof of the claim.  The kernel looks up, for each of 16384 batch entries, a head and a tail row of a 1000000 x 64
  table and a relation row of a 100 x 64 table, and returns |head + relation - tail|; the reference does the same with
  three plain look-ups.  The kernel first repacks the big table, two rows to one row of 128 lanes, on the TensorCore, then
  32 SparseCore workers each gather the packed rows of 512 batch entries and read the right half of each by an indexed
  load; the result is written transposed and transposed back.

  Frames: each worker's body runs to its end from its read shares of the tables and index lists and its own columns of
  the result (KI/Tile*, KB/Tile*); the packing pipeline runs as a region of @main (KI/Region*, KB/Region*); the launch
  theorem for SparseCore programs composes them with @main's host operations (KI/Main, KI/Run).  The index ranges every
  indexed access needs come from the precondition (PreIdx).  The reference's run is its list of host operations (RefRun,
  RefValue).  Values: the kernel's result is one function of its five arguments (`resOf`), the reference's another
  (`refOut`); index by index both are |P (h b, d) + R (r b, d) - P (t b, d)| (Bridge): the packed position of a table row
  holds that row, and a look-up of a row number in range returns that row.  No rewrite of the idealization is involved.
-/
import proofs.«202666_g58660663329007_cont_9to1_m_1270_26_alg».proof.Defs
import proofs.«202666_g58660663329007_cont_9to1_m_1270_26_alg».proof.Proof.Gen.Kernel
import proofs.«202666_g58660663329007_cont_9to1_m_1270_26_alg».proof.Proof.Gen.KernelIdeal
import proofs.«202666_g58660663329007_cont_9to1_m_1270_26_alg».proof.Proof.Gen.ReferenceIdeal
import proofs.«202666_g58660663329007_cont_9to1_m_1270_26_alg».proof.Proof.Gen.Pre_input_domain
import proofs.«202666_g58660663329007_cont_9to1_m_1270_26_alg».proof.Proof.KI.Glue
import proofs.«202666_g58660663329007_cont_9to1_m_1270_26_alg».proof.Proof.KB.Glue
import proofs.«202666_g58660663329007_cont_9to1_m_1270_26_alg».proof.Proof.RefValue
import proofs.«202666_g58660663329007_cont_9to1_m_1270_26_alg».proof.Proof.Bridge
import proofs.«202666_g58660663329007_cont_9to1_m_1270_26_alg».proof.Proof.PreIdx
import Idealize.ShloMosaic.Adequacy
import Idealize.ShloMosaic.Init

noncomputable section

namespace Cert.Proof

open Idealize.ShloMosaic Idealize.SL.Sem
open Idealize.SL Idealize.SL.BI
open scoped Idealize.SL.BI

/-- The precondition gives the index ranges the kernel's proof asks of the launch memory (idealized program). -/
theorem okI (m : (ℓ : Loc Cert.KernelIdeal.nD Cert.KernelIdeal.τ Cert.KernelIdeal.sig) → Buf (Elt Ideal) ℓ)
    (h : Cert.Pre_KernelIdeal (hPre_input_domain := Cert.Pre_input_domain.Gen.facts) m) : Cert.KernelIdeal.Hand.PreOK m :=
  fun d => Cert.PreIdx.toNat_of_pre _ _ _ _ _ (h d)
/-- The same for the program as printed. -/
theorem okB (m : (ℓ : Loc Cert.Kernel.nD Cert.Kernel.τ Cert.Kernel.sig) → Buf (Elt Bits) ℓ)
    (h : Cert.Pre_Kernel (hPre_input_domain := Cert.Pre_input_domain.Gen.facts) m) : Cert.Kernel.Hand.PreOK m :=
  fun d => Cert.PreIdx.toNat_of_pre _ _ _ _ _ (h d)

theorem frame_p : Cert.frame_Kernel (hPre_input_domain := Cert.Pre_input_domain.Gen.facts) := fun m g hpre =>
  (θ_run Cert.Kernel.defs _ _).mono (fun _ h c => ⟨(h c).1, (h c).2.1, (h c).2.2.1, (h c).2.2.2.1, (h c).2.2.2.2.1⟩)
    (Cert.Kernel.Hand.run (F := Bits) m g (okB m hpre))

theorem frame_pi : Cert.frame_KernelIdeal (hPre_input_domain := Cert.Pre_input_domain.Gen.facts) := fun m g hpre =>
  (θ_run Cert.KernelIdeal.defs _ _).mono (fun _ h c => ⟨(h c).1, (h c).2.1, (h c).2.2.1, (h c).2.2.2.1, (h c).2.2.2.2.1⟩)
    (Cert.KernelIdeal.Hand.run (F := Ideal) m g (okI m hpre))

theorem frame_ri : Cert.frame_ReferenceIdeal (hPre_input_domain := Cert.Pre_input_domain.Gen.facts) := fun m g _ =>
  (θ_run Cert.ReferenceIdeal.defs _ _).mono (fun _ h c => (h c).2) (Cert.ReferenceIdeal.RefValue.run (F := Ideal) m g)

/-- Both programs end with the result at one function of the arguments: the kernel's `resOf`, which is the reference's
    `refOut` where the index lists are in range. -/
theorem algebraic : Cert.algebraic_KernelIdeal_ReferenceIdeal (hPre_input_domain := Cert.Pre_input_domain.Gen.facts) := by
  intro m g m' g' hpre hagree
  have hok := okI m hpre
  refine ⟨fun c => Cert.KernelIdeal.Hand.resOf m c, ?_, ?_⟩
  · exact (θ_run Cert.KernelIdeal.defs _ _).mono
      (fun _ h c => ⟨(h c).2.2.2.2.2, (h c).1, (h c).2.1, (h c).2.2.1, (h c).2.2.2.1, (h c).2.2.2.2.1⟩)
      (Cert.KernelIdeal.Hand.run (F := Ideal) m g hok)
  · refine (θ_run Cert.ReferenceIdeal.defs _ _).mono (fun _ h c => ⟨(h c).1.trans ?_, (h c).2⟩)
      (Cert.ReferenceIdeal.RefValue.run (F := Ideal) m' g')
    rw [(hagree c).1, (hagree c).2.1, (hagree c).2.2.1, (hagree c).2.2.2.1, (hagree c).2.2.2.2]
    obtain ⟨hh, ht, hr⟩ := Cert.PreIdx.ranges_of_pre _ _ _ _ _ (hpre c)
    exact (Cert.Bridge.kernOut_eq_refOut _ _ _ _ _ hh ht hr (hok c).1 (hok c).2.1 (hok c).2.2).symm

theorem claim : Cert.Claim :=
  ⟨Cert.Kernel.Gen.facts, Cert.KernelIdeal.Gen.facts, Cert.ReferenceIdeal.Gen.facts, Cert.Pre_input_domain.Gen.facts,
    frame_p, frame_pi, frame_ri, trivial, algebraic⟩

end Cert.Proof

end
